-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v338)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v338) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v397) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x11 : Shape := ⟨2, ![100000, 11]⟩
abbrev S2x1600000 : Shape := ⟨2, ![2, 1600000]⟩
abbrev S128x11 : Shape := ⟨2, ![128, 11]⟩
abbrev S128 : Shape := ⟨1, ![128]⟩
abbrev S128x128 : Shape := ⟨2, ![128, 128]⟩
abbrev S1x128 : Shape := ⟨2, ![1, 128]⟩
abbrev S1 : Shape := ⟨1, ![1]⟩
abbrev S8x44 : Shape := ⟨2, ![8, 44]⟩
abbrev S8 : Shape := ⟨1, ![8]⟩
abbrev S1x32 : Shape := ⟨2, ![1, 32]⟩
abbrev S8x77 : Shape := ⟨2, ![8, 77]⟩
abbrev S1x56 : Shape := ⟨2, ![1, 56]⟩
abbrev S1x3 : Shape := ⟨2, ![1, 3]⟩
abbrev S_ : Shape := ⟨0, ![]⟩

class Facts : Prop where
  bcast_S_S100000x11 : S_.BroadcastsInDim S100000x11 (![] : Fin 0 → Fin S100000x11.rank)
  reducesTo_S100000x11_S_d0_1 : S100000x11.ReducesTo [0, 1] S_
  h_S_ : 0 < S_.numel
  bcast_S_S128x11 : S_.BroadcastsInDim S128x11 (![] : Fin 0 → Fin S128x11.rank)
  reducesTo_S128x11_S_d0_1 : S128x11.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S1x128 : S_.BroadcastsInDim S1x128 (![] : Fin 0 → Fin S1x128.rank)
  reducesTo_S1x128_S_d0_1 : S1x128.ReducesTo [0, 1] S_
  bcast_S_S1 : S_.BroadcastsInDim S1 (![] : Fin 0 → Fin S1.rank)
  reducesTo_S1_S_d0 : S1.ReducesTo [0] S_
  bcast_S_S8x44 : S_.BroadcastsInDim S8x44 (![] : Fin 0 → Fin S8x44.rank)
  reducesTo_S8x44_S_d0_1 : S8x44.ReducesTo [0, 1] S_
  bcast_S_S8 : S_.BroadcastsInDim S8 (![] : Fin 0 → Fin S8.rank)
  reducesTo_S8_S_d0 : S8.ReducesTo [0] S_
  bcast_S_S1x32 : S_.BroadcastsInDim S1x32 (![] : Fin 0 → Fin S1x32.rank)
  reducesTo_S1x32_S_d0_1 : S1x32.ReducesTo [0, 1] S_
  bcast_S_S8x77 : S_.BroadcastsInDim S8x77 (![] : Fin 0 → Fin S8x77.rank)
  reducesTo_S8x77_S_d0_1 : S8x77.ReducesTo [0, 1] S_
  bcast_S_S1x56 : S_.BroadcastsInDim S1x56 (![] : Fin 0 → Fin S1x56.rank)
  reducesTo_S1x56_S_d0_1 : S1x56.ReducesTo [0, 1] S_
  bcast_S_S1x3 : S_.BroadcastsInDim S1x3 (![] : Fin 0 → Fin S1x3.rank)
  reducesTo_S1x3_S_d0_1 : S1x3.ReducesTo [0, 1] S_

variable [Facts]

def fn_part5 {F : FTy → Type} [FloatOps F] (main_arg19 : FVec F S1x3 .f32) (main_arg20 : FVec F S1 .f32) (main_v83 : IVec S_ 1) (main_v84 : FVec F S1 .f32) (main_cst_32 : FVec F S_ .f32) : IVec S_ 1 :=
  let main_v85 : FVec F S1 .f32 := broadcastInDim S1 ![] bcast_S_S1 main_cst_32
  let main_v86 : IVec S1 1 := cmpf .olt main_v84 main_v85
  let main_c_33 : IVec S_ 1 := constantI S_ 1 1#1
  let main_v87 : IVec S_ 1 := (fun x v => Host.reduce IntOp.andi x v reducesTo_S1_S_d0 h_S_) main_v86 main_c_33
  let main_v88 : IVec S_ 1 := andi main_v83 main_v87
  let main_v89 : FVec F S1x3 .f32 := Host.absf main_arg19
  let main_cst_34 : FVec F S_ .f32 := constant S_ .f32 0x7F800000#32
  let main_v90 : FVec F S1x3 .f32 := broadcastInDim S1x3 ![] bcast_S_S1x3 main_cst_34
  let main_v91 : IVec S1x3 1 := cmpf .olt main_v89 main_v90
  let main_c_35 : IVec S_ 1 := constantI S_ 1 1#1
  let main_v92 : IVec S_ 1 := (fun x v => Host.reduce IntOp.andi x v reducesTo_S1x3_S_d0_1 h_S_) main_v91 main_c_35
  let main_v93 : IVec S_ 1 := andi main_v88 main_v92
  let main_v94 : FVec F S1 .f32 := Host.absf main_arg20
  let main_cst_36 : FVec F S_ .f32 := constant S_ .f32 0x7F800000#32
  let main_v95 : FVec F S1 .f32 := broadcastInDim S1 ![] bcast_S_S1 main_cst_36
  let main_v96 : IVec S1 1 := cmpf .olt main_v94 main_v95
  let main_c_37 : IVec S_ 1 := constantI S_ 1 1#1
  let main_v97 : IVec S_ 1 := (fun x v => Host.reduce IntOp.andi x v reducesTo_S1_S_d0 h_S_) main_v96 main_c_37
  let main_v98 : IVec S_ 1 := andi main_v93 main_v97
  main_v98

def fn_part4 {F : FTy → Type} [FloatOps F] (main_arg15 : FVec F S8x77 .f32) (main_arg16 : FVec F S8 .f32) (main_arg17 : FVec F S1x56 .f32) (main_arg18 : FVec F S1 .f32) (main_arg19 : FVec F S1x3 .f32) (main_arg20 : FVec F S1 .f32) (main_v63 : IVec S_ 1) (main_v67 : IVec S_ 1) : IVec S_ 1 :=
  let main_v68 : IVec S_ 1 := andi main_v63 main_v67
  let main_v69 : FVec F S8x77 .f32 := Host.absf main_arg15
  let main_cst_26 : FVec F S_ .f32 := constant S_ .f32 0x7F800000#32
  let main_v70 : FVec F S8x77 .f32 := broadcastInDim S8x77 ![] bcast_S_S8x77 main_cst_26
  let main_v71 : IVec S8x77 1 := cmpf .olt main_v69 main_v70
  let main_c_27 : IVec S_ 1 := constantI S_ 1 1#1
  let main_v72 : IVec S_ 1 := (fun x v => Host.reduce IntOp.andi x v reducesTo_S8x77_S_d0_1 h_S_) main_v71 main_c_27
  let main_v73 : IVec S_ 1 := andi main_v68 main_v72
  let main_v74 : FVec F S8 .f32 := Host.absf main_arg16
  let main_cst_28 : FVec F S_ .f32 := constant S_ .f32 0x7F800000#32
  let main_v75 : FVec F S8 .f32 := broadcastInDim S8 ![] bcast_S_S8 main_cst_28
  let main_v76 : IVec S8 1 := cmpf .olt main_v74 main_v75
  let main_c_29 : IVec S_ 1 := constantI S_ 1 1#1
  let main_v77 : IVec S_ 1 := (fun x v => Host.reduce IntOp.andi x v reducesTo_S8_S_d0 h_S_) main_v76 main_c_29
  let main_v78 : IVec S_ 1 := andi main_v73 main_v77
  let main_v79 : FVec F S1x56 .f32 := Host.absf main_arg17
  let main_cst_30 : FVec F S_ .f32 := constant S_ .f32 0x7F800000#32
  let main_v80 : FVec F S1x56 .f32 := broadcastInDim S1x56 ![] bcast_S_S1x56 main_cst_30
  let main_v81 : IVec S1x56 1 := cmpf .olt main_v79 main_v80
  let main_c_31 : IVec S_ 1 := constantI S_ 1 1#1
  let main_v82 : IVec S_ 1 := (fun x v => Host.reduce IntOp.andi x v reducesTo_S1x56_S_d0_1 h_S_) main_v81 main_c_31
  let main_v83 : IVec S_ 1 := andi main_v78 main_v82
  let main_v84 : FVec F S1 .f32 := Host.absf main_arg18
  let main_cst_32 : FVec F S_ .f32 := constant S_ .f32 0x7F800000#32
  fn_part5 (F := F) main_arg19 main_arg20 main_v83 main_v84 main_cst_32

def fn_part3 {F : FTy → Type} [FloatOps F] (main_arg12 : FVec F S8 .f32) (main_arg13 : FVec F S1x32 .f32) (main_arg14 : FVec F S1 .f32) (main_arg15 : FVec F S8x77 .f32) (main_arg16 : FVec F S8 .f32) (main_arg17 : FVec F S1x56 .f32) (main_arg18 : FVec F S1 .f32) (main_arg19 : FVec F S1x3 .f32) (main_arg20 : FVec F S1 .f32) (main_v48 : IVec S_ 1) (main_v49 : FVec F S8x44 .f32) (main_v50 : FVec F S8x44 .f32) : IVec S_ 1 :=
  let main_v51 : IVec S8x44 1 := cmpf .olt main_v49 main_v50
  let main_c_19 : IVec S_ 1 := constantI S_ 1 1#1
  let main_v52 : IVec S_ 1 := (fun x v => Host.reduce IntOp.andi x v reducesTo_S8x44_S_d0_1 h_S_) main_v51 main_c_19
  let main_v53 : IVec S_ 1 := andi main_v48 main_v52
  let main_v54 : FVec F S8 .f32 := Host.absf main_arg12
  let main_cst_20 : FVec F S_ .f32 := constant S_ .f32 0x7F800000#32
  let main_v55 : FVec F S8 .f32 := broadcastInDim S8 ![] bcast_S_S8 main_cst_20
  let main_v56 : IVec S8 1 := cmpf .olt main_v54 main_v55
  let main_c_21 : IVec S_ 1 := constantI S_ 1 1#1
  let main_v57 : IVec S_ 1 := (fun x v => Host.reduce IntOp.andi x v reducesTo_S8_S_d0 h_S_) main_v56 main_c_21
  let main_v58 : IVec S_ 1 := andi main_v53 main_v57
  let main_v59 : FVec F S1x32 .f32 := Host.absf main_arg13
  let main_cst_22 : FVec F S_ .f32 := constant S_ .f32 0x7F800000#32
  let main_v60 : FVec F S1x32 .f32 := broadcastInDim S1x32 ![] bcast_S_S1x32 main_cst_22
  let main_v61 : IVec S1x32 1 := cmpf .olt main_v59 main_v60
  let main_c_23 : IVec S_ 1 := constantI S_ 1 1#1
  let main_v62 : IVec S_ 1 := (fun x v => Host.reduce IntOp.andi x v reducesTo_S1x32_S_d0_1 h_S_) main_v61 main_c_23
  let main_v63 : IVec S_ 1 := andi main_v58 main_v62
  let main_v64 : FVec F S1 .f32 := Host.absf main_arg14
  let main_cst_24 : FVec F S_ .f32 := constant S_ .f32 0x7F800000#32
  let main_v65 : FVec F S1 .f32 := broadcastInDim S1 ![] bcast_S_S1 main_cst_24
  let main_v66 : IVec S1 1 := cmpf .olt main_v64 main_v65
  let main_c_25 : IVec S_ 1 := constantI S_ 1 1#1
  let main_v67 : IVec S_ 1 := (fun x v => Host.reduce IntOp.andi x v reducesTo_S1_S_d0 h_S_) main_v66 main_c_25
  fn_part4 (F := F) main_arg15 main_arg16 main_arg17 main_arg18 main_arg19 main_arg20 main_v63 main_v67

def fn_part2 {F : FTy → Type} [FloatOps F] (main_arg8 : FVec F S1x128 .f32) (main_arg9 : FVec F S1x128 .f32) (main_arg10 : FVec F S1 .f32) (main_arg11 : FVec F S8x44 .f32) (main_arg12 : FVec F S8 .f32) (main_arg13 : FVec F S1x32 .f32) (main_arg14 : FVec F S1 .f32) (main_arg15 : FVec F S8x77 .f32) (main_arg16 : FVec F S8 .f32) (main_arg17 : FVec F S1x56 .f32) (main_arg18 : FVec F S1 .f32) (main_arg19 : FVec F S1x3 .f32) (main_arg20 : FVec F S1 .f32) (main_v33 : IVec S_ 1) : IVec S_ 1 :=
  let main_v34 : FVec F S1x128 .f32 := Host.absf main_arg8
  let main_cst_12 : FVec F S_ .f32 := constant S_ .f32 0x7F800000#32
  let main_v35 : FVec F S1x128 .f32 := broadcastInDim S1x128 ![] bcast_S_S1x128 main_cst_12
  let main_v36 : IVec S1x128 1 := cmpf .olt main_v34 main_v35
  let main_c_13 : IVec S_ 1 := constantI S_ 1 1#1
  let main_v37 : IVec S_ 1 := (fun x v => Host.reduce IntOp.andi x v reducesTo_S1x128_S_d0_1 h_S_) main_v36 main_c_13
  let main_v38 : IVec S_ 1 := andi main_v33 main_v37
  let main_v39 : FVec F S1x128 .f32 := Host.absf main_arg9
  let main_cst_14 : FVec F S_ .f32 := constant S_ .f32 0x7F800000#32
  let main_v40 : FVec F S1x128 .f32 := broadcastInDim S1x128 ![] bcast_S_S1x128 main_cst_14
  let main_v41 : IVec S1x128 1 := cmpf .olt main_v39 main_v40
  let main_c_15 : IVec S_ 1 := constantI S_ 1 1#1
  let main_v42 : IVec S_ 1 := (fun x v => Host.reduce IntOp.andi x v reducesTo_S1x128_S_d0_1 h_S_) main_v41 main_c_15
  let main_v43 : IVec S_ 1 := andi main_v38 main_v42
  let main_v44 : FVec F S1 .f32 := Host.absf main_arg10
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  let main_v49 : FVec F S8x44 .f32 := Host.absf main_arg11
  let main_cst_18 : FVec F S_ .f32 := constant S_ .f32 0x7F800000#32
  let main_v50 : FVec F S8x44 .f32 := broadcastInDim S8x44 ![] bcast_S_S8x44 main_cst_18
  fn_part3 (F := F) main_arg12 main_arg13 main_arg14 main_arg15 main_arg16 main_arg17 main_arg18 main_arg19 main_arg20 main_v48 main_v49 main_v50

def fn_part1 {F : FTy → Type} [FloatOps F] (main_arg5 : FVec F S128x128 .f32) (main_arg6 : FVec F S128x128 .f32) (main_arg7 : FVec F S128 .f32) (main_arg8 : FVec F S1x128 .f32) (main_arg9 : FVec F S1x128 .f32) (main_arg10 : FVec F S1 .f32) (main_arg11 : FVec F S8x44 .f32) (main_arg12 : FVec F S8 .f32) (main_arg13 : FVec F S1x32 .f32) (main_arg14 : FVec F S1 .f32) (main_arg15 : FVec F S8x77 .f32) (main_arg16 : FVec F S8 .f32) (main_arg17 : FVec F S1x56 .f32) (main_arg18 : FVec F S1 .f32) (main_arg19 : FVec F S1x3 .f32) (main_arg20 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_arg19 main_arg20 main_v33

def fn {F : FTy → Type} [FloatOps F] (main_arg0 : FVec F S100000x11 .f32) (main_arg1 : IVec S2x1600000 32) (main_arg2 : FVec F S128x11 .f32) (main_arg3 : FVec F S128x11 .f32) (main_arg4 : FVec F S128 .f32) (main_arg5 : FVec F S128x128 .f32) (main_arg6 : FVec F S128x128 .f32) (main_arg7 : FVec F S128 .f32) (main_arg8 : FVec F S1x128 .f32) (main_arg9 : FVec F S1x128 .f32) (main_arg10 : FVec F S1 .f32) (main_arg11 : FVec F S8x44 .f32) (main_arg12 : FVec F S8 .f32) (main_arg13 : FVec F S1x32 .f32) (main_arg14 : FVec F S1 .f32) (main_arg15 : FVec F S8x77 .f32) (main_arg16 : FVec F S8 .f32) (main_arg17 : FVec F S1x56 .f32) (main_arg18 : FVec F S1 .f32) (main_arg19 : FVec F S1x3 .f32) (main_arg20 : FVec F S1 .f32) : IVec S_ 1 :=
  let main_v0 : FVec F S100000x11 .f32 := Host.absf main_arg0
  let main_cst : FVec F S_ .f32 := constant S_ .f32 0x7F800000#32
  let main_v1 : FVec F S100000x11 .f32 := broadcastInDim S100000x11 ![] bcast_S_S100000x11 main_cst
  let main_v2 : IVec S100000x11 1 := cmpf .olt main_v0 main_v1
  let main_c : IVec S_ 1 := constantI S_ 1 1#1
  let main_v3 : IVec S_ 1 := (fun x v => Host.reduce IntOp.andi x v reducesTo_S100000x11_S_d0_1 h_S_) main_v2 main_c
  let main_v4 : FVec F S128x11 .f32 := Host.absf main_arg2
  let main_cst_0 : FVec F S_ .f32 := constant S_ .f32 0x7F800000#32
  let main_v5 : FVec F S128x11 .f32 := broadcastInDim S128x11 ![] bcast_S_S128x11 main_cst_0
  let main_v6 : IVec S128x11 1 := cmpf .olt main_v4 main_v5
  let main_c_1 : IVec S_ 1 := constantI S_ 1 1#1
  let main_v7 : IVec S_ 1 := (fun x v => Host.reduce IntOp.andi x v reducesTo_S128x11_S_d0_1 h_S_) main_v6 main_c_1
  let main_v8 : IVec S_ 1 := andi main_v3 main_v7
  let main_v9 : FVec F S128x11 .f32 := Host.absf main_arg3
  let main_cst_2 : FVec F S_ .f32 := constant S_ .f32 0x7F800000#32
  let main_v10 : FVec F S128x11 .f32 := broadcastInDim S128x11 ![] bcast_S_S128x11 main_cst_2
  let main_v11 : IVec S128x11 1 := cmpf .olt main_v9 main_v10
  let main_c_3 : IVec S_ 1 := constantI S_ 1 1#1
  let main_v12 : IVec S_ 1 := (fun x v => Host.reduce IntOp.andi x v reducesTo_S128x11_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_arg12 main_arg13 main_arg14 main_arg15 main_arg16 main_arg17 main_arg18 main_arg19 main_arg20 main_v13 main_v16
-- ==== Kernel.lean ====
abbrev S100000x11 : Shape := ⟨2, ![100000, 11]⟩
abbrev S2x1600000 : Shape := ⟨2, ![2, 1600000]⟩
abbrev S128x11 : Shape := ⟨2, ![128, 11]⟩
abbrev S128 : Shape := ⟨1, ![128]⟩
abbrev S128x128 : Shape := ⟨2, ![128, 128]⟩
abbrev S1x128 : Shape := ⟨2, ![1, 128]⟩
abbrev S1 : Shape := ⟨1, ![1]⟩
abbrev S8x44 : Shape := ⟨2, ![8, 44]⟩
abbrev S8 : Shape := ⟨1, ![8]⟩
abbrev S1x32 : Shape := ⟨2, ![1, 32]⟩
abbrev S8x77 : Shape := ⟨2, ![8, 77]⟩
abbrev S1x56 : Shape := ⟨2, ![1, 56]⟩
abbrev S1x3 : Shape := ⟨2, ![1, 3]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x11 : Shape := ⟨2, ![1600000, 11]⟩
abbrev S100000x22 : Shape := ⟨2, ![100000, 22]⟩
abbrev S128x22 : Shape := ⟨2, ![128, 22]⟩
abbrev S22x128 : Shape := ⟨2, ![22, 128]⟩
abbrev S100000x128 : Shape := ⟨2, ![100000, 128]⟩
abbrev S5000x22 : Shape := ⟨2, ![5000, 22]⟩
abbrev S5000x128 : Shape := ⟨2, ![5000, 128]⟩
abbrev S1600000x128 : Shape := ⟨2, ![1600000, 128]⟩
abbrev S100000x256 : Shape := ⟨2, ![100000, 256]⟩
abbrev S128x256 : Shape := ⟨2, ![128, 256]⟩
abbrev S256x128 : Shape := ⟨2, ![256, 128]⟩
abbrev S5000x256 : Shape := ⟨2, ![5000, 256]⟩
abbrev S1x256 : Shape := ⟨2, ![1, 256]⟩
abbrev S256x1 : Shape := ⟨2, ![256, 1]⟩
abbrev S1x1 : Shape := ⟨2, ![1, 1]⟩
abbrev S5000x1 : Shape := ⟨2, ![5000, 1]⟩
abbrev S100000x44 : Shape := ⟨2, ![100000, 44]⟩
abbrev S44x8 : Shape := ⟨2, ![44, 8]⟩
abbrev S1x8 : Shape := ⟨2, ![1, 8]⟩
abbrev S100000x8 : Shape := ⟨2, ![100000, 8]⟩
abbrev S5000x44 : Shape := ⟨2, ![5000, 44]⟩
abbrev S5000x8 : Shape := ⟨2, ![5000, 8]⟩
abbrev S1600000x8 : Shape := ⟨2, ![1600000, 8]⟩
abbrev S100000x32 : Shape := ⟨2, ![100000, 32]⟩
abbrev S32x1 : Shape := ⟨2, ![32, 1]⟩
abbrev S5000x32 : Shape := ⟨2, ![5000, 32]⟩
abbrev S100000x77 : Shape := ⟨2, ![100000, 77]⟩
abbrev S77x8 : Shape := ⟨2, ![77, 8]⟩
abbrev S5000x77 : Shape := ⟨2, ![5000, 77]⟩
abbrev S100000x56 : Shape := ⟨2, ![100000, 56]⟩
abbrev S56x1 : Shape := ⟨2, ![56, 1]⟩
abbrev S5000x56 : Shape := ⟨2, ![5000, 56]⟩
abbrev S100000x3 : Shape := ⟨2, ![100000, 3]⟩
abbrev S3x1 : Shape := ⟨2, ![3, 1]⟩
abbrev S5000x3 : Shape := ⟨2, ![5000, 3]⟩

abbrev nBuf : Space → Nat
  | .hbm => 437
  | .vmem => 48
  | .smem => 0
  | _ => 0

abbrev hbmTy0_0 (i : Nat) : BufTy := match i % 128 with
  | 0 => ⟨S100000x11, .f32⟩
  | 1 => ⟨S2x1600000, .i32⟩
  | 2 => ⟨S128x11, .f32⟩
  | 3 => ⟨S128x11, .f32⟩
  | 4 => ⟨S128, .f32⟩
  | 5 => ⟨S128x128, .f32⟩
  | 6 => ⟨S128x128, .f32⟩
  | 7 => ⟨S128, .f32⟩
  | 8 => ⟨S1x128, .f32⟩
  | 9 => ⟨S1x128, .f32⟩
  | 10 => ⟨S1, .f32⟩
  | 11 => ⟨S8x44, .f32⟩
  | 12 => ⟨S8, .f32⟩
  | 13 => ⟨S1x32, .f32⟩
  | 14 => ⟨S1, .f32⟩
  | 15 => ⟨S8x77, .f32⟩
  | 16 => ⟨S8, .f32⟩
  | 17 => ⟨S1x56, .f32⟩
  | 18 => ⟨S1, .f32⟩
  | 19 => ⟨S1x3, .f32⟩
  | 20 => ⟨S1, .f32⟩
  | 21 => ⟨S1x1600000, .i32⟩
  | 22 => ⟨S1600000, .i32⟩
  | 23 => ⟨S1x1600000, .i32⟩
  | 24 => ⟨S1600000, .i32⟩
  | 25 => ⟨S_, .f32⟩
  | 26 => ⟨S1600000, .f32⟩
  | 27 => ⟨S_, .f32⟩
  | 28 => ⟨S100000, .f32⟩
  | 29 => ⟨S1600000x1, .i32⟩
  | 30 => ⟨S100000, .f32⟩
  | 31 => ⟨S_, .f32⟩
  | 32 => ⟨S100000, .f32⟩
  | 33 => ⟨S100000, .i1⟩
  | 34 => ⟨S_, .f32⟩
  | 35 => ⟨S100000, .f32⟩
  | 36 => ⟨S100000, .f32⟩
  | 37 => ⟨S_, .f32⟩
  | 38 => ⟨S_, .f32⟩
  | 39 => ⟨S100000, .f32⟩
  | 40 => ⟨S100000, .f32⟩
  | 41 => ⟨S_, .i32⟩
  | 42 => ⟨S1600000, .i32⟩
  | 43 => ⟨S1600000, .i1⟩
  | 44 => ⟨S_, .i32⟩
  | 45 => ⟨S1600000, .i32⟩
  | 46 => ⟨S1600000, .i32⟩
  | 47 => ⟨S1600000, .i32⟩
  | 48 => ⟨S1600000x1, .i32⟩
  | 49 => ⟨S1600000, .f32⟩
  | 50 => ⟨S_, .i32⟩
  | 51 => ⟨S1600000, .i32⟩
  | 52 => ⟨S1600000, .i1⟩
  | 53 => ⟨S_, .i32⟩
  | 54 => ⟨S1600000, .i32⟩
  | 55 => ⟨S1600000, .i32⟩
  | 56 => ⟨S1600000, .i32⟩
  | 57 => ⟨S1600000x1, .i32⟩
  | 58 => ⟨S1600000, .f32⟩
  | 59 => ⟨S1600000, .f32⟩
  | 60 => ⟨S_, .f32⟩
  | 61 => ⟨S1600000x1, .f32⟩
  | 62 => ⟨S_, .f32⟩
  | 63 => ⟨S100000x1, .f32⟩
  | 64 => ⟨S1600000x1, .i32⟩
  | 65 => ⟨S100000x1, .f32⟩
  | 66 => ⟨S_, .f32⟩
  | 67 => ⟨S100000x1, .f32⟩
  | 68 => ⟨S100000x1, .f32⟩
  | 69 => ⟨S_, .i32⟩
  | 70 => ⟨S1600000, .i32⟩
  | 71 => ⟨S1600000, .i1⟩
  | 72 => ⟨S_, .i32⟩
  | 73 => ⟨S1600000, .i32⟩
  | 74 => ⟨S1600000, .i32⟩
  | 75 => ⟨S1600000, .i32⟩
  | 76 => ⟨S1600000x1, .i32⟩
  | 77 => ⟨S1600000x11, .f32⟩
  | 78 => ⟨S_, .f32⟩
  | 79 => ⟨S100000x11, .f32⟩
  | 80 => ⟨S1600000x1, .i32⟩
  | 81 => ⟨S100000x11, .f32⟩
  | 82 => ⟨S100000x11, .f32⟩
  | 83 => ⟨S100000x11, .f32⟩
  | 84 => ⟨S100000x22, .f32⟩
  | 85 => ⟨S128x22, .f32⟩
  | 86 => ⟨S22x128, .f32⟩
  | 87 => ⟨S1x128, .f32⟩
  | 88 => ⟨S100000x128, .f32⟩
  | 89 => ⟨S_, .i32⟩
  | 90 => ⟨S1600000, .i32⟩
  | 91 => ⟨S1600000, .i1⟩
  | 92 => ⟨S_, .i32⟩
  | 93 => ⟨S1600000, .i32⟩
  | 94 => ⟨S1600000, .i32⟩
  | 95 => ⟨S1600000, .i32⟩
  | 96 => ⟨S1600000x1, .i32⟩
  | 97 => ⟨S1600000x128, .f32⟩
  | 98 => ⟨S_, .f32⟩
  | 99 => ⟨S100000x128, .f32⟩
  | 100 => ⟨S1600000x1, .i32⟩
  | 101 => ⟨S100000x128, .f32⟩
  | 102 => ⟨S100000x128, .f32⟩
  | 103 => ⟨S100000x128, .f32⟩
  | 104 => ⟨S100000x256, .f32⟩
  | 105 => ⟨S128x256, .f32⟩
  | 106 => ⟨S256x128, .f32⟩
  | 107 => ⟨S1x128, .f32⟩
  | 108 => ⟨S100000x128, .f32⟩
  | 109 => ⟨S_, .i32⟩
  | 110 => ⟨S1600000, .i32⟩
  | 111 => ⟨S1600000, .i1⟩
  | 112 => ⟨S_, .i32⟩
  | 113 => ⟨S1600000, .i32⟩
  | 114 => ⟨S1600000, .i32⟩
  | 115 => ⟨S1600000, .i32⟩
  | 116 => ⟨S1600000x1, .i32⟩
  | 117 => ⟨S1600000x128, .f32⟩
  | 118 => ⟨S_, .f32⟩
  | 119 => ⟨S100000x128, .f32⟩
  | 120 => ⟨S1600000x1, .i32⟩
  | 121 => ⟨S100000x128, .f32⟩
  | 122 => ⟨S100000x128, .f32⟩
  | 123 => ⟨S100000x128, .f32⟩
  | 124 => ⟨S100000x256, .f32⟩
  | 125 => ⟨S1x256, .f32⟩
  | 126 => ⟨S256x1, .f32⟩
  | 127 => ⟨S1x1, .f32⟩
  | _ => ⟨S100000x11, .f32⟩

abbrev hbmTy0_1 (i : Nat) : BufTy := match i % 128 with
  | 0 => ⟨S100000x1, .f32⟩
  | 1 => ⟨S_, .i32⟩
  | 2 => ⟨S1600000, .i32⟩
  | 3 => ⟨S1600000, .i1⟩
  | 4 => ⟨S_, .i32⟩
  | 5 => ⟨S1600000, .i32⟩
  | 6 => ⟨S1600000, .i32⟩
  | 7 => ⟨S1600000, .i32⟩
  | 8 => ⟨S1600000x1, .i32⟩
  | 9 => ⟨S1600000x11, .f32⟩
  | 10 => ⟨S1600000x1, .f32⟩
  | 11 => ⟨S1600000x11, .f32⟩
  | 12 => ⟨S1600000x11, .f32⟩
  | 13 => ⟨S_, .f32⟩
  | 14 => ⟨S100000x11, .f32⟩
  | 15 => ⟨S1600000x1, .i32⟩
  | 16 => ⟨S100000x11, .f32⟩
  | 17 => ⟨S_, .i32⟩
  | 18 => ⟨S1600000, .i32⟩
  | 19 => ⟨S1600000, .i1⟩
  | 20 => ⟨S_, .i32⟩
  | 21 => ⟨S1600000, .i32⟩
  | 22 => ⟨S1600000, .i32⟩
  | 23 => ⟨S1600000, .i32⟩
  | 24 => ⟨S1600000x1, .i32⟩
  | 25 => ⟨S1600000x11, .f32⟩
  | 26 => ⟨S1600000x1, .f32⟩
  | 27 => ⟨S1600000x11, .f32⟩
  | 28 => ⟨S1600000x11, .f32⟩
  | 29 => ⟨S_, .f32⟩
  | 30 => ⟨S100000x11, .f32⟩
  | 31 => ⟨S1600000x1, .i32⟩
  | 32 => ⟨S100000x11, .f32⟩
  | 33 => ⟨S_, .i32⟩
  | 34 => ⟨S1600000, .i32⟩
  | 35 => ⟨S1600000, .i1⟩
  | 36 => ⟨S_, .i32⟩
  | 37 => ⟨S1600000, .i32⟩
  | 38 => ⟨S1600000, .i32⟩
  | 39 => ⟨S1600000, .i32⟩
  | 40 => ⟨S1600000x1, .i32⟩
  | 41 => ⟨S1600000x11, .f32⟩
  | 42 => ⟨S1600000x1, .f32⟩
  | 43 => ⟨S1600000x11, .f32⟩
  | 44 => ⟨S1600000x11, .f32⟩
  | 45 => ⟨S_, .f32⟩
  | 46 => ⟨S100000x11, .f32⟩
  | 47 => ⟨S1600000x1, .i32⟩
  | 48 => ⟨S100000x11, .f32⟩
  | 49 => ⟨S100000x44, .f32⟩
  | 50 => ⟨S44x8, .f32⟩
  | 51 => ⟨S1x8, .f32⟩
  | 52 => ⟨S100000x8, .f32⟩
  | 53 => ⟨S_, .i32⟩
  | 54 => ⟨S1600000, .i32⟩
  | 55 => ⟨S1600000, .i1⟩
  | 56 => ⟨S_, .i32⟩
  | 57 => ⟨S1600000, .i32⟩
  | 58 => ⟨S1600000, .i32⟩
  | 59 => ⟨S1600000, .i32⟩
  | 60 => ⟨S1600000x1, .i32⟩
  | 61 => ⟨S1600000x8, .f32⟩
  | 62 => ⟨S1600000x1, .f32⟩
  | 63 => ⟨S1600000x8, .f32⟩
  | 64 => ⟨S1600000x8, .f32⟩
  | 65 => ⟨S_, .f32⟩
  | 66 => ⟨S100000x8, .f32⟩
  | 67 => ⟨S1600000x1, .i32⟩
  | 68 => ⟨S100000x8, .f32⟩
  | 69 => ⟨S_, .i32⟩
  | 70 => ⟨S1600000, .i32⟩
  | 71 => ⟨S1600000, .i1⟩
  | 72 => ⟨S_, .i32⟩
  | 73 => ⟨S1600000, .i32⟩
  | 74 => ⟨S1600000, .i32⟩
  | 75 => ⟨S1600000, .i32⟩
  | 76 => ⟨S1600000x1, .i32⟩
  | 77 => ⟨S1600000x8, .f32⟩
  | 78 => ⟨S1600000x1, .f32⟩
  | 79 => ⟨S1600000x8, .f32⟩
  | 80 => ⟨S1600000x8, .f32⟩
  | 81 => ⟨S_, .f32⟩
  | 82 => ⟨S100000x8, .f32⟩
  | 83 => ⟨S1600000x1, .i32⟩
  | 84 => ⟨S100000x8, .f32⟩
  | 85 => ⟨S_, .i32⟩
  | 86 => ⟨S1600000, .i32⟩
  | 87 => ⟨S1600000, .i1⟩
  | 88 => ⟨S_, .i32⟩
  | 89 => ⟨S1600000, .i32⟩
  | 90 => ⟨S1600000, .i32⟩
  | 91 => ⟨S1600000, .i32⟩
  | 92 => ⟨S1600000x1, .i32⟩
  | 93 => ⟨S1600000x8, .f32⟩
  | 94 => ⟨S1600000x1, .f32⟩
  | 95 => ⟨S1600000x8, .f32⟩
  | 96 => ⟨S1600000x8, .f32⟩
  | 97 => ⟨S_, .f32⟩
  | 98 => ⟨S100000x8, .f32⟩
  | 99 => ⟨S1600000x1, .i32⟩
  | 100 => ⟨S100000x8, .f32⟩
  | 101 => ⟨S100000x32, .f32⟩
  | 102 => ⟨S32x1, .f32⟩
  | 103 => ⟨S1x1, .f32⟩
  | 104 => ⟨S100000x1, .f32⟩
  | 105 => ⟨S_, .i32⟩
  | 106 => ⟨S1600000, .i32⟩
  | 107 => ⟨S1600000, .i1⟩
  | 108 => ⟨S_, .i32⟩
  | 109 => ⟨S1600000, .i32⟩
  | 110 => ⟨S1600000, .i32⟩
  | 111 => ⟨S1600000, .i32⟩
  | 112 => ⟨S1600000x1, .i32⟩
  | 113 => ⟨S1600000x11, .f32⟩
  | 114 => ⟨S1600000x1, .f32⟩
  | 115 => ⟨S1600000x11, .f32⟩
  | 116 => ⟨S1600000x11, .f32⟩
  | 117 => ⟨S_, .f32⟩
  | 118 => ⟨S100000x11, .f32⟩
  | 119 => ⟨S1600000x1, .i32⟩
  | 120 => ⟨S100000x11, .f32⟩
  | 121 => ⟨S_, .i32⟩
  | 122 => ⟨S1600000, .i32⟩
  | 123 => ⟨S1600000, .i1⟩
  | 124 => ⟨S_, .i32⟩
  | 125 => ⟨S1600000, .i32⟩
  | 126 => ⟨S1600000, .i32⟩
  | 127 => ⟨S1600000, .i32⟩
  | _ => ⟨S100000x11, .f32⟩

abbrev hbmTy0_2 (i : Nat) : BufTy := match i % 128 with
  | 0 => ⟨S1600000x1, .i32⟩
  | 1 => ⟨S1600000x11, .f32⟩
  | 2 => ⟨S1600000x1, .f32⟩
  | 3 => ⟨S1600000x11, .f32⟩
  | 4 => ⟨S1600000x11, .f32⟩
  | 5 => ⟨S_, .f32⟩
  | 6 => ⟨S100000x11, .f32⟩
  | 7 => ⟨S1600000x1, .i32⟩
  | 8 => ⟨S100000x11, .f32⟩
  | 9 => ⟨S_, .i32⟩
  | 10 => ⟨S1600000, .i32⟩
  | 11 => ⟨S1600000, .i1⟩
  | 12 => ⟨S_, .i32⟩
  | 13 => ⟨S1600000, .i32⟩
  | 14 => ⟨S1600000, .i32⟩
  | 15 => ⟨S1600000, .i32⟩
  | 16 => ⟨S1600000x1, .i32⟩
  | 17 => ⟨S1600000x11, .f32⟩
  | 18 => ⟨S1600000x1, .f32⟩
  | 19 => ⟨S1600000x11, .f32⟩
  | 20 => ⟨S1600000x11, .f32⟩
  | 21 => ⟨S_, .f32⟩
  | 22 => ⟨S100000x11, .f32⟩
  | 23 => ⟨S1600000x1, .i32⟩
  | 24 => ⟨S100000x11, .f32⟩
  | 25 => ⟨S_, .i32⟩
  | 26 => ⟨S1600000, .i32⟩
  | 27 => ⟨S1600000, .i1⟩
  | 28 => ⟨S_, .i32⟩
  | 29 => ⟨S1600000, .i32⟩
  | 30 => ⟨S1600000, .i32⟩
  | 31 => ⟨S1600000, .i32⟩
  | 32 => ⟨S1600000x1, .i32⟩
  | 33 => ⟨S1600000x11, .f32⟩
  | 34 => ⟨S1600000x1, .f32⟩
  | 35 => ⟨S1600000x11, .f32⟩
  | 36 => ⟨S1600000x11, .f32⟩
  | 37 => ⟨S_, .f32⟩
  | 38 => ⟨S100000x11, .f32⟩
  | 39 => ⟨S1600000x1, .i32⟩
  | 40 => ⟨S100000x11, .f32⟩
  | 41 => ⟨S_, .i32⟩
  | 42 => ⟨S1600000, .i32⟩
  | 43 => ⟨S1600000, .i1⟩
  | 44 => ⟨S_, .i32⟩
  | 45 => ⟨S1600000, .i32⟩
  | 46 => ⟨S1600000, .i32⟩
  | 47 => ⟨S1600000, .i32⟩
  | 48 => ⟨S1600000x1, .i32⟩
  | 49 => ⟨S1600000x11, .f32⟩
  | 50 => ⟨S1600000x1, .f32⟩
  | 51 => ⟨S1600000x11, .f32⟩
  | 52 => ⟨S1600000x11, .f32⟩
  | 53 => ⟨S_, .f32⟩
  | 54 => ⟨S100000x11, .f32⟩
  | 55 => ⟨S1600000x1, .i32⟩
  | 56 => ⟨S100000x11, .f32⟩
  | 57 => ⟨S_, .i32⟩
  | 58 => ⟨S1600000, .i32⟩
  | 59 => ⟨S1600000, .i1⟩
  | 60 => ⟨S_, .i32⟩
  | 61 => ⟨S1600000, .i32⟩
  | 62 => ⟨S1600000, .i32⟩
  | 63 => ⟨S1600000, .i32⟩
  | 64 => ⟨S1600000x1, .i32⟩
  | 65 => ⟨S1600000x11, .f32⟩
  | 66 => ⟨S1600000x1, .f32⟩
  | 67 => ⟨S1600000x11, .f32⟩
  | 68 => ⟨S1600000x11, .f32⟩
  | 69 => ⟨S_, .f32⟩
  | 70 => ⟨S100000x11, .f32⟩
  | 71 => ⟨S1600000x1, .i32⟩
  | 72 => ⟨S100000x11, .f32⟩
  | 73 => ⟨S100000x77, .f32⟩
  | 74 => ⟨S77x8, .f32⟩
  | 75 => ⟨S1x8, .f32⟩
  | 76 => ⟨S100000x8, .f32⟩
  | 77 => ⟨S_, .i32⟩
  | 78 => ⟨S1600000, .i32⟩
  | 79 => ⟨S1600000, .i1⟩
  | 80 => ⟨S_, .i32⟩
  | 81 => ⟨S1600000, .i32⟩
  | 82 => ⟨S1600000, .i32⟩
  | 83 => ⟨S1600000, .i32⟩
  | 84 => ⟨S1600000x1, .i32⟩
  | 85 => ⟨S1600000x8, .f32⟩
  | 86 => ⟨S1600000x1, .f32⟩
  | 87 => ⟨S1600000x8, .f32⟩
  | 88 => ⟨S1600000x8, .f32⟩
  | 89 => ⟨S_, .f32⟩
  | 90 => ⟨S100000x8, .f32⟩
  | 91 => ⟨S1600000x1, .i32⟩
  | 92 => ⟨S100000x8, .f32⟩
  | 93 => ⟨S_, .i32⟩
  | 94 => ⟨S1600000, .i32⟩
  | 95 => ⟨S1600000, .i1⟩
  | 96 => ⟨S_, .i32⟩
  | 97 => ⟨S1600000, .i32⟩
  | 98 => ⟨S1600000, .i32⟩
  | 99 => ⟨S1600000, .i32⟩
  | 100 => ⟨S1600000x1, .i32⟩
  | 101 => ⟨S1600000x8, .f32⟩
  | 102 => ⟨S1600000x1, .f32⟩
  | 103 => ⟨S1600000x8, .f32⟩
  | 104 => ⟨S1600000x8, .f32⟩
  | 105 => ⟨S_, .f32⟩
  | 106 => ⟨S100000x8, .f32⟩
  | 107 => ⟨S1600000x1, .i32⟩
  | 108 => ⟨S100000x8, .f32⟩
  | 109 => ⟨S_, .i32⟩
  | 110 => ⟨S1600000, .i32⟩
  | 111 => ⟨S1600000, .i1⟩
  | 112 => ⟨S_, .i32⟩
  | 113 => ⟨S1600000, .i32⟩
  | 114 => ⟨S1600000, .i32⟩
  | 115 => ⟨S1600000, .i32⟩
  | 116 => ⟨S1600000x1, .i32⟩
  | 117 => ⟨S1600000x8, .f32⟩
  | 118 => ⟨S1600000x1, .f32⟩
  | 119 => ⟨S1600000x8, .f32⟩
  | 120 => ⟨S1600000x8, .f32⟩
  | 121 => ⟨S_, .f32⟩
  | 122 => ⟨S100000x8, .f32⟩
  | 123 => ⟨S1600000x1, .i32⟩
  | 124 => ⟨S100000x8, .f32⟩
  | 125 => ⟨S_, .i32⟩
  | 126 => ⟨S1600000, .i32⟩
  | 127 => ⟨S1600000, .i1⟩
  | _ => ⟨S100000x11, .f32⟩

abbrev hbmTy0_3 (i : Nat) : BufTy := match i % 128 with
  | 0 => ⟨S_, .i32⟩
  | 1 => ⟨S1600000, .i32⟩
  | 2 => ⟨S1600000, .i32⟩
  | 3 => ⟨S1600000, .i32⟩
  | 4 => ⟨S1600000x1, .i32⟩
  | 5 => ⟨S1600000x8, .f32⟩
  | 6 => ⟨S1600000x1, .f32⟩
  | 7 => ⟨S1600000x8, .f32⟩
  | 8 => ⟨S1600000x8, .f32⟩
  | 9 => ⟨S_, .f32⟩
  | 10 => ⟨S100000x8, .f32⟩
  | 11 => ⟨S1600000x1, .i32⟩
  | 12 => ⟨S100000x8, .f32⟩
  | 13 => ⟨S_, .i32⟩
  | 14 => ⟨S1600000, .i32⟩
  | 15 => ⟨S1600000, .i1⟩
  | 16 => ⟨S_, .i32⟩
  | 17 => ⟨S1600000, .i32⟩
  | 18 => ⟨S1600000, .i32⟩
  | 19 => ⟨S1600000, .i32⟩
  | 20 => ⟨S1600000x1, .i32⟩
  | 21 => ⟨S1600000x8, .f32⟩
  | 22 => ⟨S1600000x1, .f32⟩
  | 23 => ⟨S1600000x8, .f32⟩
  | 24 => ⟨S1600000x8, .f32⟩
  | 25 => ⟨S_, .f32⟩
  | 26 => ⟨S100000x8, .f32⟩
  | 27 => ⟨S1600000x1, .i32⟩
  | 28 => ⟨S100000x8, .f32⟩
  | 29 => ⟨S_, .i32⟩
  | 30 => ⟨S1600000, .i32⟩
  | 31 => ⟨S1600000, .i1⟩
  | 32 => ⟨S_, .i32⟩
  | 33 => ⟨S1600000, .i32⟩
  | 34 => ⟨S1600000, .i32⟩
  | 35 => ⟨S1600000, .i32⟩
  | 36 => ⟨S1600000x1, .i32⟩
  | 37 => ⟨S1600000x8, .f32⟩
  | 38 => ⟨S1600000x1, .f32⟩
  | 39 => ⟨S1600000x8, .f32⟩
  | 40 => ⟨S1600000x8, .f32⟩
  | 41 => ⟨S_, .f32⟩
  | 42 => ⟨S100000x8, .f32⟩
  | 43 => ⟨S1600000x1, .i32⟩
  | 44 => ⟨S100000x8, .f32⟩
  | 45 => ⟨S100000x56, .f32⟩
  | 46 => ⟨S56x1, .f32⟩
  | 47 => ⟨S1x1, .f32⟩
  | 48 => ⟨S100000x1, .f32⟩
  | 49 => ⟨S100000x3, .f32⟩
  | 50 => ⟨S3x1, .f32⟩
  | 51 => ⟨S1x1, .f32⟩
  | 52 => ⟨S100000x1, .f32⟩
  | _ => ⟨S100000x11, .f32⟩

abbrev hbmTy (i : Nat) : BufTy := match i / 128 with
  | 0 => hbmTy0_0 i
  | 1 => hbmTy0_1 i
  | 2 => hbmTy0_2 i
  | 3 => hbmTy0_3 i
  | _ => ⟨S100000x11, .f32⟩

abbrev bufTy : (tb : Table) → Fin (tcTables nBuf tb) → BufTy
  | .hbm, ⟨i, _⟩ => hbmTy i
  | .local _ .vmem, ⟨0, _⟩ => ⟨S5000x22, .f32⟩
  | .local _ .vmem, ⟨1, _⟩ => ⟨S5000x22, .f32⟩
  | .local _ .vmem, ⟨2, _⟩ => ⟨S22x128, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | .local _ .vmem, ⟨6, _⟩ => ⟨S5000x256, .f32⟩
  | .local _ .vmem, ⟨7, _⟩ => ⟨S5000x256, .f32⟩
  | .local _ .vmem, ⟨8, _⟩ => ⟨S256x128, .f32⟩
  | .local _ .vmem, ⟨9, _⟩ => ⟨S1x128, .f32⟩
  | .local _ .vmem, ⟨10, _⟩ => ⟨S5000x128, .f32⟩
  | .local _ .vmem, ⟨11, _⟩ => ⟨S5000x128, .f32⟩
  | .local _ .vmem, ⟨12, _⟩ => ⟨S5000x256, .f32⟩
  | .local _ .vmem, ⟨13, _⟩ => ⟨S5000x256, .f32⟩
  | .local _ .vmem, ⟨14, _⟩ => ⟨S256x1, .f32⟩
  | .local _ .vmem, ⟨15, _⟩ => ⟨S1x1, .f32⟩
  | .local _ .vmem, ⟨16, _⟩ => ⟨S5000x1, .f32⟩
  | .local _ .vmem, ⟨17, _⟩ => ⟨S5000x1, .f32⟩
  | .local _ .vmem, ⟨18, _⟩ => ⟨S5000x44, .f32⟩
  | .local _ .vmem, ⟨19, _⟩ => ⟨S5000x44, .f32⟩
  | .local _ .vmem, ⟨20, _⟩ => ⟨S44x8, .f32⟩
  | .local _ .vmem, ⟨21, _⟩ => ⟨S1x8, .f32⟩
  | .local _ .vmem, ⟨22, _⟩ => ⟨S5000x8, .f32⟩
  | .local _ .vmem, ⟨23, _⟩ => ⟨S5000x8, .f32⟩
  | .local _ .vmem, ⟨24, _⟩ => ⟨S5000x32, .f32⟩
  | .local _ .vmem, ⟨25, _⟩ => ⟨S5000x32, .f32⟩
  | .local _ .vmem, ⟨26, _⟩ => ⟨S32x1, .f32⟩
  | .local _ .vmem, ⟨27, _⟩ => ⟨S1x1, .f32⟩
  | .local _ .vmem, ⟨28, _⟩ => ⟨S5000x1, .f32⟩
  | .local _ .vmem, ⟨29, _⟩ => ⟨S5000x1, .f32⟩
  | .local _ .vmem, ⟨30, _⟩ => ⟨S5000x77, .f32⟩
  | .local _ .vmem, ⟨31, _⟩ => ⟨S5000x77, .f32⟩
  | .local _ .vmem, ⟨32, _⟩ => ⟨S77x8, .f32⟩
  | .local _ .vmem, ⟨33, _⟩ => ⟨S1x8, .f32⟩
  | .local _ .vmem, ⟨34, _⟩ => ⟨S5000x8, .f32⟩
  | .local _ .vmem, ⟨35, _⟩ => ⟨S5000x8, .f32⟩
  | .local _ .vmem, ⟨36, _⟩ => ⟨S5000x56, .f32⟩
  | .local _ .vmem, ⟨37, _⟩ => ⟨S5000x56, .f32⟩
  | .local _ .vmem, ⟨38, _⟩ => ⟨S56x1, .f32⟩
  | .local _ .vmem, ⟨39, _⟩ => ⟨S1x1, .f32⟩
  | .local _ .vmem, ⟨40, _⟩ => ⟨S5000x1, .f32⟩
  | .local _ .vmem, ⟨41, _⟩ => ⟨S5000x1, .f32⟩
  | .local _ .vmem, ⟨42, _⟩ => ⟨S5000x3, .f32⟩
  | .local _ .vmem, ⟨43, _⟩ => ⟨S5000x3, .f32⟩
  | .local _ .vmem, ⟨44, _⟩ => ⟨S3x1, .f32⟩
  | .local _ .vmem, ⟨45, _⟩ => ⟨S1x1, .f32⟩
  | .local _ .vmem, ⟨46, _⟩ => ⟨S5000x1, .f32⟩
  | .local _ .vmem, ⟨47, _⟩ => ⟨S5000x1, .f32⟩
  | _, _ => ⟨S100000x11, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_cst : Ref sig .tc := ⟨.hbm, 25, rfl⟩
abbrev main_v4 : Ref sig .tc := ⟨.hbm, 26, rfl⟩
abbrev main_cst_0 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_cst_1 : Ref sig .tc := ⟨.hbm, 31, rfl⟩
abbrev main_v8 : Ref sig .tc := ⟨.hbm, 32, rfl⟩
abbrev main_v9 : Ref sig .tc := ⟨.hbm, 33, rfl⟩
abbrev main_cst_2 : Ref sig .tc := ⟨.hbm, 34, rfl⟩
abbrev main_v10 : Ref sig .tc := ⟨.hbm, 35, rfl⟩
abbrev main_v11 : Ref sig .tc := ⟨.hbm, 36, rfl⟩
abbrev main_cst_3 : Ref sig .tc := ⟨.hbm, 37, rfl⟩
abbrev main_call0_v0 : Ref sig .tc := ⟨.hbm, 38, rfl⟩
abbrev main_call0_v1 : Ref sig .tc := ⟨.hbm, 39, rfl⟩
abbrev main_v12 : Ref sig .tc := ⟨.hbm, 40, rfl⟩
abbrev main_c : Ref sig .tc := ⟨.hbm, 41, rfl⟩
abbrev main_v13 : Ref sig .tc := ⟨.hbm, 42, rfl⟩
abbrev main_v14 : Ref sig .tc := ⟨.hbm, 43, rfl⟩
abbrev main_c_4 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_c_5 : Ref sig .tc := ⟨.hbm, 50, rfl⟩
abbrev main_v20 : Ref sig .tc := ⟨.hbm, 51, rfl⟩
abbrev main_v21 : Ref sig .tc := ⟨.hbm, 52, rfl⟩
abbrev main_c_6 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_cst_7 : Ref sig .tc := ⟨.hbm, 60, rfl⟩
abbrev main_v28 : Ref sig .tc := ⟨.hbm, 61, rfl⟩
abbrev main_cst_8 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_cst_9 : Ref sig .tc := ⟨.hbm, 66, rfl⟩
abbrev main_v32 : Ref sig .tc := ⟨.hbm, 67, rfl⟩
abbrev main_v33 : Ref sig .tc := ⟨.hbm, 68, rfl⟩
abbrev main_c_10 : Ref sig .tc := ⟨.hbm, 69, rfl⟩
abbrev main_v34 : Ref sig .tc := ⟨.hbm, 70, rfl⟩
abbrev main_v35 : Ref sig .tc := ⟨.hbm, 71, rfl⟩
abbrev main_c_11 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_cst_12 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_c_13 : Ref sig .tc := ⟨.hbm, 89, rfl⟩
abbrev main_v51 : Ref sig .tc := ⟨.hbm, 90, rfl⟩
abbrev main_v52 : Ref sig .tc := ⟨.hbm, 91, rfl⟩
abbrev main_c_14 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_cst_15 : Ref sig .tc := ⟨.hbm, 98, rfl⟩
abbrev main_v58 : Ref sig .tc := ⟨.hbm, 99, rfl⟩
abbrev main_v59 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_c_16 : Ref sig .tc := ⟨.hbm, 109, rfl⟩
abbrev main_v68 : Ref sig .tc := ⟨.hbm, 110, rfl⟩
abbrev main_v69 : Ref sig .tc := ⟨.hbm, 111, rfl⟩
abbrev main_c_17 : Ref sig .tc := ⟨.hbm, 112, rfl⟩
abbrev main_v70 : Ref sig .tc := ⟨.hbm, 113, rfl⟩
abbrev main_v71 : Ref sig .tc := ⟨.hbm, 114, rfl⟩
abbrev main_v72 : Ref sig .tc := ⟨.hbm, 115, rfl⟩
abbrev main_v73 : Ref sig .tc := ⟨.hbm, 116, rfl⟩
abbrev main_v74 : Ref sig .tc := ⟨.hbm, 117, rfl⟩
abbrev main_cst_18 : Ref sig .tc := ⟨.hbm, 118, rfl⟩
abbrev main_v75 : Ref sig .tc := ⟨.hbm, 119, rfl⟩
abbrev main_v76 : Ref sig .tc := ⟨.hbm, 120, rfl⟩
abbrev main_v77 : Ref sig .tc := ⟨.hbm, 121, rfl⟩
abbrev main_v78 : Ref sig .tc := ⟨.hbm, 122, rfl⟩
abbrev main_v79 : Ref sig .tc := ⟨.hbm, 123, rfl⟩
abbrev main_v80 : Ref sig .tc := ⟨.hbm, 124, rfl⟩
abbrev main_v81 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_c_19 : Ref sig .tc := ⟨.hbm, 129, rfl⟩
abbrev main_v85 : Ref sig .tc := ⟨.hbm, 130, rfl⟩
abbrev main_v86 : Ref sig .tc := ⟨.hbm, 131, rfl⟩
abbrev main_c_20 : Ref sig .tc := ⟨.hbm, 132, rfl⟩
abbrev main_v87 : Ref sig .tc := ⟨.hbm, 133, rfl⟩
abbrev main_v88 : Ref sig .tc := ⟨.hbm, 134, rfl⟩
abbrev main_v89 : Ref sig .tc := ⟨.hbm, 135, rfl⟩
abbrev main_v90 : Ref sig .tc := ⟨.hbm, 136, rfl⟩
abbrev main_v91 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_cst_21 : Ref sig .tc := ⟨.hbm, 141, rfl⟩
abbrev main_v95 : Ref sig .tc := ⟨.hbm, 142, rfl⟩
abbrev main_v96 : Ref sig .tc := ⟨.hbm, 143, rfl⟩
abbrev main_v97 : Ref sig .tc := ⟨.hbm, 144, rfl⟩
abbrev main_c_22 : Ref sig .tc := ⟨.hbm, 145, rfl⟩
abbrev main_v98 : Ref sig .tc := ⟨.hbm, 146, rfl⟩
abbrev main_v99 : Ref sig .tc := ⟨.hbm, 147, rfl⟩
abbrev main_c_23 : Ref sig .tc := ⟨.hbm, 148, rfl⟩
abbrev main_v100 : Ref sig .tc := ⟨.hbm, 149, rfl⟩
abbrev main_v101 : Ref sig .tc := ⟨.hbm, 150, rfl⟩
abbrev main_v102 : Ref sig .tc := ⟨.hbm, 151, rfl⟩
abbrev main_v103 : Ref sig .tc := ⟨.hbm, 152, rfl⟩
abbrev main_v104 : Ref sig .tc := ⟨.hbm, 153, rfl⟩
abbrev main_v105 : Ref sig .tc := ⟨.hbm, 154, rfl⟩
abbrev main_v106 : Ref sig .tc := ⟨.hbm, 155, rfl⟩
abbrev main_v107 : Ref sig .tc := ⟨.hbm, 156, rfl⟩
abbrev main_cst_24 : Ref sig .tc := ⟨.hbm, 157, rfl⟩
abbrev main_v108 : Ref sig .tc := ⟨.hbm, 158, rfl⟩
abbrev main_v109 : Ref sig .tc := ⟨.hbm, 159, rfl⟩
abbrev main_v110 : Ref sig .tc := ⟨.hbm, 160, rfl⟩
abbrev main_c_25 : Ref sig .tc := ⟨.hbm, 161, rfl⟩
abbrev main_v111 : Ref sig .tc := ⟨.hbm, 162, rfl⟩
abbrev main_v112 : Ref sig .tc := ⟨.hbm, 163, rfl⟩
abbrev main_c_26 : Ref sig .tc := ⟨.hbm, 164, rfl⟩
abbrev main_v113 : Ref sig .tc := ⟨.hbm, 165, rfl⟩
abbrev main_v114 : Ref sig .tc := ⟨.hbm, 166, rfl⟩
abbrev main_v115 : Ref sig .tc := ⟨.hbm, 167, rfl⟩
abbrev main_v116 : Ref sig .tc := ⟨.hbm, 168, rfl⟩
abbrev main_v117 : Ref sig .tc := ⟨.hbm, 169, rfl⟩
abbrev main_v118 : Ref sig .tc := ⟨.hbm, 170, rfl⟩
abbrev main_v119 : Ref sig .tc := ⟨.hbm, 171, rfl⟩
abbrev main_v120 : Ref sig .tc := ⟨.hbm, 172, rfl⟩
abbrev main_cst_27 : Ref sig .tc := ⟨.hbm, 173, rfl⟩
abbrev main_v121 : Ref sig .tc := ⟨.hbm, 174, rfl⟩
abbrev main_v122 : Ref sig .tc := ⟨.hbm, 175, rfl⟩
abbrev main_v123 : Ref sig .tc := ⟨.hbm, 176, rfl⟩
abbrev main_v124 : Ref sig .tc := ⟨.hbm, 177, rfl⟩
abbrev main_v125 : Ref sig .tc := ⟨.hbm, 178, rfl⟩
abbrev main_v126 : Ref sig .tc := ⟨.hbm, 179, rfl⟩
abbrev main_v127 : Ref sig .tc := ⟨.hbm, 180, rfl⟩
abbrev main_c_28 : Ref sig .tc := ⟨.hbm, 181, rfl⟩
abbrev main_v128 : Ref sig .tc := ⟨.hbm, 182, rfl⟩
abbrev main_v129 : Ref sig .tc := ⟨.hbm, 183, rfl⟩
abbrev main_c_29 : Ref sig .tc := ⟨.hbm, 184, rfl⟩
abbrev main_v130 : Ref sig .tc := ⟨.hbm, 185, rfl⟩
abbrev main_v131 : Ref sig .tc := ⟨.hbm, 186, rfl⟩
abbrev main_v132 : Ref sig .tc := ⟨.hbm, 187, rfl⟩
abbrev main_v133 : Ref sig .tc := ⟨.hbm, 188, rfl⟩
abbrev main_v134 : Ref sig .tc := ⟨.hbm, 189, rfl⟩
abbrev main_v135 : Ref sig .tc := ⟨.hbm, 190, rfl⟩
abbrev main_v136 : Ref sig .tc := ⟨.hbm, 191, rfl⟩
abbrev main_v137 : Ref sig .tc := ⟨.hbm, 192, rfl⟩
abbrev main_cst_30 : Ref sig .tc := ⟨.hbm, 193, rfl⟩
abbrev main_v138 : Ref sig .tc := ⟨.hbm, 194, rfl⟩
abbrev main_v139 : Ref sig .tc := ⟨.hbm, 195, rfl⟩
abbrev main_v140 : Ref sig .tc := ⟨.hbm, 196, rfl⟩
abbrev main_c_31 : Ref sig .tc := ⟨.hbm, 197, rfl⟩
abbrev main_v141 : Ref sig .tc := ⟨.hbm, 198, rfl⟩
abbrev main_v142 : Ref sig .tc := ⟨.hbm, 199, rfl⟩
abbrev main_c_32 : Ref sig .tc := ⟨.hbm, 200, rfl⟩
abbrev main_v143 : Ref sig .tc := ⟨.hbm, 201, rfl⟩
abbrev main_v144 : Ref sig .tc := ⟨.hbm, 202, rfl⟩
abbrev main_v145 : Ref sig .tc := ⟨.hbm, 203, rfl⟩
abbrev main_v146 : Ref sig .tc := ⟨.hbm, 204, rfl⟩
abbrev main_v147 : Ref sig .tc := ⟨.hbm, 205, rfl⟩
abbrev main_v148 : Ref sig .tc := ⟨.hbm, 206, rfl⟩
abbrev main_v149 : Ref sig .tc := ⟨.hbm, 207, rfl⟩
abbrev main_v150 : Ref sig .tc := ⟨.hbm, 208, rfl⟩
abbrev main_cst_33 : Ref sig .tc := ⟨.hbm, 209, rfl⟩
abbrev main_v151 : Ref sig .tc := ⟨.hbm, 210, rfl⟩
abbrev main_v152 : Ref sig .tc := ⟨.hbm, 211, rfl⟩
abbrev main_v153 : Ref sig .tc := ⟨.hbm, 212, rfl⟩
abbrev main_c_34 : Ref sig .tc := ⟨.hbm, 213, rfl⟩
abbrev main_v154 : Ref sig .tc := ⟨.hbm, 214, rfl⟩
abbrev main_v155 : Ref sig .tc := ⟨.hbm, 215, rfl⟩
abbrev main_c_35 : Ref sig .tc := ⟨.hbm, 216, rfl⟩
abbrev main_v156 : Ref sig .tc := ⟨.hbm, 217, rfl⟩
abbrev main_v157 : Ref sig .tc := ⟨.hbm, 218, rfl⟩
abbrev main_v158 : Ref sig .tc := ⟨.hbm, 219, rfl⟩
abbrev main_v159 : Ref sig .tc := ⟨.hbm, 220, rfl⟩
abbrev main_v160 : Ref sig .tc := ⟨.hbm, 221, rfl⟩
abbrev main_v161 : Ref sig .tc := ⟨.hbm, 222, rfl⟩
abbrev main_v162 : Ref sig .tc := ⟨.hbm, 223, rfl⟩
abbrev main_v163 : Ref sig .tc := ⟨.hbm, 224, rfl⟩
abbrev main_cst_36 : Ref sig .tc := ⟨.hbm, 225, rfl⟩
abbrev main_v164 : Ref sig .tc := ⟨.hbm, 226, rfl⟩
abbrev main_v165 : Ref sig .tc := ⟨.hbm, 227, rfl⟩
abbrev main_v166 : Ref sig .tc := ⟨.hbm, 228, rfl⟩
abbrev main_v167 : Ref sig .tc := ⟨.hbm, 229, rfl⟩
abbrev main_v168 : Ref sig .tc := ⟨.hbm, 230, rfl⟩
abbrev main_v169 : Ref sig .tc := ⟨.hbm, 231, rfl⟩
abbrev main_v170 : Ref sig .tc := ⟨.hbm, 232, rfl⟩
abbrev main_c_37 : Ref sig .tc := ⟨.hbm, 233, rfl⟩
abbrev main_v171 : Ref sig .tc := ⟨.hbm, 234, rfl⟩
abbrev main_v172 : Ref sig .tc := ⟨.hbm, 235, rfl⟩
abbrev main_c_38 : Ref sig .tc := ⟨.hbm, 236, rfl⟩
abbrev main_v173 : Ref sig .tc := ⟨.hbm, 237, rfl⟩
abbrev main_v174 : Ref sig .tc := ⟨.hbm, 238, rfl⟩
abbrev main_v175 : Ref sig .tc := ⟨.hbm, 239, rfl⟩
abbrev main_v176 : Ref sig .tc := ⟨.hbm, 240, rfl⟩
abbrev main_v177 : Ref sig .tc := ⟨.hbm, 241, rfl⟩
abbrev main_v178 : Ref sig .tc := ⟨.hbm, 242, rfl⟩
abbrev main_v179 : Ref sig .tc := ⟨.hbm, 243, rfl⟩
abbrev main_v180 : Ref sig .tc := ⟨.hbm, 244, rfl⟩
abbrev main_cst_39 : Ref sig .tc := ⟨.hbm, 245, rfl⟩
abbrev main_v181 : Ref sig .tc := ⟨.hbm, 246, rfl⟩
abbrev main_v182 : Ref sig .tc := ⟨.hbm, 247, rfl⟩
abbrev main_v183 : Ref sig .tc := ⟨.hbm, 248, rfl⟩
abbrev main_c_40 : Ref sig .tc := ⟨.hbm, 249, rfl⟩
abbrev main_v184 : Ref sig .tc := ⟨.hbm, 250, rfl⟩
abbrev main_v185 : Ref sig .tc := ⟨.hbm, 251, rfl⟩
abbrev main_c_41 : Ref sig .tc := ⟨.hbm, 252, rfl⟩
abbrev main_v186 : Ref sig .tc := ⟨.hbm, 253, rfl⟩
abbrev main_v187 : Ref sig .tc := ⟨.hbm, 254, rfl⟩
abbrev main_v188 : Ref sig .tc := ⟨.hbm, 255, rfl⟩
abbrev main_v189 : Ref sig .tc := ⟨.hbm, 256, rfl⟩
abbrev main_v190 : Ref sig .tc := ⟨.hbm, 257, rfl⟩
abbrev main_v191 : Ref sig .tc := ⟨.hbm, 258, rfl⟩
abbrev main_v192 : Ref sig .tc := ⟨.hbm, 259, rfl⟩
abbrev main_v193 : Ref sig .tc := ⟨.hbm, 260, rfl⟩
abbrev main_cst_42 : Ref sig .tc := ⟨.hbm, 261, rfl⟩
abbrev main_v194 : Ref sig .tc := ⟨.hbm, 262, rfl⟩
abbrev main_v195 : Ref sig .tc := ⟨.hbm, 263, rfl⟩
abbrev main_v196 : Ref sig .tc := ⟨.hbm, 264, rfl⟩
abbrev main_c_43 : Ref sig .tc := ⟨.hbm, 265, rfl⟩
abbrev main_v197 : Ref sig .tc := ⟨.hbm, 266, rfl⟩
abbrev main_v198 : Ref sig .tc := ⟨.hbm, 267, rfl⟩
abbrev main_c_44 : Ref sig .tc := ⟨.hbm, 268, rfl⟩
abbrev main_v199 : Ref sig .tc := ⟨.hbm, 269, rfl⟩
abbrev main_v200 : Ref sig .tc := ⟨.hbm, 270, rfl⟩
abbrev main_v201 : Ref sig .tc := ⟨.hbm, 271, rfl⟩
abbrev main_v202 : Ref sig .tc := ⟨.hbm, 272, rfl⟩
abbrev main_v203 : Ref sig .tc := ⟨.hbm, 273, rfl⟩
abbrev main_v204 : Ref sig .tc := ⟨.hbm, 274, rfl⟩
abbrev main_v205 : Ref sig .tc := ⟨.hbm, 275, rfl⟩
abbrev main_v206 : Ref sig .tc := ⟨.hbm, 276, rfl⟩
abbrev main_cst_45 : Ref sig .tc := ⟨.hbm, 277, rfl⟩
abbrev main_v207 : Ref sig .tc := ⟨.hbm, 278, rfl⟩
abbrev main_v208 : Ref sig .tc := ⟨.hbm, 279, rfl⟩
abbrev main_v209 : Ref sig .tc := ⟨.hbm, 280, rfl⟩
abbrev main_c_46 : Ref sig .tc := ⟨.hbm, 281, rfl⟩
abbrev main_v210 : Ref sig .tc := ⟨.hbm, 282, rfl⟩
abbrev main_v211 : Ref sig .tc := ⟨.hbm, 283, rfl⟩
abbrev main_c_47 : Ref sig .tc := ⟨.hbm, 284, rfl⟩
abbrev main_v212 : Ref sig .tc := ⟨.hbm, 285, rfl⟩
abbrev main_v213 : Ref sig .tc := ⟨.hbm, 286, rfl⟩
abbrev main_v214 : Ref sig .tc := ⟨.hbm, 287, rfl⟩
abbrev main_v215 : Ref sig .tc := ⟨.hbm, 288, rfl⟩
abbrev main_v216 : Ref sig .tc := ⟨.hbm, 289, rfl⟩
abbrev main_v217 : Ref sig .tc := ⟨.hbm, 290, rfl⟩
abbrev main_v218 : Ref sig .tc := ⟨.hbm, 291, rfl⟩
abbrev main_v219 : Ref sig .tc := ⟨.hbm, 292, rfl⟩
abbrev main_cst_48 : Ref sig .tc := ⟨.hbm, 293, rfl⟩
abbrev main_v220 : Ref sig .tc := ⟨.hbm, 294, rfl⟩
abbrev main_v221 : Ref sig .tc := ⟨.hbm, 295, rfl⟩
abbrev main_v222 : Ref sig .tc := ⟨.hbm, 296, rfl⟩
abbrev main_c_49 : Ref sig .tc := ⟨.hbm, 297, rfl⟩
abbrev main_v223 : Ref sig .tc := ⟨.hbm, 298, rfl⟩
abbrev main_v224 : Ref sig .tc := ⟨.hbm, 299, rfl⟩
abbrev main_c_50 : Ref sig .tc := ⟨.hbm, 300, rfl⟩
abbrev main_v225 : Ref sig .tc := ⟨.hbm, 301, rfl⟩
abbrev main_v226 : Ref sig .tc := ⟨.hbm, 302, rfl⟩
abbrev main_v227 : Ref sig .tc := ⟨.hbm, 303, rfl⟩
abbrev main_v228 : Ref sig .tc := ⟨.hbm, 304, rfl⟩
abbrev main_v229 : Ref sig .tc := ⟨.hbm, 305, rfl⟩
abbrev main_v230 : Ref sig .tc := ⟨.hbm, 306, rfl⟩
abbrev main_v231 : Ref sig .tc := ⟨.hbm, 307, rfl⟩
abbrev main_v232 : Ref sig .tc := ⟨.hbm, 308, rfl⟩
abbrev main_cst_51 : Ref sig .tc := ⟨.hbm, 309, rfl⟩
abbrev main_v233 : Ref sig .tc := ⟨.hbm, 310, rfl⟩
abbrev main_v234 : Ref sig .tc := ⟨.hbm, 311, rfl⟩
abbrev main_v235 : Ref sig .tc := ⟨.hbm, 312, rfl⟩
abbrev main_c_52 : Ref sig .tc := ⟨.hbm, 313, rfl⟩
abbrev main_v236 : Ref sig .tc := ⟨.hbm, 314, rfl⟩
abbrev main_v237 : Ref sig .tc := ⟨.hbm, 315, rfl⟩
abbrev main_c_53 : Ref sig .tc := ⟨.hbm, 316, rfl⟩
abbrev main_v238 : Ref sig .tc := ⟨.hbm, 317, rfl⟩
abbrev main_v239 : Ref sig .tc := ⟨.hbm, 318, rfl⟩
abbrev main_v240 : Ref sig .tc := ⟨.hbm, 319, rfl⟩
abbrev main_v241 : Ref sig .tc := ⟨.hbm, 320, rfl⟩
abbrev main_v242 : Ref sig .tc := ⟨.hbm, 321, rfl⟩
abbrev main_v243 : Ref sig .tc := ⟨.hbm, 322, rfl⟩
abbrev main_v244 : Ref sig .tc := ⟨.hbm, 323, rfl⟩
abbrev main_v245 : Ref sig .tc := ⟨.hbm, 324, rfl⟩
abbrev main_cst_54 : Ref sig .tc := ⟨.hbm, 325, rfl⟩
abbrev main_v246 : Ref sig .tc := ⟨.hbm, 326, rfl⟩
abbrev main_v247 : Ref sig .tc := ⟨.hbm, 327, rfl⟩
abbrev main_v248 : Ref sig .tc := ⟨.hbm, 328, rfl⟩
abbrev main_v249 : Ref sig .tc := ⟨.hbm, 329, rfl⟩
abbrev main_v250 : Ref sig .tc := ⟨.hbm, 330, rfl⟩
abbrev main_v251 : Ref sig .tc := ⟨.hbm, 331, rfl⟩
abbrev main_v252 : Ref sig .tc := ⟨.hbm, 332, rfl⟩
abbrev main_c_55 : Ref sig .tc := ⟨.hbm, 333, rfl⟩
abbrev main_v253 : Ref sig .tc := ⟨.hbm, 334, rfl⟩
abbrev main_v254 : Ref sig .tc := ⟨.hbm, 335, rfl⟩
abbrev main_c_56 : Ref sig .tc := ⟨.hbm, 336, rfl⟩
abbrev main_v255 : Ref sig .tc := ⟨.hbm, 337, rfl⟩
abbrev main_v256 : Ref sig .tc := ⟨.hbm, 338, rfl⟩
abbrev main_v257 : Ref sig .tc := ⟨.hbm, 339, rfl⟩
abbrev main_v258 : Ref sig .tc := ⟨.hbm, 340, rfl⟩
abbrev main_v259 : Ref sig .tc := ⟨.hbm, 341, rfl⟩
abbrev main_v260 : Ref sig .tc := ⟨.hbm, 342, rfl⟩
abbrev main_v261 : Ref sig .tc := ⟨.hbm, 343, rfl⟩
abbrev main_v262 : Ref sig .tc := ⟨.hbm, 344, rfl⟩
abbrev main_cst_57 : Ref sig .tc := ⟨.hbm, 345, rfl⟩
abbrev main_v263 : Ref sig .tc := ⟨.hbm, 346, rfl⟩
abbrev main_v264 : Ref sig .tc := ⟨.hbm, 347, rfl⟩
abbrev main_v265 : Ref sig .tc := ⟨.hbm, 348, rfl⟩
abbrev main_c_58 : Ref sig .tc := ⟨.hbm, 349, rfl⟩
abbrev main_v266 : Ref sig .tc := ⟨.hbm, 350, rfl⟩
abbrev main_v267 : Ref sig .tc := ⟨.hbm, 351, rfl⟩
abbrev main_c_59 : Ref sig .tc := ⟨.hbm, 352, rfl⟩
abbrev main_v268 : Ref sig .tc := ⟨.hbm, 353, rfl⟩
abbrev main_v269 : Ref sig .tc := ⟨.hbm, 354, rfl⟩
abbrev main_v270 : Ref sig .tc := ⟨.hbm, 355, rfl⟩
abbrev main_v271 : Ref sig .tc := ⟨.hbm, 356, rfl⟩
abbrev main_v272 : Ref sig .tc := ⟨.hbm, 357, rfl⟩
abbrev main_v273 : Ref sig .tc := ⟨.hbm, 358, rfl⟩
abbrev main_v274 : Ref sig .tc := ⟨.hbm, 359, rfl⟩
abbrev main_v275 : Ref sig .tc := ⟨.hbm, 360, rfl⟩
abbrev main_cst_60 : Ref sig .tc := ⟨.hbm, 361, rfl⟩
abbrev main_v276 : Ref sig .tc := ⟨.hbm, 362, rfl⟩
abbrev main_v277 : Ref sig .tc := ⟨.hbm, 363, rfl⟩
abbrev main_v278 : Ref sig .tc := ⟨.hbm, 364, rfl⟩
abbrev main_c_61 : Ref sig .tc := ⟨.hbm, 365, rfl⟩
abbrev main_v279 : Ref sig .tc := ⟨.hbm, 366, rfl⟩
abbrev main_v280 : Ref sig .tc := ⟨.hbm, 367, rfl⟩
abbrev main_c_62 : Ref sig .tc := ⟨.hbm, 368, rfl⟩
abbrev main_v281 : Ref sig .tc := ⟨.hbm, 369, rfl⟩
abbrev main_v282 : Ref sig .tc := ⟨.hbm, 370, rfl⟩
abbrev main_v283 : Ref sig .tc := ⟨.hbm, 371, rfl⟩
abbrev main_v284 : Ref sig .tc := ⟨.hbm, 372, rfl⟩
abbrev main_v285 : Ref sig .tc := ⟨.hbm, 373, rfl⟩
abbrev main_v286 : Ref sig .tc := ⟨.hbm, 374, rfl⟩
abbrev main_v287 : Ref sig .tc := ⟨.hbm, 375, rfl⟩
abbrev main_v288 : Ref sig .tc := ⟨.hbm, 376, rfl⟩
abbrev main_cst_63 : Ref sig .tc := ⟨.hbm, 377, rfl⟩
abbrev main_v289 : Ref sig .tc := ⟨.hbm, 378, rfl⟩
abbrev main_v290 : Ref sig .tc := ⟨.hbm, 379, rfl⟩
abbrev main_v291 : Ref sig .tc := ⟨.hbm, 380, rfl⟩
abbrev main_c_64 : Ref sig .tc := ⟨.hbm, 381, rfl⟩
abbrev main_v292 : Ref sig .tc := ⟨.hbm, 382, rfl⟩
abbrev main_v293 : Ref sig .tc := ⟨.hbm, 383, rfl⟩
abbrev main_c_65 : Ref sig .tc := ⟨.hbm, 384, rfl⟩
abbrev main_v294 : Ref sig .tc := ⟨.hbm, 385, rfl⟩
abbrev main_v295 : Ref sig .tc := ⟨.hbm, 386, rfl⟩
abbrev main_v296 : Ref sig .tc := ⟨.hbm, 387, rfl⟩
abbrev main_v297 : Ref sig .tc := ⟨.hbm, 388, rfl⟩
abbrev main_v298 : Ref sig .tc := ⟨.hbm, 389, rfl⟩
abbrev main_v299 : Ref sig .tc := ⟨.hbm, 390, rfl⟩
abbrev main_v300 : Ref sig .tc := ⟨.hbm, 391, rfl⟩
abbrev main_v301 : Ref sig .tc := ⟨.hbm, 392, rfl⟩
abbrev main_cst_66 : Ref sig .tc := ⟨.hbm, 393, rfl⟩
abbrev main_v302 : Ref sig .tc := ⟨.hbm, 394, rfl⟩
abbrev main_v303 : Ref sig .tc := ⟨.hbm, 395, rfl⟩
abbrev main_v304 : Ref sig .tc := ⟨.hbm, 396, rfl⟩
abbrev main_c_67 : Ref sig .tc := ⟨.hbm, 397, rfl⟩
abbrev main_v305 : Ref sig .tc := ⟨.hbm, 398, rfl⟩
abbrev main_v306 : Ref sig .tc := ⟨.hbm, 399, rfl⟩
abbrev main_c_68 : Ref sig .tc := ⟨.hbm, 400, rfl⟩
abbrev main_v307 : Ref sig .tc := ⟨.hbm, 401, rfl⟩
abbrev main_v308 : Ref sig .tc := ⟨.hbm, 402, rfl⟩
abbrev main_v309 : Ref sig .tc := ⟨.hbm, 403, rfl⟩
abbrev main_v310 : Ref sig .tc := ⟨.hbm, 404, rfl⟩
abbrev main_v311 : Ref sig .tc := ⟨.hbm, 405, rfl⟩
abbrev main_v312 : Ref sig .tc := ⟨.hbm, 406, rfl⟩
abbrev main_v313 : Ref sig .tc := ⟨.hbm, 407, rfl⟩
abbrev main_v314 : Ref sig .tc := ⟨.hbm, 408, rfl⟩
abbrev main_cst_69 : Ref sig .tc := ⟨.hbm, 409, rfl⟩
abbrev main_v315 : Ref sig .tc := ⟨.hbm, 410, rfl⟩
abbrev main_v316 : Ref sig .tc := ⟨.hbm, 411, rfl⟩
abbrev main_v317 : Ref sig .tc := ⟨.hbm, 412, rfl⟩
abbrev main_c_70 : Ref sig .tc := ⟨.hbm, 413, rfl⟩
abbrev main_v318 : Ref sig .tc := ⟨.hbm, 414, rfl⟩
abbrev main_v319 : Ref sig .tc := ⟨.hbm, 415, rfl⟩
abbrev main_c_71 : Ref sig .tc := ⟨.hbm, 416, rfl⟩
abbrev main_v320 : Ref sig .tc := ⟨.hbm, 417, rfl⟩
abbrev main_v321 : Ref sig .tc := ⟨.hbm, 418, rfl⟩
abbrev main_v322 : Ref sig .tc := ⟨.hbm, 419, rfl⟩
abbrev main_v323 : Ref sig .tc := ⟨.hbm, 420, rfl⟩
abbrev main_v324 : Ref sig .tc := ⟨.hbm, 421, rfl⟩
abbrev main_v325 : Ref sig .tc := ⟨.hbm, 422, rfl⟩
abbrev main_v326 : Ref sig .tc := ⟨.hbm, 423, rfl⟩
abbrev main_v327 : Ref sig .tc := ⟨.hbm, 424, rfl⟩
abbrev main_cst_72 : Ref sig .tc := ⟨.hbm, 425, rfl⟩
abbrev main_v328 : Ref sig .tc := ⟨.hbm, 426, rfl⟩
abbrev main_v329 : Ref sig .tc := ⟨.hbm, 427, rfl⟩
abbrev main_v330 : Ref sig .tc := ⟨.hbm, 428, rfl⟩
abbrev main_v331 : Ref sig .tc := ⟨.hbm, 429, rfl⟩
abbrev main_v332 : Ref sig .tc := ⟨.hbm, 430, rfl⟩
abbrev main_v333 : Ref sig .tc := ⟨.hbm, 431, rfl⟩
abbrev main_v334 : Ref sig .tc := ⟨.hbm, 432, rfl⟩
abbrev main_v335 : Ref sig .tc := ⟨.hbm, 433, rfl⟩
abbrev main_v336 : Ref sig .tc := ⟨.hbm, 434, rfl⟩
abbrev main_v337 : Ref sig .tc := ⟨.hbm, 435, rfl⟩
abbrev main_v338 : Ref sig .tc := ⟨.hbm, 436, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg3_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg2_0 : Ref sig .tc := ⟨.vmem, 27, rfl⟩
abbrev cc4_stg3_0 : Ref sig .tc := ⟨.vmem, 28, rfl⟩
abbrev cc4_stg3_1 : Ref sig .tc := ⟨.vmem, 29, rfl⟩
abbrev cc5_stg0_0 : Ref sig .tc := ⟨.vmem, 30, rfl⟩
abbrev cc5_stg0_1 : Ref sig .tc := ⟨.vmem, 31, rfl⟩
abbrev cc5_stg1_0 : Ref sig .tc := ⟨.vmem, 32, rfl⟩
abbrev cc5_stg2_0 : Ref sig .tc := ⟨.vmem, 33, rfl⟩
abbrev cc5_stg3_0 : Ref sig .tc := ⟨.vmem, 34, rfl⟩
abbrev cc5_stg3_1 : Ref sig .tc := ⟨.vmem, 35, rfl⟩
abbrev cc6_stg0_0 : Ref sig .tc := ⟨.vmem, 36, rfl⟩
abbrev cc6_stg0_1 : Ref sig .tc := ⟨.vmem, 37, rfl⟩
abbrev cc6_stg1_0 : Ref sig .tc := ⟨.vmem, 38, rfl⟩
abbrev cc6_stg2_0 : Ref sig .tc := ⟨.vmem, 39, rfl⟩
abbrev cc6_stg3_0 : Ref sig .tc := ⟨.vmem, 40, rfl⟩
abbrev cc6_stg3_1 : Ref sig .tc := ⟨.vmem, 41, rfl⟩
abbrev cc7_stg0_0 : Ref sig .tc := ⟨.vmem, 42, rfl⟩
abbrev cc7_stg0_1 : Ref sig .tc := ⟨.vmem, 43, rfl⟩
abbrev cc7_stg1_0 : Ref sig .tc := ⟨.vmem, 44, rfl⟩
abbrev cc7_stg2_0 : Ref sig .tc := ⟨.vmem, 45, rfl⟩
abbrev cc7_stg3_0 : Ref sig .tc := ⟨.vmem, 46, rfl⟩
abbrev cc7_stg3_1 : Ref sig .tc := ⟨.vmem, 47, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem3_0 : DmaSem sig := 22
abbrev cc3_sem3_1 : DmaSem sig := 23
abbrev cc4_sem0_0 : DmaSem sig := 24
abbrev cc4_sem0_1 : DmaSem sig := 25
abbrev cc4_sem1_0 : DmaSem sig := 26
abbrev cc4_sem2_0 : DmaSem sig := 27
abbrev cc4_sem3_0 : DmaSem sig := 28
abbrev cc4_sem3_1 : DmaSem sig := 29
abbrev cc5_sem0_0 : DmaSem sig := 30
abbrev cc5_sem0_1 : DmaSem sig := 31
abbrev cc5_sem1_0 : DmaSem sig := 32
abbrev cc5_sem2_0 : DmaSem sig := 33
abbrev cc5_sem3_0 : DmaSem sig := 34
abbrev cc5_sem3_1 : DmaSem sig := 35
abbrev cc6_sem0_0 : DmaSem sig := 36
abbrev cc6_sem0_1 : DmaSem sig := 37
abbrev cc6_sem1_0 : DmaSem sig := 38
abbrev cc6_sem2_0 : DmaSem sig := 39
abbrev cc6_sem3_0 : DmaSem sig := 40
abbrev cc6_sem3_1 : DmaSem sig := 41
abbrev cc7_sem0_0 : DmaSem sig := 42
abbrev cc7_sem0_1 : DmaSem sig := 43
abbrev cc7_sem1_0 : DmaSem sig := 44
abbrev cc7_sem2_0 : DmaSem sig := 45
abbrev cc7_sem3_0 : DmaSem sig := 46
abbrev cc7_sem3_1 : DmaSem sig := 47

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x22 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S22x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x1 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x44 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S44x8 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x8 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x8 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x32 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S32x1 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x1 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S5000x1 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x77 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S77x8 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x8 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S5000x8 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x56 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S56x1 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x1 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S5000x1 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev grid7 : Pipeline.Grid := ⟨1, ![20], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x3 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S3x1 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x1 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 2 → Memref sig .tc .vmem S5000x1 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S1600000x1 : S_.BroadcastsInDim S1600000x1 (![] : Fin 0 → Fin S1600000x1.rank)
  bcast_S_S100000x1 : S_.BroadcastsInDim S100000x1 (![] : Fin 0 → Fin S100000x1.rank)
  bcast_S_S100000x11 : S_.BroadcastsInDim S100000x11 (![] : Fin 0 → Fin S100000x11.rank)
  bcast_S100000x1_S100000x11_0_1 : S100000x1.BroadcastsInDim S100000x11 (![0, 1] : Fin 2 → Fin S100000x11.rank)
  concatenates_S100000x11_S100000x11_S100000x22_d1 : Shape.Concatenates [S100000x11, S100000x11] S100000x22 1
  concatenates_S128x11_S128x11_S128x22_d1 : Shape.Concatenates [S128x11, S128x11] S128x22 1
  transposes_S128x22_S22x128_1_0 : S128x22.Transposes [1, 0] S22x128
  shapeCasts_S128_S1x128 : S128.ShapeCasts S1x128
  inb_S5000x22_S5000x22_0_0 : ∀ a, (![0, 0] : Fin 2 → Nat) a + S5000x22.size a ≤ S5000x22.size a
  h_S5000x22 : 0 < S5000x22.numel
  shapeCasts_S5000x22_S5000x22 : S5000x22.ShapeCasts S5000x22
  bitsLt_bf16_f32 : FTy.bits .bf16 < FTy.bits .f32
  inb_S22x128_S22x128_0_0 : ∀ a, (![0, 0] : Fin 2 → Nat) a + S22x128.size a ≤ S22x128.size a
  h_S22x128 : 0 < S22x128.numel
  shapeCasts_S22x128_S22x128 : S22x128.ShapeCasts S22x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  concatenates_S100000x128_S100000x128_S100000x256_d1 : Shape.Concatenates [S100000x128, S100000x128] S100000x256 1
  concatenates_S128x128_S128x128_S128x256_d1 : Shape.Concatenates [S128x128, S128x128] S128x256 1
  transposes_S128x256_S256x128_1_0 : S128x256.Transposes [1, 0] S256x128
  inb_S5000x256_S5000x256_0_0 : ∀ a, (![0, 0] : Fin 2 → Nat) a + S5000x256.size a ≤ S5000x256.size a
  h_S5000x256 : 0 < S5000x256.numel
  shapeCasts_S5000x256_S5000x256 : S5000x256.ShapeCasts S5000x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  concatenates_S1x128_S1x128_S1x256_d1 : Shape.Concatenates [S1x128, S1x128] S1x256 1
  transposes_S1x256_S256x1_1_0 : S1x256.Transposes [1, 0] S256x1
  shapeCasts_S1_S1x1 : S1.ShapeCasts S1x1
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  inb_S5000x1_S5000x1_0_0 : ∀ a, (![0, 0] : Fin 2 → Nat) a + S5000x1.size a ≤ S5000x1.size a
  h_S5000x1 : 0 < S5000x1.numel
  bcast_S1600000x1_S1600000x11_0_1 : S1600000x1.BroadcastsInDim S1600000x11 (![0, 1] : Fin 2 → Fin S1600000x11.rank)
  concatenates_S100000x11_S100000x11_S100000x11_S100000x11_S100000x44_d1 : Shape.Concatenates [S100000x11, S100000x11, S100000x11, S100000x11] S100000x44 1
  transposes_S8x44_S44x8_1_0 : S8x44.Transposes [1, 0] S44x8
  shapeCasts_S8_S1x8 : S8.ShapeCasts S1x8
  inb_S5000x44_S5000x44_0_0 : ∀ a, (![0, 0] : Fin 2 → Nat) a + S5000x44.size a ≤ S5000x44.size a
  h_S5000x44 : 0 < S5000x44.numel
  shapeCasts_S5000x44_S5000x44 : S5000x44.ShapeCasts S5000x44
  inb_S44x8_S44x8_0_0 : ∀ a, (![0, 0] : Fin 2 → Nat) a + S44x8.size a ≤ S44x8.size a
  h_S44x8 : 0 < S44x8.numel
  shapeCasts_S44x8_S44x8 : S44x8.ShapeCasts S44x8
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S5000x8 : S1x8.Broadcasts S5000x8
  inb_S5000x8_S5000x8_0_0 : ∀ a, (![0, 0] : Fin 2 → Nat) a + S5000x8.size a ≤ S5000x8.size a
  h_S5000x8 : 0 < S5000x8.numel
  bcast_S1600000x1_S1600000x8_0_1 : S1600000x1.BroadcastsInDim S1600000x8 (![0, 1] : Fin 2 → Fin S1600000x8.rank)
  bcast_S_S100000x8 : S_.BroadcastsInDim S100000x8 (![] : Fin 0 → Fin S100000x8.rank)
  concatenates_S100000x8_S100000x8_S100000x8_S100000x8_S100000x32_d1 : Shape.Concatenates [S100000x8, S100000x8, S100000x8, S100000x8] S100000x32 1
  transposes_S1x32_S32x1_1_0 : S1x32.Transposes [1, 0] S32x1
  inb_S5000x32_S5000x32_0_0 : ∀ a, (![0, 0] : Fin 2 → Nat) a + S5000x32.size a ≤ S5000x32.size a
  h_S5000x32 : 0 < S5000x32.numel
  shapeCasts_S5000x32_S5000x32 : S5000x32.ShapeCasts S5000x32
  inb_S32x1_S32x1_0_0 : ∀ a, (![0, 0] : Fin 2 → Nat) a + S32x1.size a ≤ S32x1.size a
  h_S32x1 : 0 < S32x1.numel
  shapeCasts_S32x1_S32x1 : S32x1.ShapeCasts S32x1
  concatenates_S100000x11_S100000x11_S100000x11_S100000x11_S100000x11_S100000x11_S100000x11_S100000x77_d1 : Shape.Concatenates [S100000x11, S100000x11, S100000x11, S100000x11, S100000x11, S100000x11, S100000x11] S100000x77 1
  transposes_S8x77_S77x8_1_0 : S8x77.Transposes [1, 0] S77x8
  inb_S5000x77_S5000x77_0_0 : ∀ a, (![0, 0] : Fin 2 → Nat) a + S5000x77.size a ≤ S5000x77.size a
  h_S5000x77 : 0 < S5000x77.numel
  shapeCasts_S5000x77_S5000x77 : S5000x77.ShapeCasts S5000x77
  inb_S77x8_S77x8_0_0 : ∀ a, (![0, 0] : Fin 2 → Nat) a + S77x8.size a ≤ S77x8.size a
  h_S77x8 : 0 < S77x8.numel
  shapeCasts_S77x8_S77x8 : S77x8.ShapeCasts S77x8
  concatenates_S100000x8_S100000x8_S100000x8_S100000x8_S100000x8_S100000x8_S100000x8_S100000x56_d1 : Shape.Concatenates [S100000x8, S100000x8, S100000x8, S100000x8, S100000x8, S100000x8, S100000x8] S100000x56 1
  transposes_S1x56_S56x1_1_0 : S1x56.Transposes [1, 0] S56x1
  inb_S5000x56_S5000x56_0_0 : ∀ a, (![0, 0] : Fin 2 → Nat) a + S5000x56.size a ≤ S5000x56.size a
  h_S5000x56 : 0 < S5000x56.numel
  shapeCasts_S5000x56_S5000x56 : S5000x56.ShapeCasts S5000x56
  inb_S56x1_S56x1_0_0 : ∀ a, (![0, 0] : Fin 2 → Nat) a + S56x1.size a ≤ S56x1.size a
  h_S56x1 : 0 < S56x1.numel
  shapeCasts_S56x1_S56x1 : S56x1.ShapeCasts S56x1
  concatenates_S100000x1_S100000x1_S100000x1_S100000x3_d1 : Shape.Concatenates [S100000x1, S100000x1, S100000x1] S100000x3 1
  transposes_S1x3_S3x1_1_0 : S1x3.Transposes [1, 0] S3x1
  inb_S5000x3_S5000x3_0_0 : ∀ a, (![0, 0] : Fin 2 → Nat) a + S5000x3.size a ≤ S5000x3.size a
  h_S5000x3 : 0 < S5000x3.numel
  shapeCasts_S5000x3_S5000x3 : S5000x3.ShapeCasts S5000x3
  inb_S3x1_S3x1_0_0 : ∀ a, (![0, 0] : Fin 2 → Nat) a + S3x1.size a ≤ S3x1.size a
  h_S3x1 : 0 < S3x1.numel
  shapeCasts_S3x1_S3x1 : S3x1.ShapeCasts S3x1
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  scatter_S100000x1_S1600000x1_S1600000x1_1_0_0_1_wf : ScatterDims.WF S100000x1 S1600000x1 S1600000x1 [1] [0] [0] 1
  gather_S100000x11_S1600000x1_S1600000x11_1_0_n_n_0_1_111_wf : GatherDims.WF S100000x11 S1600000x1 S1600000x11 [1] [0] [] [0] [] 1 ![1, 11]
  scatter_S100000x11_S1600000x1_S1600000x11_1_0_0_1_wf : ScatterDims.WF S100000x11 S1600000x1 S1600000x11 [1] [0] [0] 1
  dot_S5000x22_S22x128_S5000x128_1_0_0_1_n_n_wf : DotDims.WF S5000x22 S22x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x256_S256x128_S5000x128_1_0_0_1_n_n_wf : DotDims.WF S5000x256 S256x128 S5000x128 [1] [0] [0] [1] [] []
  dot_S5000x256_S256x1_S5000x1_1_0_0_1_n_n_wf : DotDims.WF S5000x256 S256x1 S5000x1 [1] [0] [0] [1] [] []
  dot_S5000x44_S44x8_S5000x8_1_0_0_1_n_n_wf : DotDims.WF S5000x44 S44x8 S5000x8 [1] [0] [0] [1] [] []
  gather_S100000x8_S1600000x1_S1600000x8_1_0_n_n_0_1_18_wf : GatherDims.WF S100000x8 S1600000x1 S1600000x8 [1] [0] [] [0] [] 1 ![1, 8]
  scatter_S100000x8_S1600000x1_S1600000x8_1_0_0_1_wf : ScatterDims.WF S100000x8 S1600000x1 S1600000x8 [1] [0] [0] 1
  dot_S5000x32_S32x1_S5000x1_1_0_0_1_n_n_wf : DotDims.WF S5000x32 S32x1 S5000x1 [1] [0] [0] [1] [] []
  dot_S5000x77_S77x8_S5000x8_1_0_0_1_n_n_wf : DotDims.WF S5000x77 S77x8 S5000x8 [1] [0] [0] [1] [] []
  dot_S5000x56_S56x1_S5000x1_1_0_0_1_n_n_wf : DotDims.WF S5000x56 S56x1 S5000x1 [1] [0] [0] [1] [] []
  dot_S5000x3_S3x1_S5000x1_1_0_0_1_n_n_wf : DotDims.WF S5000x3 S3x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x22.size a ≤ S100000x22.size a
  hwx0_0 : ∀ i : grid0.Coords, EltTy.bits .f32 = 32 ∨ (Rect.block (s := S100000x22) S5000x22.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S22x128.size a ≤ S22x128.size a
  hwx0_1 : ∀ i : grid0.Coords, EltTy.bits .f32 = 32 ∨ (Rect.block (s := S22x128) S22x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S100000x256.size a
  hwx1_0 : ∀ i : grid1.Coords, EltTy.bits .f32 = 32 ∨ (Rect.block (s := S100000x256) S5000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x128.size a ≤ S256x128.size a
  hwx1_1 : ∀ i : grid1.Coords, EltTy.bits .f32 = 32 ∨ (Rect.block (s := S256x128) S256x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S100000x128.size a
  hwx1_3 : ∀ i : grid1.Coords, EltTy.bits .f32 = 32 ∨ (Rect.block (s := S100000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x256.size a ≤ S100000x256.size a
  hwx2_0 : ∀ i : grid2.Coords, EltTy.bits .f32 = 32 ∨ (Rect.block (s := S100000x256) S5000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x1.size a ≤ S256x1.size a
  hwx2_1 : ∀ i : grid2.Coords, EltTy.bits .f32 = 32 ∨ (Rect.block (s := S256x1) S256x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1.size a ≤ S1x1.size a
  hwx2_2 : ∀ i : grid2.Coords, EltTy.bits .f32 = 32 ∨ (Rect.block (s := S1x1) S1x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x1.size a ≤ S100000x1.size a
  hwx2_3 : ∀ i : grid2.Coords, EltTy.bits .f32 = 32 ∨ (Rect.block (s := S100000x1) S5000x1.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x44.size a ≤ S100000x44.size a
  hwx3_0 : ∀ i : grid3.Coords, EltTy.bits .f32 = 32 ∨ (Rect.block (s := S100000x44) S5000x44.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S44x8.size a ≤ S44x8.size a
  hwx3_1 : ∀ i : grid3.Coords, EltTy.bits .f32 = 32 ∨ (Rect.block (s := S44x8) S44x8.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x8.size a ≤ S1x8.size a
  hwx3_2 : ∀ i : grid3.Coords, EltTy.bits .f32 = 32 ∨ (Rect.block (s := S1x8) S1x8.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x8.size a ≤ S100000x8.size a
  hwx3_3 : ∀ i : grid3.Coords, EltTy.bits .f32 = 32 ∨ (Rect.block (s := S100000x8) S5000x8.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x32.size a ≤ S100000x32.size a
  hwx4_0 : ∀ i : grid4.Coords, EltTy.bits .f32 = 32 ∨ (Rect.block (s := S100000x32) S5000x32.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S32x1.size a ≤ S32x1.size a
  hwx4_1 : ∀ i : grid4.Coords, EltTy.bits .f32 = 32 ∨ (Rect.block (s := S32x1) S32x1.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x1.size a ≤ S1x1.size a
  hwx4_2 : ∀ i : grid4.Coords, EltTy.bits .f32 = 32 ∨ (Rect.block (s := S1x1) S1x1.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x1.size a ≤ S100000x1.size a
  hwx4_3 : ∀ i : grid4.Coords, EltTy.bits .f32 = 32 ∨ (Rect.block (s := S100000x1) S5000x1.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x77.size a ≤ S100000x77.size a
  hwx5_0 : ∀ i : grid5.Coords, EltTy.bits .f32 = 32 ∨ (Rect.block (s := S100000x77) S5000x77.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S77x8.size a ≤ S77x8.size a
  hwx5_1 : ∀ i : grid5.Coords, EltTy.bits .f32 = 32 ∨ (Rect.block (s := S77x8) S77x8.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x8.size a ≤ S1x8.size a
  hwx5_2 : ∀ i : grid5.Coords, EltTy.bits .f32 = 32 ∨ (Rect.block (s := S1x8) S1x8.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S5000x8.size a ≤ S100000x8.size a
  hwx5_3 : ∀ i : grid5.Coords, EltTy.bits .f32 = 32 ∨ (Rect.block (s := S100000x8) S5000x8.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x56.size a ≤ S100000x56.size a
  hwx6_0 : ∀ i : grid6.Coords, EltTy.bits .f32 = 32 ∨ (Rect.block (s := S100000x56) S5000x56.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S56x1.size a ≤ S56x1.size a
  hwx6_1 : ∀ i : grid6.Coords, EltTy.bits .f32 = 32 ∨ (Rect.block (s := S56x1) S56x1.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x1.size a ≤ S1x1.size a
  hwx6_2 : ∀ i : grid6.Coords, EltTy.bits .f32 = 32 ∨ (Rect.block (s := S1x1) S1x1.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S5000x1.size a ≤ S100000x1.size a
  hwx6_3 : ∀ i : grid6.Coords, EltTy.bits .f32 = 32 ∨ (Rect.block (s := S100000x1) S5000x1.size (cc6_transform_3 i) (hinb6_3 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x3.size a ≤ S100000x3.size a
  hwx7_0 : ∀ i : grid7.Coords, EltTy.bits .f32 = 32 ∨ (Rect.block (s := S100000x3) S5000x3.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S3x1.size a ≤ S3x1.size a
  hwx7_1 : ∀ i : grid7.Coords, EltTy.bits .f32 = 32 ∨ (Rect.block (s := S3x1) S3x1.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x1.size a ≤ S1x1.size a
  hwx7_2 : ∀ i : grid7.Coords, EltTy.bits .f32 = 32 ∨ (Rect.block (s := S1x1) S1x1.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S5000x1.size a ≤ S100000x1.size a
  hwx7_3 : ∀ i : grid7.Coords, EltTy.bits .f32 = 32 ∨ (Rect.block (s := S100000x1) S5000x1.size (cc7_transform_3 i) (hinb7_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def scatter_S100000x1_S1600000x1_S1600000x1_1_0_0_1 : ScatterDims S100000x1 S1600000x1 S1600000x1 where
  updateWindowDims := [1]
  insertedWindowDims := [0]
  scatterDimsToOperandDims := [0]
  indexVectorDim := 1
  wf := scatter_S100000x1_S1600000x1_S1600000x1_1_0_0_1_wf
def gather_S100000x11_S1600000x1_S1600000x11_1_0_n_n_0_1_111 : GatherDims S100000x11 S1600000x1 S1600000x11 where
  offsetDims := [1]
  collapsedSliceDims := [0]
  operandBatchingDims := []
  startIndicesBatchingDims := []
  startIndexMap := [0]
  indexVectorDim := 1
  sliceSizes := ![1, 11]
  wf := gather_S100000x11_S1600000x1_S1600000x11_1_0_n_n_0_1_111_wf
def scatter_S100000x11_S1600000x1_S1600000x11_1_0_0_1 : ScatterDims S100000x11 S1600000x1 S1600000x11 where
  updateWindowDims := [1]
  insertedWindowDims := [0]
  scatterDimsToOperandDims := [0]
  indexVectorDim := 1
  wf := scatter_S100000x11_S1600000x1_S1600000x11_1_0_0_1_wf
def dot_S5000x22_S22x128_S5000x128_1_0_0_1_n_n : DotDims S5000x22 S22x128 S5000x128 where
  lhsContracting := [1]
  rhsContracting := [0]
  lhsNonContracting := [0]
  rhsNonContracting := [1]
  lhsBatch := []
  rhsBatch := []
  wf := dot_S5000x22_S22x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def dot_S5000x256_S256x1_S5000x1_1_0_0_1_n_n : DotDims S5000x256 S256x1 S5000x1 where
  lhsContracting := [1]
  rhsContracting := [0]
  lhsNonContracting := [0]
  rhsNonContracting := [1]
  lhsBatch := []
  rhsBatch := []
  wf := dot_S5000x256_S256x1_S5000x1_1_0_0_1_n_n_wf
def dot_S5000x44_S44x8_S5000x8_1_0_0_1_n_n : DotDims S5000x44 S44x8 S5000x8 where
  lhsContracting := [1]
  rhsContracting := [0]
  lhsNonContracting := [0]
  rhsNonContracting := [1]
  lhsBatch := []
  rhsBatch := []
  wf := dot_S5000x44_S44x8_S5000x8_1_0_0_1_n_n_wf
def gather_S100000x8_S1600000x1_S1600000x8_1_0_n_n_0_1_18 : GatherDims S100000x8 S1600000x1 S1600000x8 where
  offsetDims := [1]
  collapsedSliceDims := [0]
  operandBatchingDims := []
  startIndicesBatchingDims := []
  startIndexMap := [0]
  indexVectorDim := 1
  sliceSizes := ![1, 8]
  wf := gather_S100000x8_S1600000x1_S1600000x8_1_0_n_n_0_1_18_wf
def scatter_S100000x8_S1600000x1_S1600000x8_1_0_0_1 : ScatterDims S100000x8 S1600000x1 S1600000x8 where
  updateWindowDims := [1]
  insertedWindowDims := [0]
  scatterDimsToOperandDims := [0]
  indexVectorDim := 1
  wf := scatter_S100000x8_S1600000x1_S1600000x8_1_0_0_1_wf
def dot_S5000x32_S32x1_S5000x1_1_0_0_1_n_n : DotDims S5000x32 S32x1 S5000x1 where
  lhsContracting := [1]
  rhsContracting := [0]
  lhsNonContracting := [0]
  rhsNonContracting := [1]
  lhsBatch := []
  rhsBatch := []
  wf := dot_S5000x32_S32x1_S5000x1_1_0_0_1_n_n_wf
def dot_S5000x77_S77x8_S5000x8_1_0_0_1_n_n : DotDims S5000x77 S77x8 S5000x8 where
  lhsContracting := [1]
  rhsContracting := [0]
  lhsNonContracting := [0]
  rhsNonContracting := [1]
  lhsBatch := []
  rhsBatch := []
  wf := dot_S5000x77_S77x8_S5000x8_1_0_0_1_n_n_wf
def dot_S5000x56_S56x1_S5000x1_1_0_0_1_n_n : DotDims S5000x56 S56x1 S5000x1 where
  lhsContracting := [1]
  rhsContracting := [0]
  lhsNonContracting := [0]
  rhsNonContracting := [1]
  lhsBatch := []
  rhsBatch := []
  wf := dot_S5000x56_S56x1_S5000x1_1_0_0_1_n_n_wf
def dot_S5000x3_S3x1_S5000x1_1_0_0_1_n_n : DotDims S5000x3 S3x1 S5000x1 where
  lhsContracting := [1]
  rhsContracting := [0]
  lhsNonContracting := [0]
  rhsNonContracting := [1]
  lhsBatch := []
  rhsBatch := []
  wf := dot_S5000x3_S3x1_S5000x1_1_0_0_1_n_n_wf

abbrev win0_0 : Pipeline.Window sig grid0 :=
  Pipeline.Window.ofSpec (Memref.whole main_v46) S5000x22.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v48) S22x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v49) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v50) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v63) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v65) S256x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v66) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v67) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v80) S5000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v82) S256x1.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v83) S1x1.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v84) S5000x1.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v124) S5000x44.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v125) S44x8.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v126) S1x8.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v127) S5000x8.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v167) S5000x32.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v168) S32x1.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v169) S1x1.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v170) S5000x1.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v249) S5000x77.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v250) S77x8.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v251) S1x8.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v252) S5000x8.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v331) S5000x56.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v332) S56x1.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v333) S1x1.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v334) S5000x1.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev win7_0 : Pipeline.Window sig grid7 :=
  Pipeline.Window.ofSpec (Memref.whole main_v335) S5000x3.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v336) S3x1.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v337) S1x1.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v338) S5000x1.size cc7_transform_3 reads7_3 true false 2 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

class Facts : Prop extends Facts₀ where

variable [Facts]
-- ==== ReferenceIdeal.lean ====
abbrev S100000x11 : Shape := ⟨2, ![100000, 11]⟩
abbrev S2x1600000 : Shape := ⟨2, ![2, 1600000]⟩
abbrev S128x11 : Shape := ⟨2, ![128, 11]⟩
abbrev S128 : Shape := ⟨1, ![128]⟩
abbrev S128x128 : Shape := ⟨2, ![128, 128]⟩
abbrev S1x128 : Shape := ⟨2, ![1, 128]⟩
abbrev S1 : Shape := ⟨1, ![1]⟩
abbrev S8x44 : Shape := ⟨2, ![8, 44]⟩
abbrev S8 : Shape := ⟨1, ![8]⟩
abbrev S1x32 : Shape := ⟨2, ![1, 32]⟩
abbrev S8x77 : Shape := ⟨2, ![8, 77]⟩
abbrev S1x56 : Shape := ⟨2, ![1, 56]⟩
abbrev S1x3 : Shape := ⟨2, ![1, 3]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x11 : Shape := ⟨2, ![1600000, 11]⟩
abbrev S100000x1 : Shape := ⟨2, ![100000, 1]⟩
abbrev S11x128 : Shape := ⟨2, ![11, 128]⟩
abbrev S100000x128 : Shape := ⟨2, ![100000, 128]⟩
abbrev S1600000x128 : Shape := ⟨2, ![1600000, 128]⟩
abbrev S128x1 : Shape := ⟨2, ![128, 1]⟩
abbrev S1x1 : Shape := ⟨2, ![1, 1]⟩
abbrev S100000x44 : Shape := ⟨2, ![100000, 44]⟩
abbrev S44x8 : Shape := ⟨2, ![44, 8]⟩
abbrev S100000x8 : Shape := ⟨2, ![100000, 8]⟩
abbrev S1x8 : Shape := ⟨2, ![1, 8]⟩
abbrev S1600000x8 : Shape := ⟨2, ![1600000, 8]⟩
abbrev S100000x32 : Shape := ⟨2, ![100000, 32]⟩
abbrev S32x1 : Shape := ⟨2, ![32, 1]⟩
abbrev S100000x77 : Shape := ⟨2, ![100000, 77]⟩
abbrev S77x8 : Shape := ⟨2, ![77, 8]⟩
abbrev S100000x56 : Shape := ⟨2, ![100000, 56]⟩
abbrev S56x1 : Shape := ⟨2, ![56, 1]⟩
abbrev S100000x3 : Shape := ⟨2, ![100000, 3]⟩
abbrev S3x1 : Shape := ⟨2, ![3, 1]⟩

abbrev nBuf : Space → Nat
  | .hbm => 518
  | .vmem => 0
  | .smem => 0
  | _ => 0

abbrev hbmTy0_0 (i : Nat) : BufTy := match i % 128 with
  | 0 => ⟨S100000x11, .f32⟩
  | 1 => ⟨S2x1600000, .i32⟩
  | 2 => ⟨S128x11, .f32⟩
  | 3 => ⟨S128x11, .f32⟩
  | 4 => ⟨S128, .f32⟩
  | 5 => ⟨S128x128, .f32⟩
  | 6 => ⟨S128x128, .f32⟩
  | 7 => ⟨S128, .f32⟩
  | 8 => ⟨S1x128, .f32⟩
  | 9 => ⟨S1x128, .f32⟩
  | 10 => ⟨S1, .f32⟩
  | 11 => ⟨S8x44, .f32⟩
  | 12 => ⟨S8, .f32⟩
  | 13 => ⟨S1x32, .f32⟩
  | 14 => ⟨S1, .f32⟩
  | 15 => ⟨S8x77, .f32⟩
  | 16 => ⟨S8, .f32⟩
  | 17 => ⟨S1x56, .f32⟩
  | 18 => ⟨S1, .f32⟩
  | 19 => ⟨S1x3, .f32⟩
  | 20 => ⟨S1, .f32⟩
  | 21 => ⟨S1x1600000, .i32⟩
  | 22 => ⟨S1600000, .i32⟩
  | 23 => ⟨S1x1600000, .i32⟩
  | 24 => ⟨S1600000, .i32⟩
  | 25 => ⟨S_, .f32⟩
  | 26 => ⟨S1600000, .f32⟩
  | 27 => ⟨S_, .f32⟩
  | 28 => ⟨S100000, .f32⟩
  | 29 => ⟨S1600000x1, .i32⟩
  | 30 => ⟨S100000, .f32⟩
  | 31 => ⟨S_, .f32⟩
  | 32 => ⟨S100000, .f32⟩
  | 33 => ⟨S100000, .i1⟩
  | 34 => ⟨S_, .f32⟩
  | 35 => ⟨S100000, .f32⟩
  | 36 => ⟨S100000, .f32⟩
  | 37 => ⟨S_, .f32⟩
  | 38 => ⟨S_, .f32⟩
  | 39 => ⟨S100000, .f32⟩
  | 40 => ⟨S100000, .f32⟩
  | 41 => ⟨S_, .i32⟩
  | 42 => ⟨S1600000, .i32⟩
  | 43 => ⟨S1600000, .i1⟩
  | 44 => ⟨S_, .i32⟩
  | 45 => ⟨S1600000, .i32⟩
  | 46 => ⟨S1600000, .i32⟩
  | 47 => ⟨S1600000, .i32⟩
  | 48 => ⟨S1600000x1, .i32⟩
  | 49 => ⟨S1600000, .f32⟩
  | 50 => ⟨S_, .i32⟩
  | 51 => ⟨S1600000, .i32⟩
  | 52 => ⟨S1600000, .i1⟩
  | 53 => ⟨S_, .i32⟩
  | 54 => ⟨S1600000, .i32⟩
  | 55 => ⟨S1600000, .i32⟩
  | 56 => ⟨S1600000, .i32⟩
  | 57 => ⟨S1600000x1, .i32⟩
  | 58 => ⟨S1600000, .f32⟩
  | 59 => ⟨S1600000, .f32⟩
  | 60 => ⟨S_, .i32⟩
  | 61 => ⟨S1600000, .i32⟩
  | 62 => ⟨S1600000, .i1⟩
  | 63 => ⟨S_, .i32⟩
  | 64 => ⟨S1600000, .i32⟩
  | 65 => ⟨S1600000, .i32⟩
  | 66 => ⟨S1600000, .i32⟩
  | 67 => ⟨S1600000x1, .i32⟩
  | 68 => ⟨S1600000x11, .f32⟩
  | 69 => ⟨S_, .f32⟩
  | 70 => ⟨S100000x11, .f32⟩
  | 71 => ⟨S1600000x1, .i32⟩
  | 72 => ⟨S100000x11, .f32⟩
  | 73 => ⟨S_, .f32⟩
  | 74 => ⟨S1600000x1, .f32⟩
  | 75 => ⟨S_, .f32⟩
  | 76 => ⟨S100000x1, .f32⟩
  | 77 => ⟨S1600000x1, .i32⟩
  | 78 => ⟨S100000x1, .f32⟩
  | 79 => ⟨S_, .f32⟩
  | 80 => ⟨S100000x1, .f32⟩
  | 81 => ⟨S100000x1, .f32⟩
  | 82 => ⟨S100000x11, .f32⟩
  | 83 => ⟨S100000x11, .f32⟩
  | 84 => ⟨S11x128, .f32⟩
  | 85 => ⟨S100000x128, .f32⟩
  | 86 => ⟨S11x128, .f32⟩
  | 87 => ⟨S100000x128, .f32⟩
  | 88 => ⟨S100000x128, .f32⟩
  | 89 => ⟨S1x128, .f32⟩
  | 90 => ⟨S100000x128, .f32⟩
  | 91 => ⟨S100000x128, .f32⟩
  | 92 => ⟨S100000x128, .f32⟩
  | 93 => ⟨S100000x128, .f32⟩
  | 94 => ⟨S_, .f32⟩
  | 95 => ⟨S100000x128, .f32⟩
  | 96 => ⟨S100000x128, .f32⟩
  | 97 => ⟨S_, .f32⟩
  | 98 => ⟨S100000x128, .f32⟩
  | 99 => ⟨S100000x128, .f32⟩
  | 100 => ⟨S_, .i32⟩
  | 101 => ⟨S1600000, .i32⟩
  | 102 => ⟨S1600000, .i1⟩
  | 103 => ⟨S_, .i32⟩
  | 104 => ⟨S1600000, .i32⟩
  | 105 => ⟨S1600000, .i32⟩
  | 106 => ⟨S1600000, .i32⟩
  | 107 => ⟨S1600000x1, .i32⟩
  | 108 => ⟨S1600000x128, .f32⟩
  | 109 => ⟨S_, .f32⟩
  | 110 => ⟨S100000x128, .f32⟩
  | 111 => ⟨S1600000x1, .i32⟩
  | 112 => ⟨S100000x128, .f32⟩
  | 113 => ⟨S_, .f32⟩
  | 114 => ⟨S1600000x1, .f32⟩
  | 115 => ⟨S_, .f32⟩
  | 116 => ⟨S100000x1, .f32⟩
  | 117 => ⟨S1600000x1, .i32⟩
  | 118 => ⟨S100000x1, .f32⟩
  | 119 => ⟨S_, .f32⟩
  | 120 => ⟨S100000x1, .f32⟩
  | 121 => ⟨S100000x1, .f32⟩
  | 122 => ⟨S100000x128, .f32⟩
  | 123 => ⟨S100000x128, .f32⟩
  | 124 => ⟨S128x128, .f32⟩
  | 125 => ⟨S100000x128, .f32⟩
  | 126 => ⟨S128x128, .f32⟩
  | 127 => ⟨S100000x128, .f32⟩
  | _ => ⟨S100000x11, .f32⟩

abbrev hbmTy0_1 (i : Nat) : BufTy := match i % 128 with
  | 0 => ⟨S100000x128, .f32⟩
  | 1 => ⟨S1x128, .f32⟩
  | 2 => ⟨S100000x128, .f32⟩
  | 3 => ⟨S100000x128, .f32⟩
  | 4 => ⟨S100000x128, .f32⟩
  | 5 => ⟨S100000x128, .f32⟩
  | 6 => ⟨S_, .f32⟩
  | 7 => ⟨S100000x128, .f32⟩
  | 8 => ⟨S100000x128, .f32⟩
  | 9 => ⟨S_, .f32⟩
  | 10 => ⟨S100000x128, .f32⟩
  | 11 => ⟨S100000x128, .f32⟩
  | 12 => ⟨S_, .i32⟩
  | 13 => ⟨S1600000, .i32⟩
  | 14 => ⟨S1600000, .i1⟩
  | 15 => ⟨S_, .i32⟩
  | 16 => ⟨S1600000, .i32⟩
  | 17 => ⟨S1600000, .i32⟩
  | 18 => ⟨S1600000, .i32⟩
  | 19 => ⟨S1600000x1, .i32⟩
  | 20 => ⟨S1600000x128, .f32⟩
  | 21 => ⟨S_, .f32⟩
  | 22 => ⟨S100000x128, .f32⟩
  | 23 => ⟨S1600000x1, .i32⟩
  | 24 => ⟨S100000x128, .f32⟩
  | 25 => ⟨S_, .f32⟩
  | 26 => ⟨S1600000x1, .f32⟩
  | 27 => ⟨S_, .f32⟩
  | 28 => ⟨S100000x1, .f32⟩
  | 29 => ⟨S1600000x1, .i32⟩
  | 30 => ⟨S100000x1, .f32⟩
  | 31 => ⟨S_, .f32⟩
  | 32 => ⟨S100000x1, .f32⟩
  | 33 => ⟨S100000x1, .f32⟩
  | 34 => ⟨S100000x128, .f32⟩
  | 35 => ⟨S100000x128, .f32⟩
  | 36 => ⟨S128x1, .f32⟩
  | 37 => ⟨S100000x1, .f32⟩
  | 38 => ⟨S128x1, .f32⟩
  | 39 => ⟨S100000x1, .f32⟩
  | 40 => ⟨S100000x1, .f32⟩
  | 41 => ⟨S1x1, .f32⟩
  | 42 => ⟨S100000x1, .f32⟩
  | 43 => ⟨S100000x1, .f32⟩
  | 44 => ⟨S_, .f32⟩
  | 45 => ⟨S100000x1, .f32⟩
  | 46 => ⟨S100000x1, .f32⟩
  | 47 => ⟨S_, .i32⟩
  | 48 => ⟨S1600000, .i32⟩
  | 49 => ⟨S1600000, .i1⟩
  | 50 => ⟨S_, .i32⟩
  | 51 => ⟨S1600000, .i32⟩
  | 52 => ⟨S1600000, .i32⟩
  | 53 => ⟨S1600000, .i32⟩
  | 54 => ⟨S1600000x1, .i32⟩
  | 55 => ⟨S1600000x11, .f32⟩
  | 56 => ⟨S1600000x1, .f32⟩
  | 57 => ⟨S1600000x11, .f32⟩
  | 58 => ⟨S1600000x11, .f32⟩
  | 59 => ⟨S_, .f32⟩
  | 60 => ⟨S100000x11, .f32⟩
  | 61 => ⟨S1600000x1, .i32⟩
  | 62 => ⟨S100000x11, .f32⟩
  | 63 => ⟨S_, .i32⟩
  | 64 => ⟨S1600000, .i32⟩
  | 65 => ⟨S1600000, .i1⟩
  | 66 => ⟨S_, .i32⟩
  | 67 => ⟨S1600000, .i32⟩
  | 68 => ⟨S1600000, .i32⟩
  | 69 => ⟨S1600000, .i32⟩
  | 70 => ⟨S1600000x1, .i32⟩
  | 71 => ⟨S1600000x11, .f32⟩
  | 72 => ⟨S1600000x1, .f32⟩
  | 73 => ⟨S1600000x11, .f32⟩
  | 74 => ⟨S1600000x11, .f32⟩
  | 75 => ⟨S_, .f32⟩
  | 76 => ⟨S100000x11, .f32⟩
  | 77 => ⟨S1600000x1, .i32⟩
  | 78 => ⟨S100000x11, .f32⟩
  | 79 => ⟨S_, .i32⟩
  | 80 => ⟨S1600000, .i32⟩
  | 81 => ⟨S1600000, .i1⟩
  | 82 => ⟨S_, .i32⟩
  | 83 => ⟨S1600000, .i32⟩
  | 84 => ⟨S1600000, .i32⟩
  | 85 => ⟨S1600000, .i32⟩
  | 86 => ⟨S1600000x1, .i32⟩
  | 87 => ⟨S1600000x11, .f32⟩
  | 88 => ⟨S1600000x1, .f32⟩
  | 89 => ⟨S1600000x11, .f32⟩
  | 90 => ⟨S1600000x11, .f32⟩
  | 91 => ⟨S_, .f32⟩
  | 92 => ⟨S100000x11, .f32⟩
  | 93 => ⟨S1600000x1, .i32⟩
  | 94 => ⟨S100000x11, .f32⟩
  | 95 => ⟨S100000x44, .f32⟩
  | 96 => ⟨S44x8, .f32⟩
  | 97 => ⟨S100000x8, .f32⟩
  | 98 => ⟨S1x8, .f32⟩
  | 99 => ⟨S100000x8, .f32⟩
  | 100 => ⟨S100000x8, .f32⟩
  | 101 => ⟨S100000x8, .f32⟩
  | 102 => ⟨S100000x8, .f32⟩
  | 103 => ⟨S_, .f32⟩
  | 104 => ⟨S100000x8, .f32⟩
  | 105 => ⟨S100000x8, .f32⟩
  | 106 => ⟨S_, .f32⟩
  | 107 => ⟨S100000x8, .f32⟩
  | 108 => ⟨S100000x8, .f32⟩
  | 109 => ⟨S_, .i32⟩
  | 110 => ⟨S1600000, .i32⟩
  | 111 => ⟨S1600000, .i1⟩
  | 112 => ⟨S_, .i32⟩
  | 113 => ⟨S1600000, .i32⟩
  | 114 => ⟨S1600000, .i32⟩
  | 115 => ⟨S1600000, .i32⟩
  | 116 => ⟨S1600000x1, .i32⟩
  | 117 => ⟨S1600000x8, .f32⟩
  | 118 => ⟨S1600000x1, .f32⟩
  | 119 => ⟨S1600000x8, .f32⟩
  | 120 => ⟨S1600000x8, .f32⟩
  | 121 => ⟨S_, .f32⟩
  | 122 => ⟨S100000x8, .f32⟩
  | 123 => ⟨S1600000x1, .i32⟩
  | 124 => ⟨S100000x8, .f32⟩
  | 125 => ⟨S_, .i32⟩
  | 126 => ⟨S1600000, .i32⟩
  | 127 => ⟨S1600000, .i1⟩
  | _ => ⟨S100000x11, .f32⟩

abbrev hbmTy0_2 (i : Nat) : BufTy := match i % 128 with
  | 0 => ⟨S_, .i32⟩
  | 1 => ⟨S1600000, .i32⟩
  | 2 => ⟨S1600000, .i32⟩
  | 3 => ⟨S1600000, .i32⟩
  | 4 => ⟨S1600000x1, .i32⟩
  | 5 => ⟨S1600000x8, .f32⟩
  | 6 => ⟨S1600000x1, .f32⟩
  | 7 => ⟨S1600000x8, .f32⟩
  | 8 => ⟨S1600000x8, .f32⟩
  | 9 => ⟨S_, .f32⟩
  | 10 => ⟨S100000x8, .f32⟩
  | 11 => ⟨S1600000x1, .i32⟩
  | 12 => ⟨S100000x8, .f32⟩
  | 13 => ⟨S_, .i32⟩
  | 14 => ⟨S1600000, .i32⟩
  | 15 => ⟨S1600000, .i1⟩
  | 16 => ⟨S_, .i32⟩
  | 17 => ⟨S1600000, .i32⟩
  | 18 => ⟨S1600000, .i32⟩
  | 19 => ⟨S1600000, .i32⟩
  | 20 => ⟨S1600000x1, .i32⟩
  | 21 => ⟨S1600000x8, .f32⟩
  | 22 => ⟨S1600000x1, .f32⟩
  | 23 => ⟨S1600000x8, .f32⟩
  | 24 => ⟨S1600000x8, .f32⟩
  | 25 => ⟨S_, .f32⟩
  | 26 => ⟨S100000x8, .f32⟩
  | 27 => ⟨S1600000x1, .i32⟩
  | 28 => ⟨S100000x8, .f32⟩
  | 29 => ⟨S100000x32, .f32⟩
  | 30 => ⟨S32x1, .f32⟩
  | 31 => ⟨S100000x1, .f32⟩
  | 32 => ⟨S1x1, .f32⟩
  | 33 => ⟨S100000x1, .f32⟩
  | 34 => ⟨S100000x1, .f32⟩
  | 35 => ⟨S_, .f32⟩
  | 36 => ⟨S100000x1, .f32⟩
  | 37 => ⟨S100000x1, .f32⟩
  | 38 => ⟨S_, .i32⟩
  | 39 => ⟨S1600000, .i32⟩
  | 40 => ⟨S1600000, .i1⟩
  | 41 => ⟨S_, .i32⟩
  | 42 => ⟨S1600000, .i32⟩
  | 43 => ⟨S1600000, .i32⟩
  | 44 => ⟨S1600000, .i32⟩
  | 45 => ⟨S1600000x1, .i32⟩
  | 46 => ⟨S1600000x11, .f32⟩
  | 47 => ⟨S1600000x1, .f32⟩
  | 48 => ⟨S1600000x11, .f32⟩
  | 49 => ⟨S1600000x11, .f32⟩
  | 50 => ⟨S_, .f32⟩
  | 51 => ⟨S100000x11, .f32⟩
  | 52 => ⟨S1600000x1, .i32⟩
  | 53 => ⟨S100000x11, .f32⟩
  | 54 => ⟨S_, .i32⟩
  | 55 => ⟨S1600000, .i32⟩
  | 56 => ⟨S1600000, .i1⟩
  | 57 => ⟨S_, .i32⟩
  | 58 => ⟨S1600000, .i32⟩
  | 59 => ⟨S1600000, .i32⟩
  | 60 => ⟨S1600000, .i32⟩
  | 61 => ⟨S1600000x1, .i32⟩
  | 62 => ⟨S1600000x11, .f32⟩
  | 63 => ⟨S1600000x1, .f32⟩
  | 64 => ⟨S1600000x11, .f32⟩
  | 65 => ⟨S1600000x11, .f32⟩
  | 66 => ⟨S_, .f32⟩
  | 67 => ⟨S100000x11, .f32⟩
  | 68 => ⟨S1600000x1, .i32⟩
  | 69 => ⟨S100000x11, .f32⟩
  | 70 => ⟨S_, .i32⟩
  | 71 => ⟨S1600000, .i32⟩
  | 72 => ⟨S1600000, .i1⟩
  | 73 => ⟨S_, .i32⟩
  | 74 => ⟨S1600000, .i32⟩
  | 75 => ⟨S1600000, .i32⟩
  | 76 => ⟨S1600000, .i32⟩
  | 77 => ⟨S1600000x1, .i32⟩
  | 78 => ⟨S1600000x11, .f32⟩
  | 79 => ⟨S1600000x1, .f32⟩
  | 80 => ⟨S1600000x11, .f32⟩
  | 81 => ⟨S1600000x11, .f32⟩
  | 82 => ⟨S_, .f32⟩
  | 83 => ⟨S100000x11, .f32⟩
  | 84 => ⟨S1600000x1, .i32⟩
  | 85 => ⟨S100000x11, .f32⟩
  | 86 => ⟨S_, .i32⟩
  | 87 => ⟨S1600000, .i32⟩
  | 88 => ⟨S1600000, .i1⟩
  | 89 => ⟨S_, .i32⟩
  | 90 => ⟨S1600000, .i32⟩
  | 91 => ⟨S1600000, .i32⟩
  | 92 => ⟨S1600000, .i32⟩
  | 93 => ⟨S1600000x1, .i32⟩
  | 94 => ⟨S1600000x11, .f32⟩
  | 95 => ⟨S1600000x1, .f32⟩
  | 96 => ⟨S1600000x11, .f32⟩
  | 97 => ⟨S1600000x11, .f32⟩
  | 98 => ⟨S_, .f32⟩
  | 99 => ⟨S100000x11, .f32⟩
  | 100 => ⟨S1600000x1, .i32⟩
  | 101 => ⟨S100000x11, .f32⟩
  | 102 => ⟨S_, .i32⟩
  | 103 => ⟨S1600000, .i32⟩
  | 104 => ⟨S1600000, .i1⟩
  | 105 => ⟨S_, .i32⟩
  | 106 => ⟨S1600000, .i32⟩
  | 107 => ⟨S1600000, .i32⟩
  | 108 => ⟨S1600000, .i32⟩
  | 109 => ⟨S1600000x1, .i32⟩
  | 110 => ⟨S1600000x11, .f32⟩
  | 111 => ⟨S1600000x1, .f32⟩
  | 112 => ⟨S1600000x11, .f32⟩
  | 113 => ⟨S1600000x11, .f32⟩
  | 114 => ⟨S_, .f32⟩
  | 115 => ⟨S100000x11, .f32⟩
  | 116 => ⟨S1600000x1, .i32⟩
  | 117 => ⟨S100000x11, .f32⟩
  | 118 => ⟨S_, .i32⟩
  | 119 => ⟨S1600000, .i32⟩
  | 120 => ⟨S1600000, .i1⟩
  | 121 => ⟨S_, .i32⟩
  | 122 => ⟨S1600000, .i32⟩
  | 123 => ⟨S1600000, .i32⟩
  | 124 => ⟨S1600000, .i32⟩
  | 125 => ⟨S1600000x1, .i32⟩
  | 126 => ⟨S1600000x11, .f32⟩
  | 127 => ⟨S1600000x1, .f32⟩
  | _ => ⟨S100000x11, .f32⟩

abbrev hbmTy0_3 (i : Nat) : BufTy := match i % 128 with
  | 0 => ⟨S1600000x11, .f32⟩
  | 1 => ⟨S1600000x11, .f32⟩
  | 2 => ⟨S_, .f32⟩
  | 3 => ⟨S100000x11, .f32⟩
  | 4 => ⟨S1600000x1, .i32⟩
  | 5 => ⟨S100000x11, .f32⟩
  | 6 => ⟨S100000x77, .f32⟩
  | 7 => ⟨S77x8, .f32⟩
  | 8 => ⟨S100000x8, .f32⟩
  | 9 => ⟨S1x8, .f32⟩
  | 10 => ⟨S100000x8, .f32⟩
  | 11 => ⟨S100000x8, .f32⟩
  | 12 => ⟨S100000x8, .f32⟩
  | 13 => ⟨S100000x8, .f32⟩
  | 14 => ⟨S_, .f32⟩
  | 15 => ⟨S100000x8, .f32⟩
  | 16 => ⟨S100000x8, .f32⟩
  | 17 => ⟨S_, .f32⟩
  | 18 => ⟨S100000x8, .f32⟩
  | 19 => ⟨S100000x8, .f32⟩
  | 20 => ⟨S_, .i32⟩
  | 21 => ⟨S1600000, .i32⟩
  | 22 => ⟨S1600000, .i1⟩
  | 23 => ⟨S_, .i32⟩
  | 24 => ⟨S1600000, .i32⟩
  | 25 => ⟨S1600000, .i32⟩
  | 26 => ⟨S1600000, .i32⟩
  | 27 => ⟨S1600000x1, .i32⟩
  | 28 => ⟨S1600000x8, .f32⟩
  | 29 => ⟨S1600000x1, .f32⟩
  | 30 => ⟨S1600000x8, .f32⟩
  | 31 => ⟨S1600000x8, .f32⟩
  | 32 => ⟨S_, .f32⟩
  | 33 => ⟨S100000x8, .f32⟩
  | 34 => ⟨S1600000x1, .i32⟩
  | 35 => ⟨S100000x8, .f32⟩
  | 36 => ⟨S_, .i32⟩
  | 37 => ⟨S1600000, .i32⟩
  | 38 => ⟨S1600000, .i1⟩
  | 39 => ⟨S_, .i32⟩
  | 40 => ⟨S1600000, .i32⟩
  | 41 => ⟨S1600000, .i32⟩
  | 42 => ⟨S1600000, .i32⟩
  | 43 => ⟨S1600000x1, .i32⟩
  | 44 => ⟨S1600000x8, .f32⟩
  | 45 => ⟨S1600000x1, .f32⟩
  | 46 => ⟨S1600000x8, .f32⟩
  | 47 => ⟨S1600000x8, .f32⟩
  | 48 => ⟨S_, .f32⟩
  | 49 => ⟨S100000x8, .f32⟩
  | 50 => ⟨S1600000x1, .i32⟩
  | 51 => ⟨S100000x8, .f32⟩
  | 52 => ⟨S_, .i32⟩
  | 53 => ⟨S1600000, .i32⟩
  | 54 => ⟨S1600000, .i1⟩
  | 55 => ⟨S_, .i32⟩
  | 56 => ⟨S1600000, .i32⟩
  | 57 => ⟨S1600000, .i32⟩
  | 58 => ⟨S1600000, .i32⟩
  | 59 => ⟨S1600000x1, .i32⟩
  | 60 => ⟨S1600000x8, .f32⟩
  | 61 => ⟨S1600000x1, .f32⟩
  | 62 => ⟨S1600000x8, .f32⟩
  | 63 => ⟨S1600000x8, .f32⟩
  | 64 => ⟨S_, .f32⟩
  | 65 => ⟨S100000x8, .f32⟩
  | 66 => ⟨S1600000x1, .i32⟩
  | 67 => ⟨S100000x8, .f32⟩
  | 68 => ⟨S_, .i32⟩
  | 69 => ⟨S1600000, .i32⟩
  | 70 => ⟨S1600000, .i1⟩
  | 71 => ⟨S_, .i32⟩
  | 72 => ⟨S1600000, .i32⟩
  | 73 => ⟨S1600000, .i32⟩
  | 74 => ⟨S1600000, .i32⟩
  | 75 => ⟨S1600000x1, .i32⟩
  | 76 => ⟨S1600000x8, .f32⟩
  | 77 => ⟨S1600000x1, .f32⟩
  | 78 => ⟨S1600000x8, .f32⟩
  | 79 => ⟨S1600000x8, .f32⟩
  | 80 => ⟨S_, .f32⟩
  | 81 => ⟨S100000x8, .f32⟩
  | 82 => ⟨S1600000x1, .i32⟩
  | 83 => ⟨S100000x8, .f32⟩
  | 84 => ⟨S_, .i32⟩
  | 85 => ⟨S1600000, .i32⟩
  | 86 => ⟨S1600000, .i1⟩
  | 87 => ⟨S_, .i32⟩
  | 88 => ⟨S1600000, .i32⟩
  | 89 => ⟨S1600000, .i32⟩
  | 90 => ⟨S1600000, .i32⟩
  | 91 => ⟨S1600000x1, .i32⟩
  | 92 => ⟨S1600000x8, .f32⟩
  | 93 => ⟨S1600000x1, .f32⟩
  | 94 => ⟨S1600000x8, .f32⟩
  | 95 => ⟨S1600000x8, .f32⟩
  | 96 => ⟨S_, .f32⟩
  | 97 => ⟨S100000x8, .f32⟩
  | 98 => ⟨S1600000x1, .i32⟩
  | 99 => ⟨S100000x8, .f32⟩
  | 100 => ⟨S_, .i32⟩
  | 101 => ⟨S1600000, .i32⟩
  | 102 => ⟨S1600000, .i1⟩
  | 103 => ⟨S_, .i32⟩
  | 104 => ⟨S1600000, .i32⟩
  | 105 => ⟨S1600000, .i32⟩
  | 106 => ⟨S1600000, .i32⟩
  | 107 => ⟨S1600000x1, .i32⟩
  | 108 => ⟨S1600000x8, .f32⟩
  | 109 => ⟨S1600000x1, .f32⟩
  | 110 => ⟨S1600000x8, .f32⟩
  | 111 => ⟨S1600000x8, .f32⟩
  | 112 => ⟨S_, .f32⟩
  | 113 => ⟨S100000x8, .f32⟩
  | 114 => ⟨S1600000x1, .i32⟩
  | 115 => ⟨S100000x8, .f32⟩
  | 116 => ⟨S100000x56, .f32⟩
  | 117 => ⟨S56x1, .f32⟩
  | 118 => ⟨S100000x1, .f32⟩
  | 119 => ⟨S1x1, .f32⟩
  | 120 => ⟨S100000x1, .f32⟩
  | 121 => ⟨S100000x1, .f32⟩
  | 122 => ⟨S_, .f32⟩
  | 123 => ⟨S100000x1, .f32⟩
  | 124 => ⟨S100000x1, .f32⟩
  | 125 => ⟨S100000x3, .f32⟩
  | 126 => ⟨S3x1, .f32⟩
  | 127 => ⟨S100000x1, .f32⟩
  | _ => ⟨S100000x11, .f32⟩

abbrev hbmTy0_4 (i : Nat) : BufTy := match i % 128 with
  | 0 => ⟨S1x1, .f32⟩
  | 1 => ⟨S100000x1, .f32⟩
  | 2 => ⟨S100000x1, .f32⟩
  | 3 => ⟨S_, .f32⟩
  | 4 => ⟨S100000x1, .f32⟩
  | 5 => ⟨S100000x1, .f32⟩
  | _ => ⟨S100000x11, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S100000x11, .f32⟩

abbrev bufTy : (tb : Table) → Fin (tcTables nBuf tb) → BufTy
  | .hbm, ⟨i, _⟩ => hbmTy i
  | _, _ => ⟨S100000x11, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_cst : Ref sig .tc := ⟨.hbm, 25, rfl⟩
abbrev main_v4 : Ref sig .tc := ⟨.hbm, 26, rfl⟩
abbrev main_cst_0 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_cst_1 : Ref sig .tc := ⟨.hbm, 31, rfl⟩
abbrev main_v8 : Ref sig .tc := ⟨.hbm, 32, rfl⟩
abbrev main_v9 : Ref sig .tc := ⟨.hbm, 33, rfl⟩
abbrev main_cst_2 : Ref sig .tc := ⟨.hbm, 34, rfl⟩
abbrev main_v10 : Ref sig .tc := ⟨.hbm, 35, rfl⟩
abbrev main_v11 : Ref sig .tc := ⟨.hbm, 36, rfl⟩
abbrev main_cst_3 : Ref sig .tc := ⟨.hbm, 37, rfl⟩
abbrev main_call0_v0 : Ref sig .tc := ⟨.hbm, 38, rfl⟩
abbrev main_call0_v1 : Ref sig .tc := ⟨.hbm, 39, rfl⟩
abbrev main_v12 : Ref sig .tc := ⟨.hbm, 40, rfl⟩
abbrev main_c : Ref sig .tc := ⟨.hbm, 41, rfl⟩
abbrev main_v13 : Ref sig .tc := ⟨.hbm, 42, rfl⟩
abbrev main_v14 : Ref sig .tc := ⟨.hbm, 43, rfl⟩
abbrev main_c_4 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_c_5 : Ref sig .tc := ⟨.hbm, 50, rfl⟩
abbrev main_v20 : Ref sig .tc := ⟨.hbm, 51, rfl⟩
abbrev main_v21 : Ref sig .tc := ⟨.hbm, 52, rfl⟩
abbrev main_c_6 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_c_7 : Ref sig .tc := ⟨.hbm, 60, rfl⟩
abbrev main_v28 : Ref sig .tc := ⟨.hbm, 61, rfl⟩
abbrev main_v29 : Ref sig .tc := ⟨.hbm, 62, rfl⟩
abbrev main_c_8 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_cst_9 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_cst_10 : Ref sig .tc := ⟨.hbm, 73, rfl⟩
abbrev main_v38 : Ref sig .tc := ⟨.hbm, 74, rfl⟩
abbrev main_cst_11 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev main_cst_12 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_cst_13 : Ref sig .tc := ⟨.hbm, 94, rfl⟩
abbrev main_v56 : Ref sig .tc := ⟨.hbm, 95, rfl⟩
abbrev main_v57 : Ref sig .tc := ⟨.hbm, 96, rfl⟩
abbrev main_cst_14 : Ref sig .tc := ⟨.hbm, 97, rfl⟩
abbrev main_v58 : Ref sig .tc := ⟨.hbm, 98, rfl⟩
abbrev main_v59 : Ref sig .tc := ⟨.hbm, 99, rfl⟩
abbrev main_c_15 : Ref sig .tc := ⟨.hbm, 100, rfl⟩
abbrev main_v60 : Ref sig .tc := ⟨.hbm, 101, rfl⟩
abbrev main_v61 : Ref sig .tc := ⟨.hbm, 102, rfl⟩
abbrev main_c_16 : Ref sig .tc := ⟨.hbm, 103, rfl⟩
abbrev main_v62 : Ref sig .tc := ⟨.hbm, 104, rfl⟩
abbrev main_v63 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_cst_17 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_cst_18 : Ref sig .tc := ⟨.hbm, 113, rfl⟩
abbrev main_v70 : Ref sig .tc := ⟨.hbm, 114, rfl⟩
abbrev main_cst_19 : Ref sig .tc := ⟨.hbm, 115, rfl⟩
abbrev main_v71 : Ref sig .tc := ⟨.hbm, 116, rfl⟩
abbrev main_v72 : Ref sig .tc := ⟨.hbm, 117, rfl⟩
abbrev main_v73 : Ref sig .tc := ⟨.hbm, 118, rfl⟩
abbrev main_cst_20 : Ref sig .tc := ⟨.hbm, 119, rfl⟩
abbrev main_v74 : Ref sig .tc := ⟨.hbm, 120, rfl⟩
abbrev main_v75 : Ref sig .tc := ⟨.hbm, 121, rfl⟩
abbrev main_v76 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_v80 : Ref sig .tc := ⟨.hbm, 126, rfl⟩
abbrev main_v81 : Ref sig .tc := ⟨.hbm, 127, rfl⟩
abbrev main_v82 : Ref sig .tc := ⟨.hbm, 128, rfl⟩
abbrev main_v83 : Ref sig .tc := ⟨.hbm, 129, rfl⟩
abbrev main_v84 : Ref sig .tc := ⟨.hbm, 130, rfl⟩
abbrev main_v85 : Ref sig .tc := ⟨.hbm, 131, rfl⟩
abbrev main_v86 : Ref sig .tc := ⟨.hbm, 132, rfl⟩
abbrev main_v87 : Ref sig .tc := ⟨.hbm, 133, rfl⟩
abbrev main_cst_21 : Ref sig .tc := ⟨.hbm, 134, rfl⟩
abbrev main_v88 : Ref sig .tc := ⟨.hbm, 135, rfl⟩
abbrev main_v89 : Ref sig .tc := ⟨.hbm, 136, rfl⟩
abbrev main_cst_22 : Ref sig .tc := ⟨.hbm, 137, rfl⟩
abbrev main_v90 : Ref sig .tc := ⟨.hbm, 138, rfl⟩
abbrev main_v91 : Ref sig .tc := ⟨.hbm, 139, rfl⟩
abbrev main_c_23 : Ref sig .tc := ⟨.hbm, 140, rfl⟩
abbrev main_v92 : Ref sig .tc := ⟨.hbm, 141, rfl⟩
abbrev main_v93 : Ref sig .tc := ⟨.hbm, 142, rfl⟩
abbrev main_c_24 : Ref sig .tc := ⟨.hbm, 143, rfl⟩
abbrev main_v94 : Ref sig .tc := ⟨.hbm, 144, rfl⟩
abbrev main_v95 : Ref sig .tc := ⟨.hbm, 145, rfl⟩
abbrev main_v96 : Ref sig .tc := ⟨.hbm, 146, rfl⟩
abbrev main_v97 : Ref sig .tc := ⟨.hbm, 147, rfl⟩
abbrev main_v98 : Ref sig .tc := ⟨.hbm, 148, rfl⟩
abbrev main_cst_25 : Ref sig .tc := ⟨.hbm, 149, rfl⟩
abbrev main_v99 : Ref sig .tc := ⟨.hbm, 150, rfl⟩
abbrev main_v100 : Ref sig .tc := ⟨.hbm, 151, rfl⟩
abbrev main_v101 : Ref sig .tc := ⟨.hbm, 152, rfl⟩
abbrev main_cst_26 : Ref sig .tc := ⟨.hbm, 153, rfl⟩
abbrev main_v102 : Ref sig .tc := ⟨.hbm, 154, rfl⟩
abbrev main_cst_27 : Ref sig .tc := ⟨.hbm, 155, rfl⟩
abbrev main_v103 : Ref sig .tc := ⟨.hbm, 156, rfl⟩
abbrev main_v104 : Ref sig .tc := ⟨.hbm, 157, rfl⟩
abbrev main_v105 : Ref sig .tc := ⟨.hbm, 158, rfl⟩
abbrev main_cst_28 : Ref sig .tc := ⟨.hbm, 159, rfl⟩
abbrev main_v106 : Ref sig .tc := ⟨.hbm, 160, rfl⟩
abbrev main_v107 : Ref sig .tc := ⟨.hbm, 161, rfl⟩
abbrev main_v108 : Ref sig .tc := ⟨.hbm, 162, rfl⟩
abbrev main_v109 : Ref sig .tc := ⟨.hbm, 163, rfl⟩
abbrev main_v110 : Ref sig .tc := ⟨.hbm, 164, rfl⟩
abbrev main_v111 : Ref sig .tc := ⟨.hbm, 165, rfl⟩
abbrev main_v112 : Ref sig .tc := ⟨.hbm, 166, rfl⟩
abbrev main_v113 : Ref sig .tc := ⟨.hbm, 167, rfl⟩
abbrev main_v114 : Ref sig .tc := ⟨.hbm, 168, rfl⟩
abbrev main_v115 : Ref sig .tc := ⟨.hbm, 169, rfl⟩
abbrev main_v116 : Ref sig .tc := ⟨.hbm, 170, rfl⟩
abbrev main_v117 : Ref sig .tc := ⟨.hbm, 171, rfl⟩
abbrev main_call1_cst : Ref sig .tc := ⟨.hbm, 172, rfl⟩
abbrev main_call1_v0 : Ref sig .tc := ⟨.hbm, 173, rfl⟩
abbrev main_v118 : Ref sig .tc := ⟨.hbm, 174, rfl⟩
abbrev main_c_29 : Ref sig .tc := ⟨.hbm, 175, rfl⟩
abbrev main_v119 : Ref sig .tc := ⟨.hbm, 176, rfl⟩
abbrev main_v120 : Ref sig .tc := ⟨.hbm, 177, rfl⟩
abbrev main_c_30 : Ref sig .tc := ⟨.hbm, 178, rfl⟩
abbrev main_v121 : Ref sig .tc := ⟨.hbm, 179, rfl⟩
abbrev main_v122 : Ref sig .tc := ⟨.hbm, 180, rfl⟩
abbrev main_v123 : Ref sig .tc := ⟨.hbm, 181, rfl⟩
abbrev main_v124 : Ref sig .tc := ⟨.hbm, 182, rfl⟩
abbrev main_v125 : Ref sig .tc := ⟨.hbm, 183, rfl⟩
abbrev main_v126 : Ref sig .tc := ⟨.hbm, 184, rfl⟩
abbrev main_v127 : Ref sig .tc := ⟨.hbm, 185, rfl⟩
abbrev main_v128 : Ref sig .tc := ⟨.hbm, 186, rfl⟩
abbrev main_cst_31 : Ref sig .tc := ⟨.hbm, 187, rfl⟩
abbrev main_v129 : Ref sig .tc := ⟨.hbm, 188, rfl⟩
abbrev main_v130 : Ref sig .tc := ⟨.hbm, 189, rfl⟩
abbrev main_v131 : Ref sig .tc := ⟨.hbm, 190, rfl⟩
abbrev main_c_32 : Ref sig .tc := ⟨.hbm, 191, rfl⟩
abbrev main_v132 : Ref sig .tc := ⟨.hbm, 192, rfl⟩
abbrev main_v133 : Ref sig .tc := ⟨.hbm, 193, rfl⟩
abbrev main_c_33 : Ref sig .tc := ⟨.hbm, 194, rfl⟩
abbrev main_v134 : Ref sig .tc := ⟨.hbm, 195, rfl⟩
abbrev main_v135 : Ref sig .tc := ⟨.hbm, 196, rfl⟩
abbrev main_v136 : Ref sig .tc := ⟨.hbm, 197, rfl⟩
abbrev main_v137 : Ref sig .tc := ⟨.hbm, 198, rfl⟩
abbrev main_v138 : Ref sig .tc := ⟨.hbm, 199, rfl⟩
abbrev main_v139 : Ref sig .tc := ⟨.hbm, 200, rfl⟩
abbrev main_v140 : Ref sig .tc := ⟨.hbm, 201, rfl⟩
abbrev main_v141 : Ref sig .tc := ⟨.hbm, 202, rfl⟩
abbrev main_cst_34 : Ref sig .tc := ⟨.hbm, 203, rfl⟩
abbrev main_v142 : Ref sig .tc := ⟨.hbm, 204, rfl⟩
abbrev main_v143 : Ref sig .tc := ⟨.hbm, 205, rfl⟩
abbrev main_v144 : Ref sig .tc := ⟨.hbm, 206, rfl⟩
abbrev main_c_35 : Ref sig .tc := ⟨.hbm, 207, rfl⟩
abbrev main_v145 : Ref sig .tc := ⟨.hbm, 208, rfl⟩
abbrev main_v146 : Ref sig .tc := ⟨.hbm, 209, rfl⟩
abbrev main_c_36 : Ref sig .tc := ⟨.hbm, 210, rfl⟩
abbrev main_v147 : Ref sig .tc := ⟨.hbm, 211, rfl⟩
abbrev main_v148 : Ref sig .tc := ⟨.hbm, 212, rfl⟩
abbrev main_v149 : Ref sig .tc := ⟨.hbm, 213, rfl⟩
abbrev main_v150 : Ref sig .tc := ⟨.hbm, 214, rfl⟩
abbrev main_v151 : Ref sig .tc := ⟨.hbm, 215, rfl⟩
abbrev main_v152 : Ref sig .tc := ⟨.hbm, 216, rfl⟩
abbrev main_v153 : Ref sig .tc := ⟨.hbm, 217, rfl⟩
abbrev main_v154 : Ref sig .tc := ⟨.hbm, 218, rfl⟩
abbrev main_cst_37 : Ref sig .tc := ⟨.hbm, 219, rfl⟩
abbrev main_v155 : Ref sig .tc := ⟨.hbm, 220, rfl⟩
abbrev main_v156 : Ref sig .tc := ⟨.hbm, 221, rfl⟩
abbrev main_v157 : Ref sig .tc := ⟨.hbm, 222, rfl⟩
abbrev main_v158 : Ref sig .tc := ⟨.hbm, 223, rfl⟩
abbrev main_v159 : Ref sig .tc := ⟨.hbm, 224, rfl⟩
abbrev main_v160 : Ref sig .tc := ⟨.hbm, 225, rfl⟩
abbrev main_v161 : Ref sig .tc := ⟨.hbm, 226, rfl⟩
abbrev main_v162 : Ref sig .tc := ⟨.hbm, 227, rfl⟩
abbrev main_v163 : Ref sig .tc := ⟨.hbm, 228, rfl⟩
abbrev main_v164 : Ref sig .tc := ⟨.hbm, 229, rfl⟩
abbrev main_v165 : Ref sig .tc := ⟨.hbm, 230, rfl⟩
abbrev main_cst_38 : Ref sig .tc := ⟨.hbm, 231, rfl⟩
abbrev main_v166 : Ref sig .tc := ⟨.hbm, 232, rfl⟩
abbrev main_v167 : Ref sig .tc := ⟨.hbm, 233, rfl⟩
abbrev main_cst_39 : Ref sig .tc := ⟨.hbm, 234, rfl⟩
abbrev main_v168 : Ref sig .tc := ⟨.hbm, 235, rfl⟩
abbrev main_v169 : Ref sig .tc := ⟨.hbm, 236, rfl⟩
abbrev main_c_40 : Ref sig .tc := ⟨.hbm, 237, rfl⟩
abbrev main_v170 : Ref sig .tc := ⟨.hbm, 238, rfl⟩
abbrev main_v171 : Ref sig .tc := ⟨.hbm, 239, rfl⟩
abbrev main_c_41 : Ref sig .tc := ⟨.hbm, 240, rfl⟩
abbrev main_v172 : Ref sig .tc := ⟨.hbm, 241, rfl⟩
abbrev main_v173 : Ref sig .tc := ⟨.hbm, 242, rfl⟩
abbrev main_v174 : Ref sig .tc := ⟨.hbm, 243, rfl⟩
abbrev main_v175 : Ref sig .tc := ⟨.hbm, 244, rfl⟩
abbrev main_v176 : Ref sig .tc := ⟨.hbm, 245, rfl⟩
abbrev main_v177 : Ref sig .tc := ⟨.hbm, 246, rfl⟩
abbrev main_v178 : Ref sig .tc := ⟨.hbm, 247, rfl⟩
abbrev main_v179 : Ref sig .tc := ⟨.hbm, 248, rfl⟩
abbrev main_cst_42 : Ref sig .tc := ⟨.hbm, 249, rfl⟩
abbrev main_v180 : Ref sig .tc := ⟨.hbm, 250, rfl⟩
abbrev main_v181 : Ref sig .tc := ⟨.hbm, 251, rfl⟩
abbrev main_v182 : Ref sig .tc := ⟨.hbm, 252, rfl⟩
abbrev main_c_43 : Ref sig .tc := ⟨.hbm, 253, rfl⟩
abbrev main_v183 : Ref sig .tc := ⟨.hbm, 254, rfl⟩
abbrev main_v184 : Ref sig .tc := ⟨.hbm, 255, rfl⟩
abbrev main_c_44 : Ref sig .tc := ⟨.hbm, 256, rfl⟩
abbrev main_v185 : Ref sig .tc := ⟨.hbm, 257, rfl⟩
abbrev main_v186 : Ref sig .tc := ⟨.hbm, 258, rfl⟩
abbrev main_v187 : Ref sig .tc := ⟨.hbm, 259, rfl⟩
abbrev main_v188 : Ref sig .tc := ⟨.hbm, 260, rfl⟩
abbrev main_v189 : Ref sig .tc := ⟨.hbm, 261, rfl⟩
abbrev main_v190 : Ref sig .tc := ⟨.hbm, 262, rfl⟩
abbrev main_v191 : Ref sig .tc := ⟨.hbm, 263, rfl⟩
abbrev main_v192 : Ref sig .tc := ⟨.hbm, 264, rfl⟩
abbrev main_cst_45 : Ref sig .tc := ⟨.hbm, 265, rfl⟩
abbrev main_v193 : Ref sig .tc := ⟨.hbm, 266, rfl⟩
abbrev main_v194 : Ref sig .tc := ⟨.hbm, 267, rfl⟩
abbrev main_v195 : Ref sig .tc := ⟨.hbm, 268, rfl⟩
abbrev main_c_46 : Ref sig .tc := ⟨.hbm, 269, rfl⟩
abbrev main_v196 : Ref sig .tc := ⟨.hbm, 270, rfl⟩
abbrev main_v197 : Ref sig .tc := ⟨.hbm, 271, rfl⟩
abbrev main_c_47 : Ref sig .tc := ⟨.hbm, 272, rfl⟩
abbrev main_v198 : Ref sig .tc := ⟨.hbm, 273, rfl⟩
abbrev main_v199 : Ref sig .tc := ⟨.hbm, 274, rfl⟩
abbrev main_v200 : Ref sig .tc := ⟨.hbm, 275, rfl⟩
abbrev main_v201 : Ref sig .tc := ⟨.hbm, 276, rfl⟩
abbrev main_v202 : Ref sig .tc := ⟨.hbm, 277, rfl⟩
abbrev main_v203 : Ref sig .tc := ⟨.hbm, 278, rfl⟩
abbrev main_v204 : Ref sig .tc := ⟨.hbm, 279, rfl⟩
abbrev main_v205 : Ref sig .tc := ⟨.hbm, 280, rfl⟩
abbrev main_cst_48 : Ref sig .tc := ⟨.hbm, 281, rfl⟩
abbrev main_v206 : Ref sig .tc := ⟨.hbm, 282, rfl⟩
abbrev main_v207 : Ref sig .tc := ⟨.hbm, 283, rfl⟩
abbrev main_v208 : Ref sig .tc := ⟨.hbm, 284, rfl⟩
abbrev main_v209 : Ref sig .tc := ⟨.hbm, 285, rfl⟩
abbrev main_v210 : Ref sig .tc := ⟨.hbm, 286, rfl⟩
abbrev main_v211 : Ref sig .tc := ⟨.hbm, 287, rfl⟩
abbrev main_v212 : Ref sig .tc := ⟨.hbm, 288, rfl⟩
abbrev main_v213 : Ref sig .tc := ⟨.hbm, 289, rfl⟩
abbrev main_v214 : Ref sig .tc := ⟨.hbm, 290, rfl⟩
abbrev main_call2_cst : Ref sig .tc := ⟨.hbm, 291, rfl⟩
abbrev main_call2_v0 : Ref sig .tc := ⟨.hbm, 292, rfl⟩
abbrev main_v215 : Ref sig .tc := ⟨.hbm, 293, rfl⟩
abbrev main_c_49 : Ref sig .tc := ⟨.hbm, 294, rfl⟩
abbrev main_v216 : Ref sig .tc := ⟨.hbm, 295, rfl⟩
abbrev main_v217 : Ref sig .tc := ⟨.hbm, 296, rfl⟩
abbrev main_c_50 : Ref sig .tc := ⟨.hbm, 297, rfl⟩
abbrev main_v218 : Ref sig .tc := ⟨.hbm, 298, rfl⟩
abbrev main_v219 : Ref sig .tc := ⟨.hbm, 299, rfl⟩
abbrev main_v220 : Ref sig .tc := ⟨.hbm, 300, rfl⟩
abbrev main_v221 : Ref sig .tc := ⟨.hbm, 301, rfl⟩
abbrev main_v222 : Ref sig .tc := ⟨.hbm, 302, rfl⟩
abbrev main_v223 : Ref sig .tc := ⟨.hbm, 303, rfl⟩
abbrev main_v224 : Ref sig .tc := ⟨.hbm, 304, rfl⟩
abbrev main_v225 : Ref sig .tc := ⟨.hbm, 305, rfl⟩
abbrev main_cst_51 : Ref sig .tc := ⟨.hbm, 306, rfl⟩
abbrev main_v226 : Ref sig .tc := ⟨.hbm, 307, rfl⟩
abbrev main_v227 : Ref sig .tc := ⟨.hbm, 308, rfl⟩
abbrev main_v228 : Ref sig .tc := ⟨.hbm, 309, rfl⟩
abbrev main_c_52 : Ref sig .tc := ⟨.hbm, 310, rfl⟩
abbrev main_v229 : Ref sig .tc := ⟨.hbm, 311, rfl⟩
abbrev main_v230 : Ref sig .tc := ⟨.hbm, 312, rfl⟩
abbrev main_c_53 : Ref sig .tc := ⟨.hbm, 313, rfl⟩
abbrev main_v231 : Ref sig .tc := ⟨.hbm, 314, rfl⟩
abbrev main_v232 : Ref sig .tc := ⟨.hbm, 315, rfl⟩
abbrev main_v233 : Ref sig .tc := ⟨.hbm, 316, rfl⟩
abbrev main_v234 : Ref sig .tc := ⟨.hbm, 317, rfl⟩
abbrev main_v235 : Ref sig .tc := ⟨.hbm, 318, rfl⟩
abbrev main_v236 : Ref sig .tc := ⟨.hbm, 319, rfl⟩
abbrev main_v237 : Ref sig .tc := ⟨.hbm, 320, rfl⟩
abbrev main_v238 : Ref sig .tc := ⟨.hbm, 321, rfl⟩
abbrev main_cst_54 : Ref sig .tc := ⟨.hbm, 322, rfl⟩
abbrev main_v239 : Ref sig .tc := ⟨.hbm, 323, rfl⟩
abbrev main_v240 : Ref sig .tc := ⟨.hbm, 324, rfl⟩
abbrev main_v241 : Ref sig .tc := ⟨.hbm, 325, rfl⟩
abbrev main_c_55 : Ref sig .tc := ⟨.hbm, 326, rfl⟩
abbrev main_v242 : Ref sig .tc := ⟨.hbm, 327, rfl⟩
abbrev main_v243 : Ref sig .tc := ⟨.hbm, 328, rfl⟩
abbrev main_c_56 : Ref sig .tc := ⟨.hbm, 329, rfl⟩
abbrev main_v244 : Ref sig .tc := ⟨.hbm, 330, rfl⟩
abbrev main_v245 : Ref sig .tc := ⟨.hbm, 331, rfl⟩
abbrev main_v246 : Ref sig .tc := ⟨.hbm, 332, rfl⟩
abbrev main_v247 : Ref sig .tc := ⟨.hbm, 333, rfl⟩
abbrev main_v248 : Ref sig .tc := ⟨.hbm, 334, rfl⟩
abbrev main_v249 : Ref sig .tc := ⟨.hbm, 335, rfl⟩
abbrev main_v250 : Ref sig .tc := ⟨.hbm, 336, rfl⟩
abbrev main_v251 : Ref sig .tc := ⟨.hbm, 337, rfl⟩
abbrev main_cst_57 : Ref sig .tc := ⟨.hbm, 338, rfl⟩
abbrev main_v252 : Ref sig .tc := ⟨.hbm, 339, rfl⟩
abbrev main_v253 : Ref sig .tc := ⟨.hbm, 340, rfl⟩
abbrev main_v254 : Ref sig .tc := ⟨.hbm, 341, rfl⟩
abbrev main_c_58 : Ref sig .tc := ⟨.hbm, 342, rfl⟩
abbrev main_v255 : Ref sig .tc := ⟨.hbm, 343, rfl⟩
abbrev main_v256 : Ref sig .tc := ⟨.hbm, 344, rfl⟩
abbrev main_c_59 : Ref sig .tc := ⟨.hbm, 345, rfl⟩
abbrev main_v257 : Ref sig .tc := ⟨.hbm, 346, rfl⟩
abbrev main_v258 : Ref sig .tc := ⟨.hbm, 347, rfl⟩
abbrev main_v259 : Ref sig .tc := ⟨.hbm, 348, rfl⟩
abbrev main_v260 : Ref sig .tc := ⟨.hbm, 349, rfl⟩
abbrev main_v261 : Ref sig .tc := ⟨.hbm, 350, rfl⟩
abbrev main_v262 : Ref sig .tc := ⟨.hbm, 351, rfl⟩
abbrev main_v263 : Ref sig .tc := ⟨.hbm, 352, rfl⟩
abbrev main_v264 : Ref sig .tc := ⟨.hbm, 353, rfl⟩
abbrev main_cst_60 : Ref sig .tc := ⟨.hbm, 354, rfl⟩
abbrev main_v265 : Ref sig .tc := ⟨.hbm, 355, rfl⟩
abbrev main_v266 : Ref sig .tc := ⟨.hbm, 356, rfl⟩
abbrev main_v267 : Ref sig .tc := ⟨.hbm, 357, rfl⟩
abbrev main_c_61 : Ref sig .tc := ⟨.hbm, 358, rfl⟩
abbrev main_v268 : Ref sig .tc := ⟨.hbm, 359, rfl⟩
abbrev main_v269 : Ref sig .tc := ⟨.hbm, 360, rfl⟩
abbrev main_c_62 : Ref sig .tc := ⟨.hbm, 361, rfl⟩
abbrev main_v270 : Ref sig .tc := ⟨.hbm, 362, rfl⟩
abbrev main_v271 : Ref sig .tc := ⟨.hbm, 363, rfl⟩
abbrev main_v272 : Ref sig .tc := ⟨.hbm, 364, rfl⟩
abbrev main_v273 : Ref sig .tc := ⟨.hbm, 365, rfl⟩
abbrev main_v274 : Ref sig .tc := ⟨.hbm, 366, rfl⟩
abbrev main_v275 : Ref sig .tc := ⟨.hbm, 367, rfl⟩
abbrev main_v276 : Ref sig .tc := ⟨.hbm, 368, rfl⟩
abbrev main_v277 : Ref sig .tc := ⟨.hbm, 369, rfl⟩
abbrev main_cst_63 : Ref sig .tc := ⟨.hbm, 370, rfl⟩
abbrev main_v278 : Ref sig .tc := ⟨.hbm, 371, rfl⟩
abbrev main_v279 : Ref sig .tc := ⟨.hbm, 372, rfl⟩
abbrev main_v280 : Ref sig .tc := ⟨.hbm, 373, rfl⟩
abbrev main_c_64 : Ref sig .tc := ⟨.hbm, 374, rfl⟩
abbrev main_v281 : Ref sig .tc := ⟨.hbm, 375, rfl⟩
abbrev main_v282 : Ref sig .tc := ⟨.hbm, 376, rfl⟩
abbrev main_c_65 : Ref sig .tc := ⟨.hbm, 377, rfl⟩
abbrev main_v283 : Ref sig .tc := ⟨.hbm, 378, rfl⟩
abbrev main_v284 : Ref sig .tc := ⟨.hbm, 379, rfl⟩
abbrev main_v285 : Ref sig .tc := ⟨.hbm, 380, rfl⟩
abbrev main_v286 : Ref sig .tc := ⟨.hbm, 381, rfl⟩
abbrev main_v287 : Ref sig .tc := ⟨.hbm, 382, rfl⟩
abbrev main_v288 : Ref sig .tc := ⟨.hbm, 383, rfl⟩
abbrev main_v289 : Ref sig .tc := ⟨.hbm, 384, rfl⟩
abbrev main_v290 : Ref sig .tc := ⟨.hbm, 385, rfl⟩
abbrev main_cst_66 : Ref sig .tc := ⟨.hbm, 386, rfl⟩
abbrev main_v291 : Ref sig .tc := ⟨.hbm, 387, rfl⟩
abbrev main_v292 : Ref sig .tc := ⟨.hbm, 388, rfl⟩
abbrev main_v293 : Ref sig .tc := ⟨.hbm, 389, rfl⟩
abbrev main_v294 : Ref sig .tc := ⟨.hbm, 390, rfl⟩
abbrev main_v295 : Ref sig .tc := ⟨.hbm, 391, rfl⟩
abbrev main_v296 : Ref sig .tc := ⟨.hbm, 392, rfl⟩
abbrev main_v297 : Ref sig .tc := ⟨.hbm, 393, rfl⟩
abbrev main_v298 : Ref sig .tc := ⟨.hbm, 394, rfl⟩
abbrev main_v299 : Ref sig .tc := ⟨.hbm, 395, rfl⟩
abbrev main_v300 : Ref sig .tc := ⟨.hbm, 396, rfl⟩
abbrev main_v301 : Ref sig .tc := ⟨.hbm, 397, rfl⟩
abbrev main_cst_67 : Ref sig .tc := ⟨.hbm, 398, rfl⟩
abbrev main_v302 : Ref sig .tc := ⟨.hbm, 399, rfl⟩
abbrev main_v303 : Ref sig .tc := ⟨.hbm, 400, rfl⟩
abbrev main_cst_68 : Ref sig .tc := ⟨.hbm, 401, rfl⟩
abbrev main_v304 : Ref sig .tc := ⟨.hbm, 402, rfl⟩
abbrev main_v305 : Ref sig .tc := ⟨.hbm, 403, rfl⟩
abbrev main_c_69 : Ref sig .tc := ⟨.hbm, 404, rfl⟩
abbrev main_v306 : Ref sig .tc := ⟨.hbm, 405, rfl⟩
abbrev main_v307 : Ref sig .tc := ⟨.hbm, 406, rfl⟩
abbrev main_c_70 : Ref sig .tc := ⟨.hbm, 407, rfl⟩
abbrev main_v308 : Ref sig .tc := ⟨.hbm, 408, rfl⟩
abbrev main_v309 : Ref sig .tc := ⟨.hbm, 409, rfl⟩
abbrev main_v310 : Ref sig .tc := ⟨.hbm, 410, rfl⟩
abbrev main_v311 : Ref sig .tc := ⟨.hbm, 411, rfl⟩
abbrev main_v312 : Ref sig .tc := ⟨.hbm, 412, rfl⟩
abbrev main_v313 : Ref sig .tc := ⟨.hbm, 413, rfl⟩
abbrev main_v314 : Ref sig .tc := ⟨.hbm, 414, rfl⟩
abbrev main_v315 : Ref sig .tc := ⟨.hbm, 415, rfl⟩
abbrev main_cst_71 : Ref sig .tc := ⟨.hbm, 416, rfl⟩
abbrev main_v316 : Ref sig .tc := ⟨.hbm, 417, rfl⟩
abbrev main_v317 : Ref sig .tc := ⟨.hbm, 418, rfl⟩
abbrev main_v318 : Ref sig .tc := ⟨.hbm, 419, rfl⟩
abbrev main_c_72 : Ref sig .tc := ⟨.hbm, 420, rfl⟩
abbrev main_v319 : Ref sig .tc := ⟨.hbm, 421, rfl⟩
abbrev main_v320 : Ref sig .tc := ⟨.hbm, 422, rfl⟩
abbrev main_c_73 : Ref sig .tc := ⟨.hbm, 423, rfl⟩
abbrev main_v321 : Ref sig .tc := ⟨.hbm, 424, rfl⟩
abbrev main_v322 : Ref sig .tc := ⟨.hbm, 425, rfl⟩
abbrev main_v323 : Ref sig .tc := ⟨.hbm, 426, rfl⟩
abbrev main_v324 : Ref sig .tc := ⟨.hbm, 427, rfl⟩
abbrev main_v325 : Ref sig .tc := ⟨.hbm, 428, rfl⟩
abbrev main_v326 : Ref sig .tc := ⟨.hbm, 429, rfl⟩
abbrev main_v327 : Ref sig .tc := ⟨.hbm, 430, rfl⟩
abbrev main_v328 : Ref sig .tc := ⟨.hbm, 431, rfl⟩
abbrev main_cst_74 : Ref sig .tc := ⟨.hbm, 432, rfl⟩
abbrev main_v329 : Ref sig .tc := ⟨.hbm, 433, rfl⟩
abbrev main_v330 : Ref sig .tc := ⟨.hbm, 434, rfl⟩
abbrev main_v331 : Ref sig .tc := ⟨.hbm, 435, rfl⟩
abbrev main_c_75 : Ref sig .tc := ⟨.hbm, 436, rfl⟩
abbrev main_v332 : Ref sig .tc := ⟨.hbm, 437, rfl⟩
abbrev main_v333 : Ref sig .tc := ⟨.hbm, 438, rfl⟩
abbrev main_c_76 : Ref sig .tc := ⟨.hbm, 439, rfl⟩
abbrev main_v334 : Ref sig .tc := ⟨.hbm, 440, rfl⟩
abbrev main_v335 : Ref sig .tc := ⟨.hbm, 441, rfl⟩
abbrev main_v336 : Ref sig .tc := ⟨.hbm, 442, rfl⟩
abbrev main_v337 : Ref sig .tc := ⟨.hbm, 443, rfl⟩
abbrev main_v338 : Ref sig .tc := ⟨.hbm, 444, rfl⟩
abbrev main_v339 : Ref sig .tc := ⟨.hbm, 445, rfl⟩
abbrev main_v340 : Ref sig .tc := ⟨.hbm, 446, rfl⟩
abbrev main_v341 : Ref sig .tc := ⟨.hbm, 447, rfl⟩
abbrev main_cst_77 : Ref sig .tc := ⟨.hbm, 448, rfl⟩
abbrev main_v342 : Ref sig .tc := ⟨.hbm, 449, rfl⟩
abbrev main_v343 : Ref sig .tc := ⟨.hbm, 450, rfl⟩
abbrev main_v344 : Ref sig .tc := ⟨.hbm, 451, rfl⟩
abbrev main_c_78 : Ref sig .tc := ⟨.hbm, 452, rfl⟩
abbrev main_v345 : Ref sig .tc := ⟨.hbm, 453, rfl⟩
abbrev main_v346 : Ref sig .tc := ⟨.hbm, 454, rfl⟩
abbrev main_c_79 : Ref sig .tc := ⟨.hbm, 455, rfl⟩
abbrev main_v347 : Ref sig .tc := ⟨.hbm, 456, rfl⟩
abbrev main_v348 : Ref sig .tc := ⟨.hbm, 457, rfl⟩
abbrev main_v349 : Ref sig .tc := ⟨.hbm, 458, rfl⟩
abbrev main_v350 : Ref sig .tc := ⟨.hbm, 459, rfl⟩
abbrev main_v351 : Ref sig .tc := ⟨.hbm, 460, rfl⟩
abbrev main_v352 : Ref sig .tc := ⟨.hbm, 461, rfl⟩
abbrev main_v353 : Ref sig .tc := ⟨.hbm, 462, rfl⟩
abbrev main_v354 : Ref sig .tc := ⟨.hbm, 463, rfl⟩
abbrev main_cst_80 : Ref sig .tc := ⟨.hbm, 464, rfl⟩
abbrev main_v355 : Ref sig .tc := ⟨.hbm, 465, rfl⟩
abbrev main_v356 : Ref sig .tc := ⟨.hbm, 466, rfl⟩
abbrev main_v357 : Ref sig .tc := ⟨.hbm, 467, rfl⟩
abbrev main_c_81 : Ref sig .tc := ⟨.hbm, 468, rfl⟩
abbrev main_v358 : Ref sig .tc := ⟨.hbm, 469, rfl⟩
abbrev main_v359 : Ref sig .tc := ⟨.hbm, 470, rfl⟩
abbrev main_c_82 : Ref sig .tc := ⟨.hbm, 471, rfl⟩
abbrev main_v360 : Ref sig .tc := ⟨.hbm, 472, rfl⟩
abbrev main_v361 : Ref sig .tc := ⟨.hbm, 473, rfl⟩
abbrev main_v362 : Ref sig .tc := ⟨.hbm, 474, rfl⟩
abbrev main_v363 : Ref sig .tc := ⟨.hbm, 475, rfl⟩
abbrev main_v364 : Ref sig .tc := ⟨.hbm, 476, rfl⟩
abbrev main_v365 : Ref sig .tc := ⟨.hbm, 477, rfl⟩
abbrev main_v366 : Ref sig .tc := ⟨.hbm, 478, rfl⟩
abbrev main_v367 : Ref sig .tc := ⟨.hbm, 479, rfl⟩
abbrev main_cst_83 : Ref sig .tc := ⟨.hbm, 480, rfl⟩
abbrev main_v368 : Ref sig .tc := ⟨.hbm, 481, rfl⟩
abbrev main_v369 : Ref sig .tc := ⟨.hbm, 482, rfl⟩
abbrev main_v370 : Ref sig .tc := ⟨.hbm, 483, rfl⟩
abbrev main_c_84 : Ref sig .tc := ⟨.hbm, 484, rfl⟩
abbrev main_v371 : Ref sig .tc := ⟨.hbm, 485, rfl⟩
abbrev main_v372 : Ref sig .tc := ⟨.hbm, 486, rfl⟩
abbrev main_c_85 : Ref sig .tc := ⟨.hbm, 487, rfl⟩
abbrev main_v373 : Ref sig .tc := ⟨.hbm, 488, rfl⟩
abbrev main_v374 : Ref sig .tc := ⟨.hbm, 489, rfl⟩
abbrev main_v375 : Ref sig .tc := ⟨.hbm, 490, rfl⟩
abbrev main_v376 : Ref sig .tc := ⟨.hbm, 491, rfl⟩
abbrev main_v377 : Ref sig .tc := ⟨.hbm, 492, rfl⟩
abbrev main_v378 : Ref sig .tc := ⟨.hbm, 493, rfl⟩
abbrev main_v379 : Ref sig .tc := ⟨.hbm, 494, rfl⟩
abbrev main_v380 : Ref sig .tc := ⟨.hbm, 495, rfl⟩
abbrev main_cst_86 : Ref sig .tc := ⟨.hbm, 496, rfl⟩
abbrev main_v381 : Ref sig .tc := ⟨.hbm, 497, rfl⟩
abbrev main_v382 : Ref sig .tc := ⟨.hbm, 498, rfl⟩
abbrev main_v383 : Ref sig .tc := ⟨.hbm, 499, rfl⟩
abbrev main_v384 : Ref sig .tc := ⟨.hbm, 500, rfl⟩
abbrev main_v385 : Ref sig .tc := ⟨.hbm, 501, rfl⟩
abbrev main_v386 : Ref sig .tc := ⟨.hbm, 502, rfl⟩
abbrev main_v387 : Ref sig .tc := ⟨.hbm, 503, rfl⟩
abbrev main_v388 : Ref sig .tc := ⟨.hbm, 504, rfl⟩
abbrev main_v389 : Ref sig .tc := ⟨.hbm, 505, rfl⟩
abbrev main_call3_cst : Ref sig .tc := ⟨.hbm, 506, rfl⟩
abbrev main_call3_v0 : Ref sig .tc := ⟨.hbm, 507, rfl⟩
abbrev main_v390 : Ref sig .tc := ⟨.hbm, 508, rfl⟩
abbrev main_v391 : Ref sig .tc := ⟨.hbm, 509, rfl⟩
abbrev main_v392 : Ref sig .tc := ⟨.hbm, 510, rfl⟩
abbrev main_v393 : Ref sig .tc := ⟨.hbm, 511, rfl⟩
abbrev main_v394 : Ref sig .tc := ⟨.hbm, 512, rfl⟩
abbrev main_v395 : Ref sig .tc := ⟨.hbm, 513, rfl⟩
abbrev main_v396 : Ref sig .tc := ⟨.hbm, 514, rfl⟩
abbrev main_call4_cst : Ref sig .tc := ⟨.hbm, 515, rfl⟩
abbrev main_call4_v0 : Ref sig .tc := ⟨.hbm, 516, rfl⟩
abbrev main_v397 : Ref sig .tc := ⟨.hbm, 517, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S100000x11 : S_.BroadcastsInDim S100000x11 (![] : Fin 0 → Fin S100000x11.rank)
  bcast_S_S1600000x1 : S_.BroadcastsInDim S1600000x1 (![] : Fin 0 → Fin S1600000x1.rank)
  bcast_S_S100000x1 : S_.BroadcastsInDim S100000x1 (![] : Fin 0 → Fin S100000x1.rank)
  bcast_S100000x1_S100000x11_0_1 : S100000x1.BroadcastsInDim S100000x11 (![0, 1] : Fin 2 → Fin S100000x11.rank)
  transposes_S128x11_S11x128_1_0 : S128x11.Transposes [1, 0] S11x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  transposes_S128x128_S128x128_1_0 : S128x128.Transposes [1, 0] S128x128
  transposes_S1x128_S128x1_1_0 : S1x128.Transposes [1, 0] S128x1
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  bcast_S1600000x1_S1600000x11_0_1 : S1600000x1.BroadcastsInDim S1600000x11 (![0, 1] : Fin 2 → Fin S1600000x11.rank)
  concatenates_S100000x11_S100000x11_S100000x11_S100000x11_S100000x44_d1 : Shape.Concatenates [S100000x11, S100000x11, S100000x11, S100000x11] S100000x44 1
  transposes_S8x44_S44x8_1_0 : S8x44.Transposes [1, 0] S44x8
  bcast_S8_S1x8_1 : S8.BroadcastsInDim S1x8 (![1] : Fin 1 → Fin S1x8.rank)
  bcast_S1x8_S100000x8_0_1 : S1x8.BroadcastsInDim S100000x8 (![0, 1] : Fin 2 → Fin S100000x8.rank)
  bcast_S_S100000x8 : S_.BroadcastsInDim S100000x8 (![] : Fin 0 → Fin S100000x8.rank)
  bcast_S1600000x1_S1600000x8_0_1 : S1600000x1.BroadcastsInDim S1600000x8 (![0, 1] : Fin 2 → Fin S1600000x8.rank)
  concatenates_S100000x8_S100000x8_S100000x8_S100000x8_S100000x32_d1 : Shape.Concatenates [S100000x8, S100000x8, S100000x8, S100000x8] S100000x32 1
  transposes_S1x32_S32x1_1_0 : S1x32.Transposes [1, 0] S32x1
  concatenates_S100000x11_S100000x11_S100000x11_S100000x11_S100000x11_S100000x11_S100000x11_S100000x77_d1 : Shape.Concatenates [S100000x11, S100000x11, S100000x11, S100000x11, S100000x11, S100000x11, S100000x11] S100000x77 1
  transposes_S8x77_S77x8_1_0 : S8x77.Transposes [1, 0] S77x8
  concatenates_S100000x8_S100000x8_S100000x8_S100000x8_S100000x8_S100000x8_S100000x8_S100000x56_d1 : Shape.Concatenates [S100000x8, S100000x8, S100000x8, S100000x8, S100000x8, S100000x8, S100000x8] S100000x56 1
  transposes_S1x56_S56x1_1_0 : S1x56.Transposes [1, 0] S56x1
  concatenates_S100000x1_S100000x1_S100000x1_S100000x3_d1 : Shape.Concatenates [S100000x1, S100000x1, S100000x1] S100000x3 1
  transposes_S1x3_S3x1_1_0 : S1x3.Transposes [1, 0] S3x1
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x11_S1600000x1_S1600000x11_1_0_n_n_0_1_111_wf : GatherDims.WF S100000x11 S1600000x1 S1600000x11 [1] [0] [] [0] [] 1 ![1, 11]
  scatter_S100000x11_S1600000x1_S1600000x11_1_0_0_1_wf : ScatterDims.WF S100000x11 S1600000x1 S1600000x11 [1] [0] [0] 1
  scatter_S100000x1_S1600000x1_S1600000x1_1_0_0_1_wf : ScatterDims.WF S100000x1 S1600000x1 S1600000x1 [1] [0] [0] 1
  dot_S100000x11_S11x128_S100000x128_1_0_0_1_n_n_wf : DotDims.WF S100000x11 S11x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  dot_S100000x128_S128x1_S100000x1_1_0_0_1_n_n_wf : DotDims.WF S100000x128 S128x1 S100000x1 [1] [0] [0] [1] [] []
  dot_S100000x44_S44x8_S100000x8_1_0_0_1_n_n_wf : DotDims.WF S100000x44 S44x8 S100000x8 [1] [0] [0] [1] [] []
  gather_S100000x8_S1600000x1_S1600000x8_1_0_n_n_0_1_18_wf : GatherDims.WF S100000x8 S1600000x1 S1600000x8 [1] [0] [] [0] [] 1 ![1, 8]
  scatter_S100000x8_S1600000x1_S1600000x8_1_0_0_1_wf : ScatterDims.WF S100000x8 S1600000x1 S1600000x8 [1] [0] [0] 1
  dot_S100000x32_S32x1_S100000x1_1_0_0_1_n_n_wf : DotDims.WF S100000x32 S32x1 S100000x1 [1] [0] [0] [1] [] []
  dot_S100000x77_S77x8_S100000x8_1_0_0_1_n_n_wf : DotDims.WF S100000x77 S77x8 S100000x8 [1] [0] [0] [1] [] []
  dot_S100000x56_S56x1_S100000x1_1_0_0_1_n_n_wf : DotDims.WF S100000x56 S56x1 S100000x1 [1] [0] [0] [1] [] []
  dot_S100000x3_S3x1_S100000x1_1_0_0_1_n_n_wf : DotDims.WF S100000x3 S3x1 S100000x1 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x11_S1600000x1_S1600000x11_1_0_n_n_0_1_111 : GatherDims S100000x11 S1600000x1 S1600000x11 where
  offsetDims := [1]
  collapsedSliceDims := [0]
  operandBatchingDims := []
  startIndicesBatchingDims := []
  startIndexMap := [0]
  indexVectorDim := 1
  sliceSizes := ![1, 11]
  wf := gather_S100000x11_S1600000x1_S1600000x11_1_0_n_n_0_1_111_wf
def scatter_S100000x11_S1600000x1_S1600000x11_1_0_0_1 : ScatterDims S100000x11 S1600000x1 S1600000x11 where
  updateWindowDims := [1]
  insertedWindowDims := [0]
  scatterDimsToOperandDims := [0]
  indexVectorDim := 1
  wf := scatter_S100000x11_S1600000x1_S1600000x11_1_0_0_1_wf
def scatter_S100000x1_S1600000x1_S1600000x1_1_0_0_1 : ScatterDims S100000x1 S1600000x1 S1600000x1 where
  updateWindowDims := [1]
  insertedWindowDims := [0]
  scatterDimsToOperandDims := [0]
  indexVectorDim := 1
  wf := scatter_S100000x1_S1600000x1_S1600000x1_1_0_0_1_wf
def dot_S100000x11_S11x128_S100000x128_1_0_0_1_n_n : DotDims S100000x11 S11x128 S100000x128 where
  lhsContracting := [1]
  rhsContracting := [0]
  lhsNonContracting := [0]
  rhsNonContracting := [1]
  lhsBatch := []
  rhsBatch := []
  wf := dot_S100000x11_S11x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x1_S100000x1_1_0_0_1_n_n : DotDims S100000x128 S128x1 S100000x1 where
  lhsContracting := [1]
  rhsContracting := [0]
  lhsNonContracting := [0]
  rhsNonContracting := [1]
  lhsBatch := []
  rhsBatch := []
  wf := dot_S100000x128_S128x1_S100000x1_1_0_0_1_n_n_wf
def dot_S100000x44_S44x8_S100000x8_1_0_0_1_n_n : DotDims S100000x44 S44x8 S100000x8 where
  lhsContracting := [1]
  rhsContracting := [0]
  lhsNonContracting := [0]
  rhsNonContracting := [1]
  lhsBatch := []
  rhsBatch := []
  wf := dot_S100000x44_S44x8_S100000x8_1_0_0_1_n_n_wf
def gather_S100000x8_S1600000x1_S1600000x8_1_0_n_n_0_1_18 : GatherDims S100000x8 S1600000x1 S1600000x8 where
  offsetDims := [1]
  collapsedSliceDims := [0]
  operandBatchingDims := []
  startIndicesBatchingDims := []
  startIndexMap := [0]
  indexVectorDim := 1
  sliceSizes := ![1, 8]
  wf := gather_S100000x8_S1600000x1_S1600000x8_1_0_n_n_0_1_18_wf
def scatter_S100000x8_S1600000x1_S1600000x8_1_0_0_1 : ScatterDims S100000x8 S1600000x1 S1600000x8 where
  updateWindowDims := [1]
  insertedWindowDims := [0]
  scatterDimsToOperandDims := [0]
  indexVectorDim := 1
  wf := scatter_S100000x8_S1600000x1_S1600000x8_1_0_0_1_wf
def dot_S100000x32_S32x1_S100000x1_1_0_0_1_n_n : DotDims S100000x32 S32x1 S100000x1 where
  lhsContracting := [1]
  rhsContracting := [0]
  lhsNonContracting := [0]
  rhsNonContracting := [1]
  lhsBatch := []
  rhsBatch := []
  wf := dot_S100000x32_S32x1_S100000x1_1_0_0_1_n_n_wf
def dot_S100000x77_S77x8_S100000x8_1_0_0_1_n_n : DotDims S100000x77 S77x8 S100000x8 where
  lhsContracting := [1]
  rhsContracting := [0]
  lhsNonContracting := [0]
  rhsNonContracting := [1]
  lhsBatch := []
  rhsBatch := []
  wf := dot_S100000x77_S77x8_S100000x8_1_0_0_1_n_n_wf
def dot_S100000x56_S56x1_S100000x1_1_0_0_1_n_n : DotDims S100000x56 S56x1 S100000x1 where
  lhsContracting := [1]
  rhsContracting := [0]
  lhsNonContracting := [0]
  rhsNonContracting := [1]
  lhsBatch := []
  rhsBatch := []
  wf := dot_S100000x56_S56x1_S100000x1_1_0_0_1_n_n_wf
def dot_S100000x3_S3x1_S100000x1_1_0_0_1_n_n : DotDims S100000x3 S3x1 S100000x1 where
  lhsContracting := [1]
  rhsContracting := [0]
  lhsNonContracting := [0]
  rhsNonContracting := [1]
  lhsBatch := []
  rhsBatch := []
  wf := dot_S100000x3_S3x1_S100000x1_1_0_0_1_n_n_wf

class Facts : Prop extends Facts₀ where

variable [Facts]
-- ==== Proof.K.Region0.lean ====
/-
  Dense layer 0 of the network, as the pipeline runs it: one grid point takes a block of 5000 rows of the
  [100000, 22] feature array, the whole [22, 128] weight and the [1, 128] bias row, and stores the block of
  5000 rows of the [100000, 128] result. This module states, at any contents `V` of the buffers when the
  region is entered, what each staging buffer holds before and after the body at a point, runs the body
  once on whole staging buffers, and assembles the pipeline's proof data and its body obligation. It is
  generic in the float instance.
-/
import proofs.«101217_j35820027249494_1_alg».proof.Proof.Gen.Kernel.Launch
import proofs.«101217_j35820027249494_1_alg».proof.Proof.Gen.Kernel.Skeleton
import proofs.«101217_j35820027249494_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! Each input window's current staging buffer holds its block at every point, whether the point fetches it
    or an earlier point did and the block's index has not moved since. -/

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The whole-buffer rectangles the body loads and stores through. -/
abbrev r0_0 : Rect S5000x22 := Rect.unit (s := S5000x22) ![0, 0] S5000x22.size inb_S5000x22_S5000x22_0_0
abbrev r0_1 : Rect S22x128 := Rect.unit (s := S22x128) ![0, 0] S22x128.size inb_S22x128_S22x128_0_0
abbrev r0_2 : Rect S1x128 := Rect.unit (s := S1x128) ![0, 0] S1x128.size inb_S1x128_S1x128_0_0
abbrev r0_3 : Rect S5000x128 := Rect.unit (s := S5000x128) ![0, 0] S5000x128.size inb_S5000x128_S5000x128_0_0

/-- The result window's staging buffer after the body: its one store, of the layer's payload of the three
    input blocks. -/
def out0_3 (x0 : Vec F S5000x22 .f32) (x1 : Vec F S22x128 .f32) (x2 : Vec F S1x128 .f32) : Vec F S5000x128 .f32 :=
  View.canon [⟨r0_3, k0_pay1 (View.ld x0 r0_0) (View.ld x1 r0_1) (View.ld x2 r0_2)⟩]

/-- The one store covers the buffer. -/
theorem cover0_3 (p0 : Vec F S5000x128 .f32) (y : S5000x128.Idx) :
    ∃ pc ∈ ([⟨r0_3, p0⟩] : List (View.Piece (Elt F) S5000x128 .f32)), y ∈ pc.1.set :=
  View.cover_of_tiled [⟨r0_3, p0⟩] S5000x128.size (by rfl) y

set_option maxHeartbeats 1000000 in
/-- The body on whole staging buffers, the inputs' at read contents and the result's at anything, runs to the
    continuation with the inputs' as they were and the result's at `out0_3` of the inputs'. -/
theorem sound_kernel0 (c : Dev nD) (E : Set ℕ) (i : grid0.Coords) (arg1 : Memref sig .tc .vmem S5000x22 .f32) (harg1 : arg1.IsWhole) (arg2 : Memref sig .tc .vmem S22x128 .f32) (harg2 : arg2.IsWhole) (arg3 : Memref sig .tc .vmem S1x128 .f32) (harg3 : arg3.IsWhole) (arg4 : Memref sig .tc .vmem S5000x128 .f32) (harg4 : arg4.IsWhole)
    (x0 : Vec F S5000x22 .f32) (x1 : Vec F S22x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__linear_act_kernel i arg1 harg1 arg2 harg2 arg3 harg3 arg4 harg4) K := by
  simp only [cc0__linear_act_kernel_eq_skeleton]; unfold cc0__linear_act_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The pipeline's proof data on core `c`: the arrays as the region finds them; after the body at point `t` each
    input's buffer at its block and the result's at `out0_3` of the input blocks; the invariant is the scoped
    rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so the body's run applies; the invariant and
    the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Region1.lean ====
/-
  Dense layer 1 of the network, as the pipeline runs it: one grid point takes a block of 5000 rows of the
  [100000, 256] feature array, the whole [256, 128] weight and the [1, 128] bias row, and stores the block of
  5000 rows of the [100000, 128] result. This module states, at any contents `V` of the buffers when the
  region is entered, what each staging buffer holds before and after the body at a point, runs the body
  once on whole staging buffers, and assembles the pipeline's proof data and its body obligation. It is
  generic in the float instance.
-/
import proofs.«101217_j35820027249494_1_alg».proof.Proof.Gen.Kernel.Launch
import proofs.«101217_j35820027249494_1_alg».proof.Proof.Gen.Kernel.Skeleton
import proofs.«101217_j35820027249494_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! Each input window's current staging buffer holds its block at every point, whether the point fetches it
    or an earlier point did and the block's index has not moved since. -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The whole-buffer rectangles the body loads and stores through. -/
abbrev r1_0 : Rect S5000x256 := Rect.unit (s := S5000x256) ![0, 0] S5000x256.size inb_S5000x256_S5000x256_0_0
abbrev r1_1 : Rect S256x128 := Rect.unit (s := S256x128) ![0, 0] S256x128.size inb_S256x128_S256x128_0_0
abbrev r1_2 : Rect S1x128 := Rect.unit (s := S1x128) ![0, 0] S1x128.size inb_S1x128_S1x128_0_0
abbrev r1_3 : Rect S5000x128 := Rect.unit (s := S5000x128) ![0, 0] S5000x128.size inb_S5000x128_S5000x128_0_0

/-- The result window's staging buffer after the body: its one store, of the layer's payload of the three
    input blocks. -/
def out1_3 (x0 : Vec F S5000x256 .f32) (x1 : Vec F S256x128 .f32) (x2 : Vec F S1x128 .f32) : Vec F S5000x128 .f32 :=
  View.canon [⟨r1_3, k1_pay1 (View.ld x0 r1_0) (View.ld x1 r1_1) (View.ld x2 r1_2)⟩]

/-- The one store covers the buffer. -/
theorem cover1_3 (p0 : Vec F S5000x128 .f32) (y : S5000x128.Idx) :
    ∃ pc ∈ ([⟨r1_3, p0⟩] : List (View.Piece (Elt F) S5000x128 .f32)), y ∈ pc.1.set :=
  View.cover_of_tiled [⟨r1_3, p0⟩] S5000x128.size (by rfl) y

set_option maxHeartbeats 1000000 in
/-- The body on whole staging buffers, the inputs' at read contents and the result's at anything, runs to the
    continuation with the inputs' as they were and the result's at `out1_3` of the inputs'. -/
theorem sound_kernel1 (c : Dev nD) (E : Set ℕ) (i : grid1.Coords) (arg1 : Memref sig .tc .vmem S5000x256 .f32) (harg1 : arg1.IsWhole) (arg2 : Memref sig .tc .vmem S256x128 .f32) (harg2 : arg2.IsWhole) (arg3 : Memref sig .tc .vmem S1x128 .f32) (harg3 : arg3.IsWhole) (arg4 : Memref sig .tc .vmem S5000x128 .f32) (harg4 : arg4.IsWhole)
    (x0 : Vec F S5000x256 .f32) (x1 : Vec F S256x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2)) -∗ K ⟨⟩))
      ⊢ wp frame (wpE (defs₀ (F := F)) Variants.none c none) E (cc1__linear_act_kernel i arg1 harg1 arg2 harg2 arg3 harg3 arg4 harg4) K := by
  simp only [cc1__linear_act_kernel_eq_skeleton]; unfold cc1__linear_act_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- The pipeline's proof data on core `c`: the arrays as the region finds them; after the body at point `t` each
    input's buffer at its block and the result's at `out1_3` of the input blocks; the invariant is the scoped
    rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' buffers hold their blocks, so the body's run applies; the invariant and
    the core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ (grid1.coords t) _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Region2.lean ====
/-
  Dense layer 2 of the network, as the pipeline runs it: one grid point takes a block of 5000 rows of the
  [100000, 256] feature array, the whole [256, 1] weight and the [1, 1] bias row, and stores the block of
  5000 rows of the [100000, 1] result. This module states, at any contents `V` of the buffers when the
  region is entered, what each staging buffer holds before and after the body at a point, runs the body
  once on whole staging buffers, and assembles the pipeline's proof data and its body obligation. It is
  generic in the float instance.
-/
import proofs.«101217_j35820027249494_1_alg».proof.Proof.Gen.Kernel.Launch
import proofs.«101217_j35820027249494_1_alg».proof.Proof.Gen.Kernel.Skeleton
import proofs.«101217_j35820027249494_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! Each input window's current staging buffer holds its block at every point, whether the point fetches it
    or an earlier point did and the block's index has not moved since. -/

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- The whole-buffer rectangles the body loads and stores through. -/
abbrev r2_0 : Rect S5000x256 := Rect.unit (s := S5000x256) ![0, 0] S5000x256.size inb_S5000x256_S5000x256_0_0
abbrev r2_1 : Rect S256x1 := Rect.unit (s := S256x1) ![0, 0] S256x1.size inb_S256x1_S256x1_0_0
abbrev r2_2 : Rect S1x1 := Rect.unit (s := S1x1) ![0, 0] S1x1.size inb_S1x1_S1x1_0_0
abbrev r2_3 : Rect S5000x1 := Rect.unit (s := S5000x1) ![0, 0] S5000x1.size inb_S5000x1_S5000x1_0_0

/-- The result window's staging buffer after the body: its one store, of the layer's payload of the three
    input blocks. -/
def out2_3 (x0 : Vec F S5000x256 .f32) (x1 : Vec F S256x1 .f32) (x2 : Vec F S1x1 .f32) : Vec F S5000x1 .f32 :=
  View.canon [⟨r2_3, k2_pay1 (View.ld x0 r2_0) (View.ld x1 r2_1) (View.ld x2 r2_2)⟩]

/-- The one store covers the buffer. -/
theorem cover2_3 (p0 : Vec F S5000x1 .f32) (y : S5000x1.Idx) :
    ∃ pc ∈ ([⟨r2_3, p0⟩] : List (View.Piece (Elt F) S5000x1 .f32)), y ∈ pc.1.set :=
  View.cover_of_tiled [⟨r2_3, p0⟩] S5000x1.size (by rfl) y

set_option maxHeartbeats 1000000 in
/-- The body on whole staging buffers, the inputs' at read contents and the result's at anything, runs to the
    continuation with the inputs' as they were and the result's at `out2_3` of the inputs'. -/
theorem sound_kernel2 (c : Dev nD) (E : Set ℕ) (i : grid2.Coords) (arg1 : Memref sig .tc .vmem S5000x256 .f32) (harg1 : arg1.IsWhole) (arg2 : Memref sig .tc .vmem S256x1 .f32) (harg2 : arg2.IsWhole) (arg3 : Memref sig .tc .vmem S1x1 .f32) (harg3 : arg3.IsWhole) (arg4 : Memref sig .tc .vmem S5000x1 .f32) (harg4 : arg4.IsWhole)
    (x0 : Vec F S5000x256 .f32) (x1 : Vec F S256x1 .f32) (x2 : Vec F S1x1 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out2_3 x0 x1 x2)) -∗ K ⟨⟩))
      ⊢ wp frame (wpE (defs₀ (F := F)) Variants.none c none) E (cc2__linear_act_kernel i arg1 harg1 arg2 harg2 arg3 harg3 arg4 harg4) K := by
  simp only [cc2__linear_act_kernel_eq_skeleton]; unfold cc2__linear_act_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-- The pipeline's proof data on core `c`: the arrays as the region finds them; after the body at point `t` each
    input's buffer at its block and the result's at `out2_3` of the input blocks; the invariant is the scoped
    rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' buffers hold their blocks, so the body's run applies; the invariant and
    the core's debts pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ (grid2.coords t) _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.Region3.lean ====
/-
  Dense layer 3 of the network, as the pipeline runs it: one grid point takes a block of 5000 rows of the
  [100000, 44] feature array, the whole [44, 8] weight and the [1, 8] bias row, and stores the block of
  5000 rows of the [100000, 8] result. This module states, at any contents `V` of the buffers when the
  region is entered, what each staging buffer holds before and after the body at a point, runs the body
  once on whole staging buffers, and assembles the pipeline's proof data and its body obligation. It is
  generic in the float instance.
-/
import proofs.«101217_j35820027249494_1_alg».proof.Proof.Gen.Kernel.Launch
import proofs.«101217_j35820027249494_1_alg».proof.Proof.Gen.Kernel.Skeleton
import proofs.«101217_j35820027249494_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-! Each input window's current staging buffer holds its block at every point, whether the point fetches it
    or an earlier point did and the block's index has not moved since. -/

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- The whole-buffer rectangles the body loads and stores through. -/
abbrev r3_0 : Rect S5000x44 := Rect.unit (s := S5000x44) ![0, 0] S5000x44.size inb_S5000x44_S5000x44_0_0
abbrev r3_1 : Rect S44x8 := Rect.unit (s := S44x8) ![0, 0] S44x8.size inb_S44x8_S44x8_0_0
abbrev r3_2 : Rect S1x8 := Rect.unit (s := S1x8) ![0, 0] S1x8.size inb_S1x8_S1x8_0_0
abbrev r3_3 : Rect S5000x8 := Rect.unit (s := S5000x8) ![0, 0] S5000x8.size inb_S5000x8_S5000x8_0_0

/-- The result window's staging buffer after the body: its one store, of the layer's payload of the three
    input blocks. -/
def out3_3 (x0 : Vec F S5000x44 .f32) (x1 : Vec F S44x8 .f32) (x2 : Vec F S1x8 .f32) : Vec F S5000x8 .f32 :=
  View.canon [⟨r3_3, k3_pay1 (View.ld x0 r3_0) (View.ld x1 r3_1) (View.ld x2 r3_2)⟩]

/-- The one store covers the buffer. -/
theorem cover3_3 (p0 : Vec F S5000x8 .f32) (y : S5000x8.Idx) :
    ∃ pc ∈ ([⟨r3_3, p0⟩] : List (View.Piece (Elt F) S5000x8 .f32)), y ∈ pc.1.set :=
  View.cover_of_tiled [⟨r3_3, p0⟩] S5000x8.size (by rfl) y

set_option maxHeartbeats 1000000 in
/-- The body on whole staging buffers, the inputs' at read contents and the result's at anything, runs to the
    continuation with the inputs' as they were and the result's at `out3_3` of the inputs'. -/
theorem sound_kernel3 (c : Dev nD) (E : Set ℕ) (i : grid3.Coords) (arg1 : Memref sig .tc .vmem S5000x44 .f32) (harg1 : arg1.IsWhole) (arg2 : Memref sig .tc .vmem S44x8 .f32) (harg2 : arg2.IsWhole) (arg3 : Memref sig .tc .vmem S1x8 .f32) (harg3 : arg3.IsWhole) (arg4 : Memref sig .tc .vmem S5000x8 .f32) (harg4 : arg4.IsWhole)
    (x0 : Vec F S5000x44 .f32) (x1 : Vec F S44x8 .f32) (x2 : Vec F S1x8 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out3_3 x0 x1 x2)) -∗ K ⟨⟩))
      ⊢ wp frame (wpE (defs₀ (F := F)) Variants.none c none) E (cc3__linear_act_kernel i arg1 harg1 arg2 harg2 arg3 harg3 arg4 harg4) K := by
  simp only [cc3__linear_act_kernel_eq_skeleton]; unfold cc3__linear_act_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

/-- The pipeline's proof data on core `c`: the arrays as the region finds them; after the body at point `t` each
    input's buffer at its block and the result's at `out3_3` of the input blocks; the invariant is the scoped
    rest and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = out3_3 (iblk3 V c 0 t) (iblk3 V c 1 t) (iblk3 V c 2 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

/-- The body at any point: the inputs' buffers hold their blocks, so the body's run applies; the invariant and
    the core's debts pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ (grid3.coords t) _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.K.Region4.lean ====
/-
  Dense layer 4 of the network, as the pipeline runs it: one grid point takes a block of 5000 rows of the
  [100000, 32] feature array, the whole [32, 1] weight and the [1, 1] bias row, and stores the block of
  5000 rows of the [100000, 1] result. This module states, at any contents `V` of the buffers when the
  region is entered, what each staging buffer holds before and after the body at a point, runs the body
  once on whole staging buffers, and assembles the pipeline's proof data and its body obligation. It is
  generic in the float instance.
-/
import proofs.«101217_j35820027249494_1_alg».proof.Proof.Gen.Kernel.Launch
import proofs.«101217_j35820027249494_1_alg».proof.Proof.Gen.Kernel.Skeleton
import proofs.«101217_j35820027249494_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-! Each input window's current staging buffer holds its block at every point, whether the point fetches it
    or an earlier point did and the block's index has not moved since. -/

theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- The whole-buffer rectangles the body loads and stores through. -/
abbrev r4_0 : Rect S5000x32 := Rect.unit (s := S5000x32) ![0, 0] S5000x32.size inb_S5000x32_S5000x32_0_0
abbrev r4_1 : Rect S32x1 := Rect.unit (s := S32x1) ![0, 0] S32x1.size inb_S32x1_S32x1_0_0
abbrev r4_2 : Rect S1x1 := Rect.unit (s := S1x1) ![0, 0] S1x1.size inb_S1x1_S1x1_0_0
abbrev r4_3 : Rect S5000x1 := Rect.unit (s := S5000x1) ![0, 0] S5000x1.size inb_S5000x1_S5000x1_0_0

/-- The result window's staging buffer after the body: its one store, of the layer's payload of the three
    input blocks. -/
def out4_3 (x0 : Vec F S5000x32 .f32) (x1 : Vec F S32x1 .f32) (x2 : Vec F S1x1 .f32) : Vec F S5000x1 .f32 :=
  View.canon [⟨r4_3, k4_pay1 (View.ld x0 r4_0) (View.ld x1 r4_1) (View.ld x2 r4_2)⟩]

/-- The one store covers the buffer. -/
theorem cover4_3 (p0 : Vec F S5000x1 .f32) (y : S5000x1.Idx) :
    ∃ pc ∈ ([⟨r4_3, p0⟩] : List (View.Piece (Elt F) S5000x1 .f32)), y ∈ pc.1.set :=
  View.cover_of_tiled [⟨r4_3, p0⟩] S5000x1.size (by rfl) y

set_option maxHeartbeats 1000000 in
/-- The body on whole staging buffers, the inputs' at read contents and the result's at anything, runs to the
    continuation with the inputs' as they were and the result's at `out4_3` of the inputs'. -/
theorem sound_kernel4 (c : Dev nD) (E : Set ℕ) (i : grid4.Coords) (arg1 : Memref sig .tc .vmem S5000x32 .f32) (harg1 : arg1.IsWhole) (arg2 : Memref sig .tc .vmem S32x1 .f32) (harg2 : arg2.IsWhole) (arg3 : Memref sig .tc .vmem S1x1 .f32) (harg3 : arg3.IsWhole) (arg4 : Memref sig .tc .vmem S5000x1 .f32) (harg4 : arg4.IsWhole)
    (x0 : Vec F S5000x32 .f32) (x1 : Vec F S32x1 .f32) (x2 : Vec F S1x1 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out4_3 x0 x1 x2)) -∗ K ⟨⟩))
      ⊢ wp frame (wpE (defs₀ (F := F)) Variants.none c none) E (cc4__linear_act_kernel i arg1 harg1 arg2 harg2 arg3 harg3 arg4 harg4) K := by
  simp only [cc4__linear_act_kernel_eq_skeleton]; unfold cc4__linear_act_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover4_3 _)

/-- The pipeline's proof data on core `c`: the arrays as the region finds them; after the body at point `t` each
    input's buffer at its block and the result's at `out4_3` of the input blocks; the invariant is the scoped
    rest and the generator register, untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4_3 (iblk4 V c 0 t) (iblk4 V c 1 t) (iblk4 V c 2 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = out4_3 (iblk4 V c 0 t) (iblk4 V c 1 t) (iblk4 V c 2 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t))

/-- The body at any point: the inputs' buffers hold their blocks, so the body's run applies; the invariant and
    the core's debts pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).Φ t.succ = (dat4 V c).Φ t.castSucc from rfl,
    show (dat4 V c).owesAt () t.succ = (dat4 V c).owesAt () t.castSucc from rfl,
    after4_0, after4_1, after4_2, after4_3]
  iintro ⟨HΦ, Ho, ⟨%d0, H0⟩, ⟨%d1, H1⟩, ⟨%d2, H2⟩, ⟨%d3, H3⟩⟩
  iapply (sound_kernel4 c Set.univ (grid4.coords t) _ _ _ _ _ _ _ _ (iblk4 V c 0 t) (iblk4 V c 1 t) (iblk4 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation4 (c : Dev nD) : BodyObligation (dat4 (F := F) V c) (defs₀ (F := F)) Variants.none () Set.univ := fun t => by
  rw [bigSep_W4, bigSep_W4]
  exact sound_body4 V c t

end Cert.Kernel.Hand

end
-- ==== Proof.K.Region5.lean ====
/-
  Dense layer 5 of the network, as the pipeline runs it: one grid point takes a block of 5000 rows of the
  [100000, 77] feature array, the whole [77, 8] weight and the [1, 8] bias row, and stores the block of
  5000 rows of the [100000, 8] result. This module states, at any contents `V` of the buffers when the
  region is entered, what each staging buffer holds before and after the body at a point, runs the body
  once on whole staging buffers, and assembles the pipeline's proof data and its body obligation. It is
  generic in the float instance.
-/
import proofs.«101217_j35820027249494_1_alg».proof.Proof.Gen.Kernel.Launch
import proofs.«101217_j35820027249494_1_alg».proof.Proof.Gen.Kernel.Skeleton
import proofs.«101217_j35820027249494_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-! Each input window's current staging buffer holds its block at every point, whether the point fetches it
    or an earlier point did and the block's index has not moved since. -/

theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- The whole-buffer rectangles the body loads and stores through. -/
abbrev r5_0 : Rect S5000x77 := Rect.unit (s := S5000x77) ![0, 0] S5000x77.size inb_S5000x77_S5000x77_0_0
abbrev r5_1 : Rect S77x8 := Rect.unit (s := S77x8) ![0, 0] S77x8.size inb_S77x8_S77x8_0_0
abbrev r5_2 : Rect S1x8 := Rect.unit (s := S1x8) ![0, 0] S1x8.size inb_S1x8_S1x8_0_0
abbrev r5_3 : Rect S5000x8 := Rect.unit (s := S5000x8) ![0, 0] S5000x8.size inb_S5000x8_S5000x8_0_0

/-- The result window's staging buffer after the body: its one store, of the layer's payload of the three
    input blocks. -/
def out5_3 (x0 : Vec F S5000x77 .f32) (x1 : Vec F S77x8 .f32) (x2 : Vec F S1x8 .f32) : Vec F S5000x8 .f32 :=
  View.canon [⟨r5_3, k5_pay1 (View.ld x0 r5_0) (View.ld x1 r5_1) (View.ld x2 r5_2)⟩]

/-- The one store covers the buffer. -/
theorem cover5_3 (p0 : Vec F S5000x8 .f32) (y : S5000x8.Idx) :
    ∃ pc ∈ ([⟨r5_3, p0⟩] : List (View.Piece (Elt F) S5000x8 .f32)), y ∈ pc.1.set :=
  View.cover_of_tiled [⟨r5_3, p0⟩] S5000x8.size (by rfl) y

set_option maxHeartbeats 1000000 in
/-- The body on whole staging buffers, the inputs' at read contents and the result's at anything, runs to the
    continuation with the inputs' as they were and the result's at `out5_3` of the inputs'. -/
theorem sound_kernel5 (c : Dev nD) (E : Set ℕ) (i : grid5.Coords) (arg1 : Memref sig .tc .vmem S5000x77 .f32) (harg1 : arg1.IsWhole) (arg2 : Memref sig .tc .vmem S77x8 .f32) (harg2 : arg2.IsWhole) (arg3 : Memref sig .tc .vmem S1x8 .f32) (harg3 : arg3.IsWhole) (arg4 : Memref sig .tc .vmem S5000x8 .f32) (harg4 : arg4.IsWhole)
    (x0 : Vec F S5000x77 .f32) (x1 : Vec F S77x8 .f32) (x2 : Vec F S1x8 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out5_3 x0 x1 x2)) -∗ K ⟨⟩))
      ⊢ wp frame (wpE (defs₀ (F := F)) Variants.none c none) E (cc5__linear_act_kernel i arg1 harg1 arg2 harg2 arg3 harg3 arg4 harg4) K := by
  simp only [cc5__linear_act_kernel_eq_skeleton]; unfold cc5__linear_act_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover5_3 _)

/-- The pipeline's proof data on core `c`: the arrays as the region finds them; after the body at point `t` each
    input's buffer at its block and the result's at `out5_3` of the input blocks; the invariant is the scoped
    rest and the generator register, untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => out5_3 (iblk5 V c 0 t) (iblk5 V c 1 t) (iblk5 V c 2 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = out5_3 (iblk5 V c 0 t) (iblk5 V c 1 t) (iblk5 V c 2 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t))

/-- The body at any point: the inputs' buffers hold their blocks, so the body's run applies; the invariant and
    the core's debts pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2]
  rw [show (dat5 V c).Φ t.succ = (dat5 V c).Φ t.castSucc from rfl,
    show (dat5 V c).owesAt () t.succ = (dat5 V c).owesAt () t.castSucc from rfl,
    after5_0, after5_1, after5_2, after5_3]
  iintro ⟨HΦ, Ho, ⟨%d0, H0⟩, ⟨%d1, H1⟩, ⟨%d2, H2⟩, ⟨%d3, H3⟩⟩
  iapply (sound_kernel5 c Set.univ (grid5.coords t) _ _ _ _ _ _ _ _ (iblk5 V c 0 t) (iblk5 V c 1 t) (iblk5 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation5 (c : Dev nD) : BodyObligation (dat5 (F := F) V c) (defs₀ (F := F)) Variants.none () Set.univ := fun t => by
  rw [bigSep_W5, bigSep_W5]
  exact sound_body5 V c t

end Cert.Kernel.Hand

end
-- ==== Proof.K.Region6.lean ====
/-
  Dense layer 6 of the network, as the pipeline runs it: one grid point takes a block of 5000 rows of the
  [100000, 56] feature array, the whole [56, 1] weight and the [1, 1] bias row, and stores the block of
  5000 rows of the [100000, 1] result. This module states, at any contents `V` of the buffers when the
  region is entered, what each staging buffer holds before and after the body at a point, runs the body
  once on whole staging buffers, and assembles the pipeline's proof data and its body obligation. It is
  generic in the float instance.
-/
import proofs.«101217_j35820027249494_1_alg».proof.Proof.Gen.Kernel.Launch
import proofs.«101217_j35820027249494_1_alg».proof.Proof.Gen.Kernel.Skeleton
import proofs.«101217_j35820027249494_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-! Each input window's current staging buffer holds its block at every point, whether the point fetches it
    or an earlier point did and the block's index has not moved since. -/

theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-- The whole-buffer rectangles the body loads and stores through. -/
abbrev r6_0 : Rect S5000x56 := Rect.unit (s := S5000x56) ![0, 0] S5000x56.size inb_S5000x56_S5000x56_0_0
abbrev r6_1 : Rect S56x1 := Rect.unit (s := S56x1) ![0, 0] S56x1.size inb_S56x1_S56x1_0_0
abbrev r6_2 : Rect S1x1 := Rect.unit (s := S1x1) ![0, 0] S1x1.size inb_S1x1_S1x1_0_0
abbrev r6_3 : Rect S5000x1 := Rect.unit (s := S5000x1) ![0, 0] S5000x1.size inb_S5000x1_S5000x1_0_0

/-- The result window's staging buffer after the body: its one store, of the layer's payload of the three
    input blocks. -/
def out6_3 (x0 : Vec F S5000x56 .f32) (x1 : Vec F S56x1 .f32) (x2 : Vec F S1x1 .f32) : Vec F S5000x1 .f32 :=
  View.canon [⟨r6_3, k6_pay1 (View.ld x0 r6_0) (View.ld x1 r6_1) (View.ld x2 r6_2)⟩]

/-- The one store covers the buffer. -/
theorem cover6_3 (p0 : Vec F S5000x1 .f32) (y : S5000x1.Idx) :
    ∃ pc ∈ ([⟨r6_3, p0⟩] : List (View.Piece (Elt F) S5000x1 .f32)), y ∈ pc.1.set :=
  View.cover_of_tiled [⟨r6_3, p0⟩] S5000x1.size (by rfl) y

set_option maxHeartbeats 1000000 in
/-- The body on whole staging buffers, the inputs' at read contents and the result's at anything, runs to the
    continuation with the inputs' as they were and the result's at `out6_3` of the inputs'. -/
theorem sound_kernel6 (c : Dev nD) (E : Set ℕ) (i : grid6.Coords) (arg1 : Memref sig .tc .vmem S5000x56 .f32) (harg1 : arg1.IsWhole) (arg2 : Memref sig .tc .vmem S56x1 .f32) (harg2 : arg2.IsWhole) (arg3 : Memref sig .tc .vmem S1x1 .f32) (harg3 : arg3.IsWhole) (arg4 : Memref sig .tc .vmem S5000x1 .f32) (harg4 : arg4.IsWhole)
    (x0 : Vec F S5000x56 .f32) (x1 : Vec F S56x1 .f32) (x2 : Vec F S1x1 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out6_3 x0 x1 x2)) -∗ K ⟨⟩))
      ⊢ wp frame (wpE (defs₀ (F := F)) Variants.none c none) E (cc6__linear_act_kernel i arg1 harg1 arg2 harg2 arg3 harg3 arg4 harg4) K := by
  simp only [cc6__linear_act_kernel_eq_skeleton]; unfold cc6__linear_act_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover6_3 _)

/-- The pipeline's proof data on core `c`: the arrays as the region finds them; after the body at point `t` each
    input's buffer at its block and the result's at `out6_3` of the input blocks; the invariant is the scoped
    rest and the generator register, untouched; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => out6_3 (iblk6 V c 0 t) (iblk6 V c 1 t) (iblk6 V c 2 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = out6_3 (iblk6 V c 0 t) (iblk6 V c 1 t) (iblk6 V c 2 t) := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d

/-- What the body is called with at point `t`, the windows one by one, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t))

/-- The body at any point: the inputs' buffers hold their blocks, so the body's run applies; the invariant and
    the core's debts pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2]
  rw [show (dat6 V c).Φ t.succ = (dat6 V c).Φ t.castSucc from rfl,
    show (dat6 V c).owesAt () t.succ = (dat6 V c).owesAt () t.castSucc from rfl,
    after6_0, after6_1, after6_2, after6_3]
  iintro ⟨HΦ, Ho, ⟨%d0, H0⟩, ⟨%d1, H1⟩, ⟨%d2, H2⟩, ⟨%d3, H3⟩⟩
  iapply (sound_kernel6 c Set.univ (grid6.coords t) _ _ _ _ _ _ _ _ (iblk6 V c 0 t) (iblk6 V c 1 t) (iblk6 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation6 (c : Dev nD) : BodyObligation (dat6 (F := F) V c) (defs₀ (F := F)) Variants.none () Set.univ := fun t => by
  rw [bigSep_W6, bigSep_W6]
  exact sound_body6 V c t

end Cert.Kernel.Hand

end
-- ==== Proof.K.Region7.lean ====
/-
  Dense layer 7 of the network, as the pipeline runs it: one grid point takes a block of 5000 rows of the
  [100000, 3] feature array, the whole [3, 1] weight and the [1, 1] bias row, and stores the block of
  5000 rows of the [100000, 1] result. This module states, at any contents `V` of the buffers when the
  region is entered, what each staging buffer holds before and after the body at a point, runs the body
  once on whole staging buffers, and assembles the pipeline's proof data and its body obligation. It is
  generic in the float instance.
-/
import proofs.«101217_j35820027249494_1_alg».proof.Proof.Gen.Kernel.Launch
import proofs.«101217_j35820027249494_1_alg».proof.Proof.Gen.Kernel.Skeleton
import proofs.«101217_j35820027249494_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-! Each input window's current staging buffer holds its block at every point, whether the point fetches it
    or an earlier point did and the block's index has not moved since. -/

theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

/-- The whole-buffer rectangles the body loads and stores through. -/
abbrev r7_0 : Rect S5000x3 := Rect.unit (s := S5000x3) ![0, 0] S5000x3.size inb_S5000x3_S5000x3_0_0
abbrev r7_1 : Rect S3x1 := Rect.unit (s := S3x1) ![0, 0] S3x1.size inb_S3x1_S3x1_0_0
abbrev r7_2 : Rect S1x1 := Rect.unit (s := S1x1) ![0, 0] S1x1.size inb_S1x1_S1x1_0_0
abbrev r7_3 : Rect S5000x1 := Rect.unit (s := S5000x1) ![0, 0] S5000x1.size inb_S5000x1_S5000x1_0_0

/-- The result window's staging buffer after the body: its one store, of the layer's payload of the three
    input blocks. -/
def out7_3 (x0 : Vec F S5000x3 .f32) (x1 : Vec F S3x1 .f32) (x2 : Vec F S1x1 .f32) : Vec F S5000x1 .f32 :=
  View.canon [⟨r7_3, k7_pay1 (View.ld x0 r7_0) (View.ld x1 r7_1) (View.ld x2 r7_2)⟩]

/-- The one store covers the buffer. -/
theorem cover7_3 (p0 : Vec F S5000x1 .f32) (y : S5000x1.Idx) :
    ∃ pc ∈ ([⟨r7_3, p0⟩] : List (View.Piece (Elt F) S5000x1 .f32)), y ∈ pc.1.set :=
  View.cover_of_tiled [⟨r7_3, p0⟩] S5000x1.size (by rfl) y

set_option maxHeartbeats 1000000 in
/-- The body on whole staging buffers, the inputs' at read contents and the result's at anything, runs to the
    continuation with the inputs' as they were and the result's at `out7_3` of the inputs'. -/
theorem sound_kernel7 (c : Dev nD) (E : Set ℕ) (i : grid7.Coords) (arg1 : Memref sig .tc .vmem S5000x3 .f32) (harg1 : arg1.IsWhole) (arg2 : Memref sig .tc .vmem S3x1 .f32) (harg2 : arg2.IsWhole) (arg3 : Memref sig .tc .vmem S1x1 .f32) (harg3 : arg3.IsWhole) (arg4 : Memref sig .tc .vmem S5000x1 .f32) (harg4 : arg4.IsWhole)
    (x0 : Vec F S5000x3 .f32) (x1 : Vec F S3x1 .f32) (x2 : Vec F S1x1 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out7_3 x0 x1 x2)) -∗ K ⟨⟩))
      ⊢ wp frame (wpE (defs₀ (F := F)) Variants.none c none) E (cc7__linear_act_kernel i arg1 harg1 arg2 harg2 arg3 harg3 arg4 harg4) K := by
  simp only [cc7__linear_act_kernel_eq_skeleton]; unfold cc7__linear_act_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover7_3 _)

/-- The pipeline's proof data on core `c`: the arrays as the region finds them; after the body at point `t` each
    input's buffer at its block and the result's at `out7_3` of the input blocks; the invariant is the scoped
    rest and the generator register, untouched; nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => out7_3 (iblk7 V c 0 t) (iblk7 V c 1 t) (iblk7 V c 2 t)
  Φ _ := Pipeline.ΦA spec7 c
  q _ := fullShare
  owed _ := 0

theorem A_eq7 (c : Dev nD) (w : Fin cfg7.W) : (dat7 V c).A w = V c (Pipeline.arrRef spec7 w) := by
  dsimp only [dat7]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = out7_3 (iblk7 V c 0 t) (iblk7 V c 1 t) (iblk7 V c 2 t) := by dsimp only [dat7]

theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d

/-- What the body is called with at point `t`, the windows one by one, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d)))

/-- and what it returns. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t))

/-- The body at any point: the inputs' buffers hold their blocks, so the body's run applies; the invariant and
    the core's debts pass through unread. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2]
  rw [show (dat7 V c).Φ t.succ = (dat7 V c).Φ t.castSucc from rfl,
    show (dat7 V c).owesAt () t.succ = (dat7 V c).owesAt () t.castSucc from rfl,
    after7_0, after7_1, after7_2, after7_3]
  iintro ⟨HΦ, Ho, ⟨%d0, H0⟩, ⟨%d1, H1⟩, ⟨%d2, H2⟩, ⟨%d3, H3⟩⟩
  iapply (sound_kernel7 c Set.univ (grid7.coords t) _ _ _ _ _ _ _ _ (iblk7 V c 0 t) (iblk7 V c 1 t) (iblk7 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation7 (c : Dev nD) : BodyObligation (dat7 (F := F) V c) (defs₀ (F := F)) Variants.none () Set.univ := fun t => by
  rw [bigSep_W7, bigSep_W7]
  exact sound_body7 V c t

end Cert.Kernel.Hand

end
-- ==== Proof.LibWrites.lean ====
/-
  Host operations that write only buffers numbered from `n` on.

  A straight line of host operations each of which writes one result buffer of its own, all of them
  numbered `n` or higher among the TensorCore references, leaves every reference numbered below `n` as
  it found it. With the program's arguments numbered first, this is "no host operation writes an
  argument".
-/
import Idealize.ShloMosaic.Lib.StableHlo.Run

noncomputable section

namespace Idealize.ShloMosaic.StableHlo

open Idealize.ShloMosaic.TcCoe

variable {τ : Topo} {sig : RefSig} {Val : EltTy → Type}

/-- Every buffer the operation writes is a TensorCore reference whose index is at least `n`. -/
def WritesFrom (n : ℕ) (op : HloOp τ sig Val) : Prop :=
  ∀ b ∈ op.writes, ∃ y : Ref sig .tc, b = Proc.devRef .tc y ∧ n ≤ y.idx.val

/-- A line of such operations leaves every reference numbered below `n` as it found it. -/
theorem after_below (n : ℕ) (ops : List (HloOp τ sig Val)) (W : Valuation τ sig Val)
    (h : ops.Forall (WritesFrom n)) (r : Ref sig .tc) (hr : r.idx.val < n) :
    after ops W (Proc.devRef .tc r) = W (Proc.devRef .tc r) :=
  after_of_forall_not_mem ops W fun op hop hb => by
    obtain ⟨y, e, hy⟩ := (List.forall_iff_forall_mem.mp h) op hop _ hb
    obtain rfl : r = y := Proc.devRef_injective _ e
    omega

/-- Any stretch cut from the front or the back of such a line is such a line. -/
theorem WritesFrom.take (n k : ℕ) (ops : List (HloOp τ sig Val)) (h : ops.Forall (WritesFrom n)) :
    (ops.take k).Forall (WritesFrom n) :=
  List.forall_iff_forall_mem.mpr fun op hop => (List.forall_iff_forall_mem.mp h) op (List.mem_of_mem_take hop)

theorem WritesFrom.drop (n k : ℕ) (ops : List (HloOp τ sig Val)) (h : ops.Forall (WritesFrom n)) :
    (ops.drop k).Forall (WritesFrom n) :=
  List.forall_iff_forall_mem.mpr fun op hop => (List.forall_iff_forall_mem.mp h) op (List.mem_of_mem_drop hop)

/-- One operation at a time over a literal line: the buffer written is the operation's own result. -/
macro "writes_own" : tactic =>
  `(tactic| (simp only [List.Forall]; repeat' constructor
             all_goals exact fun b hb => ⟨_, Finset.mem_singleton.mp hb, by decide⟩))

/-- Two lines one after the other. -/
theorem after_two : ∀ (l₁ l₂ : List (HloOp τ sig Val)) (V : Valuation τ sig Val),
    after (l₁ ++ l₂) V = after l₂ (after l₁ V)
  | [], _, _ => rfl
  | op :: l₁, l₂, V => by rw [List.cons_append, after_cons, after_cons, after_two l₁ l₂]

/-- A line run in two stretches. -/
theorem after_take_drop (k : ℕ) (ops : List (HloOp τ sig Val)) (W : Valuation τ sig Val) :
    after ops W = after (ops.drop k) (after (ops.take k) W) := by
  rw [← after_two, List.take_append_drop]

end Idealize.ShloMosaic.StableHlo

end
-- ==== Proof.K.Run.lean ====
/-
  The run of the whole program: eighteen stretches in order — ten lines of host operations and the eight
  dense layers' pipelines between them. The buffer contents at every boundary between two stretches are a
  fold from the launch memory: a line of host operations rewrites the buffers it computes; a pipeline leaves
  its arrays at what its write-backs made of them and every other buffer as it found it. No stretch writes
  an argument: the host operations write buffers numbered after the arguments, and no pipeline's array is an
  argument. The launch theorem for a program of several pipelines then gives: every weakly fair execution
  terminates, nothing faults, and every buffer ends at the last boundary's contents. Generic in the float
  instance.
-/
import proofs.«101217_j35820027249494_1_alg».proof.Proof.K.Region0
import proofs.«101217_j35820027249494_1_alg».proof.Proof.K.Region1
import proofs.«101217_j35820027249494_1_alg».proof.Proof.K.Region2
import proofs.«101217_j35820027249494_1_alg».proof.Proof.K.Region3
import proofs.«101217_j35820027249494_1_alg».proof.Proof.K.Region4
import proofs.«101217_j35820027249494_1_alg».proof.Proof.K.Region5
import proofs.«101217_j35820027249494_1_alg».proof.Proof.K.Region6
import proofs.«101217_j35820027249494_1_alg».proof.Proof.K.Region7
import proofs.«101217_j35820027249494_1_alg».proof.Proof.LibWrites

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the host line `hostOps0`. -/
abbrev W1 : Dev nD → Valuation τ sig (Elt F) := fun c => StableHlo.after hostOps0 (W0 m ρ c)
/-- After the host line `hostOps0_1`. -/
abbrev W2 : Dev nD → Valuation τ sig (Elt F) := fun c => StableHlo.after hostOps0_1 (W1 m ρ c)
/-- After the host line `hostOps0_2`. -/
abbrev W3 : Dev nD → Valuation τ sig (Elt F) := fun c => StableHlo.after hostOps0_2 (W2 m ρ c)
/-- The same read at the TensorCore's references: what layer 0's pipeline is entered with. -/
abbrev V3 : (c : Dev nD) → (b : Ref sig .tc) → Buf (Elt F) ((c : Thread nD τ).loc b) := fun c b => W3 m ρ c b
/-- At the exit of layer 0's pipeline: its arrays at what the pipeline leaves, every other buffer as entered. -/
def W4 (c : Dev nD) : Valuation τ sig (Elt F) :=
  Pipeline.withArrays spec0 c (W3 m ρ c) fun w => (dat0 (V3 m ρ) c).arrAt w cfg0.N
theorem W4_arr (c : Dev nD) (w : Fin cfg0.W) :
    W4 m ρ c (Proc.devRef .tc (Pipeline.arrRef spec0 w)) = (dat0 (V3 m ρ) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
abbrev V4 : (c : Dev nD) → (b : Ref sig .tc) → Buf (Elt F) ((c : Thread nD τ).loc b) := fun c b => W4 m ρ c b
theorem hF0 (c : Dev nD) (w : Fin cfg0.W) : (dat0 (V3 m ρ) c).arrAt w cfg0.N = V4 m ρ c (Pipeline.arrRef spec0 w) :=
  (W4_arr m ρ c w).symm
theorem hrest0 (c : Dev nD) : ∀ b, b ∉ Finset.univ.image (Pipeline.arrRef spec0) → V4 m ρ c b = V3 m ρ c b :=
  fun b hb => W4_of_ne m ρ c b fun w e => hb (Finset.mem_image.mpr ⟨w, Finset.mem_univ _, e⟩)
/-- No array of layer 0's pipeline is an argument: they are numbered after the arguments. -/
theorem arr_from0 : ∀ w : Fin cfg0.W, 84 ≤ (Pipeline.arrRef spec0 w).idx.val := by decide
/-- After the host line `hostOps1`. -/
abbrev W5 : Dev nD → Valuation τ sig (Elt F) := fun c => StableHlo.after hostOps1 (W4 m ρ c)
/-- The same read at the TensorCore's references: what layer 1's pipeline is entered with. -/
abbrev V5 : (c : Dev nD) → (b : Ref sig .tc) → Buf (Elt F) ((c : Thread nD τ).loc b) := fun c b => W5 m ρ c b
/-- At the exit of layer 1's pipeline: its arrays at what the pipeline leaves, every other buffer as entered. -/
def W6 (c : Dev nD) : Valuation τ sig (Elt F) :=
  Pipeline.withArrays spec1 c (W5 m ρ c) fun w => (dat1 (V5 m ρ) c).arrAt w cfg1.N
theorem W6_arr (c : Dev nD) (w : Fin cfg1.W) :
    W6 m ρ c (Proc.devRef .tc (Pipeline.arrRef spec1 w)) = (dat1 (V5 m ρ) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
abbrev V6 : (c : Dev nD) → (b : Ref sig .tc) → Buf (Elt F) ((c : Thread nD τ).loc b) := fun c b => W6 m ρ c b
theorem hF1 (c : Dev nD) (w : Fin cfg1.W) : (dat1 (V5 m ρ) c).arrAt w cfg1.N = V6 m ρ c (Pipeline.arrRef spec1 w) :=
  (W6_arr m ρ c w).symm
theorem hrest1 (c : Dev nD) : ∀ b, b ∉ Finset.univ.image (Pipeline.arrRef spec1) → V6 m ρ c b = V5 m ρ c b :=
  fun b hb => W6_of_ne m ρ c b fun w e => hb (Finset.mem_image.mpr ⟨w, Finset.mem_univ _, e⟩)
/-- No array of layer 1's pipeline is an argument: they are numbered after the arguments. -/
theorem arr_from1 : ∀ w : Fin cfg1.W, 104 ≤ (Pipeline.arrRef spec1 w).idx.val := by decide
/-- After the host line `hostOps2`. -/
abbrev W7 : Dev nD → Valuation τ sig (Elt F) := fun c => StableHlo.after hostOps2 (W6 m ρ c)
/-- The same read at the TensorCore's references: what layer 2's pipeline is entered with. -/
abbrev V7 : (c : Dev nD) → (b : Ref sig .tc) → Buf (Elt F) ((c : Thread nD τ).loc b) := fun c b => W7 m ρ c b
/-- At the exit of layer 2's pipeline: its arrays at what the pipeline leaves, every other buffer as entered. -/
def W8 (c : Dev nD) : Valuation τ sig (Elt F) :=
  Pipeline.withArrays spec2 c (W7 m ρ c) fun w => (dat2 (V7 m ρ) c).arrAt w cfg2.N
theorem W8_arr (c : Dev nD) (w : Fin cfg2.W) :
    W8 m ρ c (Proc.devRef .tc (Pipeline.arrRef spec2 w)) = (dat2 (V7 m ρ) c).arrAt w cfg2.N := by
  unfold W8; exact Pipeline.withArrays_arr spec2 launch2.win.arr_inj c _ _ w
theorem W8_of_ne (c : Dev nD) (b : Ref sig .tc) (hb : ∀ w, Pipeline.arrRef spec2 w ≠ b) :
    W8 m ρ c (Proc.devRef .tc b) = W7 m ρ c (Proc.devRef .tc b) := by
  unfold W8; exact Pipeline.withArrays_of_ne spec2 c _ _ b hb
abbrev V8 : (c : Dev nD) → (b : Ref sig .tc) → Buf (Elt F) ((c : Thread nD τ).loc b) := fun c b => W8 m ρ c b
theorem hF2 (c : Dev nD) (w : Fin cfg2.W) : (dat2 (V7 m ρ) c).arrAt w cfg2.N = V8 m ρ c (Pipeline.arrRef spec2 w) :=
  (W8_arr m ρ c w).symm
theorem hrest2 (c : Dev nD) : ∀ b, b ∉ Finset.univ.image (Pipeline.arrRef spec2) → V8 m ρ c b = V7 m ρ c b :=
  fun b hb => W8_of_ne m ρ c b fun w e => hb (Finset.mem_image.mpr ⟨w, Finset.mem_univ _, e⟩)
/-- No array of layer 2's pipeline is an argument: they are numbered after the arguments. -/
theorem arr_from2 : ∀ w : Fin cfg2.W, 124 ≤ (Pipeline.arrRef spec2 w).idx.val := by decide
/-- After the host line `hostOps3`. -/
abbrev W9 : Dev nD → Valuation τ sig (Elt F) := fun c => StableHlo.after hostOps3 (W8 m ρ c)
/-- The same read at the TensorCore's references: what layer 3's pipeline is entered with. -/
abbrev V9 : (c : Dev nD) → (b : Ref sig .tc) → Buf (Elt F) ((c : Thread nD τ).loc b) := fun c b => W9 m ρ c b
/-- At the exit of layer 3's pipeline: its arrays at what the pipeline leaves, every other buffer as entered. -/
def W10 (c : Dev nD) : Valuation τ sig (Elt F) :=
  Pipeline.withArrays spec3 c (W9 m ρ c) fun w => (dat3 (V9 m ρ) c).arrAt w cfg3.N
theorem W10_arr (c : Dev nD) (w : Fin cfg3.W) :
    W10 m ρ c (Proc.devRef .tc (Pipeline.arrRef spec3 w)) = (dat3 (V9 m ρ) c).arrAt w cfg3.N := by
  unfold W10; exact Pipeline.withArrays_arr spec3 launch3.win.arr_inj c _ _ w
theorem W10_of_ne (c : Dev nD) (b : Ref sig .tc) (hb : ∀ w, Pipeline.arrRef spec3 w ≠ b) :
    W10 m ρ c (Proc.devRef .tc b) = W9 m ρ c (Proc.devRef .tc b) := by
  unfold W10; exact Pipeline.withArrays_of_ne spec3 c _ _ b hb
abbrev V10 : (c : Dev nD) → (b : Ref sig .tc) → Buf (Elt F) ((c : Thread nD τ).loc b) := fun c b => W10 m ρ c b
theorem hF3 (c : Dev nD) (w : Fin cfg3.W) : (dat3 (V9 m ρ) c).arrAt w cfg3.N = V10 m ρ c (Pipeline.arrRef spec3 w) :=
  (W10_arr m ρ c w).symm
theorem hrest3 (c : Dev nD) : ∀ b, b ∉ Finset.univ.image (Pipeline.arrRef spec3) → V10 m ρ c b = V9 m ρ c b :=
  fun b hb => W10_of_ne m ρ c b fun w e => hb (Finset.mem_image.mpr ⟨w, Finset.mem_univ _, e⟩)
/-- No array of layer 3's pipeline is an argument: they are numbered after the arguments. -/
theorem arr_from3 : ∀ w : Fin cfg3.W, 177 ≤ (Pipeline.arrRef spec3 w).idx.val := by decide
/-- After the host line `hostOps4`. -/
abbrev W11 : Dev nD → Valuation τ sig (Elt F) := fun c => StableHlo.after hostOps4 (W10 m ρ c)
/-- The same read at the TensorCore's references: what layer 4's pipeline is entered with. -/
abbrev V11 : (c : Dev nD) → (b : Ref sig .tc) → Buf (Elt F) ((c : Thread nD τ).loc b) := fun c b => W11 m ρ c b
/-- At the exit of layer 4's pipeline: its arrays at what the pipeline leaves, every other buffer as entered. -/
def W12 (c : Dev nD) : Valuation τ sig (Elt F) :=
  Pipeline.withArrays spec4 c (W11 m ρ c) fun w => (dat4 (V11 m ρ) c).arrAt w cfg4.N
theorem W12_arr (c : Dev nD) (w : Fin cfg4.W) :
    W12 m ρ c (Proc.devRef .tc (Pipeline.arrRef spec4 w)) = (dat4 (V11 m ρ) c).arrAt w cfg4.N := by
  unfold W12; exact Pipeline.withArrays_arr spec4 launch4.win.arr_inj c _ _ w
theorem W12_of_ne (c : Dev nD) (b : Ref sig .tc) (hb : ∀ w, Pipeline.arrRef spec4 w ≠ b) :
    W12 m ρ c (Proc.devRef .tc b) = W11 m ρ c (Proc.devRef .tc b) := by
  unfold W12; exact Pipeline.withArrays_of_ne spec4 c _ _ b hb
abbrev V12 : (c : Dev nD) → (b : Ref sig .tc) → Buf (Elt F) ((c : Thread nD τ).loc b) := fun c b => W12 m ρ c b
theorem hF4 (c : Dev nD) (w : Fin cfg4.W) : (dat4 (V11 m ρ) c).arrAt w cfg4.N = V12 m ρ c (Pipeline.arrRef spec4 w) :=
  (W12_arr m ρ c w).symm
theorem hrest4 (c : Dev nD) : ∀ b, b ∉ Finset.univ.image (Pipeline.arrRef spec4) → V12 m ρ c b = V11 m ρ c b :=
  fun b hb => W12_of_ne m ρ c b fun w e => hb (Finset.mem_image.mpr ⟨w, Finset.mem_univ _, e⟩)
/-- No array of layer 4's pipeline is an argument: they are numbered after the arguments. -/
theorem arr_from4 : ∀ w : Fin cfg4.W, 229 ≤ (Pipeline.arrRef spec4 w).idx.val := by decide
/-- After the host line `hostOps5`. -/
abbrev W13 : Dev nD → Valuation τ sig (Elt F) := fun c => StableHlo.after hostOps5 (W12 m ρ c)
/-- The same read at the TensorCore's references: what layer 5's pipeline is entered with. -/
abbrev V13 : (c : Dev nD) → (b : Ref sig .tc) → Buf (Elt F) ((c : Thread nD τ).loc b) := fun c b => W13 m ρ c b
/-- At the exit of layer 5's pipeline: its arrays at what the pipeline leaves, every other buffer as entered. -/
def W14 (c : Dev nD) : Valuation τ sig (Elt F) :=
  Pipeline.withArrays spec5 c (W13 m ρ c) fun w => (dat5 (V13 m ρ) c).arrAt w cfg5.N
theorem W14_arr (c : Dev nD) (w : Fin cfg5.W) :
    W14 m ρ c (Proc.devRef .tc (Pipeline.arrRef spec5 w)) = (dat5 (V13 m ρ) c).arrAt w cfg5.N := by
  unfold W14; exact Pipeline.withArrays_arr spec5 launch5.win.arr_inj c _ _ w
theorem W14_of_ne (c : Dev nD) (b : Ref sig .tc) (hb : ∀ w, Pipeline.arrRef spec5 w ≠ b) :
    W14 m ρ c (Proc.devRef .tc b) = W13 m ρ c (Proc.devRef .tc b) := by
  unfold W14; exact Pipeline.withArrays_of_ne spec5 c _ _ b hb
abbrev V14 : (c : Dev nD) → (b : Ref sig .tc) → Buf (Elt F) ((c : Thread nD τ).loc b) := fun c b => W14 m ρ c b
theorem hF5 (c : Dev nD) (w : Fin cfg5.W) : (dat5 (V13 m ρ) c).arrAt w cfg5.N = V14 m ρ c (Pipeline.arrRef spec5 w) :=
  (W14_arr m ρ c w).symm
theorem hrest5 (c : Dev nD) : ∀ b, b ∉ Finset.univ.image (Pipeline.arrRef spec5) → V14 m ρ c b = V13 m ρ c b :=
  fun b hb => W14_of_ne m ρ c b fun w e => hb (Finset.mem_image.mpr ⟨w, Finset.mem_univ _, e⟩)
/-- No array of layer 5's pipeline is an argument: they are numbered after the arguments. -/
theorem arr_from5 : ∀ w : Fin cfg5.W, 329 ≤ (Pipeline.arrRef spec5 w).idx.val := by decide
/-- After the host line `hostOps6`. -/
abbrev W15 : Dev nD → Valuation τ sig (Elt F) := fun c => StableHlo.after hostOps6 (W14 m ρ c)
/-- The same read at the TensorCore's references: what layer 6's pipeline is entered with. -/
abbrev V15 : (c : Dev nD) → (b : Ref sig .tc) → Buf (Elt F) ((c : Thread nD τ).loc b) := fun c b => W15 m ρ c b
/-- At the exit of layer 6's pipeline: its arrays at what the pipeline leaves, every other buffer as entered. -/
def W16 (c : Dev nD) : Valuation τ sig (Elt F) :=
  Pipeline.withArrays spec6 c (W15 m ρ c) fun w => (dat6 (V15 m ρ) c).arrAt w cfg6.N
theorem W16_arr (c : Dev nD) (w : Fin cfg6.W) :
    W16 m ρ c (Proc.devRef .tc (Pipeline.arrRef spec6 w)) = (dat6 (V15 m ρ) c).arrAt w cfg6.N := by
  unfold W16; exact Pipeline.withArrays_arr spec6 launch6.win.arr_inj c _ _ w
theorem W16_of_ne (c : Dev nD) (b : Ref sig .tc) (hb : ∀ w, Pipeline.arrRef spec6 w ≠ b) :
    W16 m ρ c (Proc.devRef .tc b) = W15 m ρ c (Proc.devRef .tc b) := by
  unfold W16; exact Pipeline.withArrays_of_ne spec6 c _ _ b hb
abbrev V16 : (c : Dev nD) → (b : Ref sig .tc) → Buf (Elt F) ((c : Thread nD τ).loc b) := fun c b => W16 m ρ c b
theorem hF6 (c : Dev nD) (w : Fin cfg6.W) : (dat6 (V15 m ρ) c).arrAt w cfg6.N = V16 m ρ c (Pipeline.arrRef spec6 w) :=
  (W16_arr m ρ c w).symm
theorem hrest6 (c : Dev nD) : ∀ b, b ∉ Finset.univ.image (Pipeline.arrRef spec6) → V16 m ρ c b = V15 m ρ c b :=
  fun b hb => W16_of_ne m ρ c b fun w e => hb (Finset.mem_image.mpr ⟨w, Finset.mem_univ _, e⟩)
/-- No array of layer 6's pipeline is an argument: they are numbered after the arguments. -/
theorem arr_from6 : ∀ w : Fin cfg6.W, 429 ≤ (Pipeline.arrRef spec6 w).idx.val := by decide
/-- After the host line `hostOps7`. -/
abbrev W17 : Dev nD → Valuation τ sig (Elt F) := fun c => StableHlo.after hostOps7 (W16 m ρ c)
/-- The same read at the TensorCore's references: what layer 7's pipeline is entered with. -/
abbrev V17 : (c : Dev nD) → (b : Ref sig .tc) → Buf (Elt F) ((c : Thread nD τ).loc b) := fun c b => W17 m ρ c b
/-- At the exit of layer 7's pipeline: its arrays at what the pipeline leaves, every other buffer as entered. -/
def W18 (c : Dev nD) : Valuation τ sig (Elt F) :=
  Pipeline.withArrays spec7 c (W17 m ρ c) fun w => (dat7 (V17 m ρ) c).arrAt w cfg7.N
theorem W18_arr (c : Dev nD) (w : Fin cfg7.W) :
    W18 m ρ c (Proc.devRef .tc (Pipeline.arrRef spec7 w)) = (dat7 (V17 m ρ) c).arrAt w cfg7.N := by
  unfold W18; exact Pipeline.withArrays_arr spec7 launch7.win.arr_inj c _ _ w
theorem W18_of_ne (c : Dev nD) (b : Ref sig .tc) (hb : ∀ w, Pipeline.arrRef spec7 w ≠ b) :
    W18 m ρ c (Proc.devRef .tc b) = W17 m ρ c (Proc.devRef .tc b) := by
  unfold W18; exact Pipeline.withArrays_of_ne spec7 c _ _ b hb
abbrev V18 : (c : Dev nD) → (b : Ref sig .tc) → Buf (Elt F) ((c : Thread nD τ).loc b) := fun c b => W18 m ρ c b
theorem hF7 (c : Dev nD) (w : Fin cfg7.W) : (dat7 (V17 m ρ) c).arrAt w cfg7.N = V18 m ρ c (Pipeline.arrRef spec7 w) :=
  (W18_arr m ρ c w).symm
theorem hrest7 (c : Dev nD) : ∀ b, b ∉ Finset.univ.image (Pipeline.arrRef spec7) → V18 m ρ c b = V17 m ρ c b :=
  fun b hb => W18_of_ne m ρ c b fun w e => hb (Finset.mem_image.mpr ⟨w, Finset.mem_univ _, e⟩)
/-- No array of layer 7's pipeline is an argument: they are numbered after the arguments. -/
theorem arr_from7 : ∀ w : Fin cfg7.W, 433 ≤ (Pipeline.arrRef spec7 w).idx.val := by decide

/-! ## No stretch writes an argument -/
theorem hostOps0_from : (hostOps0 : List (HloOp τ sig (Elt F))).Forall (StableHlo.WritesFrom 21) := by writes_own
theorem hostOps0_fresh : (hostOps0 : List (HloOp τ sig (Elt F))).Forall fun op => op.fresh = ∅ := by
  simp only [List.Forall]; repeat' constructor
theorem hostOps0_1_from : (hostOps0_1 : List (HloOp τ sig (Elt F))).Forall (StableHlo.WritesFrom 38) := by writes_own
theorem hostOps0_1_fresh : (hostOps0_1 : List (HloOp τ sig (Elt F))).Forall fun op => op.fresh = ∅ := by
  simp only [List.Forall]; repeat' constructor
theorem hostOps0_2_from : (hostOps0_2 : List (HloOp τ sig (Elt F))).Forall (StableHlo.WritesFrom 41) := by writes_own
theorem hostOps0_2_fresh : (hostOps0_2 : List (HloOp τ sig (Elt F))).Forall fun op => op.fresh = ∅ := by
  simp only [List.Forall]; repeat' constructor
theorem hostOps1_from : (hostOps1 : List (HloOp τ sig (Elt F))).Forall (StableHlo.WritesFrom 89) := by writes_own
theorem hostOps1_fresh : (hostOps1 : List (HloOp τ sig (Elt F))).Forall fun op => op.fresh = ∅ := by
  simp only [List.Forall]; repeat' constructor
theorem hostOps2_from : (hostOps2 : List (HloOp τ sig (Elt F))).Forall (StableHlo.WritesFrom 109) := by writes_own
theorem hostOps2_fresh : (hostOps2 : List (HloOp τ sig (Elt F))).Forall fun op => op.fresh = ∅ := by
  simp only [List.Forall]; repeat' constructor
theorem hostOps3_from : (hostOps3 : List (HloOp τ sig (Elt F))).Forall (StableHlo.WritesFrom 129) := by writes_own
theorem hostOps3_fresh : (hostOps3 : List (HloOp τ sig (Elt F))).Forall fun op => op.fresh = ∅ := by
  simp only [List.Forall]; repeat' constructor
theorem hostOps4_from : (hostOps4 : List (HloOp τ sig (Elt F))).Forall (StableHlo.WritesFrom 181) := by writes_own
theorem hostOps4_fresh : (hostOps4 : List (HloOp τ sig (Elt F))).Forall fun op => op.fresh = ∅ := by
  simp only [List.Forall]; repeat' constructor
theorem hostOps5_from : (hostOps5 : List (HloOp τ sig (Elt F))).Forall (StableHlo.WritesFrom 233) := by writes_own
theorem hostOps5_fresh : (hostOps5 : List (HloOp τ sig (Elt F))).Forall fun op => op.fresh = ∅ := by
  simp only [List.Forall]; repeat' constructor
theorem hostOps6_from : (hostOps6 : List (HloOp τ sig (Elt F))).Forall (StableHlo.WritesFrom 333) := by writes_own
theorem hostOps6_fresh : (hostOps6 : List (HloOp τ sig (Elt F))).Forall fun op => op.fresh = ∅ := by
  simp only [List.Forall]; repeat' constructor
theorem hostOps7_from : (hostOps7 : List (HloOp τ sig (Elt F))).Forall (StableHlo.WritesFrom 433) := by writes_own
theorem hostOps7_fresh : (hostOps7 : List (HloOp τ sig (Elt F))).Forall fun op => op.fresh = ∅ := by
  simp only [List.Forall]; repeat' constructor

/-- A stretch leaves every reference numbered below its first write — or, for a pipeline, below its arrays — as it found it. -/
theorem W1_keep (c : Dev nD) (r : Ref sig .tc) (hr : r.idx.val < 21) : W1 m ρ c (Proc.devRef .tc r) = W0 m ρ c (Proc.devRef .tc r) :=
  StableHlo.after_below 21 _ _ hostOps0_from r hr
theorem W2_keep (c : Dev nD) (r : Ref sig .tc) (hr : r.idx.val < 38) : W2 m ρ c (Proc.devRef .tc r) = W1 m ρ c (Proc.devRef .tc r) :=
  StableHlo.after_below 38 _ _ hostOps0_1_from r hr
theorem W3_keep (c : Dev nD) (r : Ref sig .tc) (hr : r.idx.val < 41) : W3 m ρ c (Proc.devRef .tc r) = W2 m ρ c (Proc.devRef .tc r) :=
  StableHlo.after_below 41 _ _ hostOps0_2_from r hr
theorem W4_keep (c : Dev nD) (r : Ref sig .tc) (hr : r.idx.val < 84) : W4 m ρ c (Proc.devRef .tc r) = W3 m ρ c (Proc.devRef .tc r) :=
  W4_of_ne m ρ c r fun w e => by have h := arr_from0 w; rw [e] at h; omega
theorem W5_keep (c : Dev nD) (r : Ref sig .tc) (hr : r.idx.val < 89) : W5 m ρ c (Proc.devRef .tc r) = W4 m ρ c (Proc.devRef .tc r) :=
  StableHlo.after_below 89 _ _ hostOps1_from r hr
theorem W6_keep (c : Dev nD) (r : Ref sig .tc) (hr : r.idx.val < 104) : W6 m ρ c (Proc.devRef .tc r) = W5 m ρ c (Proc.devRef .tc r) :=
  W6_of_ne m ρ c r fun w e => by have h := arr_from1 w; rw [e] at h; omega
theorem W7_keep (c : Dev nD) (r : Ref sig .tc) (hr : r.idx.val < 109) : W7 m ρ c (Proc.devRef .tc r) = W6 m ρ c (Proc.devRef .tc r) :=
  StableHlo.after_below 109 _ _ hostOps2_from r hr
theorem W8_keep (c : Dev nD) (r : Ref sig .tc) (hr : r.idx.val < 124) : W8 m ρ c (Proc.devRef .tc r) = W7 m ρ c (Proc.devRef .tc r) :=
  W8_of_ne m ρ c r fun w e => by have h := arr_from2 w; rw [e] at h; omega
theorem W9_keep (c : Dev nD) (r : Ref sig .tc) (hr : r.idx.val < 129) : W9 m ρ c (Proc.devRef .tc r) = W8 m ρ c (Proc.devRef .tc r) :=
  StableHlo.after_below 129 _ _ hostOps3_from r hr
theorem W10_keep (c : Dev nD) (r : Ref sig .tc) (hr : r.idx.val < 177) : W10 m ρ c (Proc.devRef .tc r) = W9 m ρ c (Proc.devRef .tc r) :=
  W10_of_ne m ρ c r fun w e => by have h := arr_from3 w; rw [e] at h; omega
theorem W11_keep (c : Dev nD) (r : Ref sig .tc) (hr : r.idx.val < 181) : W11 m ρ c (Proc.devRef .tc r) = W10 m ρ c (Proc.devRef .tc r) :=
  StableHlo.after_below 181 _ _ hostOps4_from r hr
theorem W12_keep (c : Dev nD) (r : Ref sig .tc) (hr : r.idx.val < 229) : W12 m ρ c (Proc.devRef .tc r) = W11 m ρ c (Proc.devRef .tc r) :=
  W12_of_ne m ρ c r fun w e => by have h := arr_from4 w; rw [e] at h; omega
theorem W13_keep (c : Dev nD) (r : Ref sig .tc) (hr : r.idx.val < 233) : W13 m ρ c (Proc.devRef .tc r) = W12 m ρ c (Proc.devRef .tc r) :=
  StableHlo.after_below 233 _ _ hostOps5_from r hr
theorem W14_keep (c : Dev nD) (r : Ref sig .tc) (hr : r.idx.val < 329) : W14 m ρ c (Proc.devRef .tc r) = W13 m ρ c (Proc.devRef .tc r) :=
  W14_of_ne m ρ c r fun w e => by have h := arr_from5 w; rw [e] at h; omega
theorem W15_keep (c : Dev nD) (r : Ref sig .tc) (hr : r.idx.val < 333) : W15 m ρ c (Proc.devRef .tc r) = W14 m ρ c (Proc.devRef .tc r) :=
  StableHlo.after_below 333 _ _ hostOps6_from r hr
theorem W16_keep (c : Dev nD) (r : Ref sig .tc) (hr : r.idx.val < 429) : W16 m ρ c (Proc.devRef .tc r) = W15 m ρ c (Proc.devRef .tc r) :=
  W16_of_ne m ρ c r fun w e => by have h := arr_from6 w; rw [e] at h; omega
theorem W17_keep (c : Dev nD) (r : Ref sig .tc) (hr : r.idx.val < 433) : W17 m ρ c (Proc.devRef .tc r) = W16 m ρ c (Proc.devRef .tc r) :=
  StableHlo.after_below 433 _ _ hostOps7_from r hr
theorem W18_keep (c : Dev nD) (r : Ref sig .tc) (hr : r.idx.val < 433) : W18 m ρ c (Proc.devRef .tc r) = W17 m ρ c (Proc.devRef .tc r) :=
  W18_of_ne m ρ c r fun w e => by have h := arr_from7 w; rw [e] at h; omega

/-- An argument — a reference numbered below 21 — holds its launch contents at every boundary. -/
theorem W0_below (c : Dev nD) (r : Ref sig .tc) (hr : r.idx.val < 21) : W0 m ρ c (Proc.devRef .tc r) = m ((c : Thread nD τ).loc r) := rfl
theorem W1_below (c : Dev nD) (r : Ref sig .tc) (hr : r.idx.val < 21) : W1 m ρ c (Proc.devRef .tc r) = m ((c : Thread nD τ).loc r) :=
  (W1_keep m ρ c r (by omega)).trans (W0_below m ρ c r hr)
theorem W2_below (c : Dev nD) (r : Ref sig .tc) (hr : r.idx.val < 21) : W2 m ρ c (Proc.devRef .tc r) = m ((c : Thread nD τ).loc r) :=
  (W2_keep m ρ c r (by omega)).trans (W1_below m ρ c r hr)
theorem W3_below (c : Dev nD) (r : Ref sig .tc) (hr : r.idx.val < 21) : W3 m ρ c (Proc.devRef .tc r) = m ((c : Thread nD τ).loc r) :=
  (W3_keep m ρ c r (by omega)).trans (W2_below m ρ c r hr)
theorem W4_below (c : Dev nD) (r : Ref sig .tc) (hr : r.idx.val < 21) : W4 m ρ c (Proc.devRef .tc r) = m ((c : Thread nD τ).loc r) :=
  (W4_keep m ρ c r (by omega)).trans (W3_below m ρ c r hr)
theorem W5_below (c : Dev nD) (r : Ref sig .tc) (hr : r.idx.val < 21) : W5 m ρ c (Proc.devRef .tc r) = m ((c : Thread nD τ).loc r) :=
  (W5_keep m ρ c r (by omega)).trans (W4_below m ρ c r hr)
theorem W6_below (c : Dev nD) (r : Ref sig .tc) (hr : r.idx.val < 21) : W6 m ρ c (Proc.devRef .tc r) = m ((c : Thread nD τ).loc r) :=
  (W6_keep m ρ c r (by omega)).trans (W5_below m ρ c r hr)
theorem W7_below (c : Dev nD) (r : Ref sig .tc) (hr : r.idx.val < 21) : W7 m ρ c (Proc.devRef .tc r) = m ((c : Thread nD τ).loc r) :=
  (W7_keep m ρ c r (by omega)).trans (W6_below m ρ c r hr)
theorem W8_below (c : Dev nD) (r : Ref sig .tc) (hr : r.idx.val < 21) : W8 m ρ c (Proc.devRef .tc r) = m ((c : Thread nD τ).loc r) :=
  (W8_keep m ρ c r (by omega)).trans (W7_below m ρ c r hr)
theorem W9_below (c : Dev nD) (r : Ref sig .tc) (hr : r.idx.val < 21) : W9 m ρ c (Proc.devRef .tc r) = m ((c : Thread nD τ).loc r) :=
  (W9_keep m ρ c r (by omega)).trans (W8_below m ρ c r hr)
theorem W10_below (c : Dev nD) (r : Ref sig .tc) (hr : r.idx.val < 21) : W10 m ρ c (Proc.devRef .tc r) = m ((c : Thread nD τ).loc r) :=
  (W10_keep m ρ c r (by omega)).trans (W9_below m ρ c r hr)
theorem W11_below (c : Dev nD) (r : Ref sig .tc) (hr : r.idx.val < 21) : W11 m ρ c (Proc.devRef .tc r) = m ((c : Thread nD τ).loc r) :=
  (W11_keep m ρ c r (by omega)).trans (W10_below m ρ c r hr)
theorem W12_below (c : Dev nD) (r : Ref sig .tc) (hr : r.idx.val < 21) : W12 m ρ c (Proc.devRef .tc r) = m ((c : Thread nD τ).loc r) :=
  (W12_keep m ρ c r (by omega)).trans (W11_below m ρ c r hr)
theorem W13_below (c : Dev nD) (r : Ref sig .tc) (hr : r.idx.val < 21) : W13 m ρ c (Proc.devRef .tc r) = m ((c : Thread nD τ).loc r) :=
  (W13_keep m ρ c r (by omega)).trans (W12_below m ρ c r hr)
theorem W14_below (c : Dev nD) (r : Ref sig .tc) (hr : r.idx.val < 21) : W14 m ρ c (Proc.devRef .tc r) = m ((c : Thread nD τ).loc r) :=
  (W14_keep m ρ c r (by omega)).trans (W13_below m ρ c r hr)
theorem W15_below (c : Dev nD) (r : Ref sig .tc) (hr : r.idx.val < 21) : W15 m ρ c (Proc.devRef .tc r) = m ((c : Thread nD τ).loc r) :=
  (W15_keep m ρ c r (by omega)).trans (W14_below m ρ c r hr)
theorem W16_below (c : Dev nD) (r : Ref sig .tc) (hr : r.idx.val < 21) : W16 m ρ c (Proc.devRef .tc r) = m ((c : Thread nD τ).loc r) :=
  (W16_keep m ρ c r (by omega)).trans (W15_below m ρ c r hr)
theorem W17_below (c : Dev nD) (r : Ref sig .tc) (hr : r.idx.val < 21) : W17 m ρ c (Proc.devRef .tc r) = m ((c : Thread nD τ).loc r) :=
  (W17_keep m ρ c r (by omega)).trans (W16_below m ρ c r hr)
theorem W18_below (c : Dev nD) (r : Ref sig .tc) (hr : r.idx.val < 21) : W18 m ρ c (Proc.devRef .tc r) = m ((c : Thread nD τ).loc r) :=
  (W18_keep m ρ c r (by omega)).trans (W17_below m ρ c r hr)

/-! ## The proof data family and the thread state -/

/-- No pipeline has a prefetched table. -/
abbrev adm : (p : Fin 8) → (pcfgs (F := F) p).Adm := fun p => (cfgs p).toPCfg_adm
/-- Every pipeline's proof data, each at its region's entry contents. -/
def pdats : (p : Fin 8) → (c : Dev nD) → Dat τ (Elt F) Unit ℕ (UR sig nD τ) ℕ (Pipeline.pin (pcfgs (F := F)) adm p) c
  | ⟨0, _⟩ => fun c => dat0 (V3 m ρ) c
  | ⟨1, _⟩ => fun c => dat1 (V5 m ρ) c
  | ⟨2, _⟩ => fun c => dat2 (V7 m ρ) c
  | ⟨3, _⟩ => fun c => dat3 (V9 m ρ) c
  | ⟨4, _⟩ => fun c => dat4 (V11 m ρ) c
  | ⟨5, _⟩ => fun c => dat5 (V13 m ρ) c
  | ⟨6, _⟩ => fun c => dat6 (V15 m ρ) c
  | ⟨7, _⟩ => fun c => dat7 (V17 m ρ) c
abbrev 𝒱₀ : Variants := Variants.none
abbrev L : GSem nD τ sig → Finset Unit := fun _ => ∅
abbrev lv : GSem nD τ sig → Unit → ℕ := fun _ _ => 0
/-- What rides beside the buffers through every stretch: the core's generator register at some state and its debts, at nothing. -/
abbrev R (c : Dev nD) : sProp 𝕄 := iprop((∃ r, prngReg c r) ∗ ∃ W, owes (c : Thread nD τ) (0 : CellTallies nD τ sig Unit) W)
/-- A line of host operations as a stretch over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the debts: every unscoped buffer at the last boundary's contents, the generator register at some state. -/
abbrev Tₙ (c : Dev nD) : sProp 𝕄 := iprop(StableHlo.held (c : Thread nD τ) (Pipeline.ucRefs τ sig) (W18 m ρ c) ∗ ∃ r, prngReg c r)

/-! ## The pipelines as stretches -/

set_option backward.isDefEq.respectTransparency.types false in
/-- Layer 0's pipeline over the thread state: entered from every unscoped buffer at boundary 3's contents, left at boundary 4's. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m ρ) c).loose
  hwaits := Pipeline.hwaits_of_owed_zero _ _ _ _ L lv 0 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec0 c (V3 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V3 m ρ c) (V4 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Layer 1's pipeline over the thread state: entered from every unscoped buffer at boundary 5's contents, left at boundary 6's. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m ρ) c).loose
  hwaits := Pipeline.hwaits_of_owed_zero _ _ _ _ L lv 1 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec1 c (V5 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V5 m ρ c) (V6 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Layer 2's pipeline over the thread state: entered from every unscoped buffer at boundary 7's contents, left at boundary 8's. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V7 m ρ) c).loose
  hwaits := Pipeline.hwaits_of_owed_zero _ _ _ _ L lv 2 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec2 c (V7 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V7 m ρ c) (V8 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Layer 3's pipeline over the thread state: entered from every unscoped buffer at boundary 9's contents, left at boundary 10's. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V9 m ρ) c).loose
  hwaits := Pipeline.hwaits_of_owed_zero _ _ _ _ L lv 3 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec3 c (V9 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V9 m ρ c) (V10 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Layer 4's pipeline over the thread state: entered from every unscoped buffer at boundary 11's contents, left at boundary 12's. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V11 m ρ) c).loose
  hwaits := Pipeline.hwaits_of_owed_zero _ _ _ _ L lv 4 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec4 c (V11 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V11 m ρ c) (V12 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Layer 5's pipeline over the thread state: entered from every unscoped buffer at boundary 13's contents, left at boundary 14's. -/
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V13 m ρ) c).loose
  hwaits := Pipeline.hwaits_of_owed_zero _ _ _ _ L lv 5 fun _ _ => rfl
  pre c := iprop(StableHlo.held (c : Thread nD τ) (Pipeline.ucRefs τ sig) (W13 m ρ c) ∗ R c)
  post c := iprop(StableHlo.held (c : Thread nD τ) (Pipeline.ucRefs τ sig) (W14 m ρ c) ∗ R c)
  X c := iprop(∃ r, prngReg c r)
  Y c := iprop(∃ r, prngReg c r)
  Z c := Pipeline.unscopedRest (Ix := Unit) (Name := ℕ) (U := UR sig nD τ) (Lvl := ℕ) spec5 c (V13 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (V13 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (V13 m ρ c) (V14 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Layer 6's pipeline over the thread state: entered from every unscoped buffer at boundary 15's contents, left at boundary 16's. -/
def reg6 : Pipeline.RegionSeg (pcfgs (F := F)) adm (pdats m ρ) () defs₀ 𝒱₀ L lv 6 where
  win := launch6.win.to₀
  block_pos := launch6.block_pos
  stage_whole := launch6.stage_whole
  K := PEmpty
  osem k := k.elim
  ho := Pipeline.OwnSemFacts.none _
  hbody c := (body_obligation6 (V15 m ρ) c).loose
  hwaits := Pipeline.hwaits_of_owed_zero _ _ _ _ L lv 6 fun _ _ => rfl
  pre c := iprop(StableHlo.held (c : Thread nD τ) (Pipeline.ucRefs τ sig) (W15 m ρ c) ∗ R c)
  post c := iprop(StableHlo.held (c : Thread nD τ) (Pipeline.ucRefs τ sig) (W16 m ρ c) ∗ R c)
  X c := iprop(∃ r, prngReg c r)
  Y c := iprop(∃ r, prngReg c r)
  Z c := Pipeline.unscopedRest (Ix := Unit) (Name := ℕ) (U := UR sig nD τ) (Lvl := ℕ) spec6 c (V15 m ρ c)
  hentry c := by
    rw [Pipeline.ownSems0_none]
    have hsplit := Pipeline.arrays_of_unscopedBufs (p := 6) (pcfgs (F := F)) adm (pdats m ρ) launch6.win launch6.arr_whole c
      ((pdats m ρ 6 c).share_full fun _ => rfl) (V15 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m ρ 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m ρ) ((pdats m ρ 6 c).share_full fun _ => rfl)
      (V15 m ρ c) (V16 m ρ c) ((pdats m ρ 6 c).arrAt · cfg6.N) (hF6 m ρ c) (hrest6 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Layer 7's pipeline over the thread state: entered from every unscoped buffer at boundary 17's contents, left at boundary 18's. -/
def reg7 : Pipeline.RegionSeg (pcfgs (F := F)) adm (pdats m ρ) () defs₀ 𝒱₀ L lv 7 where
  win := launch7.win.to₀
  block_pos := launch7.block_pos
  stage_whole := launch7.stage_whole
  K := PEmpty
  osem k := k.elim
  ho := Pipeline.OwnSemFacts.none _
  hbody c := (body_obligation7 (V17 m ρ) c).loose
  hwaits := Pipeline.hwaits_of_owed_zero _ _ _ _ L lv 7 fun _ _ => rfl
  pre c := iprop(StableHlo.held (c : Thread nD τ) (Pipeline.ucRefs τ sig) (W17 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec7 c (V17 m ρ c)
  hentry c := by
    rw [Pipeline.ownSems0_none]
    have hsplit := Pipeline.arrays_of_unscopedBufs (p := 7) (pcfgs (F := F)) adm (pdats m ρ) launch7.win launch7.arr_whole c
      ((pdats m ρ 7 c).share_full fun _ => rfl) (V17 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 7 c).Φ 0 = Pipeline.ΦA spec7 c from rfl]; unfold Pipeline.ΦA
    iintro ⟨Hp, -, Hr⟩
    isplitl [Hr]; · iexact Hr
    iexact Hp
  hout c := by
    rw [Pipeline.ownSems0_none, show (pdats m ρ 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m ρ) ((pdats m ρ 7 c).share_full fun _ => rfl)
      (V17 m ρ c) (V18 m ρ c) ((pdats m ρ 7 c).arrAt · cfg7.N) (hF7 m ρ c) (hrest7 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as stretches, and the launch -/

/-- The program's eighteen stretches in order. -/
abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .host (hseg hostOps1 hostOps1_sub hostOps1_fresh (W4 m ρ)),
    .region (reg1 m ρ),
    .host (hseg hostOps2 hostOps2_sub hostOps2_fresh (W6 m ρ)),
    .region (reg2 m ρ),
    .host (hseg hostOps3 hostOps3_sub hostOps3_fresh (W8 m ρ)),
    .region (reg3 m ρ),
    .host (hseg hostOps4 hostOps4_sub hostOps4_fresh (W10 m ρ)),
    .region (reg4 m ρ),
    .host (hseg hostOps5 hostOps5_sub hostOps5_fresh (W12 m ρ)),
    .region (reg5 m ρ),
    .host (hseg hostOps6 hostOps6_sub hostOps6_fresh (W14 m ρ)),
    .region (reg6 m ρ),
    .host (hseg hostOps7 hostOps7_sub hostOps7_fresh (W16 m ρ)),
    .region (reg7 m ρ) ]
/-- The program is the run of its stretches. -/
theorem main_run (c : Dev nD) : main (F := F) c = Pipeline.Seg.run (segs m ρ) := (main_chain c).trans (by chain_rfl)

set_option backward.isDefEq.respectTransparency.types false in
/-- From any memory with zero counters, every weakly fair execution of the program on the TensorCores terminates,
    nothing faulting, and every unscoped buffer ends at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W18 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W18 m ρ c b)
    (hfin := fun c s' => by
      iintro ⟨⟨Hh, -⟩, HSI⟩
      unfold StableHlo.held
      imodintro
      iapply (pointsTo_read_all (Pipeline.ucRefs τ sig) (fun b => (((c : Thread nD τ)).1, b)) (W18 m ρ c) s')
      isplitl [Hh] <;> iassumption)
    (hQ := fun s h c => h c)

/-- An argument's buffer ends as launched. -/
theorem final_arg (c : Dev nD) (r : Ref sig .tc) (hr : r.idx.val < 21) : W18 m ρ c (Proc.devRef .tc r) = m ((c : Thread nD τ).loc r) :=
  W18_below m ρ c r hr

end Cert.Kernel.Hand

end
-- ==== Proof.KI.Region0.lean ====
/-
  Dense layer 0 of the network, as the pipeline runs it: one grid point takes a block of 5000 rows of the
  [100000, 22] feature array, the whole [22, 128] weight and the [1, 128] bias row, and stores the block of
  5000 rows of the [100000, 128] result. This module states, at any contents `V` of the buffers when the
  region is entered, what each staging buffer holds before and after the body at a point, runs the body
  once on whole staging buffers, and assembles the pipeline's proof data and its body obligation. It is
  generic in the float instance.
-/
import proofs.«101217_j35820027249494_1_alg».proof.Proof.Gen.KernelIdeal.Launch
import proofs.«101217_j35820027249494_1_alg».proof.Proof.Gen.KernelIdeal.Skeleton
import proofs.«101217_j35820027249494_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! Each input window's current staging buffer holds its block at every point, whether the point fetches it
    or an earlier point did and the block's index has not moved since. -/

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The whole-buffer rectangles the body loads and stores through. -/
abbrev r0_0 : Rect S5000x22 := Rect.unit (s := S5000x22) ![0, 0] S5000x22.size inb_S5000x22_S5000x22_0_0
abbrev r0_1 : Rect S22x128 := Rect.unit (s := S22x128) ![0, 0] S22x128.size inb_S22x128_S22x128_0_0
abbrev r0_2 : Rect S1x128 := Rect.unit (s := S1x128) ![0, 0] S1x128.size inb_S1x128_S1x128_0_0
abbrev r0_3 : Rect S5000x128 := Rect.unit (s := S5000x128) ![0, 0] S5000x128.size inb_S5000x128_S5000x128_0_0

/-- The result window's staging buffer after the body: its one store, of the layer's payload of the three
    input blocks. -/
def out0_3 (x0 : Vec F S5000x22 .f32) (x1 : Vec F S22x128 .f32) (x2 : Vec F S1x128 .f32) : Vec F S5000x128 .f32 :=
  View.canon [⟨r0_3, k0_pay1 (View.ld x0 r0_0) (View.ld x1 r0_1) (View.ld x2 r0_2)⟩]

/-- The one store covers the buffer. -/
theorem cover0_3 (p0 : Vec F S5000x128 .f32) (y : S5000x128.Idx) :
    ∃ pc ∈ ([⟨r0_3, p0⟩] : List (View.Piece (Elt F) S5000x128 .f32)), y ∈ pc.1.set :=
  View.cover_of_tiled [⟨r0_3, p0⟩] S5000x128.size (by rfl) y

set_option maxHeartbeats 1000000 in
/-- The body on whole staging buffers, the inputs' at read contents and the result's at anything, runs to the
    continuation with the inputs' as they were and the result's at `out0_3` of the inputs'. -/
theorem sound_kernel0 (c : Dev nD) (E : Set ℕ) (i : grid0.Coords) (arg1 : Memref sig .tc .vmem S5000x22 .f32) (harg1 : arg1.IsWhole) (arg2 : Memref sig .tc .vmem S22x128 .f32) (harg2 : arg2.IsWhole) (arg3 : Memref sig .tc .vmem S1x128 .f32) (harg3 : arg3.IsWhole) (arg4 : Memref sig .tc .vmem S5000x128 .f32) (harg4 : arg4.IsWhole)
    (x0 : Vec F S5000x22 .f32) (x1 : Vec F S22x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__linear_act_kernel i arg1 harg1 arg2 harg2 arg3 harg3 arg4 harg4) K := by
  simp only [cc0__linear_act_kernel_eq_skeleton]; unfold cc0__linear_act_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The pipeline's proof data on core `c`: the arrays as the region finds them; after the body at point `t` each
    input's buffer at its block and the result's at `out0_3` of the input blocks; the invariant is the scoped
    rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so the body's run applies; the invariant and
    the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Region1.lean ====
/-
  Dense layer 1 of the network, as the pipeline runs it: one grid point takes a block of 5000 rows of the
  [100000, 256] feature array, the whole [256, 128] weight and the [1, 128] bias row, and stores the block of
  5000 rows of the [100000, 128] result. This module states, at any contents `V` of the buffers when the
  region is entered, what each staging buffer holds before and after the body at a point, runs the body
  once on whole staging buffers, and assembles the pipeline's proof data and its body obligation. It is
  generic in the float instance.
-/
import proofs.«101217_j35820027249494_1_alg».proof.Proof.Gen.KernelIdeal.Launch
import proofs.«101217_j35820027249494_1_alg».proof.Proof.Gen.KernelIdeal.Skeleton
import proofs.«101217_j35820027249494_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! Each input window's current staging buffer holds its block at every point, whether the point fetches it
    or an earlier point did and the block's index has not moved since. -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The whole-buffer rectangles the body loads and stores through. -/
abbrev r1_0 : Rect S5000x256 := Rect.unit (s := S5000x256) ![0, 0] S5000x256.size inb_S5000x256_S5000x256_0_0
abbrev r1_1 : Rect S256x128 := Rect.unit (s := S256x128) ![0, 0] S256x128.size inb_S256x128_S256x128_0_0
abbrev r1_2 : Rect S1x128 := Rect.unit (s := S1x128) ![0, 0] S1x128.size inb_S1x128_S1x128_0_0
abbrev r1_3 : Rect S5000x128 := Rect.unit (s := S5000x128) ![0, 0] S5000x128.size inb_S5000x128_S5000x128_0_0

/-- The result window's staging buffer after the body: its one store, of the layer's payload of the three
    input blocks. -/
def out1_3 (x0 : Vec F S5000x256 .f32) (x1 : Vec F S256x128 .f32) (x2 : Vec F S1x128 .f32) : Vec F S5000x128 .f32 :=
  View.canon [⟨r1_3, k1_pay1 (View.ld x0 r1_0) (View.ld x1 r1_1) (View.ld x2 r1_2)⟩]

/-- The one store covers the buffer. -/
theorem cover1_3 (p0 : Vec F S5000x128 .f32) (y : S5000x128.Idx) :
    ∃ pc ∈ ([⟨r1_3, p0⟩] : List (View.Piece (Elt F) S5000x128 .f32)), y ∈ pc.1.set :=
  View.cover_of_tiled [⟨r1_3, p0⟩] S5000x128.size (by rfl) y

set_option maxHeartbeats 1000000 in
/-- The body on whole staging buffers, the inputs' at read contents and the result's at anything, runs to the
    continuation with the inputs' as they were and the result's at `out1_3` of the inputs'. -/
theorem sound_kernel1 (c : Dev nD) (E : Set ℕ) (i : grid1.Coords) (arg1 : Memref sig .tc .vmem S5000x256 .f32) (harg1 : arg1.IsWhole) (arg2 : Memref sig .tc .vmem S256x128 .f32) (harg2 : arg2.IsWhole) (arg3 : Memref sig .tc .vmem S1x128 .f32) (harg3 : arg3.IsWhole) (arg4 : Memref sig .tc .vmem S5000x128 .f32) (harg4 : arg4.IsWhole)
    (x0 : Vec F S5000x256 .f32) (x1 : Vec F S256x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2)) -∗ K ⟨⟩))
      ⊢ wp frame (wpE (defs₀ (F := F)) Variants.none c none) E (cc1__linear_act_kernel i arg1 harg1 arg2 harg2 arg3 harg3 arg4 harg4) K := by
  simp only [cc1__linear_act_kernel_eq_skeleton]; unfold cc1__linear_act_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- The pipeline's proof data on core `c`: the arrays as the region finds them; after the body at point `t` each
    input's buffer at its block and the result's at `out1_3` of the input blocks; the invariant is the scoped
    rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' buffers hold their blocks, so the body's run applies; the invariant and
    the core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ (grid1.coords t) _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Region2.lean ====
/-
  Dense layer 2 of the network, as the pipeline runs it: one grid point takes a block of 5000 rows of the
  [100000, 256] feature array, the whole [256, 1] weight and the [1, 1] bias row, and stores the block of
  5000 rows of the [100000, 1] result. This module states, at any contents `V` of the buffers when the
  region is entered, what each staging buffer holds before and after the body at a point, runs the body
  once on whole staging buffers, and assembles the pipeline's proof data and its body obligation. It is
  generic in the float instance.
-/
import proofs.«101217_j35820027249494_1_alg».proof.Proof.Gen.KernelIdeal.Launch
import proofs.«101217_j35820027249494_1_alg».proof.Proof.Gen.KernelIdeal.Skeleton
import proofs.«101217_j35820027249494_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! Each input window's current staging buffer holds its block at every point, whether the point fetches it
    or an earlier point did and the block's index has not moved since. -/

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- The whole-buffer rectangles the body loads and stores through. -/
abbrev r2_0 : Rect S5000x256 := Rect.unit (s := S5000x256) ![0, 0] S5000x256.size inb_S5000x256_S5000x256_0_0
abbrev r2_1 : Rect S256x1 := Rect.unit (s := S256x1) ![0, 0] S256x1.size inb_S256x1_S256x1_0_0
abbrev r2_2 : Rect S1x1 := Rect.unit (s := S1x1) ![0, 0] S1x1.size inb_S1x1_S1x1_0_0
abbrev r2_3 : Rect S5000x1 := Rect.unit (s := S5000x1) ![0, 0] S5000x1.size inb_S5000x1_S5000x1_0_0

/-- The result window's staging buffer after the body: its one store, of the layer's payload of the three
    input blocks. -/
def out2_3 (x0 : Vec F S5000x256 .f32) (x1 : Vec F S256x1 .f32) (x2 : Vec F S1x1 .f32) : Vec F S5000x1 .f32 :=
  View.canon [⟨r2_3, k2_pay1 (View.ld x0 r2_0) (View.ld x1 r2_1) (View.ld x2 r2_2)⟩]

/-- The one store covers the buffer. -/
theorem cover2_3 (p0 : Vec F S5000x1 .f32) (y : S5000x1.Idx) :
    ∃ pc ∈ ([⟨r2_3, p0⟩] : List (View.Piece (Elt F) S5000x1 .f32)), y ∈ pc.1.set :=
  View.cover_of_tiled [⟨r2_3, p0⟩] S5000x1.size (by rfl) y

set_option maxHeartbeats 1000000 in
/-- The body on whole staging buffers, the inputs' at read contents and the result's at anything, runs to the
    continuation with the inputs' as they were and the result's at `out2_3` of the inputs'. -/
theorem sound_kernel2 (c : Dev nD) (E : Set ℕ) (i : grid2.Coords) (arg1 : Memref sig .tc .vmem S5000x256 .f32) (harg1 : arg1.IsWhole) (arg2 : Memref sig .tc .vmem S256x1 .f32) (harg2 : arg2.IsWhole) (arg3 : Memref sig .tc .vmem S1x1 .f32) (harg3 : arg3.IsWhole) (arg4 : Memref sig .tc .vmem S5000x1 .f32) (harg4 : arg4.IsWhole)
    (x0 : Vec F S5000x256 .f32) (x1 : Vec F S256x1 .f32) (x2 : Vec F S1x1 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out2_3 x0 x1 x2)) -∗ K ⟨⟩))
      ⊢ wp frame (wpE (defs₀ (F := F)) Variants.none c none) E (cc2__linear_act_kernel i arg1 harg1 arg2 harg2 arg3 harg3 arg4 harg4) K := by
  simp only [cc2__linear_act_kernel_eq_skeleton]; unfold cc2__linear_act_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-- The pipeline's proof data on core `c`: the arrays as the region finds them; after the body at point `t` each
    input's buffer at its block and the result's at `out2_3` of the input blocks; the invariant is the scoped
    rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' buffers hold their blocks, so the body's run applies; the invariant and
    the core's debts pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ (grid2.coords t) _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Region3.lean ====
/-
  Dense layer 3 of the network, as the pipeline runs it: one grid point takes a block of 5000 rows of the
  [100000, 44] feature array, the whole [44, 8] weight and the [1, 8] bias row, and stores the block of
  5000 rows of the [100000, 8] result. This module states, at any contents `V` of the buffers when the
  region is entered, what each staging buffer holds before and after the body at a point, runs the body
  once on whole staging buffers, and assembles the pipeline's proof data and its body obligation. It is
  generic in the float instance.
-/
import proofs.«101217_j35820027249494_1_alg».proof.Proof.Gen.KernelIdeal.Launch
import proofs.«101217_j35820027249494_1_alg».proof.Proof.Gen.KernelIdeal.Skeleton
import proofs.«101217_j35820027249494_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-! Each input window's current staging buffer holds its block at every point, whether the point fetches it
    or an earlier point did and the block's index has not moved since. -/

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- The whole-buffer rectangles the body loads and stores through. -/
abbrev r3_0 : Rect S5000x44 := Rect.unit (s := S5000x44) ![0, 0] S5000x44.size inb_S5000x44_S5000x44_0_0
abbrev r3_1 : Rect S44x8 := Rect.unit (s := S44x8) ![0, 0] S44x8.size inb_S44x8_S44x8_0_0
abbrev r3_2 : Rect S1x8 := Rect.unit (s := S1x8) ![0, 0] S1x8.size inb_S1x8_S1x8_0_0
abbrev r3_3 : Rect S5000x8 := Rect.unit (s := S5000x8) ![0, 0] S5000x8.size inb_S5000x8_S5000x8_0_0

/-- The result window's staging buffer after the body: its one store, of the layer's payload of the three
    input blocks. -/
def out3_3 (x0 : Vec F S5000x44 .f32) (x1 : Vec F S44x8 .f32) (x2 : Vec F S1x8 .f32) : Vec F S5000x8 .f32 :=
  View.canon [⟨r3_3, k3_pay1 (View.ld x0 r3_0) (View.ld x1 r3_1) (View.ld x2 r3_2)⟩]

/-- The one store covers the buffer. -/
theorem cover3_3 (p0 : Vec F S5000x8 .f32) (y : S5000x8.Idx) :
    ∃ pc ∈ ([⟨r3_3, p0⟩] : List (View.Piece (Elt F) S5000x8 .f32)), y ∈ pc.1.set :=
  View.cover_of_tiled [⟨r3_3, p0⟩] S5000x8.size (by rfl) y

set_option maxHeartbeats 1000000 in
/-- The body on whole staging buffers, the inputs' at read contents and the result's at anything, runs to the
    continuation with the inputs' as they were and the result's at `out3_3` of the inputs'. -/
theorem sound_kernel3 (c : Dev nD) (E : Set ℕ) (i : grid3.Coords) (arg1 : Memref sig .tc .vmem S5000x44 .f32) (harg1 : arg1.IsWhole) (arg2 : Memref sig .tc .vmem S44x8 .f32) (harg2 : arg2.IsWhole) (arg3 : Memref sig .tc .vmem S1x8 .f32) (harg3 : arg3.IsWhole) (arg4 : Memref sig .tc .vmem S5000x8 .f32) (harg4 : arg4.IsWhole)
    (x0 : Vec F S5000x44 .f32) (x1 : Vec F S44x8 .f32) (x2 : Vec F S1x8 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out3_3 x0 x1 x2)) -∗ K ⟨⟩))
      ⊢ wp frame (wpE (defs₀ (F := F)) Variants.none c none) E (cc3__linear_act_kernel i arg1 harg1 arg2 harg2 arg3 harg3 arg4 harg4) K := by
  simp only [cc3__linear_act_kernel_eq_skeleton]; unfold cc3__linear_act_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

/-- The pipeline's proof data on core `c`: the arrays as the region finds them; after the body at point `t` each
    input's buffer at its block and the result's at `out3_3` of the input blocks; the invariant is the scoped
    rest and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = out3_3 (iblk3 V c 0 t) (iblk3 V c 1 t) (iblk3 V c 2 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

/-- The body at any point: the inputs' buffers hold their blocks, so the body's run applies; the invariant and
    the core's debts pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ (grid3.coords t) _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KI.Region4.lean ====
/-
  Dense layer 4 of the network, as the pipeline runs it: one grid point takes a block of 5000 rows of the
  [100000, 32] feature array, the whole [32, 1] weight and the [1, 1] bias row, and stores the block of
  5000 rows of the [100000, 1] result. This module states, at any contents `V` of the buffers when the
  region is entered, what each staging buffer holds before and after the body at a point, runs the body
  once on whole staging buffers, and assembles the pipeline's proof data and its body obligation. It is
  generic in the float instance.
-/
import proofs.«101217_j35820027249494_1_alg».proof.Proof.Gen.KernelIdeal.Launch
import proofs.«101217_j35820027249494_1_alg».proof.Proof.Gen.KernelIdeal.Skeleton
import proofs.«101217_j35820027249494_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-! Each input window's current staging buffer holds its block at every point, whether the point fetches it
    or an earlier point did and the block's index has not moved since. -/

theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- The whole-buffer rectangles the body loads and stores through. -/
abbrev r4_0 : Rect S5000x32 := Rect.unit (s := S5000x32) ![0, 0] S5000x32.size inb_S5000x32_S5000x32_0_0
abbrev r4_1 : Rect S32x1 := Rect.unit (s := S32x1) ![0, 0] S32x1.size inb_S32x1_S32x1_0_0
abbrev r4_2 : Rect S1x1 := Rect.unit (s := S1x1) ![0, 0] S1x1.size inb_S1x1_S1x1_0_0
abbrev r4_3 : Rect S5000x1 := Rect.unit (s := S5000x1) ![0, 0] S5000x1.size inb_S5000x1_S5000x1_0_0

/-- The result window's staging buffer after the body: its one store, of the layer's payload of the three
    input blocks. -/
def out4_3 (x0 : Vec F S5000x32 .f32) (x1 : Vec F S32x1 .f32) (x2 : Vec F S1x1 .f32) : Vec F S5000x1 .f32 :=
  View.canon [⟨r4_3, k4_pay1 (View.ld x0 r4_0) (View.ld x1 r4_1) (View.ld x2 r4_2)⟩]

/-- The one store covers the buffer. -/
theorem cover4_3 (p0 : Vec F S5000x1 .f32) (y : S5000x1.Idx) :
    ∃ pc ∈ ([⟨r4_3, p0⟩] : List (View.Piece (Elt F) S5000x1 .f32)), y ∈ pc.1.set :=
  View.cover_of_tiled [⟨r4_3, p0⟩] S5000x1.size (by rfl) y

set_option maxHeartbeats 1000000 in
/-- The body on whole staging buffers, the inputs' at read contents and the result's at anything, runs to the
    continuation with the inputs' as they were and the result's at `out4_3` of the inputs'. -/
theorem sound_kernel4 (c : Dev nD) (E : Set ℕ) (i : grid4.Coords) (arg1 : Memref sig .tc .vmem S5000x32 .f32) (harg1 : arg1.IsWhole) (arg2 : Memref sig .tc .vmem S32x1 .f32) (harg2 : arg2.IsWhole) (arg3 : Memref sig .tc .vmem S1x1 .f32) (harg3 : arg3.IsWhole) (arg4 : Memref sig .tc .vmem S5000x1 .f32) (harg4 : arg4.IsWhole)
    (x0 : Vec F S5000x32 .f32) (x1 : Vec F S32x1 .f32) (x2 : Vec F S1x1 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out4_3 x0 x1 x2)) -∗ K ⟨⟩))
      ⊢ wp frame (wpE (defs₀ (F := F)) Variants.none c none) E (cc4__linear_act_kernel i arg1 harg1 arg2 harg2 arg3 harg3 arg4 harg4) K := by
  simp only [cc4__linear_act_kernel_eq_skeleton]; unfold cc4__linear_act_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover4_3 _)

/-- The pipeline's proof data on core `c`: the arrays as the region finds them; after the body at point `t` each
    input's buffer at its block and the result's at `out4_3` of the input blocks; the invariant is the scoped
    rest and the generator register, untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4_3 (iblk4 V c 0 t) (iblk4 V c 1 t) (iblk4 V c 2 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = out4_3 (iblk4 V c 0 t) (iblk4 V c 1 t) (iblk4 V c 2 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t))

/-- The body at any point: the inputs' buffers hold their blocks, so the body's run applies; the invariant and
    the core's debts pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).Φ t.succ = (dat4 V c).Φ t.castSucc from rfl,
    show (dat4 V c).owesAt () t.succ = (dat4 V c).owesAt () t.castSucc from rfl,
    after4_0, after4_1, after4_2, after4_3]
  iintro ⟨HΦ, Ho, ⟨%d0, H0⟩, ⟨%d1, H1⟩, ⟨%d2, H2⟩, ⟨%d3, H3⟩⟩
  iapply (sound_kernel4 c Set.univ (grid4.coords t) _ _ _ _ _ _ _ _ (iblk4 V c 0 t) (iblk4 V c 1 t) (iblk4 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation4 (c : Dev nD) : BodyObligation (dat4 (F := F) V c) (defs₀ (F := F)) Variants.none () Set.univ := fun t => by
  rw [bigSep_W4, bigSep_W4]
  exact sound_body4 V c t

end Cert.KernelIdeal.Hand

end
-- ==== Proof.KI.Region5.lean ====
/-
  Dense layer 5 of the network, as the pipeline runs it: one grid point takes a block of 5000 rows of the
  [100000, 77] feature array, the whole [77, 8] weight and the [1, 8] bias row, and stores the block of
  5000 rows of the [100000, 8] result. This module states, at any contents `V` of the buffers when the
  region is entered, what each staging buffer holds before and after the body at a point, runs the body
  once on whole staging buffers, and assembles the pipeline's proof data and its body obligation. It is
  generic in the float instance.
-/
import proofs.«101217_j35820027249494_1_alg».proof.Proof.Gen.KernelIdeal.Launch
import proofs.«101217_j35820027249494_1_alg».proof.Proof.Gen.KernelIdeal.Skeleton
import proofs.«101217_j35820027249494_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-! Each input window's current staging buffer holds its block at every point, whether the point fetches it
    or an earlier point did and the block's index has not moved since. -/

theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- The whole-buffer rectangles the body loads and stores through. -/
abbrev r5_0 : Rect S5000x77 := Rect.unit (s := S5000x77) ![0, 0] S5000x77.size inb_S5000x77_S5000x77_0_0
abbrev r5_1 : Rect S77x8 := Rect.unit (s := S77x8) ![0, 0] S77x8.size inb_S77x8_S77x8_0_0
abbrev r5_2 : Rect S1x8 := Rect.unit (s := S1x8) ![0, 0] S1x8.size inb_S1x8_S1x8_0_0
abbrev r5_3 : Rect S5000x8 := Rect.unit (s := S5000x8) ![0, 0] S5000x8.size inb_S5000x8_S5000x8_0_0

/-- The result window's staging buffer after the body: its one store, of the layer's payload of the three
    input blocks. -/
def out5_3 (x0 : Vec F S5000x77 .f32) (x1 : Vec F S77x8 .f32) (x2 : Vec F S1x8 .f32) : Vec F S5000x8 .f32 :=
  View.canon [⟨r5_3, k5_pay1 (View.ld x0 r5_0) (View.ld x1 r5_1) (View.ld x2 r5_2)⟩]

/-- The one store covers the buffer. -/
theorem cover5_3 (p0 : Vec F S5000x8 .f32) (y : S5000x8.Idx) :
    ∃ pc ∈ ([⟨r5_3, p0⟩] : List (View.Piece (Elt F) S5000x8 .f32)), y ∈ pc.1.set :=
  View.cover_of_tiled [⟨r5_3, p0⟩] S5000x8.size (by rfl) y

set_option maxHeartbeats 1000000 in
/-- The body on whole staging buffers, the inputs' at read contents and the result's at anything, runs to the
    continuation with the inputs' as they were and the result's at `out5_3` of the inputs'. -/
theorem sound_kernel5 (c : Dev nD) (E : Set ℕ) (i : grid5.Coords) (arg1 : Memref sig .tc .vmem S5000x77 .f32) (harg1 : arg1.IsWhole) (arg2 : Memref sig .tc .vmem S77x8 .f32) (harg2 : arg2.IsWhole) (arg3 : Memref sig .tc .vmem S1x8 .f32) (harg3 : arg3.IsWhole) (arg4 : Memref sig .tc .vmem S5000x8 .f32) (harg4 : arg4.IsWhole)
    (x0 : Vec F S5000x77 .f32) (x1 : Vec F S77x8 .f32) (x2 : Vec F S1x8 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out5_3 x0 x1 x2)) -∗ K ⟨⟩))
      ⊢ wp frame (wpE (defs₀ (F := F)) Variants.none c none) E (cc5__linear_act_kernel i arg1 harg1 arg2 harg2 arg3 harg3 arg4 harg4) K := by
  simp only [cc5__linear_act_kernel_eq_skeleton]; unfold cc5__linear_act_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover5_3 _)

/-- The pipeline's proof data on core `c`: the arrays as the region finds them; after the body at point `t` each
    input's buffer at its block and the result's at `out5_3` of the input blocks; the invariant is the scoped
    rest and the generator register, untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => out5_3 (iblk5 V c 0 t) (iblk5 V c 1 t) (iblk5 V c 2 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = out5_3 (iblk5 V c 0 t) (iblk5 V c 1 t) (iblk5 V c 2 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t))

/-- The body at any point: the inputs' buffers hold their blocks, so the body's run applies; the invariant and
    the core's debts pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2]
  rw [show (dat5 V c).Φ t.succ = (dat5 V c).Φ t.castSucc from rfl,
    show (dat5 V c).owesAt () t.succ = (dat5 V c).owesAt () t.castSucc from rfl,
    after5_0, after5_1, after5_2, after5_3]
  iintro ⟨HΦ, Ho, ⟨%d0, H0⟩, ⟨%d1, H1⟩, ⟨%d2, H2⟩, ⟨%d3, H3⟩⟩
  iapply (sound_kernel5 c Set.univ (grid5.coords t) _ _ _ _ _ _ _ _ (iblk5 V c 0 t) (iblk5 V c 1 t) (iblk5 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation5 (c : Dev nD) : BodyObligation (dat5 (F := F) V c) (defs₀ (F := F)) Variants.none () Set.univ := fun t => by
  rw [bigSep_W5, bigSep_W5]
  exact sound_body5 V c t

end Cert.KernelIdeal.Hand

end
-- ==== Proof.KI.Region6.lean ====
/-
  Dense layer 6 of the network, as the pipeline runs it: one grid point takes a block of 5000 rows of the
  [100000, 56] feature array, the whole [56, 1] weight and the [1, 1] bias row, and stores the block of
  5000 rows of the [100000, 1] result. This module states, at any contents `V` of the buffers when the
  region is entered, what each staging buffer holds before and after the body at a point, runs the body
  once on whole staging buffers, and assembles the pipeline's proof data and its body obligation. It is
  generic in the float instance.
-/
import proofs.«101217_j35820027249494_1_alg».proof.Proof.Gen.KernelIdeal.Launch
import proofs.«101217_j35820027249494_1_alg».proof.Proof.Gen.KernelIdeal.Skeleton
import proofs.«101217_j35820027249494_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-! Each input window's current staging buffer holds its block at every point, whether the point fetches it
    or an earlier point did and the block's index has not moved since. -/

theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-- The whole-buffer rectangles the body loads and stores through. -/
abbrev r6_0 : Rect S5000x56 := Rect.unit (s := S5000x56) ![0, 0] S5000x56.size inb_S5000x56_S5000x56_0_0
abbrev r6_1 : Rect S56x1 := Rect.unit (s := S56x1) ![0, 0] S56x1.size inb_S56x1_S56x1_0_0
abbrev r6_2 : Rect S1x1 := Rect.unit (s := S1x1) ![0, 0] S1x1.size inb_S1x1_S1x1_0_0
abbrev r6_3 : Rect S5000x1 := Rect.unit (s := S5000x1) ![0, 0] S5000x1.size inb_S5000x1_S5000x1_0_0

/-- The result window's staging buffer after the body: its one store, of the layer's payload of the three
    input blocks. -/
def out6_3 (x0 : Vec F S5000x56 .f32) (x1 : Vec F S56x1 .f32) (x2 : Vec F S1x1 .f32) : Vec F S5000x1 .f32 :=
  View.canon [⟨r6_3, k6_pay1 (View.ld x0 r6_0) (View.ld x1 r6_1) (View.ld x2 r6_2)⟩]

/-- The one store covers the buffer. -/
theorem cover6_3 (p0 : Vec F S5000x1 .f32) (y : S5000x1.Idx) :
    ∃ pc ∈ ([⟨r6_3, p0⟩] : List (View.Piece (Elt F) S5000x1 .f32)), y ∈ pc.1.set :=
  View.cover_of_tiled [⟨r6_3, p0⟩] S5000x1.size (by rfl) y

set_option maxHeartbeats 1000000 in
/-- The body on whole staging buffers, the inputs' at read contents and the result's at anything, runs to the
    continuation with the inputs' as they were and the result's at `out6_3` of the inputs'. -/
theorem sound_kernel6 (c : Dev nD) (E : Set ℕ) (i : grid6.Coords) (arg1 : Memref sig .tc .vmem S5000x56 .f32) (harg1 : arg1.IsWhole) (arg2 : Memref sig .tc .vmem S56x1 .f32) (harg2 : arg2.IsWhole) (arg3 : Memref sig .tc .vmem S1x1 .f32) (harg3 : arg3.IsWhole) (arg4 : Memref sig .tc .vmem S5000x1 .f32) (harg4 : arg4.IsWhole)
    (x0 : Vec F S5000x56 .f32) (x1 : Vec F S56x1 .f32) (x2 : Vec F S1x1 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out6_3 x0 x1 x2)) -∗ K ⟨⟩))
      ⊢ wp frame (wpE (defs₀ (F := F)) Variants.none c none) E (cc6__linear_act_kernel i arg1 harg1 arg2 harg2 arg3 harg3 arg4 harg4) K := by
  simp only [cc6__linear_act_kernel_eq_skeleton]; unfold cc6__linear_act_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover6_3 _)

/-- The pipeline's proof data on core `c`: the arrays as the region finds them; after the body at point `t` each
    input's buffer at its block and the result's at `out6_3` of the input blocks; the invariant is the scoped
    rest and the generator register, untouched; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => out6_3 (iblk6 V c 0 t) (iblk6 V c 1 t) (iblk6 V c 2 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = out6_3 (iblk6 V c 0 t) (iblk6 V c 1 t) (iblk6 V c 2 t) := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d

/-- What the body is called with at point `t`, the windows one by one, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t))

/-- The body at any point: the inputs' buffers hold their blocks, so the body's run applies; the invariant and
    the core's debts pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2]
  rw [show (dat6 V c).Φ t.succ = (dat6 V c).Φ t.castSucc from rfl,
    show (dat6 V c).owesAt () t.succ = (dat6 V c).owesAt () t.castSucc from rfl,
    after6_0, after6_1, after6_2, after6_3]
  iintro ⟨HΦ, Ho, ⟨%d0, H0⟩, ⟨%d1, H1⟩, ⟨%d2, H2⟩, ⟨%d3, H3⟩⟩
  iapply (sound_kernel6 c Set.univ (grid6.coords t) _ _ _ _ _ _ _ _ (iblk6 V c 0 t) (iblk6 V c 1 t) (iblk6 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation6 (c : Dev nD) : BodyObligation (dat6 (F := F) V c) (defs₀ (F := F)) Variants.none () Set.univ := fun t => by
  rw [bigSep_W6, bigSep_W6]
  exact sound_body6 V c t

end Cert.KernelIdeal.Hand

end
-- ==== Proof.KI.Region7.lean ====
/-
  Dense layer 7 of the network, as the pipeline runs it: one grid point takes a block of 5000 rows of the
  [100000, 3] feature array, the whole [3, 1] weight and the [1, 1] bias row, and stores the block of
  5000 rows of the [100000, 1] result. This module states, at any contents `V` of the buffers when the
  region is entered, what each staging buffer holds before and after the body at a point, runs the body
  once on whole staging buffers, and assembles the pipeline's proof data and its body obligation. It is
  generic in the float instance.
-/
import proofs.«101217_j35820027249494_1_alg».proof.Proof.Gen.KernelIdeal.Launch
import proofs.«101217_j35820027249494_1_alg».proof.Proof.Gen.KernelIdeal.Skeleton
import proofs.«101217_j35820027249494_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-! Each input window's current staging buffer holds its block at every point, whether the point fetches it
    or an earlier point did and the block's index has not moved since. -/

theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

/-- The whole-buffer rectangles the body loads and stores through. -/
abbrev r7_0 : Rect S5000x3 := Rect.unit (s := S5000x3) ![0, 0] S5000x3.size inb_S5000x3_S5000x3_0_0
abbrev r7_1 : Rect S3x1 := Rect.unit (s := S3x1) ![0, 0] S3x1.size inb_S3x1_S3x1_0_0
abbrev r7_2 : Rect S1x1 := Rect.unit (s := S1x1) ![0, 0] S1x1.size inb_S1x1_S1x1_0_0
abbrev r7_3 : Rect S5000x1 := Rect.unit (s := S5000x1) ![0, 0] S5000x1.size inb_S5000x1_S5000x1_0_0

/-- The result window's staging buffer after the body: its one store, of the layer's payload of the three
    input blocks. -/
def out7_3 (x0 : Vec F S5000x3 .f32) (x1 : Vec F S3x1 .f32) (x2 : Vec F S1x1 .f32) : Vec F S5000x1 .f32 :=
  View.canon [⟨r7_3, k7_pay1 (View.ld x0 r7_0) (View.ld x1 r7_1) (View.ld x2 r7_2)⟩]

/-- The one store covers the buffer. -/
theorem cover7_3 (p0 : Vec F S5000x1 .f32) (y : S5000x1.Idx) :
    ∃ pc ∈ ([⟨r7_3, p0⟩] : List (View.Piece (Elt F) S5000x1 .f32)), y ∈ pc.1.set :=
  View.cover_of_tiled [⟨r7_3, p0⟩] S5000x1.size (by rfl) y

set_option maxHeartbeats 1000000 in
/-- The body on whole staging buffers, the inputs' at read contents and the result's at anything, runs to the
    continuation with the inputs' as they were and the result's at `out7_3` of the inputs'. -/
theorem sound_kernel7 (c : Dev nD) (E : Set ℕ) (i : grid7.Coords) (arg1 : Memref sig .tc .vmem S5000x3 .f32) (harg1 : arg1.IsWhole) (arg2 : Memref sig .tc .vmem S3x1 .f32) (harg2 : arg2.IsWhole) (arg3 : Memref sig .tc .vmem S1x1 .f32) (harg3 : arg3.IsWhole) (arg4 : Memref sig .tc .vmem S5000x1 .f32) (harg4 : arg4.IsWhole)
    (x0 : Vec F S5000x3 .f32) (x1 : Vec F S3x1 .f32) (x2 : Vec F S1x1 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out7_3 x0 x1 x2)) -∗ K ⟨⟩))
      ⊢ wp frame (wpE (defs₀ (F := F)) Variants.none c none) E (cc7__linear_act_kernel i arg1 harg1 arg2 harg2 arg3 harg3 arg4 harg4) K := by
  simp only [cc7__linear_act_kernel_eq_skeleton]; unfold cc7__linear_act_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover7_3 _)

/-- The pipeline's proof data on core `c`: the arrays as the region finds them; after the body at point `t` each
    input's buffer at its block and the result's at `out7_3` of the input blocks; the invariant is the scoped
    rest and the generator register, untouched; nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => out7_3 (iblk7 V c 0 t) (iblk7 V c 1 t) (iblk7 V c 2 t)
  Φ _ := Pipeline.ΦA spec7 c
  q _ := fullShare
  owed _ := 0

theorem A_eq7 (c : Dev nD) (w : Fin cfg7.W) : (dat7 V c).A w = V c (Pipeline.arrRef spec7 w) := by
  dsimp only [dat7]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = out7_3 (iblk7 V c 0 t) (iblk7 V c 1 t) (iblk7 V c 2 t) := by dsimp only [dat7]

theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d

/-- What the body is called with at point `t`, the windows one by one, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d)))

/-- and what it returns. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t))

/-- The body at any point: the inputs' buffers hold their blocks, so the body's run applies; the invariant and
    the core's debts pass through unread. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2]
  rw [show (dat7 V c).Φ t.succ = (dat7 V c).Φ t.castSucc from rfl,
    show (dat7 V c).owesAt () t.succ = (dat7 V c).owesAt () t.castSucc from rfl,
    after7_0, after7_1, after7_2, after7_3]
  iintro ⟨HΦ, Ho, ⟨%d0, H0⟩, ⟨%d1, H1⟩, ⟨%d2, H2⟩, ⟨%d3, H3⟩⟩
  iapply (sound_kernel7 c Set.univ (grid7.coords t) _ _ _ _ _ _ _ _ (iblk7 V c 0 t) (iblk7 V c 1 t) (iblk7 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation7 (c : Dev nD) : BodyObligation (dat7 (F := F) V c) (defs₀ (F := F)) Variants.none () Set.univ := fun t => by
  rw [bigSep_W7, bigSep_W7]
  exact sound_body7 V c t

end Cert.KernelIdeal.Hand

end
-- ==== Proof.KI.Run.lean ====
/-
  The run of the whole program: eighteen stretches in order — ten lines of host operations and the eight
  dense layers' pipelines between them. The buffer contents at every boundary between two stretches are a
  fold from the launch memory: a line of host operations rewrites the buffers it computes; a pipeline leaves
  its arrays at what its write-backs made of them and every other buffer as it found it. No stretch writes
  an argument: the host operations write buffers numbered after the arguments, and no pipeline's array is an
  argument. The launch theorem for a program of several pipelines then gives: every weakly fair execution
  terminates, nothing faults, and every buffer ends at the last boundary's contents. Generic in the float
  instance.
-/
import proofs.«101217_j35820027249494_1_alg».proof.Proof.KI.Region0
import proofs.«101217_j35820027249494_1_alg».proof.Proof.KI.Region1
import proofs.«101217_j35820027249494_1_alg».proof.Proof.KI.Region2
import proofs.«101217_j35820027249494_1_alg».proof.Proof.KI.Region3
import proofs.«101217_j35820027249494_1_alg».proof.Proof.KI.Region4
import proofs.«101217_j35820027249494_1_alg».proof.Proof.KI.Region5
import proofs.«101217_j35820027249494_1_alg».proof.Proof.KI.Region6
import proofs.«101217_j35820027249494_1_alg».proof.Proof.KI.Region7
import proofs.«101217_j35820027249494_1_alg».proof.Proof.LibWrites

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the host line `hostOps0`. -/
abbrev W1 : Dev nD → Valuation τ sig (Elt F) := fun c => StableHlo.after hostOps0 (W0 m ρ c)
/-- After the host line `hostOps0_1`. -/
abbrev W2 : Dev nD → Valuation τ sig (Elt F) := fun c => StableHlo.after hostOps0_1 (W1 m ρ c)
/-- After the host line `hostOps0_2`. -/
abbrev W3 : Dev nD → Valuation τ sig (Elt F) := fun c => StableHlo.after hostOps0_2 (W2 m ρ c)
/-- The same read at the TensorCore's references: what layer 0's pipeline is entered with. -/
abbrev V3 : (c : Dev nD) → (b : Ref sig .tc) → Buf (Elt F) ((c : Thread nD τ).loc b) := fun c b => W3 m ρ c b
/-- At the exit of layer 0's pipeline: its arrays at what the pipeline leaves, every other buffer as entered. -/
def W4 (c : Dev nD) : Valuation τ sig (Elt F) :=
  Pipeline.withArrays spec0 c (W3 m ρ c) fun w => (dat0 (V3 m ρ) c).arrAt w cfg0.N
theorem W4_arr (c : Dev nD) (w : Fin cfg0.W) :
    W4 m ρ c (Proc.devRef .tc (Pipeline.arrRef spec0 w)) = (dat0 (V3 m ρ) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
abbrev V4 : (c : Dev nD) → (b : Ref sig .tc) → Buf (Elt F) ((c : Thread nD τ).loc b) := fun c b => W4 m ρ c b
theorem hF0 (c : Dev nD) (w : Fin cfg0.W) : (dat0 (V3 m ρ) c).arrAt w cfg0.N = V4 m ρ c (Pipeline.arrRef spec0 w) :=
  (W4_arr m ρ c w).symm
theorem hrest0 (c : Dev nD) : ∀ b, b ∉ Finset.univ.image (Pipeline.arrRef spec0) → V4 m ρ c b = V3 m ρ c b :=
  fun b hb => W4_of_ne m ρ c b fun w e => hb (Finset.mem_image.mpr ⟨w, Finset.mem_univ _, e⟩)
/-- No array of layer 0's pipeline is an argument: they are numbered after the arguments. -/
theorem arr_from0 : ∀ w : Fin cfg0.W, 84 ≤ (Pipeline.arrRef spec0 w).idx.val := by decide
/-- After the host line `hostOps1`. -/
abbrev W5 : Dev nD → Valuation τ sig (Elt F) := fun c => StableHlo.after hostOps1 (W4 m ρ c)
/-- The same read at the TensorCore's references: what layer 1's pipeline is entered with. -/
abbrev V5 : (c : Dev nD) → (b : Ref sig .tc) → Buf (Elt F) ((c : Thread nD τ).loc b) := fun c b => W5 m ρ c b
/-- At the exit of layer 1's pipeline: its arrays at what the pipeline leaves, every other buffer as entered. -/
def W6 (c : Dev nD) : Valuation τ sig (Elt F) :=
  Pipeline.withArrays spec1 c (W5 m ρ c) fun w => (dat1 (V5 m ρ) c).arrAt w cfg1.N
theorem W6_arr (c : Dev nD) (w : Fin cfg1.W) :
    W6 m ρ c (Proc.devRef .tc (Pipeline.arrRef spec1 w)) = (dat1 (V5 m ρ) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
abbrev V6 : (c : Dev nD) → (b : Ref sig .tc) → Buf (Elt F) ((c : Thread nD τ).loc b) := fun c b => W6 m ρ c b
theorem hF1 (c : Dev nD) (w : Fin cfg1.W) : (dat1 (V5 m ρ) c).arrAt w cfg1.N = V6 m ρ c (Pipeline.arrRef spec1 w) :=
  (W6_arr m ρ c w).symm
theorem hrest1 (c : Dev nD) : ∀ b, b ∉ Finset.univ.image (Pipeline.arrRef spec1) → V6 m ρ c b = V5 m ρ c b :=
  fun b hb => W6_of_ne m ρ c b fun w e => hb (Finset.mem_image.mpr ⟨w, Finset.mem_univ _, e⟩)
/-- No array of layer 1's pipeline is an argument: they are numbered after the arguments. -/
theorem arr_from1 : ∀ w : Fin cfg1.W, 104 ≤ (Pipeline.arrRef spec1 w).idx.val := by decide
/-- After the host line `hostOps2`. -/
abbrev W7 : Dev nD → Valuation τ sig (Elt F) := fun c => StableHlo.after hostOps2 (W6 m ρ c)
/-- The same read at the TensorCore's references: what layer 2's pipeline is entered with. -/
abbrev V7 : (c : Dev nD) → (b : Ref sig .tc) → Buf (Elt F) ((c : Thread nD τ).loc b) := fun c b => W7 m ρ c b
/-- At the exit of layer 2's pipeline: its arrays at what the pipeline leaves, every other buffer as entered. -/
def W8 (c : Dev nD) : Valuation τ sig (Elt F) :=
  Pipeline.withArrays spec2 c (W7 m ρ c) fun w => (dat2 (V7 m ρ) c).arrAt w cfg2.N
theorem W8_arr (c : Dev nD) (w : Fin cfg2.W) :
    W8 m ρ c (Proc.devRef .tc (Pipeline.arrRef spec2 w)) = (dat2 (V7 m ρ) c).arrAt w cfg2.N := by
  unfold W8; exact Pipeline.withArrays_arr spec2 launch2.win.arr_inj c _ _ w
theorem W8_of_ne (c : Dev nD) (b : Ref sig .tc) (hb : ∀ w, Pipeline.arrRef spec2 w ≠ b) :
    W8 m ρ c (Proc.devRef .tc b) = W7 m ρ c (Proc.devRef .tc b) := by
  unfold W8; exact Pipeline.withArrays_of_ne spec2 c _ _ b hb
abbrev V8 : (c : Dev nD) → (b : Ref sig .tc) → Buf (Elt F) ((c : Thread nD τ).loc b) := fun c b => W8 m ρ c b
theorem hF2 (c : Dev nD) (w : Fin cfg2.W) : (dat2 (V7 m ρ) c).arrAt w cfg2.N = V8 m ρ c (Pipeline.arrRef spec2 w) :=
  (W8_arr m ρ c w).symm
theorem hrest2 (c : Dev nD) : ∀ b, b ∉ Finset.univ.image (Pipeline.arrRef spec2) → V8 m ρ c b = V7 m ρ c b :=
  fun b hb => W8_of_ne m ρ c b fun w e => hb (Finset.mem_image.mpr ⟨w, Finset.mem_univ _, e⟩)
/-- No array of layer 2's pipeline is an argument: they are numbered after the arguments. -/
theorem arr_from2 : ∀ w : Fin cfg2.W, 124 ≤ (Pipeline.arrRef spec2 w).idx.val := by decide
/-- After the host line `hostOps3`. -/
abbrev W9 : Dev nD → Valuation τ sig (Elt F) := fun c => StableHlo.after hostOps3 (W8 m ρ c)
/-- The same read at the TensorCore's references: what layer 3's pipeline is entered with. -/
abbrev V9 : (c : Dev nD) → (b : Ref sig .tc) → Buf (Elt F) ((c : Thread nD τ).loc b) := fun c b => W9 m ρ c b
/-- At the exit of layer 3's pipeline: its arrays at what the pipeline leaves, every other buffer as entered. -/
def W10 (c : Dev nD) : Valuation τ sig (Elt F) :=
  Pipeline.withArrays spec3 c (W9 m ρ c) fun w => (dat3 (V9 m ρ) c).arrAt w cfg3.N
theorem W10_arr (c : Dev nD) (w : Fin cfg3.W) :
    W10 m ρ c (Proc.devRef .tc (Pipeline.arrRef spec3 w)) = (dat3 (V9 m ρ) c).arrAt w cfg3.N := by
  unfold W10; exact Pipeline.withArrays_arr spec3 launch3.win.arr_inj c _ _ w
theorem W10_of_ne (c : Dev nD) (b : Ref sig .tc) (hb : ∀ w, Pipeline.arrRef spec3 w ≠ b) :
    W10 m ρ c (Proc.devRef .tc b) = W9 m ρ c (Proc.devRef .tc b) := by
  unfold W10; exact Pipeline.withArrays_of_ne spec3 c _ _ b hb
abbrev V10 : (c : Dev nD) → (b : Ref sig .tc) → Buf (Elt F) ((c : Thread nD τ).loc b) := fun c b => W10 m ρ c b
theorem hF3 (c : Dev nD) (w : Fin cfg3.W) : (dat3 (V9 m ρ) c).arrAt w cfg3.N = V10 m ρ c (Pipeline.arrRef spec3 w) :=
  (W10_arr m ρ c w).symm
theorem hrest3 (c : Dev nD) : ∀ b, b ∉ Finset.univ.image (Pipeline.arrRef spec3) → V10 m ρ c b = V9 m ρ c b :=
  fun b hb => W10_of_ne m ρ c b fun w e => hb (Finset.mem_image.mpr ⟨w, Finset.mem_univ _, e⟩)
/-- No array of layer 3's pipeline is an argument: they are numbered after the arguments. -/
theorem arr_from3 : ∀ w : Fin cfg3.W, 177 ≤ (Pipeline.arrRef spec3 w).idx.val := by decide
/-- After the host line `hostOps4`. -/
abbrev W11 : Dev nD → Valuation τ sig (Elt F) := fun c => StableHlo.after hostOps4 (W10 m ρ c)
/-- The same read at the TensorCore's references: what layer 4's pipeline is entered with. -/
abbrev V11 : (c : Dev nD) → (b : Ref sig .tc) → Buf (Elt F) ((c : Thread nD τ).loc b) := fun c b => W11 m ρ c b
/-- At the exit of layer 4's pipeline: its arrays at what the pipeline leaves, every other buffer as entered. -/
def W12 (c : Dev nD) : Valuation τ sig (Elt F) :=
  Pipeline.withArrays spec4 c (W11 m ρ c) fun w => (dat4 (V11 m ρ) c).arrAt w cfg4.N
theorem W12_arr (c : Dev nD) (w : Fin cfg4.W) :
    W12 m ρ c (Proc.devRef .tc (Pipeline.arrRef spec4 w)) = (dat4 (V11 m ρ) c).arrAt w cfg4.N := by
  unfold W12; exact Pipeline.withArrays_arr spec4 launch4.win.arr_inj c _ _ w
theorem W12_of_ne (c : Dev nD) (b : Ref sig .tc) (hb : ∀ w, Pipeline.arrRef spec4 w ≠ b) :
    W12 m ρ c (Proc.devRef .tc b) = W11 m ρ c (Proc.devRef .tc b) := by
  unfold W12; exact Pipeline.withArrays_of_ne spec4 c _ _ b hb
abbrev V12 : (c : Dev nD) → (b : Ref sig .tc) → Buf (Elt F) ((c : Thread nD τ).loc b) := fun c b => W12 m ρ c b
theorem hF4 (c : Dev nD) (w : Fin cfg4.W) : (dat4 (V11 m ρ) c).arrAt w cfg4.N = V12 m ρ c (Pipeline.arrRef spec4 w) :=
  (W12_arr m ρ c w).symm
theorem hrest4 (c : Dev nD) : ∀ b, b ∉ Finset.univ.image (Pipeline.arrRef spec4) → V12 m ρ c b = V11 m ρ c b :=
  fun b hb => W12_of_ne m ρ c b fun w e => hb (Finset.mem_image.mpr ⟨w, Finset.mem_univ _, e⟩)
/-- No array of layer 4's pipeline is an argument: they are numbered after the arguments. -/
theorem arr_from4 : ∀ w : Fin cfg4.W, 229 ≤ (Pipeline.arrRef spec4 w).idx.val := by decide
/-- After the host line `hostOps5`. -/
abbrev W13 : Dev nD → Valuation τ sig (Elt F) := fun c => StableHlo.after hostOps5 (W12 m ρ c)
/-- The same read at the TensorCore's references: what layer 5's pipeline is entered with. -/
abbrev V13 : (c : Dev nD) → (b : Ref sig .tc) → Buf (Elt F) ((c : Thread nD τ).loc b) := fun c b => W13 m ρ c b
/-- At the exit of layer 5's pipeline: its arrays at what the pipeline leaves, every other buffer as entered. -/
def W14 (c : Dev nD) : Valuation τ sig (Elt F) :=
  Pipeline.withArrays spec5 c (W13 m ρ c) fun w => (dat5 (V13 m ρ) c).arrAt w cfg5.N
theorem W14_arr (c : Dev nD) (w : Fin cfg5.W) :
    W14 m ρ c (Proc.devRef .tc (Pipeline.arrRef spec5 w)) = (dat5 (V13 m ρ) c).arrAt w cfg5.N := by
  unfold W14; exact Pipeline.withArrays_arr spec5 launch5.win.arr_inj c _ _ w
theorem W14_of_ne (c : Dev nD) (b : Ref sig .tc) (hb : ∀ w, Pipeline.arrRef spec5 w ≠ b) :
    W14 m ρ c (Proc.devRef .tc b) = W13 m ρ c (Proc.devRef .tc b) := by
  unfold W14; exact Pipeline.withArrays_of_ne spec5 c _ _ b hb
abbrev V14 : (c : Dev nD) → (b : Ref sig .tc) → Buf (Elt F) ((c : Thread nD τ).loc b) := fun c b => W14 m ρ c b
theorem hF5 (c : Dev nD) (w : Fin cfg5.W) : (dat5 (V13 m ρ) c).arrAt w cfg5.N = V14 m ρ c (Pipeline.arrRef spec5 w) :=
  (W14_arr m ρ c w).symm
theorem hrest5 (c : Dev nD) : ∀ b, b ∉ Finset.univ.image (Pipeline.arrRef spec5) → V14 m ρ c b = V13 m ρ c b :=
  fun b hb => W14_of_ne m ρ c b fun w e => hb (Finset.mem_image.mpr ⟨w, Finset.mem_univ _, e⟩)
/-- No array of layer 5's pipeline is an argument: they are numbered after the arguments. -/
theorem arr_from5 : ∀ w : Fin cfg5.W, 329 ≤ (Pipeline.arrRef spec5 w).idx.val := by decide
/-- After the host line `hostOps6`. -/
abbrev W15 : Dev nD → Valuation τ sig (Elt F) := fun c => StableHlo.after hostOps6 (W14 m ρ c)
/-- The same read at the TensorCore's references: what layer 6's pipeline is entered with. -/
abbrev V15 : (c : Dev nD) → (b : Ref sig .tc) → Buf (Elt F) ((c : Thread nD τ).loc b) := fun c b => W15 m ρ c b
/-- At the exit of layer 6's pipeline: its arrays at what the pipeline leaves, every other buffer as entered. -/
def W16 (c : Dev nD) : Valuation τ sig (Elt F) :=
  Pipeline.withArrays spec6 c (W15 m ρ c) fun w => (dat6 (V15 m ρ) c).arrAt w cfg6.N
theorem W16_arr (c : Dev nD) (w : Fin cfg6.W) :
    W16 m ρ c (Proc.devRef .tc (Pipeline.arrRef spec6 w)) = (dat6 (V15 m ρ) c).arrAt w cfg6.N := by
  unfold W16; exact Pipeline.withArrays_arr spec6 launch6.win.arr_inj c _ _ w
theorem W16_of_ne (c : Dev nD) (b : Ref sig .tc) (hb : ∀ w, Pipeline.arrRef spec6 w ≠ b) :
    W16 m ρ c (Proc.devRef .tc b) = W15 m ρ c (Proc.devRef .tc b) := by
  unfold W16; exact Pipeline.withArrays_of_ne spec6 c _ _ b hb
abbrev V16 : (c : Dev nD) → (b : Ref sig .tc) → Buf (Elt F) ((c : Thread nD τ).loc b) := fun c b => W16 m ρ c b
theorem hF6 (c : Dev nD) (w : Fin cfg6.W) : (dat6 (V15 m ρ) c).arrAt w cfg6.N = V16 m ρ c (Pipeline.arrRef spec6 w) :=
  (W16_arr m ρ c w).symm
theorem hrest6 (c : Dev nD) : ∀ b, b ∉ Finset.univ.image (Pipeline.arrRef spec6) → V16 m ρ c b = V15 m ρ c b :=
  fun b hb => W16_of_ne m ρ c b fun w e => hb (Finset.mem_image.mpr ⟨w, Finset.mem_univ _, e⟩)
/-- No array of layer 6's pipeline is an argument: they are numbered after the arguments. -/
theorem arr_from6 : ∀ w : Fin cfg6.W, 429 ≤ (Pipeline.arrRef spec6 w).idx.val := by decide
/-- After the host line `hostOps7`. -/
abbrev W17 : Dev nD → Valuation τ sig (Elt F) := fun c => StableHlo.after hostOps7 (W16 m ρ c)
/-- The same read at the TensorCore's references: what layer 7's pipeline is entered with. -/
abbrev V17 : (c : Dev nD) → (b : Ref sig .tc) → Buf (Elt F) ((c : Thread nD τ).loc b) := fun c b => W17 m ρ c b
/-- At the exit of layer 7's pipeline: its arrays at what the pipeline leaves, every other buffer as entered. -/
def W18 (c : Dev nD) : Valuation τ sig (Elt F) :=
  Pipeline.withArrays spec7 c (W17 m ρ c) fun w => (dat7 (V17 m ρ) c).arrAt w cfg7.N
theorem W18_arr (c : Dev nD) (w : Fin cfg7.W) :
    W18 m ρ c (Proc.devRef .tc (Pipeline.arrRef spec7 w)) = (dat7 (V17 m ρ) c).arrAt w cfg7.N := by
  unfold W18; exact Pipeline.withArrays_arr spec7 launch7.win.arr_inj c _ _ w
theorem W18_of_ne (c : Dev nD) (b : Ref sig .tc) (hb : ∀ w, Pipeline.arrRef spec7 w ≠ b) :
    W18 m ρ c (Proc.devRef .tc b) = W17 m ρ c (Proc.devRef .tc b) := by
  unfold W18; exact Pipeline.withArrays_of_ne spec7 c _ _ b hb
abbrev V18 : (c : Dev nD) → (b : Ref sig .tc) → Buf (Elt F) ((c : Thread nD τ).loc b) := fun c b => W18 m ρ c b
theorem hF7 (c : Dev nD) (w : Fin cfg7.W) : (dat7 (V17 m ρ) c).arrAt w cfg7.N = V18 m ρ c (Pipeline.arrRef spec7 w) :=
  (W18_arr m ρ c w).symm
theorem hrest7 (c : Dev nD) : ∀ b, b ∉ Finset.univ.image (Pipeline.arrRef spec7) → V18 m ρ c b = V17 m ρ c b :=
  fun b hb => W18_of_ne m ρ c b fun w e => hb (Finset.mem_image.mpr ⟨w, Finset.mem_univ _, e⟩)
/-- No array of layer 7's pipeline is an argument: they are numbered after the arguments. -/
theorem arr_from7 : ∀ w : Fin cfg7.W, 433 ≤ (Pipeline.arrRef spec7 w).idx.val := by decide

/-! ## No stretch writes an argument -/
theorem hostOps0_from : (hostOps0 : List (HloOp τ sig (Elt F))).Forall (StableHlo.WritesFrom 21) := by writes_own
theorem hostOps0_fresh : (hostOps0 : List (HloOp τ sig (Elt F))).Forall fun op => op.fresh = ∅ := by
  simp only [List.Forall]; repeat' constructor
theorem hostOps0_1_from : (hostOps0_1 : List (HloOp τ sig (Elt F))).Forall (StableHlo.WritesFrom 38) := by writes_own
theorem hostOps0_1_fresh : (hostOps0_1 : List (HloOp τ sig (Elt F))).Forall fun op => op.fresh = ∅ := by
  simp only [List.Forall]; repeat' constructor
theorem hostOps0_2_from : (hostOps0_2 : List (HloOp τ sig (Elt F))).Forall (StableHlo.WritesFrom 41) := by writes_own
theorem hostOps0_2_fresh : (hostOps0_2 : List (HloOp τ sig (Elt F))).Forall fun op => op.fresh = ∅ := by
  simp only [List.Forall]; repeat' constructor
theorem hostOps1_from : (hostOps1 : List (HloOp τ sig (Elt F))).Forall (StableHlo.WritesFrom 89) := by writes_own
theorem hostOps1_fresh : (hostOps1 : List (HloOp τ sig (Elt F))).Forall fun op => op.fresh = ∅ := by
  simp only [List.Forall]; repeat' constructor
theorem hostOps2_from : (hostOps2 : List (HloOp τ sig (Elt F))).Forall (StableHlo.WritesFrom 109) := by writes_own
theorem hostOps2_fresh : (hostOps2 : List (HloOp τ sig (Elt F))).Forall fun op => op.fresh = ∅ := by
  simp only [List.Forall]; repeat' constructor
theorem hostOps3_from : (hostOps3 : List (HloOp τ sig (Elt F))).Forall (StableHlo.WritesFrom 129) := by writes_own
theorem hostOps3_fresh : (hostOps3 : List (HloOp τ sig (Elt F))).Forall fun op => op.fresh = ∅ := by
  simp only [List.Forall]; repeat' constructor
theorem hostOps4_from : (hostOps4 : List (HloOp τ sig (Elt F))).Forall (StableHlo.WritesFrom 181) := by writes_own
theorem hostOps4_fresh : (hostOps4 : List (HloOp τ sig (Elt F))).Forall fun op => op.fresh = ∅ := by
  simp only [List.Forall]; repeat' constructor
theorem hostOps5_from : (hostOps5 : List (HloOp τ sig (Elt F))).Forall (StableHlo.WritesFrom 233) := by writes_own
theorem hostOps5_fresh : (hostOps5 : List (HloOp τ sig (Elt F))).Forall fun op => op.fresh = ∅ := by
  simp only [List.Forall]; repeat' constructor
theorem hostOps6_from : (hostOps6 : List (HloOp τ sig (Elt F))).Forall (StableHlo.WritesFrom 333) := by writes_own
theorem hostOps6_fresh : (hostOps6 : List (HloOp τ sig (Elt F))).Forall fun op => op.fresh = ∅ := by
  simp only [List.Forall]; repeat' constructor
theorem hostOps7_from : (hostOps7 : List (HloOp τ sig (Elt F))).Forall (StableHlo.WritesFrom 433) := by writes_own
theorem hostOps7_fresh : (hostOps7 : List (HloOp τ sig (Elt F))).Forall fun op => op.fresh = ∅ := by
  simp only [List.Forall]; repeat' constructor

/-- A stretch leaves every reference numbered below its first write — or, for a pipeline, below its arrays — as it found it. -/
theorem W1_keep (c : Dev nD) (r : Ref sig .tc) (hr : r.idx.val < 21) : W1 m ρ c (Proc.devRef .tc r) = W0 m ρ c (Proc.devRef .tc r) :=
  StableHlo.after_below 21 _ _ hostOps0_from r hr
theorem W2_keep (c : Dev nD) (r : Ref sig .tc) (hr : r.idx.val < 38) : W2 m ρ c (Proc.devRef .tc r) = W1 m ρ c (Proc.devRef .tc r) :=
  StableHlo.after_below 38 _ _ hostOps0_1_from r hr
theorem W3_keep (c : Dev nD) (r : Ref sig .tc) (hr : r.idx.val < 41) : W3 m ρ c (Proc.devRef .tc r) = W2 m ρ c (Proc.devRef .tc r) :=
  StableHlo.after_below 41 _ _ hostOps0_2_from r hr
theorem W4_keep (c : Dev nD) (r : Ref sig .tc) (hr : r.idx.val < 84) : W4 m ρ c (Proc.devRef .tc r) = W3 m ρ c (Proc.devRef .tc r) :=
  W4_of_ne m ρ c r fun w e => by have h := arr_from0 w; rw [e] at h; omega
theorem W5_keep (c : Dev nD) (r : Ref sig .tc) (hr : r.idx.val < 89) : W5 m ρ c (Proc.devRef .tc r) = W4 m ρ c (Proc.devRef .tc r) :=
  StableHlo.after_below 89 _ _ hostOps1_from r hr
theorem W6_keep (c : Dev nD) (r : Ref sig .tc) (hr : r.idx.val < 104) : W6 m ρ c (Proc.devRef .tc r) = W5 m ρ c (Proc.devRef .tc r) :=
  W6_of_ne m ρ c r fun w e => by have h := arr_from1 w; rw [e] at h; omega
theorem W7_keep (c : Dev nD) (r : Ref sig .tc) (hr : r.idx.val < 109) : W7 m ρ c (Proc.devRef .tc r) = W6 m ρ c (Proc.devRef .tc r) :=
  StableHlo.after_below 109 _ _ hostOps2_from r hr
theorem W8_keep (c : Dev nD) (r : Ref sig .tc) (hr : r.idx.val < 124) : W8 m ρ c (Proc.devRef .tc r) = W7 m ρ c (Proc.devRef .tc r) :=
  W8_of_ne m ρ c r fun w e => by have h := arr_from2 w; rw [e] at h; omega
theorem W9_keep (c : Dev nD) (r : Ref sig .tc) (hr : r.idx.val < 129) : W9 m ρ c (Proc.devRef .tc r) = W8 m ρ c (Proc.devRef .tc r) :=
  StableHlo.after_below 129 _ _ hostOps3_from r hr
theorem W10_keep (c : Dev nD) (r : Ref sig .tc) (hr : r.idx.val < 177) : W10 m ρ c (Proc.devRef .tc r) = W9 m ρ c (Proc.devRef .tc r) :=
  W10_of_ne m ρ c r fun w e => by have h := arr_from3 w; rw [e] at h; omega
theorem W11_keep (c : Dev nD) (r : Ref sig .tc) (hr : r.idx.val < 181) : W11 m ρ c (Proc.devRef .tc r) = W10 m ρ c (Proc.devRef .tc r) :=
  StableHlo.after_below 181 _ _ hostOps4_from r hr
theorem W12_keep (c : Dev nD) (r : Ref sig .tc) (hr : r.idx.val < 229) : W12 m ρ c (Proc.devRef .tc r) = W11 m ρ c (Proc.devRef .tc r) :=
  W12_of_ne m ρ c r fun w e => by have h := arr_from4 w; rw [e] at h; omega
theorem W13_keep (c : Dev nD) (r : Ref sig .tc) (hr : r.idx.val < 233) : W13 m ρ c (Proc.devRef .tc r) = W12 m ρ c (Proc.devRef .tc r) :=
  StableHlo.after_below 233 _ _ hostOps5_from r hr
theorem W14_keep (c : Dev nD) (r : Ref sig .tc) (hr : r.idx.val < 329) : W14 m ρ c (Proc.devRef .tc r) = W13 m ρ c (Proc.devRef .tc r) :=
  W14_of_ne m ρ c r fun w e => by have h := arr_from5 w; rw [e] at h; omega
theorem W15_keep (c : Dev nD) (r : Ref sig .tc) (hr : r.idx.val < 333) : W15 m ρ c (Proc.devRef .tc r) = W14 m ρ c (Proc.devRef .tc r) :=
  StableHlo.after_below 333 _ _ hostOps6_from r hr
theorem W16_keep (c : Dev nD) (r : Ref sig .tc) (hr : r.idx.val < 429) : W16 m ρ c (Proc.devRef .tc r) = W15 m ρ c (Proc.devRef .tc r) :=
  W16_of_ne m ρ c r fun w e => by have h := arr_from6 w; rw [e] at h; omega
theorem W17_keep (c : Dev nD) (r : Ref sig .tc) (hr : r.idx.val < 433) : W17 m ρ c (Proc.devRef .tc r) = W16 m ρ c (Proc.devRef .tc r) :=
  StableHlo.after_below 433 _ _ hostOps7_from r hr
theorem W18_keep (c : Dev nD) (r : Ref sig .tc) (hr : r.idx.val < 433) : W18 m ρ c (Proc.devRef .tc r) = W17 m ρ c (Proc.devRef .tc r) :=
  W18_of_ne m ρ c r fun w e => by have h := arr_from7 w; rw [e] at h; omega

/-- An argument — a reference numbered below 21 — holds its launch contents at every boundary. -/
theorem W0_below (c : Dev nD) (r : Ref sig .tc) (hr : r.idx.val < 21) : W0 m ρ c (Proc.devRef .tc r) = m ((c : Thread nD τ).loc r) := rfl
theorem W1_below (c : Dev nD) (r : Ref sig .tc) (hr : r.idx.val < 21) : W1 m ρ c (Proc.devRef .tc r) = m ((c : Thread nD τ).loc r) :=
  (W1_keep m ρ c r (by omega)).trans (W0_below m ρ c r hr)
theorem W2_below (c : Dev nD) (r : Ref sig .tc) (hr : r.idx.val < 21) : W2 m ρ c (Proc.devRef .tc r) = m ((c : Thread nD τ).loc r) :=
  (W2_keep m ρ c r (by omega)).trans (W1_below m ρ c r hr)
theorem W3_below (c : Dev nD) (r : Ref sig .tc) (hr : r.idx.val < 21) : W3 m ρ c (Proc.devRef .tc r) = m ((c : Thread nD τ).loc r) :=
  (W3_keep m ρ c r (by omega)).trans (W2_below m ρ c r hr)
theorem W4_below (c : Dev nD) (r : Ref sig .tc) (hr : r.idx.val < 21) : W4 m ρ c (Proc.devRef .tc r) = m ((c : Thread nD τ).loc r) :=
  (W4_keep m ρ c r (by omega)).trans (W3_below m ρ c r hr)
theorem W5_below (c : Dev nD) (r : Ref sig .tc) (hr : r.idx.val < 21) : W5 m ρ c (Proc.devRef .tc r) = m ((c : Thread nD τ).loc r) :=
  (W5_keep m ρ c r (by omega)).trans (W4_below m ρ c r hr)
theorem W6_below (c : Dev nD) (r : Ref sig .tc) (hr : r.idx.val < 21) : W6 m ρ c (Proc.devRef .tc r) = m ((c : Thread nD τ).loc r) :=
  (W6_keep m ρ c r (by omega)).trans (W5_below m ρ c r hr)
theorem W7_below (c : Dev nD) (r : Ref sig .tc) (hr : r.idx.val < 21) : W7 m ρ c (Proc.devRef .tc r) = m ((c : Thread nD τ).loc r) :=
  (W7_keep m ρ c r (by omega)).trans (W6_below m ρ c r hr)
theorem W8_below (c : Dev nD) (r : Ref sig .tc) (hr : r.idx.val < 21) : W8 m ρ c (Proc.devRef .tc r) = m ((c : Thread nD τ).loc r) :=
  (W8_keep m ρ c r (by omega)).trans (W7_below m ρ c r hr)
theorem W9_below (c : Dev nD) (r : Ref sig .tc) (hr : r.idx.val < 21) : W9 m ρ c (Proc.devRef .tc r) = m ((c : Thread nD τ).loc r) :=
  (W9_keep m ρ c r (by omega)).trans (W8_below m ρ c r hr)
theorem W10_below (c : Dev nD) (r : Ref sig .tc) (hr : r.idx.val < 21) : W10 m ρ c (Proc.devRef .tc r) = m ((c : Thread nD τ).loc r) :=
  (W10_keep m ρ c r (by omega)).trans (W9_below m ρ c r hr)
theorem W11_below (c : Dev nD) (r : Ref sig .tc) (hr : r.idx.val < 21) : W11 m ρ c (Proc.devRef .tc r) = m ((c : Thread nD τ).loc r) :=
  (W11_keep m ρ c r (by omega)).trans (W10_below m ρ c r hr)
theorem W12_below (c : Dev nD) (r : Ref sig .tc) (hr : r.idx.val < 21) : W12 m ρ c (Proc.devRef .tc r) = m ((c : Thread nD τ).loc r) :=
  (W12_keep m ρ c r (by omega)).trans (W11_below m ρ c r hr)
theorem W13_below (c : Dev nD) (r : Ref sig .tc) (hr : r.idx.val < 21) : W13 m ρ c (Proc.devRef .tc r) = m ((c : Thread nD τ).loc r) :=
  (W13_keep m ρ c r (by omega)).trans (W12_below m ρ c r hr)
theorem W14_below (c : Dev nD) (r : Ref sig .tc) (hr : r.idx.val < 21) : W14 m ρ c (Proc.devRef .tc r) = m ((c : Thread nD τ).loc r) :=
  (W14_keep m ρ c r (by omega)).trans (W13_below m ρ c r hr)
theorem W15_below (c : Dev nD) (r : Ref sig .tc) (hr : r.idx.val < 21) : W15 m ρ c (Proc.devRef .tc r) = m ((c : Thread nD τ).loc r) :=
  (W15_keep m ρ c r (by omega)).trans (W14_below m ρ c r hr)
theorem W16_below (c : Dev nD) (r : Ref sig .tc) (hr : r.idx.val < 21) : W16 m ρ c (Proc.devRef .tc r) = m ((c : Thread nD τ).loc r) :=
  (W16_keep m ρ c r (by omega)).trans (W15_below m ρ c r hr)
theorem W17_below (c : Dev nD) (r : Ref sig .tc) (hr : r.idx.val < 21) : W17 m ρ c (Proc.devRef .tc r) = m ((c : Thread nD τ).loc r) :=
  (W17_keep m ρ c r (by omega)).trans (W16_below m ρ c r hr)
theorem W18_below (c : Dev nD) (r : Ref sig .tc) (hr : r.idx.val < 21) : W18 m ρ c (Proc.devRef .tc r) = m ((c : Thread nD τ).loc r) :=
  (W18_keep m ρ c r (by omega)).trans (W17_below m ρ c r hr)

/-! ## The proof data family and the thread state -/

/-- No pipeline has a prefetched table. -/
abbrev adm : (p : Fin 8) → (pcfgs (F := F) p).Adm := fun p => (cfgs p).toPCfg_adm
/-- Every pipeline's proof data, each at its region's entry contents. -/
def pdats : (p : Fin 8) → (c : Dev nD) → Dat τ (Elt F) Unit ℕ (UR sig nD τ) ℕ (Pipeline.pin (pcfgs (F := F)) adm p) c
  | ⟨0, _⟩ => fun c => dat0 (V3 m ρ) c
  | ⟨1, _⟩ => fun c => dat1 (V5 m ρ) c
  | ⟨2, _⟩ => fun c => dat2 (V7 m ρ) c
  | ⟨3, _⟩ => fun c => dat3 (V9 m ρ) c
  | ⟨4, _⟩ => fun c => dat4 (V11 m ρ) c
  | ⟨5, _⟩ => fun c => dat5 (V13 m ρ) c
  | ⟨6, _⟩ => fun c => dat6 (V15 m ρ) c
  | ⟨7, _⟩ => fun c => dat7 (V17 m ρ) c
abbrev 𝒱₀ : Variants := Variants.none
abbrev L : GSem nD τ sig → Finset Unit := fun _ => ∅
abbrev lv : GSem nD τ sig → Unit → ℕ := fun _ _ => 0
/-- What rides beside the buffers through every stretch: the core's generator register at some state and its debts, at nothing. -/
abbrev R (c : Dev nD) : sProp 𝕄 := iprop((∃ r, prngReg c r) ∗ ∃ W, owes (c : Thread nD τ) (0 : CellTallies nD τ sig Unit) W)
/-- A line of host operations as a stretch over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the debts: every unscoped buffer at the last boundary's contents, the generator register at some state. -/
abbrev Tₙ (c : Dev nD) : sProp 𝕄 := iprop(StableHlo.held (c : Thread nD τ) (Pipeline.ucRefs τ sig) (W18 m ρ c) ∗ ∃ r, prngReg c r)

/-! ## The pipelines as stretches -/

set_option backward.isDefEq.respectTransparency.types false in
/-- Layer 0's pipeline over the thread state: entered from every unscoped buffer at boundary 3's contents, left at boundary 4's. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m ρ) c).loose
  hwaits := Pipeline.hwaits_of_owed_zero _ _ _ _ L lv 0 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec0 c (V3 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V3 m ρ c) (V4 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Layer 1's pipeline over the thread state: entered from every unscoped buffer at boundary 5's contents, left at boundary 6's. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m ρ) c).loose
  hwaits := Pipeline.hwaits_of_owed_zero _ _ _ _ L lv 1 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec1 c (V5 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V5 m ρ c) (V6 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Layer 2's pipeline over the thread state: entered from every unscoped buffer at boundary 7's contents, left at boundary 8's. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V7 m ρ) c).loose
  hwaits := Pipeline.hwaits_of_owed_zero _ _ _ _ L lv 2 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec2 c (V7 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V7 m ρ c) (V8 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Layer 3's pipeline over the thread state: entered from every unscoped buffer at boundary 9's contents, left at boundary 10's. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V9 m ρ) c).loose
  hwaits := Pipeline.hwaits_of_owed_zero _ _ _ _ L lv 3 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec3 c (V9 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V9 m ρ c) (V10 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Layer 4's pipeline over the thread state: entered from every unscoped buffer at boundary 11's contents, left at boundary 12's. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V11 m ρ) c).loose
  hwaits := Pipeline.hwaits_of_owed_zero _ _ _ _ L lv 4 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec4 c (V11 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V11 m ρ c) (V12 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Layer 5's pipeline over the thread state: entered from every unscoped buffer at boundary 13's contents, left at boundary 14's. -/
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V13 m ρ) c).loose
  hwaits := Pipeline.hwaits_of_owed_zero _ _ _ _ L lv 5 fun _ _ => rfl
  pre c := iprop(StableHlo.held (c : Thread nD τ) (Pipeline.ucRefs τ sig) (W13 m ρ c) ∗ R c)
  post c := iprop(StableHlo.held (c : Thread nD τ) (Pipeline.ucRefs τ sig) (W14 m ρ c) ∗ R c)
  X c := iprop(∃ r, prngReg c r)
  Y c := iprop(∃ r, prngReg c r)
  Z c := Pipeline.unscopedRest (Ix := Unit) (Name := ℕ) (U := UR sig nD τ) (Lvl := ℕ) spec5 c (V13 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (V13 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (V13 m ρ c) (V14 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Layer 6's pipeline over the thread state: entered from every unscoped buffer at boundary 15's contents, left at boundary 16's. -/
def reg6 : Pipeline.RegionSeg (pcfgs (F := F)) adm (pdats m ρ) () defs₀ 𝒱₀ L lv 6 where
  win := launch6.win.to₀
  block_pos := launch6.block_pos
  stage_whole := launch6.stage_whole
  K := PEmpty
  osem k := k.elim
  ho := Pipeline.OwnSemFacts.none _
  hbody c := (body_obligation6 (V15 m ρ) c).loose
  hwaits := Pipeline.hwaits_of_owed_zero _ _ _ _ L lv 6 fun _ _ => rfl
  pre c := iprop(StableHlo.held (c : Thread nD τ) (Pipeline.ucRefs τ sig) (W15 m ρ c) ∗ R c)
  post c := iprop(StableHlo.held (c : Thread nD τ) (Pipeline.ucRefs τ sig) (W16 m ρ c) ∗ R c)
  X c := iprop(∃ r, prngReg c r)
  Y c := iprop(∃ r, prngReg c r)
  Z c := Pipeline.unscopedRest (Ix := Unit) (Name := ℕ) (U := UR sig nD τ) (Lvl := ℕ) spec6 c (V15 m ρ c)
  hentry c := by
    rw [Pipeline.ownSems0_none]
    have hsplit := Pipeline.arrays_of_unscopedBufs (p := 6) (pcfgs (F := F)) adm (pdats m ρ) launch6.win launch6.arr_whole c
      ((pdats m ρ 6 c).share_full fun _ => rfl) (V15 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m ρ 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m ρ) ((pdats m ρ 6 c).share_full fun _ => rfl)
      (V15 m ρ c) (V16 m ρ c) ((pdats m ρ 6 c).arrAt · cfg6.N) (hF6 m ρ c) (hrest6 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Layer 7's pipeline over the thread state: entered from every unscoped buffer at boundary 17's contents, left at boundary 18's. -/
def reg7 : Pipeline.RegionSeg (pcfgs (F := F)) adm (pdats m ρ) () defs₀ 𝒱₀ L lv 7 where
  win := launch7.win.to₀
  block_pos := launch7.block_pos
  stage_whole := launch7.stage_whole
  K := PEmpty
  osem k := k.elim
  ho := Pipeline.OwnSemFacts.none _
  hbody c := (body_obligation7 (V17 m ρ) c).loose
  hwaits := Pipeline.hwaits_of_owed_zero _ _ _ _ L lv 7 fun _ _ => rfl
  pre c := iprop(StableHlo.held (c : Thread nD τ) (Pipeline.ucRefs τ sig) (W17 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec7 c (V17 m ρ c)
  hentry c := by
    rw [Pipeline.ownSems0_none]
    have hsplit := Pipeline.arrays_of_unscopedBufs (p := 7) (pcfgs (F := F)) adm (pdats m ρ) launch7.win launch7.arr_whole c
      ((pdats m ρ 7 c).share_full fun _ => rfl) (V17 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 7 c).Φ 0 = Pipeline.ΦA spec7 c from rfl]; unfold Pipeline.ΦA
    iintro ⟨Hp, -, Hr⟩
    isplitl [Hr]; · iexact Hr
    iexact Hp
  hout c := by
    rw [Pipeline.ownSems0_none, show (pdats m ρ 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m ρ) ((pdats m ρ 7 c).share_full fun _ => rfl)
      (V17 m ρ c) (V18 m ρ c) ((pdats m ρ 7 c).arrAt · cfg7.N) (hF7 m ρ c) (hrest7 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as stretches, and the launch -/

/-- The program's eighteen stretches in order. -/
abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .host (hseg hostOps1 hostOps1_sub hostOps1_fresh (W4 m ρ)),
    .region (reg1 m ρ),
    .host (hseg hostOps2 hostOps2_sub hostOps2_fresh (W6 m ρ)),
    .region (reg2 m ρ),
    .host (hseg hostOps3 hostOps3_sub hostOps3_fresh (W8 m ρ)),
    .region (reg3 m ρ),
    .host (hseg hostOps4 hostOps4_sub hostOps4_fresh (W10 m ρ)),
    .region (reg4 m ρ),
    .host (hseg hostOps5 hostOps5_sub hostOps5_fresh (W12 m ρ)),
    .region (reg5 m ρ),
    .host (hseg hostOps6 hostOps6_sub hostOps6_fresh (W14 m ρ)),
    .region (reg6 m ρ),
    .host (hseg hostOps7 hostOps7_sub hostOps7_fresh (W16 m ρ)),
    .region (reg7 m ρ) ]
/-- The program is the run of its stretches. -/
theorem main_run (c : Dev nD) : main (F := F) c = Pipeline.Seg.run (segs m ρ) := (main_chain c).trans (by chain_rfl)

set_option backward.isDefEq.respectTransparency.types false in
/-- From any memory with zero counters, every weakly fair execution of the program on the TensorCores terminates,
    nothing faulting, and every unscoped buffer ends at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W18 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W18 m ρ c b)
    (hfin := fun c s' => by
      iintro ⟨⟨Hh, -⟩, HSI⟩
      unfold StableHlo.held
      imodintro
      iapply (pointsTo_read_all (Pipeline.ucRefs τ sig) (fun b => (((c : Thread nD τ)).1, b)) (W18 m ρ c) s')
      isplitl [Hh] <;> iassumption)
    (hQ := fun s h c => h c)

/-- An argument's buffer ends as launched. -/
theorem final_arg (c : Dev nD) (r : Ref sig .tc) (hr : r.idx.val < 21) : W18 m ρ c (Proc.devRef .tc r) = m ((c : Thread nD τ).loc r) :=
  W18_below m ρ c r hr

end Cert.KernelIdeal.Hand

end
-- ==== Proof.RefRead.lean ====
/-
  The reference's run and its operations read one at a time, gathered under one import.
-/
import proofs.«101217_j35820027249494_1_alg».proof.Proof.RefReadP
-- ==== Proof.KI.Shared.lean ====
/-
  The intermediates every layer shares, against the reference's own stages. Before the first pipeline the
  program computes, from the edge list alone, the source and target node of every edge, the symmetric
  normalisation  norm(e) = deg(src e)^(-1/2) · deg(dst e)^(-1/2)  (zero where a degree is zero) and the
  in-degree count clamped below at one. The reference computes the same values by the same operations, so
  each of these buffers holds the reference's stage of the edge list; and no later stretch writes them.
-/
import proofs.«101217_j35820027249494_1_alg».proof.Proof.KI.Run
import proofs.«101217_j35820027249494_1_alg».proof.Proof.RefRead

set_option maxRecDepth 16384
set_option maxHeartbeats 4000000

noncomputable section

namespace Cert.KernelIdeal.Hand

open Cert.KernelIdeal Cert.KernelIdeal.Gen Cert.ReferenceIdeal.Read
open Idealize.ShloMosaic Idealize.ShloMosaic.TcCoe Idealize.ShloMosaic.StableHlo
open Idealize.SL Idealize.SL.Sem

variable (m : (ℓ : Loc nD τ sig) → Buf (Elt Ideal) ℓ) (ρ : Dev nD → PrngReg)

/-- At the first pipeline's entry, `main_v1` holds the reference's stage `val_main_v1` of the edge list. -/
theorem s3_v1 (c : Dev nD) : W3 m ρ c (Proc.devRef .tc main_v1) = val_main_v1 (F := Ideal) (m ((c : Thread nD τ).loc main_arg1)) := by
  show StableHlo.after hostOps0_2 (StableHlo.after hostOps0_1 (StableHlo.after hostOps0 (W0 m ρ c))) (Proc.devRef .tc main_v1) = _
  after_results_simp
  simp only [val_main_v0, val_main_v1]
  try rfl

/-- At the first pipeline's entry, `main_v3` holds the reference's stage `val_main_v3` of the edge list. -/
theorem s3_v3 (c : Dev nD) : W3 m ρ c (Proc.devRef .tc main_v3) = val_main_v3 (F := Ideal) (m ((c : Thread nD τ).loc main_arg1)) := by
  show StableHlo.after hostOps0_2 (StableHlo.after hostOps0_1 (StableHlo.after hostOps0 (W0 m ρ c))) (Proc.devRef .tc main_v3) = _
  after_results_simp
  simp only [val_main_v2, val_main_v3]
  try rfl

/-! The normalisation reads the degree's inverse square root through a called function (`where`: a select between
    the power and zero). The two boundaries around the call are named, so that the call's three operations are read
    on their own. -/

/-- The contents after the first host line, and after the call. -/
def X1 (c : Dev nD) : Valuation τ sig (Elt Ideal) := W1 m ρ c
def X2 (c : Dev nD) : Valuation τ sig (Elt Ideal) := W2 m ρ c

theorem x1_v1 (c : Dev nD) : X1 m ρ c (Proc.devRef .tc main_v1) = val_main_v1 (F := Ideal) (m ((c : Thread nD τ).loc main_arg1)) := by
  unfold X1; show StableHlo.after hostOps0 (W0 m ρ c) (Proc.devRef .tc main_v1) = _
  after_results_simp
  simp only [val_main_v0, val_main_v1]
  try rfl
theorem x1_v3 (c : Dev nD) : X1 m ρ c (Proc.devRef .tc main_v3) = val_main_v3 (F := Ideal) (m ((c : Thread nD τ).loc main_arg1)) := by
  unfold X1; show StableHlo.after hostOps0 (W0 m ρ c) (Proc.devRef .tc main_v3) = _
  after_results_simp
  simp only [val_main_v2, val_main_v3]
  try rfl
theorem x1_v9 (c : Dev nD) : X1 m ρ c (Proc.devRef .tc main_v9) = val_main_v9 (F := Ideal) (m ((c : Thread nD τ).loc main_arg1)) := by
  unfold X1; show StableHlo.after hostOps0 (W0 m ρ c) (Proc.devRef .tc main_v9) = _
  after_results_simp
  simp only [val_main_v2, val_main_v3, val_main_cst, val_main_v4, val_main_cst_0, val_main_v5, val_main_v6, val_main_v7, val_main_cst_1, val_main_v8, val_main_v9]
  try rfl
theorem x1_v11 (c : Dev nD) : X1 m ρ c (Proc.devRef .tc main_v11) = val_main_v11 (F := Ideal) (m ((c : Thread nD τ).loc main_arg1)) := by
  unfold X1; show StableHlo.after hostOps0 (W0 m ρ c) (Proc.devRef .tc main_v11) = _
  after_results_simp
  simp only [val_main_v2, val_main_v3, val_main_cst, val_main_v4, val_main_cst_0, val_main_v5, val_main_v6, val_main_v7, val_main_cst_2, val_main_v10, val_main_v11]
  try rfl
theorem x1_cst_3 (c : Dev nD) : X1 m ρ c (Proc.devRef .tc main_cst_3) = val_main_cst_3 (F := Ideal) := by
  unfold X1; show StableHlo.after hostOps0 (W0 m ρ c) (Proc.devRef .tc main_cst_3) = _
  after_results_simp
  simp only [val_main_cst_3]
  try rfl

/-! The called function's operations are stated over typed references, whose contents are transported along an
    equation of buffer types that holds by computation; on a literal reference the transport is the identity. -/

theorem cast_a (X : (⟨S_, .f32⟩ : BufTy).Contents (Elt Ideal)) :
    (StableHlo.TRef.of (sig := sig) (T := ⟨S_, .f32⟩) main_cst_3).ofBuf X = X := rfl
theorem cast_b (X : (⟨S_, .f32⟩ : BufTy).Contents (Elt Ideal)) :
    (StableHlo.TRef.of (sig := sig) (T := ⟨S_, .f32⟩) main_call0_v0).toBuf X = X := rfl
theorem cast_c (X : (⟨S100000, .f32⟩ : BufTy).Contents (Elt Ideal)) :
    (StableHlo.TRef.of (sig := sig) (T := ⟨S100000, .f32⟩) main_call0_v1).ofBuf X = X := rfl
theorem cast_d (X : (⟨S100000, .f32⟩ : BufTy).Contents (Elt Ideal)) :
    (StableHlo.TRef.of (sig := sig) (T := ⟨S100000, .f32⟩) main_call0_v1).toBuf X = X := rfl
theorem cast_e (X : (⟨S100000, .i1⟩ : BufTy).Contents (Elt Ideal)) :
    (StableHlo.TRef.of (sig := sig) (T := ⟨S100000, .i1⟩) main_v9).ofBuf X = X := rfl

/-- The call's result: the select between the power and the broadcast zero. -/
theorem x2_v12 (c : Dev nD) : X2 m ρ c (Proc.devRef .tc main_v12) = val_main_v12 (F := Ideal) (m ((c : Thread nD τ).loc main_arg1)) := by
  unfold X2; show StableHlo.after hostOps0_1 (X1 m ρ c) (Proc.devRef .tc main_v12) = _
  after_results_simp
  simp only [x1_v9 m ρ c, x1_v11 m ρ c, x1_cst_3 m ρ c]
  simp only [val_main_v12, val_main_call0_v1, val_main_call0_v0]
  repeat (first | rw [cast_a] | rw [cast_b] | rw [cast_c] | rw [cast_d] | rw [cast_e])
  try rfl
theorem x2_v1 (c : Dev nD) : X2 m ρ c (Proc.devRef .tc main_v1) = val_main_v1 (F := Ideal) (m ((c : Thread nD τ).loc main_arg1)) :=
  (show X2 m ρ c (Proc.devRef .tc main_v1) = X1 m ρ c (Proc.devRef .tc main_v1) from W2_keep m ρ c main_v1 (by decide)).trans (x1_v1 m ρ c)
theorem x2_v3 (c : Dev nD) : X2 m ρ c (Proc.devRef .tc main_v3) = val_main_v3 (F := Ideal) (m ((c : Thread nD τ).loc main_arg1)) :=
  (show X2 m ρ c (Proc.devRef .tc main_v3) = X1 m ρ c (Proc.devRef .tc main_v3) from W2_keep m ρ c main_v3 (by decide)).trans (x1_v3 m ρ c)

/-- At the first pipeline's entry, `main_v27` holds the reference's stage `val_main_v27` of the edge list. -/
theorem s3_v27 (c : Dev nD) : W3 m ρ c (Proc.devRef .tc main_v27) = val_main_v27 (F := Ideal) (m ((c : Thread nD τ).loc main_arg1)) := by
  show StableHlo.after hostOps0_2 (X2 m ρ c) (Proc.devRef .tc main_v27) = _
  after_results_simp
  simp only [x2_v12 m ρ c, x2_v1 m ρ c, x2_v3 m ρ c]
  simp only [val_main_c, val_main_v13, val_main_v14, val_main_c_4, val_main_v15, val_main_v16, val_main_v17, val_main_v18, val_main_v19, val_main_c_5, val_main_v20, val_main_v21, val_main_c_6, val_main_v22, val_main_v23, val_main_v24, val_main_v25, val_main_v26, val_main_v27]
  try rfl

/-- At the first pipeline's entry, `main_v33` holds the reference's stage `val_main_v43` of the edge list. -/
theorem s3_v33 (c : Dev nD) : W3 m ρ c (Proc.devRef .tc main_v33) = val_main_v43 (F := Ideal) (m ((c : Thread nD τ).loc main_arg1)) := by
  show StableHlo.after hostOps0_2 (StableHlo.after hostOps0_1 (StableHlo.after hostOps0 (W0 m ρ c))) (Proc.devRef .tc main_v33) = _
  after_results_simp
  simp only [val_main_v2, val_main_v3, val_main_cst_10, val_main_v38, val_main_cst_11, val_main_v39, val_main_v40, val_main_v41, val_main_cst_12, val_main_v42, val_main_v43]
  rfl

/-- A buffer written before the first pipeline is untouched from then on. -/
theorem W4_from3 (c : Dev nD) (r : Ref sig .tc) (hr : r.idx.val < 84) : W4 m ρ c (Proc.devRef .tc r) = W3 m ρ c (Proc.devRef .tc r) := W4_keep m ρ c r hr
theorem W5_from3 (c : Dev nD) (r : Ref sig .tc) (hr : r.idx.val < 84) : W5 m ρ c (Proc.devRef .tc r) = W3 m ρ c (Proc.devRef .tc r) :=
  (W5_keep m ρ c r (by omega)).trans (W4_from3 m ρ c r hr)
theorem W6_from3 (c : Dev nD) (r : Ref sig .tc) (hr : r.idx.val < 84) : W6 m ρ c (Proc.devRef .tc r) = W3 m ρ c (Proc.devRef .tc r) :=
  (W6_keep m ρ c r (by omega)).trans (W5_from3 m ρ c r hr)
theorem W7_from3 (c : Dev nD) (r : Ref sig .tc) (hr : r.idx.val < 84) : W7 m ρ c (Proc.devRef .tc r) = W3 m ρ c (Proc.devRef .tc r) :=
  (W7_keep m ρ c r (by omega)).trans (W6_from3 m ρ c r hr)
theorem W8_from3 (c : Dev nD) (r : Ref sig .tc) (hr : r.idx.val < 84) : W8 m ρ c (Proc.devRef .tc r) = W3 m ρ c (Proc.devRef .tc r) :=
  (W8_keep m ρ c r (by omega)).trans (W7_from3 m ρ c r hr)
theorem W9_from3 (c : Dev nD) (r : Ref sig .tc) (hr : r.idx.val < 84) : W9 m ρ c (Proc.devRef .tc r) = W3 m ρ c (Proc.devRef .tc r) :=
  (W9_keep m ρ c r (by omega)).trans (W8_from3 m ρ c r hr)
theorem W10_from3 (c : Dev nD) (r : Ref sig .tc) (hr : r.idx.val < 84) : W10 m ρ c (Proc.devRef .tc r) = W3 m ρ c (Proc.devRef .tc r) :=
  (W10_keep m ρ c r (by omega)).trans (W9_from3 m ρ c r hr)
theorem W11_from3 (c : Dev nD) (r : Ref sig .tc) (hr : r.idx.val < 84) : W11 m ρ c (Proc.devRef .tc r) = W3 m ρ c (Proc.devRef .tc r) :=
  (W11_keep m ρ c r (by omega)).trans (W10_from3 m ρ c r hr)
theorem W12_from3 (c : Dev nD) (r : Ref sig .tc) (hr : r.idx.val < 84) : W12 m ρ c (Proc.devRef .tc r) = W3 m ρ c (Proc.devRef .tc r) :=
  (W12_keep m ρ c r (by omega)).trans (W11_from3 m ρ c r hr)
theorem W13_from3 (c : Dev nD) (r : Ref sig .tc) (hr : r.idx.val < 84) : W13 m ρ c (Proc.devRef .tc r) = W3 m ρ c (Proc.devRef .tc r) :=
  (W13_keep m ρ c r (by omega)).trans (W12_from3 m ρ c r hr)
theorem W14_from3 (c : Dev nD) (r : Ref sig .tc) (hr : r.idx.val < 84) : W14 m ρ c (Proc.devRef .tc r) = W3 m ρ c (Proc.devRef .tc r) :=
  (W14_keep m ρ c r (by omega)).trans (W13_from3 m ρ c r hr)
theorem W15_from3 (c : Dev nD) (r : Ref sig .tc) (hr : r.idx.val < 84) : W15 m ρ c (Proc.devRef .tc r) = W3 m ρ c (Proc.devRef .tc r) :=
  (W15_keep m ρ c r (by omega)).trans (W14_from3 m ρ c r hr)
theorem W16_from3 (c : Dev nD) (r : Ref sig .tc) (hr : r.idx.val < 84) : W16 m ρ c (Proc.devRef .tc r) = W3 m ρ c (Proc.devRef .tc r) :=
  (W16_keep m ρ c r (by omega)).trans (W15_from3 m ρ c r hr)
theorem s4_v1 (c : Dev nD) : W4 m ρ c (Proc.devRef .tc main_v1) = val_main_v1 (F := Ideal) (m ((c : Thread nD τ).loc main_arg1)) :=
  (W4_from3 m ρ c main_v1 (by decide)).trans (s3_v1 m ρ c)
theorem s4_v3 (c : Dev nD) : W4 m ρ c (Proc.devRef .tc main_v3) = val_main_v3 (F := Ideal) (m ((c : Thread nD τ).loc main_arg1)) :=
  (W4_from3 m ρ c main_v3 (by decide)).trans (s3_v3 m ρ c)
theorem s4_v27 (c : Dev nD) : W4 m ρ c (Proc.devRef .tc main_v27) = val_main_v27 (F := Ideal) (m ((c : Thread nD τ).loc main_arg1)) :=
  (W4_from3 m ρ c main_v27 (by decide)).trans (s3_v27 m ρ c)
theorem s4_v33 (c : Dev nD) : W4 m ρ c (Proc.devRef .tc main_v33) = val_main_v43 (F := Ideal) (m ((c : Thread nD τ).loc main_arg1)) :=
  (W4_from3 m ρ c main_v33 (by decide)).trans (s3_v33 m ρ c)
theorem s6_v1 (c : Dev nD) : W6 m ρ c (Proc.devRef .tc main_v1) = val_main_v1 (F := Ideal) (m ((c : Thread nD τ).loc main_arg1)) :=
  (W6_from3 m ρ c main_v1 (by decide)).trans (s3_v1 m ρ c)
theorem s6_v3 (c : Dev nD) : W6 m ρ c (Proc.devRef .tc main_v3) = val_main_v3 (F := Ideal) (m ((c : Thread nD τ).loc main_arg1)) :=
  (W6_from3 m ρ c main_v3 (by decide)).trans (s3_v3 m ρ c)
theorem s6_v27 (c : Dev nD) : W6 m ρ c (Proc.devRef .tc main_v27) = val_main_v27 (F := Ideal) (m ((c : Thread nD τ).loc main_arg1)) :=
  (W6_from3 m ρ c main_v27 (by decide)).trans (s3_v27 m ρ c)
theorem s6_v33 (c : Dev nD) : W6 m ρ c (Proc.devRef .tc main_v33) = val_main_v43 (F := Ideal) (m ((c : Thread nD τ).loc main_arg1)) :=
  (W6_from3 m ρ c main_v33 (by decide)).trans (s3_v33 m ρ c)
theorem s8_v1 (c : Dev nD) : W8 m ρ c (Proc.devRef .tc main_v1) = val_main_v1 (F := Ideal) (m ((c : Thread nD τ).loc main_arg1)) :=
  (W8_from3 m ρ c main_v1 (by decide)).trans (s3_v1 m ρ c)
theorem s8_v3 (c : Dev nD) : W8 m ρ c (Proc.devRef .tc main_v3) = val_main_v3 (F := Ideal) (m ((c : Thread nD τ).loc main_arg1)) :=
  (W8_from3 m ρ c main_v3 (by decide)).trans (s3_v3 m ρ c)
theorem s8_v27 (c : Dev nD) : W8 m ρ c (Proc.devRef .tc main_v27) = val_main_v27 (F := Ideal) (m ((c : Thread nD τ).loc main_arg1)) :=
  (W8_from3 m ρ c main_v27 (by decide)).trans (s3_v27 m ρ c)
theorem s8_v33 (c : Dev nD) : W8 m ρ c (Proc.devRef .tc main_v33) = val_main_v43 (F := Ideal) (m ((c : Thread nD τ).loc main_arg1)) :=
  (W8_from3 m ρ c main_v33 (by decide)).trans (s3_v33 m ρ c)
theorem s10_v1 (c : Dev nD) : W10 m ρ c (Proc.devRef .tc main_v1) = val_main_v1 (F := Ideal) (m ((c : Thread nD τ).loc main_arg1)) :=
  (W10_from3 m ρ c main_v1 (by decide)).trans (s3_v1 m ρ c)
theorem s10_v3 (c : Dev nD) : W10 m ρ c (Proc.devRef .tc main_v3) = val_main_v3 (F := Ideal) (m ((c : Thread nD τ).loc main_arg1)) :=
  (W10_from3 m ρ c main_v3 (by decide)).trans (s3_v3 m ρ c)
theorem s10_v27 (c : Dev nD) : W10 m ρ c (Proc.devRef .tc main_v27) = val_main_v27 (F := Ideal) (m ((c : Thread nD τ).loc main_arg1)) :=
  (W10_from3 m ρ c main_v27 (by decide)).trans (s3_v27 m ρ c)
theorem s10_v33 (c : Dev nD) : W10 m ρ c (Proc.devRef .tc main_v33) = val_main_v43 (F := Ideal) (m ((c : Thread nD τ).loc main_arg1)) :=
  (W10_from3 m ρ c main_v33 (by decide)).trans (s3_v33 m ρ c)
theorem s12_v1 (c : Dev nD) : W12 m ρ c (Proc.devRef .tc main_v1) = val_main_v1 (F := Ideal) (m ((c : Thread nD τ).loc main_arg1)) :=
  (W12_from3 m ρ c main_v1 (by decide)).trans (s3_v1 m ρ c)
theorem s12_v3 (c : Dev nD) : W12 m ρ c (Proc.devRef .tc main_v3) = val_main_v3 (F := Ideal) (m ((c : Thread nD τ).loc main_arg1)) :=
  (W12_from3 m ρ c main_v3 (by decide)).trans (s3_v3 m ρ c)
theorem s12_v27 (c : Dev nD) : W12 m ρ c (Proc.devRef .tc main_v27) = val_main_v27 (F := Ideal) (m ((c : Thread nD τ).loc main_arg1)) :=
  (W12_from3 m ρ c main_v27 (by decide)).trans (s3_v27 m ρ c)
theorem s12_v33 (c : Dev nD) : W12 m ρ c (Proc.devRef .tc main_v33) = val_main_v43 (F := Ideal) (m ((c : Thread nD τ).loc main_arg1)) :=
  (W12_from3 m ρ c main_v33 (by decide)).trans (s3_v33 m ρ c)
theorem s14_v1 (c : Dev nD) : W14 m ρ c (Proc.devRef .tc main_v1) = val_main_v1 (F := Ideal) (m ((c : Thread nD τ).loc main_arg1)) :=
  (W14_from3 m ρ c main_v1 (by decide)).trans (s3_v1 m ρ c)
theorem s14_v3 (c : Dev nD) : W14 m ρ c (Proc.devRef .tc main_v3) = val_main_v3 (F := Ideal) (m ((c : Thread nD τ).loc main_arg1)) :=
  (W14_from3 m ρ c main_v3 (by decide)).trans (s3_v3 m ρ c)
theorem s14_v27 (c : Dev nD) : W14 m ρ c (Proc.devRef .tc main_v27) = val_main_v27 (F := Ideal) (m ((c : Thread nD τ).loc main_arg1)) :=
  (W14_from3 m ρ c main_v27 (by decide)).trans (s3_v27 m ρ c)
theorem s14_v33 (c : Dev nD) : W14 m ρ c (Proc.devRef .tc main_v33) = val_main_v43 (F := Ideal) (m ((c : Thread nD τ).loc main_arg1)) :=
  (W14_from3 m ρ c main_v33 (by decide)).trans (s3_v33 m ρ c)

/-- The third SAGE layer's result, written at boundary 8, is untouched up to the last host line. -/
theorem W9_from8 (c : Dev nD) (r : Ref sig .tc) (hr : r.idx.val < 129) : W9 m ρ c (Proc.devRef .tc r) = W8 m ρ c (Proc.devRef .tc r) := W9_keep m ρ c r hr
theorem W10_from8 (c : Dev nD) (r : Ref sig .tc) (hr : r.idx.val < 129) : W10 m ρ c (Proc.devRef .tc r) = W8 m ρ c (Proc.devRef .tc r) :=
  (W10_keep m ρ c r (by omega)).trans (W9_from8 m ρ c r hr)
theorem W11_from8 (c : Dev nD) (r : Ref sig .tc) (hr : r.idx.val < 129) : W11 m ρ c (Proc.devRef .tc r) = W8 m ρ c (Proc.devRef .tc r) :=
  (W11_keep m ρ c r (by omega)).trans (W10_from8 m ρ c r hr)
theorem W12_from8 (c : Dev nD) (r : Ref sig .tc) (hr : r.idx.val < 129) : W12 m ρ c (Proc.devRef .tc r) = W8 m ρ c (Proc.devRef .tc r) :=
  (W12_keep m ρ c r (by omega)).trans (W11_from8 m ρ c r hr)
theorem W13_from8 (c : Dev nD) (r : Ref sig .tc) (hr : r.idx.val < 129) : W13 m ρ c (Proc.devRef .tc r) = W8 m ρ c (Proc.devRef .tc r) :=
  (W13_keep m ρ c r (by omega)).trans (W12_from8 m ρ c r hr)
theorem W14_from8 (c : Dev nD) (r : Ref sig .tc) (hr : r.idx.val < 129) : W14 m ρ c (Proc.devRef .tc r) = W8 m ρ c (Proc.devRef .tc r) :=
  (W14_keep m ρ c r (by omega)).trans (W13_from8 m ρ c r hr)
theorem W15_from8 (c : Dev nD) (r : Ref sig .tc) (hr : r.idx.val < 129) : W15 m ρ c (Proc.devRef .tc r) = W8 m ρ c (Proc.devRef .tc r) :=
  (W15_keep m ρ c r (by omega)).trans (W14_from8 m ρ c r hr)
theorem W16_from8 (c : Dev nD) (r : Ref sig .tc) (hr : r.idx.val < 129) : W16 m ρ c (Proc.devRef .tc r) = W8 m ρ c (Proc.devRef .tc r) :=
  (W16_keep m ρ c r (by omega)).trans (W15_from8 m ρ c r hr)
theorem W13_from12 (c : Dev nD) (r : Ref sig .tc) (hr : r.idx.val < 233) : W13 m ρ c (Proc.devRef .tc r) = W12 m ρ c (Proc.devRef .tc r) := W13_keep m ρ c r hr
theorem W14_from12 (c : Dev nD) (r : Ref sig .tc) (hr : r.idx.val < 233) : W14 m ρ c (Proc.devRef .tc r) = W12 m ρ c (Proc.devRef .tc r) :=
  (W14_keep m ρ c r (by omega)).trans (W13_from12 m ρ c r hr)
theorem W15_from12 (c : Dev nD) (r : Ref sig .tc) (hr : r.idx.val < 233) : W15 m ρ c (Proc.devRef .tc r) = W12 m ρ c (Proc.devRef .tc r) :=
  (W15_keep m ρ c r (by omega)).trans (W14_from12 m ρ c r hr)
theorem W16_from12 (c : Dev nD) (r : Ref sig .tc) (hr : r.idx.val < 233) : W16 m ρ c (Proc.devRef .tc r) = W12 m ρ c (Proc.devRef .tc r) :=
  (W16_keep m ρ c r (by omega)).trans (W15_from12 m ρ c r hr)

end Cert.KernelIdeal.Hand

end
-- ==== Proof.KI.In0.lean ====
/-
  The three arrays dense layer 0's pipeline is entered with, against the reference's stages: the feature array
  is the mean aggregation joined column-wise with the layer's input; the weight is the transpose of the two weight
  matrices joined column-wise; the bias is the bias vector laid out as a row. The host line is read in two parts —
  the mean aggregation first, then the joins, the transpose and the reshape — and each part is the reference's own
  operations applied to equal values.
-/
import proofs.«101217_j35820027249494_1_alg».proof.Proof.KI.Shared

set_option maxRecDepth 16384
set_option maxHeartbeats 4000000

noncomputable section

namespace Cert.KernelIdeal.Hand

open Cert.KernelIdeal Cert.KernelIdeal.Gen Cert.ReferenceIdeal.Read
open Idealize.ShloMosaic Idealize.ShloMosaic.TcCoe Idealize.ShloMosaic.StableHlo
open Idealize.SL Idealize.SL.Sem

variable (m : (ℓ : Loc nD τ sig) → Buf (Elt Ideal) ℓ) (ρ : Dev nD → PrngReg)

theorem X2_below (c : Dev nD) (r : Ref sig .tc) (hr : r.idx.val < 21) : X2 m ρ c (Proc.devRef .tc r) = m ((c : Thread nD τ).loc r) := W2_below m ρ c r hr

/-- The contents after the mean aggregation is computed, before the joins. -/
def Y0 (c : Dev nD) : Valuation τ sig (Elt Ideal) := StableHlo.after (List.take 43 hostOps0_2) (X2 m ρ c)
theorem W3_split (c : Dev nD) : W3 m ρ c = StableHlo.after (List.drop 43 hostOps0_2) (Y0 m ρ c) := by
  unfold Y0 X2; exact StableHlo.after_take_drop 43 hostOps0_2 (W2 m ρ c)
theorem Y0_keep (c : Dev nD) (r : Ref sig .tc) (hr : r.idx.val < 41) : Y0 m ρ c (Proc.devRef .tc r) = X2 m ρ c (Proc.devRef .tc r) := by
  unfold Y0; exact StableHlo.after_below 41 _ _ (StableHlo.WritesFrom.take 41 43 _ hostOps0_2_from) r hr

/-- The mean aggregation. -/
theorem y0_mean (c : Dev nD)  : Y0 m ρ c (Proc.devRef .tc main_v45) = val_main_v45 (F := Ideal) (m ((c : Thread nD τ).loc main_arg0)) (m ((c : Thread nD τ).loc main_arg1)) := by
  unfold Y0
  simp only [hostOps0_2, List.take_succ_cons, List.take_zero]
  after_results_simp
  simp only [x2_v1 m ρ c, x2_v3 m ρ c, X2_below m ρ c main_arg0 (by decide)]
  simp only [val_main_v0, val_main_v1, val_main_v2, val_main_v3, val_main_c_7, val_main_v28, val_main_v29, val_main_c_8, val_main_v30, val_main_v31, val_main_v32, val_main_v33, val_main_v34, val_main_cst_9, val_main_v35, val_main_v36, val_main_v37, val_main_cst_10, val_main_v38, val_main_cst_11, val_main_v39, val_main_v40, val_main_v41, val_main_cst_12, val_main_v42, val_main_v43, val_main_v44, val_main_v45, val_main_cst, val_main_v4, val_main_cst_0, val_main_v5, val_main_v6, val_main_v7, val_main_cst_1, val_main_v8, val_main_v9, val_main_cst_2, val_main_v10, val_main_v11, val_main_cst_3, val_main_call0_v0, val_main_call0_v1, val_main_v12, val_main_c, val_main_v13, val_main_v14, val_main_c_4, val_main_v15, val_main_v16, val_main_v17, val_main_v18, val_main_v19, val_main_c_5, val_main_v20, val_main_v21, val_main_c_6, val_main_v22, val_main_v23, val_main_v24, val_main_v25, val_main_v26, val_main_v27]
  try rfl

/-- The feature array: the join of the mean aggregation with the layer's input. -/
theorem in0_x (c : Dev nD)  :
    V3 m ρ c main_v46 = concatenate S100000x22 1 [⟨S100000x11, val_main_v45 (F := Ideal) (m ((c : Thread nD τ).loc main_arg0)) (m ((c : Thread nD τ).loc main_arg1))⟩, ⟨S100000x11, (m ((c : Thread nD τ).loc main_arg0))⟩] concatenates_S100000x11_S100000x11_S100000x22_d1 := by
  show W3 m ρ c (Proc.devRef .tc main_v46) = _
  rw [W3_split]
  simp only [hostOps0_2, List.drop_succ_cons, List.drop_zero]
  after_results
  rw [y0_mean m ρ c , (Y0_keep m ρ c main_arg0 (by decide)).trans (X2_below m ρ c main_arg0 (by decide))]

/-- The weight. -/
theorem in0_w (c : Dev nD) :
    V3 m ρ c main_v48 = transpose S22x128 [1, 0] (concatenate S128x22 1 [⟨S128x11, (m ((c : Thread nD τ).loc main_arg2))⟩, ⟨S128x11, (m ((c : Thread nD τ).loc main_arg3))⟩] concatenates_S128x11_S128x11_S128x22_d1) transposes_S128x22_S22x128_1_0 := by
  show W3 m ρ c (Proc.devRef .tc main_v48) = _
  rw [W3_split]
  simp only [hostOps0_2, List.drop_succ_cons, List.drop_zero]
  after_results
  rw [(Y0_keep m ρ c main_arg2 (by decide)).trans (X2_below m ρ c main_arg2 (by decide)), (Y0_keep m ρ c main_arg3 (by decide)).trans (X2_below m ρ c main_arg3 (by decide))]

/-- The bias row. -/
theorem in0_b (c : Dev nD) :
    V3 m ρ c main_v49 = shapeCast S1x128 (m ((c : Thread nD τ).loc main_arg4)) shapeCasts_S128_S1x128 := by
  show W3 m ρ c (Proc.devRef .tc main_v49) = _
  rw [W3_split]
  simp only [hostOps0_2, List.drop_succ_cons, List.drop_zero]
  after_results
  rw [(Y0_keep m ρ c main_arg4 (by decide)).trans (X2_below m ρ c main_arg4 (by decide))]
  try rfl

end Cert.KernelIdeal.Hand

end
-- ==== Proof.LibDense.lean ====
/-
  Two general facts about a plain matrix product at the exact instance.

  A product of an [M, K] by a [K, N] operand that contracts the first operand's columns against the
  second's rows (no batch axis) has, at the output position (r, c), the operand positions (r, k) and
  (k, c) as k runs over the K contracted positions. So its sum over the contraction's index type is the
  sum over `Fin K` of the first operand at (r, k) times the second at (k, c) — the textbook entry of the
  product. Stated for any dimension record with those four index facts, so that a kernel's matrix unit
  and a host's dot product read the same way.
-/
import Idealize.ShloMosaic.Lib.ValueIdx
import Idealize.ShloMosaic.PureOps.Ideal.Laws

noncomputable section

namespace Cert.LibDense

open Idealize.ShloMosaic Idealize.ShloMosaic.ValueIdx

/-- A row of `K` extended reals against column `j` of a [K, N] matrix. -/
def dense {K N : ℕ} (x : Fin K → EReal) (W : (⟨2, ![K, N]⟩ : Shape).Idx → EReal) (j : Fin N) : EReal :=
  ∑ k : Fin K, x k * W (ix2 k j)

/-- The sum over a one-axis contraction of extent `K`, re-indexed by `Fin K`, when the operand positions are
    (row, k) and (k, column). -/
theorem sum_contr_plain {M K N : ℕ} (d : DotDims (⟨2, ![M, K]⟩ : Shape) (⟨2, ![K, N]⟩ : Shape) (⟨2, ![M, N]⟩ : Shape))
    (hr : d.contr.rank = 1) (hs : d.contr.size ⟨0, by omega⟩ = K)
    (j : (⟨2, ![M, N]⟩ : Shape).Idx)
    (hl0 : ∀ q, (d.lhsIdx j q 0).val = (j 0).val) (hl1 : ∀ q, (d.lhsIdx j q 1).val = (q ⟨0, by omega⟩).val)
    (hr0 : ∀ q, (d.rhsIdx j q 0).val = (q ⟨0, by omega⟩).val) (hr1 : ∀ q, (d.rhsIdx j q 1).val = (j 1).val)
    (l : (⟨2, ![M, K]⟩ : Shape).Idx → EReal) (r : (⟨2, ![K, N]⟩ : Shape).Idx → EReal) :
    ∑ q : d.contr.Idx, l (d.lhsIdx j q) * r (d.rhsIdx j q) = dense (fun k => l (ix2 (j 0) k)) r (j 1) := by
  unfold dense
  rw [← Equiv.sum_comp (contrEquiv1 d K hr hs).symm]
  refine Finset.sum_congr rfl fun k _ => ?_
  have hk := contrEquiv1_symm_val d K hr hs k
  have el : d.lhsIdx j ((contrEquiv1 d K hr hs).symm k) = ix2 (j 0) k := funext fun a => Fin.ext (by
    match a with
    | ⟨0, _⟩ => exact hl0 _
    | ⟨1, _⟩ => exact (hl1 _).trans hk)
  have er : d.rhsIdx j ((contrEquiv1 d K hr hs).symm k) = ix2 k (j 1) := funext fun a => Fin.ext (by
    match a with
    | ⟨0, _⟩ => exact (hr0 _).trans hk
    | ⟨1, _⟩ => exact hr1 _)
  rw [el, er]
  rfl

/-- The matrix unit's product into a zero accumulator, read at (r, c): the textbook entry. -/
theorem matmul_zero_plain {M K N : ℕ} {φ₁ φ₂ : FTy}
    (d : DotDims (⟨2, ![M, K]⟩ : Shape) (⟨2, ![K, N]⟩ : Shape) (⟨2, ![M, N]⟩ : Shape)) (prec : Option ContractPrecision)
    (hr : d.contr.rank = 1) (hs : d.contr.size ⟨0, by omega⟩ = K)
    (hl0 : ∀ j q, (d.lhsIdx j q 0).val = (j 0).val) (hl1 : ∀ j q, (d.lhsIdx j q 1).val = (q ⟨0, by omega⟩).val)
    (hr0 : ∀ j q, (d.rhsIdx j q 0).val = (q ⟨0, by omega⟩).val) (hr1 : ∀ j q, (d.rhsIdx j q 1).val = (j 1).val)
    (l : FVec Ideal (⟨2, ![M, K]⟩ : Shape) φ₁) (r : FVec Ideal (⟨2, ![K, N]⟩ : Shape) φ₂) (a : Fin M) (b : Fin N) :
    FloatOps.matmul d prec l r (constant (⟨2, ![M, N]⟩ : Shape) .f32 0x00000000#32) (ix2 a b)
      = dense (fun k => l (ix2 a k)) r b :=
  (Ideal.matmul_constant_zero_apply d prec l r (ix2 a b)).trans
    (sum_contr_plain d hr hs (ix2 a b) (hl0 _) (hl1 _) (hr0 _) (hr1 _) l r)

end Cert.LibDense

end
-- ==== Proof.LibDenseHost.lean ====
/-
  The host's matrix product, entry by entry.

  At the exact instance a host dot product of an [M, K] by a [K, N] operand, contracting the first operand's columns
  against the second's rows, has at (a, b) the textbook entry  ∑ k, l (a, k) · r (k, b)  — the same sum as the matrix
  unit's product into a zero accumulator. Stated for any dimension record with the four operand-position facts.
-/
import Idealize.ShloMosaic.Lib.ValueIdx
import Idealize.ShloMosaic.PureOps.Ideal.Laws
import proofs.«101217_j35820027249494_1_alg».proof.Proof.LibDense

noncomputable section

namespace Cert.LibDenseHost

open Idealize.ShloMosaic Idealize.ShloMosaic.ValueIdx Cert.LibDense

/-- The host's dot product of a plain [M, K] by [K, N] pair, read at (a, b): the textbook entry. -/
theorem dotGeneral_plain {M K N : ℕ} {φ₁ φ₂ : FTy}
    (d : DotDims (⟨2, ![M, K]⟩ : Shape) (⟨2, ![K, N]⟩ : Shape) (⟨2, ![M, N]⟩ : Shape)) (prec : Option ContractPrecision)
    (hr : d.contr.rank = 1) (hs : d.contr.size ⟨0, by omega⟩ = K)
    (hl0 : ∀ j q, (d.lhsIdx j q 0).val = (j 0).val) (hl1 : ∀ j q, (d.lhsIdx j q 1).val = (q ⟨0, by omega⟩).val)
    (hr0 : ∀ j q, (d.rhsIdx j q 0).val = (q ⟨0, by omega⟩).val) (hr1 : ∀ j q, (d.rhsIdx j q 1).val = (j 1).val)
    (l : FVec Ideal (⟨2, ![M, K]⟩ : Shape) φ₁) (r : FVec Ideal (⟨2, ![K, N]⟩ : Shape) φ₂) (a : Fin M) (b : Fin N) :
    Host.dotGeneral d prec l r (ix2 a b) = dense (fun k => l (ix2 a k)) r b := by
  simp only [Host.dotGeneral]
  rw [Ideal.dotGeneral_apply]
  exact sum_contr_plain d hr hs (ix2 a b) (hl0 _) (hl1 _) (hr0 _) (hr1 _) l r

end Cert.LibDenseHost

end
-- ==== Proof.LibPlainDense.lean ====
/-
  The dense stages of a graph-convolution network, as functions of whole arrays over the extended reals.

  Every stage of the network other than the edge aggregation is one of: a matrix product  x · W  of an
  [M, K] array with a [K, N] weight; the addition of a bias row to every row of an [M, N] array; a
  rectifier  max(·, 0)  or a hyperbolic tangent applied entry by entry. This file states them once, over
  any extents, and reads the two printed forms of each — a matrix unit's product of bf16-cast operands
  into a zero accumulator and a host dot product; a bias kept as a [1, N] row that the body broadcasts
  and a bias vector the host broadcasts twice — as the same function. At the exact instance a change of
  float format is the identity, so the casts disappear.
-/
import Idealize.ShloMosaic.Lib.ValueIdx
import Idealize.ShloMosaic.Lib.ValueLayout
import Idealize.ShloMosaic.Lib.Pipeline.Value
import Idealize.ShloMosaic.PureOps.Ideal.Laws
import proofs.«101217_j35820027249494_1_alg».proof.Proof.LibDense
import proofs.«101217_j35820027249494_1_alg».proof.Proof.LibDenseHost

noncomputable section

namespace Cert.Gcn

open Idealize.ShloMosaic Idealize.ShloMosaic.ValueIdx Idealize.ShloMosaic.Pipeline Cert.LibDense

/-- The matrix product, entry by entry: (x · w)(r, c) = ∑ₖ x(r, k) · w(k, c). -/
def mm {M K N : ℕ} (x : (⟨2, ![M, K]⟩ : Shape).Idx → EReal) (w : (⟨2, ![K, N]⟩ : Shape).Idx → EReal) :
    (⟨2, ![M, N]⟩ : Shape).Idx → EReal :=
  fun i => dense (fun k => x (ix2 (i 0) k)) w (i 1)

/-- A bias row added to every row. -/
def addRow {M N : ℕ} (a : (⟨2, ![M, N]⟩ : Shape).Idx → EReal) (b : (⟨2, ![1, N]⟩ : Shape).Idx → EReal) :
    (⟨2, ![M, N]⟩ : Shape).Idx → EReal :=
  fun i => a i + b (ix2 (0 : Fin 1) (i 1))

/-- The rectifier, entry by entry; its zero is the f32 zero word's value. -/
def relu {s : Shape} (a : s.Idx → EReal) : s.Idx → EReal :=
  fun i => max (a i) (Ideal.ofBits .f32 0x00000000#32)

/-- The hyperbolic tangent, entry by entry. -/
def tanhV {s : Shape} (a : s.Idx → EReal) : s.Idx → EReal :=
  fun i => Ideal.tanh (a i)

/-! ## The plain [M, K] × [K, N] contraction: where its operands sit -/

theorem plain_rank (M K N : ℕ) : (DotDims.plain M K N).contr.rank = 1 := rfl
theorem plain_size (M K N : ℕ) : (DotDims.plain M K N).contr.size ⟨0, Nat.one_pos⟩ = K := rfl

theorem plain_l0 {M K N : ℕ} (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_cons_self)]
  rfl

theorem plain_l1 {M K N : ℕ} (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q

theorem plain_r0 {M K N : ℕ} (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q

theorem plain_r1 {M K N : ℕ} (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_cons_self)]
  rfl

/-! ## The two printed forms of the product -/

/-- The matrix unit's product of bf16-cast operands into a zero accumulator is the product. -/
theorem matmul_eq_mm {M K N : ℕ} (x0 : FVec Ideal (⟨2, ![M, K]⟩ : Shape) .f32) (x1 : FVec Ideal (⟨2, ![K, N]⟩ : Shape) .f32)
    (h0 : FTy.bf16.bits < FTy.f32.bits) (h1 : FTy.bf16.bits < FTy.f32.bits) :
    matmul (DotDims.plain M K N) none (truncf .bf16 x0 h0) (truncf .bf16 x1 h1) (constant (⟨2, ![M, N]⟩ : Shape) .f32 0x00000000#32)
      = mm x0 x1 := by
  funext j
  obtain ⟨a, b, rfl⟩ : ∃ (a : Fin M) (b : Fin N), j = ix2 a b := ⟨j 0, j 1, eq_ix2 j⟩
  exact matmul_zero_plain (DotDims.plain M K N) none (plain_rank M K N) (plain_size M K N)
    plain_l0 plain_l1 plain_r0 plain_r1 (truncf .bf16 x0 h0) (truncf .bf16 x1 h1) a b

/-- The host's dot product is the product. -/
theorem dotGeneral_eq_mm {M K N : ℕ} (x0 : FVec Ideal (⟨2, ![M, K]⟩ : Shape) .f32) (x1 : FVec Ideal (⟨2, ![K, N]⟩ : Shape) .f32) :
    Host.dotGeneral (DotDims.plain M K N) none x0 x1 = mm x0 x1 := by
  funext j
  obtain ⟨a, b, rfl⟩ : ∃ (a : Fin M) (b : Fin N), j = ix2 a b := ⟨j 0, j 1, eq_ix2 j⟩
  exact Cert.LibDenseHost.dotGeneral_plain (DotDims.plain M K N) none (plain_rank M K N) (plain_size M K N)
    plain_l0 plain_l1 plain_r0 plain_r1 x0 x1 a b

/-! ## The two printed forms of the bias -/

/-- A bias row the body broadcasts over the rows. -/
theorem broadcastTo_row {M N : ℕ} (v : (⟨2, ![1, N]⟩ : Shape).Idx → EReal) (h : (⟨2, ![1, N]⟩ : Shape).Broadcasts ⟨2, ![M, N]⟩)
    (a : (⟨2, ![M, N]⟩ : Shape).Idx → EReal) :
    (fun i => a i + broadcastTo (⟨2, ![M, N]⟩ : Shape) v h i) = addRow a v := by
  funext j
  obtain ⟨p, c, rfl⟩ : ∃ (p : Fin M) (c : Fin N), j = ix2 p c := ⟨j 0, j 1, eq_ix2 j⟩
  show a (ix2 p c) + _ = a (ix2 p c) + _
  rw [broadcastTo_1b_ab_apply]
  rfl

/-- A bias vector laid out as a [1, N] row. -/
theorem shapeCast_row_apply {N : ℕ} (b : (⟨1, ![N]⟩ : Shape).Idx → EReal) (h : (⟨1, ![N]⟩ : Shape).ShapeCasts ⟨2, ![1, N]⟩) (c : Fin N) :
    shapeCast (⟨2, ![1, N]⟩ : Shape) b h (ix2 (0 : Fin 1) c) = b (ix1 c) :=
  shapeCast_a_1a_apply b h 0 c

/-- The host's two broadcasts of a bias vector, [N] to [1, N] to [M, N], added: the same as adding the row. -/
theorem host_bias {M N : ℕ} (b : (⟨1, ![N]⟩ : Shape).Idx → EReal)
    (d1 : Fin 1 → Fin 2) (hd1 : d1 0 = 1) (h1 : (⟨1, ![N]⟩ : Shape).BroadcastsInDim ⟨2, ![1, N]⟩ d1)
    (d2 : Fin 2 → Fin 2) (hd2 : ∀ a, d2 a = a) (h2 : (⟨2, ![1, N]⟩ : Shape).BroadcastsInDim ⟨2, ![M, N]⟩ d2)
    (hc : (⟨1, ![N]⟩ : Shape).ShapeCasts ⟨2, ![1, N]⟩)
    (a : (⟨2, ![M, N]⟩ : Shape).Idx → EReal) :
    (fun i => a i + broadcastInDim (⟨2, ![M, N]⟩ : Shape) d2 h2 (broadcastInDim (⟨2, ![1, N]⟩ : Shape) d1 h1 b) i)
      = addRow a (shapeCast (⟨2, ![1, N]⟩ : Shape) b hc) := by
  funext j
  obtain ⟨p, c, rfl⟩ : ∃ (p : Fin M) (c : Fin N), j = ix2 p c := ⟨j 0, j 1, eq_ix2 j⟩
  show a (ix2 p c) + _ = a (ix2 p c) + shapeCast (⟨2, ![1, N]⟩ : Shape) b hc (ix2 (0 : Fin 1) c)
  rw [shapeCast_row_apply]
  congr 1
  by_cases hN : N = 1
  · subst hN
    have hc0 : c = 0 := Subsingleton.elim _ _
    subst hc0
    rw [broadcastInDim_apply d2 h2 _ (ix2 p 0) (ix2 (0 : Fin 1) 0) (fun ax => by
        match ax with
        | ⟨0, _⟩ => rfl
        | ⟨1, _⟩ => rfl)]
    rw [broadcastInDim_apply d1 h1 b (ix2 (0 : Fin 1) 0) (ix1 0) (fun ax => by
        match ax with
        | ⟨0, _⟩ => rfl)]
  · rw [broadcastInDim_apply d2 h2 _ (ix2 p c) (ix2 (0 : Fin 1) c) (fun ax => by
        match ax with
        | ⟨0, _⟩ => rfl
        | ⟨1, _⟩ =>
          show c.val = if N = 1 then 0 else ((ix2 p c) (d2 1)).val
          rw [if_neg hN, hd2 1])]
    rw [broadcastInDim_apply d1 h1 b (ix2 (0 : Fin 1) c) (ix1 c) (fun ax => by
        match ax with
        | ⟨0, _⟩ =>
          show c.val = if N = 1 then 0 else ((ix2 (0 : Fin 1) c) (d1 0)).val
          rw [if_neg hN, hd1])]

/-! ## The host's forms of a biased array under each activation -/

/-- The host's rectified biased array: the bias vector broadcast twice and added, then the maximum with a broadcast zero. -/
theorem host_relu {M N : ℕ} (b : FVec Ideal (⟨1, ![N]⟩ : Shape) .f32)
    (d1 : Fin 1 → Fin 2) (hd1 : d1 0 = 1) (h1 : (⟨1, ![N]⟩ : Shape).BroadcastsInDim ⟨2, ![1, N]⟩ d1)
    (d2 : Fin 2 → Fin 2) (hd2 : ∀ a, d2 a = a) (h2 : (⟨2, ![1, N]⟩ : Shape).BroadcastsInDim ⟨2, ![M, N]⟩ d2)
    (hc : (⟨1, ![N]⟩ : Shape).ShapeCasts ⟨2, ![1, N]⟩)
    (d0 : Fin 0 → Fin 2) (h0 : (⟨0, ![]⟩ : Shape).BroadcastsInDim ⟨2, ![M, N]⟩ d0)
    (a : FVec Ideal (⟨2, ![M, N]⟩ : Shape) .f32) :
    maximumf (addf a (broadcastInDim (⟨2, ![M, N]⟩ : Shape) d2 h2 (broadcastInDim (⟨2, ![1, N]⟩ : Shape) d1 h1 b)))
        (broadcastInDim (⟨2, ![M, N]⟩ : Shape) d0 h0 (constant (F := Ideal) (⟨0, ![]⟩ : Shape) .f32 0x00000000#32))
      = relu (addRow a (shapeCast (⟨2, ![1, N]⟩ : Shape) b hc)) := by
  rw [← host_bias b d1 hd1 h1 d2 hd2 h2 hc a]
  rfl

/-- The host's biased array under the hyperbolic tangent. -/
theorem host_tanh {M N : ℕ} (b : FVec Ideal (⟨1, ![N]⟩ : Shape) .f32)
    (d1 : Fin 1 → Fin 2) (hd1 : d1 0 = 1) (h1 : (⟨1, ![N]⟩ : Shape).BroadcastsInDim ⟨2, ![1, N]⟩ d1)
    (d2 : Fin 2 → Fin 2) (hd2 : ∀ a, d2 a = a) (h2 : (⟨2, ![1, N]⟩ : Shape).BroadcastsInDim ⟨2, ![M, N]⟩ d2)
    (hc : (⟨1, ![N]⟩ : Shape).ShapeCasts ⟨2, ![1, N]⟩)
    (a : FVec Ideal (⟨2, ![M, N]⟩ : Shape) .f32) :
    Host.tanh (addf a (broadcastInDim (⟨2, ![M, N]⟩ : Shape) d2 h2 (broadcastInDim (⟨2, ![1, N]⟩ : Shape) d1 h1 b)))
      = tanhV (addRow a (shapeCast (⟨2, ![1, N]⟩ : Shape) b hc)) := by
  rw [← host_bias b d1 hd1 h1 d2 hd2 h2 hc a]
  rfl

/-- The host's biased array with no activation. -/
theorem host_plain {M N : ℕ} (b : FVec Ideal (⟨1, ![N]⟩ : Shape) .f32)
    (d1 : Fin 1 → Fin 2) (hd1 : d1 0 = 1) (h1 : (⟨1, ![N]⟩ : Shape).BroadcastsInDim ⟨2, ![1, N]⟩ d1)
    (d2 : Fin 2 → Fin 2) (hd2 : ∀ a, d2 a = a) (h2 : (⟨2, ![1, N]⟩ : Shape).BroadcastsInDim ⟨2, ![M, N]⟩ d2)
    (hc : (⟨1, ![N]⟩ : Shape).ShapeCasts ⟨2, ![1, N]⟩)
    (a : FVec Ideal (⟨2, ![M, N]⟩ : Shape) .f32) :
    addf a (broadcastInDim (⟨2, ![M, N]⟩ : Shape) d2 h2 (broadcastInDim (⟨2, ![1, N]⟩ : Shape) d1 h1 b))
      = addRow a (shapeCast (⟨2, ![1, N]⟩ : Shape) b hc) :=
  host_bias b d1 hd1 h1 d2 hd2 h2 hc a

end Cert.Gcn

end
-- ==== Proof.Spec.lean ====
/-
  A dense layer of the network as a function of whole arrays over the extended reals.

  Every layer is  act (x · w + b) : an [M, K] array of node features times a [K, N] weight, a bias row
  added to every row, and an activation entry by entry, which is the logistic function
  1 / (1 + e^(-a))  or the rectifier  max(a, 0).
-/
import proofs.«101217_j35820027249494_1_alg».proof.Proof.LibPlainDense

noncomputable section

namespace Cert.Gnn

open Idealize.ShloMosaic Cert.Gcn

/-- The logistic function, entry by entry. -/
def sigm {s : Shape} (a : s.Idx → EReal) : s.Idx → EReal :=
  fun i => Ideal.logistic (a i)

/-- A dense layer with the logistic activation: sigm (x · w + b). -/
def layerS {M K N : ℕ} (x : (⟨2, ![M, K]⟩ : Shape).Idx → EReal) (w : (⟨2, ![K, N]⟩ : Shape).Idx → EReal)
    (b : (⟨2, ![1, N]⟩ : Shape).Idx → EReal) : (⟨2, ![M, N]⟩ : Shape).Idx → EReal :=
  sigm (addRow (mm x w) b)

/-- A dense layer with the rectifier: relu (x · w + b). -/
def layerR {M K N : ℕ} (x : (⟨2, ![M, K]⟩ : Shape).Idx → EReal) (w : (⟨2, ![K, N]⟩ : Shape).Idx → EReal)
    (b : (⟨2, ![1, N]⟩ : Shape).Idx → EReal) : (⟨2, ![M, N]⟩ : Shape).Idx → EReal :=
  relu (addRow (mm x w) b)

end Cert.Gnn

end
-- ==== Proof.KPay.lean ====
/-
  Each kernel body's value is the dense layer of the network, and a dense layer commutes with a
  selection of rows.

  A kernel body reads a block x of node features, a weight w and a bias row b, and writes
  act (x' · w' + b), where x' and w' are x and w changed to a narrower float format, the product is
  accumulated from zero, the bias row is added to every row, and act is the logistic function or the
  maximum with zero. Over the extended reals a change of format is the identity, so the value written is
  the layer  act (x · w + b)  of the specification, for each of the eight bodies. A layer works row by
  row: the layer of an array whose rows are picked from another array is the same picking of rows from
  the layer of that array.
-/
import proofs.«101217_j35820027249494_1_alg».proof.Proof.Spec
import proofs.«101217_j35820027249494_1_alg».proof.Proof.Gen.KernelIdeal.Skeleton

noncomputable section

namespace Cert.Gnn.KPay

open Idealize.ShloMosaic Idealize.ShloMosaic.ValueIdx Idealize.ShloMosaic.Pipeline Cert.Gcn Cert.KernelIdeal

/-! ## The two forms a body takes, over any extents -/

/-- The product of the format-changed operands from a zero accumulator, plus the broadcast bias row,
    under the logistic function: the logistic layer. -/
theorem body_logistic {M K N : ℕ} (x : FVec Ideal (⟨2, ![M, K]⟩ : Shape) .f32) (w : FVec Ideal (⟨2, ![K, N]⟩ : Shape) .f32)
    (b : FVec Ideal (⟨2, ![1, N]⟩ : Shape) .f32) (d : DotDims ⟨2, ![M, K]⟩ ⟨2, ![K, N]⟩ ⟨2, ![M, N]⟩)
    (hd : d = DotDims.plain M K N) (h0 : FTy.bf16.bits < FTy.f32.bits) (h1 : FTy.bf16.bits < FTy.f32.bits)
    (hb : (⟨2, ![1, N]⟩ : Shape).Broadcasts ⟨2, ![M, N]⟩) :
    logistic (addf (matmul d none (truncf .bf16 x h0) (truncf .bf16 w h1) (constant (⟨2, ![M, N]⟩ : Shape) .f32 0x00000000#32))
        (broadcastTo (⟨2, ![M, N]⟩ : Shape) b hb))
      = layerS x w b := by
  subst hd
  rw [matmul_eq_mm]
  have hrow : addf (mm x w) (broadcastTo (⟨2, ![M, N]⟩ : Shape) b hb) = addRow (mm x w) b :=
    broadcastTo_row b hb (mm x w)
  rw [hrow]
  rfl

/-- The same sum under the maximum with a broadcast zero: the rectifier layer. -/
theorem body_rectifier {M K N : ℕ} (x : FVec Ideal (⟨2, ![M, K]⟩ : Shape) .f32) (w : FVec Ideal (⟨2, ![K, N]⟩ : Shape) .f32)
    (b : FVec Ideal (⟨2, ![1, N]⟩ : Shape) .f32) (d : DotDims ⟨2, ![M, K]⟩ ⟨2, ![K, N]⟩ ⟨2, ![M, N]⟩)
    (hd : d = DotDims.plain M K N) (h0 : FTy.bf16.bits < FTy.f32.bits) (h1 : FTy.bf16.bits < FTy.f32.bits)
    (hb : (⟨2, ![1, N]⟩ : Shape).Broadcasts ⟨2, ![M, N]⟩) :
    maximumf (addf (matmul d none (truncf .bf16 x h0) (truncf .bf16 w h1) (constant (⟨2, ![M, N]⟩ : Shape) .f32 0x00000000#32))
        (broadcastTo (⟨2, ![M, N]⟩ : Shape) b hb))
        (broadcast (⟨2, ![M, N]⟩ : Shape) (Scalar.ofBits (F := Ideal) .f32 0x00000000#32))
      = layerR x w b := by
  subst hd
  rw [matmul_eq_mm]
  have hrow : addf (mm x w) (broadcastTo (⟨2, ![M, N]⟩ : Shape) b hb) = addRow (mm x w) b :=
    broadcastTo_row b hb (mm x w)
  rw [hrow]
  rfl

/-! ## The eight bodies -/

/-- The first body writes the logistic layer of a [5000, 22] block with a [22, 128] weight. -/
theorem pay0 (v0 : Vec Ideal S5000x22 .f32) (v3 : Vec Ideal S22x128 .f32) (v7 : Vec Ideal S1x128 .f32) :
    Gen.k0_pay1 (F := Ideal) v0 v3 v7 = layerS v0 v3 v7 := by
  unfold Gen.k0_pay1
  simp only [shapeCast_self]
  exact body_logistic v0 v3 v7 dot_S5000x22_S22x128_S5000x128_1_0_0_1_n_n rfl _ _ _

/-- The second body writes the logistic layer of a [5000, 256] block with a [256, 128] weight. -/
theorem pay1 (v0 : Vec Ideal S5000x256 .f32) (v3 : Vec Ideal S256x128 .f32) (v7 : Vec Ideal S1x128 .f32) :
    Gen.k1_pay1 (F := Ideal) v0 v3 v7 = layerS v0 v3 v7 := by
  unfold Gen.k1_pay1
  simp only [shapeCast_self]
  exact body_logistic v0 v3 v7 dot_S5000x256_S256x128_S5000x128_1_0_0_1_n_n rfl _ _ _

/-- The third body writes the rectifier layer of a [5000, 256] block with a [256, 1] weight. -/
theorem pay2 (v0 : Vec Ideal S5000x256 .f32) (v3 : Vec Ideal S256x1 .f32) (v7 : Vec Ideal S1x1 .f32) :
    Gen.k2_pay1 (F := Ideal) v0 v3 v7 = layerR v0 v3 v7 := by
  unfold Gen.k2_pay1
  simp only [shapeCast_self]
  exact body_rectifier v0 v3 v7 dot_S5000x256_S256x1_S5000x1_1_0_0_1_n_n rfl _ _ _

/-- The fourth body writes the logistic layer of a [5000, 44] block with a [44, 8] weight. -/
theorem pay3 (v0 : Vec Ideal S5000x44 .f32) (v3 : Vec Ideal S44x8 .f32) (v7 : Vec Ideal S1x8 .f32) :
    Gen.k3_pay1 (F := Ideal) v0 v3 v7 = layerS v0 v3 v7 := by
  unfold Gen.k3_pay1
  simp only [shapeCast_self]
  exact body_logistic v0 v3 v7 dot_S5000x44_S44x8_S5000x8_1_0_0_1_n_n rfl _ _ _

/-- The fifth body writes the rectifier layer of a [5000, 32] block with a [32, 1] weight. -/
theorem pay4 (v0 : Vec Ideal S5000x32 .f32) (v3 : Vec Ideal S32x1 .f32) (v7 : Vec Ideal S1x1 .f32) :
    Gen.k4_pay1 (F := Ideal) v0 v3 v7 = layerR v0 v3 v7 := by
  unfold Gen.k4_pay1
  simp only [shapeCast_self]
  exact body_rectifier v0 v3 v7 dot_S5000x32_S32x1_S5000x1_1_0_0_1_n_n rfl _ _ _

/-- The sixth body writes the logistic layer of a [5000, 77] block with a [77, 8] weight. -/
theorem pay5 (v0 : Vec Ideal S5000x77 .f32) (v3 : Vec Ideal S77x8 .f32) (v7 : Vec Ideal S1x8 .f32) :
    Gen.k5_pay1 (F := Ideal) v0 v3 v7 = layerS v0 v3 v7 := by
  unfold Gen.k5_pay1
  simp only [shapeCast_self]
  exact body_logistic v0 v3 v7 dot_S5000x77_S77x8_S5000x8_1_0_0_1_n_n rfl _ _ _

/-- The seventh body writes the rectifier layer of a [5000, 56] block with a [56, 1] weight. -/
theorem pay6 (v0 : Vec Ideal S5000x56 .f32) (v3 : Vec Ideal S56x1 .f32) (v7 : Vec Ideal S1x1 .f32) :
    Gen.k6_pay1 (F := Ideal) v0 v3 v7 = layerR v0 v3 v7 := by
  unfold Gen.k6_pay1
  simp only [shapeCast_self]
  exact body_rectifier v0 v3 v7 dot_S5000x56_S56x1_S5000x1_1_0_0_1_n_n rfl _ _ _

/-- The eighth body writes the rectifier layer of a [5000, 3] block with a [3, 1] weight. -/
theorem pay7 (v0 : Vec Ideal S5000x3 .f32) (v3 : Vec Ideal S3x1 .f32) (v7 : Vec Ideal S1x1 .f32) :
    Gen.k7_pay1 (F := Ideal) v0 v3 v7 = layerR v0 v3 v7 := by
  unfold Gen.k7_pay1
  simp only [shapeCast_self]
  exact body_rectifier v0 v3 v7 dot_S5000x3_S3x1_S5000x1_1_0_0_1_n_n rfl _ _ _

/-! ## A layer works row by row -/

/-- The logistic layer of an array of selected rows is the same selection of rows of the layer. -/
theorem layerS_rows {M T K N : ℕ} (x : (⟨2, ![M, K]⟩ : Shape).Idx → EReal) (w : (⟨2, ![K, N]⟩ : Shape).Idx → EReal)
    (b : (⟨2, ![1, N]⟩ : Shape).Idx → EReal) (ρ : Fin T → Fin M) :
    layerS (fun y : (⟨2, ![T, K]⟩ : Shape).Idx => x (ix2 (ρ (y 0)) (y 1))) w b
      = fun y => layerS x w b (ix2 (ρ (y 0)) (y 1)) := by
  funext y
  rfl

/-- The rectifier layer of an array of selected rows is the same selection of rows of the layer. -/
theorem layerR_rows {M T K N : ℕ} (x : (⟨2, ![M, K]⟩ : Shape).Idx → EReal) (w : (⟨2, ![K, N]⟩ : Shape).Idx → EReal)
    (b : (⟨2, ![1, N]⟩ : Shape).Idx → EReal) (ρ : Fin T → Fin M) :
    layerR (fun y : (⟨2, ![T, K]⟩ : Shape).Idx => x (ix2 (ρ (y 0)) (y 1))) w b
      = fun y => layerR x w b (ix2 (ρ (y 0)) (y 1)) := by
  funext y
  rfl

end Cert.Gnn.KPay

end
-- ==== Proof.KI.Value0.lean ====
/-
  Dense layer 0 as one function of whole arrays. At a grid point the pipeline writes back the layer's payload
  of the point's blocks: rows 5000·t … 5000·t + 4999 of the feature array, the whole weight, the whole bias
  row. The payload is the layer function, and the layer of a block of rows is the block of the layer, so the
  point writes back its row block of the layer of the whole arrays. The twenty blocks cover the result array,
  which therefore ends at the layer of the three arrays as the region found them.
-/
import proofs.«101217_j35820027249494_1_alg».proof.Proof.KI.Region0
import proofs.«101217_j35820027249494_1_alg».proof.Proof.KPay
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz0 : (![0, 0] : Fin 2 → Nat) = fun _ => 0 := funext fun a => by fin_cases a <;> rfl

/-- The printed index maps over the grid: the feature and result windows move down the rows with the point, the
    weight and the bias stay. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row `r` of block `t` is row 5000·t + r of the array. -/
def row0 (t : Fin cfg0.N) (r : Fin 5000) : Fin 100000 := ⟨t.val * 5000 + r.val, by
  have ht : t.val < 20 := lt_of_lt_of_eq t.isLt N_0
  have hr := r.isLt; omega⟩

/-- The feature window's block at a point: the rows of the block, every column. -/
theorem iblk0_0_eq (c : Dev nD) (t : Fin cfg0.N) :
    (iblk0 V c 0 t : S5000x22.Idx → EReal) = fun y => (V c main_v46 : S100000x22.Idx → EReal) (ix2 (row0 t (y 0)) (y 1)) := by
  obtain ⟨e0, e1, -, -, -, -, -, -⟩ := idx_facts0 t
  funext y
  show (V c main_v46 : S100000x22.Idx → EReal) (((cfg0.win 0).blk t).view.emb y) = _
  refine congrArg _ (funext fun a => Fin.ext ?_)
  match a with
  | ⟨0, _⟩ => show win0_0.index t (0 : Fin 2) * 5000 + 1 * (y 0).val = t.val * 5000 + (y 0).val; omega
  | ⟨1, _⟩ => show win0_0.index t (1 : Fin 2) * 22 + 1 * (y 1).val = (y 1).val; omega

/-- The weight window's block at a point is the whole weight. -/
theorem iblk0_1_eq (c : Dev nD) (t : Fin cfg0.N) :
    (iblk0 V c 1 t : S22x128.Idx → EReal) = (V c main_v48 : S22x128.Idx → EReal) := by
  obtain ⟨-, -, e0, e1, -, -, -, -⟩ := idx_facts0 t
  funext y
  show (V c main_v48 : S22x128.Idx → EReal) (((cfg0.win 1).blk t).view.emb y) = _
  refine congrArg _ (funext fun a => Fin.ext ?_)
  match a with
  | ⟨0, _⟩ => show win0_1.index t (0 : Fin 2) * 22 + 1 * (y 0).val = (y 0).val; omega
  | ⟨1, _⟩ => show win0_1.index t (1 : Fin 2) * 128 + 1 * (y 1).val = (y 1).val; omega

/-- The bias window's block at a point is the whole bias row. -/
theorem iblk0_2_eq (c : Dev nD) (t : Fin cfg0.N) :
    (iblk0 V c 2 t : S1x128.Idx → EReal) = (V c main_v49 : S1x128.Idx → EReal) := by
  obtain ⟨-, -, -, -, e0, e1, -, -⟩ := idx_facts0 t
  funext y
  show (V c main_v49 : S1x128.Idx → EReal) (((cfg0.win 2).blk t).view.emb y) = _
  refine congrArg _ (funext fun a => Fin.ext ?_)
  match a with
  | ⟨0, _⟩ => show win0_2.index t (0 : Fin 2) * 1 + 1 * (y 0).val = (y 0).val; omega
  | ⟨1, _⟩ => show win0_2.index t (1 : Fin 2) * 128 + 1 * (y 1).val = (y 1).val; omega

/-- The layer of the three arrays as the region finds them. -/
def G0 (c : Dev nD) : S100000x128.Idx → EReal :=
  Cert.Gnn.layerS (V c main_v46 : S100000x22.Idx → EReal) (V c main_v48 : S22x128.Idx → EReal) (V c main_v49 : S1x128.Idx → EReal)

/-- What point `t` writes back is its row block of the layer of the whole arrays. -/
theorem flushed0_eq (c : Dev nD) (t : Fin cfg0.N) :
    (dat0 V c).flushed 3 t = ((cfg0.win 3).blk t).view.read (Elt Ideal) (G0 V c) := by
  show (cfg0.win 3).cut (grid0.coords t) ((dat0 V c).after 3 t) = _
  rw [after0_3]
  unfold out0_3
  rw [View.canon_unit_zero hz0]
  simp only [View.ld_unit_zero (S := S5000x22) hz0, View.ld_unit_zero (S := S22x128) hz0, View.ld_unit_zero (S := S1x128) hz0]
  rw [Cert.Gnn.KPay.pay0, iblk0_0_eq, iblk0_1_eq, iblk0_2_eq]
  show (Cert.Gnn.layerS (fun y : S5000x22.Idx => (V c main_v46 : S100000x22.Idx → EReal) (ix2 (row0 t (y 0)) (y 1)))
      (V c main_v48 : S22x128.Idx → EReal) (V c main_v49 : S1x128.Idx → EReal) : S5000x128.Idx → EReal)
    = fun y : S5000x128.Idx => G0 V c (((cfg0.win 3).blk t).view.emb y)
  rw [Cert.Gnn.KPay.layerS_rows]
  obtain ⟨-, -, -, -, -, -, e0, e1⟩ := idx_facts0 t
  funext y
  unfold G0
  refine congrArg _ (funext fun a => Fin.ext ?_)
  match a with
  | ⟨0, _⟩ => show t.val * 5000 + (y 0).val = win0_3.index t (0 : Fin 2) * 5000 + 1 * (y 0).val; omega
  | ⟨1, _⟩ => show (y 1).val = win0_3.index t (1 : Fin 2) * 128 + 1 * (y 1).val; omega

/-- An index of the result array is in point `t`'s block iff each coordinate is in the block's range. -/
theorem mem_blk0 (t : Fin cfg0.N) (i : S100000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v50).slice (win0_3.rect t)).set ↔ _
  rw [View.set_slice_whole, Rect.mem_set_unit]
  exact Iff.rfl

/-- Every index of the result array is in the block of the point that its row falls in. -/
theorem cover0 (i : S100000x128.Idx) : ∃ t : Fin cfg0.N, (cfg0.win 3).flush t = true ∧ i ∈ ((cfg0.win 3).blk t).view.set := by
  have hi0 : (i 0).val < 100000 := (i 0).isLt
  have hi1 : (i 1).val < 128 := (i 1).isLt
  have hN : cfg0.N = 20 := N_0
  let t : Fin cfg0.N := ⟨(i 0).val / 5000, by rw [hN]; omega⟩
  obtain ⟨-, -, -, -, -, -, e0, e1⟩ := idx_facts0 t
  refine ⟨t, flush0_3 t, ?_⟩
  rw [mem_blk0]
  intro a
  have ht : t.val = (i 0).val / 5000 := rfl
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 128 ≤ (i 1).val ∧ (i 1).val < win0_3.index t (1 : Fin 2) * 128 + 128; omega

/-- The result array after the pipeline is the layer of the three arrays as the region found them. -/
theorem final0 (c : Dev nD) : (dat0 V c).arrAt 3 cfg0.N = G0 V c :=
  (dat0 V c).arrAt_eq_of_cover 3 (G0 V c) (fun t _ => flushed0_eq V c t) (cover0)

end Cert.KernelIdeal.Hand

end
-- ==== Proof.KI.In1.lean ====
/-
  The three arrays dense layer 1's pipeline is entered with, against the reference's stages: the feature array
  is the mean aggregation joined column-wise with the layer's input; the weight is the transpose of the two weight
  matrices joined column-wise; the bias is the bias vector laid out as a row. The host line is read in two parts —
  the mean aggregation first, then the joins, the transpose and the reshape — and each part is the reference's own
  operations applied to equal values.
-/
import proofs.«101217_j35820027249494_1_alg».proof.Proof.KI.Shared

set_option maxRecDepth 16384
set_option maxHeartbeats 4000000

noncomputable section

namespace Cert.KernelIdeal.Hand

open Cert.KernelIdeal Cert.KernelIdeal.Gen Cert.ReferenceIdeal.Read
open Idealize.ShloMosaic Idealize.ShloMosaic.TcCoe Idealize.ShloMosaic.StableHlo
open Idealize.SL Idealize.SL.Sem

variable (m : (ℓ : Loc nD τ sig) → Buf (Elt Ideal) ℓ) (ρ : Dev nD → PrngReg)

/-- The contents after the mean aggregation is computed, before the joins. -/
def Y1 (c : Dev nD) : Valuation τ sig (Elt Ideal) := StableHlo.after (List.take 15 hostOps1) (W4 m ρ c)
theorem W5_split (c : Dev nD) : W5 m ρ c = StableHlo.after (List.drop 15 hostOps1) (Y1 m ρ c) := by
  unfold Y1; exact StableHlo.after_take_drop 15 hostOps1 (W4 m ρ c)
theorem Y1_keep (c : Dev nD) (r : Ref sig .tc) (hr : r.idx.val < 89) : Y1 m ρ c (Proc.devRef .tc r) = W4 m ρ c (Proc.devRef .tc r) := by
  unfold Y1; exact StableHlo.after_below 89 _ _ (StableHlo.WritesFrom.take 89 15 _ hostOps1_from) r hr

/-- The mean aggregation. -/
theorem y1_mean (c : Dev nD) (h0 : W4 m ρ c (Proc.devRef .tc main_v50) = val_main_v59 (F := Ideal) (m ((c : Thread nD τ).loc main_arg0)) (m ((c : Thread nD τ).loc main_arg1)) (m ((c : Thread nD τ).loc main_arg2)) (m ((c : Thread nD τ).loc main_arg3)) (m ((c : Thread nD τ).loc main_arg4))) : Y1 m ρ c (Proc.devRef .tc main_v62) = val_main_v77 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  unfold Y1
  simp only [hostOps1, List.take_succ_cons, List.take_zero]
  after_results_simp
  simp only [h0, s4_v1 m ρ c, s4_v3 m ρ c, s4_v33 m ρ c]
  simp only [val_main_v0, val_main_v1, val_main_v2, val_main_v3, val_main_c_15, val_main_v60, val_main_v61, val_main_c_16, val_main_v62, val_main_v63, val_main_v64, val_main_v65, val_main_v66, val_main_cst_17, val_main_v67, val_main_v68, val_main_v69, val_main_cst_18, val_main_v70, val_main_cst_19, val_main_v71, val_main_v72, val_main_v73, val_main_cst_20, val_main_v74, val_main_v75, val_main_v76, val_main_v77, val_main_cst, val_main_v4, val_main_cst_0, val_main_v5, val_main_v6, val_main_v7, val_main_cst_1, val_main_v8, val_main_v9, val_main_cst_2, val_main_v10, val_main_v11, val_main_cst_3, val_main_call0_v0, val_main_call0_v1, val_main_v12, val_main_c, val_main_v13, val_main_v14, val_main_c_4, val_main_v15, val_main_v16, val_main_v17, val_main_v18, val_main_v19, val_main_c_5, val_main_v20, val_main_v21, val_main_c_6, val_main_v22, val_main_v23, val_main_v24, val_main_v25, val_main_v26, val_main_v27, val_main_cst_10, val_main_v38, val_main_cst_11, val_main_v39, val_main_v40, val_main_v41, val_main_cst_12, val_main_v42, val_main_v43]
  try rfl

/-- The feature array: the join of the mean aggregation with the layer's input. -/
theorem in1_x (c : Dev nD) (h0 : W4 m ρ c (Proc.devRef .tc main_v50) = val_main_v59 (F := Ideal) (m ((c : Thread nD τ).loc main_arg0)) (m ((c : Thread nD τ).loc main_arg1)) (m ((c : Thread nD τ).loc main_arg2)) (m ((c : Thread nD τ).loc main_arg3)) (m ((c : Thread nD τ).loc main_arg4))) :
    V5 m ρ c main_v63 = concatenate S100000x256 1 [⟨S100000x128, val_main_v77 (F := Ideal) (m ((c : Thread nD τ).loc main_arg0)) (m ((c : Thread nD τ).loc main_arg1)) (m ((c : Thread nD τ).loc main_arg2)) (m ((c : Thread nD τ).loc main_arg3)) (m ((c : Thread nD τ).loc main_arg4))⟩, ⟨S100000x128, val_main_v59 (F := Ideal) (m ((c : Thread nD τ).loc main_arg0)) (m ((c : Thread nD τ).loc main_arg1)) (m ((c : Thread nD τ).loc main_arg2)) (m ((c : Thread nD τ).loc main_arg3)) (m ((c : Thread nD τ).loc main_arg4))⟩] concatenates_S100000x128_S100000x128_S100000x256_d1 := by
  show W5 m ρ c (Proc.devRef .tc main_v63) = _
  rw [W5_split]
  simp only [hostOps1, List.drop_succ_cons, List.drop_zero]
  after_results
  rw [y1_mean m ρ c h0, (Y1_keep m ρ c main_v50 (by decide)).trans h0]

/-- The weight. -/
theorem in1_w (c : Dev nD) :
    V5 m ρ c main_v65 = transpose S256x128 [1, 0] (concatenate S128x256 1 [⟨S128x128, (m ((c : Thread nD τ).loc main_arg5))⟩, ⟨S128x128, (m ((c : Thread nD τ).loc main_arg6))⟩] concatenates_S128x128_S128x128_S128x256_d1) transposes_S128x256_S256x128_1_0 := by
  show W5 m ρ c (Proc.devRef .tc main_v65) = _
  rw [W5_split]
  simp only [hostOps1, List.drop_succ_cons, List.drop_zero]
  after_results
  rw [(Y1_keep m ρ c main_arg5 (by decide)).trans (W4_below m ρ c main_arg5 (by decide)), (Y1_keep m ρ c main_arg6 (by decide)).trans (W4_below m ρ c main_arg6 (by decide))]

/-- The bias row. -/
theorem in1_b (c : Dev nD) :
    V5 m ρ c main_v66 = shapeCast S1x128 (m ((c : Thread nD τ).loc main_arg7)) shapeCasts_S128_S1x128 := by
  show W5 m ρ c (Proc.devRef .tc main_v66) = _
  rw [W5_split]
  simp only [hostOps1, List.drop_succ_cons, List.drop_zero]
  after_results
  rw [(Y1_keep m ρ c main_arg7 (by decide)).trans (W4_below m ρ c main_arg7 (by decide))]
  try rfl

end Cert.KernelIdeal.Hand

end
-- ==== Proof.KI.Value1.lean ====
/-
  Dense layer 1 as one function of whole arrays. At a grid point the pipeline writes back the layer's payload
  of the point's blocks: rows 5000·t … 5000·t + 4999 of the feature array, the whole weight, the whole bias
  row. The payload is the layer function, and the layer of a block of rows is the block of the layer, so the
  point writes back its row block of the layer of the whole arrays. The twenty blocks cover the result array,
  which therefore ends at the layer of the three arrays as the region found them.
-/
import proofs.«101217_j35820027249494_1_alg».proof.Proof.KI.Region1
import proofs.«101217_j35820027249494_1_alg».proof.Proof.KPay
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz1 : (![0, 0] : Fin 2 → Nat) = fun _ => 0 := funext fun a => by fin_cases a <;> rfl

/-- The printed index maps over the grid: the feature and result windows move down the rows with the point, the
    weight and the bias stay. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Row `r` of block `t` is row 5000·t + r of the array. -/
def row1 (t : Fin cfg1.N) (r : Fin 5000) : Fin 100000 := ⟨t.val * 5000 + r.val, by
  have ht : t.val < 20 := lt_of_lt_of_eq t.isLt N_1
  have hr := r.isLt; omega⟩

/-- The feature window's block at a point: the rows of the block, every column. -/
theorem iblk1_0_eq (c : Dev nD) (t : Fin cfg1.N) :
    (iblk1 V c 0 t : S5000x256.Idx → EReal) = fun y => (V c main_v63 : S100000x256.Idx → EReal) (ix2 (row1 t (y 0)) (y 1)) := by
  obtain ⟨e0, e1, -, -, -, -, -, -⟩ := idx_facts1 t
  funext y
  show (V c main_v63 : S100000x256.Idx → EReal) (((cfg1.win 0).blk t).view.emb y) = _
  refine congrArg _ (funext fun a => Fin.ext ?_)
  match a with
  | ⟨0, _⟩ => show win1_0.index t (0 : Fin 2) * 5000 + 1 * (y 0).val = t.val * 5000 + (y 0).val; omega
  | ⟨1, _⟩ => show win1_0.index t (1 : Fin 2) * 256 + 1 * (y 1).val = (y 1).val; omega

/-- The weight window's block at a point is the whole weight. -/
theorem iblk1_1_eq (c : Dev nD) (t : Fin cfg1.N) :
    (iblk1 V c 1 t : S256x128.Idx → EReal) = (V c main_v65 : S256x128.Idx → EReal) := by
  obtain ⟨-, -, e0, e1, -, -, -, -⟩ := idx_facts1 t
  funext y
  show (V c main_v65 : S256x128.Idx → EReal) (((cfg1.win 1).blk t).view.emb y) = _
  refine congrArg _ (funext fun a => Fin.ext ?_)
  match a with
  | ⟨0, _⟩ => show win1_1.index t (0 : Fin 2) * 256 + 1 * (y 0).val = (y 0).val; omega
  | ⟨1, _⟩ => show win1_1.index t (1 : Fin 2) * 128 + 1 * (y 1).val = (y 1).val; omega

/-- The bias window's block at a point is the whole bias row. -/
theorem iblk1_2_eq (c : Dev nD) (t : Fin cfg1.N) :
    (iblk1 V c 2 t : S1x128.Idx → EReal) = (V c main_v66 : S1x128.Idx → EReal) := by
  obtain ⟨-, -, -, -, e0, e1, -, -⟩ := idx_facts1 t
  funext y
  show (V c main_v66 : S1x128.Idx → EReal) (((cfg1.win 2).blk t).view.emb y) = _
  refine congrArg _ (funext fun a => Fin.ext ?_)
  match a with
  | ⟨0, _⟩ => show win1_2.index t (0 : Fin 2) * 1 + 1 * (y 0).val = (y 0).val; omega
  | ⟨1, _⟩ => show win1_2.index t (1 : Fin 2) * 128 + 1 * (y 1).val = (y 1).val; omega

/-- The layer of the three arrays as the region finds them. -/
def G1 (c : Dev nD) : S100000x128.Idx → EReal :=
  Cert.Gnn.layerS (V c main_v63 : S100000x256.Idx → EReal) (V c main_v65 : S256x128.Idx → EReal) (V c main_v66 : S1x128.Idx → EReal)

/-- What point `t` writes back is its row block of the layer of the whole arrays. -/
theorem flushed1_eq (c : Dev nD) (t : Fin cfg1.N) :
    (dat1 V c).flushed 3 t = ((cfg1.win 3).blk t).view.read (Elt Ideal) (G1 V c) := by
  show (cfg1.win 3).cut (grid1.coords t) ((dat1 V c).after 3 t) = _
  rw [after1_3]
  unfold out1_3
  rw [View.canon_unit_zero hz1]
  simp only [View.ld_unit_zero (S := S5000x256) hz1, View.ld_unit_zero (S := S256x128) hz1, View.ld_unit_zero (S := S1x128) hz1]
  rw [Cert.Gnn.KPay.pay1, iblk1_0_eq, iblk1_1_eq, iblk1_2_eq]
  show (Cert.Gnn.layerS (fun y : S5000x256.Idx => (V c main_v63 : S100000x256.Idx → EReal) (ix2 (row1 t (y 0)) (y 1)))
      (V c main_v65 : S256x128.Idx → EReal) (V c main_v66 : S1x128.Idx → EReal) : S5000x128.Idx → EReal)
    = fun y : S5000x128.Idx => G1 V c (((cfg1.win 3).blk t).view.emb y)
  rw [Cert.Gnn.KPay.layerS_rows]
  obtain ⟨-, -, -, -, -, -, e0, e1⟩ := idx_facts1 t
  funext y
  unfold G1
  refine congrArg _ (funext fun a => Fin.ext ?_)
  match a with
  | ⟨0, _⟩ => show t.val * 5000 + (y 0).val = win1_3.index t (0 : Fin 2) * 5000 + 1 * (y 0).val; omega
  | ⟨1, _⟩ => show (y 1).val = win1_3.index t (1 : Fin 2) * 128 + 1 * (y 1).val; omega

/-- An index of the result array is in point `t`'s block iff each coordinate is in the block's range. -/
theorem mem_blk1 (t : Fin cfg1.N) (i : S100000x128.Idx) :
    i ∈ ((cfg1.win 3).blk t).view.set ↔ ∀ a : Fin 2, win1_3.index t a * S5000x128.size a ≤ (i a).val ∧ (i a).val < win1_3.index t a * S5000x128.size a + S5000x128.size a := by
  show i ∈ ((View.whole main_v67).slice (win1_3.rect t)).set ↔ _
  rw [View.set_slice_whole, Rect.mem_set_unit]
  exact Iff.rfl

/-- Every index of the result array is in the block of the point that its row falls in. -/
theorem cover1 (i : S100000x128.Idx) : ∃ t : Fin cfg1.N, (cfg1.win 3).flush t = true ∧ i ∈ ((cfg1.win 3).blk t).view.set := by
  have hi0 : (i 0).val < 100000 := (i 0).isLt
  have hi1 : (i 1).val < 128 := (i 1).isLt
  have hN : cfg1.N = 20 := N_1
  let t : Fin cfg1.N := ⟨(i 0).val / 5000, by rw [hN]; omega⟩
  obtain ⟨-, -, -, -, -, -, e0, e1⟩ := idx_facts1 t
  refine ⟨t, flush1_3 t, ?_⟩
  rw [mem_blk1]
  intro a
  have ht : t.val = (i 0).val / 5000 := rfl
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 128 ≤ (i 1).val ∧ (i 1).val < win1_3.index t (1 : Fin 2) * 128 + 128; omega

/-- The result array after the pipeline is the layer of the three arrays as the region found them. -/
theorem final1 (c : Dev nD) : (dat1 V c).arrAt 3 cfg1.N = G1 V c :=
  (dat1 V c).arrAt_eq_of_cover 3 (G1 V c) (fun t _ => flushed1_eq V c t) (cover1)

end Cert.KernelIdeal.Hand

end
-- ==== Proof.KI.In2.lean ====
/-
  The three arrays dense layer 2's pipeline is entered with, against the reference's stages: the feature array
  is the mean aggregation joined column-wise with the layer's input; the weight is the transpose of the two weight
  matrices joined column-wise; the bias is the bias vector laid out as a row. The host line is read in two parts —
  the mean aggregation first, then the joins, the transpose and the reshape — and each part is the reference's own
  operations applied to equal values.
-/
import proofs.«101217_j35820027249494_1_alg».proof.Proof.KI.Shared

set_option maxRecDepth 16384
set_option maxHeartbeats 4000000

noncomputable section

namespace Cert.KernelIdeal.Hand

open Cert.KernelIdeal Cert.KernelIdeal.Gen Cert.ReferenceIdeal.Read
open Idealize.ShloMosaic Idealize.ShloMosaic.TcCoe Idealize.ShloMosaic.StableHlo
open Idealize.SL Idealize.SL.Sem

variable (m : (ℓ : Loc nD τ sig) → Buf (Elt Ideal) ℓ) (ρ : Dev nD → PrngReg)

/-- The contents after the mean aggregation is computed, before the joins. -/
def Y2 (c : Dev nD) : Valuation τ sig (Elt Ideal) := StableHlo.after (List.take 15 hostOps2) (W6 m ρ c)
theorem W7_split (c : Dev nD) : W7 m ρ c = StableHlo.after (List.drop 15 hostOps2) (Y2 m ρ c) := by
  unfold Y2; exact StableHlo.after_take_drop 15 hostOps2 (W6 m ρ c)
theorem Y2_keep (c : Dev nD) (r : Ref sig .tc) (hr : r.idx.val < 109) : Y2 m ρ c (Proc.devRef .tc r) = W6 m ρ c (Proc.devRef .tc r) := by
  unfold Y2; exact StableHlo.after_below 109 _ _ (StableHlo.WritesFrom.take 109 15 _ hostOps2_from) r hr

/-- The mean aggregation. -/
theorem y2_mean (c : Dev nD) (h0 : W6 m ρ c (Proc.devRef .tc main_v67) = val_main_v91 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) : Y2 m ρ c (Proc.devRef .tc main_v79) = val_main_v109 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  unfold Y2
  simp only [hostOps2, List.take_succ_cons, List.take_zero]
  after_results_simp
  simp only [h0, s6_v1 m ρ c, s6_v3 m ρ c, s6_v33 m ρ c]
  simp only [val_main_v0, val_main_v1, val_main_v2, val_main_v3, val_main_c_23, val_main_v92, val_main_v93, val_main_c_24, val_main_v94, val_main_v95, val_main_v96, val_main_v97, val_main_v98, val_main_cst_25, val_main_v99, val_main_v100, val_main_v101, val_main_cst_26, val_main_v102, val_main_cst_27, val_main_v103, val_main_v104, val_main_v105, val_main_cst_28, val_main_v106, val_main_v107, val_main_v108, val_main_v109, val_main_cst, val_main_v4, val_main_cst_0, val_main_v5, val_main_v6, val_main_v7, val_main_cst_1, val_main_v8, val_main_v9, val_main_cst_2, val_main_v10, val_main_v11, val_main_cst_3, val_main_call0_v0, val_main_call0_v1, val_main_v12, val_main_c, val_main_v13, val_main_v14, val_main_c_4, val_main_v15, val_main_v16, val_main_v17, val_main_v18, val_main_v19, val_main_c_5, val_main_v20, val_main_v21, val_main_c_6, val_main_v22, val_main_v23, val_main_v24, val_main_v25, val_main_v26, val_main_v27, val_main_cst_10, val_main_v38, val_main_cst_11, val_main_v39, val_main_v40, val_main_v41, val_main_cst_12, val_main_v42, val_main_v43]
  try rfl

/-- The feature array: the join of the mean aggregation with the layer's input. -/
theorem in2_x (c : Dev nD) (h0 : W6 m ρ c (Proc.devRef .tc main_v67) = val_main_v91 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) :
    V7 m ρ c main_v80 = concatenate S100000x256 1 [⟨S100000x128, val_main_v109 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))⟩, ⟨S100000x128, val_main_v91 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))⟩] concatenates_S100000x128_S100000x128_S100000x256_d1 := by
  show W7 m ρ c (Proc.devRef .tc main_v80) = _
  rw [W7_split]
  simp only [hostOps2, List.drop_succ_cons, List.drop_zero]
  after_results
  rw [y2_mean m ρ c h0, (Y2_keep m ρ c main_v67 (by decide)).trans h0]

/-- The weight. -/
theorem in2_w (c : Dev nD) :
    V7 m ρ c main_v82 = transpose S256x1 [1, 0] (concatenate S1x256 1 [⟨S1x128, (m ((c : Thread nD τ).loc main_arg8))⟩, ⟨S1x128, (m ((c : Thread nD τ).loc main_arg9))⟩] concatenates_S1x128_S1x128_S1x256_d1) transposes_S1x256_S256x1_1_0 := by
  show W7 m ρ c (Proc.devRef .tc main_v82) = _
  rw [W7_split]
  simp only [hostOps2, List.drop_succ_cons, List.drop_zero]
  after_results
  rw [(Y2_keep m ρ c main_arg8 (by decide)).trans (W6_below m ρ c main_arg8 (by decide)), (Y2_keep m ρ c main_arg9 (by decide)).trans (W6_below m ρ c main_arg9 (by decide))]

/-- The bias row. -/
theorem in2_b (c : Dev nD) :
    V7 m ρ c main_v83 = shapeCast S1x1 (m ((c : Thread nD τ).loc main_arg10)) shapeCasts_S1_S1x1 := by
  show W7 m ρ c (Proc.devRef .tc main_v83) = _
  rw [W7_split]
  simp only [hostOps2, List.drop_succ_cons, List.drop_zero]
  after_results
  rw [(Y2_keep m ρ c main_arg10 (by decide)).trans (W6_below m ρ c main_arg10 (by decide))]
  try rfl

end Cert.KernelIdeal.Hand

end
-- ==== Proof.KI.Value2.lean ====
/-
  Dense layer 2 as one function of whole arrays. At a grid point the pipeline writes back the layer's payload
  of the point's blocks: rows 5000·t … 5000·t + 4999 of the feature array, the whole weight, the whole bias
  row. The payload is the layer function, and the layer of a block of rows is the block of the layer, so the
  point writes back its row block of the layer of the whole arrays. The twenty blocks cover the result array,
  which therefore ends at the layer of the three arrays as the region found them.
-/
import proofs.«101217_j35820027249494_1_alg».proof.Proof.KI.Region2
import proofs.«101217_j35820027249494_1_alg».proof.Proof.KPay
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl

/-- The printed index maps over the grid: the feature and result windows move down the rows with the point, the
    weight and the bias stay. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- Row `r` of block `t` is row 5000·t + r of the array. -/
def row2 (t : Fin cfg2.N) (r : Fin 5000) : Fin 100000 := ⟨t.val * 5000 + r.val, by
  have ht : t.val < 20 := lt_of_lt_of_eq t.isLt N_2
  have hr := r.isLt; omega⟩

/-- The feature window's block at a point: the rows of the block, every column. -/
theorem iblk2_0_eq (c : Dev nD) (t : Fin cfg2.N) :
    (iblk2 V c 0 t : S5000x256.Idx → EReal) = fun y => (V c main_v80 : S100000x256.Idx → EReal) (ix2 (row2 t (y 0)) (y 1)) := by
  obtain ⟨e0, e1, -, -, -, -, -, -⟩ := idx_facts2 t
  funext y
  show (V c main_v80 : S100000x256.Idx → EReal) (((cfg2.win 0).blk t).view.emb y) = _
  refine congrArg _ (funext fun a => Fin.ext ?_)
  match a with
  | ⟨0, _⟩ => show win2_0.index t (0 : Fin 2) * 5000 + 1 * (y 0).val = t.val * 5000 + (y 0).val; omega
  | ⟨1, _⟩ => show win2_0.index t (1 : Fin 2) * 256 + 1 * (y 1).val = (y 1).val; omega

/-- The weight window's block at a point is the whole weight. -/
theorem iblk2_1_eq (c : Dev nD) (t : Fin cfg2.N) :
    (iblk2 V c 1 t : S256x1.Idx → EReal) = (V c main_v82 : S256x1.Idx → EReal) := by
  obtain ⟨-, -, e0, e1, -, -, -, -⟩ := idx_facts2 t
  funext y
  show (V c main_v82 : S256x1.Idx → EReal) (((cfg2.win 1).blk t).view.emb y) = _
  refine congrArg _ (funext fun a => Fin.ext ?_)
  match a with
  | ⟨0, _⟩ => show win2_1.index t (0 : Fin 2) * 256 + 1 * (y 0).val = (y 0).val; omega
  | ⟨1, _⟩ => show win2_1.index t (1 : Fin 2) * 1 + 1 * (y 1).val = (y 1).val; omega

/-- The bias window's block at a point is the whole bias row. -/
theorem iblk2_2_eq (c : Dev nD) (t : Fin cfg2.N) :
    (iblk2 V c 2 t : S1x1.Idx → EReal) = (V c main_v83 : S1x1.Idx → EReal) := by
  obtain ⟨-, -, -, -, e0, e1, -, -⟩ := idx_facts2 t
  funext y
  show (V c main_v83 : S1x1.Idx → EReal) (((cfg2.win 2).blk t).view.emb y) = _
  refine congrArg _ (funext fun a => Fin.ext ?_)
  match a with
  | ⟨0, _⟩ => show win2_2.index t (0 : Fin 2) * 1 + 1 * (y 0).val = (y 0).val; omega
  | ⟨1, _⟩ => show win2_2.index t (1 : Fin 2) * 1 + 1 * (y 1).val = (y 1).val; omega

/-- The layer of the three arrays as the region finds them. -/
def G2 (c : Dev nD) : S100000x1.Idx → EReal :=
  Cert.Gnn.layerR (V c main_v80 : S100000x256.Idx → EReal) (V c main_v82 : S256x1.Idx → EReal) (V c main_v83 : S1x1.Idx → EReal)

/-- What point `t` writes back is its row block of the layer of the whole arrays. -/
theorem flushed2_eq (c : Dev nD) (t : Fin cfg2.N) :
    (dat2 V c).flushed 3 t = ((cfg2.win 3).blk t).view.read (Elt Ideal) (G2 V c) := by
  show (cfg2.win 3).cut (grid2.coords t) ((dat2 V c).after 3 t) = _
  rw [after2_3]
  unfold out2_3
  rw [View.canon_unit_zero hz2]
  simp only [View.ld_unit_zero (S := S5000x256) hz2, View.ld_unit_zero (S := S256x1) hz2, View.ld_unit_zero (S := S1x1) hz2]
  rw [Cert.Gnn.KPay.pay2, iblk2_0_eq, iblk2_1_eq, iblk2_2_eq]
  show (Cert.Gnn.layerR (fun y : S5000x256.Idx => (V c main_v80 : S100000x256.Idx → EReal) (ix2 (row2 t (y 0)) (y 1)))
      (V c main_v82 : S256x1.Idx → EReal) (V c main_v83 : S1x1.Idx → EReal) : S5000x1.Idx → EReal)
    = fun y : S5000x1.Idx => G2 V c (((cfg2.win 3).blk t).view.emb y)
  rw [Cert.Gnn.KPay.layerR_rows]
  obtain ⟨-, -, -, -, -, -, e0, e1⟩ := idx_facts2 t
  funext y
  unfold G2
  refine congrArg _ (funext fun a => Fin.ext ?_)
  match a with
  | ⟨0, _⟩ => show t.val * 5000 + (y 0).val = win2_3.index t (0 : Fin 2) * 5000 + 1 * (y 0).val; omega
  | ⟨1, _⟩ => show (y 1).val = win2_3.index t (1 : Fin 2) * 1 + 1 * (y 1).val; omega

/-- An index of the result array is in point `t`'s block iff each coordinate is in the block's range. -/
theorem mem_blk2 (t : Fin cfg2.N) (i : S100000x1.Idx) :
    i ∈ ((cfg2.win 3).blk t).view.set ↔ ∀ a : Fin 2, win2_3.index t a * S5000x1.size a ≤ (i a).val ∧ (i a).val < win2_3.index t a * S5000x1.size a + S5000x1.size a := by
  show i ∈ ((View.whole main_v84).slice (win2_3.rect t)).set ↔ _
  rw [View.set_slice_whole, Rect.mem_set_unit]
  exact Iff.rfl

/-- Every index of the result array is in the block of the point that its row falls in. -/
theorem cover2 (i : S100000x1.Idx) : ∃ t : Fin cfg2.N, (cfg2.win 3).flush t = true ∧ i ∈ ((cfg2.win 3).blk t).view.set := by
  have hi0 : (i 0).val < 100000 := (i 0).isLt
  have hi1 : (i 1).val < 1 := (i 1).isLt
  have hN : cfg2.N = 20 := N_2
  let t : Fin cfg2.N := ⟨(i 0).val / 5000, by rw [hN]; omega⟩
  obtain ⟨-, -, -, -, -, -, e0, e1⟩ := idx_facts2 t
  refine ⟨t, flush2_3 t, ?_⟩
  rw [mem_blk2]
  intro a
  have ht : t.val = (i 0).val / 5000 := rfl
  match a with
  | ⟨0, _⟩ => show win2_3.index t (0 : Fin 2) * 5000 ≤ (i 0).val ∧ (i 0).val < win2_3.index t (0 : Fin 2) * 5000 + 5000; omega
  | ⟨1, _⟩ => show win2_3.index t (1 : Fin 2) * 1 ≤ (i 1).val ∧ (i 1).val < win2_3.index t (1 : Fin 2) * 1 + 1; omega

/-- The result array after the pipeline is the layer of the three arrays as the region found them. -/
theorem final2 (c : Dev nD) : (dat2 V c).arrAt 3 cfg2.N = G2 V c :=
  (dat2 V c).arrAt_eq_of_cover 3 (G2 V c) (fun t _ => flushed2_eq V c t) (cover2)

end Cert.KernelIdeal.Hand

end
-- ==== Proof.KI.In3.lean ====
/-
  The three arrays dense layer 3's pipeline is entered with, against the reference's stages. The feature array is
  the join, column-wise, of the layer's input with its propagated copies (each a gather along the edges, a scaling
  by the edge normalisation and a scatter-addition into the nodes, applied to the copy before it); the host line is
  read in two parts — the propagated copies first, then the join and the two parameter arrays — and each part is
  the reference's own operations applied to equal values. The weight is the transposed weight matrix and the bias
  the bias vector laid out as a row.
-/
import proofs.«101217_j35820027249494_1_alg».proof.Proof.KI.Shared

set_option maxRecDepth 16384
set_option maxHeartbeats 4000000

noncomputable section

namespace Cert.KernelIdeal.Hand

open Cert.KernelIdeal Cert.KernelIdeal.Gen Cert.ReferenceIdeal.Read
open Idealize.ShloMosaic Idealize.ShloMosaic.TcCoe Idealize.ShloMosaic.StableHlo
open Idealize.SL Idealize.SL.Sem

variable (m : (ℓ : Loc nD τ sig) → Buf (Elt Ideal) ℓ) (ρ : Dev nD → PrngReg)

/-- The contents after the propagated copies are computed, before the join. -/
def Y3 (c : Dev nD) : Valuation τ sig (Elt Ideal) := StableHlo.after (List.take 48 hostOps3) (W8 m ρ c)
theorem W9_split (c : Dev nD) : W9 m ρ c = StableHlo.after (List.drop 48 hostOps3) (Y3 m ρ c) := by
  unfold Y3; exact StableHlo.after_take_drop 48 hostOps3 (W8 m ρ c)
/-- The first part writes only its own buffers. -/
theorem Y3_keep (c : Dev nD) (r : Ref sig .tc) (hr : r.idx.val < 129) : Y3 m ρ c (Proc.devRef .tc r) = W8 m ρ c (Proc.devRef .tc r) := by
  unfold Y3; exact StableHlo.after_below 129 _ _ (StableHlo.WritesFrom.take 129 48 _ hostOps3_from) r hr

/-- Propagated copy 1. -/
theorem y3_v97 (c : Dev nD)  : Y3 m ρ c (Proc.devRef .tc main_v97) = val_main_v131 (F := Ideal) (m ((c : Thread nD τ).loc main_arg0)) (m ((c : Thread nD τ).loc main_arg1)) := by
  unfold Y3
  simp only [hostOps3, List.take_succ_cons, List.take_zero]
  after_results_simp
  simp only [s8_v1 m ρ c, s8_v3 m ρ c, s8_v27 m ρ c, W8_below m ρ c main_arg0 (by decide), W8_below m ρ c main_arg11 (by decide), W8_below m ρ c main_arg12 (by decide)]
  simp only [val_main_v0, val_main_v1, val_main_v2, val_main_v3, val_main_cst, val_main_v4, val_main_cst_0, val_main_v5, val_main_v6, val_main_v7, val_main_cst_1, val_main_v8, val_main_v9, val_main_cst_2, val_main_v10, val_main_v11, val_main_cst_3, val_main_call0_v0, val_main_call0_v1, val_main_v12, val_main_c, val_main_v13, val_main_v14, val_main_c_4, val_main_v15, val_main_v16, val_main_v17, val_main_v18, val_main_v19, val_main_c_5, val_main_v20, val_main_v21, val_main_c_6, val_main_v22, val_main_v23, val_main_v24, val_main_v25, val_main_v26, val_main_v27, val_main_c_29, val_main_v119, val_main_v120, val_main_c_30, val_main_v121, val_main_v122, val_main_v123, val_main_v124, val_main_v125, val_main_v126, val_main_v127, val_main_v128, val_main_cst_31, val_main_v129, val_main_v130, val_main_v131, val_main_cst_10, val_main_v38, val_main_cst_11, val_main_v39, val_main_v40, val_main_v41, val_main_cst_12, val_main_v42, val_main_v43]
  try rfl

/-- Propagated copy 2. -/
theorem y3_v110 (c : Dev nD)  : Y3 m ρ c (Proc.devRef .tc main_v110) = val_main_v144 (F := Ideal) (m ((c : Thread nD τ).loc main_arg0)) (m ((c : Thread nD τ).loc main_arg1)) := by
  unfold Y3
  simp only [hostOps3, List.take_succ_cons, List.take_zero]
  after_results_simp
  simp only [s8_v1 m ρ c, s8_v3 m ρ c, s8_v27 m ρ c, W8_below m ρ c main_arg0 (by decide), W8_below m ρ c main_arg11 (by decide), W8_below m ρ c main_arg12 (by decide)]
  simp only [val_main_v0, val_main_v1, val_main_v2, val_main_v3, val_main_cst, val_main_v4, val_main_cst_0, val_main_v5, val_main_v6, val_main_v7, val_main_cst_1, val_main_v8, val_main_v9, val_main_cst_2, val_main_v10, val_main_v11, val_main_cst_3, val_main_call0_v0, val_main_call0_v1, val_main_v12, val_main_c, val_main_v13, val_main_v14, val_main_c_4, val_main_v15, val_main_v16, val_main_v17, val_main_v18, val_main_v19, val_main_c_5, val_main_v20, val_main_v21, val_main_c_6, val_main_v22, val_main_v23, val_main_v24, val_main_v25, val_main_v26, val_main_v27, val_main_c_29, val_main_v119, val_main_v120, val_main_c_30, val_main_v121, val_main_v122, val_main_v123, val_main_v124, val_main_v125, val_main_v126, val_main_v127, val_main_v128, val_main_cst_31, val_main_v129, val_main_v130, val_main_v131, val_main_c_32, val_main_v132, val_main_v133, val_main_c_33, val_main_v134, val_main_v135, val_main_v136, val_main_v137, val_main_v138, val_main_v139, val_main_v140, val_main_v141, val_main_cst_34, val_main_v142, val_main_v143, val_main_v144, val_main_cst_10, val_main_v38, val_main_cst_11, val_main_v39, val_main_v40, val_main_v41, val_main_cst_12, val_main_v42, val_main_v43]
  try rfl

/-- Propagated copy 3. -/
theorem y3_v123 (c : Dev nD)  : Y3 m ρ c (Proc.devRef .tc main_v123) = val_main_v157 (F := Ideal) (m ((c : Thread nD τ).loc main_arg0)) (m ((c : Thread nD τ).loc main_arg1)) := by
  unfold Y3
  simp only [hostOps3, List.take_succ_cons, List.take_zero]
  after_results_simp
  simp only [s8_v1 m ρ c, s8_v3 m ρ c, s8_v27 m ρ c, W8_below m ρ c main_arg0 (by decide), W8_below m ρ c main_arg11 (by decide), W8_below m ρ c main_arg12 (by decide)]
  simp only [val_main_v0, val_main_v1, val_main_v2, val_main_v3, val_main_cst, val_main_v4, val_main_cst_0, val_main_v5, val_main_v6, val_main_v7, val_main_cst_1, val_main_v8, val_main_v9, val_main_cst_2, val_main_v10, val_main_v11, val_main_cst_3, val_main_call0_v0, val_main_call0_v1, val_main_v12, val_main_c, val_main_v13, val_main_v14, val_main_c_4, val_main_v15, val_main_v16, val_main_v17, val_main_v18, val_main_v19, val_main_c_5, val_main_v20, val_main_v21, val_main_c_6, val_main_v22, val_main_v23, val_main_v24, val_main_v25, val_main_v26, val_main_v27, val_main_c_29, val_main_v119, val_main_v120, val_main_c_30, val_main_v121, val_main_v122, val_main_v123, val_main_v124, val_main_v125, val_main_v126, val_main_v127, val_main_v128, val_main_cst_31, val_main_v129, val_main_v130, val_main_v131, val_main_c_32, val_main_v132, val_main_v133, val_main_c_33, val_main_v134, val_main_v135, val_main_v136, val_main_v137, val_main_v138, val_main_v139, val_main_v140, val_main_v141, val_main_cst_34, val_main_v142, val_main_v143, val_main_v144, val_main_c_35, val_main_v145, val_main_v146, val_main_c_36, val_main_v147, val_main_v148, val_main_v149, val_main_v150, val_main_v151, val_main_v152, val_main_v153, val_main_v154, val_main_cst_37, val_main_v155, val_main_v156, val_main_v157, val_main_cst_10, val_main_v38, val_main_cst_11, val_main_v39, val_main_v40, val_main_v41, val_main_cst_12, val_main_v42, val_main_v43]
  try rfl

/-- The feature array: the join. -/
theorem in3_x (c : Dev nD)  :
    V9 m ρ c main_v124 = val_main_v158 (F := Ideal) (m ((c : Thread nD τ).loc main_arg0)) (m ((c : Thread nD τ).loc main_arg1)) := by
  show W9 m ρ c (Proc.devRef .tc main_v124) = _
  rw [W9_split]
  simp only [hostOps3, List.drop_succ_cons, List.drop_zero]
  after_results_simp
  show concatenate S100000x44 1 [⟨S100000x11, (Y3 m ρ c (Proc.devRef .tc main_arg0))⟩, ⟨S100000x11, (Y3 m ρ c (Proc.devRef .tc main_v97))⟩, ⟨S100000x11, (Y3 m ρ c (Proc.devRef .tc main_v110))⟩, ⟨S100000x11, (Y3 m ρ c (Proc.devRef .tc main_v123))⟩] concatenates_S100000x11_S100000x11_S100000x11_S100000x11_S100000x44_d1 = _
  rw [(Y3_keep m ρ c main_arg0 (by decide)).trans (W8_below m ρ c main_arg0 (by decide)), y3_v97 m ρ c, y3_v110 m ρ c, y3_v123 m ρ c]
  simp only [val_main_v158]
  try rfl

/-- The weight. -/
theorem in3_w (c : Dev nD) :
    V9 m ρ c main_v125 = transpose S44x8 [1, 0] (m ((c : Thread nD τ).loc main_arg11)) transposes_S8x44_S44x8_1_0 := by
  show StableHlo.after hostOps3 (W8 m ρ c) (Proc.devRef .tc main_v125) = _
  after_results_simp
  simp only [W8_below m ρ c main_arg0 (by decide), W8_below m ρ c main_arg11 (by decide), W8_below m ρ c main_arg12 (by decide)]
  try rfl

/-- The bias row. -/
theorem in3_b (c : Dev nD) :
    V9 m ρ c main_v126 = shapeCast S1x8 (m ((c : Thread nD τ).loc main_arg12)) shapeCasts_S8_S1x8 := by
  show StableHlo.after hostOps3 (W8 m ρ c) (Proc.devRef .tc main_v126) = _
  after_results_simp
  simp only [W8_below m ρ c main_arg0 (by decide), W8_below m ρ c main_arg11 (by decide), W8_below m ρ c main_arg12 (by decide)]
  try rfl

end Cert.KernelIdeal.Hand

end
-- ==== Proof.KI.Value3.lean ====
/-
  Dense layer 3 as one function of whole arrays. At a grid point the pipeline writes back the layer's payload
  of the point's blocks: rows 5000·t … 5000·t + 4999 of the feature array, the whole weight, the whole bias
  row. The payload is the layer function, and the layer of a block of rows is the block of the layer, so the
  point writes back its row block of the layer of the whole arrays. The twenty blocks cover the result array,
  which therefore ends at the layer of the three arrays as the region found them.
-/
import proofs.«101217_j35820027249494_1_alg».proof.Proof.KI.Region3
import proofs.«101217_j35820027249494_1_alg».proof.Proof.KPay
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz3 : (![0, 0] : Fin 2 → Nat) = fun _ => 0 := funext fun a => by fin_cases a <;> rfl

/-- The printed index maps over the grid: the feature and result windows move down the rows with the point, the
    weight and the bias stay. -/
theorem idx_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- Row `r` of block `t` is row 5000·t + r of the array. -/
def row3 (t : Fin cfg3.N) (r : Fin 5000) : Fin 100000 := ⟨t.val * 5000 + r.val, by
  have ht : t.val < 20 := lt_of_lt_of_eq t.isLt N_3
  have hr := r.isLt; omega⟩

/-- The feature window's block at a point: the rows of the block, every column. -/
theorem iblk3_0_eq (c : Dev nD) (t : Fin cfg3.N) :
    (iblk3 V c 0 t : S5000x44.Idx → EReal) = fun y => (V c main_v124 : S100000x44.Idx → EReal) (ix2 (row3 t (y 0)) (y 1)) := by
  obtain ⟨e0, e1, -, -, -, -, -, -⟩ := idx_facts3 t
  funext y
  show (V c main_v124 : S100000x44.Idx → EReal) (((cfg3.win 0).blk t).view.emb y) = _
  refine congrArg _ (funext fun a => Fin.ext ?_)
  match a with
  | ⟨0, _⟩ => show win3_0.index t (0 : Fin 2) * 5000 + 1 * (y 0).val = t.val * 5000 + (y 0).val; omega
  | ⟨1, _⟩ => show win3_0.index t (1 : Fin 2) * 44 + 1 * (y 1).val = (y 1).val; omega

/-- The weight window's block at a point is the whole weight. -/
theorem iblk3_1_eq (c : Dev nD) (t : Fin cfg3.N) :
    (iblk3 V c 1 t : S44x8.Idx → EReal) = (V c main_v125 : S44x8.Idx → EReal) := by
  obtain ⟨-, -, e0, e1, -, -, -, -⟩ := idx_facts3 t
  funext y
  show (V c main_v125 : S44x8.Idx → EReal) (((cfg3.win 1).blk t).view.emb y) = _
  refine congrArg _ (funext fun a => Fin.ext ?_)
  match a with
  | ⟨0, _⟩ => show win3_1.index t (0 : Fin 2) * 44 + 1 * (y 0).val = (y 0).val; omega
  | ⟨1, _⟩ => show win3_1.index t (1 : Fin 2) * 8 + 1 * (y 1).val = (y 1).val; omega

/-- The bias window's block at a point is the whole bias row. -/
theorem iblk3_2_eq (c : Dev nD) (t : Fin cfg3.N) :
    (iblk3 V c 2 t : S1x8.Idx → EReal) = (V c main_v126 : S1x8.Idx → EReal) := by
  obtain ⟨-, -, -, -, e0, e1, -, -⟩ := idx_facts3 t
  funext y
  show (V c main_v126 : S1x8.Idx → EReal) (((cfg3.win 2).blk t).view.emb y) = _
  refine congrArg _ (funext fun a => Fin.ext ?_)
  match a with
  | ⟨0, _⟩ => show win3_2.index t (0 : Fin 2) * 1 + 1 * (y 0).val = (y 0).val; omega
  | ⟨1, _⟩ => show win3_2.index t (1 : Fin 2) * 8 + 1 * (y 1).val = (y 1).val; omega

/-- The layer of the three arrays as the region finds them. -/
def G3 (c : Dev nD) : S100000x8.Idx → EReal :=
  Cert.Gnn.layerS (V c main_v124 : S100000x44.Idx → EReal) (V c main_v125 : S44x8.Idx → EReal) (V c main_v126 : S1x8.Idx → EReal)

/-- What point `t` writes back is its row block of the layer of the whole arrays. -/
theorem flushed3_eq (c : Dev nD) (t : Fin cfg3.N) :
    (dat3 V c).flushed 3 t = ((cfg3.win 3).blk t).view.read (Elt Ideal) (G3 V c) := by
  show (cfg3.win 3).cut (grid3.coords t) ((dat3 V c).after 3 t) = _
  rw [after3_3]
  unfold out3_3
  rw [View.canon_unit_zero hz3]
  simp only [View.ld_unit_zero (S := S5000x44) hz3, View.ld_unit_zero (S := S44x8) hz3, View.ld_unit_zero (S := S1x8) hz3]
  rw [Cert.Gnn.KPay.pay3, iblk3_0_eq, iblk3_1_eq, iblk3_2_eq]
  show (Cert.Gnn.layerS (fun y : S5000x44.Idx => (V c main_v124 : S100000x44.Idx → EReal) (ix2 (row3 t (y 0)) (y 1)))
      (V c main_v125 : S44x8.Idx → EReal) (V c main_v126 : S1x8.Idx → EReal) : S5000x8.Idx → EReal)
    = fun y : S5000x8.Idx => G3 V c (((cfg3.win 3).blk t).view.emb y)
  rw [Cert.Gnn.KPay.layerS_rows]
  obtain ⟨-, -, -, -, -, -, e0, e1⟩ := idx_facts3 t
  funext y
  unfold G3
  refine congrArg _ (funext fun a => Fin.ext ?_)
  match a with
  | ⟨0, _⟩ => show t.val * 5000 + (y 0).val = win3_3.index t (0 : Fin 2) * 5000 + 1 * (y 0).val; omega
  | ⟨1, _⟩ => show (y 1).val = win3_3.index t (1 : Fin 2) * 8 + 1 * (y 1).val; omega

/-- An index of the result array is in point `t`'s block iff each coordinate is in the block's range. -/
theorem mem_blk3 (t : Fin cfg3.N) (i : S100000x8.Idx) :
    i ∈ ((cfg3.win 3).blk t).view.set ↔ ∀ a : Fin 2, win3_3.index t a * S5000x8.size a ≤ (i a).val ∧ (i a).val < win3_3.index t a * S5000x8.size a + S5000x8.size a := by
  show i ∈ ((View.whole main_v127).slice (win3_3.rect t)).set ↔ _
  rw [View.set_slice_whole, Rect.mem_set_unit]
  exact Iff.rfl

/-- Every index of the result array is in the block of the point that its row falls in. -/
theorem cover3 (i : S100000x8.Idx) : ∃ t : Fin cfg3.N, (cfg3.win 3).flush t = true ∧ i ∈ ((cfg3.win 3).blk t).view.set := by
  have hi0 : (i 0).val < 100000 := (i 0).isLt
  have hi1 : (i 1).val < 8 := (i 1).isLt
  have hN : cfg3.N = 20 := N_3
  let t : Fin cfg3.N := ⟨(i 0).val / 5000, by rw [hN]; omega⟩
  obtain ⟨-, -, -, -, -, -, e0, e1⟩ := idx_facts3 t
  refine ⟨t, flush3_3 t, ?_⟩
  rw [mem_blk3]
  intro a
  have ht : t.val = (i 0).val / 5000 := rfl
  match a with
  | ⟨0, _⟩ => show win3_3.index t (0 : Fin 2) * 5000 ≤ (i 0).val ∧ (i 0).val < win3_3.index t (0 : Fin 2) * 5000 + 5000; omega
  | ⟨1, _⟩ => show win3_3.index t (1 : Fin 2) * 8 ≤ (i 1).val ∧ (i 1).val < win3_3.index t (1 : Fin 2) * 8 + 8; omega

/-- The result array after the pipeline is the layer of the three arrays as the region found them. -/
theorem final3 (c : Dev nD) : (dat3 V c).arrAt 3 cfg3.N = G3 V c :=
  (dat3 V c).arrAt_eq_of_cover 3 (G3 V c) (fun t _ => flushed3_eq V c t) (cover3)

end Cert.KernelIdeal.Hand

end
-- ==== Proof.KI.In4.lean ====
/-
  The three arrays dense layer 4's pipeline is entered with, against the reference's stages. The feature array is
  the join, column-wise, of the layer's input with its propagated copies (each a gather along the edges, a scaling
  by the edge normalisation and a scatter-addition into the nodes, applied to the copy before it); the host line is
  read in two parts — the propagated copies first, then the join and the two parameter arrays — and each part is
  the reference's own operations applied to equal values. The weight is the transposed weight matrix and the bias
  the bias vector laid out as a row.
-/
import proofs.«101217_j35820027249494_1_alg».proof.Proof.KI.Shared

set_option maxRecDepth 16384
set_option maxHeartbeats 4000000

noncomputable section

namespace Cert.KernelIdeal.Hand

open Cert.KernelIdeal Cert.KernelIdeal.Gen Cert.ReferenceIdeal.Read
open Idealize.ShloMosaic Idealize.ShloMosaic.TcCoe Idealize.ShloMosaic.StableHlo
open Idealize.SL Idealize.SL.Sem

variable (m : (ℓ : Loc nD τ sig) → Buf (Elt Ideal) ℓ) (ρ : Dev nD → PrngReg)

/-- The contents after the propagated copies are computed, before the join. -/
def Y4 (c : Dev nD) : Valuation τ sig (Elt Ideal) := StableHlo.after (List.take 48 hostOps4) (W10 m ρ c)
theorem W11_split (c : Dev nD) : W11 m ρ c = StableHlo.after (List.drop 48 hostOps4) (Y4 m ρ c) := by
  unfold Y4; exact StableHlo.after_take_drop 48 hostOps4 (W10 m ρ c)
/-- The first part writes only its own buffers. -/
theorem Y4_keep (c : Dev nD) (r : Ref sig .tc) (hr : r.idx.val < 181) : Y4 m ρ c (Proc.devRef .tc r) = W10 m ρ c (Proc.devRef .tc r) := by
  unfold Y4; exact StableHlo.after_below 181 _ _ (StableHlo.WritesFrom.take 181 48 _ hostOps4_from) r hr

/-- Propagated copy 1. -/
theorem y4_v140 (c : Dev nD) (h0 : W10 m ρ c (Proc.devRef .tc main_v127) = val_main_v169 (F := Ideal) (m ((c : Thread nD τ).loc main_arg0)) (m ((c : Thread nD τ).loc main_arg1)) (m ((c : Thread nD τ).loc main_arg11)) (m ((c : Thread nD τ).loc main_arg12))) : Y4 m ρ c (Proc.devRef .tc main_v140) = val_main_v182 (F := Ideal) (m ((c : Thread nD τ).loc main_arg0)) (m ((c : Thread nD τ).loc main_arg1)) (m ((c : Thread nD τ).loc main_arg11)) (m ((c : Thread nD τ).loc main_arg12)) := by
  unfold Y4
  simp only [hostOps4, List.take_succ_cons, List.take_zero]
  after_results_simp
  simp only [h0, s10_v1 m ρ c, s10_v3 m ρ c, s10_v27 m ρ c, W10_below m ρ c main_arg13 (by decide), W10_below m ρ c main_arg14 (by decide)]
  simp only [val_main_v0, val_main_v1, val_main_v2, val_main_v3, val_main_cst, val_main_v4, val_main_cst_0, val_main_v5, val_main_v6, val_main_v7, val_main_cst_1, val_main_v8, val_main_v9, val_main_cst_2, val_main_v10, val_main_v11, val_main_cst_3, val_main_call0_v0, val_main_call0_v1, val_main_v12, val_main_c, val_main_v13, val_main_v14, val_main_c_4, val_main_v15, val_main_v16, val_main_v17, val_main_v18, val_main_v19, val_main_c_5, val_main_v20, val_main_v21, val_main_c_6, val_main_v22, val_main_v23, val_main_v24, val_main_v25, val_main_v26, val_main_v27, val_main_c_40, val_main_v170, val_main_v171, val_main_c_41, val_main_v172, val_main_v173, val_main_v174, val_main_v175, val_main_v176, val_main_v177, val_main_v178, val_main_v179, val_main_cst_42, val_main_v180, val_main_v181, val_main_v182, val_main_cst_10, val_main_v38, val_main_cst_11, val_main_v39, val_main_v40, val_main_v41, val_main_cst_12, val_main_v42, val_main_v43]
  try rfl

/-- Propagated copy 2. -/
theorem y4_v153 (c : Dev nD) (h0 : W10 m ρ c (Proc.devRef .tc main_v127) = val_main_v169 (F := Ideal) (m ((c : Thread nD τ).loc main_arg0)) (m ((c : Thread nD τ).loc main_arg1)) (m ((c : Thread nD τ).loc main_arg11)) (m ((c : Thread nD τ).loc main_arg12))) : Y4 m ρ c (Proc.devRef .tc main_v153) = val_main_v195 (F := Ideal) (m ((c : Thread nD τ).loc main_arg0)) (m ((c : Thread nD τ).loc main_arg1)) (m ((c : Thread nD τ).loc main_arg11)) (m ((c : Thread nD τ).loc main_arg12)) := by
  unfold Y4
  simp only [hostOps4, List.take_succ_cons, List.take_zero]
  after_results_simp
  simp only [h0, s10_v1 m ρ c, s10_v3 m ρ c, s10_v27 m ρ c, W10_below m ρ c main_arg13 (by decide), W10_below m ρ c main_arg14 (by decide)]
  simp only [val_main_v0, val_main_v1, val_main_v2, val_main_v3, val_main_cst, val_main_v4, val_main_cst_0, val_main_v5, val_main_v6, val_main_v7, val_main_cst_1, val_main_v8, val_main_v9, val_main_cst_2, val_main_v10, val_main_v11, val_main_cst_3, val_main_call0_v0, val_main_call0_v1, val_main_v12, val_main_c, val_main_v13, val_main_v14, val_main_c_4, val_main_v15, val_main_v16, val_main_v17, val_main_v18, val_main_v19, val_main_c_5, val_main_v20, val_main_v21, val_main_c_6, val_main_v22, val_main_v23, val_main_v24, val_main_v25, val_main_v26, val_main_v27, val_main_c_40, val_main_v170, val_main_v171, val_main_c_41, val_main_v172, val_main_v173, val_main_v174, val_main_v175, val_main_v176, val_main_v177, val_main_v178, val_main_v179, val_main_cst_42, val_main_v180, val_main_v181, val_main_v182, val_main_c_43, val_main_v183, val_main_v184, val_main_c_44, val_main_v185, val_main_v186, val_main_v187, val_main_v188, val_main_v189, val_main_v190, val_main_v191, val_main_v192, val_main_cst_45, val_main_v193, val_main_v194, val_main_v195, val_main_cst_10, val_main_v38, val_main_cst_11, val_main_v39, val_main_v40, val_main_v41, val_main_cst_12, val_main_v42, val_main_v43]
  try rfl

/-- Propagated copy 3. -/
theorem y4_v166 (c : Dev nD) (h0 : W10 m ρ c (Proc.devRef .tc main_v127) = val_main_v169 (F := Ideal) (m ((c : Thread nD τ).loc main_arg0)) (m ((c : Thread nD τ).loc main_arg1)) (m ((c : Thread nD τ).loc main_arg11)) (m ((c : Thread nD τ).loc main_arg12))) : Y4 m ρ c (Proc.devRef .tc main_v166) = val_main_v208 (F := Ideal) (m ((c : Thread nD τ).loc main_arg0)) (m ((c : Thread nD τ).loc main_arg1)) (m ((c : Thread nD τ).loc main_arg11)) (m ((c : Thread nD τ).loc main_arg12)) := by
  unfold Y4
  simp only [hostOps4, List.take_succ_cons, List.take_zero]
  after_results_simp
  simp only [h0, s10_v1 m ρ c, s10_v3 m ρ c, s10_v27 m ρ c, W10_below m ρ c main_arg13 (by decide), W10_below m ρ c main_arg14 (by decide)]
  simp only [val_main_v0, val_main_v1, val_main_v2, val_main_v3, val_main_cst, val_main_v4, val_main_cst_0, val_main_v5, val_main_v6, val_main_v7, val_main_cst_1, val_main_v8, val_main_v9, val_main_cst_2, val_main_v10, val_main_v11, val_main_cst_3, val_main_call0_v0, val_main_call0_v1, val_main_v12, val_main_c, val_main_v13, val_main_v14, val_main_c_4, val_main_v15, val_main_v16, val_main_v17, val_main_v18, val_main_v19, val_main_c_5, val_main_v20, val_main_v21, val_main_c_6, val_main_v22, val_main_v23, val_main_v24, val_main_v25, val_main_v26, val_main_v27, val_main_c_40, val_main_v170, val_main_v171, val_main_c_41, val_main_v172, val_main_v173, val_main_v174, val_main_v175, val_main_v176, val_main_v177, val_main_v178, val_main_v179, val_main_cst_42, val_main_v180, val_main_v181, val_main_v182, val_main_c_43, val_main_v183, val_main_v184, val_main_c_44, val_main_v185, val_main_v186, val_main_v187, val_main_v188, val_main_v189, val_main_v190, val_main_v191, val_main_v192, val_main_cst_45, val_main_v193, val_main_v194, val_main_v195, val_main_c_46, val_main_v196, val_main_v197, val_main_c_47, val_main_v198, val_main_v199, val_main_v200, val_main_v201, val_main_v202, val_main_v203, val_main_v204, val_main_v205, val_main_cst_48, val_main_v206, val_main_v207, val_main_v208, val_main_cst_10, val_main_v38, val_main_cst_11, val_main_v39, val_main_v40, val_main_v41, val_main_cst_12, val_main_v42, val_main_v43]
  try rfl

/-- The feature array: the join. -/
theorem in4_x (c : Dev nD) (h0 : W10 m ρ c (Proc.devRef .tc main_v127) = val_main_v169 (F := Ideal) (m ((c : Thread nD τ).loc main_arg0)) (m ((c : Thread nD τ).loc main_arg1)) (m ((c : Thread nD τ).loc main_arg11)) (m ((c : Thread nD τ).loc main_arg12))) :
    V11 m ρ c main_v167 = val_main_v209 (F := Ideal) (m ((c : Thread nD τ).loc main_arg0)) (m ((c : Thread nD τ).loc main_arg1)) (m ((c : Thread nD τ).loc main_arg11)) (m ((c : Thread nD τ).loc main_arg12)) := by
  show W11 m ρ c (Proc.devRef .tc main_v167) = _
  rw [W11_split]
  simp only [hostOps4, List.drop_succ_cons, List.drop_zero]
  after_results_simp
  show concatenate S100000x32 1 [⟨S100000x8, (Y4 m ρ c (Proc.devRef .tc main_v127))⟩, ⟨S100000x8, (Y4 m ρ c (Proc.devRef .tc main_v140))⟩, ⟨S100000x8, (Y4 m ρ c (Proc.devRef .tc main_v153))⟩, ⟨S100000x8, (Y4 m ρ c (Proc.devRef .tc main_v166))⟩] concatenates_S100000x8_S100000x8_S100000x8_S100000x8_S100000x32_d1 = _
  rw [(Y4_keep m ρ c main_v127 (by decide)).trans h0, y4_v140 m ρ c h0, y4_v153 m ρ c h0, y4_v166 m ρ c h0]
  simp only [val_main_v209]
  try rfl

/-- The weight. -/
theorem in4_w (c : Dev nD) :
    V11 m ρ c main_v168 = transpose S32x1 [1, 0] (m ((c : Thread nD τ).loc main_arg13)) transposes_S1x32_S32x1_1_0 := by
  show StableHlo.after hostOps4 (W10 m ρ c) (Proc.devRef .tc main_v168) = _
  after_results_simp
  simp only [W10_below m ρ c main_arg13 (by decide), W10_below m ρ c main_arg14 (by decide)]
  try rfl

/-- The bias row. -/
theorem in4_b (c : Dev nD) :
    V11 m ρ c main_v169 = shapeCast S1x1 (m ((c : Thread nD τ).loc main_arg14)) shapeCasts_S1_S1x1 := by
  show StableHlo.after hostOps4 (W10 m ρ c) (Proc.devRef .tc main_v169) = _
  after_results_simp
  simp only [W10_below m ρ c main_arg13 (by decide), W10_below m ρ c main_arg14 (by decide)]
  try rfl

end Cert.KernelIdeal.Hand

end
-- ==== Proof.KI.Value4.lean ====
/-
  Dense layer 4 as one function of whole arrays. At a grid point the pipeline writes back the layer's payload
  of the point's blocks: rows 5000·t … 5000·t + 4999 of the feature array, the whole weight, the whole bias
  row. The payload is the layer function, and the layer of a block of rows is the block of the layer, so the
  point writes back its row block of the layer of the whole arrays. The twenty blocks cover the result array,
  which therefore ends at the layer of the three arrays as the region found them.
-/
import proofs.«101217_j35820027249494_1_alg».proof.Proof.KI.Region4
import proofs.«101217_j35820027249494_1_alg».proof.Proof.KPay
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz4 : (![0, 0] : Fin 2 → Nat) = fun _ => 0 := funext fun a => by fin_cases a <;> rfl

/-- The printed index maps over the grid: the feature and result windows move down the rows with the point, the
    weight and the bias stay. -/
theorem idx_facts4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

/-- Row `r` of block `t` is row 5000·t + r of the array. -/
def row4 (t : Fin cfg4.N) (r : Fin 5000) : Fin 100000 := ⟨t.val * 5000 + r.val, by
  have ht : t.val < 20 := lt_of_lt_of_eq t.isLt N_4
  have hr := r.isLt; omega⟩

/-- The feature window's block at a point: the rows of the block, every column. -/
theorem iblk4_0_eq (c : Dev nD) (t : Fin cfg4.N) :
    (iblk4 V c 0 t : S5000x32.Idx → EReal) = fun y => (V c main_v167 : S100000x32.Idx → EReal) (ix2 (row4 t (y 0)) (y 1)) := by
  obtain ⟨e0, e1, -, -, -, -, -, -⟩ := idx_facts4 t
  funext y
  show (V c main_v167 : S100000x32.Idx → EReal) (((cfg4.win 0).blk t).view.emb y) = _
  refine congrArg _ (funext fun a => Fin.ext ?_)
  match a with
  | ⟨0, _⟩ => show win4_0.index t (0 : Fin 2) * 5000 + 1 * (y 0).val = t.val * 5000 + (y 0).val; omega
  | ⟨1, _⟩ => show win4_0.index t (1 : Fin 2) * 32 + 1 * (y 1).val = (y 1).val; omega

/-- The weight window's block at a point is the whole weight. -/
theorem iblk4_1_eq (c : Dev nD) (t : Fin cfg4.N) :
    (iblk4 V c 1 t : S32x1.Idx → EReal) = (V c main_v168 : S32x1.Idx → EReal) := by
  obtain ⟨-, -, e0, e1, -, -, -, -⟩ := idx_facts4 t
  funext y
  show (V c main_v168 : S32x1.Idx → EReal) (((cfg4.win 1).blk t).view.emb y) = _
  refine congrArg _ (funext fun a => Fin.ext ?_)
  match a with
  | ⟨0, _⟩ => show win4_1.index t (0 : Fin 2) * 32 + 1 * (y 0).val = (y 0).val; omega
  | ⟨1, _⟩ => show win4_1.index t (1 : Fin 2) * 1 + 1 * (y 1).val = (y 1).val; omega

/-- The bias window's block at a point is the whole bias row. -/
theorem iblk4_2_eq (c : Dev nD) (t : Fin cfg4.N) :
    (iblk4 V c 2 t : S1x1.Idx → EReal) = (V c main_v169 : S1x1.Idx → EReal) := by
  obtain ⟨-, -, -, -, e0, e1, -, -⟩ := idx_facts4 t
  funext y
  show (V c main_v169 : S1x1.Idx → EReal) (((cfg4.win 2).blk t).view.emb y) = _
  refine congrArg _ (funext fun a => Fin.ext ?_)
  match a with
  | ⟨0, _⟩ => show win4_2.index t (0 : Fin 2) * 1 + 1 * (y 0).val = (y 0).val; omega
  | ⟨1, _⟩ => show win4_2.index t (1 : Fin 2) * 1 + 1 * (y 1).val = (y 1).val; omega

/-- The layer of the three arrays as the region finds them. -/
def G4 (c : Dev nD) : S100000x1.Idx → EReal :=
  Cert.Gnn.layerR (V c main_v167 : S100000x32.Idx → EReal) (V c main_v168 : S32x1.Idx → EReal) (V c main_v169 : S1x1.Idx → EReal)

/-- What point `t` writes back is its row block of the layer of the whole arrays. -/
theorem flushed4_eq (c : Dev nD) (t : Fin cfg4.N) :
    (dat4 V c).flushed 3 t = ((cfg4.win 3).blk t).view.read (Elt Ideal) (G4 V c) := by
  show (cfg4.win 3).cut (grid4.coords t) ((dat4 V c).after 3 t) = _
  rw [after4_3]
  unfold out4_3
  rw [View.canon_unit_zero hz4]
  simp only [View.ld_unit_zero (S := S5000x32) hz4, View.ld_unit_zero (S := S32x1) hz4, View.ld_unit_zero (S := S1x1) hz4]
  rw [Cert.Gnn.KPay.pay4, iblk4_0_eq, iblk4_1_eq, iblk4_2_eq]
  show (Cert.Gnn.layerR (fun y : S5000x32.Idx => (V c main_v167 : S100000x32.Idx → EReal) (ix2 (row4 t (y 0)) (y 1)))
      (V c main_v168 : S32x1.Idx → EReal) (V c main_v169 : S1x1.Idx → EReal) : S5000x1.Idx → EReal)
    = fun y : S5000x1.Idx => G4 V c (((cfg4.win 3).blk t).view.emb y)
  rw [Cert.Gnn.KPay.layerR_rows]
  obtain ⟨-, -, -, -, -, -, e0, e1⟩ := idx_facts4 t
  funext y
  unfold G4
  refine congrArg _ (funext fun a => Fin.ext ?_)
  match a with
  | ⟨0, _⟩ => show t.val * 5000 + (y 0).val = win4_3.index t (0 : Fin 2) * 5000 + 1 * (y 0).val; omega
  | ⟨1, _⟩ => show (y 1).val = win4_3.index t (1 : Fin 2) * 1 + 1 * (y 1).val; omega

/-- An index of the result array is in point `t`'s block iff each coordinate is in the block's range. -/
theorem mem_blk4 (t : Fin cfg4.N) (i : S100000x1.Idx) :
    i ∈ ((cfg4.win 3).blk t).view.set ↔ ∀ a : Fin 2, win4_3.index t a * S5000x1.size a ≤ (i a).val ∧ (i a).val < win4_3.index t a * S5000x1.size a + S5000x1.size a := by
  show i ∈ ((View.whole main_v170).slice (win4_3.rect t)).set ↔ _
  rw [View.set_slice_whole, Rect.mem_set_unit]
  exact Iff.rfl

/-- Every index of the result array is in the block of the point that its row falls in. -/
theorem cover4 (i : S100000x1.Idx) : ∃ t : Fin cfg4.N, (cfg4.win 3).flush t = true ∧ i ∈ ((cfg4.win 3).blk t).view.set := by
  have hi0 : (i 0).val < 100000 := (i 0).isLt
  have hi1 : (i 1).val < 1 := (i 1).isLt
  have hN : cfg4.N = 20 := N_4
  let t : Fin cfg4.N := ⟨(i 0).val / 5000, by rw [hN]; omega⟩
  obtain ⟨-, -, -, -, -, -, e0, e1⟩ := idx_facts4 t
  refine ⟨t, flush4_3 t, ?_⟩
  rw [mem_blk4]
  intro a
  have ht : t.val = (i 0).val / 5000 := rfl
  match a with
  | ⟨0, _⟩ => show win4_3.index t (0 : Fin 2) * 5000 ≤ (i 0).val ∧ (i 0).val < win4_3.index t (0 : Fin 2) * 5000 + 5000; omega
  | ⟨1, _⟩ => show win4_3.index t (1 : Fin 2) * 1 ≤ (i 1).val ∧ (i 1).val < win4_3.index t (1 : Fin 2) * 1 + 1; omega

/-- The result array after the pipeline is the layer of the three arrays as the region found them. -/
theorem final4 (c : Dev nD) : (dat4 V c).arrAt 3 cfg4.N = G4 V c :=
  (dat4 V c).arrAt_eq_of_cover 3 (G4 V c) (fun t _ => flushed4_eq V c t) (cover4)

end Cert.KernelIdeal.Hand

end
-- ==== Proof.KI.In5.lean ====
/-
  The three arrays dense layer 5's pipeline is entered with, against the reference's stages. The feature array is
  the join, column-wise, of the layer's input with its propagated copies (each a gather along the edges, a scaling
  by the edge normalisation and a scatter-addition into the nodes, applied to the copy before it); the host line is
  read in two parts — the propagated copies first, then the join and the two parameter arrays — and each part is
  the reference's own operations applied to equal values. The weight is the transposed weight matrix and the bias
  the bias vector laid out as a row.
-/
import proofs.«101217_j35820027249494_1_alg».proof.Proof.KI.Shared

set_option maxRecDepth 16384
set_option maxHeartbeats 4000000

noncomputable section

namespace Cert.KernelIdeal.Hand

open Cert.KernelIdeal Cert.KernelIdeal.Gen Cert.ReferenceIdeal.Read
open Idealize.ShloMosaic Idealize.ShloMosaic.TcCoe Idealize.ShloMosaic.StableHlo
open Idealize.SL Idealize.SL.Sem

variable (m : (ℓ : Loc nD τ sig) → Buf (Elt Ideal) ℓ) (ρ : Dev nD → PrngReg)

/-- The contents after the propagated copies are computed, before the join. -/
def Y5 (c : Dev nD) : Valuation τ sig (Elt Ideal) := StableHlo.after (List.take 96 hostOps5) (W12 m ρ c)
theorem W13_split (c : Dev nD) : W13 m ρ c = StableHlo.after (List.drop 96 hostOps5) (Y5 m ρ c) := by
  unfold Y5; exact StableHlo.after_take_drop 96 hostOps5 (W12 m ρ c)
/-- The first part writes only its own buffers. -/
theorem Y5_keep (c : Dev nD) (r : Ref sig .tc) (hr : r.idx.val < 233) : Y5 m ρ c (Proc.devRef .tc r) = W12 m ρ c (Proc.devRef .tc r) := by
  unfold Y5; exact StableHlo.after_below 233 _ _ (StableHlo.WritesFrom.take 233 96 _ hostOps5_from) r hr

/-- Propagated copy 1. -/
theorem y5_v183 (c : Dev nD)  : Y5 m ρ c (Proc.devRef .tc main_v183) = val_main_v228 (F := Ideal) (m ((c : Thread nD τ).loc main_arg0)) (m ((c : Thread nD τ).loc main_arg1)) := by
  unfold Y5
  simp only [hostOps5, List.take_succ_cons, List.take_zero]
  after_results_simp
  simp only [s12_v1 m ρ c, s12_v3 m ρ c, s12_v27 m ρ c, W12_below m ρ c main_arg0 (by decide), W12_below m ρ c main_arg15 (by decide), W12_below m ρ c main_arg16 (by decide)]
  simp only [val_main_v0, val_main_v1, val_main_v2, val_main_v3, val_main_cst, val_main_v4, val_main_cst_0, val_main_v5, val_main_v6, val_main_v7, val_main_cst_1, val_main_v8, val_main_v9, val_main_cst_2, val_main_v10, val_main_v11, val_main_cst_3, val_main_call0_v0, val_main_call0_v1, val_main_v12, val_main_c, val_main_v13, val_main_v14, val_main_c_4, val_main_v15, val_main_v16, val_main_v17, val_main_v18, val_main_v19, val_main_c_5, val_main_v20, val_main_v21, val_main_c_6, val_main_v22, val_main_v23, val_main_v24, val_main_v25, val_main_v26, val_main_v27, val_main_c_49, val_main_v216, val_main_v217, val_main_c_50, val_main_v218, val_main_v219, val_main_v220, val_main_v221, val_main_v222, val_main_v223, val_main_v224, val_main_v225, val_main_cst_51, val_main_v226, val_main_v227, val_main_v228, val_main_cst_10, val_main_v38, val_main_cst_11, val_main_v39, val_main_v40, val_main_v41, val_main_cst_12, val_main_v42, val_main_v43]
  try rfl

/-- Propagated copy 2. -/
theorem y5_v196 (c : Dev nD)  : Y5 m ρ c (Proc.devRef .tc main_v196) = val_main_v241 (F := Ideal) (m ((c : Thread nD τ).loc main_arg0)) (m ((c : Thread nD τ).loc main_arg1)) := by
  unfold Y5
  simp only [hostOps5, List.take_succ_cons, List.take_zero]
  after_results_simp
  simp only [s12_v1 m ρ c, s12_v3 m ρ c, s12_v27 m ρ c, W12_below m ρ c main_arg0 (by decide), W12_below m ρ c main_arg15 (by decide), W12_below m ρ c main_arg16 (by decide)]
  simp only [val_main_v0, val_main_v1, val_main_v2, val_main_v3, val_main_cst, val_main_v4, val_main_cst_0, val_main_v5, val_main_v6, val_main_v7, val_main_cst_1, val_main_v8, val_main_v9, val_main_cst_2, val_main_v10, val_main_v11, val_main_cst_3, val_main_call0_v0, val_main_call0_v1, val_main_v12, val_main_c, val_main_v13, val_main_v14, val_main_c_4, val_main_v15, val_main_v16, val_main_v17, val_main_v18, val_main_v19, val_main_c_5, val_main_v20, val_main_v21, val_main_c_6, val_main_v22, val_main_v23, val_main_v24, val_main_v25, val_main_v26, val_main_v27, val_main_c_49, val_main_v216, val_main_v217, val_main_c_50, val_main_v218, val_main_v219, val_main_v220, val_main_v221, val_main_v222, val_main_v223, val_main_v224, val_main_v225, val_main_cst_51, val_main_v226, val_main_v227, val_main_v228, val_main_c_52, val_main_v229, val_main_v230, val_main_c_53, val_main_v231, val_main_v232, val_main_v233, val_main_v234, val_main_v235, val_main_v236, val_main_v237, val_main_v238, val_main_cst_54, val_main_v239, val_main_v240, val_main_v241, val_main_cst_10, val_main_v38, val_main_cst_11, val_main_v39, val_main_v40, val_main_v41, val_main_cst_12, val_main_v42, val_main_v43]
  try rfl

/-- Propagated copy 3. -/
theorem y5_v209 (c : Dev nD)  : Y5 m ρ c (Proc.devRef .tc main_v209) = val_main_v254 (F := Ideal) (m ((c : Thread nD τ).loc main_arg0)) (m ((c : Thread nD τ).loc main_arg1)) := by
  unfold Y5
  simp only [hostOps5, List.take_succ_cons, List.take_zero]
  after_results_simp
  simp only [s12_v1 m ρ c, s12_v3 m ρ c, s12_v27 m ρ c, W12_below m ρ c main_arg0 (by decide), W12_below m ρ c main_arg15 (by decide), W12_below m ρ c main_arg16 (by decide)]
  simp only [val_main_v0, val_main_v1, val_main_v2, val_main_v3, val_main_cst, val_main_v4, val_main_cst_0, val_main_v5, val_main_v6, val_main_v7, val_main_cst_1, val_main_v8, val_main_v9, val_main_cst_2, val_main_v10, val_main_v11, val_main_cst_3, val_main_call0_v0, val_main_call0_v1, val_main_v12, val_main_c, val_main_v13, val_main_v14, val_main_c_4, val_main_v15, val_main_v16, val_main_v17, val_main_v18, val_main_v19, val_main_c_5, val_main_v20, val_main_v21, val_main_c_6, val_main_v22, val_main_v23, val_main_v24, val_main_v25, val_main_v26, val_main_v27, val_main_c_49, val_main_v216, val_main_v217, val_main_c_50, val_main_v218, val_main_v219, val_main_v220, val_main_v221, val_main_v222, val_main_v223, val_main_v224, val_main_v225, val_main_cst_51, val_main_v226, val_main_v227, val_main_v228, val_main_c_52, val_main_v229, val_main_v230, val_main_c_53, val_main_v231, val_main_v232, val_main_v233, val_main_v234, val_main_v235, val_main_v236, val_main_v237, val_main_v238, val_main_cst_54, val_main_v239, val_main_v240, val_main_v241, val_main_c_55, val_main_v242, val_main_v243, val_main_c_56, val_main_v244, val_main_v245, val_main_v246, val_main_v247, val_main_v248, val_main_v249, val_main_v250, val_main_v251, val_main_cst_57, val_main_v252, val_main_v253, val_main_v254, val_main_cst_10, val_main_v38, val_main_cst_11, val_main_v39, val_main_v40, val_main_v41, val_main_cst_12, val_main_v42, val_main_v43]
  try rfl

/-- Propagated copy 4. -/
theorem y5_v222 (c : Dev nD)  : Y5 m ρ c (Proc.devRef .tc main_v222) = val_main_v267 (F := Ideal) (m ((c : Thread nD τ).loc main_arg0)) (m ((c : Thread nD τ).loc main_arg1)) := by
  unfold Y5
  simp only [hostOps5, List.take_succ_cons, List.take_zero]
  after_results_simp
  simp only [s12_v1 m ρ c, s12_v3 m ρ c, s12_v27 m ρ c, W12_below m ρ c main_arg0 (by decide), W12_below m ρ c main_arg15 (by decide), W12_below m ρ c main_arg16 (by decide)]
  simp only [val_main_v0, val_main_v1, val_main_v2, val_main_v3, val_main_cst, val_main_v4, val_main_cst_0, val_main_v5, val_main_v6, val_main_v7, val_main_cst_1, val_main_v8, val_main_v9, val_main_cst_2, val_main_v10, val_main_v11, val_main_cst_3, val_main_call0_v0, val_main_call0_v1, val_main_v12, val_main_c, val_main_v13, val_main_v14, val_main_c_4, val_main_v15, val_main_v16, val_main_v17, val_main_v18, val_main_v19, val_main_c_5, val_main_v20, val_main_v21, val_main_c_6, val_main_v22, val_main_v23, val_main_v24, val_main_v25, val_main_v26, val_main_v27, val_main_c_49, val_main_v216, val_main_v217, val_main_c_50, val_main_v218, val_main_v219, val_main_v220, val_main_v221, val_main_v222, val_main_v223, val_main_v224, val_main_v225, val_main_cst_51, val_main_v226, val_main_v227, val_main_v228, val_main_c_52, val_main_v229, val_main_v230, val_main_c_53, val_main_v231, val_main_v232, val_main_v233, val_main_v234, val_main_v235, val_main_v236, val_main_v237, val_main_v238, val_main_cst_54, val_main_v239, val_main_v240, val_main_v241, val_main_c_55, val_main_v242, val_main_v243, val_main_c_56, val_main_v244, val_main_v245, val_main_v246, val_main_v247, val_main_v248, val_main_v249, val_main_v250, val_main_v251, val_main_cst_57, val_main_v252, val_main_v253, val_main_v254, val_main_c_58, val_main_v255, val_main_v256, val_main_c_59, val_main_v257, val_main_v258, val_main_v259, val_main_v260, val_main_v261, val_main_v262, val_main_v263, val_main_v264, val_main_cst_60, val_main_v265, val_main_v266, val_main_v267, val_main_cst_10, val_main_v38, val_main_cst_11, val_main_v39, val_main_v40, val_main_v41, val_main_cst_12, val_main_v42, val_main_v43]
  try rfl

/-- Propagated copy 5. -/
theorem y5_v235 (c : Dev nD)  : Y5 m ρ c (Proc.devRef .tc main_v235) = val_main_v280 (F := Ideal) (m ((c : Thread nD τ).loc main_arg0)) (m ((c : Thread nD τ).loc main_arg1)) := by
  unfold Y5
  simp only [hostOps5, List.take_succ_cons, List.take_zero]
  after_results_simp
  simp only [s12_v1 m ρ c, s12_v3 m ρ c, s12_v27 m ρ c, W12_below m ρ c main_arg0 (by decide), W12_below m ρ c main_arg15 (by decide), W12_below m ρ c main_arg16 (by decide)]
  simp only [val_main_v0, val_main_v1, val_main_v2, val_main_v3, val_main_cst, val_main_v4, val_main_cst_0, val_main_v5, val_main_v6, val_main_v7, val_main_cst_1, val_main_v8, val_main_v9, val_main_cst_2, val_main_v10, val_main_v11, val_main_cst_3, val_main_call0_v0, val_main_call0_v1, val_main_v12, val_main_c, val_main_v13, val_main_v14, val_main_c_4, val_main_v15, val_main_v16, val_main_v17, val_main_v18, val_main_v19, val_main_c_5, val_main_v20, val_main_v21, val_main_c_6, val_main_v22, val_main_v23, val_main_v24, val_main_v25, val_main_v26, val_main_v27, val_main_c_49, val_main_v216, val_main_v217, val_main_c_50, val_main_v218, val_main_v219, val_main_v220, val_main_v221, val_main_v222, val_main_v223, val_main_v224, val_main_v225, val_main_cst_51, val_main_v226, val_main_v227, val_main_v228, val_main_c_52, val_main_v229, val_main_v230, val_main_c_53, val_main_v231, val_main_v232, val_main_v233, val_main_v234, val_main_v235, val_main_v236, val_main_v237, val_main_v238, val_main_cst_54, val_main_v239, val_main_v240, val_main_v241, val_main_c_55, val_main_v242, val_main_v243, val_main_c_56, val_main_v244, val_main_v245, val_main_v246, val_main_v247, val_main_v248, val_main_v249, val_main_v250, val_main_v251, val_main_cst_57, val_main_v252, val_main_v253, val_main_v254, val_main_c_58, val_main_v255, val_main_v256, val_main_c_59, val_main_v257, val_main_v258, val_main_v259, val_main_v260, val_main_v261, val_main_v262, val_main_v263, val_main_v264, val_main_cst_60, val_main_v265, val_main_v266, val_main_v267, val_main_c_61, val_main_v268, val_main_v269, val_main_c_62, val_main_v270, val_main_v271, val_main_v272, val_main_v273, val_main_v274, val_main_v275, val_main_v276, val_main_v277, val_main_cst_63, val_main_v278, val_main_v279, val_main_v280, val_main_cst_10, val_main_v38, val_main_cst_11, val_main_v39, val_main_v40, val_main_v41, val_main_cst_12, val_main_v42, val_main_v43]
  try rfl

/-- Propagated copy 6. -/
theorem y5_v248 (c : Dev nD)  : Y5 m ρ c (Proc.devRef .tc main_v248) = val_main_v293 (F := Ideal) (m ((c : Thread nD τ).loc main_arg0)) (m ((c : Thread nD τ).loc main_arg1)) := by
  unfold Y5
  simp only [hostOps5, List.take_succ_cons, List.take_zero]
  after_results_simp
  simp only [s12_v1 m ρ c, s12_v3 m ρ c, s12_v27 m ρ c, W12_below m ρ c main_arg0 (by decide), W12_below m ρ c main_arg15 (by decide), W12_below m ρ c main_arg16 (by decide)]
  simp only [val_main_v0, val_main_v1, val_main_v2, val_main_v3, val_main_cst, val_main_v4, val_main_cst_0, val_main_v5, val_main_v6, val_main_v7, val_main_cst_1, val_main_v8, val_main_v9, val_main_cst_2, val_main_v10, val_main_v11, val_main_cst_3, val_main_call0_v0, val_main_call0_v1, val_main_v12, val_main_c, val_main_v13, val_main_v14, val_main_c_4, val_main_v15, val_main_v16, val_main_v17, val_main_v18, val_main_v19, val_main_c_5, val_main_v20, val_main_v21, val_main_c_6, val_main_v22, val_main_v23, val_main_v24, val_main_v25, val_main_v26, val_main_v27, val_main_c_49, val_main_v216, val_main_v217, val_main_c_50, val_main_v218, val_main_v219, val_main_v220, val_main_v221, val_main_v222, val_main_v223, val_main_v224, val_main_v225, val_main_cst_51, val_main_v226, val_main_v227, val_main_v228, val_main_c_52, val_main_v229, val_main_v230, val_main_c_53, val_main_v231, val_main_v232, val_main_v233, val_main_v234, val_main_v235, val_main_v236, val_main_v237, val_main_v238, val_main_cst_54, val_main_v239, val_main_v240, val_main_v241, val_main_c_55, val_main_v242, val_main_v243, val_main_c_56, val_main_v244, val_main_v245, val_main_v246, val_main_v247, val_main_v248, val_main_v249, val_main_v250, val_main_v251, val_main_cst_57, val_main_v252, val_main_v253, val_main_v254, val_main_c_58, val_main_v255, val_main_v256, val_main_c_59, val_main_v257, val_main_v258, val_main_v259, val_main_v260, val_main_v261, val_main_v262, val_main_v263, val_main_v264, val_main_cst_60, val_main_v265, val_main_v266, val_main_v267, val_main_c_61, val_main_v268, val_main_v269, val_main_c_62, val_main_v270, val_main_v271, val_main_v272, val_main_v273, val_main_v274, val_main_v275, val_main_v276, val_main_v277, val_main_cst_63, val_main_v278, val_main_v279, val_main_v280, val_main_c_64, val_main_v281, val_main_v282, val_main_c_65, val_main_v283, val_main_v284, val_main_v285, val_main_v286, val_main_v287, val_main_v288, val_main_v289, val_main_v290, val_main_cst_66, val_main_v291, val_main_v292, val_main_v293, val_main_cst_10, val_main_v38, val_main_cst_11, val_main_v39, val_main_v40, val_main_v41, val_main_cst_12, val_main_v42, val_main_v43]
  try rfl

/-- The feature array: the join. -/
theorem in5_x (c : Dev nD)  :
    V13 m ρ c main_v249 = val_main_v294 (F := Ideal) (m ((c : Thread nD τ).loc main_arg0)) (m ((c : Thread nD τ).loc main_arg1)) := by
  show W13 m ρ c (Proc.devRef .tc main_v249) = _
  rw [W13_split]
  simp only [hostOps5, List.drop_succ_cons, List.drop_zero]
  after_results_simp
  show concatenate S100000x77 1 [⟨S100000x11, (Y5 m ρ c (Proc.devRef .tc main_arg0))⟩, ⟨S100000x11, (Y5 m ρ c (Proc.devRef .tc main_v183))⟩, ⟨S100000x11, (Y5 m ρ c (Proc.devRef .tc main_v196))⟩, ⟨S100000x11, (Y5 m ρ c (Proc.devRef .tc main_v209))⟩, ⟨S100000x11, (Y5 m ρ c (Proc.devRef .tc main_v222))⟩, ⟨S100000x11, (Y5 m ρ c (Proc.devRef .tc main_v235))⟩, ⟨S100000x11, (Y5 m ρ c (Proc.devRef .tc main_v248))⟩] concatenates_S100000x11_S100000x11_S100000x11_S100000x11_S100000x11_S100000x11_S100000x11_S100000x77_d1 = _
  rw [(Y5_keep m ρ c main_arg0 (by decide)).trans (W12_below m ρ c main_arg0 (by decide)), y5_v183 m ρ c, y5_v196 m ρ c, y5_v209 m ρ c, y5_v222 m ρ c, y5_v235 m ρ c, y5_v248 m ρ c]
  simp only [val_main_v294]
  try rfl

/-- The weight. -/
theorem in5_w (c : Dev nD) :
    V13 m ρ c main_v250 = transpose S77x8 [1, 0] (m ((c : Thread nD τ).loc main_arg15)) transposes_S8x77_S77x8_1_0 := by
  show StableHlo.after hostOps5 (W12 m ρ c) (Proc.devRef .tc main_v250) = _
  after_results_simp
  simp only [W12_below m ρ c main_arg0 (by decide), W12_below m ρ c main_arg15 (by decide), W12_below m ρ c main_arg16 (by decide)]
  try rfl

/-- The bias row. -/
theorem in5_b (c : Dev nD) :
    V13 m ρ c main_v251 = shapeCast S1x8 (m ((c : Thread nD τ).loc main_arg16)) shapeCasts_S8_S1x8 := by
  show StableHlo.after hostOps5 (W12 m ρ c) (Proc.devRef .tc main_v251) = _
  after_results_simp
  simp only [W12_below m ρ c main_arg0 (by decide), W12_below m ρ c main_arg15 (by decide), W12_below m ρ c main_arg16 (by decide)]
  try rfl

end Cert.KernelIdeal.Hand

end
-- ==== Proof.KI.Value5.lean ====
/-
  Dense layer 5 as one function of whole arrays. At a grid point the pipeline writes back the layer's payload
  of the point's blocks: rows 5000·t … 5000·t + 4999 of the feature array, the whole weight, the whole bias
  row. The payload is the layer function, and the layer of a block of rows is the block of the layer, so the
  point writes back its row block of the layer of the whole arrays. The twenty blocks cover the result array,
  which therefore ends at the layer of the three arrays as the region found them.
-/
import proofs.«101217_j35820027249494_1_alg».proof.Proof.KI.Region5
import proofs.«101217_j35820027249494_1_alg».proof.Proof.KPay
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz5 : (![0, 0] : Fin 2 → Nat) = fun _ => 0 := funext fun a => by fin_cases a <;> rfl

/-- The printed index maps over the grid: the feature and result windows move down the rows with the point, the
    weight and the bias stay. -/
theorem idx_facts5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0 :=
  (by decide +kernel : ∀ t : Fin grid5.N, _)

/-- Row `r` of block `t` is row 5000·t + r of the array. -/
def row5 (t : Fin cfg5.N) (r : Fin 5000) : Fin 100000 := ⟨t.val * 5000 + r.val, by
  have ht : t.val < 20 := lt_of_lt_of_eq t.isLt N_5
  have hr := r.isLt; omega⟩

/-- The feature window's block at a point: the rows of the block, every column. -/
theorem iblk5_0_eq (c : Dev nD) (t : Fin cfg5.N) :
    (iblk5 V c 0 t : S5000x77.Idx → EReal) = fun y => (V c main_v249 : S100000x77.Idx → EReal) (ix2 (row5 t (y 0)) (y 1)) := by
  obtain ⟨e0, e1, -, -, -, -, -, -⟩ := idx_facts5 t
  funext y
  show (V c main_v249 : S100000x77.Idx → EReal) (((cfg5.win 0).blk t).view.emb y) = _
  refine congrArg _ (funext fun a => Fin.ext ?_)
  match a with
  | ⟨0, _⟩ => show win5_0.index t (0 : Fin 2) * 5000 + 1 * (y 0).val = t.val * 5000 + (y 0).val; omega
  | ⟨1, _⟩ => show win5_0.index t (1 : Fin 2) * 77 + 1 * (y 1).val = (y 1).val; omega

/-- The weight window's block at a point is the whole weight. -/
theorem iblk5_1_eq (c : Dev nD) (t : Fin cfg5.N) :
    (iblk5 V c 1 t : S77x8.Idx → EReal) = (V c main_v250 : S77x8.Idx → EReal) := by
  obtain ⟨-, -, e0, e1, -, -, -, -⟩ := idx_facts5 t
  funext y
  show (V c main_v250 : S77x8.Idx → EReal) (((cfg5.win 1).blk t).view.emb y) = _
  refine congrArg _ (funext fun a => Fin.ext ?_)
  match a with
  | ⟨0, _⟩ => show win5_1.index t (0 : Fin 2) * 77 + 1 * (y 0).val = (y 0).val; omega
  | ⟨1, _⟩ => show win5_1.index t (1 : Fin 2) * 8 + 1 * (y 1).val = (y 1).val; omega

/-- The bias window's block at a point is the whole bias row. -/
theorem iblk5_2_eq (c : Dev nD) (t : Fin cfg5.N) :
    (iblk5 V c 2 t : S1x8.Idx → EReal) = (V c main_v251 : S1x8.Idx → EReal) := by
  obtain ⟨-, -, -, -, e0, e1, -, -⟩ := idx_facts5 t
  funext y
  show (V c main_v251 : S1x8.Idx → EReal) (((cfg5.win 2).blk t).view.emb y) = _
  refine congrArg _ (funext fun a => Fin.ext ?_)
  match a with
  | ⟨0, _⟩ => show win5_2.index t (0 : Fin 2) * 1 + 1 * (y 0).val = (y 0).val; omega
  | ⟨1, _⟩ => show win5_2.index t (1 : Fin 2) * 8 + 1 * (y 1).val = (y 1).val; omega

/-- The layer of the three arrays as the region finds them. -/
def G5 (c : Dev nD) : S100000x8.Idx → EReal :=
  Cert.Gnn.layerS (V c main_v249 : S100000x77.Idx → EReal) (V c main_v250 : S77x8.Idx → EReal) (V c main_v251 : S1x8.Idx → EReal)

/-- What point `t` writes back is its row block of the layer of the whole arrays. -/
theorem flushed5_eq (c : Dev nD) (t : Fin cfg5.N) :
    (dat5 V c).flushed 3 t = ((cfg5.win 3).blk t).view.read (Elt Ideal) (G5 V c) := by
  show (cfg5.win 3).cut (grid5.coords t) ((dat5 V c).after 3 t) = _
  rw [after5_3]
  unfold out5_3
  rw [View.canon_unit_zero hz5]
  simp only [View.ld_unit_zero (S := S5000x77) hz5, View.ld_unit_zero (S := S77x8) hz5, View.ld_unit_zero (S := S1x8) hz5]
  rw [Cert.Gnn.KPay.pay5, iblk5_0_eq, iblk5_1_eq, iblk5_2_eq]
  show (Cert.Gnn.layerS (fun y : S5000x77.Idx => (V c main_v249 : S100000x77.Idx → EReal) (ix2 (row5 t (y 0)) (y 1)))
      (V c main_v250 : S77x8.Idx → EReal) (V c main_v251 : S1x8.Idx → EReal) : S5000x8.Idx → EReal)
    = fun y : S5000x8.Idx => G5 V c (((cfg5.win 3).blk t).view.emb y)
  rw [Cert.Gnn.KPay.layerS_rows]
  obtain ⟨-, -, -, -, -, -, e0, e1⟩ := idx_facts5 t
  funext y
  unfold G5
  refine congrArg _ (funext fun a => Fin.ext ?_)
  match a with
  | ⟨0, _⟩ => show t.val * 5000 + (y 0).val = win5_3.index t (0 : Fin 2) * 5000 + 1 * (y 0).val; omega
  | ⟨1, _⟩ => show (y 1).val = win5_3.index t (1 : Fin 2) * 8 + 1 * (y 1).val; omega

/-- An index of the result array is in point `t`'s block iff each coordinate is in the block's range. -/
theorem mem_blk5 (t : Fin cfg5.N) (i : S100000x8.Idx) :
    i ∈ ((cfg5.win 3).blk t).view.set ↔ ∀ a : Fin 2, win5_3.index t a * S5000x8.size a ≤ (i a).val ∧ (i a).val < win5_3.index t a * S5000x8.size a + S5000x8.size a := by
  show i ∈ ((View.whole main_v252).slice (win5_3.rect t)).set ↔ _
  rw [View.set_slice_whole, Rect.mem_set_unit]
  exact Iff.rfl

/-- Every index of the result array is in the block of the point that its row falls in. -/
theorem cover5 (i : S100000x8.Idx) : ∃ t : Fin cfg5.N, (cfg5.win 3).flush t = true ∧ i ∈ ((cfg5.win 3).blk t).view.set := by
  have hi0 : (i 0).val < 100000 := (i 0).isLt
  have hi1 : (i 1).val < 8 := (i 1).isLt
  have hN : cfg5.N = 20 := N_5
  let t : Fin cfg5.N := ⟨(i 0).val / 5000, by rw [hN]; omega⟩
  obtain ⟨-, -, -, -, -, -, e0, e1⟩ := idx_facts5 t
  refine ⟨t, flush5_3 t, ?_⟩
  rw [mem_blk5]
  intro a
  have ht : t.val = (i 0).val / 5000 := rfl
  match a with
  | ⟨0, _⟩ => show win5_3.index t (0 : Fin 2) * 5000 ≤ (i 0).val ∧ (i 0).val < win5_3.index t (0 : Fin 2) * 5000 + 5000; omega
  | ⟨1, _⟩ => show win5_3.index t (1 : Fin 2) * 8 ≤ (i 1).val ∧ (i 1).val < win5_3.index t (1 : Fin 2) * 8 + 8; omega

/-- The result array after the pipeline is the layer of the three arrays as the region found them. -/
theorem final5 (c : Dev nD) : (dat5 V c).arrAt 3 cfg5.N = G5 V c :=
  (dat5 V c).arrAt_eq_of_cover 3 (G5 V c) (fun t _ => flushed5_eq V c t) (cover5)

end Cert.KernelIdeal.Hand

end
-- ==== Proof.KI.In6.lean ====
/-
  The three arrays dense layer 6's pipeline is entered with, against the reference's stages. The feature array is
  the join, column-wise, of the layer's input with its propagated copies (each a gather along the edges, a scaling
  by the edge normalisation and a scatter-addition into the nodes, applied to the copy before it); the host line is
  read in two parts — the propagated copies first, then the join and the two parameter arrays — and each part is
  the reference's own operations applied to equal values. The weight is the transposed weight matrix and the bias
  the bias vector laid out as a row.
-/
import proofs.«101217_j35820027249494_1_alg».proof.Proof.KI.Shared

set_option maxRecDepth 16384
set_option maxHeartbeats 4000000

noncomputable section

namespace Cert.KernelIdeal.Hand

open Cert.KernelIdeal Cert.KernelIdeal.Gen Cert.ReferenceIdeal.Read
open Idealize.ShloMosaic Idealize.ShloMosaic.TcCoe Idealize.ShloMosaic.StableHlo
open Idealize.SL Idealize.SL.Sem

variable (m : (ℓ : Loc nD τ sig) → Buf (Elt Ideal) ℓ) (ρ : Dev nD → PrngReg)

/-- The contents after the propagated copies are computed, before the join. -/
def Y6 (c : Dev nD) : Valuation τ sig (Elt Ideal) := StableHlo.after (List.take 96 hostOps6) (W14 m ρ c)
theorem W15_split (c : Dev nD) : W15 m ρ c = StableHlo.after (List.drop 96 hostOps6) (Y6 m ρ c) := by
  unfold Y6; exact StableHlo.after_take_drop 96 hostOps6 (W14 m ρ c)
/-- The first part writes only its own buffers. -/
theorem Y6_keep (c : Dev nD) (r : Ref sig .tc) (hr : r.idx.val < 333) : Y6 m ρ c (Proc.devRef .tc r) = W14 m ρ c (Proc.devRef .tc r) := by
  unfold Y6; exact StableHlo.after_below 333 _ _ (StableHlo.WritesFrom.take 333 96 _ hostOps6_from) r hr

/-- Propagated copy 1. -/
theorem y6_v265 (c : Dev nD) (h0 : W14 m ρ c (Proc.devRef .tc main_v252) = val_main_v305 (F := Ideal) (m ((c : Thread nD τ).loc main_arg0)) (m ((c : Thread nD τ).loc main_arg1)) (m ((c : Thread nD τ).loc main_arg15)) (m ((c : Thread nD τ).loc main_arg16))) : Y6 m ρ c (Proc.devRef .tc main_v265) = val_main_v318 (F := Ideal) (m ((c : Thread nD τ).loc main_arg0)) (m ((c : Thread nD τ).loc main_arg1)) (m ((c : Thread nD τ).loc main_arg15)) (m ((c : Thread nD τ).loc main_arg16)) := by
  unfold Y6
  simp only [hostOps6, List.take_succ_cons, List.take_zero]
  after_results_simp
  simp only [h0, s14_v1 m ρ c, s14_v3 m ρ c, s14_v27 m ρ c, W14_below m ρ c main_arg17 (by decide), W14_below m ρ c main_arg18 (by decide)]
  simp only [val_main_v0, val_main_v1, val_main_v2, val_main_v3, val_main_cst, val_main_v4, val_main_cst_0, val_main_v5, val_main_v6, val_main_v7, val_main_cst_1, val_main_v8, val_main_v9, val_main_cst_2, val_main_v10, val_main_v11, val_main_cst_3, val_main_call0_v0, val_main_call0_v1, val_main_v12, val_main_c, val_main_v13, val_main_v14, val_main_c_4, val_main_v15, val_main_v16, val_main_v17, val_main_v18, val_main_v19, val_main_c_5, val_main_v20, val_main_v21, val_main_c_6, val_main_v22, val_main_v23, val_main_v24, val_main_v25, val_main_v26, val_main_v27, val_main_c_69, val_main_v306, val_main_v307, val_main_c_70, val_main_v308, val_main_v309, val_main_v310, val_main_v311, val_main_v312, val_main_v313, val_main_v314, val_main_v315, val_main_cst_71, val_main_v316, val_main_v317, val_main_v318, val_main_cst_10, val_main_v38, val_main_cst_11, val_main_v39, val_main_v40, val_main_v41, val_main_cst_12, val_main_v42, val_main_v43]
  try rfl

/-- Propagated copy 2. -/
theorem y6_v278 (c : Dev nD) (h0 : W14 m ρ c (Proc.devRef .tc main_v252) = val_main_v305 (F := Ideal) (m ((c : Thread nD τ).loc main_arg0)) (m ((c : Thread nD τ).loc main_arg1)) (m ((c : Thread nD τ).loc main_arg15)) (m ((c : Thread nD τ).loc main_arg16))) : Y6 m ρ c (Proc.devRef .tc main_v278) = val_main_v331 (F := Ideal) (m ((c : Thread nD τ).loc main_arg0)) (m ((c : Thread nD τ).loc main_arg1)) (m ((c : Thread nD τ).loc main_arg15)) (m ((c : Thread nD τ).loc main_arg16)) := by
  unfold Y6
  simp only [hostOps6, List.take_succ_cons, List.take_zero]
  after_results_simp
  simp only [h0, s14_v1 m ρ c, s14_v3 m ρ c, s14_v27 m ρ c, W14_below m ρ c main_arg17 (by decide), W14_below m ρ c main_arg18 (by decide)]
  simp only [val_main_v0, val_main_v1, val_main_v2, val_main_v3, val_main_cst, val_main_v4, val_main_cst_0, val_main_v5, val_main_v6, val_main_v7, val_main_cst_1, val_main_v8, val_main_v9, val_main_cst_2, val_main_v10, val_main_v11, val_main_cst_3, val_main_call0_v0, val_main_call0_v1, val_main_v12, val_main_c, val_main_v13, val_main_v14, val_main_c_4, val_main_v15, val_main_v16, val_main_v17, val_main_v18, val_main_v19, val_main_c_5, val_main_v20, val_main_v21, val_main_c_6, val_main_v22, val_main_v23, val_main_v24, val_main_v25, val_main_v26, val_main_v27, val_main_c_69, val_main_v306, val_main_v307, val_main_c_70, val_main_v308, val_main_v309, val_main_v310, val_main_v311, val_main_v312, val_main_v313, val_main_v314, val_main_v315, val_main_cst_71, val_main_v316, val_main_v317, val_main_v318, val_main_c_72, val_main_v319, val_main_v320, val_main_c_73, val_main_v321, val_main_v322, val_main_v323, val_main_v324, val_main_v325, val_main_v326, val_main_v327, val_main_v328, val_main_cst_74, val_main_v329, val_main_v330, val_main_v331, val_main_cst_10, val_main_v38, val_main_cst_11, val_main_v39, val_main_v40, val_main_v41, val_main_cst_12, val_main_v42, val_main_v43]
  try rfl

/-- Propagated copy 3. -/
theorem y6_v291 (c : Dev nD) (h0 : W14 m ρ c (Proc.devRef .tc main_v252) = val_main_v305 (F := Ideal) (m ((c : Thread nD τ).loc main_arg0)) (m ((c : Thread nD τ).loc main_arg1)) (m ((c : Thread nD τ).loc main_arg15)) (m ((c : Thread nD τ).loc main_arg16))) : Y6 m ρ c (Proc.devRef .tc main_v291) = val_main_v344 (F := Ideal) (m ((c : Thread nD τ).loc main_arg0)) (m ((c : Thread nD τ).loc main_arg1)) (m ((c : Thread nD τ).loc main_arg15)) (m ((c : Thread nD τ).loc main_arg16)) := by
  unfold Y6
  simp only [hostOps6, List.take_succ_cons, List.take_zero]
  after_results_simp
  simp only [h0, s14_v1 m ρ c, s14_v3 m ρ c, s14_v27 m ρ c, W14_below m ρ c main_arg17 (by decide), W14_below m ρ c main_arg18 (by decide)]
  simp only [val_main_v0, val_main_v1, val_main_v2, val_main_v3, val_main_cst, val_main_v4, val_main_cst_0, val_main_v5, val_main_v6, val_main_v7, val_main_cst_1, val_main_v8, val_main_v9, val_main_cst_2, val_main_v10, val_main_v11, val_main_cst_3, val_main_call0_v0, val_main_call0_v1, val_main_v12, val_main_c, val_main_v13, val_main_v14, val_main_c_4, val_main_v15, val_main_v16, val_main_v17, val_main_v18, val_main_v19, val_main_c_5, val_main_v20, val_main_v21, val_main_c_6, val_main_v22, val_main_v23, val_main_v24, val_main_v25, val_main_v26, val_main_v27, val_main_c_69, val_main_v306, val_main_v307, val_main_c_70, val_main_v308, val_main_v309, val_main_v310, val_main_v311, val_main_v312, val_main_v313, val_main_v314, val_main_v315, val_main_cst_71, val_main_v316, val_main_v317, val_main_v318, val_main_c_72, val_main_v319, val_main_v320, val_main_c_73, val_main_v321, val_main_v322, val_main_v323, val_main_v324, val_main_v325, val_main_v326, val_main_v327, val_main_v328, val_main_cst_74, val_main_v329, val_main_v330, val_main_v331, val_main_c_75, val_main_v332, val_main_v333, val_main_c_76, val_main_v334, val_main_v335, val_main_v336, val_main_v337, val_main_v338, val_main_v339, val_main_v340, val_main_v341, val_main_cst_77, val_main_v342, val_main_v343, val_main_v344, val_main_cst_10, val_main_v38, val_main_cst_11, val_main_v39, val_main_v40, val_main_v41, val_main_cst_12, val_main_v42, val_main_v43]
  try rfl

/-- Propagated copy 4. -/
theorem y6_v304 (c : Dev nD) (h0 : W14 m ρ c (Proc.devRef .tc main_v252) = val_main_v305 (F := Ideal) (m ((c : Thread nD τ).loc main_arg0)) (m ((c : Thread nD τ).loc main_arg1)) (m ((c : Thread nD τ).loc main_arg15)) (m ((c : Thread nD τ).loc main_arg16))) : Y6 m ρ c (Proc.devRef .tc main_v304) = val_main_v357 (F := Ideal) (m ((c : Thread nD τ).loc main_arg0)) (m ((c : Thread nD τ).loc main_arg1)) (m ((c : Thread nD τ).loc main_arg15)) (m ((c : Thread nD τ).loc main_arg16)) := by
  unfold Y6
  simp only [hostOps6, List.take_succ_cons, List.take_zero]
  after_results_simp
  simp only [h0, s14_v1 m ρ c, s14_v3 m ρ c, s14_v27 m ρ c, W14_below m ρ c main_arg17 (by decide), W14_below m ρ c main_arg18 (by decide)]
  simp only [val_main_v0, val_main_v1, val_main_v2, val_main_v3, val_main_cst, val_main_v4, val_main_cst_0, val_main_v5, val_main_v6, val_main_v7, val_main_cst_1, val_main_v8, val_main_v9, val_main_cst_2, val_main_v10, val_main_v11, val_main_cst_3, val_main_call0_v0, val_main_call0_v1, val_main_v12, val_main_c, val_main_v13, val_main_v14, val_main_c_4, val_main_v15, val_main_v16, val_main_v17, val_main_v18, val_main_v19, val_main_c_5, val_main_v20, val_main_v21, val_main_c_6, val_main_v22, val_main_v23, val_main_v24, val_main_v25, val_main_v26, val_main_v27, val_main_c_69, val_main_v306, val_main_v307, val_main_c_70, val_main_v308, val_main_v309, val_main_v310, val_main_v311, val_main_v312, val_main_v313, val_main_v314, val_main_v315, val_main_cst_71, val_main_v316, val_main_v317, val_main_v318, val_main_c_72, val_main_v319, val_main_v320, val_main_c_73, val_main_v321, val_main_v322, val_main_v323, val_main_v324, val_main_v325, val_main_v326, val_main_v327, val_main_v328, val_main_cst_74, val_main_v329, val_main_v330, val_main_v331, val_main_c_75, val_main_v332, val_main_v333, val_main_c_76, val_main_v334, val_main_v335, val_main_v336, val_main_v337, val_main_v338, val_main_v339, val_main_v340, val_main_v341, val_main_cst_77, val_main_v342, val_main_v343, val_main_v344, val_main_c_78, val_main_v345, val_main_v346, val_main_c_79, val_main_v347, val_main_v348, val_main_v349, val_main_v350, val_main_v351, val_main_v352, val_main_v353, val_main_v354, val_main_cst_80, val_main_v355, val_main_v356, val_main_v357, val_main_cst_10, val_main_v38, val_main_cst_11, val_main_v39, val_main_v40, val_main_v41, val_main_cst_12, val_main_v42, val_main_v43]
  try rfl

/-- Propagated copy 5. -/
theorem y6_v317 (c : Dev nD) (h0 : W14 m ρ c (Proc.devRef .tc main_v252) = val_main_v305 (F := Ideal) (m ((c : Thread nD τ).loc main_arg0)) (m ((c : Thread nD τ).loc main_arg1)) (m ((c : Thread nD τ).loc main_arg15)) (m ((c : Thread nD τ).loc main_arg16))) : Y6 m ρ c (Proc.devRef .tc main_v317) = val_main_v370 (F := Ideal) (m ((c : Thread nD τ).loc main_arg0)) (m ((c : Thread nD τ).loc main_arg1)) (m ((c : Thread nD τ).loc main_arg15)) (m ((c : Thread nD τ).loc main_arg16)) := by
  unfold Y6
  simp only [hostOps6, List.take_succ_cons, List.take_zero]
  after_results_simp
  simp only [h0, s14_v1 m ρ c, s14_v3 m ρ c, s14_v27 m ρ c, W14_below m ρ c main_arg17 (by decide), W14_below m ρ c main_arg18 (by decide)]
  simp only [val_main_v0, val_main_v1, val_main_v2, val_main_v3, val_main_cst, val_main_v4, val_main_cst_0, val_main_v5, val_main_v6, val_main_v7, val_main_cst_1, val_main_v8, val_main_v9, val_main_cst_2, val_main_v10, val_main_v11, val_main_cst_3, val_main_call0_v0, val_main_call0_v1, val_main_v12, val_main_c, val_main_v13, val_main_v14, val_main_c_4, val_main_v15, val_main_v16, val_main_v17, val_main_v18, val_main_v19, val_main_c_5, val_main_v20, val_main_v21, val_main_c_6, val_main_v22, val_main_v23, val_main_v24, val_main_v25, val_main_v26, val_main_v27, val_main_c_69, val_main_v306, val_main_v307, val_main_c_70, val_main_v308, val_main_v309, val_main_v310, val_main_v311, val_main_v312, val_main_v313, val_main_v314, val_main_v315, val_main_cst_71, val_main_v316, val_main_v317, val_main_v318, val_main_c_72, val_main_v319, val_main_v320, val_main_c_73, val_main_v321, val_main_v322, val_main_v323, val_main_v324, val_main_v325, val_main_v326, val_main_v327, val_main_v328, val_main_cst_74, val_main_v329, val_main_v330, val_main_v331, val_main_c_75, val_main_v332, val_main_v333, val_main_c_76, val_main_v334, val_main_v335, val_main_v336, val_main_v337, val_main_v338, val_main_v339, val_main_v340, val_main_v341, val_main_cst_77, val_main_v342, val_main_v343, val_main_v344, val_main_c_78, val_main_v345, val_main_v346, val_main_c_79, val_main_v347, val_main_v348, val_main_v349, val_main_v350, val_main_v351, val_main_v352, val_main_v353, val_main_v354, val_main_cst_80, val_main_v355, val_main_v356, val_main_v357, val_main_c_81, val_main_v358, val_main_v359, val_main_c_82, val_main_v360, val_main_v361, val_main_v362, val_main_v363, val_main_v364, val_main_v365, val_main_v366, val_main_v367, val_main_cst_83, val_main_v368, val_main_v369, val_main_v370, val_main_cst_10, val_main_v38, val_main_cst_11, val_main_v39, val_main_v40, val_main_v41, val_main_cst_12, val_main_v42, val_main_v43]
  try rfl

/-- Propagated copy 6. -/
theorem y6_v330 (c : Dev nD) (h0 : W14 m ρ c (Proc.devRef .tc main_v252) = val_main_v305 (F := Ideal) (m ((c : Thread nD τ).loc main_arg0)) (m ((c : Thread nD τ).loc main_arg1)) (m ((c : Thread nD τ).loc main_arg15)) (m ((c : Thread nD τ).loc main_arg16))) : Y6 m ρ c (Proc.devRef .tc main_v330) = val_main_v383 (F := Ideal) (m ((c : Thread nD τ).loc main_arg0)) (m ((c : Thread nD τ).loc main_arg1)) (m ((c : Thread nD τ).loc main_arg15)) (m ((c : Thread nD τ).loc main_arg16)) := by
  unfold Y6
  simp only [hostOps6, List.take_succ_cons, List.take_zero]
  after_results_simp
  simp only [h0, s14_v1 m ρ c, s14_v3 m ρ c, s14_v27 m ρ c, W14_below m ρ c main_arg17 (by decide), W14_below m ρ c main_arg18 (by decide)]
  simp only [val_main_v0, val_main_v1, val_main_v2, val_main_v3, val_main_cst, val_main_v4, val_main_cst_0, val_main_v5, val_main_v6, val_main_v7, val_main_cst_1, val_main_v8, val_main_v9, val_main_cst_2, val_main_v10, val_main_v11, val_main_cst_3, val_main_call0_v0, val_main_call0_v1, val_main_v12, val_main_c, val_main_v13, val_main_v14, val_main_c_4, val_main_v15, val_main_v16, val_main_v17, val_main_v18, val_main_v19, val_main_c_5, val_main_v20, val_main_v21, val_main_c_6, val_main_v22, val_main_v23, val_main_v24, val_main_v25, val_main_v26, val_main_v27, val_main_c_69, val_main_v306, val_main_v307, val_main_c_70, val_main_v308, val_main_v309, val_main_v310, val_main_v311, val_main_v312, val_main_v313, val_main_v314, val_main_v315, val_main_cst_71, val_main_v316, val_main_v317, val_main_v318, val_main_c_72, val_main_v319, val_main_v320, val_main_c_73, val_main_v321, val_main_v322, val_main_v323, val_main_v324, val_main_v325, val_main_v326, val_main_v327, val_main_v328, val_main_cst_74, val_main_v329, val_main_v330, val_main_v331, val_main_c_75, val_main_v332, val_main_v333, val_main_c_76, val_main_v334, val_main_v335, val_main_v336, val_main_v337, val_main_v338, val_main_v339, val_main_v340, val_main_v341, val_main_cst_77, val_main_v342, val_main_v343, val_main_v344, val_main_c_78, val_main_v345, val_main_v346, val_main_c_79, val_main_v347, val_main_v348, val_main_v349, val_main_v350, val_main_v351, val_main_v352, val_main_v353, val_main_v354, val_main_cst_80, val_main_v355, val_main_v356, val_main_v357, val_main_c_81, val_main_v358, val_main_v359, val_main_c_82, val_main_v360, val_main_v361, val_main_v362, val_main_v363, val_main_v364, val_main_v365, val_main_v366, val_main_v367, val_main_cst_83, val_main_v368, val_main_v369, val_main_v370, val_main_c_84, val_main_v371, val_main_v372, val_main_c_85, val_main_v373, val_main_v374, val_main_v375, val_main_v376, val_main_v377, val_main_v378, val_main_v379, val_main_v380, val_main_cst_86, val_main_v381, val_main_v382, val_main_v383, val_main_cst_10, val_main_v38, val_main_cst_11, val_main_v39, val_main_v40, val_main_v41, val_main_cst_12, val_main_v42, val_main_v43]
  try rfl

/-- The feature array: the join. -/
theorem in6_x (c : Dev nD) (h0 : W14 m ρ c (Proc.devRef .tc main_v252) = val_main_v305 (F := Ideal) (m ((c : Thread nD τ).loc main_arg0)) (m ((c : Thread nD τ).loc main_arg1)) (m ((c : Thread nD τ).loc main_arg15)) (m ((c : Thread nD τ).loc main_arg16))) :
    V15 m ρ c main_v331 = val_main_v384 (F := Ideal) (m ((c : Thread nD τ).loc main_arg0)) (m ((c : Thread nD τ).loc main_arg1)) (m ((c : Thread nD τ).loc main_arg15)) (m ((c : Thread nD τ).loc main_arg16)) := by
  show W15 m ρ c (Proc.devRef .tc main_v331) = _
  rw [W15_split]
  simp only [hostOps6, List.drop_succ_cons, List.drop_zero]
  after_results_simp
  show concatenate S100000x56 1 [⟨S100000x8, (Y6 m ρ c (Proc.devRef .tc main_v252))⟩, ⟨S100000x8, (Y6 m ρ c (Proc.devRef .tc main_v265))⟩, ⟨S100000x8, (Y6 m ρ c (Proc.devRef .tc main_v278))⟩, ⟨S100000x8, (Y6 m ρ c (Proc.devRef .tc main_v291))⟩, ⟨S100000x8, (Y6 m ρ c (Proc.devRef .tc main_v304))⟩, ⟨S100000x8, (Y6 m ρ c (Proc.devRef .tc main_v317))⟩, ⟨S100000x8, (Y6 m ρ c (Proc.devRef .tc main_v330))⟩] concatenates_S100000x8_S100000x8_S100000x8_S100000x8_S100000x8_S100000x8_S100000x8_S100000x56_d1 = _
  rw [(Y6_keep m ρ c main_v252 (by decide)).trans h0, y6_v265 m ρ c h0, y6_v278 m ρ c h0, y6_v291 m ρ c h0, y6_v304 m ρ c h0, y6_v317 m ρ c h0, y6_v330 m ρ c h0]
  simp only [val_main_v384]
  try rfl

/-- The weight. -/
theorem in6_w (c : Dev nD) :
    V15 m ρ c main_v332 = transpose S56x1 [1, 0] (m ((c : Thread nD τ).loc main_arg17)) transposes_S1x56_S56x1_1_0 := by
  show StableHlo.after hostOps6 (W14 m ρ c) (Proc.devRef .tc main_v332) = _
  after_results_simp
  simp only [W14_below m ρ c main_arg17 (by decide), W14_below m ρ c main_arg18 (by decide)]
  try rfl

/-- The bias row. -/
theorem in6_b (c : Dev nD) :
    V15 m ρ c main_v333 = shapeCast S1x1 (m ((c : Thread nD τ).loc main_arg18)) shapeCasts_S1_S1x1 := by
  show StableHlo.after hostOps6 (W14 m ρ c) (Proc.devRef .tc main_v333) = _
  after_results_simp
  simp only [W14_below m ρ c main_arg17 (by decide), W14_below m ρ c main_arg18 (by decide)]
  try rfl

end Cert.KernelIdeal.Hand

end
-- ==== Proof.KI.Value6.lean ====
/-
  Dense layer 6 as one function of whole arrays. At a grid point the pipeline writes back the layer's payload
  of the point's blocks: rows 5000·t … 5000·t + 4999 of the feature array, the whole weight, the whole bias
  row. The payload is the layer function, and the layer of a block of rows is the block of the layer, so the
  point writes back its row block of the layer of the whole arrays. The twenty blocks cover the result array,
  which therefore ends at the layer of the three arrays as the region found them.
-/
import proofs.«101217_j35820027249494_1_alg».proof.Proof.KI.Region6
import proofs.«101217_j35820027249494_1_alg».proof.Proof.KPay
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz6 : (![0, 0] : Fin 2 → Nat) = fun _ => 0 := funext fun a => by fin_cases a <;> rfl

/-- The printed index maps over the grid: the feature and result windows move down the rows with the point, the
    weight and the bias stay. -/
theorem idx_facts6 : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = t.val ∧ win6_3.index t (1 : Fin 2) = 0 :=
  (by decide +kernel : ∀ t : Fin grid6.N, _)

/-- Row `r` of block `t` is row 5000·t + r of the array. -/
def row6 (t : Fin cfg6.N) (r : Fin 5000) : Fin 100000 := ⟨t.val * 5000 + r.val, by
  have ht : t.val < 20 := lt_of_lt_of_eq t.isLt N_6
  have hr := r.isLt; omega⟩

/-- The feature window's block at a point: the rows of the block, every column. -/
theorem iblk6_0_eq (c : Dev nD) (t : Fin cfg6.N) :
    (iblk6 V c 0 t : S5000x56.Idx → EReal) = fun y => (V c main_v331 : S100000x56.Idx → EReal) (ix2 (row6 t (y 0)) (y 1)) := by
  obtain ⟨e0, e1, -, -, -, -, -, -⟩ := idx_facts6 t
  funext y
  show (V c main_v331 : S100000x56.Idx → EReal) (((cfg6.win 0).blk t).view.emb y) = _
  refine congrArg _ (funext fun a => Fin.ext ?_)
  match a with
  | ⟨0, _⟩ => show win6_0.index t (0 : Fin 2) * 5000 + 1 * (y 0).val = t.val * 5000 + (y 0).val; omega
  | ⟨1, _⟩ => show win6_0.index t (1 : Fin 2) * 56 + 1 * (y 1).val = (y 1).val; omega

/-- The weight window's block at a point is the whole weight. -/
theorem iblk6_1_eq (c : Dev nD) (t : Fin cfg6.N) :
    (iblk6 V c 1 t : S56x1.Idx → EReal) = (V c main_v332 : S56x1.Idx → EReal) := by
  obtain ⟨-, -, e0, e1, -, -, -, -⟩ := idx_facts6 t
  funext y
  show (V c main_v332 : S56x1.Idx → EReal) (((cfg6.win 1).blk t).view.emb y) = _
  refine congrArg _ (funext fun a => Fin.ext ?_)
  match a with
  | ⟨0, _⟩ => show win6_1.index t (0 : Fin 2) * 56 + 1 * (y 0).val = (y 0).val; omega
  | ⟨1, _⟩ => show win6_1.index t (1 : Fin 2) * 1 + 1 * (y 1).val = (y 1).val; omega

/-- The bias window's block at a point is the whole bias row. -/
theorem iblk6_2_eq (c : Dev nD) (t : Fin cfg6.N) :
    (iblk6 V c 2 t : S1x1.Idx → EReal) = (V c main_v333 : S1x1.Idx → EReal) := by
  obtain ⟨-, -, -, -, e0, e1, -, -⟩ := idx_facts6 t
  funext y
  show (V c main_v333 : S1x1.Idx → EReal) (((cfg6.win 2).blk t).view.emb y) = _
  refine congrArg _ (funext fun a => Fin.ext ?_)
  match a with
  | ⟨0, _⟩ => show win6_2.index t (0 : Fin 2) * 1 + 1 * (y 0).val = (y 0).val; omega
  | ⟨1, _⟩ => show win6_2.index t (1 : Fin 2) * 1 + 1 * (y 1).val = (y 1).val; omega

/-- The layer of the three arrays as the region finds them. -/
def G6 (c : Dev nD) : S100000x1.Idx → EReal :=
  Cert.Gnn.layerR (V c main_v331 : S100000x56.Idx → EReal) (V c main_v332 : S56x1.Idx → EReal) (V c main_v333 : S1x1.Idx → EReal)

/-- What point `t` writes back is its row block of the layer of the whole arrays. -/
theorem flushed6_eq (c : Dev nD) (t : Fin cfg6.N) :
    (dat6 V c).flushed 3 t = ((cfg6.win 3).blk t).view.read (Elt Ideal) (G6 V c) := by
  show (cfg6.win 3).cut (grid6.coords t) ((dat6 V c).after 3 t) = _
  rw [after6_3]
  unfold out6_3
  rw [View.canon_unit_zero hz6]
  simp only [View.ld_unit_zero (S := S5000x56) hz6, View.ld_unit_zero (S := S56x1) hz6, View.ld_unit_zero (S := S1x1) hz6]
  rw [Cert.Gnn.KPay.pay6, iblk6_0_eq, iblk6_1_eq, iblk6_2_eq]
  show (Cert.Gnn.layerR (fun y : S5000x56.Idx => (V c main_v331 : S100000x56.Idx → EReal) (ix2 (row6 t (y 0)) (y 1)))
      (V c main_v332 : S56x1.Idx → EReal) (V c main_v333 : S1x1.Idx → EReal) : S5000x1.Idx → EReal)
    = fun y : S5000x1.Idx => G6 V c (((cfg6.win 3).blk t).view.emb y)
  rw [Cert.Gnn.KPay.layerR_rows]
  obtain ⟨-, -, -, -, -, -, e0, e1⟩ := idx_facts6 t
  funext y
  unfold G6
  refine congrArg _ (funext fun a => Fin.ext ?_)
  match a with
  | ⟨0, _⟩ => show t.val * 5000 + (y 0).val = win6_3.index t (0 : Fin 2) * 5000 + 1 * (y 0).val; omega
  | ⟨1, _⟩ => show (y 1).val = win6_3.index t (1 : Fin 2) * 1 + 1 * (y 1).val; omega

/-- An index of the result array is in point `t`'s block iff each coordinate is in the block's range. -/
theorem mem_blk6 (t : Fin cfg6.N) (i : S100000x1.Idx) :
    i ∈ ((cfg6.win 3).blk t).view.set ↔ ∀ a : Fin 2, win6_3.index t a * S5000x1.size a ≤ (i a).val ∧ (i a).val < win6_3.index t a * S5000x1.size a + S5000x1.size a := by
  show i ∈ ((View.whole main_v334).slice (win6_3.rect t)).set ↔ _
  rw [View.set_slice_whole, Rect.mem_set_unit]
  exact Iff.rfl

/-- Every index of the result array is in the block of the point that its row falls in. -/
theorem cover6 (i : S100000x1.Idx) : ∃ t : Fin cfg6.N, (cfg6.win 3).flush t = true ∧ i ∈ ((cfg6.win 3).blk t).view.set := by
  have hi0 : (i 0).val < 100000 := (i 0).isLt
  have hi1 : (i 1).val < 1 := (i 1).isLt
  have hN : cfg6.N = 20 := N_6
  let t : Fin cfg6.N := ⟨(i 0).val / 5000, by rw [hN]; omega⟩
  obtain ⟨-, -, -, -, -, -, e0, e1⟩ := idx_facts6 t
  refine ⟨t, flush6_3 t, ?_⟩
  rw [mem_blk6]
  intro a
  have ht : t.val = (i 0).val / 5000 := rfl
  match a with
  | ⟨0, _⟩ => show win6_3.index t (0 : Fin 2) * 5000 ≤ (i 0).val ∧ (i 0).val < win6_3.index t (0 : Fin 2) * 5000 + 5000; omega
  | ⟨1, _⟩ => show win6_3.index t (1 : Fin 2) * 1 ≤ (i 1).val ∧ (i 1).val < win6_3.index t (1 : Fin 2) * 1 + 1; omega

/-- The result array after the pipeline is the layer of the three arrays as the region found them. -/
theorem final6 (c : Dev nD) : (dat6 V c).arrAt 3 cfg6.N = G6 V c :=
  (dat6 V c).arrAt_eq_of_cover 3 (G6 V c) (fun t _ => flushed6_eq V c t) (cover6)

end Cert.KernelIdeal.Hand

end
-- ==== Proof.KI.In7.lean ====
/-
  The three arrays dense layer 7's pipeline is entered with, against the reference's stages. The feature array is
  the join, column-wise, of the layer's input with its propagated copies (each a gather along the edges, a scaling
  by the edge normalisation and a scatter-addition into the nodes, applied to the copy before it); the host line is
  read in two parts — the propagated copies first, then the join and the two parameter arrays — and each part is
  the reference's own operations applied to equal values. The weight is the transposed weight matrix and the bias
  the bias vector laid out as a row.
-/
import proofs.«101217_j35820027249494_1_alg».proof.Proof.KI.Shared

set_option maxRecDepth 16384
set_option maxHeartbeats 4000000

noncomputable section

namespace Cert.KernelIdeal.Hand

open Cert.KernelIdeal Cert.KernelIdeal.Gen Cert.ReferenceIdeal.Read
open Idealize.ShloMosaic Idealize.ShloMosaic.TcCoe Idealize.ShloMosaic.StableHlo
open Idealize.SL Idealize.SL.Sem

variable (m : (ℓ : Loc nD τ sig) → Buf (Elt Ideal) ℓ) (ρ : Dev nD → PrngReg)

/-- The feature array: the join. -/
theorem in7_x (c : Dev nD) (h0 : W16 m ρ c (Proc.devRef .tc main_v84) = val_main_v118 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) (h1 : W16 m ρ c (Proc.devRef .tc main_v170) = val_main_v215 (F := Ideal) (m ((c : Thread nD τ).loc main_arg0)) (m ((c : Thread nD τ).loc main_arg1)) (m ((c : Thread nD τ).loc main_arg11)) (m ((c : Thread nD τ).loc main_arg12)) (m ((c : Thread nD τ).loc main_arg13)) (m ((c : Thread nD τ).loc main_arg14))) (h2 : W16 m ρ c (Proc.devRef .tc main_v334) = val_main_v390 (F := Ideal) (m ((c : Thread nD τ).loc main_arg0)) (m ((c : Thread nD τ).loc main_arg1)) (m ((c : Thread nD τ).loc main_arg15)) (m ((c : Thread nD τ).loc main_arg16)) (m ((c : Thread nD τ).loc main_arg17)) (m ((c : Thread nD τ).loc main_arg18))) :
    V17 m ρ c main_v335 = val_main_v391 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) := by
  show W17 m ρ c (Proc.devRef .tc main_v335) = _
  show StableHlo.after hostOps7 (W16 m ρ c) (Proc.devRef .tc main_v335) = _
  after_results_simp
  show concatenate S100000x3 1 [⟨S100000x1, (W16 m ρ c (Proc.devRef .tc main_v84))⟩, ⟨S100000x1, (W16 m ρ c (Proc.devRef .tc main_v170))⟩, ⟨S100000x1, (W16 m ρ c (Proc.devRef .tc main_v334))⟩] concatenates_S100000x1_S100000x1_S100000x1_S100000x3_d1 = _
  rw [h0, h1, h2]
  simp only [val_main_v391]
  try rfl

/-- The weight. -/
theorem in7_w (c : Dev nD) :
    V17 m ρ c main_v336 = transpose S3x1 [1, 0] (m ((c : Thread nD τ).loc main_arg19)) transposes_S1x3_S3x1_1_0 := by
  show StableHlo.after hostOps7 (W16 m ρ c) (Proc.devRef .tc main_v336) = _
  after_results_simp
  simp only [W16_below m ρ c main_arg19 (by decide), W16_below m ρ c main_arg20 (by decide)]
  try rfl

/-- The bias row. -/
theorem in7_b (c : Dev nD) :
    V17 m ρ c main_v337 = shapeCast S1x1 (m ((c : Thread nD τ).loc main_arg20)) shapeCasts_S1_S1x1 := by
  show StableHlo.after hostOps7 (W16 m ρ c) (Proc.devRef .tc main_v337) = _
  after_results_simp
  simp only [W16_below m ρ c main_arg19 (by decide), W16_below m ρ c main_arg20 (by decide)]
  try rfl

end Cert.KernelIdeal.Hand

end
-- ==== Proof.KI.Value7.lean ====
/-
  Dense layer 7 as one function of whole arrays. At a grid point the pipeline writes back the layer's payload
  of the point's blocks: rows 5000·t … 5000·t + 4999 of the feature array, the whole weight, the whole bias
  row. The payload is the layer function, and the layer of a block of rows is the block of the layer, so the
  point writes back its row block of the layer of the whole arrays. The twenty blocks cover the result array,
  which therefore ends at the layer of the three arrays as the region found them.
-/
import proofs.«101217_j35820027249494_1_alg».proof.Proof.KI.Region7
import proofs.«101217_j35820027249494_1_alg».proof.Proof.KPay
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz7 : (![0, 0] : Fin 2 → Nat) = fun _ => 0 := funext fun a => by fin_cases a <;> rfl

/-- The printed index maps over the grid: the feature and result windows move down the rows with the point, the
    weight and the bias stay. -/
theorem idx_facts7 : ∀ t : Fin cfg7.N, win7_0.index t (0 : Fin 2) = t.val ∧ win7_0.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = t.val ∧ win7_3.index t (1 : Fin 2) = 0 :=
  (by decide +kernel : ∀ t : Fin grid7.N, _)

/-- Row `r` of block `t` is row 5000·t + r of the array. -/
def row7 (t : Fin cfg7.N) (r : Fin 5000) : Fin 100000 := ⟨t.val * 5000 + r.val, by
  have ht : t.val < 20 := lt_of_lt_of_eq t.isLt N_7
  have hr := r.isLt; omega⟩

/-- The feature window's block at a point: the rows of the block, every column. -/
theorem iblk7_0_eq (c : Dev nD) (t : Fin cfg7.N) :
    (iblk7 V c 0 t : S5000x3.Idx → EReal) = fun y => (V c main_v335 : S100000x3.Idx → EReal) (ix2 (row7 t (y 0)) (y 1)) := by
  obtain ⟨e0, e1, -, -, -, -, -, -⟩ := idx_facts7 t
  funext y
  show (V c main_v335 : S100000x3.Idx → EReal) (((cfg7.win 0).blk t).view.emb y) = _
  refine congrArg _ (funext fun a => Fin.ext ?_)
  match a with
  | ⟨0, _⟩ => show win7_0.index t (0 : Fin 2) * 5000 + 1 * (y 0).val = t.val * 5000 + (y 0).val; omega
  | ⟨1, _⟩ => show win7_0.index t (1 : Fin 2) * 3 + 1 * (y 1).val = (y 1).val; omega

/-- The weight window's block at a point is the whole weight. -/
theorem iblk7_1_eq (c : Dev nD) (t : Fin cfg7.N) :
    (iblk7 V c 1 t : S3x1.Idx → EReal) = (V c main_v336 : S3x1.Idx → EReal) := by
  obtain ⟨-, -, e0, e1, -, -, -, -⟩ := idx_facts7 t
  funext y
  show (V c main_v336 : S3x1.Idx → EReal) (((cfg7.win 1).blk t).view.emb y) = _
  refine congrArg _ (funext fun a => Fin.ext ?_)
  match a with
  | ⟨0, _⟩ => show win7_1.index t (0 : Fin 2) * 3 + 1 * (y 0).val = (y 0).val; omega
  | ⟨1, _⟩ => show win7_1.index t (1 : Fin 2) * 1 + 1 * (y 1).val = (y 1).val; omega

/-- The bias window's block at a point is the whole bias row. -/
theorem iblk7_2_eq (c : Dev nD) (t : Fin cfg7.N) :
    (iblk7 V c 2 t : S1x1.Idx → EReal) = (V c main_v337 : S1x1.Idx → EReal) := by
  obtain ⟨-, -, -, -, e0, e1, -, -⟩ := idx_facts7 t
  funext y
  show (V c main_v337 : S1x1.Idx → EReal) (((cfg7.win 2).blk t).view.emb y) = _
  refine congrArg _ (funext fun a => Fin.ext ?_)
  match a with
  | ⟨0, _⟩ => show win7_2.index t (0 : Fin 2) * 1 + 1 * (y 0).val = (y 0).val; omega
  | ⟨1, _⟩ => show win7_2.index t (1 : Fin 2) * 1 + 1 * (y 1).val = (y 1).val; omega

/-- The layer of the three arrays as the region finds them. -/
def G7 (c : Dev nD) : S100000x1.Idx → EReal :=
  Cert.Gnn.layerR (V c main_v335 : S100000x3.Idx → EReal) (V c main_v336 : S3x1.Idx → EReal) (V c main_v337 : S1x1.Idx → EReal)

/-- What point `t` writes back is its row block of the layer of the whole arrays. -/
theorem flushed7_eq (c : Dev nD) (t : Fin cfg7.N) :
    (dat7 V c).flushed 3 t = ((cfg7.win 3).blk t).view.read (Elt Ideal) (G7 V c) := by
  show (cfg7.win 3).cut (grid7.coords t) ((dat7 V c).after 3 t) = _
  rw [after7_3]
  unfold out7_3
  rw [View.canon_unit_zero hz7]
  simp only [View.ld_unit_zero (S := S5000x3) hz7, View.ld_unit_zero (S := S3x1) hz7, View.ld_unit_zero (S := S1x1) hz7]
  rw [Cert.Gnn.KPay.pay7, iblk7_0_eq, iblk7_1_eq, iblk7_2_eq]
  show (Cert.Gnn.layerR (fun y : S5000x3.Idx => (V c main_v335 : S100000x3.Idx → EReal) (ix2 (row7 t (y 0)) (y 1)))
      (V c main_v336 : S3x1.Idx → EReal) (V c main_v337 : S1x1.Idx → EReal) : S5000x1.Idx → EReal)
    = fun y : S5000x1.Idx => G7 V c (((cfg7.win 3).blk t).view.emb y)
  rw [Cert.Gnn.KPay.layerR_rows]
  obtain ⟨-, -, -, -, -, -, e0, e1⟩ := idx_facts7 t
  funext y
  unfold G7
  refine congrArg _ (funext fun a => Fin.ext ?_)
  match a with
  | ⟨0, _⟩ => show t.val * 5000 + (y 0).val = win7_3.index t (0 : Fin 2) * 5000 + 1 * (y 0).val; omega
  | ⟨1, _⟩ => show (y 1).val = win7_3.index t (1 : Fin 2) * 1 + 1 * (y 1).val; omega

/-- An index of the result array is in point `t`'s block iff each coordinate is in the block's range. -/
theorem mem_blk7 (t : Fin cfg7.N) (i : S100000x1.Idx) :
    i ∈ ((cfg7.win 3).blk t).view.set ↔ ∀ a : Fin 2, win7_3.index t a * S5000x1.size a ≤ (i a).val ∧ (i a).val < win7_3.index t a * S5000x1.size a + S5000x1.size a := by
  show i ∈ ((View.whole main_v338).slice (win7_3.rect t)).set ↔ _
  rw [View.set_slice_whole, Rect.mem_set_unit]
  exact Iff.rfl

/-- Every index of the result array is in the block of the point that its row falls in. -/
theorem cover7 (i : S100000x1.Idx) : ∃ t : Fin cfg7.N, (cfg7.win 3).flush t = true ∧ i ∈ ((cfg7.win 3).blk t).view.set := by
  have hi0 : (i 0).val < 100000 := (i 0).isLt
  have hi1 : (i 1).val < 1 := (i 1).isLt
  have hN : cfg7.N = 20 := N_7
  let t : Fin cfg7.N := ⟨(i 0).val / 5000, by rw [hN]; omega⟩
  obtain ⟨-, -, -, -, -, -, e0, e1⟩ := idx_facts7 t
  refine ⟨t, flush7_3 t, ?_⟩
  rw [mem_blk7]
  intro a
  have ht : t.val = (i 0).val / 5000 := rfl
  match a with
  | ⟨0, _⟩ => show win7_3.index t (0 : Fin 2) * 5000 ≤ (i 0).val ∧ (i 0).val < win7_3.index t (0 : Fin 2) * 5000 + 5000; omega
  | ⟨1, _⟩ => show win7_3.index t (1 : Fin 2) * 1 ≤ (i 1).val ∧ (i 1).val < win7_3.index t (1 : Fin 2) * 1 + 1; omega

/-- The result array after the pipeline is the layer of the three arrays as the region found them. -/
theorem final7 (c : Dev nD) : (dat7 V c).arrAt 3 cfg7.N = G7 V c :=
  (dat7 V c).arrAt_eq_of_cover 3 (G7 V c) (fun t _ => flushed7_eq V c t) (cover7)

end Cert.KernelIdeal.Hand

end
-- ==== Proof.RefLayers.lean ====
/-
  The reference's eight dense layers, each read as one layer function of whole arrays.

  The reference computes every dense layer of the network in plain array operations: a matrix product of the
  layer's input with the transposed weight, a bias vector broadcast to a row and then to every row and added,
  and an activation — the logistic function spelt out as  1 / (1 + e^(-a))  with both ones broadcast from a
  scalar, or the rectifier as the maximum with a broadcast zero. Entry by entry this is  act (x · w + b).

  The three SAGE layers add two products,  mean · wlᵀ + h · wrᵀ.  Joining the two inputs along their columns
  and the two weights along theirs turns the sum into one product,
      (mean ‖ h) · (wl ‖ wr)ᵀ = mean · wlᵀ + h · wrᵀ,
  because the sum over the joined axis splits at the seam into the sum over the first piece and the sum over
  the second; only commutativity and associativity of addition are used, so it holds over the extended reals
  with no finiteness assumption.

  The general statements come first, over any extents; the eight layers are instances. In each instance the
  right side is written with the three operand terms of the corresponding single-product form: the joined
  input, the transposed (joined) weight, and the bias vector laid out as a [1, N] row. The shape relations
  those terms need are taken as hypotheses.
-/
import Idealize.ShloMosaic.Lib.IdealHost
import proofs.«101217_j35820027249494_1_alg».proof.Proof.Spec
import proofs.«101217_j35820027249494_1_alg».proof.Proof.RefRead
import proofs.«101217_j35820027249494_1_alg».proof.KernelIdeal

noncomputable section

namespace Cert.Gnn.Ref

open Idealize.ShloMosaic Idealize.ShloMosaic.ValueIdx Idealize.ShloMosaic.Pipeline Cert.LibDense Cert.Gcn Cert.Gnn

/-! ## The logistic function as the host spells it -/

/-- One over one plus the exponential of the negation, with both ones broadcast from a scalar constant, is the logistic function. -/
theorem host_logistic {s : Shape} (h0 h0' : (⟨0, ![]⟩ : Shape).BroadcastsInDim s ![]) (a : FVec Ideal s .f32) :
    Host.divf (broadcastInDim s ![] h0 (constant (F := Ideal) (⟨0, ![]⟩ : Shape) .f32 0x3F800000#32))
        (addf (broadcastInDim s ![] h0' (constant (F := Ideal) (⟨0, ![]⟩ : Shape) .f32 0x3F800000#32))
          (Host.exp (Host.negf a)))
      = sigm a := by
  funext i
  show Ideal.div (broadcastInDim s ![] h0 (constant (F := Ideal) (⟨0, ![]⟩ : Shape) .f32 0x3F800000#32) i)
      (broadcastInDim s ![] h0' (constant (F := Ideal) (⟨0, ![]⟩ : Shape) .f32 0x3F800000#32) i + Ideal.exp (-(a i)))
    = Ideal.logistic (a i)
  rw [broadcastInDim_scalar_apply]
  show Ideal.div (Ideal.ofBits .f32 0x3F800000#32) (Ideal.ofBits .f32 0x3F800000#32 + Ideal.exp (-(a i))) = Ideal.logistic (a i)
  rw [Ideal.ofBits_one_f32]
  rfl

/-! ## A product of joined operands is the sum of the two products -/

/-- (a ‖ b) · (wl ‖ wr)ᵀ = a · wlᵀ + b · wrᵀ : the sum over the joined axis splits at the seam. -/
theorem mm_concat_split {M K1 K2 K N : ℕ} (hK : K1 + K2 = K)
    (a : (⟨2, ![M, K1]⟩ : Shape).Idx → EReal) (b : (⟨2, ![M, K2]⟩ : Shape).Idx → EReal)
    (wl : (⟨2, ![N, K1]⟩ : Shape).Idx → EReal) (wr : (⟨2, ![N, K2]⟩ : Shape).Idx → EReal)
    (hc1 : Shape.Concatenates [(⟨2, ![M, K1]⟩ : Shape), ⟨2, ![M, K2]⟩] ⟨2, ![M, K]⟩ 1)
    (hc2 : Shape.Concatenates [(⟨2, ![N, K1]⟩ : Shape), ⟨2, ![N, K2]⟩] ⟨2, ![N, K]⟩ 1)
    (ht : (⟨2, ![N, K]⟩ : Shape).Transposes [1, 0] ⟨2, ![K, N]⟩)
    (ht1 : (⟨2, ![N, K1]⟩ : Shape).Transposes [1, 0] ⟨2, ![K1, N]⟩)
    (ht2 : (⟨2, ![N, K2]⟩ : Shape).Transposes [1, 0] ⟨2, ![K2, N]⟩) :
    mm (concatenate (⟨2, ![M, K]⟩ : Shape) 1 [⟨⟨2, ![M, K1]⟩, a⟩, ⟨⟨2, ![M, K2]⟩, b⟩] hc1)
        (transpose (⟨2, ![K, N]⟩ : Shape) [1, 0]
          (concatenate (⟨2, ![N, K]⟩ : Shape) 1 [⟨⟨2, ![N, K1]⟩, wl⟩, ⟨⟨2, ![N, K2]⟩, wr⟩] hc2) ht)
      = fun i => mm a (transpose (⟨2, ![K1, N]⟩ : Shape) [1, 0] wl ht1) i
                + mm b (transpose (⟨2, ![K2, N]⟩ : Shape) [1, 0] wr ht2) i := by
  subst hK
  funext i
  obtain ⟨r, c, rfl⟩ : ∃ (r : Fin M) (c : Fin N), i = ix2 r c := ⟨i 0, i 1, eq_ix2 i⟩
  show (∑ k : Fin (K1 + K2),
        concatenate (⟨2, ![M, K1 + K2]⟩ : Shape) 1 [⟨⟨2, ![M, K1]⟩, a⟩, ⟨⟨2, ![M, K2]⟩, b⟩] hc1 (ix2 r k)
        * transpose (⟨2, ![K1 + K2, N]⟩ : Shape) [1, 0]
            (concatenate (⟨2, ![N, K1 + K2]⟩ : Shape) 1 [⟨⟨2, ![N, K1]⟩, wl⟩, ⟨⟨2, ![N, K2]⟩, wr⟩] hc2) ht (ix2 k c))
      = (∑ k : Fin K1, a (ix2 r k) * transpose (⟨2, ![K1, N]⟩ : Shape) [1, 0] wl ht1 (ix2 k c))
        + ∑ k : Fin K2, b (ix2 r k) * transpose (⟨2, ![K2, N]⟩ : Shape) [1, 0] wr ht2 (ix2 k c)
  rw [Fin.sum_univ_add]
  congr 1
  · refine Finset.sum_congr rfl fun k _ => ?_
    rw [transpose_ix2_apply, transpose_ix2_apply]
    rw [concatenate_pair_apply_left 1 a b hc1 (ix2 r (Fin.castAdd K2 k)) rfl (ix2 r k)
          (fun ax => match ax with | ⟨0, _⟩ => rfl | ⟨1, _⟩ => rfl)]
    rw [concatenate_pair_apply_left 1 wl wr hc2 (ix2 c (Fin.castAdd K2 k)) rfl (ix2 c k)
          (fun ax => match ax with | ⟨0, _⟩ => rfl | ⟨1, _⟩ => rfl)]
  · refine Finset.sum_congr rfl fun k _ => ?_
    rw [transpose_ix2_apply, transpose_ix2_apply]
    rw [concatenate_pair_apply_right 1 a b hc1 (ix2 r (Fin.natAdd K1 k)) rfl rfl (ix2 r k)
          (fun ax => match ax with | ⟨0, _⟩ => fun _ => rfl | ⟨1, _⟩ => fun h => absurd rfl h)
          (Nat.add_comm _ _)]
    rw [concatenate_pair_apply_right 1 wl wr hc2 (ix2 c (Fin.natAdd K1 k)) rfl rfl (ix2 c k)
          (fun ax => match ax with | ⟨0, _⟩ => fun _ => rfl | ⟨1, _⟩ => fun h => absurd rfl h)
          (Nat.add_comm _ _)]

/-! ## A whole layer as the host spells it -/

/-- The identity map of the two axes, as the host's second broadcast writes it. -/
theorem dims01 : ∀ a : Fin 2, (![0, 1] : Fin 2 → Fin 2) a = a :=
  fun a => match a with | ⟨0, _⟩ => rfl | ⟨1, _⟩ => rfl

/-- One product, a bias vector broadcast twice and added, the spelt-out logistic function: a layer with the logistic activation. -/
theorem plain_layerS {M K N : ℕ} (d : DotDims (⟨2, ![M, K]⟩ : Shape) ⟨2, ![K, N]⟩ ⟨2, ![M, N]⟩) (hd : d = DotDims.plain M K N)
    (x : FVec Ideal (⟨2, ![M, K]⟩ : Shape) .f32) (w : FVec Ideal (⟨2, ![K, N]⟩ : Shape) .f32)
    (b : FVec Ideal (⟨1, ![N]⟩ : Shape) .f32)
    (d1 : Fin 1 → Fin 2) (hd1 : d1 0 = 1) (h1 : (⟨1, ![N]⟩ : Shape).BroadcastsInDim ⟨2, ![1, N]⟩ d1)
    (d2 : Fin 2 → Fin 2) (hd2 : ∀ a, d2 a = a) (h2 : (⟨2, ![1, N]⟩ : Shape).BroadcastsInDim ⟨2, ![M, N]⟩ d2)
    (hc : (⟨1, ![N]⟩ : Shape).ShapeCasts ⟨2, ![1, N]⟩)
    (h0 h0' : (⟨0, ![]⟩ : Shape).BroadcastsInDim (⟨2, ![M, N]⟩ : Shape) ![]) :
    Host.divf (broadcastInDim (⟨2, ![M, N]⟩ : Shape) ![] h0 (constant (F := Ideal) (⟨0, ![]⟩ : Shape) .f32 0x3F800000#32))
        (addf (broadcastInDim (⟨2, ![M, N]⟩ : Shape) ![] h0' (constant (F := Ideal) (⟨0, ![]⟩ : Shape) .f32 0x3F800000#32))
          (Host.exp (Host.negf
            (addf (Host.dotGeneral d none x w)
              (broadcastInDim (⟨2, ![M, N]⟩ : Shape) d2 h2 (broadcastInDim (⟨2, ![1, N]⟩ : Shape) d1 h1 b))))))
      = layerS x w (shapeCast (⟨2, ![1, N]⟩ : Shape) b hc) := by
  subst hd
  rw [host_logistic, host_plain b d1 hd1 h1 d2 hd2 h2 hc, dotGeneral_eq_mm]
  rfl

/-- One product, the bias, the maximum with a broadcast zero: a layer with the rectifier. -/
theorem plain_layerR {M K N : ℕ} (d : DotDims (⟨2, ![M, K]⟩ : Shape) ⟨2, ![K, N]⟩ ⟨2, ![M, N]⟩) (hd : d = DotDims.plain M K N)
    (x : FVec Ideal (⟨2, ![M, K]⟩ : Shape) .f32) (w : FVec Ideal (⟨2, ![K, N]⟩ : Shape) .f32)
    (b : FVec Ideal (⟨1, ![N]⟩ : Shape) .f32)
    (d1 : Fin 1 → Fin 2) (hd1 : d1 0 = 1) (h1 : (⟨1, ![N]⟩ : Shape).BroadcastsInDim ⟨2, ![1, N]⟩ d1)
    (d2 : Fin 2 → Fin 2) (hd2 : ∀ a, d2 a = a) (h2 : (⟨2, ![1, N]⟩ : Shape).BroadcastsInDim ⟨2, ![M, N]⟩ d2)
    (hc : (⟨1, ![N]⟩ : Shape).ShapeCasts ⟨2, ![1, N]⟩)
    (d0 : Fin 0 → Fin 2) (h0 : (⟨0, ![]⟩ : Shape).BroadcastsInDim (⟨2, ![M, N]⟩ : Shape) d0) :
    maximumf
        (addf (Host.dotGeneral d none x w)
          (broadcastInDim (⟨2, ![M, N]⟩ : Shape) d2 h2 (broadcastInDim (⟨2, ![1, N]⟩ : Shape) d1 h1 b)))
        (broadcastInDim (⟨2, ![M, N]⟩ : Shape) d0 h0 (constant (F := Ideal) (⟨0, ![]⟩ : Shape) .f32 0x00000000#32))
      = layerR x w (shapeCast (⟨2, ![1, N]⟩ : Shape) b hc) := by
  subst hd
  rw [host_relu b d1 hd1 h1 d2 hd2 h2 hc d0 h0, dotGeneral_eq_mm]
  rfl

/-- Two products added — a · wlᵀ + b · wrᵀ — then the bias and the logistic function: the layer over the joined operands. -/
theorem sage_layerS {M K1 K2 K N : ℕ} (hK : K1 + K2 = K)
    (dl : DotDims (⟨2, ![M, K1]⟩ : Shape) ⟨2, ![K1, N]⟩ ⟨2, ![M, N]⟩) (hdl : dl = DotDims.plain M K1 N)
    (dr : DotDims (⟨2, ![M, K2]⟩ : Shape) ⟨2, ![K2, N]⟩ ⟨2, ![M, N]⟩) (hdr : dr = DotDims.plain M K2 N)
    (a : FVec Ideal (⟨2, ![M, K1]⟩ : Shape) .f32) (b : FVec Ideal (⟨2, ![M, K2]⟩ : Shape) .f32)
    (wl : FVec Ideal (⟨2, ![N, K1]⟩ : Shape) .f32) (wr : FVec Ideal (⟨2, ![N, K2]⟩ : Shape) .f32)
    (bias : FVec Ideal (⟨1, ![N]⟩ : Shape) .f32)
    (ht1 : (⟨2, ![N, K1]⟩ : Shape).Transposes [1, 0] ⟨2, ![K1, N]⟩)
    (ht2 : (⟨2, ![N, K2]⟩ : Shape).Transposes [1, 0] ⟨2, ![K2, N]⟩)
    (hc1 : Shape.Concatenates [(⟨2, ![M, K1]⟩ : Shape), ⟨2, ![M, K2]⟩] ⟨2, ![M, K]⟩ 1)
    (hc2 : Shape.Concatenates [(⟨2, ![N, K1]⟩ : Shape), ⟨2, ![N, K2]⟩] ⟨2, ![N, K]⟩ 1)
    (ht : (⟨2, ![N, K]⟩ : Shape).Transposes [1, 0] ⟨2, ![K, N]⟩)
    (d1 : Fin 1 → Fin 2) (hd1 : d1 0 = 1) (h1 : (⟨1, ![N]⟩ : Shape).BroadcastsInDim ⟨2, ![1, N]⟩ d1)
    (d2 : Fin 2 → Fin 2) (hd2 : ∀ a, d2 a = a) (h2 : (⟨2, ![1, N]⟩ : Shape).BroadcastsInDim ⟨2, ![M, N]⟩ d2)
    (hc : (⟨1, ![N]⟩ : Shape).ShapeCasts ⟨2, ![1, N]⟩)
    (h0 h0' : (⟨0, ![]⟩ : Shape).BroadcastsInDim (⟨2, ![M, N]⟩ : Shape) ![]) :
    Host.divf (broadcastInDim (⟨2, ![M, N]⟩ : Shape) ![] h0 (constant (F := Ideal) (⟨0, ![]⟩ : Shape) .f32 0x3F800000#32))
        (addf (broadcastInDim (⟨2, ![M, N]⟩ : Shape) ![] h0' (constant (F := Ideal) (⟨0, ![]⟩ : Shape) .f32 0x3F800000#32))
          (Host.exp (Host.negf
            (addf
              (addf (Host.dotGeneral dl none a (transpose (⟨2, ![K1, N]⟩ : Shape) [1, 0] wl ht1))
                    (Host.dotGeneral dr none b (transpose (⟨2, ![K2, N]⟩ : Shape) [1, 0] wr ht2)))
              (broadcastInDim (⟨2, ![M, N]⟩ : Shape) d2 h2 (broadcastInDim (⟨2, ![1, N]⟩ : Shape) d1 h1 bias))))))
      = layerS (concatenate (⟨2, ![M, K]⟩ : Shape) 1 [⟨⟨2, ![M, K1]⟩, a⟩, ⟨⟨2, ![M, K2]⟩, b⟩] hc1)
          (transpose (⟨2, ![K, N]⟩ : Shape) [1, 0]
            (concatenate (⟨2, ![N, K]⟩ : Shape) 1 [⟨⟨2, ![N, K1]⟩, wl⟩, ⟨⟨2, ![N, K2]⟩, wr⟩] hc2) ht)
          (shapeCast (⟨2, ![1, N]⟩ : Shape) bias hc) := by
  subst hdl hdr
  rw [host_logistic, host_plain bias d1 hd1 h1 d2 hd2 h2 hc, dotGeneral_eq_mm, dotGeneral_eq_mm]
  unfold layerS
  rw [mm_concat_split hK a b wl wr hc1 hc2 ht ht1 ht2]
  rfl

/-- The same two products and bias under the rectifier. -/
theorem sage_layerR {M K1 K2 K N : ℕ} (hK : K1 + K2 = K)
    (dl : DotDims (⟨2, ![M, K1]⟩ : Shape) ⟨2, ![K1, N]⟩ ⟨2, ![M, N]⟩) (hdl : dl = DotDims.plain M K1 N)
    (dr : DotDims (⟨2, ![M, K2]⟩ : Shape) ⟨2, ![K2, N]⟩ ⟨2, ![M, N]⟩) (hdr : dr = DotDims.plain M K2 N)
    (a : FVec Ideal (⟨2, ![M, K1]⟩ : Shape) .f32) (b : FVec Ideal (⟨2, ![M, K2]⟩ : Shape) .f32)
    (wl : FVec Ideal (⟨2, ![N, K1]⟩ : Shape) .f32) (wr : FVec Ideal (⟨2, ![N, K2]⟩ : Shape) .f32)
    (bias : FVec Ideal (⟨1, ![N]⟩ : Shape) .f32)
    (ht1 : (⟨2, ![N, K1]⟩ : Shape).Transposes [1, 0] ⟨2, ![K1, N]⟩)
    (ht2 : (⟨2, ![N, K2]⟩ : Shape).Transposes [1, 0] ⟨2, ![K2, N]⟩)
    (hc1 : Shape.Concatenates [(⟨2, ![M, K1]⟩ : Shape), ⟨2, ![M, K2]⟩] ⟨2, ![M, K]⟩ 1)
    (hc2 : Shape.Concatenates [(⟨2, ![N, K1]⟩ : Shape), ⟨2, ![N, K2]⟩] ⟨2, ![N, K]⟩ 1)
    (ht : (⟨2, ![N, K]⟩ : Shape).Transposes [1, 0] ⟨2, ![K, N]⟩)
    (d1 : Fin 1 → Fin 2) (hd1 : d1 0 = 1) (h1 : (⟨1, ![N]⟩ : Shape).BroadcastsInDim ⟨2, ![1, N]⟩ d1)
    (d2 : Fin 2 → Fin 2) (hd2 : ∀ a, d2 a = a) (h2 : (⟨2, ![1, N]⟩ : Shape).BroadcastsInDim ⟨2, ![M, N]⟩ d2)
    (hc : (⟨1, ![N]⟩ : Shape).ShapeCasts ⟨2, ![1, N]⟩)
    (d0 : Fin 0 → Fin 2) (h0 : (⟨0, ![]⟩ : Shape).BroadcastsInDim (⟨2, ![M, N]⟩ : Shape) d0) :
    maximumf
        (addf
          (addf (Host.dotGeneral dl none a (transpose (⟨2, ![K1, N]⟩ : Shape) [1, 0] wl ht1))
                (Host.dotGeneral dr none b (transpose (⟨2, ![K2, N]⟩ : Shape) [1, 0] wr ht2)))
          (broadcastInDim (⟨2, ![M, N]⟩ : Shape) d2 h2 (broadcastInDim (⟨2, ![1, N]⟩ : Shape) d1 h1 bias)))
        (broadcastInDim (⟨2, ![M, N]⟩ : Shape) d0 h0 (constant (F := Ideal) (⟨0, ![]⟩ : Shape) .f32 0x00000000#32))
      = layerR (concatenate (⟨2, ![M, K]⟩ : Shape) 1 [⟨⟨2, ![M, K1]⟩, a⟩, ⟨⟨2, ![M, K2]⟩, b⟩] hc1)
          (transpose (⟨2, ![K, N]⟩ : Shape) [1, 0]
            (concatenate (⟨2, ![N, K]⟩ : Shape) 1 [⟨⟨2, ![N, K1]⟩, wl⟩, ⟨⟨2, ![N, K2]⟩, wr⟩] hc2) ht)
          (shapeCast (⟨2, ![1, N]⟩ : Shape) bias hc) := by
  subst hdl hdr
  rw [host_relu bias d1 hd1 h1 d2 hd2 h2 hc d0 h0, dotGeneral_eq_mm, dotGeneral_eq_mm]
  unfold layerR
  rw [mm_concat_split hK a b wl wr hc1 hc2 ht ht1 ht2]
  rfl

/-! ## The eight layers of the reference -/

section layers
open Cert.ReferenceIdeal Cert.ReferenceIdeal.Read

/-- The first SAGE layer: the logistic function of (mean ‖ x) · (wl ‖ wr)ᵀ + b. -/
theorem sage1 (x0 : (⟨S100000x11, .f32⟩ : BufTy).Contents (Elt Ideal)) (x1 : (⟨S2x1600000, .i32⟩ : BufTy).Contents (Elt Ideal)) (x2 x3 : (⟨S128x11, .f32⟩ : BufTy).Contents (Elt Ideal)) (x4 : (⟨S128, .f32⟩ : BufTy).Contents (Elt Ideal))
    {h1 : Shape.Concatenates [Cert.KernelIdeal.S100000x11, Cert.KernelIdeal.S100000x11] Cert.KernelIdeal.S100000x22 1}
    {h2 : Shape.Concatenates [Cert.KernelIdeal.S128x11, Cert.KernelIdeal.S128x11] Cert.KernelIdeal.S128x22 1}
    {h3 : Cert.KernelIdeal.S128x22.Transposes [1, 0] Cert.KernelIdeal.S22x128}
    {h4 : Cert.KernelIdeal.S128.ShapeCasts Cert.KernelIdeal.S1x128} :
    val_main_v59 (F := Ideal) x0 x1 x2 x3 x4
      = layerS
          (concatenate Cert.KernelIdeal.S100000x22 1 [⟨Cert.KernelIdeal.S100000x11, val_main_v45 (F := Ideal) x0 x1⟩, ⟨Cert.KernelIdeal.S100000x11, x0⟩] h1)
          (transpose Cert.KernelIdeal.S22x128 [1, 0]
            (concatenate Cert.KernelIdeal.S128x22 1 [⟨Cert.KernelIdeal.S128x11, x2⟩, ⟨Cert.KernelIdeal.S128x11, x3⟩] h2) h3)
          (shapeCast Cert.KernelIdeal.S1x128 x4 h4) := by
  unfold val_main_v59 val_main_v58 val_main_v57 val_main_v56 val_main_v55 val_main_v54
    val_main_v53 val_main_v52 val_main_v51 val_main_v50 val_main_v49 val_main_v48
    val_main_v47 val_main_v46 val_main_cst_14 val_main_cst_13
  exact sage_layerS (K1 := 11) (K2 := 11) rfl _ rfl _ rfl _ _ _ _ _ _ _ h1 h2 h3 ![1] rfl _ ![0, 1] dims01 _ h4 _ _

/-- The second SAGE layer: the logistic function of (mean of h₁ ‖ h₁) · (wl ‖ wr)ᵀ + b. -/
theorem sage2 (x0 : (⟨S100000x11, .f32⟩ : BufTy).Contents (Elt Ideal)) (x1 : (⟨S2x1600000, .i32⟩ : BufTy).Contents (Elt Ideal)) (x2 x3 : (⟨S128x11, .f32⟩ : BufTy).Contents (Elt Ideal)) (x4 : (⟨S128, .f32⟩ : BufTy).Contents (Elt Ideal)) (x5 x6 : (⟨S128x128, .f32⟩ : BufTy).Contents (Elt Ideal)) (x7 : (⟨S128, .f32⟩ : BufTy).Contents (Elt Ideal))
    {h1 : Shape.Concatenates [Cert.KernelIdeal.S100000x128, Cert.KernelIdeal.S100000x128] Cert.KernelIdeal.S100000x256 1}
    {h2 : Shape.Concatenates [Cert.KernelIdeal.S128x128, Cert.KernelIdeal.S128x128] Cert.KernelIdeal.S128x256 1}
    {h3 : Cert.KernelIdeal.S128x256.Transposes [1, 0] Cert.KernelIdeal.S256x128}
    {h4 : Cert.KernelIdeal.S128.ShapeCasts Cert.KernelIdeal.S1x128} :
    val_main_v91 (F := Ideal) x0 x1 x2 x3 x4 x5 x6 x7
      = layerS
          (concatenate Cert.KernelIdeal.S100000x256 1 [⟨Cert.KernelIdeal.S100000x128, val_main_v77 (F := Ideal) x0 x1 x2 x3 x4⟩, ⟨Cert.KernelIdeal.S100000x128, val_main_v59 (F := Ideal) x0 x1 x2 x3 x4⟩] h1)
          (transpose Cert.KernelIdeal.S256x128 [1, 0]
            (concatenate Cert.KernelIdeal.S128x256 1 [⟨Cert.KernelIdeal.S128x128, x5⟩, ⟨Cert.KernelIdeal.S128x128, x6⟩] h2) h3)
          (shapeCast Cert.KernelIdeal.S1x128 x7 h4) := by
  unfold val_main_v91 val_main_v90 val_main_v89 val_main_v88 val_main_v87 val_main_v86
    val_main_v85 val_main_v84 val_main_v83 val_main_v82 val_main_v81 val_main_v80
    val_main_v79 val_main_v78 val_main_cst_22 val_main_cst_21
  exact sage_layerS (K1 := 128) (K2 := 128) rfl _ rfl _ rfl _ _ _ _ _ _ _ h1 h2 h3 ![1] rfl _ ![0, 1] dims01 _ h4 _ _

/-- The third SAGE layer: the rectifier of (mean of h₂ ‖ h₂) · (wl ‖ wr)ᵀ + b. -/
theorem sage3 (x0 : (⟨S100000x11, .f32⟩ : BufTy).Contents (Elt Ideal)) (x1 : (⟨S2x1600000, .i32⟩ : BufTy).Contents (Elt Ideal)) (x2 x3 : (⟨S128x11, .f32⟩ : BufTy).Contents (Elt Ideal)) (x4 : (⟨S128, .f32⟩ : BufTy).Contents (Elt Ideal)) (x5 x6 : (⟨S128x128, .f32⟩ : BufTy).Contents (Elt Ideal)) (x7 : (⟨S128, .f32⟩ : BufTy).Contents (Elt Ideal)) (x8 x9 : (⟨S1x128, .f32⟩ : BufTy).Contents (Elt Ideal)) (x10 : (⟨S1, .f32⟩ : BufTy).Contents (Elt Ideal))
    {h1 : Shape.Concatenates [Cert.KernelIdeal.S100000x128, Cert.KernelIdeal.S100000x128] Cert.KernelIdeal.S100000x256 1}
    {h2 : Shape.Concatenates [Cert.KernelIdeal.S1x128, Cert.KernelIdeal.S1x128] Cert.KernelIdeal.S1x256 1}
    {h3 : Cert.KernelIdeal.S1x256.Transposes [1, 0] Cert.KernelIdeal.S256x1}
    {h4 : Cert.KernelIdeal.S1.ShapeCasts Cert.KernelIdeal.S1x1} :
    val_main_v118 (F := Ideal) x0 x1 x2 x3 x4 x5 x6 x7 x8 x9 x10
      = layerR
          (concatenate Cert.KernelIdeal.S100000x256 1 [⟨Cert.KernelIdeal.S100000x128, val_main_v109 (F := Ideal) x0 x1 x2 x3 x4 x5 x6 x7⟩, ⟨Cert.KernelIdeal.S100000x128, val_main_v91 (F := Ideal) x0 x1 x2 x3 x4 x5 x6 x7⟩] h1)
          (transpose Cert.KernelIdeal.S256x1 [1, 0]
            (concatenate Cert.KernelIdeal.S1x256 1 [⟨Cert.KernelIdeal.S1x128, x8⟩, ⟨Cert.KernelIdeal.S1x128, x9⟩] h2) h3)
          (shapeCast Cert.KernelIdeal.S1x1 x10 h4) := by
  unfold val_main_v118 val_main_v117 val_main_v116 val_main_v115 val_main_v114 val_main_v113
    val_main_v112 val_main_v111 val_main_v110 val_main_call1_v0 val_main_call1_cst
  exact sage_layerR (K1 := 128) (K2 := 128) rfl _ rfl _ rfl _ _ _ _ _ _ _ h1 h2 h3 ![1] rfl _ ![0, 1] dims01 _ h4 ![] _

/-- The first TAG branch, layer one: the logistic function of (x and its three hops, joined) · wᵀ + b. -/
theorem taga1 (x0 : (⟨S100000x11, .f32⟩ : BufTy).Contents (Elt Ideal)) (x1 : (⟨S2x1600000, .i32⟩ : BufTy).Contents (Elt Ideal)) (x11 : (⟨S8x44, .f32⟩ : BufTy).Contents (Elt Ideal)) (x12 : (⟨S8, .f32⟩ : BufTy).Contents (Elt Ideal))
    {h3 : Cert.KernelIdeal.S8x44.Transposes [1, 0] Cert.KernelIdeal.S44x8}
    {h4 : Cert.KernelIdeal.S8.ShapeCasts Cert.KernelIdeal.S1x8} :
    val_main_v169 (F := Ideal) x0 x1 x11 x12
      = layerS (val_main_v158 (F := Ideal) x0 x1)
          (transpose Cert.KernelIdeal.S44x8 [1, 0] x11 h3)
          (shapeCast Cert.KernelIdeal.S1x8 x12 h4) := by
  unfold val_main_v169 val_main_v168 val_main_v167 val_main_v166 val_main_v165 val_main_v164
    val_main_v163 val_main_v162 val_main_v161 val_main_v160 val_main_v159 val_main_cst_39
    val_main_cst_38
  exact plain_layerS _ rfl _ _ _ ![1] rfl _ ![0, 1] dims01 _ h4 _ _

/-- The first TAG branch, layer two: the rectifier of (the layer-one output and its three hops, joined) · wᵀ + b. -/
theorem taga2 (x0 : (⟨S100000x11, .f32⟩ : BufTy).Contents (Elt Ideal)) (x1 : (⟨S2x1600000, .i32⟩ : BufTy).Contents (Elt Ideal)) (x11 : (⟨S8x44, .f32⟩ : BufTy).Contents (Elt Ideal)) (x12 : (⟨S8, .f32⟩ : BufTy).Contents (Elt Ideal)) (x13 : (⟨S1x32, .f32⟩ : BufTy).Contents (Elt Ideal)) (x14 : (⟨S1, .f32⟩ : BufTy).Contents (Elt Ideal))
    {h3 : Cert.KernelIdeal.S1x32.Transposes [1, 0] Cert.KernelIdeal.S32x1}
    {h4 : Cert.KernelIdeal.S1.ShapeCasts Cert.KernelIdeal.S1x1} :
    val_main_v215 (F := Ideal) x0 x1 x11 x12 x13 x14
      = layerR (val_main_v209 (F := Ideal) x0 x1 x11 x12)
          (transpose Cert.KernelIdeal.S32x1 [1, 0] x13 h3)
          (shapeCast Cert.KernelIdeal.S1x1 x14 h4) := by
  unfold val_main_v215 val_main_v214 val_main_v213 val_main_v212 val_main_v211 val_main_v210
    val_main_call2_v0 val_main_call2_cst
  exact plain_layerR _ rfl _ _ _ ![1] rfl _ ![0, 1] dims01 _ h4 ![] _

/-- The second TAG branch, layer one: the logistic function of (x and its six hops, joined) · wᵀ + b. -/
theorem tagb1 (x0 : (⟨S100000x11, .f32⟩ : BufTy).Contents (Elt Ideal)) (x1 : (⟨S2x1600000, .i32⟩ : BufTy).Contents (Elt Ideal)) (x15 : (⟨S8x77, .f32⟩ : BufTy).Contents (Elt Ideal)) (x16 : (⟨S8, .f32⟩ : BufTy).Contents (Elt Ideal))
    {h3 : Cert.KernelIdeal.S8x77.Transposes [1, 0] Cert.KernelIdeal.S77x8}
    {h4 : Cert.KernelIdeal.S8.ShapeCasts Cert.KernelIdeal.S1x8} :
    val_main_v305 (F := Ideal) x0 x1 x15 x16
      = layerS (val_main_v294 (F := Ideal) x0 x1)
          (transpose Cert.KernelIdeal.S77x8 [1, 0] x15 h3)
          (shapeCast Cert.KernelIdeal.S1x8 x16 h4) := by
  unfold val_main_v305 val_main_v304 val_main_v303 val_main_v302 val_main_v301 val_main_v300
    val_main_v299 val_main_v298 val_main_v297 val_main_v296 val_main_v295 val_main_cst_67
    val_main_cst_68
  exact plain_layerS _ rfl _ _ _ ![1] rfl _ ![0, 1] dims01 _ h4 _ _

/-- The second TAG branch, layer two: the rectifier of (the layer-one output and its six hops, joined) · wᵀ + b. -/
theorem tagb2 (x0 : (⟨S100000x11, .f32⟩ : BufTy).Contents (Elt Ideal)) (x1 : (⟨S2x1600000, .i32⟩ : BufTy).Contents (Elt Ideal)) (x15 : (⟨S8x77, .f32⟩ : BufTy).Contents (Elt Ideal)) (x16 : (⟨S8, .f32⟩ : BufTy).Contents (Elt Ideal)) (x17 : (⟨S1x56, .f32⟩ : BufTy).Contents (Elt Ideal)) (x18 : (⟨S1, .f32⟩ : BufTy).Contents (Elt Ideal))
    {h3 : Cert.KernelIdeal.S1x56.Transposes [1, 0] Cert.KernelIdeal.S56x1}
    {h4 : Cert.KernelIdeal.S1.ShapeCasts Cert.KernelIdeal.S1x1} :
    val_main_v390 (F := Ideal) x0 x1 x15 x16 x17 x18
      = layerR (val_main_v384 (F := Ideal) x0 x1 x15 x16)
          (transpose Cert.KernelIdeal.S56x1 [1, 0] x17 h3)
          (shapeCast Cert.KernelIdeal.S1x1 x18 h4) := by
  unfold val_main_v390 val_main_v389 val_main_v388 val_main_v387 val_main_v386 val_main_v385
    val_main_call3_v0 val_main_call3_cst
  exact plain_layerR _ rfl _ _ _ ![1] rfl _ ![0, 1] dims01 _ h4 ![] _

/-- The final layer: the rectifier of (the three branch outputs, joined) · wᵀ + b. -/
theorem final (x0 : (⟨S100000x11, .f32⟩ : BufTy).Contents (Elt Ideal)) (x1 : (⟨S2x1600000, .i32⟩ : BufTy).Contents (Elt Ideal)) (x2 x3 : (⟨S128x11, .f32⟩ : BufTy).Contents (Elt Ideal)) (x4 : (⟨S128, .f32⟩ : BufTy).Contents (Elt Ideal)) (x5 x6 : (⟨S128x128, .f32⟩ : BufTy).Contents (Elt Ideal)) (x7 : (⟨S128, .f32⟩ : BufTy).Contents (Elt Ideal)) (x8 x9 : (⟨S1x128, .f32⟩ : BufTy).Contents (Elt Ideal)) (x10 : (⟨S1, .f32⟩ : BufTy).Contents (Elt Ideal)) (x11 : (⟨S8x44, .f32⟩ : BufTy).Contents (Elt Ideal)) (x12 : (⟨S8, .f32⟩ : BufTy).Contents (Elt Ideal)) (x13 : (⟨S1x32, .f32⟩ : BufTy).Contents (Elt Ideal)) (x14 : (⟨S1, .f32⟩ : BufTy).Contents (Elt Ideal)) (x15 : (⟨S8x77, .f32⟩ : BufTy).Contents (Elt Ideal)) (x16 : (⟨S8, .f32⟩ : BufTy).Contents (Elt Ideal)) (x17 : (⟨S1x56, .f32⟩ : BufTy).Contents (Elt Ideal)) (x18 : (⟨S1, .f32⟩ : BufTy).Contents (Elt Ideal)) (x19 : (⟨S1x3, .f32⟩ : BufTy).Contents (Elt Ideal)) (x20 : (⟨S1, .f32⟩ : BufTy).Contents (Elt Ideal))
    {h3 : Cert.KernelIdeal.S1x3.Transposes [1, 0] Cert.KernelIdeal.S3x1}
    {h4 : Cert.KernelIdeal.S1.ShapeCasts Cert.KernelIdeal.S1x1} :
    val_main_v397 (F := Ideal) x0 x1 x2 x3 x4 x5 x6 x7 x8 x9 x10 x11 x12 x13 x14 x15 x16 x17 x18 x19 x20
      = layerR (val_main_v391 (F := Ideal) x0 x1 x2 x3 x4 x5 x6 x7 x8 x9 x10 x11 x12 x13 x14 x15 x16 x17 x18)
          (transpose Cert.KernelIdeal.S3x1 [1, 0] x19 h3)
          (shapeCast Cert.KernelIdeal.S1x1 x20 h4) := by
  unfold val_main_v397 val_main_v396 val_main_v395 val_main_v394 val_main_v393 val_main_v392
    val_main_call4_v0 val_main_call4_cst
  exact plain_layerR _ rfl _ _ _ ![1] rfl _ ![0, 1] dims01 _ h4 ![] _

end layers

end Cert.Gnn.Ref

end
-- ==== Proof.KI.Out.lean ====
/-
  The chain of results. Dense layer k's result array is the layer function of the three arrays its pipeline is
  entered with; those are the reference's stages of the arguments (the feature array through the results of the
  layers before it); and the reference's own value after the layer is the same layer function of the same three
  arrays. So, layer by layer, each result buffer holds the reference's stage, up to the program's result.
-/
import proofs.«101217_j35820027249494_1_alg».proof.Proof.KI.In0
import proofs.«101217_j35820027249494_1_alg».proof.Proof.KI.Value0
import proofs.«101217_j35820027249494_1_alg».proof.Proof.KI.In1
import proofs.«101217_j35820027249494_1_alg».proof.Proof.KI.Value1
import proofs.«101217_j35820027249494_1_alg».proof.Proof.KI.In2
import proofs.«101217_j35820027249494_1_alg».proof.Proof.KI.Value2
import proofs.«101217_j35820027249494_1_alg».proof.Proof.KI.In3
import proofs.«101217_j35820027249494_1_alg».proof.Proof.KI.Value3
import proofs.«101217_j35820027249494_1_alg».proof.Proof.KI.In4
import proofs.«101217_j35820027249494_1_alg».proof.Proof.KI.Value4
import proofs.«101217_j35820027249494_1_alg».proof.Proof.KI.In5
import proofs.«101217_j35820027249494_1_alg».proof.Proof.KI.Value5
import proofs.«101217_j35820027249494_1_alg».proof.Proof.KI.In6
import proofs.«101217_j35820027249494_1_alg».proof.Proof.KI.Value6
import proofs.«101217_j35820027249494_1_alg».proof.Proof.KI.In7
import proofs.«101217_j35820027249494_1_alg».proof.Proof.KI.Value7
import proofs.«101217_j35820027249494_1_alg».proof.Proof.RefLayers

set_option maxRecDepth 16384
set_option maxHeartbeats 4000000

noncomputable section

namespace Cert.KernelIdeal.Hand

open Cert.KernelIdeal Cert.KernelIdeal.Gen Cert.ReferenceIdeal.Read
open Idealize.ShloMosaic Idealize.ShloMosaic.TcCoe Idealize.ShloMosaic.StableHlo
open Idealize.SL Idealize.SL.Sem

variable (m : (ℓ : Loc nD τ sig) → Buf (Elt Ideal) ℓ) (ρ : Dev nD → PrngReg)

/-- Layer 0's result buffer holds the reference's stage `val_main_v59` of the arguments. -/
theorem out0 (c : Dev nD) : W4 m ρ c (Proc.devRef .tc main_v50) = val_main_v59 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (W4_arr m ρ c 3).trans ?_
  rw [final0 (V3 m ρ) c]
  unfold G0
  rw [in0_x m ρ c, in0_w m ρ c, in0_b m ρ c]
  exact (Cert.Gnn.Ref.sage1 (m ((c : Thread nD τ).loc main_arg0)) (m ((c : Thread nD τ).loc main_arg1)) (m ((c : Thread nD τ).loc main_arg2)) (m ((c : Thread nD τ).loc main_arg3)) (m ((c : Thread nD τ).loc main_arg4))).symm

/-- Layer 1's result buffer holds the reference's stage `val_main_v91` of the arguments. -/
theorem out1 (c : Dev nD) : W6 m ρ c (Proc.devRef .tc main_v67) = val_main_v91 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W6_arr m ρ c 3).trans ?_
  rw [final1 (V5 m ρ) c]
  unfold G1
  rw [in1_x m ρ c (out0 m ρ c), in1_w m ρ c, in1_b m ρ c]
  exact (Cert.Gnn.Ref.sage2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))).symm

/-- Layer 2's result buffer holds the reference's stage `val_main_v118` of the arguments. -/
theorem out2 (c : Dev nD) : W8 m ρ c (Proc.devRef .tc main_v84) = val_main_v118 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (W8_arr m ρ c 3).trans ?_
  rw [final2 (V7 m ρ) c]
  unfold G2
  rw [in2_x m ρ c (out1 m ρ c), in2_w m ρ c, in2_b m ρ c]
  exact (Cert.Gnn.Ref.sage3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))).symm

/-- Layer 3's result buffer holds the reference's stage `val_main_v169` of the arguments. -/
theorem out3 (c : Dev nD) : W10 m ρ c (Proc.devRef .tc main_v127) = val_main_v169 (F := Ideal) (m ((c : Thread nD τ).loc main_arg0)) (m ((c : Thread nD τ).loc main_arg1)) (m ((c : Thread nD τ).loc main_arg11)) (m ((c : Thread nD τ).loc main_arg12)) := by
  refine (W10_arr m ρ c 3).trans ?_
  rw [final3 (V9 m ρ) c]
  unfold G3
  rw [in3_x m ρ c, in3_w m ρ c, in3_b m ρ c]
  exact (Cert.Gnn.Ref.taga1 (m ((c : Thread nD τ).loc main_arg0)) (m ((c : Thread nD τ).loc main_arg1)) (m ((c : Thread nD τ).loc main_arg11)) (m ((c : Thread nD τ).loc main_arg12))).symm

/-- Layer 4's result buffer holds the reference's stage `val_main_v215` of the arguments. -/
theorem out4 (c : Dev nD) : W12 m ρ c (Proc.devRef .tc main_v170) = val_main_v215 (F := Ideal) (m ((c : Thread nD τ).loc main_arg0)) (m ((c : Thread nD τ).loc main_arg1)) (m ((c : Thread nD τ).loc main_arg11)) (m ((c : Thread nD τ).loc main_arg12)) (m ((c : Thread nD τ).loc main_arg13)) (m ((c : Thread nD τ).loc main_arg14)) := by
  refine (W12_arr m ρ c 3).trans ?_
  rw [final4 (V11 m ρ) c]
  unfold G4
  rw [in4_x m ρ c (out3 m ρ c), in4_w m ρ c, in4_b m ρ c]
  exact (Cert.Gnn.Ref.taga2 (m ((c : Thread nD τ).loc main_arg0)) (m ((c : Thread nD τ).loc main_arg1)) (m ((c : Thread nD τ).loc main_arg11)) (m ((c : Thread nD τ).loc main_arg12)) (m ((c : Thread nD τ).loc main_arg13)) (m ((c : Thread nD τ).loc main_arg14))).symm

/-- Layer 5's result buffer holds the reference's stage `val_main_v305` of the arguments. -/
theorem out5 (c : Dev nD) : W14 m ρ c (Proc.devRef .tc main_v252) = val_main_v305 (F := Ideal) (m ((c : Thread nD τ).loc main_arg0)) (m ((c : Thread nD τ).loc main_arg1)) (m ((c : Thread nD τ).loc main_arg15)) (m ((c : Thread nD τ).loc main_arg16)) := by
  refine (W14_arr m ρ c 3).trans ?_
  rw [final5 (V13 m ρ) c]
  unfold G5
  rw [in5_x m ρ c, in5_w m ρ c, in5_b m ρ c]
  exact (Cert.Gnn.Ref.tagb1 (m ((c : Thread nD τ).loc main_arg0)) (m ((c : Thread nD τ).loc main_arg1)) (m ((c : Thread nD τ).loc main_arg15)) (m ((c : Thread nD τ).loc main_arg16))).symm

/-- Layer 6's result buffer holds the reference's stage `val_main_v390` of the arguments. -/
theorem out6 (c : Dev nD) : W16 m ρ c (Proc.devRef .tc main_v334) = val_main_v390 (F := Ideal) (m ((c : Thread nD τ).loc main_arg0)) (m ((c : Thread nD τ).loc main_arg1)) (m ((c : Thread nD τ).loc main_arg15)) (m ((c : Thread nD τ).loc main_arg16)) (m ((c : Thread nD τ).loc main_arg17)) (m ((c : Thread nD τ).loc main_arg18)) := by
  refine (W16_arr m ρ c 3).trans ?_
  rw [final6 (V15 m ρ) c]
  unfold G6
  rw [in6_x m ρ c (out5 m ρ c), in6_w m ρ c, in6_b m ρ c]
  exact (Cert.Gnn.Ref.tagb2 (m ((c : Thread nD τ).loc main_arg0)) (m ((c : Thread nD τ).loc main_arg1)) (m ((c : Thread nD τ).loc main_arg15)) (m ((c : Thread nD τ).loc main_arg16)) (m ((c : Thread nD τ).loc main_arg17)) (m ((c : Thread nD τ).loc main_arg18))).symm

/-- Layer 7's result buffer holds the reference's stage `val_main_v397` of the arguments. -/
theorem out7 (c : Dev nD) : W18 m ρ c (Proc.devRef .tc main_v338) = val_main_v397 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) := by
  refine (W18_arr m ρ c 3).trans ?_
  rw [final7 (V17 m ρ) c]
  unfold G7
  rw [in7_x m ρ c ((W16_from8 m ρ c main_v84 (by decide)).trans (out2 m ρ c)) ((W16_from12 m ρ c main_v170 (by decide)).trans (out4 m ρ c)) (out6 m ρ c), in7_w m ρ c, in7_b m ρ c]
  exact (Cert.Gnn.Ref.final (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20))).symm

/-- The program's result buffer ends at the reference's result stage of the arguments. -/
theorem result_eq (c : Dev nD) : W18 m ρ c (Proc.devRef .tc main_v338) = val_main_v397 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) := out7 m ρ c

end Cert.KernelIdeal.Hand

end
-- ==== Proof.RefWin.lean ====
/- A table, no argument: the reference's operation list `ops` (Proof/RefOps.lean) cut into 34 windows, each window the
   lines of `ops` between two cut points, verbatim. Proof/RefRun.lean proves that their concatenation is `ops`. -/
import proofs.«101217_j35820027249494_1_alg».proof.Proof.RefOps

noncomputable section

namespace Cert.ReferenceIdeal.HandRun

open Cert.ReferenceIdeal Cert.ReferenceIdeal.Gen Cert.ReferenceIdeal.Value Idealize.ShloMosaic Idealize.ShloMosaic.TcCoe Idealize.SL.Sem Idealize.ShloMosaic.StableHlo

variable {F : FTy → Type} [FloatOps F]

set_option maxHeartbeats 0 in
/-- Window 0: operations 0 to 62 of the line. -/
abbrev w0 : List (HloOp τ sig (Elt F)) :=
  [ unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000,
    nullary main_cst (constant S_ .f32 0x3F800000#32),
    unary main_cst main_v4 (broadcastInDim S1600000 ![] bcast_S_S1600000 : (⟨S_, .f32⟩ : BufTy).Contents (Elt F) → (⟨S1600000, .f32⟩ : BufTy).Contents (Elt F)),
    nullary main_cst_0 (constant S_ .f32 0x00000000#32),
    unary main_cst_0 main_v5 (broadcastInDim S100000 ![] bcast_S_S100000 : (⟨S_, .f32⟩ : BufTy).Contents (Elt F) → (⟨S100000, .f32⟩ : BufTy).Contents (Elt F)),
    unary main_v3 main_v6 (broadcastInDim S1600000x1 ![0] bcast_S1600000_S1600000x1_0 : (⟨S1600000, .i32⟩ : BufTy).Contents (Elt F) → (⟨S1600000x1, .i32⟩ : BufTy).Contents (Elt F)),
    ternary main_v5 main_v6 main_v4 main_v7 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_1 (constant S_ .f32 0x00000000#32),
    unary main_cst_1 main_v8 (broadcastInDim S100000 ![] bcast_S_S100000 : (⟨S_, .f32⟩ : BufTy).Contents (Elt F) → (⟨S100000, .f32⟩ : BufTy).Contents (Elt F)),
    binary main_v7 main_v8 main_v9 (cmpf .ogt : (⟨S100000, .f32⟩ : BufTy).Contents (Elt F) → (⟨S100000, .f32⟩ : BufTy).Contents (Elt F) → (⟨S100000, .i1⟩ : BufTy).Contents (Elt F)),
    nullary main_cst_2 (constant S_ .f32 0xBF000000#32),
    unary main_cst_2 main_v10 (broadcastInDim S100000 ![] bcast_S_S100000 : (⟨S_, .f32⟩ : BufTy).Contents (Elt F) → (⟨S100000, .f32⟩ : BufTy).Contents (Elt F)),
    binary main_v7 main_v10 main_v11 (Host.powf : (⟨S100000, .f32⟩ : BufTy).Contents (Elt F) → (⟨S100000, .f32⟩ : BufTy).Contents (Elt F) → (⟨S100000, .f32⟩ : BufTy).Contents (Elt F)),
    nullary main_cst_3 (constant S_ .f32 0x00000000#32),
    TRef.unary (TRef.of (T := ⟨S_, .f32⟩) main_cst_3) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v9) (TRef.of (T := ⟨S100000, .f32⟩) main_v11) (TRef.of (T := ⟨S100000, .f32⟩) main_call0_v1) (TRef.of (T := ⟨S100000, .f32⟩) main_v12) select,
    nullary main_c (constantI S_ 32 0#32),
    unary main_c main_v13 (broadcastInDim S1600000 ![] bcast_S_S1600000 : (⟨S_, .i32⟩ : BufTy).Contents (Elt F) → (⟨S1600000, .i32⟩ : BufTy).Contents (Elt F)),
    binary main_v1 main_v13 main_v14 (cmpi .slt : (⟨S1600000, .i32⟩ : BufTy).Contents (Elt F) → (⟨S1600000, .i32⟩ : BufTy).Contents (Elt F) → (⟨S1600000, .i1⟩ : BufTy).Contents (Elt F)),
    nullary main_c_4 (constantI S_ 32 100000#32),
    unary main_c_4 main_v15 (broadcastInDim S1600000 ![] bcast_S_S1600000 : (⟨S_, .i32⟩ : BufTy).Contents (Elt F) → (⟨S1600000, .i32⟩ : BufTy).Contents (Elt F)),
    binary main_v1 main_v15 main_v16 (addi : (⟨S1600000, .i32⟩ : BufTy).Contents (Elt F) → (⟨S1600000, .i32⟩ : BufTy).Contents (Elt F) → (⟨S1600000, .i32⟩ : BufTy).Contents (Elt F)),
    ternary main_v14 main_v16 main_v1 main_v17 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v17 main_v18 (broadcastInDim S1600000x1 ![0] bcast_S1600000_S1600000x1_0 : (⟨S1600000, .i32⟩ : BufTy).Contents (Elt F) → (⟨S1600000x1, .i32⟩ : BufTy).Contents (Elt F)),
    binary main_v12 main_v18 main_v19 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    nullary main_c_5 (constantI S_ 32 0#32),
    unary main_c_5 main_v20 (broadcastInDim S1600000 ![] bcast_S_S1600000 : (⟨S_, .i32⟩ : BufTy).Contents (Elt F) → (⟨S1600000, .i32⟩ : BufTy).Contents (Elt F)),
    binary main_v3 main_v20 main_v21 (cmpi .slt : (⟨S1600000, .i32⟩ : BufTy).Contents (Elt F) → (⟨S1600000, .i32⟩ : BufTy).Contents (Elt F) → (⟨S1600000, .i1⟩ : BufTy).Contents (Elt F)),
    nullary main_c_6 (constantI S_ 32 100000#32),
    unary main_c_6 main_v22 (broadcastInDim S1600000 ![] bcast_S_S1600000 : (⟨S_, .i32⟩ : BufTy).Contents (Elt F) → (⟨S1600000, .i32⟩ : BufTy).Contents (Elt F)),
    binary main_v3 main_v22 main_v23 (addi : (⟨S1600000, .i32⟩ : BufTy).Contents (Elt F) → (⟨S1600000, .i32⟩ : BufTy).Contents (Elt F) → (⟨S1600000, .i32⟩ : BufTy).Contents (Elt F)),
    ternary main_v21 main_v23 main_v3 main_v24 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v24 main_v25 (broadcastInDim S1600000x1 ![0] bcast_S1600000_S1600000x1_0 : (⟨S1600000, .i32⟩ : BufTy).Contents (Elt F) → (⟨S1600000x1, .i32⟩ : BufTy).Contents (Elt F)),
    binary main_v12 main_v25 main_v26 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    binary main_v19 main_v26 main_v27 (mulf : (⟨S1600000, .f32⟩ : BufTy).Contents (Elt F) → (⟨S1600000, .f32⟩ : BufTy).Contents (Elt F) → (⟨S1600000, .f32⟩ : BufTy).Contents (Elt F)),
    nullary main_c_7 (constantI S_ 32 0#32),
    unary main_c_7 main_v28 (broadcastInDim S1600000 ![] bcast_S_S1600000 : (⟨S_, .i32⟩ : BufTy).Contents (Elt F) → (⟨S1600000, .i32⟩ : BufTy).Contents (Elt F)),
    binary main_v1 main_v28 main_v29 (cmpi .slt : (⟨S1600000, .i32⟩ : BufTy).Contents (Elt F) → (⟨S1600000, .i32⟩ : BufTy).Contents (Elt F) → (⟨S1600000, .i1⟩ : BufTy).Contents (Elt F)),
    nullary main_c_8 (constantI S_ 32 100000#32),
    unary main_c_8 main_v30 (broadcastInDim S1600000 ![] bcast_S_S1600000 : (⟨S_, .i32⟩ : BufTy).Contents (Elt F) → (⟨S1600000, .i32⟩ : BufTy).Contents (Elt F)),
    binary main_v1 main_v30 main_v31 (addi : (⟨S1600000, .i32⟩ : BufTy).Contents (Elt F) → (⟨S1600000, .i32⟩ : BufTy).Contents (Elt F) → (⟨S1600000, .i32⟩ : BufTy).Contents (Elt F)),
    ternary main_v29 main_v31 main_v1 main_v32 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v32 main_v33 (broadcastInDim S1600000x1 ![0] bcast_S1600000_S1600000x1_0 : (⟨S1600000, .i32⟩ : BufTy).Contents (Elt F) → (⟨S1600000x1, .i32⟩ : BufTy).Contents (Elt F)),
    binary main_arg0 main_v33 main_v34 ((fun x i => Host.gather gather_S100000x11_S1600000x1_S1600000x11_1_0_n_n_0_1_111 x i) : (⟨S100000x11, .f32⟩ : BufTy).Contents (Elt F) → (⟨S1600000x1, .i32⟩ : BufTy).Contents (Elt F) → (⟨S1600000x11, .f32⟩ : BufTy).Contents (Elt F)),
    nullary main_cst_9 (constant S_ .f32 0x00000000#32),
    unary main_cst_9 main_v35 (broadcastInDim S100000x11 ![] bcast_S_S100000x11 : (⟨S_, .f32⟩ : BufTy).Contents (Elt F) → (⟨S100000x11, .f32⟩ : BufTy).Contents (Elt F)),
    unary main_v3 main_v36 (broadcastInDim S1600000x1 ![0] bcast_S1600000_S1600000x1_0 : (⟨S1600000, .i32⟩ : BufTy).Contents (Elt F) → (⟨S1600000x1, .i32⟩ : BufTy).Contents (Elt F)),
    ternary main_v35 main_v36 main_v34 main_v37 ((fun x i u => Host.scatterAdd scatter_S100000x11_S1600000x1_S1600000x11_1_0_0_1 x i u) : (⟨S100000x11, .f32⟩ : BufTy).Contents (Elt F) → (⟨S1600000x1, .i32⟩ : BufTy).Contents (Elt F) → (⟨S1600000x11, .f32⟩ : BufTy).Contents (Elt F) → (⟨S100000x11, .f32⟩ : BufTy).Contents (Elt F)),
    nullary main_cst_10 (constant S_ .f32 0x3F800000#32),
    unary main_cst_10 main_v38 (broadcastInDim S1600000x1 ![] bcast_S_S1600000x1 : (⟨S_, .f32⟩ : BufTy).Contents (Elt F) → (⟨S1600000x1, .f32⟩ : BufTy).Contents (Elt F)),
    nullary main_cst_11 (constant S_ .f32 0x00000000#32),
    unary main_cst_11 main_v39 (broadcastInDim S100000x1 ![] bcast_S_S100000x1 : (⟨S_, .f32⟩ : BufTy).Contents (Elt F) → (⟨S100000x1, .f32⟩ : BufTy).Contents (Elt F)),
    unary main_v3 main_v40 (broadcastInDim S1600000x1 ![0] bcast_S1600000_S1600000x1_0 : (⟨S1600000, .i32⟩ : BufTy).Contents (Elt F) → (⟨S1600000x1, .i32⟩ : BufTy).Contents (Elt F)),
    ternary main_v39 main_v40 main_v38 main_v41 ((fun x i u => Host.scatterAdd scatter_S100000x1_S1600000x1_S1600000x1_1_0_0_1 x i u) : (⟨S100000x1, .f32⟩ : BufTy).Contents (Elt F) → (⟨S1600000x1, .i32⟩ : BufTy).Contents (Elt F) → (⟨S1600000x1, .f32⟩ : BufTy).Contents (Elt F) → (⟨S100000x1, .f32⟩ : BufTy).Contents (Elt F)),
    nullary main_cst_12 (constant S_ .f32 0x3F800000#32),
    unary main_cst_12 main_v42 (broadcastInDim S100000x1 ![] bcast_S_S100000x1 : (⟨S_, .f32⟩ : BufTy).Contents (Elt F) → (⟨S100000x1, .f32⟩ : BufTy).Contents (Elt F)),
    binary main_v41 main_v42 main_v43 (maximumf : (⟨S100000x1, .f32⟩ : BufTy).Contents (Elt F) → (⟨S100000x1, .f32⟩ : BufTy).Contents (Elt F) → (⟨S100000x1, .f32⟩ : BufTy).Contents (Elt F)),
    unary main_v43 main_v44 (broadcastInDim S100000x11 ![0, 1] bcast_S100000x1_S100000x11_0_1 : (⟨S100000x1, .f32⟩ : BufTy).Contents (Elt F) → (⟨S100000x11, .f32⟩ : BufTy).Contents (Elt F)),
    binary main_v37 main_v44 main_v45 (Host.divf : (⟨S100000x11, .f32⟩ : BufTy).Contents (Elt F) → (⟨S100000x11, .f32⟩ : BufTy).Contents (Elt F) → (⟨S100000x11, .f32⟩ : BufTy).Contents (Elt F)) ]

set_option maxHeartbeats 0 in
/-- Window 1: operations 63 to 78 of the line. -/
abbrev w1 : List (HloOp τ sig (Elt F)) :=
  [ unary main_arg2 main_v46 ((transpose S11x128 [1, 0] · transposes_S128x11_S11x128_1_0) : (⟨S128x11, .f32⟩ : BufTy).Contents (Elt F) → (⟨S11x128, .f32⟩ : BufTy).Contents (Elt F)),
    binary main_v45 main_v46 main_v47 ((fun l r => Host.dotGeneral dot_S100000x11_S11x128_S100000x128_1_0_0_1_n_n none l r) : (⟨S100000x11, .f32⟩ : BufTy).Contents (Elt F) → (⟨S11x128, .f32⟩ : BufTy).Contents (Elt F) → (⟨S100000x128, .f32⟩ : BufTy).Contents (Elt F)),
    unary main_arg3 main_v48 ((transpose S11x128 [1, 0] · transposes_S128x11_S11x128_1_0) : (⟨S128x11, .f32⟩ : BufTy).Contents (Elt F) → (⟨S11x128, .f32⟩ : BufTy).Contents (Elt F)),
    binary main_arg0 main_v48 main_v49 ((fun l r => Host.dotGeneral dot_S100000x11_S11x128_S100000x128_1_0_0_1_n_n none l r) : (⟨S100000x11, .f32⟩ : BufTy).Contents (Elt F) → (⟨S11x128, .f32⟩ : BufTy).Contents (Elt F) → (⟨S100000x128, .f32⟩ : BufTy).Contents (Elt F)),
    binary main_v47 main_v49 main_v50 (addf : (⟨S100000x128, .f32⟩ : BufTy).Contents (Elt F) → (⟨S100000x128, .f32⟩ : BufTy).Contents (Elt F) → (⟨S100000x128, .f32⟩ : BufTy).Contents (Elt F)),
    unary main_arg4 main_v51 (broadcastInDim S1x128 ![1] bcast_S128_S1x128_1 : (⟨S128, .f32⟩ : BufTy).Contents (Elt F) → (⟨S1x128, .f32⟩ : BufTy).Contents (Elt F)),
    unary main_v51 main_v52 (broadcastInDim S100000x128 ![0, 1] bcast_S1x128_S100000x128_0_1 : (⟨S1x128, .f32⟩ : BufTy).Contents (Elt F) → (⟨S100000x128, .f32⟩ : BufTy).Contents (Elt F)),
    binary main_v50 main_v52 main_v53 (addf : (⟨S100000x128, .f32⟩ : BufTy).Contents (Elt F) → (⟨S100000x128, .f32⟩ : BufTy).Contents (Elt F) → (⟨S100000x128, .f32⟩ : BufTy).Contents (Elt F)),
    unary main_v53 main_v54 (Host.negf : (⟨S100000x128, .f32⟩ : BufTy).Contents (Elt F) → (⟨S100000x128, .f32⟩ : BufTy).Contents (Elt F)),
    unary main_v54 main_v55 (Host.exp : (⟨S100000x128, .f32⟩ : BufTy).Contents (Elt F) → (⟨S100000x128, .f32⟩ : BufTy).Contents (Elt F)),
    nullary main_cst_13 (constant S_ .f32 0x3F800000#32),
    unary main_cst_13 main_v56 (broadcastInDim S100000x128 ![] bcast_S_S100000x128 : (⟨S_, .f32⟩ : BufTy).Contents (Elt F) → (⟨S100000x128, .f32⟩ : BufTy).Contents (Elt F)),
    binary main_v56 main_v55 main_v57 (addf : (⟨S100000x128, .f32⟩ : BufTy).Contents (Elt F) → (⟨S100000x128, .f32⟩ : BufTy).Contents (Elt F) → (⟨S100000x128, .f32⟩ : BufTy).Contents (Elt F)),
    nullary main_cst_14 (constant S_ .f32 0x3F800000#32),
    unary main_cst_14 main_v58 (broadcastInDim S100000x128 ![] bcast_S_S100000x128 : (⟨S_, .f32⟩ : BufTy).Contents (Elt F) → (⟨S100000x128, .f32⟩ : BufTy).Contents (Elt F)),
    binary main_v58 main_v57 main_v59 (Host.divf : (⟨S100000x128, .f32⟩ : BufTy).Contents (Elt F) → (⟨S100000x128, .f32⟩ : BufTy).Contents (Elt F) → (⟨S100000x128, .f32⟩ : BufTy).Contents (Elt F)) ]

set_option maxHeartbeats 0 in
/-- Window 2: operations 79 to 102 of the line. -/
abbrev w2 : List (HloOp τ sig (Elt F)) :=
  [ nullary main_c_15 (constantI S_ 32 0#32),
    unary main_c_15 main_v60 (broadcastInDim S1600000 ![] bcast_S_S1600000 : (⟨S_, .i32⟩ : BufTy).Contents (Elt F) → (⟨S1600000, .i32⟩ : BufTy).Contents (Elt F)),
    binary main_v1 main_v60 main_v61 (cmpi .slt : (⟨S1600000, .i32⟩ : BufTy).Contents (Elt F) → (⟨S1600000, .i32⟩ : BufTy).Contents (Elt F) → (⟨S1600000, .i1⟩ : BufTy).Contents (Elt F)),
    nullary main_c_16 (constantI S_ 32 100000#32),
    unary main_c_16 main_v62 (broadcastInDim S1600000 ![] bcast_S_S1600000 : (⟨S_, .i32⟩ : BufTy).Contents (Elt F) → (⟨S1600000, .i32⟩ : BufTy).Contents (Elt F)),
    binary main_v1 main_v62 main_v63 (addi : (⟨S1600000, .i32⟩ : BufTy).Contents (Elt F) → (⟨S1600000, .i32⟩ : BufTy).Contents (Elt F) → (⟨S1600000, .i32⟩ : BufTy).Contents (Elt F)),
    ternary main_v61 main_v63 main_v1 main_v64 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v64 main_v65 (broadcastInDim S1600000x1 ![0] bcast_S1600000_S1600000x1_0 : (⟨S1600000, .i32⟩ : BufTy).Contents (Elt F) → (⟨S1600000x1, .i32⟩ : BufTy).Contents (Elt F)),
    binary main_v59 main_v65 main_v66 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    nullary main_cst_17 (constant S_ .f32 0x00000000#32),
    unary main_cst_17 main_v67 (broadcastInDim S100000x128 ![] bcast_S_S100000x128 : (⟨S_, .f32⟩ : BufTy).Contents (Elt F) → (⟨S100000x128, .f32⟩ : BufTy).Contents (Elt F)),
    unary main_v3 main_v68 (broadcastInDim S1600000x1 ![0] bcast_S1600000_S1600000x1_0 : (⟨S1600000, .i32⟩ : BufTy).Contents (Elt F) → (⟨S1600000x1, .i32⟩ : BufTy).Contents (Elt F)),
    ternary main_v67 main_v68 main_v66 main_v69 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    nullary main_cst_18 (constant S_ .f32 0x3F800000#32),
    unary main_cst_18 main_v70 (broadcastInDim S1600000x1 ![] bcast_S_S1600000x1 : (⟨S_, .f32⟩ : BufTy).Contents (Elt F) → (⟨S1600000x1, .f32⟩ : BufTy).Contents (Elt F)),
    nullary main_cst_19 (constant S_ .f32 0x00000000#32),
    unary main_cst_19 main_v71 (broadcastInDim S100000x1 ![] bcast_S_S100000x1 : (⟨S_, .f32⟩ : BufTy).Contents (Elt F) → (⟨S100000x1, .f32⟩ : BufTy).Contents (Elt F)),
    unary main_v3 main_v72 (broadcastInDim S1600000x1 ![0] bcast_S1600000_S1600000x1_0 : (⟨S1600000, .i32⟩ : BufTy).Contents (Elt F) → (⟨S1600000x1, .i32⟩ : BufTy).Contents (Elt F)),
    ternary main_v71 main_v72 main_v70 main_v73 ((fun x i u => Host.scatterAdd scatter_S100000x1_S1600000x1_S1600000x1_1_0_0_1 x i u) : (⟨S100000x1, .f32⟩ : BufTy).Contents (Elt F) → (⟨S1600000x1, .i32⟩ : BufTy).Contents (Elt F) → (⟨S1600000x1, .f32⟩ : BufTy).Contents (Elt F) → (⟨S100000x1, .f32⟩ : BufTy).Contents (Elt F)),
    nullary main_cst_20 (constant S_ .f32 0x3F800000#32),
    unary main_cst_20 main_v74 (broadcastInDim S100000x1 ![] bcast_S_S100000x1 : (⟨S_, .f32⟩ : BufTy).Contents (Elt F) → (⟨S100000x1, .f32⟩ : BufTy).Contents (Elt F)),
    binary main_v73 main_v74 main_v75 (maximumf : (⟨S100000x1, .f32⟩ : BufTy).Contents (Elt F) → (⟨S100000x1, .f32⟩ : BufTy).Contents (Elt F) → (⟨S100000x1, .f32⟩ : BufTy).Contents (Elt F)),
    unary main_v75 main_v76 (broadcastInDim S100000x128 ![0, 1] bcast_S100000x1_S100000x128_0_1 : (⟨S100000x1, .f32⟩ : BufTy).Contents (Elt F) → (⟨S100000x128, .f32⟩ : BufTy).Contents (Elt F)),
    binary main_v69 main_v76 main_v77 (Host.divf : (⟨S100000x128, .f32⟩ : BufTy).Contents (Elt F) → (⟨S100000x128, .f32⟩ : BufTy).Contents (Elt F) → (⟨S100000x128, .f32⟩ : BufTy).Contents (Elt F)) ]

set_option maxHeartbeats 0 in
/-- Window 3: operations 103 to 118 of the line. -/
abbrev w3 : List (HloOp τ sig (Elt F)) :=
  [ unary main_arg5 main_v78 ((transpose S128x128 [1, 0] · transposes_S128x128_S128x128_1_0) : (⟨S128x128, .f32⟩ : BufTy).Contents (Elt F) → (⟨S128x128, .f32⟩ : BufTy).Contents (Elt F)),
    binary main_v77 main_v78 main_v79 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg6 main_v80 ((transpose S128x128 [1, 0] · transposes_S128x128_S128x128_1_0) : (⟨S128x128, .f32⟩ : BufTy).Contents (Elt F) → (⟨S128x128, .f32⟩ : BufTy).Contents (Elt F)),
    binary main_v59 main_v80 main_v81 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_v79 main_v81 main_v82 (addf : (⟨S100000x128, .f32⟩ : BufTy).Contents (Elt F) → (⟨S100000x128, .f32⟩ : BufTy).Contents (Elt F) → (⟨S100000x128, .f32⟩ : BufTy).Contents (Elt F)),
    unary main_arg7 main_v83 (broadcastInDim S1x128 ![1] bcast_S128_S1x128_1 : (⟨S128, .f32⟩ : BufTy).Contents (Elt F) → (⟨S1x128, .f32⟩ : BufTy).Contents (Elt F)),
    unary main_v83 main_v84 (broadcastInDim S100000x128 ![0, 1] bcast_S1x128_S100000x128_0_1 : (⟨S1x128, .f32⟩ : BufTy).Contents (Elt F) → (⟨S100000x128, .f32⟩ : BufTy).Contents (Elt F)),
    binary main_v82 main_v84 main_v85 (addf : (⟨S100000x128, .f32⟩ : BufTy).Contents (Elt F) → (⟨S100000x128, .f32⟩ : BufTy).Contents (Elt F) → (⟨S100000x128, .f32⟩ : BufTy).Contents (Elt F)),
    unary main_v85 main_v86 (Host.negf : (⟨S100000x128, .f32⟩ : BufTy).Contents (Elt F) → (⟨S100000x128, .f32⟩ : BufTy).Contents (Elt F)),
    unary main_v86 main_v87 (Host.exp : (⟨S100000x128, .f32⟩ : BufTy).Contents (Elt F) → (⟨S100000x128, .f32⟩ : BufTy).Contents (Elt F)),
    nullary main_cst_21 (constant S_ .f32 0x3F800000#32),
    unary main_cst_21 main_v88 (broadcastInDim S100000x128 ![] bcast_S_S100000x128 : (⟨S_, .f32⟩ : BufTy).Contents (Elt F) → (⟨S100000x128, .f32⟩ : BufTy).Contents (Elt F)),
    binary main_v88 main_v87 main_v89 (addf : (⟨S100000x128, .f32⟩ : BufTy).Contents (Elt F) → (⟨S100000x128, .f32⟩ : BufTy).Contents (Elt F) → (⟨S100000x128, .f32⟩ : BufTy).Contents (Elt F)),
    nullary main_cst_22 (constant S_ .f32 0x3F800000#32),
    unary main_cst_22 main_v90 (broadcastInDim S100000x128 ![] bcast_S_S100000x128 : (⟨S_, .f32⟩ : BufTy).Contents (Elt F) → (⟨S100000x128, .f32⟩ : BufTy).Contents (Elt F)),
    binary main_v90 main_v89 main_v91 (Host.divf : (⟨S100000x128, .f32⟩ : BufTy).Contents (Elt F) → (⟨S100000x128, .f32⟩ : BufTy).Contents (Elt F) → (⟨S100000x128, .f32⟩ : BufTy).Contents (Elt F)) ]

set_option maxHeartbeats 0 in
/-- Window 4: operations 119 to 142 of the line. -/
abbrev w4 : List (HloOp τ sig (Elt F)) :=
  [ nullary main_c_23 (constantI S_ 32 0#32),
    unary main_c_23 main_v92 (broadcastInDim S1600000 ![] bcast_S_S1600000 : (⟨S_, .i32⟩ : BufTy).Contents (Elt F) → (⟨S1600000, .i32⟩ : BufTy).Contents (Elt F)),
    binary main_v1 main_v92 main_v93 (cmpi .slt : (⟨S1600000, .i32⟩ : BufTy).Contents (Elt F) → (⟨S1600000, .i32⟩ : BufTy).Contents (Elt F) → (⟨S1600000, .i1⟩ : BufTy).Contents (Elt F)),
    nullary main_c_24 (constantI S_ 32 100000#32),
    unary main_c_24 main_v94 (broadcastInDim S1600000 ![] bcast_S_S1600000 : (⟨S_, .i32⟩ : BufTy).Contents (Elt F) → (⟨S1600000, .i32⟩ : BufTy).Contents (Elt F)),
    binary main_v1 main_v94 main_v95 (addi : (⟨S1600000, .i32⟩ : BufTy).Contents (Elt F) → (⟨S1600000, .i32⟩ : BufTy).Contents (Elt F) → (⟨S1600000, .i32⟩ : BufTy).Contents (Elt F)),
    ternary main_v93 main_v95 main_v1 main_v96 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v96 main_v97 (broadcastInDim S1600000x1 ![0] bcast_S1600000_S1600000x1_0 : (⟨S1600000, .i32⟩ : BufTy).Contents (Elt F) → (⟨S1600000x1, .i32⟩ : BufTy).Contents (Elt F)),
    binary main_v91 main_v97 main_v98 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    nullary main_cst_25 (constant S_ .f32 0x00000000#32),
    unary main_cst_25 main_v99 (broadcastInDim S100000x128 ![] bcast_S_S100000x128 : (⟨S_, .f32⟩ : BufTy).Contents (Elt F) → (⟨S100000x128, .f32⟩ : BufTy).Contents (Elt F)),
    unary main_v3 main_v100 (broadcastInDim S1600000x1 ![0] bcast_S1600000_S1600000x1_0 : (⟨S1600000, .i32⟩ : BufTy).Contents (Elt F) → (⟨S1600000x1, .i32⟩ : BufTy).Contents (Elt F)),
    ternary main_v99 main_v100 main_v98 main_v101 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    nullary main_cst_26 (constant S_ .f32 0x3F800000#32),
    unary main_cst_26 main_v102 (broadcastInDim S1600000x1 ![] bcast_S_S1600000x1 : (⟨S_, .f32⟩ : BufTy).Contents (Elt F) → (⟨S1600000x1, .f32⟩ : BufTy).Contents (Elt F)),
    nullary main_cst_27 (constant S_ .f32 0x00000000#32),
    unary main_cst_27 main_v103 (broadcastInDim S100000x1 ![] bcast_S_S100000x1 : (⟨S_, .f32⟩ : BufTy).Contents (Elt F) → (⟨S100000x1, .f32⟩ : BufTy).Contents (Elt F)),
    unary main_v3 main_v104 (broadcastInDim S1600000x1 ![0] bcast_S1600000_S1600000x1_0 : (⟨S1600000, .i32⟩ : BufTy).Contents (Elt F) → (⟨S1600000x1, .i32⟩ : BufTy).Contents (Elt F)),
    ternary main_v103 main_v104 main_v102 main_v105 ((fun x i u => Host.scatterAdd scatter_S100000x1_S1600000x1_S1600000x1_1_0_0_1 x i u) : (⟨S100000x1, .f32⟩ : BufTy).Contents (Elt F) → (⟨S1600000x1, .i32⟩ : BufTy).Contents (Elt F) → (⟨S1600000x1, .f32⟩ : BufTy).Contents (Elt F) → (⟨S100000x1, .f32⟩ : BufTy).Contents (Elt F)),
    nullary main_cst_28 (constant S_ .f32 0x3F800000#32),
    unary main_cst_28 main_v106 (broadcastInDim S100000x1 ![] bcast_S_S100000x1 : (⟨S_, .f32⟩ : BufTy).Contents (Elt F) → (⟨S100000x1, .f32⟩ : BufTy).Contents (Elt F)),
    binary main_v105 main_v106 main_v107 (maximumf : (⟨S100000x1, .f32⟩ : BufTy).Contents (Elt F) → (⟨S100000x1, .f32⟩ : BufTy).Contents (Elt F) → (⟨S100000x1, .f32⟩ : BufTy).Contents (Elt F)),
    unary main_v107 main_v108 (broadcastInDim S100000x128 ![0, 1] bcast_S100000x1_S100000x128_0_1 : (⟨S100000x1, .f32⟩ : BufTy).Contents (Elt F) → (⟨S100000x128, .f32⟩ : BufTy).Contents (Elt F)),
    binary main_v101 main_v108 main_v109 (Host.divf : (⟨S100000x128, .f32⟩ : BufTy).Contents (Elt F) → (⟨S100000x128, .f32⟩ : BufTy).Contents (Elt F) → (⟨S100000x128, .f32⟩ : BufTy).Contents (Elt F)) ]

set_option maxHeartbeats 0 in
/-- Window 5: operations 143 to 153 of the line. -/
abbrev w5 : List (HloOp τ sig (Elt F)) :=
  [ unary main_arg8 main_v110 ((transpose S128x1 [1, 0] · transposes_S1x128_S128x1_1_0) : (⟨S1x128, .f32⟩ : BufTy).Contents (Elt F) → (⟨S128x1, .f32⟩ : BufTy).Contents (Elt F)),
    binary main_v109 main_v110 main_v111 ((fun l r => Host.dotGeneral dot_S100000x128_S128x1_S100000x1_1_0_0_1_n_n none l r) : (⟨S100000x128, .f32⟩ : BufTy).Contents (Elt F) → (⟨S128x1, .f32⟩ : BufTy).Contents (Elt F) → (⟨S100000x1, .f32⟩ : BufTy).Contents (Elt F)),
    unary main_arg9 main_v112 ((transpose S128x1 [1, 0] · transposes_S1x128_S128x1_1_0) : (⟨S1x128, .f32⟩ : BufTy).Contents (Elt F) → (⟨S128x1, .f32⟩ : BufTy).Contents (Elt F)),
    binary main_v91 main_v112 main_v113 ((fun l r => Host.dotGeneral dot_S100000x128_S128x1_S100000x1_1_0_0_1_n_n none l r) : (⟨S100000x128, .f32⟩ : BufTy).Contents (Elt F) → (⟨S128x1, .f32⟩ : BufTy).Contents (Elt F) → (⟨S100000x1, .f32⟩ : BufTy).Contents (Elt F)),
    binary main_v111 main_v113 main_v114 (addf : (⟨S100000x1, .f32⟩ : BufTy).Contents (Elt F) → (⟨S100000x1, .f32⟩ : BufTy).Contents (Elt F) → (⟨S100000x1, .f32⟩ : BufTy).Contents (Elt F)),
    unary main_arg10 main_v115 (broadcastInDim S1x1 ![1] bcast_S1_S1x1_1 : (⟨S1, .f32⟩ : BufTy).Contents (Elt F) → (⟨S1x1, .f32⟩ : BufTy).Contents (Elt F)),
    unary main_v115 main_v116 (broadcastInDim S100000x1 ![0, 1] bcast_S1x1_S100000x1_0_1 : (⟨S1x1, .f32⟩ : BufTy).Contents (Elt F) → (⟨S100000x1, .f32⟩ : BufTy).Contents (Elt F)),
    binary main_v114 main_v116 main_v117 (addf : (⟨S100000x1, .f32⟩ : BufTy).Contents (Elt F) → (⟨S100000x1, .f32⟩ : BufTy).Contents (Elt F) → (⟨S100000x1, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x1, .f32⟩) main_call1_v0) (broadcastInDim S100000x1 ![] bcast_S_S100000x1),
    TRef.binary (TRef.of (T := ⟨S100000x1, .f32⟩) main_v117) (TRef.of (T := ⟨S100000x1, .f32⟩) main_call1_v0) (TRef.of (T := ⟨S100000x1, .f32⟩) main_v118) maximumf ]

set_option maxHeartbeats 0 in
/-- Window 6: operations 154 to 169 of the line. -/
abbrev w6 : List (HloOp τ sig (Elt F)) :=
  [ nullary main_c_29 (constantI S_ 32 0#32),
    unary main_c_29 main_v119 (broadcastInDim S1600000 ![] bcast_S_S1600000 : (⟨S_, .i32⟩ : BufTy).Contents (Elt F) → (⟨S1600000, .i32⟩ : BufTy).Contents (Elt F)),
    binary main_v1 main_v119 main_v120 (cmpi .slt : (⟨S1600000, .i32⟩ : BufTy).Contents (Elt F) → (⟨S1600000, .i32⟩ : BufTy).Contents (Elt F) → (⟨S1600000, .i1⟩ : BufTy).Contents (Elt F)),
    nullary main_c_30 (constantI S_ 32 100000#32),
    unary main_c_30 main_v121 (broadcastInDim S1600000 ![] bcast_S_S1600000 : (⟨S_, .i32⟩ : BufTy).Contents (Elt F) → (⟨S1600000, .i32⟩ : BufTy).Contents (Elt F)),
    binary main_v1 main_v121 main_v122 (addi : (⟨S1600000, .i32⟩ : BufTy).Contents (Elt F) → (⟨S1600000, .i32⟩ : BufTy).Contents (Elt F) → (⟨S1600000, .i32⟩ : BufTy).Contents (Elt F)),
    ternary main_v120 main_v122 main_v1 main_v123 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v123 main_v124 (broadcastInDim S1600000x1 ![0] bcast_S1600000_S1600000x1_0 : (⟨S1600000, .i32⟩ : BufTy).Contents (Elt F) → (⟨S1600000x1, .i32⟩ : BufTy).Contents (Elt F)),
    binary main_arg0 main_v124 main_v125 ((fun x i => Host.gather gather_S100000x11_S1600000x1_S1600000x11_1_0_n_n_0_1_111 x i) : (⟨S100000x11, .f32⟩ : BufTy).Contents (Elt F) → (⟨S1600000x1, .i32⟩ : BufTy).Contents (Elt F) → (⟨S1600000x11, .f32⟩ : BufTy).Contents (Elt F)),
    unary main_v27 main_v126 (broadcastInDim S1600000x1 ![0] bcast_S1600000_S1600000x1_0 : (⟨S1600000, .f32⟩ : BufTy).Contents (Elt F) → (⟨S1600000x1, .f32⟩ : BufTy).Contents (Elt F)),
    unary main_v126 main_v127 (broadcastInDim S1600000x11 ![0, 1] bcast_S1600000x1_S1600000x11_0_1 : (⟨S1600000x1, .f32⟩ : BufTy).Contents (Elt F) → (⟨S1600000x11, .f32⟩ : BufTy).Contents (Elt F)),
    binary main_v125 main_v127 main_v128 (mulf : (⟨S1600000x11, .f32⟩ : BufTy).Contents (Elt F) → (⟨S1600000x11, .f32⟩ : BufTy).Contents (Elt F) → (⟨S1600000x11, .f32⟩ : BufTy).Contents (Elt F)),
    nullary main_cst_31 (constant S_ .f32 0x00000000#32),
    unary main_cst_31 main_v129 (broadcastInDim S100000x11 ![] bcast_S_S100000x11 : (⟨S_, .f32⟩ : BufTy).Contents (Elt F) → (⟨S100000x11, .f32⟩ : BufTy).Contents (Elt F)),
    unary main_v3 main_v130 (broadcastInDim S1600000x1 ![0] bcast_S1600000_S1600000x1_0 : (⟨S1600000, .i32⟩ : BufTy).Contents (Elt F) → (⟨S1600000x1, .i32⟩ : BufTy).Contents (Elt F)),
    ternary main_v129 main_v130 main_v128 main_v131 ((fun x i u => Host.scatterAdd scatter_S100000x11_S1600000x1_S1600000x11_1_0_0_1 x i u) : (⟨S100000x11, .f32⟩ : BufTy).Contents (Elt F) → (⟨S1600000x1, .i32⟩ : BufTy).Contents (Elt F) → (⟨S1600000x11, .f32⟩ : BufTy).Contents (Elt F) → (⟨S100000x11, .f32⟩ : BufTy).Contents (Elt F)) ]

set_option maxHeartbeats 0 in
/-- Window 7: operations 170 to 185 of the line. -/
abbrev w7 : List (HloOp τ sig (Elt F)) :=
  [ nullary main_c_32 (constantI S_ 32 0#32),
    unary main_c_32 main_v132 (broadcastInDim S1600000 ![] bcast_S_S1600000 : (⟨S_, .i32⟩ : BufTy).Contents (Elt F) → (⟨S1600000, .i32⟩ : BufTy).Contents (Elt F)),
    binary main_v1 main_v132 main_v133 (cmpi .slt : (⟨S1600000, .i32⟩ : BufTy).Contents (Elt F) → (⟨S1600000, .i32⟩ : BufTy).Contents (Elt F) → (⟨S1600000, .i1⟩ : BufTy).Contents (Elt F)),
    nullary main_c_33 (constantI S_ 32 100000#32),
    unary main_c_33 main_v134 (broadcastInDim S1600000 ![] bcast_S_S1600000 : (⟨S_, .i32⟩ : BufTy).Contents (Elt F) → (⟨S1600000, .i32⟩ : BufTy).Contents (Elt F)),
    binary main_v1 main_v134 main_v135 (addi : (⟨S1600000, .i32⟩ : BufTy).Contents (Elt F) → (⟨S1600000, .i32⟩ : BufTy).Contents (Elt F) → (⟨S1600000, .i32⟩ : BufTy).Contents (Elt F)),
    ternary main_v133 main_v135 main_v1 main_v136 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v136 main_v137 (broadcastInDim S1600000x1 ![0] bcast_S1600000_S1600000x1_0 : (⟨S1600000, .i32⟩ : BufTy).Contents (Elt F) → (⟨S1600000x1, .i32⟩ : BufTy).Contents (Elt F)),
    binary main_v131 main_v137 main_v138 ((fun x i => Host.gather gather_S100000x11_S1600000x1_S1600000x11_1_0_n_n_0_1_111 x i) : (⟨S100000x11, .f32⟩ : BufTy).Contents (Elt F) → (⟨S1600000x1, .i32⟩ : BufTy).Contents (Elt F) → (⟨S1600000x11, .f32⟩ : BufTy).Contents (Elt F)),
    unary main_v27 main_v139 (broadcastInDim S1600000x1 ![0] bcast_S1600000_S1600000x1_0 : (⟨S1600000, .f32⟩ : BufTy).Contents (Elt F) → (⟨S1600000x1, .f32⟩ : BufTy).Contents (Elt F)),
    unary main_v139 main_v140 (broadcastInDim S1600000x11 ![0, 1] bcast_S1600000x1_S1600000x11_0_1 : (⟨S1600000x1, .f32⟩ : BufTy).Contents (Elt F) → (⟨S1600000x11, .f32⟩ : BufTy).Contents (Elt F)),
    binary main_v138 main_v140 main_v141 (mulf : (⟨S1600000x11, .f32⟩ : BufTy).Contents (Elt F) → (⟨S1600000x11, .f32⟩ : BufTy).Contents (Elt F) → (⟨S1600000x11, .f32⟩ : BufTy).Contents (Elt F)),
    nullary main_cst_34 (constant S_ .f32 0x00000000#32),
    unary main_cst_34 main_v142 (broadcastInDim S100000x11 ![] bcast_S_S100000x11 : (⟨S_, .f32⟩ : BufTy).Contents (Elt F) → (⟨S100000x11, .f32⟩ : BufTy).Contents (Elt F)),
    unary main_v3 main_v143 (broadcastInDim S1600000x1 ![0] bcast_S1600000_S1600000x1_0 : (⟨S1600000, .i32⟩ : BufTy).Contents (Elt F) → (⟨S1600000x1, .i32⟩ : BufTy).Contents (Elt F)),
    ternary main_v142 main_v143 main_v141 main_v144 ((fun x i u => Host.scatterAdd scatter_S100000x11_S1600000x1_S1600000x11_1_0_0_1 x i u) : (⟨S100000x11, .f32⟩ : BufTy).Contents (Elt F) → (⟨S1600000x1, .i32⟩ : BufTy).Contents (Elt F) → (⟨S1600000x11, .f32⟩ : BufTy).Contents (Elt F) → (⟨S100000x11, .f32⟩ : BufTy).Contents (Elt F)) ]

set_option maxHeartbeats 0 in
/-- Window 8: operations 186 to 201 of the line. -/
abbrev w8 : List (HloOp τ sig (Elt F)) :=
  [ nullary main_c_35 (constantI S_ 32 0#32),
    unary main_c_35 main_v145 (broadcastInDim S1600000 ![] bcast_S_S1600000 : (⟨S_, .i32⟩ : BufTy).Contents (Elt F) → (⟨S1600000, .i32⟩ : BufTy).Contents (Elt F)),
    binary main_v1 main_v145 main_v146 (cmpi .slt : (⟨S1600000, .i32⟩ : BufTy).Contents (Elt F) → (⟨S1600000, .i32⟩ : BufTy).Contents (Elt F) → (⟨S1600000, .i1⟩ : BufTy).Contents (Elt F)),
    nullary main_c_36 (constantI S_ 32 100000#32),
    unary main_c_36 main_v147 (broadcastInDim S1600000 ![] bcast_S_S1600000 : (⟨S_, .i32⟩ : BufTy).Contents (Elt F) → (⟨S1600000, .i32⟩ : BufTy).Contents (Elt F)),
    binary main_v1 main_v147 main_v148 (addi : (⟨S1600000, .i32⟩ : BufTy).Contents (Elt F) → (⟨S1600000, .i32⟩ : BufTy).Contents (Elt F) → (⟨S1600000, .i32⟩ : BufTy).Contents (Elt F)),
    ternary main_v146 main_v148 main_v1 main_v149 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v149 main_v150 (broadcastInDim S1600000x1 ![0] bcast_S1600000_S1600000x1_0 : (⟨S1600000, .i32⟩ : BufTy).Contents (Elt F) → (⟨S1600000x1, .i32⟩ : BufTy).Contents (Elt F)),
    binary main_v144 main_v150 main_v151 ((fun x i => Host.gather gather_S100000x11_S1600000x1_S1600000x11_1_0_n_n_0_1_111 x i) : (⟨S100000x11, .f32⟩ : BufTy).Contents (Elt F) → (⟨S1600000x1, .i32⟩ : BufTy).Contents (Elt F) → (⟨S1600000x11, .f32⟩ : BufTy).Contents (Elt F)),
    unary main_v27 main_v152 (broadcastInDim S1600000x1 ![0] bcast_S1600000_S1600000x1_0 : (⟨S1600000, .f32⟩ : BufTy).Contents (Elt F) → (⟨S1600000x1, .f32⟩ : BufTy).Contents (Elt F)),
    unary main_v152 main_v153 (broadcastInDim S1600000x11 ![0, 1] bcast_S1600000x1_S1600000x11_0_1 : (⟨S1600000x1, .f32⟩ : BufTy).Contents (Elt F) → (⟨S1600000x11, .f32⟩ : BufTy).Contents (Elt F)),
    binary main_v151 main_v153 main_v154 (mulf : (⟨S1600000x11, .f32⟩ : BufTy).Contents (Elt F) → (⟨S1600000x11, .f32⟩ : BufTy).Contents (Elt F) → (⟨S1600000x11, .f32⟩ : BufTy).Contents (Elt F)),
    nullary main_cst_37 (constant S_ .f32 0x00000000#32),
    unary main_cst_37 main_v155 (broadcastInDim S100000x11 ![] bcast_S_S100000x11 : (⟨S_, .f32⟩ : BufTy).Contents (Elt F) → (⟨S100000x11, .f32⟩ : BufTy).Contents (Elt F)),
    unary main_v3 main_v156 (broadcastInDim S1600000x1 ![0] bcast_S1600000_S1600000x1_0 : (⟨S1600000, .i32⟩ : BufTy).Contents (Elt F) → (⟨S1600000x1, .i32⟩ : BufTy).Contents (Elt F)),
    ternary main_v155 main_v156 main_v154 main_v157 ((fun x i u => Host.scatterAdd scatter_S100000x11_S1600000x1_S1600000x11_1_0_0_1 x i u) : (⟨S100000x11, .f32⟩ : BufTy).Contents (Elt F) → (⟨S1600000x1, .i32⟩ : BufTy).Contents (Elt F) → (⟨S1600000x11, .f32⟩ : BufTy).Contents (Elt F) → (⟨S100000x11, .f32⟩ : BufTy).Contents (Elt F)) ]

set_option maxHeartbeats 0 in
/-- Window 9: operations 202 to 202 of the line. -/
abbrev w9 : List (HloOp τ sig (Elt F)) :=
  [ nary ![main_arg0, main_v131, main_v144, main_v157] main_v158 (fun u => concatenate S100000x44 1 [⟨S100000x11, u 0⟩, ⟨S100000x11, u 1⟩, ⟨S100000x11, u 2⟩, ⟨S100000x11, u 3⟩] concatenates_S100000x11_S100000x11_S100000x11_S100000x11_S100000x44_d1) ]

set_option maxHeartbeats 0 in
/-- Window 10: operations 203 to 215 of the line. -/
abbrev w10 : List (HloOp τ sig (Elt F)) :=
  [ unary main_arg11 main_v159 ((transpose S44x8 [1, 0] · transposes_S8x44_S44x8_1_0) : (⟨S8x44, .f32⟩ : BufTy).Contents (Elt F) → (⟨S44x8, .f32⟩ : BufTy).Contents (Elt F)),
    binary main_v158 main_v159 main_v160 ((fun l r => Host.dotGeneral dot_S100000x44_S44x8_S100000x8_1_0_0_1_n_n none l r) : (⟨S100000x44, .f32⟩ : BufTy).Contents (Elt F) → (⟨S44x8, .f32⟩ : BufTy).Contents (Elt F) → (⟨S100000x8, .f32⟩ : BufTy).Contents (Elt F)),
    unary main_arg12 main_v161 (broadcastInDim S1x8 ![1] bcast_S8_S1x8_1 : (⟨S8, .f32⟩ : BufTy).Contents (Elt F) → (⟨S1x8, .f32⟩ : BufTy).Contents (Elt F)),
    unary main_v161 main_v162 (broadcastInDim S100000x8 ![0, 1] bcast_S1x8_S100000x8_0_1 : (⟨S1x8, .f32⟩ : BufTy).Contents (Elt F) → (⟨S100000x8, .f32⟩ : BufTy).Contents (Elt F)),
    binary main_v160 main_v162 main_v163 (addf : (⟨S100000x8, .f32⟩ : BufTy).Contents (Elt F) → (⟨S100000x8, .f32⟩ : BufTy).Contents (Elt F) → (⟨S100000x8, .f32⟩ : BufTy).Contents (Elt F)),
    unary main_v163 main_v164 (Host.negf : (⟨S100000x8, .f32⟩ : BufTy).Contents (Elt F) → (⟨S100000x8, .f32⟩ : BufTy).Contents (Elt F)),
    unary main_v164 main_v165 (Host.exp : (⟨S100000x8, .f32⟩ : BufTy).Contents (Elt F) → (⟨S100000x8, .f32⟩ : BufTy).Contents (Elt F)),
    nullary main_cst_38 (constant S_ .f32 0x3F800000#32),
    unary main_cst_38 main_v166 (broadcastInDim S100000x8 ![] bcast_S_S100000x8 : (⟨S_, .f32⟩ : BufTy).Contents (Elt F) → (⟨S100000x8, .f32⟩ : BufTy).Contents (Elt F)),
    binary main_v166 main_v165 main_v167 (addf : (⟨S100000x8, .f32⟩ : BufTy).Contents (Elt F) → (⟨S100000x8, .f32⟩ : BufTy).Contents (Elt F) → (⟨S100000x8, .f32⟩ : BufTy).Contents (Elt F)),
    nullary main_cst_39 (constant S_ .f32 0x3F800000#32),
    unary main_cst_39 main_v168 (broadcastInDim S100000x8 ![] bcast_S_S100000x8 : (⟨S_, .f32⟩ : BufTy).Contents (Elt F) → (⟨S100000x8, .f32⟩ : BufTy).Contents (Elt F)),
    binary main_v168 main_v167 main_v169 (Host.divf : (⟨S100000x8, .f32⟩ : BufTy).Contents (Elt F) → (⟨S100000x8, .f32⟩ : BufTy).Contents (Elt F) → (⟨S100000x8, .f32⟩ : BufTy).Contents (Elt F)) ]

set_option maxHeartbeats 0 in
/-- Window 11: operations 216 to 231 of the line. -/
abbrev w11 : List (HloOp τ sig (Elt F)) :=
  [ nullary main_c_40 (constantI S_ 32 0#32),
    unary main_c_40 main_v170 (broadcastInDim S1600000 ![] bcast_S_S1600000 : (⟨S_, .i32⟩ : BufTy).Contents (Elt F) → (⟨S1600000, .i32⟩ : BufTy).Contents (Elt F)),
    binary main_v1 main_v170 main_v171 (cmpi .slt : (⟨S1600000, .i32⟩ : BufTy).Contents (Elt F) → (⟨S1600000, .i32⟩ : BufTy).Contents (Elt F) → (⟨S1600000, .i1⟩ : BufTy).Contents (Elt F)),
    nullary main_c_41 (constantI S_ 32 100000#32),
    unary main_c_41 main_v172 (broadcastInDim S1600000 ![] bcast_S_S1600000 : (⟨S_, .i32⟩ : BufTy).Contents (Elt F) → (⟨S1600000, .i32⟩ : BufTy).Contents (Elt F)),
    binary main_v1 main_v172 main_v173 (addi : (⟨S1600000, .i32⟩ : BufTy).Contents (Elt F) → (⟨S1600000, .i32⟩ : BufTy).Contents (Elt F) → (⟨S1600000, .i32⟩ : BufTy).Contents (Elt F)),
    ternary main_v171 main_v173 main_v1 main_v174 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v174 main_v175 (broadcastInDim S1600000x1 ![0] bcast_S1600000_S1600000x1_0 : (⟨S1600000, .i32⟩ : BufTy).Contents (Elt F) → (⟨S1600000x1, .i32⟩ : BufTy).Contents (Elt F)),
    binary main_v169 main_v175 main_v176 ((fun x i => Host.gather gather_S100000x8_S1600000x1_S1600000x8_1_0_n_n_0_1_18 x i) : (⟨S100000x8, .f32⟩ : BufTy).Contents (Elt F) → (⟨S1600000x1, .i32⟩ : BufTy).Contents (Elt F) → (⟨S1600000x8, .f32⟩ : BufTy).Contents (Elt F)),
    unary main_v27 main_v177 (broadcastInDim S1600000x1 ![0] bcast_S1600000_S1600000x1_0 : (⟨S1600000, .f32⟩ : BufTy).Contents (Elt F) → (⟨S1600000x1, .f32⟩ : BufTy).Contents (Elt F)),
    unary main_v177 main_v178 (broadcastInDim S1600000x8 ![0, 1] bcast_S1600000x1_S1600000x8_0_1 : (⟨S1600000x1, .f32⟩ : BufTy).Contents (Elt F) → (⟨S1600000x8, .f32⟩ : BufTy).Contents (Elt F)),
    binary main_v176 main_v178 main_v179 (mulf : (⟨S1600000x8, .f32⟩ : BufTy).Contents (Elt F) → (⟨S1600000x8, .f32⟩ : BufTy).Contents (Elt F) → (⟨S1600000x8, .f32⟩ : BufTy).Contents (Elt F)),
    nullary main_cst_42 (constant S_ .f32 0x00000000#32),
    unary main_cst_42 main_v180 (broadcastInDim S100000x8 ![] bcast_S_S100000x8 : (⟨S_, .f32⟩ : BufTy).Contents (Elt F) → (⟨S100000x8, .f32⟩ : BufTy).Contents (Elt F)),
    unary main_v3 main_v181 (broadcastInDim S1600000x1 ![0] bcast_S1600000_S1600000x1_0 : (⟨S1600000, .i32⟩ : BufTy).Contents (Elt F) → (⟨S1600000x1, .i32⟩ : BufTy).Contents (Elt F)),
    ternary main_v180 main_v181 main_v179 main_v182 ((fun x i u => Host.scatterAdd scatter_S100000x8_S1600000x1_S1600000x8_1_0_0_1 x i u) : (⟨S100000x8, .f32⟩ : BufTy).Contents (Elt F) → (⟨S1600000x1, .i32⟩ : BufTy).Contents (Elt F) → (⟨S1600000x8, .f32⟩ : BufTy).Contents (Elt F) → (⟨S100000x8, .f32⟩ : BufTy).Contents (Elt F)) ]

set_option maxHeartbeats 0 in
/-- Window 12: operations 232 to 247 of the line. -/
abbrev w12 : List (HloOp τ sig (Elt F)) :=
  [ nullary main_c_43 (constantI S_ 32 0#32),
    unary main_c_43 main_v183 (broadcastInDim S1600000 ![] bcast_S_S1600000 : (⟨S_, .i32⟩ : BufTy).Contents (Elt F) → (⟨S1600000, .i32⟩ : BufTy).Contents (Elt F)),
    binary main_v1 main_v183 main_v184 (cmpi .slt : (⟨S1600000, .i32⟩ : BufTy).Contents (Elt F) → (⟨S1600000, .i32⟩ : BufTy).Contents (Elt F) → (⟨S1600000, .i1⟩ : BufTy).Contents (Elt F)),
    nullary main_c_44 (constantI S_ 32 100000#32),
    unary main_c_44 main_v185 (broadcastInDim S1600000 ![] bcast_S_S1600000 : (⟨S_, .i32⟩ : BufTy).Contents (Elt F) → (⟨S1600000, .i32⟩ : BufTy).Contents (Elt F)),
    binary main_v1 main_v185 main_v186 (addi : (⟨S1600000, .i32⟩ : BufTy).Contents (Elt F) → (⟨S1600000, .i32⟩ : BufTy).Contents (Elt F) → (⟨S1600000, .i32⟩ : BufTy).Contents (Elt F)),
    ternary main_v184 main_v186 main_v1 main_v187 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v187 main_v188 (broadcastInDim S1600000x1 ![0] bcast_S1600000_S1600000x1_0 : (⟨S1600000, .i32⟩ : BufTy).Contents (Elt F) → (⟨S1600000x1, .i32⟩ : BufTy).Contents (Elt F)),
    binary main_v182 main_v188 main_v189 ((fun x i => Host.gather gather_S100000x8_S1600000x1_S1600000x8_1_0_n_n_0_1_18 x i) : (⟨S100000x8, .f32⟩ : BufTy).Contents (Elt F) → (⟨S1600000x1, .i32⟩ : BufTy).Contents (Elt F) → (⟨S1600000x8, .f32⟩ : BufTy).Contents (Elt F)),
    unary main_v27 main_v190 (broadcastInDim S1600000x1 ![0] bcast_S1600000_S1600000x1_0 : (⟨S1600000, .f32⟩ : BufTy).Contents (Elt F) → (⟨S1600000x1, .f32⟩ : BufTy).Contents (Elt F)),
    unary main_v190 main_v191 (broadcastInDim S1600000x8 ![0, 1] bcast_S1600000x1_S1600000x8_0_1 : (⟨S1600000x1, .f32⟩ : BufTy).Contents (Elt F) → (⟨S1600000x8, .f32⟩ : BufTy).Contents (Elt F)),
    binary main_v189 main_v191 main_v192 (mulf : (⟨S1600000x8, .f32⟩ : BufTy).Contents (Elt F) → (⟨S1600000x8, .f32⟩ : BufTy).Contents (Elt F) → (⟨S1600000x8, .f32⟩ : BufTy).Contents (Elt F)),
    nullary main_cst_45 (constant S_ .f32 0x00000000#32),
    unary main_cst_45 main_v193 (broadcastInDim S100000x8 ![] bcast_S_S100000x8 : (⟨S_, .f32⟩ : BufTy).Contents (Elt F) → (⟨S100000x8, .f32⟩ : BufTy).Contents (Elt F)),
    unary main_v3 main_v194 (broadcastInDim S1600000x1 ![0] bcast_S1600000_S1600000x1_0 : (⟨S1600000, .i32⟩ : BufTy).Contents (Elt F) → (⟨S1600000x1, .i32⟩ : BufTy).Contents (Elt F)),
    ternary main_v193 main_v194 main_v192 main_v195 ((fun x i u => Host.scatterAdd scatter_S100000x8_S1600000x1_S1600000x8_1_0_0_1 x i u) : (⟨S100000x8, .f32⟩ : BufTy).Contents (Elt F) → (⟨S1600000x1, .i32⟩ : BufTy).Contents (Elt F) → (⟨S1600000x8, .f32⟩ : BufTy).Contents (Elt F) → (⟨S100000x8, .f32⟩ : BufTy).Contents (Elt F)) ]

set_option maxHeartbeats 0 in
/-- Window 13: operations 248 to 263 of the line. -/
abbrev w13 : List (HloOp τ sig (Elt F)) :=
  [ nullary main_c_46 (constantI S_ 32 0#32),
    unary main_c_46 main_v196 (broadcastInDim S1600000 ![] bcast_S_S1600000 : (⟨S_, .i32⟩ : BufTy).Contents (Elt F) → (⟨S1600000, .i32⟩ : BufTy).Contents (Elt F)),
    binary main_v1 main_v196 main_v197 (cmpi .slt : (⟨S1600000, .i32⟩ : BufTy).Contents (Elt F) → (⟨S1600000, .i32⟩ : BufTy).Contents (Elt F) → (⟨S1600000, .i1⟩ : BufTy).Contents (Elt F)),
    nullary main_c_47 (constantI S_ 32 100000#32),
    unary main_c_47 main_v198 (broadcastInDim S1600000 ![] bcast_S_S1600000 : (⟨S_, .i32⟩ : BufTy).Contents (Elt F) → (⟨S1600000, .i32⟩ : BufTy).Contents (Elt F)),
    binary main_v1 main_v198 main_v199 (addi : (⟨S1600000, .i32⟩ : BufTy).Contents (Elt F) → (⟨S1600000, .i32⟩ : BufTy).Contents (Elt F) → (⟨S1600000, .i32⟩ : BufTy).Contents (Elt F)),
    ternary main_v197 main_v199 main_v1 main_v200 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v200 main_v201 (broadcastInDim S1600000x1 ![0] bcast_S1600000_S1600000x1_0 : (⟨S1600000, .i32⟩ : BufTy).Contents (Elt F) → (⟨S1600000x1, .i32⟩ : BufTy).Contents (Elt F)),
    binary main_v195 main_v201 main_v202 ((fun x i => Host.gather gather_S100000x8_S1600000x1_S1600000x8_1_0_n_n_0_1_18 x i) : (⟨S100000x8, .f32⟩ : BufTy).Contents (Elt F) → (⟨S1600000x1, .i32⟩ : BufTy).Contents (Elt F) → (⟨S1600000x8, .f32⟩ : BufTy).Contents (Elt F)),
    unary main_v27 main_v203 (broadcastInDim S1600000x1 ![0] bcast_S1600000_S1600000x1_0 : (⟨S1600000, .f32⟩ : BufTy).Contents (Elt F) → (⟨S1600000x1, .f32⟩ : BufTy).Contents (Elt F)),
    unary main_v203 main_v204 (broadcastInDim S1600000x8 ![0, 1] bcast_S1600000x1_S1600000x8_0_1 : (⟨S1600000x1, .f32⟩ : BufTy).Contents (Elt F) → (⟨S1600000x8, .f32⟩ : BufTy).Contents (Elt F)),
    binary main_v202 main_v204 main_v205 (mulf : (⟨S1600000x8, .f32⟩ : BufTy).Contents (Elt F) → (⟨S1600000x8, .f32⟩ : BufTy).Contents (Elt F) → (⟨S1600000x8, .f32⟩ : BufTy).Contents (Elt F)),
    nullary main_cst_48 (constant S_ .f32 0x00000000#32),
    unary main_cst_48 main_v206 (broadcastInDim S100000x8 ![] bcast_S_S100000x8 : (⟨S_, .f32⟩ : BufTy).Contents (Elt F) → (⟨S100000x8, .f32⟩ : BufTy).Contents (Elt F)),
    unary main_v3 main_v207 (broadcastInDim S1600000x1 ![0] bcast_S1600000_S1600000x1_0 : (⟨S1600000, .i32⟩ : BufTy).Contents (Elt F) → (⟨S1600000x1, .i32⟩ : BufTy).Contents (Elt F)),
    ternary main_v206 main_v207 main_v205 main_v208 ((fun x i u => Host.scatterAdd scatter_S100000x8_S1600000x1_S1600000x8_1_0_0_1 x i u) : (⟨S100000x8, .f32⟩ : BufTy).Contents (Elt F) → (⟨S1600000x1, .i32⟩ : BufTy).Contents (Elt F) → (⟨S1600000x8, .f32⟩ : BufTy).Contents (Elt F) → (⟨S100000x8, .f32⟩ : BufTy).Contents (Elt F)) ]

set_option maxHeartbeats 0 in
/-- Window 14: operations 264 to 264 of the line. -/
abbrev w14 : List (HloOp τ sig (Elt F)) :=
  [ nary ![main_v169, main_v182, main_v195, main_v208] main_v209 (fun u => concatenate S100000x32 1 [⟨S100000x8, u 0⟩, ⟨S100000x8, u 1⟩, ⟨S100000x8, u 2⟩, ⟨S100000x8, u 3⟩] concatenates_S100000x8_S100000x8_S100000x8_S100000x8_S100000x32_d1) ]

set_option maxHeartbeats 0 in
/-- Window 15: operations 265 to 272 of the line. -/
abbrev w15 : List (HloOp τ sig (Elt F)) :=
  [ unary main_arg13 main_v210 ((transpose S32x1 [1, 0] · transposes_S1x32_S32x1_1_0) : (⟨S1x32, .f32⟩ : BufTy).Contents (Elt F) → (⟨S32x1, .f32⟩ : BufTy).Contents (Elt F)),
    binary main_v209 main_v210 main_v211 ((fun l r => Host.dotGeneral dot_S100000x32_S32x1_S100000x1_1_0_0_1_n_n none l r) : (⟨S100000x32, .f32⟩ : BufTy).Contents (Elt F) → (⟨S32x1, .f32⟩ : BufTy).Contents (Elt F) → (⟨S100000x1, .f32⟩ : BufTy).Contents (Elt F)),
    unary main_arg14 main_v212 (broadcastInDim S1x1 ![1] bcast_S1_S1x1_1 : (⟨S1, .f32⟩ : BufTy).Contents (Elt F) → (⟨S1x1, .f32⟩ : BufTy).Contents (Elt F)),
    unary main_v212 main_v213 (broadcastInDim S100000x1 ![0, 1] bcast_S1x1_S100000x1_0_1 : (⟨S1x1, .f32⟩ : BufTy).Contents (Elt F) → (⟨S100000x1, .f32⟩ : BufTy).Contents (Elt F)),
    binary main_v211 main_v213 main_v214 (addf : (⟨S100000x1, .f32⟩ : BufTy).Contents (Elt F) → (⟨S100000x1, .f32⟩ : BufTy).Contents (Elt F) → (⟨S100000x1, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S100000x1, .f32⟩) main_call2_v0) (broadcastInDim S100000x1 ![] bcast_S_S100000x1),
    TRef.binary (TRef.of (T := ⟨S100000x1, .f32⟩) main_v214) (TRef.of (T := ⟨S100000x1, .f32⟩) main_call2_v0) (TRef.of (T := ⟨S100000x1, .f32⟩) main_v215) maximumf ]

set_option maxHeartbeats 0 in
/-- Window 16: operations 273 to 288 of the line. -/
abbrev w16 : List (HloOp τ sig (Elt F)) :=
  [ nullary main_c_49 (constantI S_ 32 0#32),
    unary main_c_49 main_v216 (broadcastInDim S1600000 ![] bcast_S_S1600000 : (⟨S_, .i32⟩ : BufTy).Contents (Elt F) → (⟨S1600000, .i32⟩ : BufTy).Contents (Elt F)),
    binary main_v1 main_v216 main_v217 (cmpi .slt : (⟨S1600000, .i32⟩ : BufTy).Contents (Elt F) → (⟨S1600000, .i32⟩ : BufTy).Contents (Elt F) → (⟨S1600000, .i1⟩ : BufTy).Contents (Elt F)),
    nullary main_c_50 (constantI S_ 32 100000#32),
    unary main_c_50 main_v218 (broadcastInDim S1600000 ![] bcast_S_S1600000 : (⟨S_, .i32⟩ : BufTy).Contents (Elt F) → (⟨S1600000, .i32⟩ : BufTy).Contents (Elt F)),
    binary main_v1 main_v218 main_v219 (addi : (⟨S1600000, .i32⟩ : BufTy).Contents (Elt F) → (⟨S1600000, .i32⟩ : BufTy).Contents (Elt F) → (⟨S1600000, .i32⟩ : BufTy).Contents (Elt F)),
    ternary main_v217 main_v219 main_v1 main_v220 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v220 main_v221 (broadcastInDim S1600000x1 ![0] bcast_S1600000_S1600000x1_0 : (⟨S1600000, .i32⟩ : BufTy).Contents (Elt F) → (⟨S1600000x1, .i32⟩ : BufTy).Contents (Elt F)),
    binary main_arg0 main_v221 main_v222 ((fun x i => Host.gather gather_S100000x11_S1600000x1_S1600000x11_1_0_n_n_0_1_111 x i) : (⟨S100000x11, .f32⟩ : BufTy).Contents (Elt F) → (⟨S1600000x1, .i32⟩ : BufTy).Contents (Elt F) → (⟨S1600000x11, .f32⟩ : BufTy).Contents (Elt F)),
    unary main_v27 main_v223 (broadcastInDim S1600000x1 ![0] bcast_S1600000_S1600000x1_0 : (⟨S1600000, .f32⟩ : BufTy).Contents (Elt F) → (⟨S1600000x1, .f32⟩ : BufTy).Contents (Elt F)),
    unary main_v223 main_v224 (broadcastInDim S1600000x11 ![0, 1] bcast_S1600000x1_S1600000x11_0_1 : (⟨S1600000x1, .f32⟩ : BufTy).Contents (Elt F) → (⟨S1600000x11, .f32⟩ : BufTy).Contents (Elt F)),
    binary main_v222 main_v224 main_v225 (mulf : (⟨S1600000x11, .f32⟩ : BufTy).Contents (Elt F) → (⟨S1600000x11, .f32⟩ : BufTy).Contents (Elt F) → (⟨S1600000x11, .f32⟩ : BufTy).Contents (Elt F)),
    nullary main_cst_51 (constant S_ .f32 0x00000000#32),
    unary main_cst_51 main_v226 (broadcastInDim S100000x11 ![] bcast_S_S100000x11 : (⟨S_, .f32⟩ : BufTy).Contents (Elt F) → (⟨S100000x11, .f32⟩ : BufTy).Contents (Elt F)),
    unary main_v3 main_v227 (broadcastInDim S1600000x1 ![0] bcast_S1600000_S1600000x1_0 : (⟨S1600000, .i32⟩ : BufTy).Contents (Elt F) → (⟨S1600000x1, .i32⟩ : BufTy).Contents (Elt F)),
    ternary main_v226 main_v227 main_v225 main_v228 ((fun x i u => Host.scatterAdd scatter_S100000x11_S1600000x1_S1600000x11_1_0_0_1 x i u) : (⟨S100000x11, .f32⟩ : BufTy).Contents (Elt F) → (⟨S1600000x1, .i32⟩ : BufTy).Contents (Elt F) → (⟨S1600000x11, .f32⟩ : BufTy).Contents (Elt F) → (⟨S100000x11, .f32⟩ : BufTy).Contents (Elt F)) ]

set_option maxHeartbeats 0 in
/-- Window 17: operations 289 to 304 of the line. -/
abbrev w17 : List (HloOp τ sig (Elt F)) :=
  [ nullary main_c_52 (constantI S_ 32 0#32),
    unary main_c_52 main_v229 (broadcastInDim S1600000 ![] bcast_S_S1600000 : (⟨S_, .i32⟩ : BufTy).Contents (Elt F) → (⟨S1600000, .i32⟩ : BufTy).Contents (Elt F)),
    binary main_v1 main_v229 main_v230 (cmpi .slt : (⟨S1600000, .i32⟩ : BufTy).Contents (Elt F) → (⟨S1600000, .i32⟩ : BufTy).Contents (Elt F) → (⟨S1600000, .i1⟩ : BufTy).Contents (Elt F)),
    nullary main_c_53 (constantI S_ 32 100000#32),
    unary main_c_53 main_v231 (broadcastInDim S1600000 ![] bcast_S_S1600000 : (⟨S_, .i32⟩ : BufTy).Contents (Elt F) → (⟨S1600000, .i32⟩ : BufTy).Contents (Elt F)),
    binary main_v1 main_v231 main_v232 (addi : (⟨S1600000, .i32⟩ : BufTy).Contents (Elt F) → (⟨S1600000, .i32⟩ : BufTy).Contents (Elt F) → (⟨S1600000, .i32⟩ : BufTy).Contents (Elt F)),
    ternary main_v230 main_v232 main_v1 main_v233 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v233 main_v234 (broadcastInDim S1600000x1 ![0] bcast_S1600000_S1600000x1_0 : (⟨S1600000, .i32⟩ : BufTy).Contents (Elt F) → (⟨S1600000x1, .i32⟩ : BufTy).Contents (Elt F)),
    binary main_v228 main_v234 main_v235 ((fun x i => Host.gather gather_S100000x11_S1600000x1_S1600000x11_1_0_n_n_0_1_111 x i) : (⟨S100000x11, .f32⟩ : BufTy).Contents (Elt F) → (⟨S1600000x1, .i32⟩ : BufTy).Contents (Elt F) → (⟨S1600000x11, .f32⟩ : BufTy).Contents (Elt F)),
    unary main_v27 main_v236 (broadcastInDim S1600000x1 ![0] bcast_S1600000_S1600000x1_0 : (⟨S1600000, .f32⟩ : BufTy).Contents (Elt F) → (⟨S1600000x1, .f32⟩ : BufTy).Contents (Elt F)),
    unary main_v236 main_v237 (broadcastInDim S1600000x11 ![0, 1] bcast_S1600000x1_S1600000x11_0_1 : (⟨S1600000x1, .f32⟩ : BufTy).Contents (Elt F) → (⟨S1600000x11, .f32⟩ : BufTy).Contents (Elt F)),
    binary main_v235 main_v237 main_v238 (mulf : (⟨S1600000x11, .f32⟩ : BufTy).Contents (Elt F) → (⟨S1600000x11, .f32⟩ : BufTy).Contents (Elt F) → (⟨S1600000x11, .f32⟩ : BufTy).Contents (Elt F)),
    nullary main_cst_54 (constant S_ .f32 0x00000000#32),
    unary main_cst_54 main_v239 (broadcastInDim S100000x11 ![] bcast_S_S100000x11 : (⟨S_, .f32⟩ : BufTy).Contents (Elt F) → (⟨S100000x11, .f32⟩ : BufTy).Contents (Elt F)),
    unary main_v3 main_v240 (broadcastInDim S1600000x1 ![0] bcast_S1600000_S1600000x1_0 : (⟨S1600000, .i32⟩ : BufTy).Contents (Elt F) → (⟨S1600000x1, .i32⟩ : BufTy).Contents (Elt F)),
    ternary main_v239 main_v240 main_v238 main_v241 ((fun x i u => Host.scatterAdd scatter_S100000x11_S1600000x1_S1600000x11_1_0_0_1 x i u) : (⟨S100000x11, .f32⟩ : BufTy).Contents (Elt F) → (⟨S1600000x1, .i32⟩ : BufTy).Contents (Elt F) → (⟨S1600000x11, .f32⟩ : BufTy).Contents (Elt F) → (⟨S100000x11, .f32⟩ : BufTy).Contents (Elt F)) ]

set_option maxHeartbeats 0 in
/-- Window 18: operations 305 to 320 of the line. -/
abbrev w18 : List (HloOp τ sig (Elt F)) :=
  [ nullary main_c_55 (constantI S_ 32 0#32),
    unary main_c_55 main_v242 (broadcastInDim S1600000 ![] bcast_S_S1600000 : (⟨S_, .i32⟩ : BufTy).Contents (Elt F) → (⟨S1600000, .i32⟩ : BufTy).Contents (Elt F)),
    binary main_v1 main_v242 main_v243 (cmpi .slt : (⟨S1600000, .i32⟩ : BufTy).Contents (Elt F) → (⟨S1600000, .i32⟩ : BufTy).Contents (Elt F) → (⟨S1600000, .i1⟩ : BufTy).Contents (Elt F)),
    nullary main_c_56 (constantI S_ 32 100000#32),
    unary main_c_56 main_v244 (broadcastInDim S1600000 ![] bcast_S_S1600000 : (⟨S_, .i32⟩ : BufTy).Contents (Elt F) → (⟨S1600000, .i32⟩ : BufTy).Contents (Elt F)),
    binary main_v1 main_v244 main_v245 (addi : (⟨S1600000, .i32⟩ : BufTy).Contents (Elt F) → (⟨S1600000, .i32⟩ : BufTy).Contents (Elt F) → (⟨S1600000, .i32⟩ : BufTy).Contents (Elt F)),
    ternary main_v243 main_v245 main_v1 main_v246 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v246 main_v247 (broadcastInDim S1600000x1 ![0] bcast_S1600000_S1600000x1_0 : (⟨S1600000, .i32⟩ : BufTy).Contents (Elt F) → (⟨S1600000x1, .i32⟩ : BufTy).Contents (Elt F)),
    binary main_v241 main_v247 main_v248 ((fun x i => Host.gather gather_S100000x11_S1600000x1_S1600000x11_1_0_n_n_0_1_111 x i) : (⟨S100000x11, .f32⟩ : BufTy).Contents (Elt F) → (⟨S1600000x1, .i32⟩ : BufTy).Contents (Elt F) → (⟨S1600000x11, .f32⟩ : BufTy).Contents (Elt F)),
    unary main_v27 main_v249 (broadcastInDim S1600000x1 ![0] bcast_S1600000_S1600000x1_0 : (⟨S1600000, .f32⟩ : BufTy).Contents (Elt F) → (⟨S1600000x1, .f32⟩ : BufTy).Contents (Elt F)),
    unary main_v249 main_v250 (broadcastInDim S1600000x11 ![0, 1] bcast_S1600000x1_S1600000x11_0_1 : (⟨S1600000x1, .f32⟩ : BufTy).Contents (Elt F) → (⟨S1600000x11, .f32⟩ : BufTy).Contents (Elt F)),
    binary main_v248 main_v250 main_v251 (mulf : (⟨S1600000x11, .f32⟩ : BufTy).Contents (Elt F) → (⟨S1600000x11, .f32⟩ : BufTy).Contents (Elt F) → (⟨S1600000x11, .f32⟩ : BufTy).Contents (Elt F)),
    nullary main_cst_57 (constant S_ .f32 0x00000000#32),
    unary main_cst_57 main_v252 (broadcastInDim S100000x11 ![] bcast_S_S100000x11 : (⟨S_, .f32⟩ : BufTy).Contents (Elt F) → (⟨S100000x11, .f32⟩ : BufTy).Contents (Elt F)),
    unary main_v3 main_v253 (broadcastInDim S1600000x1 ![0] bcast_S1600000_S1600000x1_0 : (⟨S1600000, .i32⟩ : BufTy).Contents (Elt F) → (⟨S1600000x1, .i32⟩ : BufTy).Contents (Elt F)),
    ternary main_v252 main_v253 main_v251 main_v254 ((fun x i u => Host.scatterAdd scatter_S100000x11_S1600000x1_S1600000x11_1_0_0_1 x i u) : (⟨S100000x11, .f32⟩ : BufTy).Contents (Elt F) → (⟨S1600000x1, .i32⟩ : BufTy).Contents (Elt F) → (⟨S1600000x11, .f32⟩ : BufTy).Contents (Elt F) → (⟨S100000x11, .f32⟩ : BufTy).Contents (Elt F)) ]

set_option maxHeartbeats 0 in
/-- Window 19: operations 321 to 336 of the line. -/
abbrev w19 : List (HloOp τ sig (Elt F)) :=
  [ nullary main_c_58 (constantI S_ 32 0#32),
    unary main_c_58 main_v255 (broadcastInDim S1600000 ![] bcast_S_S1600000 : (⟨S_, .i32⟩ : BufTy).Contents (Elt F) → (⟨S1600000, .i32⟩ : BufTy).Contents (Elt F)),
    binary main_v1 main_v255 main_v256 (cmpi .slt : (⟨S1600000, .i32⟩ : BufTy).Contents (Elt F) → (⟨S1600000, .i32⟩ : BufTy).Contents (Elt F) → (⟨S1600000, .i1⟩ : BufTy).Contents (Elt F)),
    nullary main_c_59 (constantI S_ 32 100000#32),
    unary main_c_59 main_v257 (broadcastInDim S1600000 ![] bcast_S_S1600000 : (⟨S_, .i32⟩ : BufTy).Contents (Elt F) → (⟨S1600000, .i32⟩ : BufTy).Contents (Elt F)),
    binary main_v1 main_v257 main_v258 (addi : (⟨S1600000, .i32⟩ : BufTy).Contents (Elt F) → (⟨S1600000, .i32⟩ : BufTy).Contents (Elt F) → (⟨S1600000, .i32⟩ : BufTy).Contents (Elt F)),
    ternary main_v256 main_v258 main_v1 main_v259 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v259 main_v260 (broadcastInDim S1600000x1 ![0] bcast_S1600000_S1600000x1_0 : (⟨S1600000, .i32⟩ : BufTy).Contents (Elt F) → (⟨S1600000x1, .i32⟩ : BufTy).Contents (Elt F)),
    binary main_v254 main_v260 main_v261 ((fun x i => Host.gather gather_S100000x11_S1600000x1_S1600000x11_1_0_n_n_0_1_111 x i) : (⟨S100000x11, .f32⟩ : BufTy).Contents (Elt F) → (⟨S1600000x1, .i32⟩ : BufTy).Contents (Elt F) → (⟨S1600000x11, .f32⟩ : BufTy).Contents (Elt F)),
    unary main_v27 main_v262 (broadcastInDim S1600000x1 ![0] bcast_S1600000_S1600000x1_0 : (⟨S1600000, .f32⟩ : BufTy).Contents (Elt F) → (⟨S1600000x1, .f32⟩ : BufTy).Contents (Elt F)),
    unary main_v262 main_v263 (broadcastInDim S1600000x11 ![0, 1] bcast_S1600000x1_S1600000x11_0_1 : (⟨S1600000x1, .f32⟩ : BufTy).Contents (Elt F) → (⟨S1600000x11, .f32⟩ : BufTy).Contents (Elt F)),
    binary main_v261 main_v263 main_v264 (mulf : (⟨S1600000x11, .f32⟩ : BufTy).Contents (Elt F) → (⟨S1600000x11, .f32⟩ : BufTy).Contents (Elt F) → (⟨S1600000x11, .f32⟩ : BufTy).Contents (Elt F)),
    nullary main_cst_60 (constant S_ .f32 0x00000000#32),
    unary main_cst_60 main_v265 (broadcastInDim S100000x11 ![] bcast_S_S100000x11 : (⟨S_, .f32⟩ : BufTy).Contents (Elt F) → (⟨S100000x11, .f32⟩ : BufTy).Contents (Elt F)),
    unary main_v3 main_v266 (broadcastInDim S1600000x1 ![0] bcast_S1600000_S1600000x1_0 : (⟨S1600000, .i32⟩ : BufTy).Contents (Elt F) → (⟨S1600000x1, .i32⟩ : BufTy).Contents (Elt F)),
    ternary main_v265 main_v266 main_v264 main_v267 ((fun x i u => Host.scatterAdd scatter_S100000x11_S1600000x1_S1600000x11_1_0_0_1 x i u) : (⟨S100000x11, .f32⟩ : BufTy).Contents (Elt F) → (⟨S1600000x1, .i32⟩ : BufTy).Contents (Elt F) → (⟨S1600000x11, .f32⟩ : BufTy).Contents (Elt F) → (⟨S100000x11, .f32⟩ : BufTy).Contents (Elt F)) ]

set_option maxHeartbeats 0 in
/-- Window 20: operations 337 to 352 of the line. -/
abbrev w20 : List (HloOp τ sig (Elt F)) :=
  [ nullary main_c_61 (constantI S_ 32 0#32),
    unary main_c_61 main_v268 (broadcastInDim S1600000 ![] bcast_S_S1600000 : (⟨S_, .i32⟩ : BufTy).Contents (Elt F) → (⟨S1600000, .i32⟩ : BufTy).Contents (Elt F)),
    binary main_v1 main_v268 main_v269 (cmpi .slt : (⟨S1600000, .i32⟩ : BufTy).Contents (Elt F) → (⟨S1600000, .i32⟩ : BufTy).Contents (Elt F) → (⟨S1600000, .i1⟩ : BufTy).Contents (Elt F)),
    nullary main_c_62 (constantI S_ 32 100000#32),
    unary main_c_62 main_v270 (broadcastInDim S1600000 ![] bcast_S_S1600000 : (⟨S_, .i32⟩ : BufTy).Contents (Elt F) → (⟨S1600000, .i32⟩ : BufTy).Contents (Elt F)),
    binary main_v1 main_v270 main_v271 (addi : (⟨S1600000, .i32⟩ : BufTy).Contents (Elt F) → (⟨S1600000, .i32⟩ : BufTy).Contents (Elt F) → (⟨S1600000, .i32⟩ : BufTy).Contents (Elt F)),
    ternary main_v269 main_v271 main_v1 main_v272 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v272 main_v273 (broadcastInDim S1600000x1 ![0] bcast_S1600000_S1600000x1_0 : (⟨S1600000, .i32⟩ : BufTy).Contents (Elt F) → (⟨S1600000x1, .i32⟩ : BufTy).Contents (Elt F)),
    binary main_v267 main_v273 main_v274 ((fun x i => Host.gather gather_S100000x11_S1600000x1_S1600000x11_1_0_n_n_0_1_111 x i) : (⟨S100000x11, .f32⟩ : BufTy).Contents (Elt F) → (⟨S1600000x1, .i32⟩ : BufTy).Contents (Elt F) → (⟨S1600000x11, .f32⟩ : BufTy).Contents (Elt F)),
    unary main_v27 main_v275 (broadcastInDim S1600000x1 ![0] bcast_S1600000_S1600000x1_0 : (⟨S1600000, .f32⟩ : BufTy).Contents (Elt F) → (⟨S1600000x1, .f32⟩ : BufTy).Contents (Elt F)),
    unary main_v275 main_v276 (broadcastInDim S1600000x11 ![0, 1] bcast_S1600000x1_S1600000x11_0_1 : (⟨S1600000x1, .f32⟩ : BufTy).Contents (Elt F) → (⟨S1600000x11, .f32⟩ : BufTy).Contents (Elt F)),
    binary main_v274 main_v276 main_v277 (mulf : (⟨S1600000x11, .f32⟩ : BufTy).Contents (Elt F) → (⟨S1600000x11, .f32⟩ : BufTy).Contents (Elt F) → (⟨S1600000x11, .f32⟩ : BufTy).Contents (Elt F)),
    nullary main_cst_63 (constant S_ .f32 0x00000000#32),
    unary main_cst_63 main_v278 (broadcastInDim S100000x11 ![] bcast_S_S100000x11 : (⟨S_, .f32⟩ : BufTy).Contents (Elt F) → (⟨S100000x11, .f32⟩ : BufTy).Contents (Elt F)),
    unary main_v3 main_v279 (broadcastInDim S1600000x1 ![0] bcast_S1600000_S1600000x1_0 : (⟨S1600000, .i32⟩ : BufTy).Contents (Elt F) → (⟨S1600000x1, .i32⟩ : BufTy).Contents (Elt F)),
    ternary main_v278 main_v279 main_v277 main_v280 ((fun x i u => Host.scatterAdd scatter_S100000x11_S1600000x1_S1600000x11_1_0_0_1 x i u) : (⟨S100000x11, .f32⟩ : BufTy).Contents (Elt F) → (⟨S1600000x1, .i32⟩ : BufTy).Contents (Elt F) → (⟨S1600000x11, .f32⟩ : BufTy).Contents (Elt F) → (⟨S100000x11, .f32⟩ : BufTy).Contents (Elt F)) ]

set_option maxHeartbeats 0 in
/-- Window 21: operations 353 to 368 of the line. -/
abbrev w21 : List (HloOp τ sig (Elt F)) :=
  [ nullary main_c_64 (constantI S_ 32 0#32),
    unary main_c_64 main_v281 (broadcastInDim S1600000 ![] bcast_S_S1600000 : (⟨S_, .i32⟩ : BufTy).Contents (Elt F) → (⟨S1600000, .i32⟩ : BufTy).Contents (Elt F)),
    binary main_v1 main_v281 main_v282 (cmpi .slt : (⟨S1600000, .i32⟩ : BufTy).Contents (Elt F) → (⟨S1600000, .i32⟩ : BufTy).Contents (Elt F) → (⟨S1600000, .i1⟩ : BufTy).Contents (Elt F)),
    nullary main_c_65 (constantI S_ 32 100000#32),
    unary main_c_65 main_v283 (broadcastInDim S1600000 ![] bcast_S_S1600000 : (⟨S_, .i32⟩ : BufTy).Contents (Elt F) → (⟨S1600000, .i32⟩ : BufTy).Contents (Elt F)),
    binary main_v1 main_v283 main_v284 (addi : (⟨S1600000, .i32⟩ : BufTy).Contents (Elt F) → (⟨S1600000, .i32⟩ : BufTy).Contents (Elt F) → (⟨S1600000, .i32⟩ : BufTy).Contents (Elt F)),
    ternary main_v282 main_v284 main_v1 main_v285 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v285 main_v286 (broadcastInDim S1600000x1 ![0] bcast_S1600000_S1600000x1_0 : (⟨S1600000, .i32⟩ : BufTy).Contents (Elt F) → (⟨S1600000x1, .i32⟩ : BufTy).Contents (Elt F)),
    binary main_v280 main_v286 main_v287 ((fun x i => Host.gather gather_S100000x11_S1600000x1_S1600000x11_1_0_n_n_0_1_111 x i) : (⟨S100000x11, .f32⟩ : BufTy).Contents (Elt F) → (⟨S1600000x1, .i32⟩ : BufTy).Contents (Elt F) → (⟨S1600000x11, .f32⟩ : BufTy).Contents (Elt F)),
    unary main_v27 main_v288 (broadcastInDim S1600000x1 ![0] bcast_S1600000_S1600000x1_0 : (⟨S1600000, .f32⟩ : BufTy).Contents (Elt F) → (⟨S1600000x1, .f32⟩ : BufTy).Contents (Elt F)),
    unary main_v288 main_v289 (broadcastInDim S1600000x11 ![0, 1] bcast_S1600000x1_S1600000x11_0_1 : (⟨S1600000x1, .f32⟩ : BufTy).Contents (Elt F) → (⟨S1600000x11, .f32⟩ : BufTy).Contents (Elt F)),
    binary main_v287 main_v289 main_v290 (mulf : (⟨S1600000x11, .f32⟩ : BufTy).Contents (Elt F) → (⟨S1600000x11, .f32⟩ : BufTy).Contents (Elt F) → (⟨S1600000x11, .f32⟩ : BufTy).Contents (Elt F)),
    nullary main_cst_66 (constant S_ .f32 0x00000000#32),
    unary main_cst_66 main_v291 (broadcastInDim S100000x11 ![] bcast_S_S100000x11 : (⟨S_, .f32⟩ : BufTy).Contents (Elt F) → (⟨S100000x11, .f32⟩ : BufTy).Contents (Elt F)),
    unary main_v3 main_v292 (broadcastInDim S1600000x1 ![0] bcast_S1600000_S1600000x1_0 : (⟨S1600000, .i32⟩ : BufTy).Contents (Elt F) → (⟨S1600000x1, .i32⟩ : BufTy).Contents (Elt F)),
    ternary main_v291 main_v292 main_v290 main_v293 ((fun x i u => Host.scatterAdd scatter_S100000x11_S1600000x1_S1600000x11_1_0_0_1 x i u) : (⟨S100000x11, .f32⟩ : BufTy).Contents (Elt F) → (⟨S1600000x1, .i32⟩ : BufTy).Contents (Elt F) → (⟨S1600000x11, .f32⟩ : BufTy).Contents (Elt F) → (⟨S100000x11, .f32⟩ : BufTy).Contents (Elt F)) ]

set_option maxHeartbeats 0 in
/-- Window 22: operations 369 to 369 of the line. -/
abbrev w22 : List (HloOp τ sig (Elt F)) :=
  [ nary ![main_arg0, main_v228, main_v241, main_v254, main_v267, main_v280, main_v293] main_v294 (fun u => concatenate S100000x77 1 [⟨S100000x11, u 0⟩, ⟨S100000x11, u 1⟩, ⟨S100000x11, u 2⟩, ⟨S100000x11, u 3⟩, ⟨S100000x11, u 4⟩, ⟨S100000x11, u 5⟩, ⟨S100000x11, u 6⟩] concatenates_S100000x11_S100000x11_S100000x11_S100000x11_S100000x11_S100000x11_S100000x11_S100000x77_d1) ]

set_option maxHeartbeats 0 in
/-- Window 23: operations 370 to 382 of the line. -/
abbrev w23 : List (HloOp τ sig (Elt F)) :=
  [ unary main_arg15 main_v295 ((transpose S77x8 [1, 0] · transposes_S8x77_S77x8_1_0) : (⟨S8x77, .f32⟩ : BufTy).Contents (Elt F) → (⟨S77x8, .f32⟩ : BufTy).Contents (Elt F)),
    binary main_v294 main_v295 main_v296 ((fun l r => Host.dotGeneral dot_S100000x77_S77x8_S100000x8_1_0_0_1_n_n none l r) : (⟨S100000x77, .f32⟩ : BufTy).Contents (Elt F) → (⟨S77x8, .f32⟩ : BufTy).Contents (Elt F) → (⟨S100000x8, .f32⟩ : BufTy).Contents (Elt F)),
    unary main_arg16 main_v297 (broadcastInDim S1x8 ![1] bcast_S8_S1x8_1 : (⟨S8, .f32⟩ : BufTy).Contents (Elt F) → (⟨S1x8, .f32⟩ : BufTy).Contents (Elt F)),
    unary main_v297 main_v298 (broadcastInDim S100000x8 ![0, 1] bcast_S1x8_S100000x8_0_1 : (⟨S1x8, .f32⟩ : BufTy).Contents (Elt F) → (⟨S100000x8, .f32⟩ : BufTy).Contents (Elt F)),
    binary main_v296 main_v298 main_v299 (addf : (⟨S100000x8, .f32⟩ : BufTy).Contents (Elt F) → (⟨S100000x8, .f32⟩ : BufTy).Contents (Elt F) → (⟨S100000x8, .f32⟩ : BufTy).Contents (Elt F)),
    unary main_v299 main_v300 (Host.negf : (⟨S100000x8, .f32⟩ : BufTy).Contents (Elt F) → (⟨S100000x8, .f32⟩ : BufTy).Contents (Elt F)),
    unary main_v300 main_v301 (Host.exp : (⟨S100000x8, .f32⟩ : BufTy).Contents (Elt F) → (⟨S100000x8, .f32⟩ : BufTy).Contents (Elt F)),
    nullary main_cst_67 (constant S_ .f32 0x3F800000#32),
    unary main_cst_67 main_v302 (broadcastInDim S100000x8 ![] bcast_S_S100000x8 : (⟨S_, .f32⟩ : BufTy).Contents (Elt F) → (⟨S100000x8, .f32⟩ : BufTy).Contents (Elt F)),
    binary main_v302 main_v301 main_v303 (addf : (⟨S100000x8, .f32⟩ : BufTy).Contents (Elt F) → (⟨S100000x8, .f32⟩ : BufTy).Contents (Elt F) → (⟨S100000x8, .f32⟩ : BufTy).Contents (Elt F)),
    nullary main_cst_68 (constant S_ .f32 0x3F800000#32),
    unary main_cst_68 main_v304 (broadcastInDim S100000x8 ![] bcast_S_S100000x8 : (⟨S_, .f32⟩ : BufTy).Contents (Elt F) → (⟨S100000x8, .f32⟩ : BufTy).Contents (Elt F)),
    binary main_v304 main_v303 main_v305 (Host.divf : (⟨S100000x8, .f32⟩ : BufTy).Contents (Elt F) → (⟨S100000x8, .f32⟩ : BufTy).Contents (Elt F) → (⟨S100000x8, .f32⟩ : BufTy).Contents (Elt F)) ]

set_option maxHeartbeats 0 in
/-- Window 24: operations 383 to 398 of the line. -/
abbrev w24 : List (HloOp τ sig (Elt F)) :=
  [ nullary main_c_69 (constantI S_ 32 0#32),
    unary main_c_69 main_v306 (broadcastInDim S1600000 ![] bcast_S_S1600000 : (⟨S_, .i32⟩ : BufTy).Contents (Elt F) → (⟨S1600000, .i32⟩ : BufTy).Contents (Elt F)),
    binary main_v1 main_v306 main_v307 (cmpi .slt : (⟨S1600000, .i32⟩ : BufTy).Contents (Elt F) → (⟨S1600000, .i32⟩ : BufTy).Contents (Elt F) → (⟨S1600000, .i1⟩ : BufTy).Contents (Elt F)),
    nullary main_c_70 (constantI S_ 32 100000#32),
    unary main_c_70 main_v308 (broadcastInDim S1600000 ![] bcast_S_S1600000 : (⟨S_, .i32⟩ : BufTy).Contents (Elt F) → (⟨S1600000, .i32⟩ : BufTy).Contents (Elt F)),
    binary main_v1 main_v308 main_v309 (addi : (⟨S1600000, .i32⟩ : BufTy).Contents (Elt F) → (⟨S1600000, .i32⟩ : BufTy).Contents (Elt F) → (⟨S1600000, .i32⟩ : BufTy).Contents (Elt F)),
    ternary main_v307 main_v309 main_v1 main_v310 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v310 main_v311 (broadcastInDim S1600000x1 ![0] bcast_S1600000_S1600000x1_0 : (⟨S1600000, .i32⟩ : BufTy).Contents (Elt F) → (⟨S1600000x1, .i32⟩ : BufTy).Contents (Elt F)),
    binary main_v305 main_v311 main_v312 ((fun x i => Host.gather gather_S100000x8_S1600000x1_S1600000x8_1_0_n_n_0_1_18 x i) : (⟨S100000x8, .f32⟩ : BufTy).Contents (Elt F) → (⟨S1600000x1, .i32⟩ : BufTy).Contents (Elt F) → (⟨S1600000x8, .f32⟩ : BufTy).Contents (Elt F)),
    unary main_v27 main_v313 (broadcastInDim S1600000x1 ![0] bcast_S1600000_S1600000x1_0 : (⟨S1600000, .f32⟩ : BufTy).Contents (Elt F) → (⟨S1600000x1, .f32⟩ : BufTy).Contents (Elt F)),
    unary main_v313 main_v314 (broadcastInDim S1600000x8 ![0, 1] bcast_S1600000x1_S1600000x8_0_1 : (⟨S1600000x1, .f32⟩ : BufTy).Contents (Elt F) → (⟨S1600000x8, .f32⟩ : BufTy).Contents (Elt F)),
    binary main_v312 main_v314 main_v315 (mulf : (⟨S1600000x8, .f32⟩ : BufTy).Contents (Elt F) → (⟨S1600000x8, .f32⟩ : BufTy).Contents (Elt F) → (⟨S1600000x8, .f32⟩ : BufTy).Contents (Elt F)),
    nullary main_cst_71 (constant S_ .f32 0x00000000#32),
    unary main_cst_71 main_v316 (broadcastInDim S100000x8 ![] bcast_S_S100000x8 : (⟨S_, .f32⟩ : BufTy).Contents (Elt F) → (⟨S100000x8, .f32⟩ : BufTy).Contents (Elt F)),
    unary main_v3 main_v317 (broadcastInDim S1600000x1 ![0] bcast_S1600000_S1600000x1_0 : (⟨S1600000, .i32⟩ : BufTy).Contents (Elt F) → (⟨S1600000x1, .i32⟩ : BufTy).Contents (Elt F)),
    ternary main_v316 main_v317 main_v315 main_v318 ((fun x i u => Host.scatterAdd scatter_S100000x8_S1600000x1_S1600000x8_1_0_0_1 x i u) : (⟨S100000x8, .f32⟩ : BufTy).Contents (Elt F) → (⟨S1600000x1, .i32⟩ : BufTy).Contents (Elt F) → (⟨S1600000x8, .f32⟩ : BufTy).Contents (Elt F) → (⟨S100000x8, .f32⟩ : BufTy).Contents (Elt F)) ]

set_option maxHeartbeats 0 in
/-- Window 25: operations 399 to 414 of the line. -/
abbrev w25 : List (HloOp τ sig (Elt F)) :=
  [ nullary main_c_72 (constantI S_ 32 0#32),
    unary main_c_72 main_v319 (broadcastInDim S1600000 ![] bcast_S_S1600000 : (⟨S_, .i32⟩ : BufTy).Contents (Elt F) → (⟨S1600000, .i32⟩ : BufTy).Contents (Elt F)),
    binary main_v1 main_v319 main_v320 (cmpi .slt : (⟨S1600000, .i32⟩ : BufTy).Contents (Elt F) → (⟨S1600000, .i32⟩ : BufTy).Contents (Elt F) → (⟨S1600000, .i1⟩ : BufTy).Contents (Elt F)),
    nullary main_c_73 (constantI S_ 32 100000#32),
    unary main_c_73 main_v321 (broadcastInDim S1600000 ![] bcast_S_S1600000 : (⟨S_, .i32⟩ : BufTy).Contents (Elt F) → (⟨S1600000, .i32⟩ : BufTy).Contents (Elt F)),
    binary main_v1 main_v321 main_v322 (addi : (⟨S1600000, .i32⟩ : BufTy).Contents (Elt F) → (⟨S1600000, .i32⟩ : BufTy).Contents (Elt F) → (⟨S1600000, .i32⟩ : BufTy).Contents (Elt F)),
    ternary main_v320 main_v322 main_v1 main_v323 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v323 main_v324 (broadcastInDim S1600000x1 ![0] bcast_S1600000_S1600000x1_0 : (⟨S1600000, .i32⟩ : BufTy).Contents (Elt F) → (⟨S1600000x1, .i32⟩ : BufTy).Contents (Elt F)),
    binary main_v318 main_v324 main_v325 ((fun x i => Host.gather gather_S100000x8_S1600000x1_S1600000x8_1_0_n_n_0_1_18 x i) : (⟨S100000x8, .f32⟩ : BufTy).Contents (Elt F) → (⟨S1600000x1, .i32⟩ : BufTy).Contents (Elt F) → (⟨S1600000x8, .f32⟩ : BufTy).Contents (Elt F)),
    unary main_v27 main_v326 (broadcastInDim S1600000x1 ![0] bcast_S1600000_S1600000x1_0 : (⟨S1600000, .f32⟩ : BufTy).Contents (Elt F) → (⟨S1600000x1, .f32⟩ : BufTy).Contents (Elt F)),
    unary main_v326 main_v327 (broadcastInDim S1600000x8 ![0, 1] bcast_S1600000x1_S1600000x8_0_1 : (⟨S1600000x1, .f32⟩ : BufTy).Contents (Elt F) → (⟨S1600000x8, .f32⟩ : BufTy).Contents (Elt F)),
    binary main_v325 main_v327 main_v328 (mulf : (⟨S1600000x8, .f32⟩ : BufTy).Contents (Elt F) → (⟨S1600000x8, .f32⟩ : BufTy).Contents (Elt F) → (⟨S1600000x8, .f32⟩ : BufTy).Contents (Elt F)),
    nullary main_cst_74 (constant S_ .f32 0x00000000#32),
    unary main_cst_74 main_v329 (broadcastInDim S100000x8 ![] bcast_S_S100000x8 : (⟨S_, .f32⟩ : BufTy).Contents (Elt F) → (⟨S100000x8, .f32⟩ : BufTy).Contents (Elt F)),
    unary main_v3 main_v330 (broadcastInDim S1600000x1 ![0] bcast_S1600000_S1600000x1_0 : (⟨S1600000, .i32⟩ : BufTy).Contents (Elt F) → (⟨S1600000x1, .i32⟩ : BufTy).Contents (Elt F)),
    ternary main_v329 main_v330 main_v328 main_v331 ((fun x i u => Host.scatterAdd scatter_S100000x8_S1600000x1_S1600000x8_1_0_0_1 x i u) : (⟨S100000x8, .f32⟩ : BufTy).Contents (Elt F) → (⟨S1600000x1, .i32⟩ : BufTy).Contents (Elt F) → (⟨S1600000x8, .f32⟩ : BufTy).Contents (Elt F) → (⟨S100000x8, .f32⟩ : BufTy).Contents (Elt F)) ]

set_option maxHeartbeats 0 in
/-- Window 26: operations 415 to 430 of the line. -/
abbrev w26 : List (HloOp τ sig (Elt F)) :=
  [ nullary main_c_75 (constantI S_ 32 0#32),
    unary main_c_75 main_v332 (broadcastInDim S1600000 ![] bcast_S_S1600000 : (⟨S_, .i32⟩ : BufTy).Contents (Elt F) → (⟨S1600000, .i32⟩ : BufTy).Contents (Elt F)),
    binary main_v1 main_v332 main_v333 (cmpi .slt : (⟨S1600000, .i32⟩ : BufTy).Contents (Elt F) → (⟨S1600000, .i32⟩ : BufTy).Contents (Elt F) → (⟨S1600000, .i1⟩ : BufTy).Contents (Elt F)),
    nullary main_c_76 (constantI S_ 32 100000#32),
    unary main_c_76 main_v334 (broadcastInDim S1600000 ![] bcast_S_S1600000 : (⟨S_, .i32⟩ : BufTy).Contents (Elt F) → (⟨S1600000, .i32⟩ : BufTy).Contents (Elt F)),
    binary main_v1 main_v334 main_v335 (addi : (⟨S1600000, .i32⟩ : BufTy).Contents (Elt F) → (⟨S1600000, .i32⟩ : BufTy).Contents (Elt F) → (⟨S1600000, .i32⟩ : BufTy).Contents (Elt F)),
    ternary main_v333 main_v335 main_v1 main_v336 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v336 main_v337 (broadcastInDim S1600000x1 ![0] bcast_S1600000_S1600000x1_0 : (⟨S1600000, .i32⟩ : BufTy).Contents (Elt F) → (⟨S1600000x1, .i32⟩ : BufTy).Contents (Elt F)),
    binary main_v331 main_v337 main_v338 ((fun x i => Host.gather gather_S100000x8_S1600000x1_S1600000x8_1_0_n_n_0_1_18 x i) : (⟨S100000x8, .f32⟩ : BufTy).Contents (Elt F) → (⟨S1600000x1, .i32⟩ : BufTy).Contents (Elt F) → (⟨S1600000x8, .f32⟩ : BufTy).Contents (Elt F)),
    unary main_v27 main_v339 (broadcastInDim S1600000x1 ![0] bcast_S1600000_S1600000x1_0 : (⟨S1600000, .f32⟩ : BufTy).Contents (Elt F) → (⟨S1600000x1, .f32⟩ : BufTy).Contents (Elt F)),
    unary main_v339 main_v340 (broadcastInDim S1600000x8 ![0, 1] bcast_S1600000x1_S1600000x8_0_1 : (⟨S1600000x1, .f32⟩ : BufTy).Contents (Elt F) → (⟨S1600000x8, .f32⟩ : BufTy).Contents (Elt F)),
    binary main_v338 main_v340 main_v341 (mulf : (⟨S1600000x8, .f32⟩ : BufTy).Contents (Elt F) → (⟨S1600000x8, .f32⟩ : BufTy).Contents (Elt F) → (⟨S1600000x8, .f32⟩ : BufTy).Contents (Elt F)),
    nullary main_cst_77 (constant S_ .f32 0x00000000#32),
    unary main_cst_77 main_v342 (broadcastInDim S100000x8 ![] bcast_S_S100000x8 : (⟨S_, .f32⟩ : BufTy).Contents (Elt F) → (⟨S100000x8, .f32⟩ : BufTy).Contents (Elt F)),
    unary main_v3 main_v343 (broadcastInDim S1600000x1 ![0] bcast_S1600000_S1600000x1_0 : (⟨S1600000, .i32⟩ : BufTy).Contents (Elt F) → (⟨S1600000x1, .i32⟩ : BufTy).Contents (Elt F)),
    ternary main_v342 main_v343 main_v341 main_v344 ((fun x i u => Host.scatterAdd scatter_S100000x8_S1600000x1_S1600000x8_1_0_0_1 x i u) : (⟨S100000x8, .f32⟩ : BufTy).Contents (Elt F) → (⟨S1600000x1, .i32⟩ : BufTy).Contents (Elt F) → (⟨S1600000x8, .f32⟩ : BufTy).Contents (Elt F) → (⟨S100000x8, .f32⟩ : BufTy).Contents (Elt F)) ]

set_option maxHeartbeats 0 in
/-- Window 27: operations 431 to 446 of the line. -/
abbrev w27 : List (HloOp τ sig (Elt F)) :=
  [ nullary main_c_78 (constantI S_ 32 0#32),
    unary main_c_78 main_v345 (broadcastInDim S1600000 ![] bcast_S_S1600000 : (⟨S_, .i32⟩ : BufTy).Contents (Elt F) → (⟨S1600000, .i32⟩ : BufTy).Contents (Elt F)),
    binary main_v1 main_v345 main_v346 (cmpi .slt : (⟨S1600000, .i32⟩ : BufTy).Contents (Elt F) → (⟨S1600000, .i32⟩ : BufTy).Contents (Elt F) → (⟨S1600000, .i1⟩ : BufTy).Contents (Elt F)),
    nullary main_c_79 (constantI S_ 32 100000#32),
    unary main_c_79 main_v347 (broadcastInDim S1600000 ![] bcast_S_S1600000 : (⟨S_, .i32⟩ : BufTy).Contents (Elt F) → (⟨S1600000, .i32⟩ : BufTy).Contents (Elt F)),
    binary main_v1 main_v347 main_v348 (addi : (⟨S1600000, .i32⟩ : BufTy).Contents (Elt F) → (⟨S1600000, .i32⟩ : BufTy).Contents (Elt F) → (⟨S1600000, .i32⟩ : BufTy).Contents (Elt F)),
    ternary main_v346 main_v348 main_v1 main_v349 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v349 main_v350 (broadcastInDim S1600000x1 ![0] bcast_S1600000_S1600000x1_0 : (⟨S1600000, .i32⟩ : BufTy).Contents (Elt F) → (⟨S1600000x1, .i32⟩ : BufTy).Contents (Elt F)),
    binary main_v344 main_v350 main_v351 ((fun x i => Host.gather gather_S100000x8_S1600000x1_S1600000x8_1_0_n_n_0_1_18 x i) : (⟨S100000x8, .f32⟩ : BufTy).Contents (Elt F) → (⟨S1600000x1, .i32⟩ : BufTy).Contents (Elt F) → (⟨S1600000x8, .f32⟩ : BufTy).Contents (Elt F)),
    unary main_v27 main_v352 (broadcastInDim S1600000x1 ![0] bcast_S1600000_S1600000x1_0 : (⟨S1600000, .f32⟩ : BufTy).Contents (Elt F) → (⟨S1600000x1, .f32⟩ : BufTy).Contents (Elt F)),
    unary main_v352 main_v353 (broadcastInDim S1600000x8 ![0, 1] bcast_S1600000x1_S1600000x8_0_1 : (⟨S1600000x1, .f32⟩ : BufTy).Contents (Elt F) → (⟨S1600000x8, .f32⟩ : BufTy).Contents (Elt F)),
    binary main_v351 main_v353 main_v354 (mulf : (⟨S1600000x8, .f32⟩ : BufTy).Contents (Elt F) → (⟨S1600000x8, .f32⟩ : BufTy).Contents (Elt F) → (⟨S1600000x8, .f32⟩ : BufTy).Contents (Elt F)),
    nullary main_cst_80 (constant S_ .f32 0x00000000#32),
    unary main_cst_80 main_v355 (broadcastInDim S100000x8 ![] bcast_S_S100000x8 : (⟨S_, .f32⟩ : BufTy).Contents (Elt F) → (⟨S100000x8, .f32⟩ : BufTy).Contents (Elt F)),
    unary main_v3 main_v356 (broadcastInDim S1600000x1 ![0] bcast_S1600000_S1600000x1_0 : (⟨S1600000, .i32⟩ : BufTy).Contents (Elt F) → (⟨S1600000x1, .i32⟩ : BufTy).Contents (Elt F)),
    ternary main_v355 main_v356 main_v354 main_v357 ((fun x i u => Host.scatterAdd scatter_S100000x8_S1600000x1_S1600000x8_1_0_0_1 x i u) : (⟨S100000x8, .f32⟩ : BufTy).Contents (Elt F) → (⟨S1600000x1, .i32⟩ : BufTy).Contents (Elt F) → (⟨S1600000x8, .f32⟩ : BufTy).Contents (Elt F) → (⟨S100000x8, .f32⟩ : BufTy).Contents (Elt F)) ]

set_option maxHeartbeats 0 in
/-- Window 28: operations 447 to 462 of the line. -/
abbrev w28 : List (HloOp τ sig (Elt F)) :=
  [ nullary main_c_81 (constantI S_ 32 0#32),
    unary main_c_81 main_v358 (broadcastInDim S1600000 ![] bcast_S_S1600000 : (⟨S_, .i32⟩ : BufTy).Contents (Elt F) → (⟨S1600000, .i32⟩ : BufTy).Contents (Elt F)),
    binary main_v1 main_v358 main_v359 (cmpi .slt : (⟨S1600000, .i32⟩ : BufTy).Contents (Elt F) → (⟨S1600000, .i32⟩ : BufTy).Contents (Elt F) → (⟨S1600000, .i1⟩ : BufTy).Contents (Elt F)),
    nullary main_c_82 (constantI S_ 32 100000#32),
    unary main_c_82 main_v360 (broadcastInDim S1600000 ![] bcast_S_S1600000 : (⟨S_, .i32⟩ : BufTy).Contents (Elt F) → (⟨S1600000, .i32⟩ : BufTy).Contents (Elt F)),
    binary main_v1 main_v360 main_v361 (addi : (⟨S1600000, .i32⟩ : BufTy).Contents (Elt F) → (⟨S1600000, .i32⟩ : BufTy).Contents (Elt F) → (⟨S1600000, .i32⟩ : BufTy).Contents (Elt F)),
    ternary main_v359 main_v361 main_v1 main_v362 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v362 main_v363 (broadcastInDim S1600000x1 ![0] bcast_S1600000_S1600000x1_0 : (⟨S1600000, .i32⟩ : BufTy).Contents (Elt F) → (⟨S1600000x1, .i32⟩ : BufTy).Contents (Elt F)),
    binary main_v357 main_v363 main_v364 ((fun x i => Host.gather gather_S100000x8_S1600000x1_S1600000x8_1_0_n_n_0_1_18 x i) : (⟨S100000x8, .f32⟩ : BufTy).Contents (Elt F) → (⟨S1600000x1, .i32⟩ : BufTy).Contents (Elt F) → (⟨S1600000x8, .f32⟩ : BufTy).Contents (Elt F)),
    unary main_v27 main_v365 (broadcastInDim S1600000x1 ![0] bcast_S1600000_S1600000x1_0 : (⟨S1600000, .f32⟩ : BufTy).Contents (Elt F) → (⟨S1600000x1, .f32⟩ : BufTy).Contents (Elt F)),
    unary main_v365 main_v366 (broadcastInDim S1600000x8 ![0, 1] bcast_S1600000x1_S1600000x8_0_1 : (⟨S1600000x1, .f32⟩ : BufTy).Contents (Elt F) → (⟨S1600000x8, .f32⟩ : BufTy).Contents (Elt F)),
    binary main_v364 main_v366 main_v367 (mulf : (⟨S1600000x8, .f32⟩ : BufTy).Contents (Elt F) → (⟨S1600000x8, .f32⟩ : BufTy).Contents (Elt F) → (⟨S1600000x8, .f32⟩ : BufTy).Contents (Elt F)),
    nullary main_cst_83 (constant S_ .f32 0x00000000#32),
    unary main_cst_83 main_v368 (broadcastInDim S100000x8 ![] bcast_S_S100000x8 : (⟨S_, .f32⟩ : BufTy).Contents (Elt F) → (⟨S100000x8, .f32⟩ : BufTy).Contents (Elt F)),
    unary main_v3 main_v369 (broadcastInDim S1600000x1 ![0] bcast_S1600000_S1600000x1_0 : (⟨S1600000, .i32⟩ : BufTy).Contents (Elt F) → (⟨S1600000x1, .i32⟩ : BufTy).Contents (Elt F)),
    ternary main_v368 main_v369 main_v367 main_v370 ((fun x i u => Host.scatterAdd scatter_S100000x8_S1600000x1_S1600000x8_1_0_0_1 x i u) : (⟨S100000x8, .f32⟩ : BufTy).Contents (Elt F) → (⟨S1600000x1, .i32⟩ : BufTy).Contents (Elt F) → (⟨S1600000x8, .f32⟩ : BufTy).Contents (Elt F) → (⟨S100000x8, .f32⟩ : BufTy).Contents (Elt F)) ]

set_option maxHeartbeats 0 in
/-- Window 29: operations 463 to 478 of the line. -/
abbrev w29 : List (HloOp τ sig (Elt F)) :=
  [ nullary main_c_84 (constantI S_ 32 0#32),
    unary main_c_84 main_v371 (broadcastInDim S1600000 ![] bcast_S_S1600000 : (⟨S_, .i32⟩ : BufTy).Contents (Elt F) → (⟨S1600000, .i32⟩ : BufTy).Contents (Elt F)),
    binary main_v1 main_v371 main_v372 (cmpi .slt : (⟨S1600000, .i32⟩ : BufTy).Contents (Elt F) → (⟨S1600000, .i32⟩ : BufTy).Contents (Elt F) → (⟨S1600000, .i1⟩ : BufTy).Contents (Elt F)),
    nullary main_c_85 (constantI S_ 32 100000#32),
    unary main_c_85 main_v373 (broadcastInDim S1600000 ![] bcast_S_S1600000 : (⟨S_, .i32⟩ : BufTy).Contents (Elt F) → (⟨S1600000, .i32⟩ : BufTy).Contents (Elt F)),
    binary main_v1 main_v373 main_v374 (addi : (⟨S1600000, .i32⟩ : BufTy).Contents (Elt F) → (⟨S1600000, .i32⟩ : BufTy).Contents (Elt F) → (⟨S1600000, .i32⟩ : BufTy).Contents (Elt F)),
    ternary main_v372 main_v374 main_v1 main_v375 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v375 main_v376 (broadcastInDim S1600000x1 ![0] bcast_S1600000_S1600000x1_0 : (⟨S1600000, .i32⟩ : BufTy).Contents (Elt F) → (⟨S1600000x1, .i32⟩ : BufTy).Contents (Elt F)),
    binary main_v370 main_v376 main_v377 ((fun x i => Host.gather gather_S100000x8_S1600000x1_S1600000x8_1_0_n_n_0_1_18 x i) : (⟨S100000x8, .f32⟩ : BufTy).Contents (Elt F) → (⟨S1600000x1, .i32⟩ : BufTy).Contents (Elt F) → (⟨S1600000x8, .f32⟩ : BufTy).Contents (Elt F)),
    unary main_v27 main_v378 (broadcastInDim S1600000x1 ![0] bcast_S1600000_S1600000x1_0 : (⟨S1600000, .f32⟩ : BufTy).Contents (Elt F) → (⟨S1600000x1, .f32⟩ : BufTy).Contents (Elt F)),
    unary main_v378 main_v379 (broadcastInDim S1600000x8 ![0, 1] bcast_S1600000x1_S1600000x8_0_1 : (⟨S1600000x1, .f32⟩ : BufTy).Contents (Elt F) → (⟨S1600000x8, .f32⟩ : BufTy).Contents (Elt F)),
    binary main_v377 main_v379 main_v380 (mulf : (⟨S1600000x8, .f32⟩ : BufTy).Contents (Elt F) → (⟨S1600000x8, .f32⟩ : BufTy).Contents (Elt F) → (⟨S1600000x8, .f32⟩ : BufTy).Contents (Elt F)),
    nullary main_cst_86 (constant S_ .f32 0x00000000#32),
    unary main_cst_86 main_v381 (broadcastInDim S100000x8 ![] bcast_S_S100000x8 : (⟨S_, .f32⟩ : BufTy).Contents (Elt F) → (⟨S100000x8, .f32⟩ : BufTy).Contents (Elt F)),
    unary main_v3 main_v382 (broadcastInDim S1600000x1 ![0] bcast_S1600000_S1600000x1_0 : (⟨S1600000, .i32⟩ : BufTy).Contents (Elt F) → (⟨S1600000x1, .i32⟩ : BufTy).Contents (Elt F)),
    ternary main_v381 main_v382 main_v380 main_v383 ((fun x i u => Host.scatterAdd scatter_S100000x8_S1600000x1_S1600000x8_1_0_0_1 x i u) : (⟨S100000x8, .f32⟩ : BufTy).Contents (Elt F) → (⟨S1600000x1, .i32⟩ : BufTy).Contents (Elt F) → (⟨S1600000x8, .f32⟩ : BufTy).Contents (Elt F) → (⟨S100000x8, .f32⟩ : BufTy).Contents (Elt F)) ]

set_option maxHeartbeats 0 in
/-- Window 30: operations 479 to 479 of the line. -/
abbrev w30 : List (HloOp τ sig (Elt F)) :=
  [ nary ![main_v305, main_v318, main_v331, main_v344, main_v357, main_v370, main_v383] main_v384 (fun u => concatenate S100000x56 1 [⟨S100000x8, u 0⟩, ⟨S100000x8, u 1⟩, ⟨S100000x8, u 2⟩, ⟨S100000x8, u 3⟩, ⟨S100000x8, u 4⟩, ⟨S100000x8, u 5⟩, ⟨S100000x8, u 6⟩] concatenates_S100000x8_S100000x8_S100000x8_S100000x8_S100000x8_S100000x8_S100000x8_S100000x56_d1) ]

set_option maxHeartbeats 0 in
/-- Window 31: operations 480 to 487 of the line. -/
abbrev w31 : List (HloOp τ sig (Elt F)) :=
  [ unary main_arg17 main_v385 ((transpose S56x1 [1, 0] · transposes_S1x56_S56x1_1_0) : (⟨S1x56, .f32⟩ : BufTy).Contents (Elt F) → (⟨S56x1, .f32⟩ : BufTy).Contents (Elt F)),
    binary main_v384 main_v385 main_v386 ((fun l r => Host.dotGeneral dot_S100000x56_S56x1_S100000x1_1_0_0_1_n_n none l r) : (⟨S100000x56, .f32⟩ : BufTy).Contents (Elt F) → (⟨S56x1, .f32⟩ : BufTy).Contents (Elt F) → (⟨S100000x1, .f32⟩ : BufTy).Contents (Elt F)),
    unary main_arg18 main_v387 (broadcastInDim S1x1 ![1] bcast_S1_S1x1_1 : (⟨S1, .f32⟩ : BufTy).Contents (Elt F) → (⟨S1x1, .f32⟩ : BufTy).Contents (Elt F)),
    unary main_v387 main_v388 (broadcastInDim S100000x1 ![0, 1] bcast_S1x1_S100000x1_0_1 : (⟨S1x1, .f32⟩ : BufTy).Contents (Elt F) → (⟨S100000x1, .f32⟩ : BufTy).Contents (Elt F)),
    binary main_v386 main_v388 main_v389 (addf : (⟨S100000x1, .f32⟩ : BufTy).Contents (Elt F) → (⟨S100000x1, .f32⟩ : BufTy).Contents (Elt F) → (⟨S100000x1, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S100000x1, .f32⟩) main_call3_v0) (broadcastInDim S100000x1 ![] bcast_S_S100000x1),
    TRef.binary (TRef.of (T := ⟨S100000x1, .f32⟩) main_v389) (TRef.of (T := ⟨S100000x1, .f32⟩) main_call3_v0) (TRef.of (T := ⟨S100000x1, .f32⟩) main_v390) maximumf ]

set_option maxHeartbeats 0 in
/-- Window 32: operations 488 to 488 of the line. -/
abbrev w32 : List (HloOp τ sig (Elt F)) :=
  [ nary ![main_v118, main_v215, main_v390] main_v391 (fun u => concatenate S100000x3 1 [⟨S100000x1, u 0⟩, ⟨S100000x1, u 1⟩, ⟨S100000x1, u 2⟩] concatenates_S100000x1_S100000x1_S100000x1_S100000x3_d1) ]

set_option maxHeartbeats 0 in
/-- Window 33: operations 489 to 496 of the line. -/
abbrev w33 : List (HloOp τ sig (Elt F)) :=
  [ unary main_arg19 main_v392 ((transpose S3x1 [1, 0] · transposes_S1x3_S3x1_1_0) : (⟨S1x3, .f32⟩ : BufTy).Contents (Elt F) → (⟨S3x1, .f32⟩ : BufTy).Contents (Elt F)),
    binary main_v391 main_v392 main_v393 ((fun l r => Host.dotGeneral dot_S100000x3_S3x1_S100000x1_1_0_0_1_n_n none l r) : (⟨S100000x3, .f32⟩ : BufTy).Contents (Elt F) → (⟨S3x1, .f32⟩ : BufTy).Contents (Elt F) → (⟨S100000x1, .f32⟩ : BufTy).Contents (Elt F)),
    unary main_arg20 main_v394 (broadcastInDim S1x1 ![1] bcast_S1_S1x1_1 : (⟨S1, .f32⟩ : BufTy).Contents (Elt F) → (⟨S1x1, .f32⟩ : BufTy).Contents (Elt F)),
    unary main_v394 main_v395 (broadcastInDim S100000x1 ![0, 1] bcast_S1x1_S100000x1_0_1 : (⟨S1x1, .f32⟩ : BufTy).Contents (Elt F) → (⟨S100000x1, .f32⟩ : BufTy).Contents (Elt F)),
    binary main_v393 main_v395 main_v396 (addf : (⟨S100000x1, .f32⟩ : BufTy).Contents (Elt F) → (⟨S100000x1, .f32⟩ : BufTy).Contents (Elt F) → (⟨S100000x1, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S100000x1, .f32⟩) main_call4_v0) (broadcastInDim S100000x1 ![] bcast_S_S100000x1),
    TRef.binary (TRef.of (T := ⟨S100000x1, .f32⟩) main_v396) (TRef.of (T := ⟨S100000x1, .f32⟩) main_call4_v0) (TRef.of (T := ⟨S100000x1, .f32⟩) main_v397) maximumf ]

end Cert.ReferenceIdeal.HandRun

end
-- ==== Proof.RefRunBase.lean ====
/-
  The reference's line of 497 host operations, cut into 34 windows (Proof/RefWin.lean): the buffer contents after
  each window as a fold from the launch memory; each window writes only buffers numbered from its first result
  on, so it leaves every lower-numbered buffer — the arguments, and every earlier window's results — as it found
  it. Generic in the float instance.
-/
import proofs.«101217_j35820027249494_1_alg».proof.Proof.RefRead
import proofs.«101217_j35820027249494_1_alg».proof.Proof.RefWin
import proofs.«101217_j35820027249494_1_alg».proof.Proof.LibWrites

set_option maxRecDepth 16384
set_option maxHeartbeats 4000000

noncomputable section

namespace Cert.ReferenceIdeal.HandRun

open Cert.ReferenceIdeal Cert.ReferenceIdeal.Gen Cert.ReferenceIdeal.Value Cert.ReferenceIdeal.Read
open Idealize.ShloMosaic Idealize.ShloMosaic.TcCoe Idealize.SL.Sem Idealize.ShloMosaic.StableHlo

variable {F : FTy → Type} [FloatOps F]
theorem w0_from : (w0 : List (HloOp τ sig (Elt F))).Forall (WritesFrom 21) := by writes_own
theorem w1_from : (w1 : List (HloOp τ sig (Elt F))).Forall (WritesFrom 84) := by writes_own
theorem w2_from : (w2 : List (HloOp τ sig (Elt F))).Forall (WritesFrom 100) := by writes_own
theorem w3_from : (w3 : List (HloOp τ sig (Elt F))).Forall (WritesFrom 124) := by writes_own
theorem w4_from : (w4 : List (HloOp τ sig (Elt F))).Forall (WritesFrom 140) := by writes_own
theorem w5_from : (w5 : List (HloOp τ sig (Elt F))).Forall (WritesFrom 164) := by writes_own
theorem w6_from : (w6 : List (HloOp τ sig (Elt F))).Forall (WritesFrom 175) := by writes_own
theorem w7_from : (w7 : List (HloOp τ sig (Elt F))).Forall (WritesFrom 191) := by writes_own
theorem w8_from : (w8 : List (HloOp τ sig (Elt F))).Forall (WritesFrom 207) := by writes_own
theorem w9_from : (w9 : List (HloOp τ sig (Elt F))).Forall (WritesFrom 223) := by writes_own
theorem w10_from : (w10 : List (HloOp τ sig (Elt F))).Forall (WritesFrom 224) := by writes_own
theorem w11_from : (w11 : List (HloOp τ sig (Elt F))).Forall (WritesFrom 237) := by writes_own
theorem w12_from : (w12 : List (HloOp τ sig (Elt F))).Forall (WritesFrom 253) := by writes_own
theorem w13_from : (w13 : List (HloOp τ sig (Elt F))).Forall (WritesFrom 269) := by writes_own
theorem w14_from : (w14 : List (HloOp τ sig (Elt F))).Forall (WritesFrom 285) := by writes_own
theorem w15_from : (w15 : List (HloOp τ sig (Elt F))).Forall (WritesFrom 286) := by writes_own
theorem w16_from : (w16 : List (HloOp τ sig (Elt F))).Forall (WritesFrom 294) := by writes_own
theorem w17_from : (w17 : List (HloOp τ sig (Elt F))).Forall (WritesFrom 310) := by writes_own
theorem w18_from : (w18 : List (HloOp τ sig (Elt F))).Forall (WritesFrom 326) := by writes_own
theorem w19_from : (w19 : List (HloOp τ sig (Elt F))).Forall (WritesFrom 342) := by writes_own
theorem w20_from : (w20 : List (HloOp τ sig (Elt F))).Forall (WritesFrom 358) := by writes_own
theorem w21_from : (w21 : List (HloOp τ sig (Elt F))).Forall (WritesFrom 374) := by writes_own
theorem w22_from : (w22 : List (HloOp τ sig (Elt F))).Forall (WritesFrom 390) := by writes_own
theorem w23_from : (w23 : List (HloOp τ sig (Elt F))).Forall (WritesFrom 391) := by writes_own
theorem w24_from : (w24 : List (HloOp τ sig (Elt F))).Forall (WritesFrom 404) := by writes_own
theorem w25_from : (w25 : List (HloOp τ sig (Elt F))).Forall (WritesFrom 420) := by writes_own
theorem w26_from : (w26 : List (HloOp τ sig (Elt F))).Forall (WritesFrom 436) := by writes_own
theorem w27_from : (w27 : List (HloOp τ sig (Elt F))).Forall (WritesFrom 452) := by writes_own
theorem w28_from : (w28 : List (HloOp τ sig (Elt F))).Forall (WritesFrom 468) := by writes_own
theorem w29_from : (w29 : List (HloOp τ sig (Elt F))).Forall (WritesFrom 484) := by writes_own
theorem w30_from : (w30 : List (HloOp τ sig (Elt F))).Forall (WritesFrom 500) := by writes_own
theorem w31_from : (w31 : List (HloOp τ sig (Elt F))).Forall (WritesFrom 501) := by writes_own
theorem w32_from : (w32 : List (HloOp τ sig (Elt F))).Forall (WritesFrom 509) := by writes_own
theorem w33_from : (w33 : List (HloOp τ sig (Elt F))).Forall (WritesFrom 510) := by writes_own

/-- The line is its windows, one after the other. -/
theorem ops_split : (ops : List (HloOp τ sig (Elt F))) = w0 ++ (w1 ++ (w2 ++ (w3 ++ (w4 ++ (w5 ++ (w6 ++ (w7 ++ (w8 ++ (w9 ++ (w10 ++ (w11 ++ (w12 ++ (w13 ++ (w14 ++ (w15 ++ (w16 ++ (w17 ++ (w18 ++ (w19 ++ (w20 ++ (w21 ++ (w22 ++ (w23 ++ (w24 ++ (w25 ++ (w26 ++ (w27 ++ (w28 ++ (w29 ++ (w30 ++ (w31 ++ (w32 ++ (w33))))))))))))))))))))))))))))))))) := rfl

variable (m : (ℓ : Loc nD τ sig) → Buf (Elt F) ℓ)

/-- Core `c`'s buffers at launch, and after each window. -/
abbrev U0 (c : Dev nD) : Valuation τ sig (Elt F) := launchContents m c
def U1 (c : Dev nD) : Valuation τ sig (Elt F) := after w0 (U0 m c)
theorem U1_keep (c : Dev nD) (r : Ref sig .tc) (hr : r.idx.val < 21) : U1 m c (Proc.devRef .tc r) = U0 m c (Proc.devRef .tc r) := by
  unfold U1; exact after_below 21 _ _ w0_from r hr
def U2 (c : Dev nD) : Valuation τ sig (Elt F) := after w1 (U1 m c)
theorem U2_keep (c : Dev nD) (r : Ref sig .tc) (hr : r.idx.val < 84) : U2 m c (Proc.devRef .tc r) = U1 m c (Proc.devRef .tc r) := by
  unfold U2; exact after_below 84 _ _ w1_from r hr
def U3 (c : Dev nD) : Valuation τ sig (Elt F) := after w2 (U2 m c)
theorem U3_keep (c : Dev nD) (r : Ref sig .tc) (hr : r.idx.val < 100) : U3 m c (Proc.devRef .tc r) = U2 m c (Proc.devRef .tc r) := by
  unfold U3; exact after_below 100 _ _ w2_from r hr
def U4 (c : Dev nD) : Valuation τ sig (Elt F) := after w3 (U3 m c)
theorem U4_keep (c : Dev nD) (r : Ref sig .tc) (hr : r.idx.val < 124) : U4 m c (Proc.devRef .tc r) = U3 m c (Proc.devRef .tc r) := by
  unfold U4; exact after_below 124 _ _ w3_from r hr
def U5 (c : Dev nD) : Valuation τ sig (Elt F) := after w4 (U4 m c)
theorem U5_keep (c : Dev nD) (r : Ref sig .tc) (hr : r.idx.val < 140) : U5 m c (Proc.devRef .tc r) = U4 m c (Proc.devRef .tc r) := by
  unfold U5; exact after_below 140 _ _ w4_from r hr
def U6 (c : Dev nD) : Valuation τ sig (Elt F) := after w5 (U5 m c)
theorem U6_keep (c : Dev nD) (r : Ref sig .tc) (hr : r.idx.val < 164) : U6 m c (Proc.devRef .tc r) = U5 m c (Proc.devRef .tc r) := by
  unfold U6; exact after_below 164 _ _ w5_from r hr
def U7 (c : Dev nD) : Valuation τ sig (Elt F) := after w6 (U6 m c)
theorem U7_keep (c : Dev nD) (r : Ref sig .tc) (hr : r.idx.val < 175) : U7 m c (Proc.devRef .tc r) = U6 m c (Proc.devRef .tc r) := by
  unfold U7; exact after_below 175 _ _ w6_from r hr
def U8 (c : Dev nD) : Valuation τ sig (Elt F) := after w7 (U7 m c)
theorem U8_keep (c : Dev nD) (r : Ref sig .tc) (hr : r.idx.val < 191) : U8 m c (Proc.devRef .tc r) = U7 m c (Proc.devRef .tc r) := by
  unfold U8; exact after_below 191 _ _ w7_from r hr
def U9 (c : Dev nD) : Valuation τ sig (Elt F) := after w8 (U8 m c)
theorem U9_keep (c : Dev nD) (r : Ref sig .tc) (hr : r.idx.val < 207) : U9 m c (Proc.devRef .tc r) = U8 m c (Proc.devRef .tc r) := by
  unfold U9; exact after_below 207 _ _ w8_from r hr
def U10 (c : Dev nD) : Valuation τ sig (Elt F) := after w9 (U9 m c)
theorem U10_keep (c : Dev nD) (r : Ref sig .tc) (hr : r.idx.val < 223) : U10 m c (Proc.devRef .tc r) = U9 m c (Proc.devRef .tc r) := by
  unfold U10; exact after_below 223 _ _ w9_from r hr
def U11 (c : Dev nD) : Valuation τ sig (Elt F) := after w10 (U10 m c)
theorem U11_keep (c : Dev nD) (r : Ref sig .tc) (hr : r.idx.val < 224) : U11 m c (Proc.devRef .tc r) = U10 m c (Proc.devRef .tc r) := by
  unfold U11; exact after_below 224 _ _ w10_from r hr
def U12 (c : Dev nD) : Valuation τ sig (Elt F) := after w11 (U11 m c)
theorem U12_keep (c : Dev nD) (r : Ref sig .tc) (hr : r.idx.val < 237) : U12 m c (Proc.devRef .tc r) = U11 m c (Proc.devRef .tc r) := by
  unfold U12; exact after_below 237 _ _ w11_from r hr
def U13 (c : Dev nD) : Valuation τ sig (Elt F) := after w12 (U12 m c)
theorem U13_keep (c : Dev nD) (r : Ref sig .tc) (hr : r.idx.val < 253) : U13 m c (Proc.devRef .tc r) = U12 m c (Proc.devRef .tc r) := by
  unfold U13; exact after_below 253 _ _ w12_from r hr
def U14 (c : Dev nD) : Valuation τ sig (Elt F) := after w13 (U13 m c)
theorem U14_keep (c : Dev nD) (r : Ref sig .tc) (hr : r.idx.val < 269) : U14 m c (Proc.devRef .tc r) = U13 m c (Proc.devRef .tc r) := by
  unfold U14; exact after_below 269 _ _ w13_from r hr
def U15 (c : Dev nD) : Valuation τ sig (Elt F) := after w14 (U14 m c)
theorem U15_keep (c : Dev nD) (r : Ref sig .tc) (hr : r.idx.val < 285) : U15 m c (Proc.devRef .tc r) = U14 m c (Proc.devRef .tc r) := by
  unfold U15; exact after_below 285 _ _ w14_from r hr
def U16 (c : Dev nD) : Valuation τ sig (Elt F) := after w15 (U15 m c)
theorem U16_keep (c : Dev nD) (r : Ref sig .tc) (hr : r.idx.val < 286) : U16 m c (Proc.devRef .tc r) = U15 m c (Proc.devRef .tc r) := by
  unfold U16; exact after_below 286 _ _ w15_from r hr
def U17 (c : Dev nD) : Valuation τ sig (Elt F) := after w16 (U16 m c)
theorem U17_keep (c : Dev nD) (r : Ref sig .tc) (hr : r.idx.val < 294) : U17 m c (Proc.devRef .tc r) = U16 m c (Proc.devRef .tc r) := by
  unfold U17; exact after_below 294 _ _ w16_from r hr
def U18 (c : Dev nD) : Valuation τ sig (Elt F) := after w17 (U17 m c)
theorem U18_keep (c : Dev nD) (r : Ref sig .tc) (hr : r.idx.val < 310) : U18 m c (Proc.devRef .tc r) = U17 m c (Proc.devRef .tc r) := by
  unfold U18; exact after_below 310 _ _ w17_from r hr
def U19 (c : Dev nD) : Valuation τ sig (Elt F) := after w18 (U18 m c)
theorem U19_keep (c : Dev nD) (r : Ref sig .tc) (hr : r.idx.val < 326) : U19 m c (Proc.devRef .tc r) = U18 m c (Proc.devRef .tc r) := by
  unfold U19; exact after_below 326 _ _ w18_from r hr
def U20 (c : Dev nD) : Valuation τ sig (Elt F) := after w19 (U19 m c)
theorem U20_keep (c : Dev nD) (r : Ref sig .tc) (hr : r.idx.val < 342) : U20 m c (Proc.devRef .tc r) = U19 m c (Proc.devRef .tc r) := by
  unfold U20; exact after_below 342 _ _ w19_from r hr
def U21 (c : Dev nD) : Valuation τ sig (Elt F) := after w20 (U20 m c)
theorem U21_keep (c : Dev nD) (r : Ref sig .tc) (hr : r.idx.val < 358) : U21 m c (Proc.devRef .tc r) = U20 m c (Proc.devRef .tc r) := by
  unfold U21; exact after_below 358 _ _ w20_from r hr
def U22 (c : Dev nD) : Valuation τ sig (Elt F) := after w21 (U21 m c)
theorem U22_keep (c : Dev nD) (r : Ref sig .tc) (hr : r.idx.val < 374) : U22 m c (Proc.devRef .tc r) = U21 m c (Proc.devRef .tc r) := by
  unfold U22; exact after_below 374 _ _ w21_from r hr
def U23 (c : Dev nD) : Valuation τ sig (Elt F) := after w22 (U22 m c)
theorem U23_keep (c : Dev nD) (r : Ref sig .tc) (hr : r.idx.val < 390) : U23 m c (Proc.devRef .tc r) = U22 m c (Proc.devRef .tc r) := by
  unfold U23; exact after_below 390 _ _ w22_from r hr
def U24 (c : Dev nD) : Valuation τ sig (Elt F) := after w23 (U23 m c)
theorem U24_keep (c : Dev nD) (r : Ref sig .tc) (hr : r.idx.val < 391) : U24 m c (Proc.devRef .tc r) = U23 m c (Proc.devRef .tc r) := by
  unfold U24; exact after_below 391 _ _ w23_from r hr
def U25 (c : Dev nD) : Valuation τ sig (Elt F) := after w24 (U24 m c)
theorem U25_keep (c : Dev nD) (r : Ref sig .tc) (hr : r.idx.val < 404) : U25 m c (Proc.devRef .tc r) = U24 m c (Proc.devRef .tc r) := by
  unfold U25; exact after_below 404 _ _ w24_from r hr
def U26 (c : Dev nD) : Valuation τ sig (Elt F) := after w25 (U25 m c)
theorem U26_keep (c : Dev nD) (r : Ref sig .tc) (hr : r.idx.val < 420) : U26 m c (Proc.devRef .tc r) = U25 m c (Proc.devRef .tc r) := by
  unfold U26; exact after_below 420 _ _ w25_from r hr
def U27 (c : Dev nD) : Valuation τ sig (Elt F) := after w26 (U26 m c)
theorem U27_keep (c : Dev nD) (r : Ref sig .tc) (hr : r.idx.val < 436) : U27 m c (Proc.devRef .tc r) = U26 m c (Proc.devRef .tc r) := by
  unfold U27; exact after_below 436 _ _ w26_from r hr
def U28 (c : Dev nD) : Valuation τ sig (Elt F) := after w27 (U27 m c)
theorem U28_keep (c : Dev nD) (r : Ref sig .tc) (hr : r.idx.val < 452) : U28 m c (Proc.devRef .tc r) = U27 m c (Proc.devRef .tc r) := by
  unfold U28; exact after_below 452 _ _ w27_from r hr
def U29 (c : Dev nD) : Valuation τ sig (Elt F) := after w28 (U28 m c)
theorem U29_keep (c : Dev nD) (r : Ref sig .tc) (hr : r.idx.val < 468) : U29 m c (Proc.devRef .tc r) = U28 m c (Proc.devRef .tc r) := by
  unfold U29; exact after_below 468 _ _ w28_from r hr
def U30 (c : Dev nD) : Valuation τ sig (Elt F) := after w29 (U29 m c)
theorem U30_keep (c : Dev nD) (r : Ref sig .tc) (hr : r.idx.val < 484) : U30 m c (Proc.devRef .tc r) = U29 m c (Proc.devRef .tc r) := by
  unfold U30; exact after_below 484 _ _ w29_from r hr
def U31 (c : Dev nD) : Valuation τ sig (Elt F) := after w30 (U30 m c)
theorem U31_keep (c : Dev nD) (r : Ref sig .tc) (hr : r.idx.val < 500) : U31 m c (Proc.devRef .tc r) = U30 m c (Proc.devRef .tc r) := by
  unfold U31; exact after_below 500 _ _ w30_from r hr
def U32 (c : Dev nD) : Valuation τ sig (Elt F) := after w31 (U31 m c)
theorem U32_keep (c : Dev nD) (r : Ref sig .tc) (hr : r.idx.val < 501) : U32 m c (Proc.devRef .tc r) = U31 m c (Proc.devRef .tc r) := by
  unfold U32; exact after_below 501 _ _ w31_from r hr
def U33 (c : Dev nD) : Valuation τ sig (Elt F) := after w32 (U32 m c)
theorem U33_keep (c : Dev nD) (r : Ref sig .tc) (hr : r.idx.val < 509) : U33 m c (Proc.devRef .tc r) = U32 m c (Proc.devRef .tc r) := by
  unfold U33; exact after_below 509 _ _ w32_from r hr
def U34 (c : Dev nD) : Valuation τ sig (Elt F) := after w33 (U33 m c)
theorem U34_keep (c : Dev nD) (r : Ref sig .tc) (hr : r.idx.val < 510) : U34 m c (Proc.devRef .tc r) = U33 m c (Proc.devRef .tc r) := by
  unfold U34; exact after_below 510 _ _ w33_from r hr

/-- The whole line's fold is the last window's contents. -/
theorem after_ops (c : Dev nD) : after (ops : List (HloOp τ sig (Elt F))) (launchContents m c) = U34 m c := by
  rw [ops_split]; simp only [after_two]; rfl

/-- An argument holds its launch contents after every window. -/
theorem U0_arg (c : Dev nD) (r : Ref sig .tc) (hr : r.idx.val < 21) : U0 m c (Proc.devRef .tc r) = m ((c.tc : Thread nD τ).loc r) := rfl
theorem U1_arg (c : Dev nD) (r : Ref sig .tc) (hr : r.idx.val < 21) : U1 m c (Proc.devRef .tc r) = m ((c.tc : Thread nD τ).loc r) :=
  (U1_keep m c r (by omega)).trans (U0_arg m c r hr)
theorem U2_arg (c : Dev nD) (r : Ref sig .tc) (hr : r.idx.val < 21) : U2 m c (Proc.devRef .tc r) = m ((c.tc : Thread nD τ).loc r) :=
  (U2_keep m c r (by omega)).trans (U1_arg m c r hr)
theorem U3_arg (c : Dev nD) (r : Ref sig .tc) (hr : r.idx.val < 21) : U3 m c (Proc.devRef .tc r) = m ((c.tc : Thread nD τ).loc r) :=
  (U3_keep m c r (by omega)).trans (U2_arg m c r hr)
theorem U4_arg (c : Dev nD) (r : Ref sig .tc) (hr : r.idx.val < 21) : U4 m c (Proc.devRef .tc r) = m ((c.tc : Thread nD τ).loc r) :=
  (U4_keep m c r (by omega)).trans (U3_arg m c r hr)
theorem U5_arg (c : Dev nD) (r : Ref sig .tc) (hr : r.idx.val < 21) : U5 m c (Proc.devRef .tc r) = m ((c.tc : Thread nD τ).loc r) :=
  (U5_keep m c r (by omega)).trans (U4_arg m c r hr)
theorem U6_arg (c : Dev nD) (r : Ref sig .tc) (hr : r.idx.val < 21) : U6 m c (Proc.devRef .tc r) = m ((c.tc : Thread nD τ).loc r) :=
  (U6_keep m c r (by omega)).trans (U5_arg m c r hr)
theorem U7_arg (c : Dev nD) (r : Ref sig .tc) (hr : r.idx.val < 21) : U7 m c (Proc.devRef .tc r) = m ((c.tc : Thread nD τ).loc r) :=
  (U7_keep m c r (by omega)).trans (U6_arg m c r hr)
theorem U8_arg (c : Dev nD) (r : Ref sig .tc) (hr : r.idx.val < 21) : U8 m c (Proc.devRef .tc r) = m ((c.tc : Thread nD τ).loc r) :=
  (U8_keep m c r (by omega)).trans (U7_arg m c r hr)
theorem U9_arg (c : Dev nD) (r : Ref sig .tc) (hr : r.idx.val < 21) : U9 m c (Proc.devRef .tc r) = m ((c.tc : Thread nD τ).loc r) :=
  (U9_keep m c r (by omega)).trans (U8_arg m c r hr)
theorem U10_arg (c : Dev nD) (r : Ref sig .tc) (hr : r.idx.val < 21) : U10 m c (Proc.devRef .tc r) = m ((c.tc : Thread nD τ).loc r) :=
  (U10_keep m c r (by omega)).trans (U9_arg m c r hr)
theorem U11_arg (c : Dev nD) (r : Ref sig .tc) (hr : r.idx.val < 21) : U11 m c (Proc.devRef .tc r) = m ((c.tc : Thread nD τ).loc r) :=
  (U11_keep m c r (by omega)).trans (U10_arg m c r hr)
theorem U12_arg (c : Dev nD) (r : Ref sig .tc) (hr : r.idx.val < 21) : U12 m c (Proc.devRef .tc r) = m ((c.tc : Thread nD τ).loc r) :=
  (U12_keep m c r (by omega)).trans (U11_arg m c r hr)
theorem U13_arg (c : Dev nD) (r : Ref sig .tc) (hr : r.idx.val < 21) : U13 m c (Proc.devRef .tc r) = m ((c.tc : Thread nD τ).loc r) :=
  (U13_keep m c r (by omega)).trans (U12_arg m c r hr)
theorem U14_arg (c : Dev nD) (r : Ref sig .tc) (hr : r.idx.val < 21) : U14 m c (Proc.devRef .tc r) = m ((c.tc : Thread nD τ).loc r) :=
  (U14_keep m c r (by omega)).trans (U13_arg m c r hr)
theorem U15_arg (c : Dev nD) (r : Ref sig .tc) (hr : r.idx.val < 21) : U15 m c (Proc.devRef .tc r) = m ((c.tc : Thread nD τ).loc r) :=
  (U15_keep m c r (by omega)).trans (U14_arg m c r hr)
theorem U16_arg (c : Dev nD) (r : Ref sig .tc) (hr : r.idx.val < 21) : U16 m c (Proc.devRef .tc r) = m ((c.tc : Thread nD τ).loc r) :=
  (U16_keep m c r (by omega)).trans (U15_arg m c r hr)
theorem U17_arg (c : Dev nD) (r : Ref sig .tc) (hr : r.idx.val < 21) : U17 m c (Proc.devRef .tc r) = m ((c.tc : Thread nD τ).loc r) :=
  (U17_keep m c r (by omega)).trans (U16_arg m c r hr)
theorem U18_arg (c : Dev nD) (r : Ref sig .tc) (hr : r.idx.val < 21) : U18 m c (Proc.devRef .tc r) = m ((c.tc : Thread nD τ).loc r) :=
  (U18_keep m c r (by omega)).trans (U17_arg m c r hr)
theorem U19_arg (c : Dev nD) (r : Ref sig .tc) (hr : r.idx.val < 21) : U19 m c (Proc.devRef .tc r) = m ((c.tc : Thread nD τ).loc r) :=
  (U19_keep m c r (by omega)).trans (U18_arg m c r hr)
theorem U20_arg (c : Dev nD) (r : Ref sig .tc) (hr : r.idx.val < 21) : U20 m c (Proc.devRef .tc r) = m ((c.tc : Thread nD τ).loc r) :=
  (U20_keep m c r (by omega)).trans (U19_arg m c r hr)
theorem U21_arg (c : Dev nD) (r : Ref sig .tc) (hr : r.idx.val < 21) : U21 m c (Proc.devRef .tc r) = m ((c.tc : Thread nD τ).loc r) :=
  (U21_keep m c r (by omega)).trans (U20_arg m c r hr)
theorem U22_arg (c : Dev nD) (r : Ref sig .tc) (hr : r.idx.val < 21) : U22 m c (Proc.devRef .tc r) = m ((c.tc : Thread nD τ).loc r) :=
  (U22_keep m c r (by omega)).trans (U21_arg m c r hr)
theorem U23_arg (c : Dev nD) (r : Ref sig .tc) (hr : r.idx.val < 21) : U23 m c (Proc.devRef .tc r) = m ((c.tc : Thread nD τ).loc r) :=
  (U23_keep m c r (by omega)).trans (U22_arg m c r hr)
theorem U24_arg (c : Dev nD) (r : Ref sig .tc) (hr : r.idx.val < 21) : U24 m c (Proc.devRef .tc r) = m ((c.tc : Thread nD τ).loc r) :=
  (U24_keep m c r (by omega)).trans (U23_arg m c r hr)
theorem U25_arg (c : Dev nD) (r : Ref sig .tc) (hr : r.idx.val < 21) : U25 m c (Proc.devRef .tc r) = m ((c.tc : Thread nD τ).loc r) :=
  (U25_keep m c r (by omega)).trans (U24_arg m c r hr)
theorem U26_arg (c : Dev nD) (r : Ref sig .tc) (hr : r.idx.val < 21) : U26 m c (Proc.devRef .tc r) = m ((c.tc : Thread nD τ).loc r) :=
  (U26_keep m c r (by omega)).trans (U25_arg m c r hr)
theorem U27_arg (c : Dev nD) (r : Ref sig .tc) (hr : r.idx.val < 21) : U27 m c (Proc.devRef .tc r) = m ((c.tc : Thread nD τ).loc r) :=
  (U27_keep m c r (by omega)).trans (U26_arg m c r hr)
theorem U28_arg (c : Dev nD) (r : Ref sig .tc) (hr : r.idx.val < 21) : U28 m c (Proc.devRef .tc r) = m ((c.tc : Thread nD τ).loc r) :=
  (U28_keep m c r (by omega)).trans (U27_arg m c r hr)
theorem U29_arg (c : Dev nD) (r : Ref sig .tc) (hr : r.idx.val < 21) : U29 m c (Proc.devRef .tc r) = m ((c.tc : Thread nD τ).loc r) :=
  (U29_keep m c r (by omega)).trans (U28_arg m c r hr)
theorem U30_arg (c : Dev nD) (r : Ref sig .tc) (hr : r.idx.val < 21) : U30 m c (Proc.devRef .tc r) = m ((c.tc : Thread nD τ).loc r) :=
  (U30_keep m c r (by omega)).trans (U29_arg m c r hr)
theorem U31_arg (c : Dev nD) (r : Ref sig .tc) (hr : r.idx.val < 21) : U31 m c (Proc.devRef .tc r) = m ((c.tc : Thread nD τ).loc r) :=
  (U31_keep m c r (by omega)).trans (U30_arg m c r hr)
theorem U32_arg (c : Dev nD) (r : Ref sig .tc) (hr : r.idx.val < 21) : U32 m c (Proc.devRef .tc r) = m ((c.tc : Thread nD τ).loc r) :=
  (U32_keep m c r (by omega)).trans (U31_arg m c r hr)
theorem U33_arg (c : Dev nD) (r : Ref sig .tc) (hr : r.idx.val < 21) : U33 m c (Proc.devRef .tc r) = m ((c.tc : Thread nD τ).loc r) :=
  (U33_keep m c r (by omega)).trans (U32_arg m c r hr)
theorem U34_arg (c : Dev nD) (r : Ref sig .tc) (hr : r.idx.val < 21) : U34 m c (Proc.devRef .tc r) = m ((c.tc : Thread nD τ).loc r) :=
  (U34_keep m c r (by omega)).trans (U33_arg m c r hr)

/-! A buffer written by a window is untouched by the later ones. -/
theorem U2_from1 (c : Dev nD) (r : Ref sig .tc) (hr : r.idx.val < 84) : U2 m c (Proc.devRef .tc r) = U1 m c (Proc.devRef .tc r) := U2_keep m c r hr
theorem U3_from1 (c : Dev nD) (r : Ref sig .tc) (hr : r.idx.val < 84) : U3 m c (Proc.devRef .tc r) = U1 m c (Proc.devRef .tc r) :=
  (U3_keep m c r (by omega)).trans (U2_from1 m c r hr)
theorem U4_from1 (c : Dev nD) (r : Ref sig .tc) (hr : r.idx.val < 84) : U4 m c (Proc.devRef .tc r) = U1 m c (Proc.devRef .tc r) :=
  (U4_keep m c r (by omega)).trans (U3_from1 m c r hr)
theorem U5_from1 (c : Dev nD) (r : Ref sig .tc) (hr : r.idx.val < 84) : U5 m c (Proc.devRef .tc r) = U1 m c (Proc.devRef .tc r) :=
  (U5_keep m c r (by omega)).trans (U4_from1 m c r hr)
theorem U6_from1 (c : Dev nD) (r : Ref sig .tc) (hr : r.idx.val < 84) : U6 m c (Proc.devRef .tc r) = U1 m c (Proc.devRef .tc r) :=
  (U6_keep m c r (by omega)).trans (U5_from1 m c r hr)
theorem U7_from1 (c : Dev nD) (r : Ref sig .tc) (hr : r.idx.val < 84) : U7 m c (Proc.devRef .tc r) = U1 m c (Proc.devRef .tc r) :=
  (U7_keep m c r (by omega)).trans (U6_from1 m c r hr)
theorem U8_from1 (c : Dev nD) (r : Ref sig .tc) (hr : r.idx.val < 84) : U8 m c (Proc.devRef .tc r) = U1 m c (Proc.devRef .tc r) :=
  (U8_keep m c r (by omega)).trans (U7_from1 m c r hr)
theorem U9_from1 (c : Dev nD) (r : Ref sig .tc) (hr : r.idx.val < 84) : U9 m c (Proc.devRef .tc r) = U1 m c (Proc.devRef .tc r) :=
  (U9_keep m c r (by omega)).trans (U8_from1 m c r hr)
theorem U10_from1 (c : Dev nD) (r : Ref sig .tc) (hr : r.idx.val < 84) : U10 m c (Proc.devRef .tc r) = U1 m c (Proc.devRef .tc r) :=
  (U10_keep m c r (by omega)).trans (U9_from1 m c r hr)
theorem U11_from1 (c : Dev nD) (r : Ref sig .tc) (hr : r.idx.val < 84) : U11 m c (Proc.devRef .tc r) = U1 m c (Proc.devRef .tc r) :=
  (U11_keep m c r (by omega)).trans (U10_from1 m c r hr)
theorem U12_from1 (c : Dev nD) (r : Ref sig .tc) (hr : r.idx.val < 84) : U12 m c (Proc.devRef .tc r) = U1 m c (Proc.devRef .tc r) :=
  (U12_keep m c r (by omega)).trans (U11_from1 m c r hr)
theorem U13_from1 (c : Dev nD) (r : Ref sig .tc) (hr : r.idx.val < 84) : U13 m c (Proc.devRef .tc r) = U1 m c (Proc.devRef .tc r) :=
  (U13_keep m c r (by omega)).trans (U12_from1 m c r hr)
theorem U14_from1 (c : Dev nD) (r : Ref sig .tc) (hr : r.idx.val < 84) : U14 m c (Proc.devRef .tc r) = U1 m c (Proc.devRef .tc r) :=
  (U14_keep m c r (by omega)).trans (U13_from1 m c r hr)
theorem U15_from1 (c : Dev nD) (r : Ref sig .tc) (hr : r.idx.val < 84) : U15 m c (Proc.devRef .tc r) = U1 m c (Proc.devRef .tc r) :=
  (U15_keep m c r (by omega)).trans (U14_from1 m c r hr)
theorem U16_from1 (c : Dev nD) (r : Ref sig .tc) (hr : r.idx.val < 84) : U16 m c (Proc.devRef .tc r) = U1 m c (Proc.devRef .tc r) :=
  (U16_keep m c r (by omega)).trans (U15_from1 m c r hr)
theorem U17_from1 (c : Dev nD) (r : Ref sig .tc) (hr : r.idx.val < 84) : U17 m c (Proc.devRef .tc r) = U1 m c (Proc.devRef .tc r) :=
  (U17_keep m c r (by omega)).trans (U16_from1 m c r hr)
theorem U18_from1 (c : Dev nD) (r : Ref sig .tc) (hr : r.idx.val < 84) : U18 m c (Proc.devRef .tc r) = U1 m c (Proc.devRef .tc r) :=
  (U18_keep m c r (by omega)).trans (U17_from1 m c r hr)
theorem U19_from1 (c : Dev nD) (r : Ref sig .tc) (hr : r.idx.val < 84) : U19 m c (Proc.devRef .tc r) = U1 m c (Proc.devRef .tc r) :=
  (U19_keep m c r (by omega)).trans (U18_from1 m c r hr)
theorem U20_from1 (c : Dev nD) (r : Ref sig .tc) (hr : r.idx.val < 84) : U20 m c (Proc.devRef .tc r) = U1 m c (Proc.devRef .tc r) :=
  (U20_keep m c r (by omega)).trans (U19_from1 m c r hr)
theorem U21_from1 (c : Dev nD) (r : Ref sig .tc) (hr : r.idx.val < 84) : U21 m c (Proc.devRef .tc r) = U1 m c (Proc.devRef .tc r) :=
  (U21_keep m c r (by omega)).trans (U20_from1 m c r hr)
theorem U22_from1 (c : Dev nD) (r : Ref sig .tc) (hr : r.idx.val < 84) : U22 m c (Proc.devRef .tc r) = U1 m c (Proc.devRef .tc r) :=
  (U22_keep m c r (by omega)).trans (U21_from1 m c r hr)
theorem U23_from1 (c : Dev nD) (r : Ref sig .tc) (hr : r.idx.val < 84) : U23 m c (Proc.devRef .tc r) = U1 m c (Proc.devRef .tc r) :=
  (U23_keep m c r (by omega)).trans (U22_from1 m c r hr)
theorem U24_from1 (c : Dev nD) (r : Ref sig .tc) (hr : r.idx.val < 84) : U24 m c (Proc.devRef .tc r) = U1 m c (Proc.devRef .tc r) :=
  (U24_keep m c r (by omega)).trans (U23_from1 m c r hr)
theorem U25_from1 (c : Dev nD) (r : Ref sig .tc) (hr : r.idx.val < 84) : U25 m c (Proc.devRef .tc r) = U1 m c (Proc.devRef .tc r) :=
  (U25_keep m c r (by omega)).trans (U24_from1 m c r hr)
theorem U26_from1 (c : Dev nD) (r : Ref sig .tc) (hr : r.idx.val < 84) : U26 m c (Proc.devRef .tc r) = U1 m c (Proc.devRef .tc r) :=
  (U26_keep m c r (by omega)).trans (U25_from1 m c r hr)
theorem U27_from1 (c : Dev nD) (r : Ref sig .tc) (hr : r.idx.val < 84) : U27 m c (Proc.devRef .tc r) = U1 m c (Proc.devRef .tc r) :=
  (U27_keep m c r (by omega)).trans (U26_from1 m c r hr)
theorem U28_from1 (c : Dev nD) (r : Ref sig .tc) (hr : r.idx.val < 84) : U28 m c (Proc.devRef .tc r) = U1 m c (Proc.devRef .tc r) :=
  (U28_keep m c r (by omega)).trans (U27_from1 m c r hr)
theorem U29_from1 (c : Dev nD) (r : Ref sig .tc) (hr : r.idx.val < 84) : U29 m c (Proc.devRef .tc r) = U1 m c (Proc.devRef .tc r) :=
  (U29_keep m c r (by omega)).trans (U28_from1 m c r hr)
theorem U3_from2 (c : Dev nD) (r : Ref sig .tc) (hr : r.idx.val < 100) : U3 m c (Proc.devRef .tc r) = U2 m c (Proc.devRef .tc r) := U3_keep m c r hr
theorem U5_from4 (c : Dev nD) (r : Ref sig .tc) (hr : r.idx.val < 140) : U5 m c (Proc.devRef .tc r) = U4 m c (Proc.devRef .tc r) := U5_keep m c r hr
theorem U7_from6 (c : Dev nD) (r : Ref sig .tc) (hr : r.idx.val < 175) : U7 m c (Proc.devRef .tc r) = U6 m c (Proc.devRef .tc r) := U7_keep m c r hr
theorem U8_from6 (c : Dev nD) (r : Ref sig .tc) (hr : r.idx.val < 175) : U8 m c (Proc.devRef .tc r) = U6 m c (Proc.devRef .tc r) :=
  (U8_keep m c r (by omega)).trans (U7_from6 m c r hr)
theorem U9_from6 (c : Dev nD) (r : Ref sig .tc) (hr : r.idx.val < 175) : U9 m c (Proc.devRef .tc r) = U6 m c (Proc.devRef .tc r) :=
  (U9_keep m c r (by omega)).trans (U8_from6 m c r hr)
theorem U10_from6 (c : Dev nD) (r : Ref sig .tc) (hr : r.idx.val < 175) : U10 m c (Proc.devRef .tc r) = U6 m c (Proc.devRef .tc r) :=
  (U10_keep m c r (by omega)).trans (U9_from6 m c r hr)
theorem U11_from6 (c : Dev nD) (r : Ref sig .tc) (hr : r.idx.val < 175) : U11 m c (Proc.devRef .tc r) = U6 m c (Proc.devRef .tc r) :=
  (U11_keep m c r (by omega)).trans (U10_from6 m c r hr)
theorem U12_from6 (c : Dev nD) (r : Ref sig .tc) (hr : r.idx.val < 175) : U12 m c (Proc.devRef .tc r) = U6 m c (Proc.devRef .tc r) :=
  (U12_keep m c r (by omega)).trans (U11_from6 m c r hr)
theorem U13_from6 (c : Dev nD) (r : Ref sig .tc) (hr : r.idx.val < 175) : U13 m c (Proc.devRef .tc r) = U6 m c (Proc.devRef .tc r) :=
  (U13_keep m c r (by omega)).trans (U12_from6 m c r hr)
theorem U14_from6 (c : Dev nD) (r : Ref sig .tc) (hr : r.idx.val < 175) : U14 m c (Proc.devRef .tc r) = U6 m c (Proc.devRef .tc r) :=
  (U14_keep m c r (by omega)).trans (U13_from6 m c r hr)
theorem U15_from6 (c : Dev nD) (r : Ref sig .tc) (hr : r.idx.val < 175) : U15 m c (Proc.devRef .tc r) = U6 m c (Proc.devRef .tc r) :=
  (U15_keep m c r (by omega)).trans (U14_from6 m c r hr)
theorem U16_from6 (c : Dev nD) (r : Ref sig .tc) (hr : r.idx.val < 175) : U16 m c (Proc.devRef .tc r) = U6 m c (Proc.devRef .tc r) :=
  (U16_keep m c r (by omega)).trans (U15_from6 m c r hr)
theorem U17_from6 (c : Dev nD) (r : Ref sig .tc) (hr : r.idx.val < 175) : U17 m c (Proc.devRef .tc r) = U6 m c (Proc.devRef .tc r) :=
  (U17_keep m c r (by omega)).trans (U16_from6 m c r hr)
theorem U18_from6 (c : Dev nD) (r : Ref sig .tc) (hr : r.idx.val < 175) : U18 m c (Proc.devRef .tc r) = U6 m c (Proc.devRef .tc r) :=
  (U18_keep m c r (by omega)).trans (U17_from6 m c r hr)
theorem U19_from6 (c : Dev nD) (r : Ref sig .tc) (hr : r.idx.val < 175) : U19 m c (Proc.devRef .tc r) = U6 m c (Proc.devRef .tc r) :=
  (U19_keep m c r (by omega)).trans (U18_from6 m c r hr)
theorem U20_from6 (c : Dev nD) (r : Ref sig .tc) (hr : r.idx.val < 175) : U20 m c (Proc.devRef .tc r) = U6 m c (Proc.devRef .tc r) :=
  (U20_keep m c r (by omega)).trans (U19_from6 m c r hr)
theorem U21_from6 (c : Dev nD) (r : Ref sig .tc) (hr : r.idx.val < 175) : U21 m c (Proc.devRef .tc r) = U6 m c (Proc.devRef .tc r) :=
  (U21_keep m c r (by omega)).trans (U20_from6 m c r hr)
theorem U22_from6 (c : Dev nD) (r : Ref sig .tc) (hr : r.idx.val < 175) : U22 m c (Proc.devRef .tc r) = U6 m c (Proc.devRef .tc r) :=
  (U22_keep m c r (by omega)).trans (U21_from6 m c r hr)
theorem U23_from6 (c : Dev nD) (r : Ref sig .tc) (hr : r.idx.val < 175) : U23 m c (Proc.devRef .tc r) = U6 m c (Proc.devRef .tc r) :=
  (U23_keep m c r (by omega)).trans (U22_from6 m c r hr)
theorem U24_from6 (c : Dev nD) (r : Ref sig .tc) (hr : r.idx.val < 175) : U24 m c (Proc.devRef .tc r) = U6 m c (Proc.devRef .tc r) :=
  (U24_keep m c r (by omega)).trans (U23_from6 m c r hr)
theorem U25_from6 (c : Dev nD) (r : Ref sig .tc) (hr : r.idx.val < 175) : U25 m c (Proc.devRef .tc r) = U6 m c (Proc.devRef .tc r) :=
  (U25_keep m c r (by omega)).trans (U24_from6 m c r hr)
theorem U26_from6 (c : Dev nD) (r : Ref sig .tc) (hr : r.idx.val < 175) : U26 m c (Proc.devRef .tc r) = U6 m c (Proc.devRef .tc r) :=
  (U26_keep m c r (by omega)).trans (U25_from6 m c r hr)
theorem U27_from6 (c : Dev nD) (r : Ref sig .tc) (hr : r.idx.val < 175) : U27 m c (Proc.devRef .tc r) = U6 m c (Proc.devRef .tc r) :=
  (U27_keep m c r (by omega)).trans (U26_from6 m c r hr)
theorem U28_from6 (c : Dev nD) (r : Ref sig .tc) (hr : r.idx.val < 175) : U28 m c (Proc.devRef .tc r) = U6 m c (Proc.devRef .tc r) :=
  (U28_keep m c r (by omega)).trans (U27_from6 m c r hr)
theorem U29_from6 (c : Dev nD) (r : Ref sig .tc) (hr : r.idx.val < 175) : U29 m c (Proc.devRef .tc r) = U6 m c (Proc.devRef .tc r) :=
  (U29_keep m c r (by omega)).trans (U28_from6 m c r hr)
theorem U30_from6 (c : Dev nD) (r : Ref sig .tc) (hr : r.idx.val < 175) : U30 m c (Proc.devRef .tc r) = U6 m c (Proc.devRef .tc r) :=
  (U30_keep m c r (by omega)).trans (U29_from6 m c r hr)
theorem U31_from6 (c : Dev nD) (r : Ref sig .tc) (hr : r.idx.val < 175) : U31 m c (Proc.devRef .tc r) = U6 m c (Proc.devRef .tc r) :=
  (U31_keep m c r (by omega)).trans (U30_from6 m c r hr)
theorem U32_from6 (c : Dev nD) (r : Ref sig .tc) (hr : r.idx.val < 175) : U32 m c (Proc.devRef .tc r) = U6 m c (Proc.devRef .tc r) :=
  (U32_keep m c r (by omega)).trans (U31_from6 m c r hr)
theorem U8_from7 (c : Dev nD) (r : Ref sig .tc) (hr : r.idx.val < 191) : U8 m c (Proc.devRef .tc r) = U7 m c (Proc.devRef .tc r) := U8_keep m c r hr
theorem U9_from7 (c : Dev nD) (r : Ref sig .tc) (hr : r.idx.val < 191) : U9 m c (Proc.devRef .tc r) = U7 m c (Proc.devRef .tc r) :=
  (U9_keep m c r (by omega)).trans (U8_from7 m c r hr)
theorem U9_from8 (c : Dev nD) (r : Ref sig .tc) (hr : r.idx.val < 207) : U9 m c (Proc.devRef .tc r) = U8 m c (Proc.devRef .tc r) := U9_keep m c r hr
theorem U12_from11 (c : Dev nD) (r : Ref sig .tc) (hr : r.idx.val < 237) : U12 m c (Proc.devRef .tc r) = U11 m c (Proc.devRef .tc r) := U12_keep m c r hr
theorem U13_from11 (c : Dev nD) (r : Ref sig .tc) (hr : r.idx.val < 237) : U13 m c (Proc.devRef .tc r) = U11 m c (Proc.devRef .tc r) :=
  (U13_keep m c r (by omega)).trans (U12_from11 m c r hr)
theorem U14_from11 (c : Dev nD) (r : Ref sig .tc) (hr : r.idx.val < 237) : U14 m c (Proc.devRef .tc r) = U11 m c (Proc.devRef .tc r) :=
  (U14_keep m c r (by omega)).trans (U13_from11 m c r hr)
theorem U13_from12 (c : Dev nD) (r : Ref sig .tc) (hr : r.idx.val < 253) : U13 m c (Proc.devRef .tc r) = U12 m c (Proc.devRef .tc r) := U13_keep m c r hr
theorem U14_from12 (c : Dev nD) (r : Ref sig .tc) (hr : r.idx.val < 253) : U14 m c (Proc.devRef .tc r) = U12 m c (Proc.devRef .tc r) :=
  (U14_keep m c r (by omega)).trans (U13_from12 m c r hr)
theorem U14_from13 (c : Dev nD) (r : Ref sig .tc) (hr : r.idx.val < 269) : U14 m c (Proc.devRef .tc r) = U13 m c (Proc.devRef .tc r) := U14_keep m c r hr
theorem U17_from16 (c : Dev nD) (r : Ref sig .tc) (hr : r.idx.val < 294) : U17 m c (Proc.devRef .tc r) = U16 m c (Proc.devRef .tc r) := U17_keep m c r hr
theorem U18_from16 (c : Dev nD) (r : Ref sig .tc) (hr : r.idx.val < 294) : U18 m c (Proc.devRef .tc r) = U16 m c (Proc.devRef .tc r) :=
  (U18_keep m c r (by omega)).trans (U17_from16 m c r hr)
theorem U19_from16 (c : Dev nD) (r : Ref sig .tc) (hr : r.idx.val < 294) : U19 m c (Proc.devRef .tc r) = U16 m c (Proc.devRef .tc r) :=
  (U19_keep m c r (by omega)).trans (U18_from16 m c r hr)
theorem U20_from16 (c : Dev nD) (r : Ref sig .tc) (hr : r.idx.val < 294) : U20 m c (Proc.devRef .tc r) = U16 m c (Proc.devRef .tc r) :=
  (U20_keep m c r (by omega)).trans (U19_from16 m c r hr)
theorem U21_from16 (c : Dev nD) (r : Ref sig .tc) (hr : r.idx.val < 294) : U21 m c (Proc.devRef .tc r) = U16 m c (Proc.devRef .tc r) :=
  (U21_keep m c r (by omega)).trans (U20_from16 m c r hr)
theorem U22_from16 (c : Dev nD) (r : Ref sig .tc) (hr : r.idx.val < 294) : U22 m c (Proc.devRef .tc r) = U16 m c (Proc.devRef .tc r) :=
  (U22_keep m c r (by omega)).trans (U21_from16 m c r hr)
theorem U23_from16 (c : Dev nD) (r : Ref sig .tc) (hr : r.idx.val < 294) : U23 m c (Proc.devRef .tc r) = U16 m c (Proc.devRef .tc r) :=
  (U23_keep m c r (by omega)).trans (U22_from16 m c r hr)
theorem U24_from16 (c : Dev nD) (r : Ref sig .tc) (hr : r.idx.val < 294) : U24 m c (Proc.devRef .tc r) = U16 m c (Proc.devRef .tc r) :=
  (U24_keep m c r (by omega)).trans (U23_from16 m c r hr)
theorem U25_from16 (c : Dev nD) (r : Ref sig .tc) (hr : r.idx.val < 294) : U25 m c (Proc.devRef .tc r) = U16 m c (Proc.devRef .tc r) :=
  (U25_keep m c r (by omega)).trans (U24_from16 m c r hr)
theorem U26_from16 (c : Dev nD) (r : Ref sig .tc) (hr : r.idx.val < 294) : U26 m c (Proc.devRef .tc r) = U16 m c (Proc.devRef .tc r) :=
  (U26_keep m c r (by omega)).trans (U25_from16 m c r hr)
theorem U27_from16 (c : Dev nD) (r : Ref sig .tc) (hr : r.idx.val < 294) : U27 m c (Proc.devRef .tc r) = U16 m c (Proc.devRef .tc r) :=
  (U27_keep m c r (by omega)).trans (U26_from16 m c r hr)
theorem U28_from16 (c : Dev nD) (r : Ref sig .tc) (hr : r.idx.val < 294) : U28 m c (Proc.devRef .tc r) = U16 m c (Proc.devRef .tc r) :=
  (U28_keep m c r (by omega)).trans (U27_from16 m c r hr)
theorem U29_from16 (c : Dev nD) (r : Ref sig .tc) (hr : r.idx.val < 294) : U29 m c (Proc.devRef .tc r) = U16 m c (Proc.devRef .tc r) :=
  (U29_keep m c r (by omega)).trans (U28_from16 m c r hr)
theorem U30_from16 (c : Dev nD) (r : Ref sig .tc) (hr : r.idx.val < 294) : U30 m c (Proc.devRef .tc r) = U16 m c (Proc.devRef .tc r) :=
  (U30_keep m c r (by omega)).trans (U29_from16 m c r hr)
theorem U31_from16 (c : Dev nD) (r : Ref sig .tc) (hr : r.idx.val < 294) : U31 m c (Proc.devRef .tc r) = U16 m c (Proc.devRef .tc r) :=
  (U31_keep m c r (by omega)).trans (U30_from16 m c r hr)
theorem U32_from16 (c : Dev nD) (r : Ref sig .tc) (hr : r.idx.val < 294) : U32 m c (Proc.devRef .tc r) = U16 m c (Proc.devRef .tc r) :=
  (U32_keep m c r (by omega)).trans (U31_from16 m c r hr)
theorem U18_from17 (c : Dev nD) (r : Ref sig .tc) (hr : r.idx.val < 310) : U18 m c (Proc.devRef .tc r) = U17 m c (Proc.devRef .tc r) := U18_keep m c r hr
theorem U19_from17 (c : Dev nD) (r : Ref sig .tc) (hr : r.idx.val < 310) : U19 m c (Proc.devRef .tc r) = U17 m c (Proc.devRef .tc r) :=
  (U19_keep m c r (by omega)).trans (U18_from17 m c r hr)
theorem U20_from17 (c : Dev nD) (r : Ref sig .tc) (hr : r.idx.val < 310) : U20 m c (Proc.devRef .tc r) = U17 m c (Proc.devRef .tc r) :=
  (U20_keep m c r (by omega)).trans (U19_from17 m c r hr)
theorem U21_from17 (c : Dev nD) (r : Ref sig .tc) (hr : r.idx.val < 310) : U21 m c (Proc.devRef .tc r) = U17 m c (Proc.devRef .tc r) :=
  (U21_keep m c r (by omega)).trans (U20_from17 m c r hr)
theorem U22_from17 (c : Dev nD) (r : Ref sig .tc) (hr : r.idx.val < 310) : U22 m c (Proc.devRef .tc r) = U17 m c (Proc.devRef .tc r) :=
  (U22_keep m c r (by omega)).trans (U21_from17 m c r hr)
theorem U19_from18 (c : Dev nD) (r : Ref sig .tc) (hr : r.idx.val < 326) : U19 m c (Proc.devRef .tc r) = U18 m c (Proc.devRef .tc r) := U19_keep m c r hr
theorem U20_from18 (c : Dev nD) (r : Ref sig .tc) (hr : r.idx.val < 326) : U20 m c (Proc.devRef .tc r) = U18 m c (Proc.devRef .tc r) :=
  (U20_keep m c r (by omega)).trans (U19_from18 m c r hr)
theorem U21_from18 (c : Dev nD) (r : Ref sig .tc) (hr : r.idx.val < 326) : U21 m c (Proc.devRef .tc r) = U18 m c (Proc.devRef .tc r) :=
  (U21_keep m c r (by omega)).trans (U20_from18 m c r hr)
theorem U22_from18 (c : Dev nD) (r : Ref sig .tc) (hr : r.idx.val < 326) : U22 m c (Proc.devRef .tc r) = U18 m c (Proc.devRef .tc r) :=
  (U22_keep m c r (by omega)).trans (U21_from18 m c r hr)
theorem U20_from19 (c : Dev nD) (r : Ref sig .tc) (hr : r.idx.val < 342) : U20 m c (Proc.devRef .tc r) = U19 m c (Proc.devRef .tc r) := U20_keep m c r hr
theorem U21_from19 (c : Dev nD) (r : Ref sig .tc) (hr : r.idx.val < 342) : U21 m c (Proc.devRef .tc r) = U19 m c (Proc.devRef .tc r) :=
  (U21_keep m c r (by omega)).trans (U20_from19 m c r hr)
theorem U22_from19 (c : Dev nD) (r : Ref sig .tc) (hr : r.idx.val < 342) : U22 m c (Proc.devRef .tc r) = U19 m c (Proc.devRef .tc r) :=
  (U22_keep m c r (by omega)).trans (U21_from19 m c r hr)
theorem U21_from20 (c : Dev nD) (r : Ref sig .tc) (hr : r.idx.val < 358) : U21 m c (Proc.devRef .tc r) = U20 m c (Proc.devRef .tc r) := U21_keep m c r hr
theorem U22_from20 (c : Dev nD) (r : Ref sig .tc) (hr : r.idx.val < 358) : U22 m c (Proc.devRef .tc r) = U20 m c (Proc.devRef .tc r) :=
  (U22_keep m c r (by omega)).trans (U21_from20 m c r hr)
theorem U22_from21 (c : Dev nD) (r : Ref sig .tc) (hr : r.idx.val < 374) : U22 m c (Proc.devRef .tc r) = U21 m c (Proc.devRef .tc r) := U22_keep m c r hr
theorem U25_from24 (c : Dev nD) (r : Ref sig .tc) (hr : r.idx.val < 404) : U25 m c (Proc.devRef .tc r) = U24 m c (Proc.devRef .tc r) := U25_keep m c r hr
theorem U26_from24 (c : Dev nD) (r : Ref sig .tc) (hr : r.idx.val < 404) : U26 m c (Proc.devRef .tc r) = U24 m c (Proc.devRef .tc r) :=
  (U26_keep m c r (by omega)).trans (U25_from24 m c r hr)
theorem U27_from24 (c : Dev nD) (r : Ref sig .tc) (hr : r.idx.val < 404) : U27 m c (Proc.devRef .tc r) = U24 m c (Proc.devRef .tc r) :=
  (U27_keep m c r (by omega)).trans (U26_from24 m c r hr)
theorem U28_from24 (c : Dev nD) (r : Ref sig .tc) (hr : r.idx.val < 404) : U28 m c (Proc.devRef .tc r) = U24 m c (Proc.devRef .tc r) :=
  (U28_keep m c r (by omega)).trans (U27_from24 m c r hr)
theorem U29_from24 (c : Dev nD) (r : Ref sig .tc) (hr : r.idx.val < 404) : U29 m c (Proc.devRef .tc r) = U24 m c (Proc.devRef .tc r) :=
  (U29_keep m c r (by omega)).trans (U28_from24 m c r hr)
theorem U30_from24 (c : Dev nD) (r : Ref sig .tc) (hr : r.idx.val < 404) : U30 m c (Proc.devRef .tc r) = U24 m c (Proc.devRef .tc r) :=
  (U30_keep m c r (by omega)).trans (U29_from24 m c r hr)
theorem U26_from25 (c : Dev nD) (r : Ref sig .tc) (hr : r.idx.val < 420) : U26 m c (Proc.devRef .tc r) = U25 m c (Proc.devRef .tc r) := U26_keep m c r hr
theorem U27_from25 (c : Dev nD) (r : Ref sig .tc) (hr : r.idx.val < 420) : U27 m c (Proc.devRef .tc r) = U25 m c (Proc.devRef .tc r) :=
  (U27_keep m c r (by omega)).trans (U26_from25 m c r hr)
theorem U28_from25 (c : Dev nD) (r : Ref sig .tc) (hr : r.idx.val < 420) : U28 m c (Proc.devRef .tc r) = U25 m c (Proc.devRef .tc r) :=
  (U28_keep m c r (by omega)).trans (U27_from25 m c r hr)
theorem U29_from25 (c : Dev nD) (r : Ref sig .tc) (hr : r.idx.val < 420) : U29 m c (Proc.devRef .tc r) = U25 m c (Proc.devRef .tc r) :=
  (U29_keep m c r (by omega)).trans (U28_from25 m c r hr)
theorem U30_from25 (c : Dev nD) (r : Ref sig .tc) (hr : r.idx.val < 420) : U30 m c (Proc.devRef .tc r) = U25 m c (Proc.devRef .tc r) :=
  (U30_keep m c r (by omega)).trans (U29_from25 m c r hr)
theorem U27_from26 (c : Dev nD) (r : Ref sig .tc) (hr : r.idx.val < 436) : U27 m c (Proc.devRef .tc r) = U26 m c (Proc.devRef .tc r) := U27_keep m c r hr
theorem U28_from26 (c : Dev nD) (r : Ref sig .tc) (hr : r.idx.val < 436) : U28 m c (Proc.devRef .tc r) = U26 m c (Proc.devRef .tc r) :=
  (U28_keep m c r (by omega)).trans (U27_from26 m c r hr)
theorem U29_from26 (c : Dev nD) (r : Ref sig .tc) (hr : r.idx.val < 436) : U29 m c (Proc.devRef .tc r) = U26 m c (Proc.devRef .tc r) :=
  (U29_keep m c r (by omega)).trans (U28_from26 m c r hr)
theorem U30_from26 (c : Dev nD) (r : Ref sig .tc) (hr : r.idx.val < 436) : U30 m c (Proc.devRef .tc r) = U26 m c (Proc.devRef .tc r) :=
  (U30_keep m c r (by omega)).trans (U29_from26 m c r hr)
theorem U28_from27 (c : Dev nD) (r : Ref sig .tc) (hr : r.idx.val < 452) : U28 m c (Proc.devRef .tc r) = U27 m c (Proc.devRef .tc r) := U28_keep m c r hr
theorem U29_from27 (c : Dev nD) (r : Ref sig .tc) (hr : r.idx.val < 452) : U29 m c (Proc.devRef .tc r) = U27 m c (Proc.devRef .tc r) :=
  (U29_keep m c r (by omega)).trans (U28_from27 m c r hr)
theorem U30_from27 (c : Dev nD) (r : Ref sig .tc) (hr : r.idx.val < 452) : U30 m c (Proc.devRef .tc r) = U27 m c (Proc.devRef .tc r) :=
  (U30_keep m c r (by omega)).trans (U29_from27 m c r hr)
theorem U29_from28 (c : Dev nD) (r : Ref sig .tc) (hr : r.idx.val < 468) : U29 m c (Proc.devRef .tc r) = U28 m c (Proc.devRef .tc r) := U29_keep m c r hr
theorem U30_from28 (c : Dev nD) (r : Ref sig .tc) (hr : r.idx.val < 468) : U30 m c (Proc.devRef .tc r) = U28 m c (Proc.devRef .tc r) :=
  (U30_keep m c r (by omega)).trans (U29_from28 m c r hr)
theorem U30_from29 (c : Dev nD) (r : Ref sig .tc) (hr : r.idx.val < 484) : U30 m c (Proc.devRef .tc r) = U29 m c (Proc.devRef .tc r) := U30_keep m c r hr

end Cert.ReferenceIdeal.HandRun

end
-- ==== Proof.RefRunW0.lean ====
/-
  Window 0 of the reference's line (operations 0 to 62): each buffer it hands on holds its stage of the
  arguments, given that the earlier buffers it reads hold theirs.
-/
import proofs.«101217_j35820027249494_1_alg».proof.Proof.RefRunBase

set_option maxRecDepth 16384
set_option maxHeartbeats 4000000

noncomputable section

namespace Cert.ReferenceIdeal.HandRun

open Cert.ReferenceIdeal Cert.ReferenceIdeal.Gen Cert.ReferenceIdeal.Value Cert.ReferenceIdeal.Read
open Idealize.ShloMosaic Idealize.ShloMosaic.TcCoe Idealize.SL.Sem Idealize.ShloMosaic.StableHlo

variable {F : FTy → Type} [FloatOps F]

variable (m : (ℓ : Loc nD τ sig) → Buf (Elt F) ℓ)

theorem u1_v45 (c : Dev nD)  : U1 m c (Proc.devRef .tc main_v45) = val_main_v45 (F := F) (m ((c.tc : Thread nD τ).loc main_arg0)) (m ((c.tc : Thread nD τ).loc main_arg1)) := by
  unfold U1
  after_results_simp
  simp only [val_main_v0, val_main_v1, val_main_v2, val_main_v3, val_main_c_7, val_main_v28, val_main_v29, val_main_c_8, val_main_v30, val_main_v31, val_main_v32, val_main_v33, val_main_v34, val_main_cst_9, val_main_v35, val_main_v36, val_main_v37, val_main_cst_10, val_main_v38, val_main_cst_11, val_main_v39, val_main_v40, val_main_v41, val_main_cst_12, val_main_v42, val_main_v43, val_main_v44, val_main_v45]
  try rfl

theorem u1_v1 (c : Dev nD)  : U1 m c (Proc.devRef .tc main_v1) = val_main_v1 (F := F) (m ((c.tc : Thread nD τ).loc main_arg1)) := by
  unfold U1
  after_results_simp
  simp only [val_main_v0, val_main_v1]
  try rfl

theorem u1_v3 (c : Dev nD)  : U1 m c (Proc.devRef .tc main_v3) = val_main_v3 (F := F) (m ((c.tc : Thread nD τ).loc main_arg1)) := by
  unfold U1
  after_results_simp
  simp only [val_main_v2, val_main_v3]
  try rfl

theorem u1_v27 (c : Dev nD)  : U1 m c (Proc.devRef .tc main_v27) = val_main_v27 (F := F) (m ((c.tc : Thread nD τ).loc main_arg1)) := by
  unfold U1
  after_results_simp
  simp only [val_main_v0, val_main_v1, val_main_v2, val_main_v3, val_main_cst, val_main_v4, val_main_cst_0, val_main_v5, val_main_v6, val_main_v7, val_main_cst_1, val_main_v8, val_main_v9, val_main_cst_2, val_main_v10, val_main_v11, val_main_cst_3, val_main_call0_v0, val_main_call0_v1, val_main_v12, val_main_c, val_main_v13, val_main_v14, val_main_c_4, val_main_v15, val_main_v16, val_main_v17, val_main_v18, val_main_v19, val_main_c_5, val_main_v20, val_main_v21, val_main_c_6, val_main_v22, val_main_v23, val_main_v24, val_main_v25, val_main_v26, val_main_v27]
  try rfl

end Cert.ReferenceIdeal.HandRun

end
-- ==== Proof.RefRunW1.lean ====
/-
  Window 1 of the reference's line (operations 63 to 78): each buffer it hands on holds its stage of the
  arguments, given that the earlier buffers it reads hold theirs.
-/
import proofs.«101217_j35820027249494_1_alg».proof.Proof.RefRunBase

set_option maxRecDepth 16384
set_option maxHeartbeats 4000000

noncomputable section

namespace Cert.ReferenceIdeal.HandRun

open Cert.ReferenceIdeal Cert.ReferenceIdeal.Gen Cert.ReferenceIdeal.Value Cert.ReferenceIdeal.Read
open Idealize.ShloMosaic Idealize.ShloMosaic.TcCoe Idealize.SL.Sem Idealize.ShloMosaic.StableHlo

variable {F : FTy → Type} [FloatOps F]

variable (m : (ℓ : Loc nD τ sig) → Buf (Elt F) ℓ)

theorem u2_v59 (c : Dev nD) (h_v45 : U1 m c (Proc.devRef .tc main_v45) = val_main_v45 (F := F) (m ((c.tc : Thread nD τ).loc main_arg0)) (m ((c.tc : Thread nD τ).loc main_arg1))) : U2 m c (Proc.devRef .tc main_v59) = val_main_v59 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold U2
  after_results_simp
  simp only [h_v45, U1_arg m c main_arg0 (by decide), U1_arg m c main_arg1 (by decide), U1_arg m c main_arg2 (by decide), U1_arg m c main_arg3 (by decide), U1_arg m c main_arg4 (by decide)]
  simp only [val_main_v46, val_main_v47, val_main_v48, val_main_v49, val_main_v50, val_main_v51, val_main_v52, val_main_v53, val_main_v54, val_main_v55, val_main_cst_13, val_main_v56, val_main_v57, val_main_cst_14, val_main_v58, val_main_v59]
  try rfl

end Cert.ReferenceIdeal.HandRun

end
-- ==== Proof.RefRunW2.lean ====
/-
  Window 2 of the reference's line (operations 79 to 102): each buffer it hands on holds its stage of the
  arguments, given that the earlier buffers it reads hold theirs.
-/
import proofs.«101217_j35820027249494_1_alg».proof.Proof.RefRunBase

set_option maxRecDepth 16384
set_option maxHeartbeats 4000000

noncomputable section

namespace Cert.ReferenceIdeal.HandRun

open Cert.ReferenceIdeal Cert.ReferenceIdeal.Gen Cert.ReferenceIdeal.Value Cert.ReferenceIdeal.Read
open Idealize.ShloMosaic Idealize.ShloMosaic.TcCoe Idealize.SL.Sem Idealize.ShloMosaic.StableHlo

variable {F : FTy → Type} [FloatOps F]

variable (m : (ℓ : Loc nD τ sig) → Buf (Elt F) ℓ)

theorem u3_v77 (c : Dev nD) (h_v3 : U2 m c (Proc.devRef .tc main_v3) = val_main_v3 (F := F) (m ((c.tc : Thread nD τ).loc main_arg1))) (h_v1 : U2 m c (Proc.devRef .tc main_v1) = val_main_v1 (F := F) (m ((c.tc : Thread nD τ).loc main_arg1))) (h_v59 : U2 m c (Proc.devRef .tc main_v59) = val_main_v59 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) : U3 m c (Proc.devRef .tc main_v77) = val_main_v77 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold U3
  after_results_simp
  simp only [h_v3, h_v1, h_v59, U2_arg m c main_arg0 (by decide), U2_arg m c main_arg1 (by decide), U2_arg m c main_arg2 (by decide), U2_arg m c main_arg3 (by decide), U2_arg m c main_arg4 (by decide)]
  simp only [val_main_c_15, val_main_v60, val_main_v61, val_main_c_16, val_main_v62, val_main_v63, val_main_v64, val_main_v65, val_main_v66, val_main_cst_17, val_main_v67, val_main_v68, val_main_v69, val_main_cst_18, val_main_v70, val_main_cst_19, val_main_v71, val_main_v72, val_main_v73, val_main_cst_20, val_main_v74, val_main_v75, val_main_v76, val_main_v77]
  try rfl

end Cert.ReferenceIdeal.HandRun

end
-- ==== Proof.RefRunW3.lean ====
/-
  Window 3 of the reference's line (operations 103 to 118): each buffer it hands on holds its stage of the
  arguments, given that the earlier buffers it reads hold theirs.
-/
import proofs.«101217_j35820027249494_1_alg».proof.Proof.RefRunBase

set_option maxRecDepth 16384
set_option maxHeartbeats 4000000

noncomputable section

namespace Cert.ReferenceIdeal.HandRun

open Cert.ReferenceIdeal Cert.ReferenceIdeal.Gen Cert.ReferenceIdeal.Value Cert.ReferenceIdeal.Read
open Idealize.ShloMosaic Idealize.ShloMosaic.TcCoe Idealize.SL.Sem Idealize.ShloMosaic.StableHlo

variable {F : FTy → Type} [FloatOps F]

variable (m : (ℓ : Loc nD τ sig) → Buf (Elt F) ℓ)

theorem u4_v91 (c : Dev nD) (h_v59 : U3 m c (Proc.devRef .tc main_v59) = val_main_v59 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) (h_v77 : U3 m c (Proc.devRef .tc main_v77) = val_main_v77 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) : U4 m c (Proc.devRef .tc main_v91) = val_main_v91 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  unfold U4
  after_results_simp
  simp only [h_v59, h_v77, U3_arg m c main_arg0 (by decide), U3_arg m c main_arg1 (by decide), U3_arg m c main_arg2 (by decide), U3_arg m c main_arg3 (by decide), U3_arg m c main_arg4 (by decide), U3_arg m c main_arg5 (by decide), U3_arg m c main_arg6 (by decide), U3_arg m c main_arg7 (by decide)]
  simp only [val_main_v78, val_main_v79, val_main_v80, val_main_v81, val_main_v82, val_main_v83, val_main_v84, val_main_v85, val_main_v86, val_main_v87, val_main_cst_21, val_main_v88, val_main_v89, val_main_cst_22, val_main_v90, val_main_v91]
  try rfl

end Cert.ReferenceIdeal.HandRun

end
-- ==== Proof.RefRunW4.lean ====
/-
  Window 4 of the reference's line (operations 119 to 142): each buffer it hands on holds its stage of the
  arguments, given that the earlier buffers it reads hold theirs.
-/
import proofs.«101217_j35820027249494_1_alg».proof.Proof.RefRunBase

set_option maxRecDepth 16384
set_option maxHeartbeats 4000000

noncomputable section

namespace Cert.ReferenceIdeal.HandRun

open Cert.ReferenceIdeal Cert.ReferenceIdeal.Gen Cert.ReferenceIdeal.Value Cert.ReferenceIdeal.Read
open Idealize.ShloMosaic Idealize.ShloMosaic.TcCoe Idealize.SL.Sem Idealize.ShloMosaic.StableHlo

variable {F : FTy → Type} [FloatOps F]

variable (m : (ℓ : Loc nD τ sig) → Buf (Elt F) ℓ)

theorem u5_v109 (c : Dev nD) (h_v3 : U4 m c (Proc.devRef .tc main_v3) = val_main_v3 (F := F) (m ((c.tc : Thread nD τ).loc main_arg1))) (h_v1 : U4 m c (Proc.devRef .tc main_v1) = val_main_v1 (F := F) (m ((c.tc : Thread nD τ).loc main_arg1))) (h_v91 : U4 m c (Proc.devRef .tc main_v91) = val_main_v91 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) : U5 m c (Proc.devRef .tc main_v109) = val_main_v109 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  unfold U5
  after_results_simp
  simp only [h_v3, h_v1, h_v91, U4_arg m c main_arg0 (by decide), U4_arg m c main_arg1 (by decide), U4_arg m c main_arg2 (by decide), U4_arg m c main_arg3 (by decide), U4_arg m c main_arg4 (by decide), U4_arg m c main_arg5 (by decide), U4_arg m c main_arg6 (by decide), U4_arg m c main_arg7 (by decide)]
  simp only [val_main_c_23, val_main_v92, val_main_v93, val_main_c_24, val_main_v94, val_main_v95, val_main_v96, val_main_v97, val_main_v98, val_main_cst_25, val_main_v99, val_main_v100, val_main_v101, val_main_cst_26, val_main_v102, val_main_cst_27, val_main_v103, val_main_v104, val_main_v105, val_main_cst_28, val_main_v106, val_main_v107, val_main_v108, val_main_v109]
  try rfl

end Cert.ReferenceIdeal.HandRun

end
-- ==== Proof.RefRunW5.lean ====
/-
  Window 5 of the reference's line (operations 143 to 153): each buffer it hands on holds its stage of the
  arguments, given that the earlier buffers it reads hold theirs.
-/
import proofs.«101217_j35820027249494_1_alg».proof.Proof.RefRunBase

set_option maxRecDepth 16384
set_option maxHeartbeats 4000000

noncomputable section

namespace Cert.ReferenceIdeal.HandRun

open Cert.ReferenceIdeal Cert.ReferenceIdeal.Gen Cert.ReferenceIdeal.Value Cert.ReferenceIdeal.Read
open Idealize.ShloMosaic Idealize.ShloMosaic.TcCoe Idealize.SL.Sem Idealize.ShloMosaic.StableHlo

variable {F : FTy → Type} [FloatOps F]

variable (m : (ℓ : Loc nD τ sig) → Buf (Elt F) ℓ)

theorem u6_v118 (c : Dev nD) (h_v91 : U5 m c (Proc.devRef .tc main_v91) = val_main_v91 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) (h_v109 : U5 m c (Proc.devRef .tc main_v109) = val_main_v109 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) : U6 m c (Proc.devRef .tc main_v118) = val_main_v118 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  unfold U6
  after_results_simp
  simp only [h_v91, h_v109, U5_arg m c main_arg0 (by decide), U5_arg m c main_arg1 (by decide), U5_arg m c main_arg2 (by decide), U5_arg m c main_arg3 (by decide), U5_arg m c main_arg4 (by decide), U5_arg m c main_arg5 (by decide), U5_arg m c main_arg6 (by decide), U5_arg m c main_arg7 (by decide), U5_arg m c main_arg8 (by decide), U5_arg m c main_arg9 (by decide), U5_arg m c main_arg10 (by decide)]
  simp only [val_main_v110, val_main_v111, val_main_v112, val_main_v113, val_main_v114, val_main_v115, val_main_v116, val_main_v117, val_main_call1_cst, val_main_call1_v0, val_main_v118]
  try rfl

end Cert.ReferenceIdeal.HandRun

end
-- ==== Proof.RefRunW6.lean ====
/-
  Window 6 of the reference's line (operations 154 to 169): each buffer it hands on holds its stage of the
  arguments, given that the earlier buffers it reads hold theirs.
-/
import proofs.«101217_j35820027249494_1_alg».proof.Proof.RefRunBase

set_option maxRecDepth 16384
set_option maxHeartbeats 4000000

noncomputable section

namespace Cert.ReferenceIdeal.HandRun

open Cert.ReferenceIdeal Cert.ReferenceIdeal.Gen Cert.ReferenceIdeal.Value Cert.ReferenceIdeal.Read
open Idealize.ShloMosaic Idealize.ShloMosaic.TcCoe Idealize.SL.Sem Idealize.ShloMosaic.StableHlo

variable {F : FTy → Type} [FloatOps F]

variable (m : (ℓ : Loc nD τ sig) → Buf (Elt F) ℓ)

theorem u7_v131 (c : Dev nD) (h_v27 : U6 m c (Proc.devRef .tc main_v27) = val_main_v27 (F := F) (m ((c.tc : Thread nD τ).loc main_arg1))) (h_v1 : U6 m c (Proc.devRef .tc main_v1) = val_main_v1 (F := F) (m ((c.tc : Thread nD τ).loc main_arg1))) (h_v3 : U6 m c (Proc.devRef .tc main_v3) = val_main_v3 (F := F) (m ((c.tc : Thread nD τ).loc main_arg1))) : U7 m c (Proc.devRef .tc main_v131) = val_main_v131 (F := F) (m ((c.tc : Thread nD τ).loc main_arg0)) (m ((c.tc : Thread nD τ).loc main_arg1)) := by
  unfold U7
  after_results_simp
  simp only [h_v27, h_v1, h_v3, U6_arg m c main_arg0 (by decide), U6_arg m c main_arg1 (by decide)]
  simp only [val_main_c_29, val_main_v119, val_main_v120, val_main_c_30, val_main_v121, val_main_v122, val_main_v123, val_main_v124, val_main_v125, val_main_v126, val_main_v127, val_main_v128, val_main_cst_31, val_main_v129, val_main_v130, val_main_v131]
  try rfl

end Cert.ReferenceIdeal.HandRun

end
-- ==== Proof.RefRunW7.lean ====
/-
  Window 7 of the reference's line (operations 170 to 185): each buffer it hands on holds its stage of the
  arguments, given that the earlier buffers it reads hold theirs.
-/
import proofs.«101217_j35820027249494_1_alg».proof.Proof.RefRunBase

set_option maxRecDepth 16384
set_option maxHeartbeats 4000000

noncomputable section

namespace Cert.ReferenceIdeal.HandRun

open Cert.ReferenceIdeal Cert.ReferenceIdeal.Gen Cert.ReferenceIdeal.Value Cert.ReferenceIdeal.Read
open Idealize.ShloMosaic Idealize.ShloMosaic.TcCoe Idealize.SL.Sem Idealize.ShloMosaic.StableHlo

variable {F : FTy → Type} [FloatOps F]

variable (m : (ℓ : Loc nD τ sig) → Buf (Elt F) ℓ)

theorem u8_v144 (c : Dev nD) (h_v27 : U7 m c (Proc.devRef .tc main_v27) = val_main_v27 (F := F) (m ((c.tc : Thread nD τ).loc main_arg1))) (h_v1 : U7 m c (Proc.devRef .tc main_v1) = val_main_v1 (F := F) (m ((c.tc : Thread nD τ).loc main_arg1))) (h_v131 : U7 m c (Proc.devRef .tc main_v131) = val_main_v131 (F := F) (m ((c.tc : Thread nD τ).loc main_arg0)) (m ((c.tc : Thread nD τ).loc main_arg1))) (h_v3 : U7 m c (Proc.devRef .tc main_v3) = val_main_v3 (F := F) (m ((c.tc : Thread nD τ).loc main_arg1))) : U8 m c (Proc.devRef .tc main_v144) = val_main_v144 (F := F) (m ((c.tc : Thread nD τ).loc main_arg0)) (m ((c.tc : Thread nD τ).loc main_arg1)) := by
  unfold U8
  after_results_simp
  simp only [h_v27, h_v1, h_v131, h_v3, U7_arg m c main_arg0 (by decide), U7_arg m c main_arg1 (by decide)]
  simp only [val_main_c_32, val_main_v132, val_main_v133, val_main_c_33, val_main_v134, val_main_v135, val_main_v136, val_main_v137, val_main_v138, val_main_v139, val_main_v140, val_main_v141, val_main_cst_34, val_main_v142, val_main_v143, val_main_v144]
  try rfl

end Cert.ReferenceIdeal.HandRun

end
-- ==== Proof.RefRunW8.lean ====
/-
  Window 8 of the reference's line (operations 186 to 201): each buffer it hands on holds its stage of the
  arguments, given that the earlier buffers it reads hold theirs.
-/
import proofs.«101217_j35820027249494_1_alg».proof.Proof.RefRunBase

set_option maxRecDepth 16384
set_option maxHeartbeats 4000000

noncomputable section

namespace Cert.ReferenceIdeal.HandRun

open Cert.ReferenceIdeal Cert.ReferenceIdeal.Gen Cert.ReferenceIdeal.Value Cert.ReferenceIdeal.Read
open Idealize.ShloMosaic Idealize.ShloMosaic.TcCoe Idealize.SL.Sem Idealize.ShloMosaic.StableHlo

variable {F : FTy → Type} [FloatOps F]

variable (m : (ℓ : Loc nD τ sig) → Buf (Elt F) ℓ)

theorem u9_v157 (c : Dev nD) (h_v27 : U8 m c (Proc.devRef .tc main_v27) = val_main_v27 (F := F) (m ((c.tc : Thread nD τ).loc main_arg1))) (h_v1 : U8 m c (Proc.devRef .tc main_v1) = val_main_v1 (F := F) (m ((c.tc : Thread nD τ).loc main_arg1))) (h_v144 : U8 m c (Proc.devRef .tc main_v144) = val_main_v144 (F := F) (m ((c.tc : Thread nD τ).loc main_arg0)) (m ((c.tc : Thread nD τ).loc main_arg1))) (h_v3 : U8 m c (Proc.devRef .tc main_v3) = val_main_v3 (F := F) (m ((c.tc : Thread nD τ).loc main_arg1))) : U9 m c (Proc.devRef .tc main_v157) = val_main_v157 (F := F) (m ((c.tc : Thread nD τ).loc main_arg0)) (m ((c.tc : Thread nD τ).loc main_arg1)) := by
  unfold U9
  after_results_simp
  simp only [h_v27, h_v1, h_v144, h_v3, U8_arg m c main_arg0 (by decide), U8_arg m c main_arg1 (by decide)]
  simp only [val_main_c_35, val_main_v145, val_main_v146, val_main_c_36, val_main_v147, val_main_v148, val_main_v149, val_main_v150, val_main_v151, val_main_v152, val_main_v153, val_main_v154, val_main_cst_37, val_main_v155, val_main_v156, val_main_v157]
  try rfl

end Cert.ReferenceIdeal.HandRun

end
-- ==== Proof.RefRunW9.lean ====
/-
  Window 9 of the reference's line (operations 202 to 202): each buffer it hands on holds its stage of the
  arguments, given that the earlier buffers it reads hold theirs.
-/
import proofs.«101217_j35820027249494_1_alg».proof.Proof.RefRunBase

set_option maxRecDepth 16384
set_option maxHeartbeats 4000000

noncomputable section

namespace Cert.ReferenceIdeal.HandRun

open Cert.ReferenceIdeal Cert.ReferenceIdeal.Gen Cert.ReferenceIdeal.Value Cert.ReferenceIdeal.Read
open Idealize.ShloMosaic Idealize.ShloMosaic.TcCoe Idealize.SL.Sem Idealize.ShloMosaic.StableHlo

variable {F : FTy → Type} [FloatOps F]

variable (m : (ℓ : Loc nD τ sig) → Buf (Elt F) ℓ)

theorem u10_v158 (c : Dev nD) (h_v157 : U9 m c (Proc.devRef .tc main_v157) = val_main_v157 (F := F) (m ((c.tc : Thread nD τ).loc main_arg0)) (m ((c.tc : Thread nD τ).loc main_arg1))) (h_v144 : U9 m c (Proc.devRef .tc main_v144) = val_main_v144 (F := F) (m ((c.tc : Thread nD τ).loc main_arg0)) (m ((c.tc : Thread nD τ).loc main_arg1))) (h_v131 : U9 m c (Proc.devRef .tc main_v131) = val_main_v131 (F := F) (m ((c.tc : Thread nD τ).loc main_arg0)) (m ((c.tc : Thread nD τ).loc main_arg1))) : U10 m c (Proc.devRef .tc main_v158) = val_main_v158 (F := F) (m ((c.tc : Thread nD τ).loc main_arg0)) (m ((c.tc : Thread nD τ).loc main_arg1)) := by
  unfold U10
  simp only [after_cons, after_nil]
  rw [nary_result]
  show concatenate S100000x44 1 [⟨S100000x11, (U9 m c (Proc.devRef .tc main_arg0))⟩, ⟨S100000x11, (U9 m c (Proc.devRef .tc main_v131))⟩, ⟨S100000x11, (U9 m c (Proc.devRef .tc main_v144))⟩, ⟨S100000x11, (U9 m c (Proc.devRef .tc main_v157))⟩] concatenates_S100000x11_S100000x11_S100000x11_S100000x11_S100000x44_d1 = _
  rw [U9_arg m c main_arg0 (by decide), h_v131, h_v144, h_v157]
  simp only [val_main_v158]
  try rfl

end Cert.ReferenceIdeal.HandRun

end
-- ==== Proof.RefRunW10.lean ====
/-
  Window 10 of the reference's line (operations 203 to 215): each buffer it hands on holds its stage of the
  arguments, given that the earlier buffers it reads hold theirs.
-/
import proofs.«101217_j35820027249494_1_alg».proof.Proof.RefRunBase

set_option maxRecDepth 16384
set_option maxHeartbeats 4000000

noncomputable section

namespace Cert.ReferenceIdeal.HandRun

open Cert.ReferenceIdeal Cert.ReferenceIdeal.Gen Cert.ReferenceIdeal.Value Cert.ReferenceIdeal.Read
open Idealize.ShloMosaic Idealize.ShloMosaic.TcCoe Idealize.SL.Sem Idealize.ShloMosaic.StableHlo

variable {F : FTy → Type} [FloatOps F]

variable (m : (ℓ : Loc nD τ sig) → Buf (Elt F) ℓ)

theorem u11_v169 (c : Dev nD) (h_v158 : U10 m c (Proc.devRef .tc main_v158) = val_main_v158 (F := F) (m ((c.tc : Thread nD τ).loc main_arg0)) (m ((c.tc : Thread nD τ).loc main_arg1))) : U11 m c (Proc.devRef .tc main_v169) = val_main_v169 (F := F) (m ((c.tc : Thread nD τ).loc main_arg0)) (m ((c.tc : Thread nD τ).loc main_arg1)) (m ((c.tc : Thread nD τ).loc main_arg11)) (m ((c.tc : Thread nD τ).loc main_arg12)) := by
  unfold U11
  after_results_simp
  simp only [h_v158, U10_arg m c main_arg0 (by decide), U10_arg m c main_arg1 (by decide), U10_arg m c main_arg11 (by decide), U10_arg m c main_arg12 (by decide)]
  simp only [val_main_v159, val_main_v160, val_main_v161, val_main_v162, val_main_v163, val_main_v164, val_main_v165, val_main_cst_38, val_main_v166, val_main_v167, val_main_cst_39, val_main_v168, val_main_v169]
  try rfl

end Cert.ReferenceIdeal.HandRun

end
-- ==== Proof.RefRunW11.lean ====
/-
  Window 11 of the reference's line (operations 216 to 231): each buffer it hands on holds its stage of the
  arguments, given that the earlier buffers it reads hold theirs.
-/
import proofs.«101217_j35820027249494_1_alg».proof.Proof.RefRunBase

set_option maxRecDepth 16384
set_option maxHeartbeats 4000000

noncomputable section

namespace Cert.ReferenceIdeal.HandRun

open Cert.ReferenceIdeal Cert.ReferenceIdeal.Gen Cert.ReferenceIdeal.Value Cert.ReferenceIdeal.Read
open Idealize.ShloMosaic Idealize.ShloMosaic.TcCoe Idealize.SL.Sem Idealize.ShloMosaic.StableHlo

variable {F : FTy → Type} [FloatOps F]

variable (m : (ℓ : Loc nD τ sig) → Buf (Elt F) ℓ)

theorem u12_v182 (c : Dev nD) (h_v27 : U11 m c (Proc.devRef .tc main_v27) = val_main_v27 (F := F) (m ((c.tc : Thread nD τ).loc main_arg1))) (h_v1 : U11 m c (Proc.devRef .tc main_v1) = val_main_v1 (F := F) (m ((c.tc : Thread nD τ).loc main_arg1))) (h_v169 : U11 m c (Proc.devRef .tc main_v169) = val_main_v169 (F := F) (m ((c.tc : Thread nD τ).loc main_arg0)) (m ((c.tc : Thread nD τ).loc main_arg1)) (m ((c.tc : Thread nD τ).loc main_arg11)) (m ((c.tc : Thread nD τ).loc main_arg12))) (h_v3 : U11 m c (Proc.devRef .tc main_v3) = val_main_v3 (F := F) (m ((c.tc : Thread nD τ).loc main_arg1))) : U12 m c (Proc.devRef .tc main_v182) = val_main_v182 (F := F) (m ((c.tc : Thread nD τ).loc main_arg0)) (m ((c.tc : Thread nD τ).loc main_arg1)) (m ((c.tc : Thread nD τ).loc main_arg11)) (m ((c.tc : Thread nD τ).loc main_arg12)) := by
  unfold U12
  after_results_simp
  simp only [h_v27, h_v1, h_v169, h_v3, U11_arg m c main_arg0 (by decide), U11_arg m c main_arg1 (by decide), U11_arg m c main_arg11 (by decide), U11_arg m c main_arg12 (by decide)]
  simp only [val_main_c_40, val_main_v170, val_main_v171, val_main_c_41, val_main_v172, val_main_v173, val_main_v174, val_main_v175, val_main_v176, val_main_v177, val_main_v178, val_main_v179, val_main_cst_42, val_main_v180, val_main_v181, val_main_v182]
  try rfl

end Cert.ReferenceIdeal.HandRun

end
-- ==== Proof.RefRunW12.lean ====
/-
  Window 12 of the reference's line (operations 232 to 247): each buffer it hands on holds its stage of the
  arguments, given that the earlier buffers it reads hold theirs.
-/
import proofs.«101217_j35820027249494_1_alg».proof.Proof.RefRunBase

set_option maxRecDepth 16384
set_option maxHeartbeats 4000000

noncomputable section

namespace Cert.ReferenceIdeal.HandRun

open Cert.ReferenceIdeal Cert.ReferenceIdeal.Gen Cert.ReferenceIdeal.Value Cert.ReferenceIdeal.Read
open Idealize.ShloMosaic Idealize.ShloMosaic.TcCoe Idealize.SL.Sem Idealize.ShloMosaic.StableHlo

variable {F : FTy → Type} [FloatOps F]

variable (m : (ℓ : Loc nD τ sig) → Buf (Elt F) ℓ)

theorem u13_v195 (c : Dev nD) (h_v27 : U12 m c (Proc.devRef .tc main_v27) = val_main_v27 (F := F) (m ((c.tc : Thread nD τ).loc main_arg1))) (h_v1 : U12 m c (Proc.devRef .tc main_v1) = val_main_v1 (F := F) (m ((c.tc : Thread nD τ).loc main_arg1))) (h_v182 : U12 m c (Proc.devRef .tc main_v182) = val_main_v182 (F := F) (m ((c.tc : Thread nD τ).loc main_arg0)) (m ((c.tc : Thread nD τ).loc main_arg1)) (m ((c.tc : Thread nD τ).loc main_arg11)) (m ((c.tc : Thread nD τ).loc main_arg12))) (h_v3 : U12 m c (Proc.devRef .tc main_v3) = val_main_v3 (F := F) (m ((c.tc : Thread nD τ).loc main_arg1))) : U13 m c (Proc.devRef .tc main_v195) = val_main_v195 (F := F) (m ((c.tc : Thread nD τ).loc main_arg0)) (m ((c.tc : Thread nD τ).loc main_arg1)) (m ((c.tc : Thread nD τ).loc main_arg11)) (m ((c.tc : Thread nD τ).loc main_arg12)) := by
  unfold U13
  after_results_simp
  simp only [h_v27, h_v1, h_v182, h_v3, U12_arg m c main_arg0 (by decide), U12_arg m c main_arg1 (by decide), U12_arg m c main_arg11 (by decide), U12_arg m c main_arg12 (by decide)]
  simp only [val_main_c_43, val_main_v183, val_main_v184, val_main_c_44, val_main_v185, val_main_v186, val_main_v187, val_main_v188, val_main_v189, val_main_v190, val_main_v191, val_main_v192, val_main_cst_45, val_main_v193, val_main_v194, val_main_v195]
  try rfl

end Cert.ReferenceIdeal.HandRun

end
-- ==== Proof.RefRunW13.lean ====
/-
  Window 13 of the reference's line (operations 248 to 263): each buffer it hands on holds its stage of the
  arguments, given that the earlier buffers it reads hold theirs.
-/
import proofs.«101217_j35820027249494_1_alg».proof.Proof.RefRunBase

set_option maxRecDepth 16384
set_option maxHeartbeats 4000000

noncomputable section

namespace Cert.ReferenceIdeal.HandRun

open Cert.ReferenceIdeal Cert.ReferenceIdeal.Gen Cert.ReferenceIdeal.Value Cert.ReferenceIdeal.Read
open Idealize.ShloMosaic Idealize.ShloMosaic.TcCoe Idealize.SL.Sem Idealize.ShloMosaic.StableHlo

variable {F : FTy → Type} [FloatOps F]

variable (m : (ℓ : Loc nD τ sig) → Buf (Elt F) ℓ)

theorem u14_v208 (c : Dev nD) (h_v27 : U13 m c (Proc.devRef .tc main_v27) = val_main_v27 (F := F) (m ((c.tc : Thread nD τ).loc main_arg1))) (h_v1 : U13 m c (Proc.devRef .tc main_v1) = val_main_v1 (F := F) (m ((c.tc : Thread nD τ).loc main_arg1))) (h_v195 : U13 m c (Proc.devRef .tc main_v195) = val_main_v195 (F := F) (m ((c.tc : Thread nD τ).loc main_arg0)) (m ((c.tc : Thread nD τ).loc main_arg1)) (m ((c.tc : Thread nD τ).loc main_arg11)) (m ((c.tc : Thread nD τ).loc main_arg12))) (h_v3 : U13 m c (Proc.devRef .tc main_v3) = val_main_v3 (F := F) (m ((c.tc : Thread nD τ).loc main_arg1))) : U14 m c (Proc.devRef .tc main_v208) = val_main_v208 (F := F) (m ((c.tc : Thread nD τ).loc main_arg0)) (m ((c.tc : Thread nD τ).loc main_arg1)) (m ((c.tc : Thread nD τ).loc main_arg11)) (m ((c.tc : Thread nD τ).loc main_arg12)) := by
  unfold U14
  after_results_simp
  simp only [h_v27, h_v1, h_v195, h_v3, U13_arg m c main_arg0 (by decide), U13_arg m c main_arg1 (by decide), U13_arg m c main_arg11 (by decide), U13_arg m c main_arg12 (by decide)]
  simp only [val_main_c_46, val_main_v196, val_main_v197, val_main_c_47, val_main_v198, val_main_v199, val_main_v200, val_main_v201, val_main_v202, val_main_v203, val_main_v204, val_main_v205, val_main_cst_48, val_main_v206, val_main_v207, val_main_v208]
  try rfl

end Cert.ReferenceIdeal.HandRun

end
-- ==== Proof.RefRunW14.lean ====
/-
  Window 14 of the reference's line (operations 264 to 264): each buffer it hands on holds its stage of the
  arguments, given that the earlier buffers it reads hold theirs.
-/
import proofs.«101217_j35820027249494_1_alg».proof.Proof.RefRunBase

set_option maxRecDepth 16384
set_option maxHeartbeats 4000000

noncomputable section

namespace Cert.ReferenceIdeal.HandRun

open Cert.ReferenceIdeal Cert.ReferenceIdeal.Gen Cert.ReferenceIdeal.Value Cert.ReferenceIdeal.Read
open Idealize.ShloMosaic Idealize.ShloMosaic.TcCoe Idealize.SL.Sem Idealize.ShloMosaic.StableHlo

variable {F : FTy → Type} [FloatOps F]

variable (m : (ℓ : Loc nD τ sig) → Buf (Elt F) ℓ)

theorem u15_v209 (c : Dev nD) (h_v208 : U14 m c (Proc.devRef .tc main_v208) = val_main_v208 (F := F) (m ((c.tc : Thread nD τ).loc main_arg0)) (m ((c.tc : Thread nD τ).loc main_arg1)) (m ((c.tc : Thread nD τ).loc main_arg11)) (m ((c.tc : Thread nD τ).loc main_arg12))) (h_v195 : U14 m c (Proc.devRef .tc main_v195) = val_main_v195 (F := F) (m ((c.tc : Thread nD τ).loc main_arg0)) (m ((c.tc : Thread nD τ).loc main_arg1)) (m ((c.tc : Thread nD τ).loc main_arg11)) (m ((c.tc : Thread nD τ).loc main_arg12))) (h_v182 : U14 m c (Proc.devRef .tc main_v182) = val_main_v182 (F := F) (m ((c.tc : Thread nD τ).loc main_arg0)) (m ((c.tc : Thread nD τ).loc main_arg1)) (m ((c.tc : Thread nD τ).loc main_arg11)) (m ((c.tc : Thread nD τ).loc main_arg12))) (h_v169 : U14 m c (Proc.devRef .tc main_v169) = val_main_v169 (F := F) (m ((c.tc : Thread nD τ).loc main_arg0)) (m ((c.tc : Thread nD τ).loc main_arg1)) (m ((c.tc : Thread nD τ).loc main_arg11)) (m ((c.tc : Thread nD τ).loc main_arg12))) : U15 m c (Proc.devRef .tc main_v209) = val_main_v209 (F := F) (m ((c.tc : Thread nD τ).loc main_arg0)) (m ((c.tc : Thread nD τ).loc main_arg1)) (m ((c.tc : Thread nD τ).loc main_arg11)) (m ((c.tc : Thread nD τ).loc main_arg12)) := by
  unfold U15
  simp only [after_cons, after_nil]
  rw [nary_result]
  show concatenate S100000x32 1 [⟨S100000x8, (U14 m c (Proc.devRef .tc main_v169))⟩, ⟨S100000x8, (U14 m c (Proc.devRef .tc main_v182))⟩, ⟨S100000x8, (U14 m c (Proc.devRef .tc main_v195))⟩, ⟨S100000x8, (U14 m c (Proc.devRef .tc main_v208))⟩] concatenates_S100000x8_S100000x8_S100000x8_S100000x8_S100000x32_d1 = _
  rw [h_v169, h_v182, h_v195, h_v208]
  simp only [val_main_v209]
  try rfl

end Cert.ReferenceIdeal.HandRun

end
-- ==== Proof.RefRunW15.lean ====
/-
  Window 15 of the reference's line (operations 265 to 272): each buffer it hands on holds its stage of the
  arguments, given that the earlier buffers it reads hold theirs.
-/
import proofs.«101217_j35820027249494_1_alg».proof.Proof.RefRunBase

set_option maxRecDepth 16384
set_option maxHeartbeats 4000000

noncomputable section

namespace Cert.ReferenceIdeal.HandRun

open Cert.ReferenceIdeal Cert.ReferenceIdeal.Gen Cert.ReferenceIdeal.Value Cert.ReferenceIdeal.Read
open Idealize.ShloMosaic Idealize.ShloMosaic.TcCoe Idealize.SL.Sem Idealize.ShloMosaic.StableHlo

variable {F : FTy → Type} [FloatOps F]

variable (m : (ℓ : Loc nD τ sig) → Buf (Elt F) ℓ)

theorem u16_v215 (c : Dev nD) (h_v209 : U15 m c (Proc.devRef .tc main_v209) = val_main_v209 (F := F) (m ((c.tc : Thread nD τ).loc main_arg0)) (m ((c.tc : Thread nD τ).loc main_arg1)) (m ((c.tc : Thread nD τ).loc main_arg11)) (m ((c.tc : Thread nD τ).loc main_arg12))) : U16 m c (Proc.devRef .tc main_v215) = val_main_v215 (F := F) (m ((c.tc : Thread nD τ).loc main_arg0)) (m ((c.tc : Thread nD τ).loc main_arg1)) (m ((c.tc : Thread nD τ).loc main_arg11)) (m ((c.tc : Thread nD τ).loc main_arg12)) (m ((c.tc : Thread nD τ).loc main_arg13)) (m ((c.tc : Thread nD τ).loc main_arg14)) := by
  unfold U16
  after_results_simp
  simp only [h_v209, U15_arg m c main_arg0 (by decide), U15_arg m c main_arg1 (by decide), U15_arg m c main_arg11 (by decide), U15_arg m c main_arg12 (by decide), U15_arg m c main_arg13 (by decide), U15_arg m c main_arg14 (by decide)]
  simp only [val_main_v210, val_main_v211, val_main_v212, val_main_v213, val_main_v214, val_main_call2_cst, val_main_call2_v0, val_main_v215]
  try rfl

end Cert.ReferenceIdeal.HandRun

end
-- ==== Proof.RefRunW16.lean ====
/-
  Window 16 of the reference's line (operations 273 to 288): each buffer it hands on holds its stage of the
  arguments, given that the earlier buffers it reads hold theirs.
-/
import proofs.«101217_j35820027249494_1_alg».proof.Proof.RefRunBase

set_option maxRecDepth 16384
set_option maxHeartbeats 4000000

noncomputable section

namespace Cert.ReferenceIdeal.HandRun

open Cert.ReferenceIdeal Cert.ReferenceIdeal.Gen Cert.ReferenceIdeal.Value Cert.ReferenceIdeal.Read
open Idealize.ShloMosaic Idealize.ShloMosaic.TcCoe Idealize.SL.Sem Idealize.ShloMosaic.StableHlo

variable {F : FTy → Type} [FloatOps F]

variable (m : (ℓ : Loc nD τ sig) → Buf (Elt F) ℓ)

theorem u17_v228 (c : Dev nD) (h_v27 : U16 m c (Proc.devRef .tc main_v27) = val_main_v27 (F := F) (m ((c.tc : Thread nD τ).loc main_arg1))) (h_v1 : U16 m c (Proc.devRef .tc main_v1) = val_main_v1 (F := F) (m ((c.tc : Thread nD τ).loc main_arg1))) (h_v3 : U16 m c (Proc.devRef .tc main_v3) = val_main_v3 (F := F) (m ((c.tc : Thread nD τ).loc main_arg1))) : U17 m c (Proc.devRef .tc main_v228) = val_main_v228 (F := F) (m ((c.tc : Thread nD τ).loc main_arg0)) (m ((c.tc : Thread nD τ).loc main_arg1)) := by
  unfold U17
  after_results_simp
  simp only [h_v27, h_v1, h_v3, U16_arg m c main_arg0 (by decide), U16_arg m c main_arg1 (by decide)]
  simp only [val_main_c_49, val_main_v216, val_main_v217, val_main_c_50, val_main_v218, val_main_v219, val_main_v220, val_main_v221, val_main_v222, val_main_v223, val_main_v224, val_main_v225, val_main_cst_51, val_main_v226, val_main_v227, val_main_v228]
  try rfl

end Cert.ReferenceIdeal.HandRun

end
-- ==== Proof.RefRunW17.lean ====
/-
  Window 17 of the reference's line (operations 289 to 304): each buffer it hands on holds its stage of the
  arguments, given that the earlier buffers it reads hold theirs.
-/
import proofs.«101217_j35820027249494_1_alg».proof.Proof.RefRunBase

set_option maxRecDepth 16384
set_option maxHeartbeats 4000000

noncomputable section

namespace Cert.ReferenceIdeal.HandRun

open Cert.ReferenceIdeal Cert.ReferenceIdeal.Gen Cert.ReferenceIdeal.Value Cert.ReferenceIdeal.Read
open Idealize.ShloMosaic Idealize.ShloMosaic.TcCoe Idealize.SL.Sem Idealize.ShloMosaic.StableHlo

variable {F : FTy → Type} [FloatOps F]

variable (m : (ℓ : Loc nD τ sig) → Buf (Elt F) ℓ)

theorem u18_v241 (c : Dev nD) (h_v27 : U17 m c (Proc.devRef .tc main_v27) = val_main_v27 (F := F) (m ((c.tc : Thread nD τ).loc main_arg1))) (h_v1 : U17 m c (Proc.devRef .tc main_v1) = val_main_v1 (F := F) (m ((c.tc : Thread nD τ).loc main_arg1))) (h_v228 : U17 m c (Proc.devRef .tc main_v228) = val_main_v228 (F := F) (m ((c.tc : Thread nD τ).loc main_arg0)) (m ((c.tc : Thread nD τ).loc main_arg1))) (h_v3 : U17 m c (Proc.devRef .tc main_v3) = val_main_v3 (F := F) (m ((c.tc : Thread nD τ).loc main_arg1))) : U18 m c (Proc.devRef .tc main_v241) = val_main_v241 (F := F) (m ((c.tc : Thread nD τ).loc main_arg0)) (m ((c.tc : Thread nD τ).loc main_arg1)) := by
  unfold U18
  after_results_simp
  simp only [h_v27, h_v1, h_v228, h_v3, U17_arg m c main_arg0 (by decide), U17_arg m c main_arg1 (by decide)]
  simp only [val_main_c_52, val_main_v229, val_main_v230, val_main_c_53, val_main_v231, val_main_v232, val_main_v233, val_main_v234, val_main_v235, val_main_v236, val_main_v237, val_main_v238, val_main_cst_54, val_main_v239, val_main_v240, val_main_v241]
  try rfl

end Cert.ReferenceIdeal.HandRun

end
-- ==== Proof.RefRunW18.lean ====
/-
  Window 18 of the reference's line (operations 305 to 320): each buffer it hands on holds its stage of the
  arguments, given that the earlier buffers it reads hold theirs.
-/
import proofs.«101217_j35820027249494_1_alg».proof.Proof.RefRunBase

set_option maxRecDepth 16384
set_option maxHeartbeats 4000000

noncomputable section

namespace Cert.ReferenceIdeal.HandRun

open Cert.ReferenceIdeal Cert.ReferenceIdeal.Gen Cert.ReferenceIdeal.Value Cert.ReferenceIdeal.Read
open Idealize.ShloMosaic Idealize.ShloMosaic.TcCoe Idealize.SL.Sem Idealize.ShloMosaic.StableHlo

variable {F : FTy → Type} [FloatOps F]

variable (m : (ℓ : Loc nD τ sig) → Buf (Elt F) ℓ)

theorem u19_v254 (c : Dev nD) (h_v27 : U18 m c (Proc.devRef .tc main_v27) = val_main_v27 (F := F) (m ((c.tc : Thread nD τ).loc main_arg1))) (h_v1 : U18 m c (Proc.devRef .tc main_v1) = val_main_v1 (F := F) (m ((c.tc : Thread nD τ).loc main_arg1))) (h_v241 : U18 m c (Proc.devRef .tc main_v241) = val_main_v241 (F := F) (m ((c.tc : Thread nD τ).loc main_arg0)) (m ((c.tc : Thread nD τ).loc main_arg1))) (h_v3 : U18 m c (Proc.devRef .tc main_v3) = val_main_v3 (F := F) (m ((c.tc : Thread nD τ).loc main_arg1))) : U19 m c (Proc.devRef .tc main_v254) = val_main_v254 (F := F) (m ((c.tc : Thread nD τ).loc main_arg0)) (m ((c.tc : Thread nD τ).loc main_arg1)) := by
  unfold U19
  after_results_simp
  simp only [h_v27, h_v1, h_v241, h_v3, U18_arg m c main_arg0 (by decide), U18_arg m c main_arg1 (by decide)]
  simp only [val_main_c_55, val_main_v242, val_main_v243, val_main_c_56, val_main_v244, val_main_v245, val_main_v246, val_main_v247, val_main_v248, val_main_v249, val_main_v250, val_main_v251, val_main_cst_57, val_main_v252, val_main_v253, val_main_v254]
  try rfl

end Cert.ReferenceIdeal.HandRun

end
-- ==== Proof.RefRunW19.lean ====
/-
  Window 19 of the reference's line (operations 321 to 336): each buffer it hands on holds its stage of the
  arguments, given that the earlier buffers it reads hold theirs.
-/
import proofs.«101217_j35820027249494_1_alg».proof.Proof.RefRunBase

set_option maxRecDepth 16384
set_option maxHeartbeats 4000000

noncomputable section

namespace Cert.ReferenceIdeal.HandRun

open Cert.ReferenceIdeal Cert.ReferenceIdeal.Gen Cert.ReferenceIdeal.Value Cert.ReferenceIdeal.Read
open Idealize.ShloMosaic Idealize.ShloMosaic.TcCoe Idealize.SL.Sem Idealize.ShloMosaic.StableHlo

variable {F : FTy → Type} [FloatOps F]

variable (m : (ℓ : Loc nD τ sig) → Buf (Elt F) ℓ)

theorem u20_v267 (c : Dev nD) (h_v27 : U19 m c (Proc.devRef .tc main_v27) = val_main_v27 (F := F) (m ((c.tc : Thread nD τ).loc main_arg1))) (h_v1 : U19 m c (Proc.devRef .tc main_v1) = val_main_v1 (F := F) (m ((c.tc : Thread nD τ).loc main_arg1))) (h_v254 : U19 m c (Proc.devRef .tc main_v254) = val_main_v254 (F := F) (m ((c.tc : Thread nD τ).loc main_arg0)) (m ((c.tc : Thread nD τ).loc main_arg1))) (h_v3 : U19 m c (Proc.devRef .tc main_v3) = val_main_v3 (F := F) (m ((c.tc : Thread nD τ).loc main_arg1))) : U20 m c (Proc.devRef .tc main_v267) = val_main_v267 (F := F) (m ((c.tc : Thread nD τ).loc main_arg0)) (m ((c.tc : Thread nD τ).loc main_arg1)) := by
  unfold U20
  after_results_simp
  simp only [h_v27, h_v1, h_v254, h_v3, U19_arg m c main_arg0 (by decide), U19_arg m c main_arg1 (by decide)]
  simp only [val_main_c_58, val_main_v255, val_main_v256, val_main_c_59, val_main_v257, val_main_v258, val_main_v259, val_main_v260, val_main_v261, val_main_v262, val_main_v263, val_main_v264, val_main_cst_60, val_main_v265, val_main_v266, val_main_v267]
  try rfl

end Cert.ReferenceIdeal.HandRun

end
-- ==== Proof.RefRunW20.lean ====
/-
  Window 20 of the reference's line (operations 337 to 352): each buffer it hands on holds its stage of the
  arguments, given that the earlier buffers it reads hold theirs.
-/
import proofs.«101217_j35820027249494_1_alg».proof.Proof.RefRunBase

set_option maxRecDepth 16384
set_option maxHeartbeats 4000000

noncomputable section

namespace Cert.ReferenceIdeal.HandRun

open Cert.ReferenceIdeal Cert.ReferenceIdeal.Gen Cert.ReferenceIdeal.Value Cert.ReferenceIdeal.Read
open Idealize.ShloMosaic Idealize.ShloMosaic.TcCoe Idealize.SL.Sem Idealize.ShloMosaic.StableHlo

variable {F : FTy → Type} [FloatOps F]

variable (m : (ℓ : Loc nD τ sig) → Buf (Elt F) ℓ)

theorem u21_v280 (c : Dev nD) (h_v27 : U20 m c (Proc.devRef .tc main_v27) = val_main_v27 (F := F) (m ((c.tc : Thread nD τ).loc main_arg1))) (h_v1 : U20 m c (Proc.devRef .tc main_v1) = val_main_v1 (F := F) (m ((c.tc : Thread nD τ).loc main_arg1))) (h_v267 : U20 m c (Proc.devRef .tc main_v267) = val_main_v267 (F := F) (m ((c.tc : Thread nD τ).loc main_arg0)) (m ((c.tc : Thread nD τ).loc main_arg1))) (h_v3 : U20 m c (Proc.devRef .tc main_v3) = val_main_v3 (F := F) (m ((c.tc : Thread nD τ).loc main_arg1))) : U21 m c (Proc.devRef .tc main_v280) = val_main_v280 (F := F) (m ((c.tc : Thread nD τ).loc main_arg0)) (m ((c.tc : Thread nD τ).loc main_arg1)) := by
  unfold U21
  after_results_simp
  simp only [h_v27, h_v1, h_v267, h_v3, U20_arg m c main_arg0 (by decide), U20_arg m c main_arg1 (by decide)]
  simp only [val_main_c_61, val_main_v268, val_main_v269, val_main_c_62, val_main_v270, val_main_v271, val_main_v272, val_main_v273, val_main_v274, val_main_v275, val_main_v276, val_main_v277, val_main_cst_63, val_main_v278, val_main_v279, val_main_v280]
  try rfl

end Cert.ReferenceIdeal.HandRun

end
-- ==== Proof.RefRunW21.lean ====
/-
  Window 21 of the reference's line (operations 353 to 368): each buffer it hands on holds its stage of the
  arguments, given that the earlier buffers it reads hold theirs.
-/
import proofs.«101217_j35820027249494_1_alg».proof.Proof.RefRunBase

set_option maxRecDepth 16384
set_option maxHeartbeats 4000000

noncomputable section

namespace Cert.ReferenceIdeal.HandRun

open Cert.ReferenceIdeal Cert.ReferenceIdeal.Gen Cert.ReferenceIdeal.Value Cert.ReferenceIdeal.Read
open Idealize.ShloMosaic Idealize.ShloMosaic.TcCoe Idealize.SL.Sem Idealize.ShloMosaic.StableHlo

variable {F : FTy → Type} [FloatOps F]

variable (m : (ℓ : Loc nD τ sig) → Buf (Elt F) ℓ)

theorem u22_v293 (c : Dev nD) (h_v27 : U21 m c (Proc.devRef .tc main_v27) = val_main_v27 (F := F) (m ((c.tc : Thread nD τ).loc main_arg1))) (h_v1 : U21 m c (Proc.devRef .tc main_v1) = val_main_v1 (F := F) (m ((c.tc : Thread nD τ).loc main_arg1))) (h_v280 : U21 m c (Proc.devRef .tc main_v280) = val_main_v280 (F := F) (m ((c.tc : Thread nD τ).loc main_arg0)) (m ((c.tc : Thread nD τ).loc main_arg1))) (h_v3 : U21 m c (Proc.devRef .tc main_v3) = val_main_v3 (F := F) (m ((c.tc : Thread nD τ).loc main_arg1))) : U22 m c (Proc.devRef .tc main_v293) = val_main_v293 (F := F) (m ((c.tc : Thread nD τ).loc main_arg0)) (m ((c.tc : Thread nD τ).loc main_arg1)) := by
  unfold U22
  after_results_simp
  simp only [h_v27, h_v1, h_v280, h_v3, U21_arg m c main_arg0 (by decide), U21_arg m c main_arg1 (by decide)]
  simp only [val_main_c_64, val_main_v281, val_main_v282, val_main_c_65, val_main_v283, val_main_v284, val_main_v285, val_main_v286, val_main_v287, val_main_v288, val_main_v289, val_main_v290, val_main_cst_66, val_main_v291, val_main_v292, val_main_v293]
  try rfl

end Cert.ReferenceIdeal.HandRun

end
-- ==== Proof.RefRunW22.lean ====
/-
  Window 22 of the reference's line (operations 369 to 369): each buffer it hands on holds its stage of the
  arguments, given that the earlier buffers it reads hold theirs.
-/
import proofs.«101217_j35820027249494_1_alg».proof.Proof.RefRunBase

set_option maxRecDepth 16384
set_option maxHeartbeats 4000000

noncomputable section

namespace Cert.ReferenceIdeal.HandRun

open Cert.ReferenceIdeal Cert.ReferenceIdeal.Gen Cert.ReferenceIdeal.Value Cert.ReferenceIdeal.Read
open Idealize.ShloMosaic Idealize.ShloMosaic.TcCoe Idealize.SL.Sem Idealize.ShloMosaic.StableHlo

variable {F : FTy → Type} [FloatOps F]

variable (m : (ℓ : Loc nD τ sig) → Buf (Elt F) ℓ)

theorem u23_v294 (c : Dev nD) (h_v293 : U22 m c (Proc.devRef .tc main_v293) = val_main_v293 (F := F) (m ((c.tc : Thread nD τ).loc main_arg0)) (m ((c.tc : Thread nD τ).loc main_arg1))) (h_v280 : U22 m c (Proc.devRef .tc main_v280) = val_main_v280 (F := F) (m ((c.tc : Thread nD τ).loc main_arg0)) (m ((c.tc : Thread nD τ).loc main_arg1))) (h_v267 : U22 m c (Proc.devRef .tc main_v267) = val_main_v267 (F := F) (m ((c.tc : Thread nD τ).loc main_arg0)) (m ((c.tc : Thread nD τ).loc main_arg1))) (h_v254 : U22 m c (Proc.devRef .tc main_v254) = val_main_v254 (F := F) (m ((c.tc : Thread nD τ).loc main_arg0)) (m ((c.tc : Thread nD τ).loc main_arg1))) (h_v241 : U22 m c (Proc.devRef .tc main_v241) = val_main_v241 (F := F) (m ((c.tc : Thread nD τ).loc main_arg0)) (m ((c.tc : Thread nD τ).loc main_arg1))) (h_v228 : U22 m c (Proc.devRef .tc main_v228) = val_main_v228 (F := F) (m ((c.tc : Thread nD τ).loc main_arg0)) (m ((c.tc : Thread nD τ).loc main_arg1))) : U23 m c (Proc.devRef .tc main_v294) = val_main_v294 (F := F) (m ((c.tc : Thread nD τ).loc main_arg0)) (m ((c.tc : Thread nD τ).loc main_arg1)) := by
  unfold U23
  simp only [after_cons, after_nil]
  rw [nary_result]
  show concatenate S100000x77 1 [⟨S100000x11, (U22 m c (Proc.devRef .tc main_arg0))⟩, ⟨S100000x11, (U22 m c (Proc.devRef .tc main_v228))⟩, ⟨S100000x11, (U22 m c (Proc.devRef .tc main_v241))⟩, ⟨S100000x11, (U22 m c (Proc.devRef .tc main_v254))⟩, ⟨S100000x11, (U22 m c (Proc.devRef .tc main_v267))⟩, ⟨S100000x11, (U22 m c (Proc.devRef .tc main_v280))⟩, ⟨S100000x11, (U22 m c (Proc.devRef .tc main_v293))⟩] concatenates_S100000x11_S100000x11_S100000x11_S100000x11_S100000x11_S100000x11_S100000x11_S100000x77_d1 = _
  rw [U22_arg m c main_arg0 (by decide), h_v228, h_v241, h_v254, h_v267, h_v280, h_v293]
  simp only [val_main_v294]
  try rfl

end Cert.ReferenceIdeal.HandRun

end
-- ==== Proof.RefRunW23.lean ====
/-
  Window 23 of the reference's line (operations 370 to 382): each buffer it hands on holds its stage of the
  arguments, given that the earlier buffers it reads hold theirs.
-/
import proofs.«101217_j35820027249494_1_alg».proof.Proof.RefRunBase

set_option maxRecDepth 16384
set_option maxHeartbeats 4000000

noncomputable section

namespace Cert.ReferenceIdeal.HandRun

open Cert.ReferenceIdeal Cert.ReferenceIdeal.Gen Cert.ReferenceIdeal.Value Cert.ReferenceIdeal.Read
open Idealize.ShloMosaic Idealize.ShloMosaic.TcCoe Idealize.SL.Sem Idealize.ShloMosaic.StableHlo

variable {F : FTy → Type} [FloatOps F]

variable (m : (ℓ : Loc nD τ sig) → Buf (Elt F) ℓ)

theorem u24_v305 (c : Dev nD) (h_v294 : U23 m c (Proc.devRef .tc main_v294) = val_main_v294 (F := F) (m ((c.tc : Thread nD τ).loc main_arg0)) (m ((c.tc : Thread nD τ).loc main_arg1))) : U24 m c (Proc.devRef .tc main_v305) = val_main_v305 (F := F) (m ((c.tc : Thread nD τ).loc main_arg0)) (m ((c.tc : Thread nD τ).loc main_arg1)) (m ((c.tc : Thread nD τ).loc main_arg15)) (m ((c.tc : Thread nD τ).loc main_arg16)) := by
  unfold U24
  after_results_simp
  simp only [h_v294, U23_arg m c main_arg0 (by decide), U23_arg m c main_arg1 (by decide), U23_arg m c main_arg15 (by decide), U23_arg m c main_arg16 (by decide)]
  simp only [val_main_v295, val_main_v296, val_main_v297, val_main_v298, val_main_v299, val_main_v300, val_main_v301, val_main_cst_67, val_main_v302, val_main_v303, val_main_cst_68, val_main_v304, val_main_v305]
  try rfl

end Cert.ReferenceIdeal.HandRun

end
-- ==== Proof.RefRunW24.lean ====
/-
  Window 24 of the reference's line (operations 383 to 398): each buffer it hands on holds its stage of the
  arguments, given that the earlier buffers it reads hold theirs.
-/
import proofs.«101217_j35820027249494_1_alg».proof.Proof.RefRunBase

set_option maxRecDepth 16384
set_option maxHeartbeats 4000000

noncomputable section

namespace Cert.ReferenceIdeal.HandRun

open Cert.ReferenceIdeal Cert.ReferenceIdeal.Gen Cert.ReferenceIdeal.Value Cert.ReferenceIdeal.Read
open Idealize.ShloMosaic Idealize.ShloMosaic.TcCoe Idealize.SL.Sem Idealize.ShloMosaic.StableHlo

variable {F : FTy → Type} [FloatOps F]

variable (m : (ℓ : Loc nD τ sig) → Buf (Elt F) ℓ)

theorem u25_v318 (c : Dev nD) (h_v27 : U24 m c (Proc.devRef .tc main_v27) = val_main_v27 (F := F) (m ((c.tc : Thread nD τ).loc main_arg1))) (h_v1 : U24 m c (Proc.devRef .tc main_v1) = val_main_v1 (F := F) (m ((c.tc : Thread nD τ).loc main_arg1))) (h_v305 : U24 m c (Proc.devRef .tc main_v305) = val_main_v305 (F := F) (m ((c.tc : Thread nD τ).loc main_arg0)) (m ((c.tc : Thread nD τ).loc main_arg1)) (m ((c.tc : Thread nD τ).loc main_arg15)) (m ((c.tc : Thread nD τ).loc main_arg16))) (h_v3 : U24 m c (Proc.devRef .tc main_v3) = val_main_v3 (F := F) (m ((c.tc : Thread nD τ).loc main_arg1))) : U25 m c (Proc.devRef .tc main_v318) = val_main_v318 (F := F) (m ((c.tc : Thread nD τ).loc main_arg0)) (m ((c.tc : Thread nD τ).loc main_arg1)) (m ((c.tc : Thread nD τ).loc main_arg15)) (m ((c.tc : Thread nD τ).loc main_arg16)) := by
  unfold U25
  after_results_simp
  simp only [h_v27, h_v1, h_v305, h_v3, U24_arg m c main_arg0 (by decide), U24_arg m c main_arg1 (by decide), U24_arg m c main_arg15 (by decide), U24_arg m c main_arg16 (by decide)]
  simp only [val_main_c_69, val_main_v306, val_main_v307, val_main_c_70, val_main_v308, val_main_v309, val_main_v310, val_main_v311, val_main_v312, val_main_v313, val_main_v314, val_main_v315, val_main_cst_71, val_main_v316, val_main_v317, val_main_v318]
  try rfl

end Cert.ReferenceIdeal.HandRun

end
-- ==== Proof.RefRunW25.lean ====
/-
  Window 25 of the reference's line (operations 399 to 414): each buffer it hands on holds its stage of the
  arguments, given that the earlier buffers it reads hold theirs.
-/
import proofs.«101217_j35820027249494_1_alg».proof.Proof.RefRunBase

set_option maxRecDepth 16384
set_option maxHeartbeats 4000000

noncomputable section

namespace Cert.ReferenceIdeal.HandRun

open Cert.ReferenceIdeal Cert.ReferenceIdeal.Gen Cert.ReferenceIdeal.Value Cert.ReferenceIdeal.Read
open Idealize.ShloMosaic Idealize.ShloMosaic.TcCoe Idealize.SL.Sem Idealize.ShloMosaic.StableHlo

variable {F : FTy → Type} [FloatOps F]

variable (m : (ℓ : Loc nD τ sig) → Buf (Elt F) ℓ)

theorem u26_v331 (c : Dev nD) (h_v27 : U25 m c (Proc.devRef .tc main_v27) = val_main_v27 (F := F) (m ((c.tc : Thread nD τ).loc main_arg1))) (h_v1 : U25 m c (Proc.devRef .tc main_v1) = val_main_v1 (F := F) (m ((c.tc : Thread nD τ).loc main_arg1))) (h_v318 : U25 m c (Proc.devRef .tc main_v318) = val_main_v318 (F := F) (m ((c.tc : Thread nD τ).loc main_arg0)) (m ((c.tc : Thread nD τ).loc main_arg1)) (m ((c.tc : Thread nD τ).loc main_arg15)) (m ((c.tc : Thread nD τ).loc main_arg16))) (h_v3 : U25 m c (Proc.devRef .tc main_v3) = val_main_v3 (F := F) (m ((c.tc : Thread nD τ).loc main_arg1))) : U26 m c (Proc.devRef .tc main_v331) = val_main_v331 (F := F) (m ((c.tc : Thread nD τ).loc main_arg0)) (m ((c.tc : Thread nD τ).loc main_arg1)) (m ((c.tc : Thread nD τ).loc main_arg15)) (m ((c.tc : Thread nD τ).loc main_arg16)) := by
  unfold U26
  after_results_simp
  simp only [h_v27, h_v1, h_v318, h_v3, U25_arg m c main_arg0 (by decide), U25_arg m c main_arg1 (by decide), U25_arg m c main_arg15 (by decide), U25_arg m c main_arg16 (by decide)]
  simp only [val_main_c_72, val_main_v319, val_main_v320, val_main_c_73, val_main_v321, val_main_v322, val_main_v323, val_main_v324, val_main_v325, val_main_v326, val_main_v327, val_main_v328, val_main_cst_74, val_main_v329, val_main_v330, val_main_v331]
  try rfl

end Cert.ReferenceIdeal.HandRun

end
-- ==== Proof.RefRunW26.lean ====
/-
  Window 26 of the reference's line (operations 415 to 430): each buffer it hands on holds its stage of the
  arguments, given that the earlier buffers it reads hold theirs.
-/
import proofs.«101217_j35820027249494_1_alg».proof.Proof.RefRunBase

set_option maxRecDepth 16384
set_option maxHeartbeats 4000000

noncomputable section

namespace Cert.ReferenceIdeal.HandRun

open Cert.ReferenceIdeal Cert.ReferenceIdeal.Gen Cert.ReferenceIdeal.Value Cert.ReferenceIdeal.Read
open Idealize.ShloMosaic Idealize.ShloMosaic.TcCoe Idealize.SL.Sem Idealize.ShloMosaic.StableHlo

variable {F : FTy → Type} [FloatOps F]

variable (m : (ℓ : Loc nD τ sig) → Buf (Elt F) ℓ)

theorem u27_v344 (c : Dev nD) (h_v27 : U26 m c (Proc.devRef .tc main_v27) = val_main_v27 (F := F) (m ((c.tc : Thread nD τ).loc main_arg1))) (h_v1 : U26 m c (Proc.devRef .tc main_v1) = val_main_v1 (F := F) (m ((c.tc : Thread nD τ).loc main_arg1))) (h_v331 : U26 m c (Proc.devRef .tc main_v331) = val_main_v331 (F := F) (m ((c.tc : Thread nD τ).loc main_arg0)) (m ((c.tc : Thread nD τ).loc main_arg1)) (m ((c.tc : Thread nD τ).loc main_arg15)) (m ((c.tc : Thread nD τ).loc main_arg16))) (h_v3 : U26 m c (Proc.devRef .tc main_v3) = val_main_v3 (F := F) (m ((c.tc : Thread nD τ).loc main_arg1))) : U27 m c (Proc.devRef .tc main_v344) = val_main_v344 (F := F) (m ((c.tc : Thread nD τ).loc main_arg0)) (m ((c.tc : Thread nD τ).loc main_arg1)) (m ((c.tc : Thread nD τ).loc main_arg15)) (m ((c.tc : Thread nD τ).loc main_arg16)) := by
  unfold U27
  after_results_simp
  simp only [h_v27, h_v1, h_v331, h_v3, U26_arg m c main_arg0 (by decide), U26_arg m c main_arg1 (by decide), U26_arg m c main_arg15 (by decide), U26_arg m c main_arg16 (by decide)]
  simp only [val_main_c_75, val_main_v332, val_main_v333, val_main_c_76, val_main_v334, val_main_v335, val_main_v336, val_main_v337, val_main_v338, val_main_v339, val_main_v340, val_main_v341, val_main_cst_77, val_main_v342, val_main_v343, val_main_v344]
  try rfl

end Cert.ReferenceIdeal.HandRun

end
-- ==== Proof.RefRunW27.lean ====
/-
  Window 27 of the reference's line (operations 431 to 446): each buffer it hands on holds its stage of the
  arguments, given that the earlier buffers it reads hold theirs.
-/
import proofs.«101217_j35820027249494_1_alg».proof.Proof.RefRunBase

set_option maxRecDepth 16384
set_option maxHeartbeats 4000000

noncomputable section

namespace Cert.ReferenceIdeal.HandRun

open Cert.ReferenceIdeal Cert.ReferenceIdeal.Gen Cert.ReferenceIdeal.Value Cert.ReferenceIdeal.Read
open Idealize.ShloMosaic Idealize.ShloMosaic.TcCoe Idealize.SL.Sem Idealize.ShloMosaic.StableHlo

variable {F : FTy → Type} [FloatOps F]

variable (m : (ℓ : Loc nD τ sig) → Buf (Elt F) ℓ)

theorem u28_v357 (c : Dev nD) (h_v27 : U27 m c (Proc.devRef .tc main_v27) = val_main_v27 (F := F) (m ((c.tc : Thread nD τ).loc main_arg1))) (h_v1 : U27 m c (Proc.devRef .tc main_v1) = val_main_v1 (F := F) (m ((c.tc : Thread nD τ).loc main_arg1))) (h_v344 : U27 m c (Proc.devRef .tc main_v344) = val_main_v344 (F := F) (m ((c.tc : Thread nD τ).loc main_arg0)) (m ((c.tc : Thread nD τ).loc main_arg1)) (m ((c.tc : Thread nD τ).loc main_arg15)) (m ((c.tc : Thread nD τ).loc main_arg16))) (h_v3 : U27 m c (Proc.devRef .tc main_v3) = val_main_v3 (F := F) (m ((c.tc : Thread nD τ).loc main_arg1))) : U28 m c (Proc.devRef .tc main_v357) = val_main_v357 (F := F) (m ((c.tc : Thread nD τ).loc main_arg0)) (m ((c.tc : Thread nD τ).loc main_arg1)) (m ((c.tc : Thread nD τ).loc main_arg15)) (m ((c.tc : Thread nD τ).loc main_arg16)) := by
  unfold U28
  after_results_simp
  simp only [h_v27, h_v1, h_v344, h_v3, U27_arg m c main_arg0 (by decide), U27_arg m c main_arg1 (by decide), U27_arg m c main_arg15 (by decide), U27_arg m c main_arg16 (by decide)]
  simp only [val_main_c_78, val_main_v345, val_main_v346, val_main_c_79, val_main_v347, val_main_v348, val_main_v349, val_main_v350, val_main_v351, val_main_v352, val_main_v353, val_main_v354, val_main_cst_80, val_main_v355, val_main_v356, val_main_v357]
  try rfl

end Cert.ReferenceIdeal.HandRun

end
-- ==== Proof.RefRunW28.lean ====
/-
  Window 28 of the reference's line (operations 447 to 462): each buffer it hands on holds its stage of the
  arguments, given that the earlier buffers it reads hold theirs.
-/
import proofs.«101217_j35820027249494_1_alg».proof.Proof.RefRunBase

set_option maxRecDepth 16384
set_option maxHeartbeats 4000000

noncomputable section

namespace Cert.ReferenceIdeal.HandRun

open Cert.ReferenceIdeal Cert.ReferenceIdeal.Gen Cert.ReferenceIdeal.Value Cert.ReferenceIdeal.Read
open Idealize.ShloMosaic Idealize.ShloMosaic.TcCoe Idealize.SL.Sem Idealize.ShloMosaic.StableHlo

variable {F : FTy → Type} [FloatOps F]

variable (m : (ℓ : Loc nD τ sig) → Buf (Elt F) ℓ)

theorem u29_v370 (c : Dev nD) (h_v27 : U28 m c (Proc.devRef .tc main_v27) = val_main_v27 (F := F) (m ((c.tc : Thread nD τ).loc main_arg1))) (h_v1 : U28 m c (Proc.devRef .tc main_v1) = val_main_v1 (F := F) (m ((c.tc : Thread nD τ).loc main_arg1))) (h_v357 : U28 m c (Proc.devRef .tc main_v357) = val_main_v357 (F := F) (m ((c.tc : Thread nD τ).loc main_arg0)) (m ((c.tc : Thread nD τ).loc main_arg1)) (m ((c.tc : Thread nD τ).loc main_arg15)) (m ((c.tc : Thread nD τ).loc main_arg16))) (h_v3 : U28 m c (Proc.devRef .tc main_v3) = val_main_v3 (F := F) (m ((c.tc : Thread nD τ).loc main_arg1))) : U29 m c (Proc.devRef .tc main_v370) = val_main_v370 (F := F) (m ((c.tc : Thread nD τ).loc main_arg0)) (m ((c.tc : Thread nD τ).loc main_arg1)) (m ((c.tc : Thread nD τ).loc main_arg15)) (m ((c.tc : Thread nD τ).loc main_arg16)) := by
  unfold U29
  after_results_simp
  simp only [h_v27, h_v1, h_v357, h_v3, U28_arg m c main_arg0 (by decide), U28_arg m c main_arg1 (by decide), U28_arg m c main_arg15 (by decide), U28_arg m c main_arg16 (by decide)]
  simp only [val_main_c_81, val_main_v358, val_main_v359, val_main_c_82, val_main_v360, val_main_v361, val_main_v362, val_main_v363, val_main_v364, val_main_v365, val_main_v366, val_main_v367, val_main_cst_83, val_main_v368, val_main_v369, val_main_v370]
  try rfl

end Cert.ReferenceIdeal.HandRun

end
-- ==== Proof.RefRunW29.lean ====
/-
  Window 29 of the reference's line (operations 463 to 478): each buffer it hands on holds its stage of the
  arguments, given that the earlier buffers it reads hold theirs.
-/
import proofs.«101217_j35820027249494_1_alg».proof.Proof.RefRunBase

set_option maxRecDepth 16384
set_option maxHeartbeats 4000000

noncomputable section

namespace Cert.ReferenceIdeal.HandRun

open Cert.ReferenceIdeal Cert.ReferenceIdeal.Gen Cert.ReferenceIdeal.Value Cert.ReferenceIdeal.Read
open Idealize.ShloMosaic Idealize.ShloMosaic.TcCoe Idealize.SL.Sem Idealize.ShloMosaic.StableHlo

variable {F : FTy → Type} [FloatOps F]

variable (m : (ℓ : Loc nD τ sig) → Buf (Elt F) ℓ)

theorem u30_v383 (c : Dev nD) (h_v27 : U29 m c (Proc.devRef .tc main_v27) = val_main_v27 (F := F) (m ((c.tc : Thread nD τ).loc main_arg1))) (h_v1 : U29 m c (Proc.devRef .tc main_v1) = val_main_v1 (F := F) (m ((c.tc : Thread nD τ).loc main_arg1))) (h_v370 : U29 m c (Proc.devRef .tc main_v370) = val_main_v370 (F := F) (m ((c.tc : Thread nD τ).loc main_arg0)) (m ((c.tc : Thread nD τ).loc main_arg1)) (m ((c.tc : Thread nD τ).loc main_arg15)) (m ((c.tc : Thread nD τ).loc main_arg16))) (h_v3 : U29 m c (Proc.devRef .tc main_v3) = val_main_v3 (F := F) (m ((c.tc : Thread nD τ).loc main_arg1))) : U30 m c (Proc.devRef .tc main_v383) = val_main_v383 (F := F) (m ((c.tc : Thread nD τ).loc main_arg0)) (m ((c.tc : Thread nD τ).loc main_arg1)) (m ((c.tc : Thread nD τ).loc main_arg15)) (m ((c.tc : Thread nD τ).loc main_arg16)) := by
  unfold U30
  after_results_simp
  simp only [h_v27, h_v1, h_v370, h_v3, U29_arg m c main_arg0 (by decide), U29_arg m c main_arg1 (by decide), U29_arg m c main_arg15 (by decide), U29_arg m c main_arg16 (by decide)]
  simp only [val_main_c_84, val_main_v371, val_main_v372, val_main_c_85, val_main_v373, val_main_v374, val_main_v375, val_main_v376, val_main_v377, val_main_v378, val_main_v379, val_main_v380, val_main_cst_86, val_main_v381, val_main_v382, val_main_v383]
  try rfl

end Cert.ReferenceIdeal.HandRun

end
-- ==== Proof.RefRunW30.lean ====
/-
  Window 30 of the reference's line (operations 479 to 479): each buffer it hands on holds its stage of the
  arguments, given that the earlier buffers it reads hold theirs.
-/
import proofs.«101217_j35820027249494_1_alg».proof.Proof.RefRunBase

set_option maxRecDepth 16384
set_option maxHeartbeats 4000000

noncomputable section

namespace Cert.ReferenceIdeal.HandRun

open Cert.ReferenceIdeal Cert.ReferenceIdeal.Gen Cert.ReferenceIdeal.Value Cert.ReferenceIdeal.Read
open Idealize.ShloMosaic Idealize.ShloMosaic.TcCoe Idealize.SL.Sem Idealize.ShloMosaic.StableHlo

variable {F : FTy → Type} [FloatOps F]

variable (m : (ℓ : Loc nD τ sig) → Buf (Elt F) ℓ)

theorem u31_v384 (c : Dev nD) (h_v383 : U30 m c (Proc.devRef .tc main_v383) = val_main_v383 (F := F) (m ((c.tc : Thread nD τ).loc main_arg0)) (m ((c.tc : Thread nD τ).loc main_arg1)) (m ((c.tc : Thread nD τ).loc main_arg15)) (m ((c.tc : Thread nD τ).loc main_arg16))) (h_v370 : U30 m c (Proc.devRef .tc main_v370) = val_main_v370 (F := F) (m ((c.tc : Thread nD τ).loc main_arg0)) (m ((c.tc : Thread nD τ).loc main_arg1)) (m ((c.tc : Thread nD τ).loc main_arg15)) (m ((c.tc : Thread nD τ).loc main_arg16))) (h_v357 : U30 m c (Proc.devRef .tc main_v357) = val_main_v357 (F := F) (m ((c.tc : Thread nD τ).loc main_arg0)) (m ((c.tc : Thread nD τ).loc main_arg1)) (m ((c.tc : Thread nD τ).loc main_arg15)) (m ((c.tc : Thread nD τ).loc main_arg16))) (h_v344 : U30 m c (Proc.devRef .tc main_v344) = val_main_v344 (F := F) (m ((c.tc : Thread nD τ).loc main_arg0)) (m ((c.tc : Thread nD τ).loc main_arg1)) (m ((c.tc : Thread nD τ).loc main_arg15)) (m ((c.tc : Thread nD τ).loc main_arg16))) (h_v331 : U30 m c (Proc.devRef .tc main_v331) = val_main_v331 (F := F) (m ((c.tc : Thread nD τ).loc main_arg0)) (m ((c.tc : Thread nD τ).loc main_arg1)) (m ((c.tc : Thread nD τ).loc main_arg15)) (m ((c.tc : Thread nD τ).loc main_arg16))) (h_v318 : U30 m c (Proc.devRef .tc main_v318) = val_main_v318 (F := F) (m ((c.tc : Thread nD τ).loc main_arg0)) (m ((c.tc : Thread nD τ).loc main_arg1)) (m ((c.tc : Thread nD τ).loc main_arg15)) (m ((c.tc : Thread nD τ).loc main_arg16))) (h_v305 : U30 m c (Proc.devRef .tc main_v305) = val_main_v305 (F := F) (m ((c.tc : Thread nD τ).loc main_arg0)) (m ((c.tc : Thread nD τ).loc main_arg1)) (m ((c.tc : Thread nD τ).loc main_arg15)) (m ((c.tc : Thread nD τ).loc main_arg16))) : U31 m c (Proc.devRef .tc main_v384) = val_main_v384 (F := F) (m ((c.tc : Thread nD τ).loc main_arg0)) (m ((c.tc : Thread nD τ).loc main_arg1)) (m ((c.tc : Thread nD τ).loc main_arg15)) (m ((c.tc : Thread nD τ).loc main_arg16)) := by
  unfold U31
  simp only [after_cons, after_nil]
  rw [nary_result]
  show concatenate S100000x56 1 [⟨S100000x8, (U30 m c (Proc.devRef .tc main_v305))⟩, ⟨S100000x8, (U30 m c (Proc.devRef .tc main_v318))⟩, ⟨S100000x8, (U30 m c (Proc.devRef .tc main_v331))⟩, ⟨S100000x8, (U30 m c (Proc.devRef .tc main_v344))⟩, ⟨S100000x8, (U30 m c (Proc.devRef .tc main_v357))⟩, ⟨S100000x8, (U30 m c (Proc.devRef .tc main_v370))⟩, ⟨S100000x8, (U30 m c (Proc.devRef .tc main_v383))⟩] concatenates_S100000x8_S100000x8_S100000x8_S100000x8_S100000x8_S100000x8_S100000x8_S100000x56_d1 = _
  rw [h_v305, h_v318, h_v331, h_v344, h_v357, h_v370, h_v383]
  simp only [val_main_v384]
  try rfl

end Cert.ReferenceIdeal.HandRun

end
-- ==== Proof.RefRunW31.lean ====
/-
  Window 31 of the reference's line (operations 480 to 487): each buffer it hands on holds its stage of the
  arguments, given that the earlier buffers it reads hold theirs.
-/
import proofs.«101217_j35820027249494_1_alg».proof.Proof.RefRunBase

set_option maxRecDepth 16384
set_option maxHeartbeats 4000000

noncomputable section

namespace Cert.ReferenceIdeal.HandRun

open Cert.ReferenceIdeal Cert.ReferenceIdeal.Gen Cert.ReferenceIdeal.Value Cert.ReferenceIdeal.Read
open Idealize.ShloMosaic Idealize.ShloMosaic.TcCoe Idealize.SL.Sem Idealize.ShloMosaic.StableHlo

variable {F : FTy → Type} [FloatOps F]

variable (m : (ℓ : Loc nD τ sig) → Buf (Elt F) ℓ)

theorem u32_v390 (c : Dev nD) (h_v384 : U31 m c (Proc.devRef .tc main_v384) = val_main_v384 (F := F) (m ((c.tc : Thread nD τ).loc main_arg0)) (m ((c.tc : Thread nD τ).loc main_arg1)) (m ((c.tc : Thread nD τ).loc main_arg15)) (m ((c.tc : Thread nD τ).loc main_arg16))) : U32 m c (Proc.devRef .tc main_v390) = val_main_v390 (F := F) (m ((c.tc : Thread nD τ).loc main_arg0)) (m ((c.tc : Thread nD τ).loc main_arg1)) (m ((c.tc : Thread nD τ).loc main_arg15)) (m ((c.tc : Thread nD τ).loc main_arg16)) (m ((c.tc : Thread nD τ).loc main_arg17)) (m ((c.tc : Thread nD τ).loc main_arg18)) := by
  unfold U32
  after_results_simp
  simp only [h_v384, U31_arg m c main_arg0 (by decide), U31_arg m c main_arg1 (by decide), U31_arg m c main_arg15 (by decide), U31_arg m c main_arg16 (by decide), U31_arg m c main_arg17 (by decide), U31_arg m c main_arg18 (by decide)]
  simp only [val_main_v385, val_main_v386, val_main_v387, val_main_v388, val_main_v389, val_main_call3_cst, val_main_call3_v0, val_main_v390]
  try rfl

end Cert.ReferenceIdeal.HandRun

end
-- ==== Proof.RefRunW32.lean ====
/-
  Window 32 of the reference's line (operations 488 to 488): each buffer it hands on holds its stage of the
  arguments, given that the earlier buffers it reads hold theirs.
-/
import proofs.«101217_j35820027249494_1_alg».proof.Proof.RefRunBase

set_option maxRecDepth 16384
set_option maxHeartbeats 4000000

noncomputable section

namespace Cert.ReferenceIdeal.HandRun

open Cert.ReferenceIdeal Cert.ReferenceIdeal.Gen Cert.ReferenceIdeal.Value Cert.ReferenceIdeal.Read
open Idealize.ShloMosaic Idealize.ShloMosaic.TcCoe Idealize.SL.Sem Idealize.ShloMosaic.StableHlo

variable {F : FTy → Type} [FloatOps F]

variable (m : (ℓ : Loc nD τ sig) → Buf (Elt F) ℓ)

theorem u33_v391 (c : Dev nD) (h_v390 : U32 m c (Proc.devRef .tc main_v390) = val_main_v390 (F := F) (m ((c.tc : Thread nD τ).loc main_arg0)) (m ((c.tc : Thread nD τ).loc main_arg1)) (m ((c.tc : Thread nD τ).loc main_arg15)) (m ((c.tc : Thread nD τ).loc main_arg16)) (m ((c.tc : Thread nD τ).loc main_arg17)) (m ((c.tc : Thread nD τ).loc main_arg18))) (h_v215 : U32 m c (Proc.devRef .tc main_v215) = val_main_v215 (F := F) (m ((c.tc : Thread nD τ).loc main_arg0)) (m ((c.tc : Thread nD τ).loc main_arg1)) (m ((c.tc : Thread nD τ).loc main_arg11)) (m ((c.tc : Thread nD τ).loc main_arg12)) (m ((c.tc : Thread nD τ).loc main_arg13)) (m ((c.tc : Thread nD τ).loc main_arg14))) (h_v118 : U32 m c (Proc.devRef .tc main_v118) = val_main_v118 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))) : U33 m c (Proc.devRef .tc main_v391) = val_main_v391 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) := by
  unfold U33
  simp only [after_cons, after_nil]
  rw [nary_result]
  show concatenate S100000x3 1 [⟨S100000x1, (U32 m c (Proc.devRef .tc main_v118))⟩, ⟨S100000x1, (U32 m c (Proc.devRef .tc main_v215))⟩, ⟨S100000x1, (U32 m c (Proc.devRef .tc main_v390))⟩] concatenates_S100000x1_S100000x1_S100000x1_S100000x3_d1 = _
  rw [h_v118, h_v215, h_v390]
  simp only [val_main_v391]
  try rfl

end Cert.ReferenceIdeal.HandRun

end
-- ==== Proof.RefRunW33.lean ====
/-
  Window 33 of the reference's line (operations 489 to 496): each buffer it hands on holds its stage of the
  arguments, given that the earlier buffers it reads hold theirs.
-/
import proofs.«101217_j35820027249494_1_alg».proof.Proof.RefRunBase

set_option maxRecDepth 16384
set_option maxHeartbeats 4000000

noncomputable section

namespace Cert.ReferenceIdeal.HandRun

open Cert.ReferenceIdeal Cert.ReferenceIdeal.Gen Cert.ReferenceIdeal.Value Cert.ReferenceIdeal.Read
open Idealize.ShloMosaic Idealize.ShloMosaic.TcCoe Idealize.SL.Sem Idealize.ShloMosaic.StableHlo

variable {F : FTy → Type} [FloatOps F]

variable (m : (ℓ : Loc nD τ sig) → Buf (Elt F) ℓ)

theorem u34_v397 (c : Dev nD) (h_v391 : U33 m c (Proc.devRef .tc main_v391) = val_main_v391 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18))) : U34 m c (Proc.devRef .tc main_v397) = val_main_v397 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) := by
  unfold U34
  after_results_simp
  simp only [h_v391, U33_arg m c main_arg0 (by decide), U33_arg m c main_arg1 (by decide), U33_arg m c main_arg2 (by decide), U33_arg m c main_arg3 (by decide), U33_arg m c main_arg4 (by decide), U33_arg m c main_arg5 (by decide), U33_arg m c main_arg6 (by decide), U33_arg m c main_arg7 (by decide), U33_arg m c main_arg8 (by decide), U33_arg m c main_arg9 (by decide), U33_arg m c main_arg10 (by decide), U33_arg m c main_arg11 (by decide), U33_arg m c main_arg12 (by decide), U33_arg m c main_arg13 (by decide), U33_arg m c main_arg14 (by decide), U33_arg m c main_arg15 (by decide), U33_arg m c main_arg16 (by decide), U33_arg m c main_arg17 (by decide), U33_arg m c main_arg18 (by decide), U33_arg m c main_arg19 (by decide), U33_arg m c main_arg20 (by decide)]
  simp only [val_main_v392, val_main_v393, val_main_v394, val_main_v395, val_main_v396, val_main_call4_cst, val_main_call4_v0, val_main_v397]
  try rfl

end Cert.ReferenceIdeal.HandRun

end
-- ==== Proof.RefRun.lean ====
/-
  The reference's run, read stage by stage: window by window each buffer that is handed on holds the stage the
  read-back module names for it, as a function of the arguments; so every weakly fair execution of the reference
  terminates, the result buffer ends at the result stage of the arguments, and the arguments end as launched.
  Generic in the float instance.
-/
import proofs.«101217_j35820027249494_1_alg».proof.Proof.RefRunBase
import proofs.«101217_j35820027249494_1_alg».proof.Proof.RefRunW0
import proofs.«101217_j35820027249494_1_alg».proof.Proof.RefRunW1
import proofs.«101217_j35820027249494_1_alg».proof.Proof.RefRunW2
import proofs.«101217_j35820027249494_1_alg».proof.Proof.RefRunW3
import proofs.«101217_j35820027249494_1_alg».proof.Proof.RefRunW4
import proofs.«101217_j35820027249494_1_alg».proof.Proof.RefRunW5
import proofs.«101217_j35820027249494_1_alg».proof.Proof.RefRunW6
import proofs.«101217_j35820027249494_1_alg».proof.Proof.RefRunW7
import proofs.«101217_j35820027249494_1_alg».proof.Proof.RefRunW8
import proofs.«101217_j35820027249494_1_alg».proof.Proof.RefRunW9
import proofs.«101217_j35820027249494_1_alg».proof.Proof.RefRunW10
import proofs.«101217_j35820027249494_1_alg».proof.Proof.RefRunW11
import proofs.«101217_j35820027249494_1_alg».proof.Proof.RefRunW12
import proofs.«101217_j35820027249494_1_alg».proof.Proof.RefRunW13
import proofs.«101217_j35820027249494_1_alg».proof.Proof.RefRunW14
import proofs.«101217_j35820027249494_1_alg».proof.Proof.RefRunW15
import proofs.«101217_j35820027249494_1_alg».proof.Proof.RefRunW16
import proofs.«101217_j35820027249494_1_alg».proof.Proof.RefRunW17
import proofs.«101217_j35820027249494_1_alg».proof.Proof.RefRunW18
import proofs.«101217_j35820027249494_1_alg».proof.Proof.RefRunW19
import proofs.«101217_j35820027249494_1_alg».proof.Proof.RefRunW20
import proofs.«101217_j35820027249494_1_alg».proof.Proof.RefRunW21
import proofs.«101217_j35820027249494_1_alg».proof.Proof.RefRunW22
import proofs.«101217_j35820027249494_1_alg».proof.Proof.RefRunW23
import proofs.«101217_j35820027249494_1_alg».proof.Proof.RefRunW24
import proofs.«101217_j35820027249494_1_alg».proof.Proof.RefRunW25
import proofs.«101217_j35820027249494_1_alg».proof.Proof.RefRunW26
import proofs.«101217_j35820027249494_1_alg».proof.Proof.RefRunW27
import proofs.«101217_j35820027249494_1_alg».proof.Proof.RefRunW28
import proofs.«101217_j35820027249494_1_alg».proof.Proof.RefRunW29
import proofs.«101217_j35820027249494_1_alg».proof.Proof.RefRunW30
import proofs.«101217_j35820027249494_1_alg».proof.Proof.RefRunW31
import proofs.«101217_j35820027249494_1_alg».proof.Proof.RefRunW32
import proofs.«101217_j35820027249494_1_alg».proof.Proof.RefRunW33

set_option maxRecDepth 16384
set_option maxHeartbeats 4000000

noncomputable section

namespace Cert.ReferenceIdeal.HandRun

open Cert.ReferenceIdeal Cert.ReferenceIdeal.Gen Cert.ReferenceIdeal.Value Cert.ReferenceIdeal.Read
open Idealize.ShloMosaic Idealize.ShloMosaic.TcCoe Idealize.SL.Sem Idealize.ShloMosaic.StableHlo

variable {F : FTy → Type} [FloatOps F]

variable (m : (ℓ : Loc nD τ sig) → Buf (Elt F) ℓ)

/-! ## Each handed-on buffer holds its stage -/
theorem f1_v45 (c : Dev nD) : U1 m c (Proc.devRef .tc main_v45) = val_main_v45 (F := F) (m ((c.tc : Thread nD τ).loc main_arg0)) (m ((c.tc : Thread nD τ).loc main_arg1)) :=
  u1_v45 m c
theorem f1_v1 (c : Dev nD) : U1 m c (Proc.devRef .tc main_v1) = val_main_v1 (F := F) (m ((c.tc : Thread nD τ).loc main_arg1)) :=
  u1_v1 m c
theorem f1_v3 (c : Dev nD) : U1 m c (Proc.devRef .tc main_v3) = val_main_v3 (F := F) (m ((c.tc : Thread nD τ).loc main_arg1)) :=
  u1_v3 m c
theorem f1_v27 (c : Dev nD) : U1 m c (Proc.devRef .tc main_v27) = val_main_v27 (F := F) (m ((c.tc : Thread nD τ).loc main_arg1)) :=
  u1_v27 m c
theorem f2_v59 (c : Dev nD) : U2 m c (Proc.devRef .tc main_v59) = val_main_v59 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) :=
  u2_v59 m c (f1_v45 m c)
theorem f3_v77 (c : Dev nD) : U3 m c (Proc.devRef .tc main_v77) = val_main_v77 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) :=
  u3_v77 m c ((U2_from1 m c main_v3 (by decide)).trans (f1_v3 m c)) ((U2_from1 m c main_v1 (by decide)).trans (f1_v1 m c)) (f2_v59 m c)
theorem f4_v91 (c : Dev nD) : U4 m c (Proc.devRef .tc main_v91) = val_main_v91 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) :=
  u4_v91 m c ((U3_from2 m c main_v59 (by decide)).trans (f2_v59 m c)) (f3_v77 m c)
theorem f5_v109 (c : Dev nD) : U5 m c (Proc.devRef .tc main_v109) = val_main_v109 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) :=
  u5_v109 m c ((U4_from1 m c main_v3 (by decide)).trans (f1_v3 m c)) ((U4_from1 m c main_v1 (by decide)).trans (f1_v1 m c)) (f4_v91 m c)
theorem f6_v118 (c : Dev nD) : U6 m c (Proc.devRef .tc main_v118) = val_main_v118 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) :=
  u6_v118 m c ((U5_from4 m c main_v91 (by decide)).trans (f4_v91 m c)) (f5_v109 m c)
theorem f7_v131 (c : Dev nD) : U7 m c (Proc.devRef .tc main_v131) = val_main_v131 (F := F) (m ((c.tc : Thread nD τ).loc main_arg0)) (m ((c.tc : Thread nD τ).loc main_arg1)) :=
  u7_v131 m c ((U6_from1 m c main_v27 (by decide)).trans (f1_v27 m c)) ((U6_from1 m c main_v1 (by decide)).trans (f1_v1 m c)) ((U6_from1 m c main_v3 (by decide)).trans (f1_v3 m c))
theorem f8_v144 (c : Dev nD) : U8 m c (Proc.devRef .tc main_v144) = val_main_v144 (F := F) (m ((c.tc : Thread nD τ).loc main_arg0)) (m ((c.tc : Thread nD τ).loc main_arg1)) :=
  u8_v144 m c ((U7_from1 m c main_v27 (by decide)).trans (f1_v27 m c)) ((U7_from1 m c main_v1 (by decide)).trans (f1_v1 m c)) (f7_v131 m c) ((U7_from1 m c main_v3 (by decide)).trans (f1_v3 m c))
theorem f9_v157 (c : Dev nD) : U9 m c (Proc.devRef .tc main_v157) = val_main_v157 (F := F) (m ((c.tc : Thread nD τ).loc main_arg0)) (m ((c.tc : Thread nD τ).loc main_arg1)) :=
  u9_v157 m c ((U8_from1 m c main_v27 (by decide)).trans (f1_v27 m c)) ((U8_from1 m c main_v1 (by decide)).trans (f1_v1 m c)) (f8_v144 m c) ((U8_from1 m c main_v3 (by decide)).trans (f1_v3 m c))
theorem f10_v158 (c : Dev nD) : U10 m c (Proc.devRef .tc main_v158) = val_main_v158 (F := F) (m ((c.tc : Thread nD τ).loc main_arg0)) (m ((c.tc : Thread nD τ).loc main_arg1)) :=
  u10_v158 m c (f9_v157 m c) ((U9_from8 m c main_v144 (by decide)).trans (f8_v144 m c)) ((U9_from7 m c main_v131 (by decide)).trans (f7_v131 m c))
theorem f11_v169 (c : Dev nD) : U11 m c (Proc.devRef .tc main_v169) = val_main_v169 (F := F) (m ((c.tc : Thread nD τ).loc main_arg0)) (m ((c.tc : Thread nD τ).loc main_arg1)) (m ((c.tc : Thread nD τ).loc main_arg11)) (m ((c.tc : Thread nD τ).loc main_arg12)) :=
  u11_v169 m c (f10_v158 m c)
theorem f12_v182 (c : Dev nD) : U12 m c (Proc.devRef .tc main_v182) = val_main_v182 (F := F) (m ((c.tc : Thread nD τ).loc main_arg0)) (m ((c.tc : Thread nD τ).loc main_arg1)) (m ((c.tc : Thread nD τ).loc main_arg11)) (m ((c.tc : Thread nD τ).loc main_arg12)) :=
  u12_v182 m c ((U11_from1 m c main_v27 (by decide)).trans (f1_v27 m c)) ((U11_from1 m c main_v1 (by decide)).trans (f1_v1 m c)) (f11_v169 m c) ((U11_from1 m c main_v3 (by decide)).trans (f1_v3 m c))
theorem f13_v195 (c : Dev nD) : U13 m c (Proc.devRef .tc main_v195) = val_main_v195 (F := F) (m ((c.tc : Thread nD τ).loc main_arg0)) (m ((c.tc : Thread nD τ).loc main_arg1)) (m ((c.tc : Thread nD τ).loc main_arg11)) (m ((c.tc : Thread nD τ).loc main_arg12)) :=
  u13_v195 m c ((U12_from1 m c main_v27 (by decide)).trans (f1_v27 m c)) ((U12_from1 m c main_v1 (by decide)).trans (f1_v1 m c)) (f12_v182 m c) ((U12_from1 m c main_v3 (by decide)).trans (f1_v3 m c))
theorem f14_v208 (c : Dev nD) : U14 m c (Proc.devRef .tc main_v208) = val_main_v208 (F := F) (m ((c.tc : Thread nD τ).loc main_arg0)) (m ((c.tc : Thread nD τ).loc main_arg1)) (m ((c.tc : Thread nD τ).loc main_arg11)) (m ((c.tc : Thread nD τ).loc main_arg12)) :=
  u14_v208 m c ((U13_from1 m c main_v27 (by decide)).trans (f1_v27 m c)) ((U13_from1 m c main_v1 (by decide)).trans (f1_v1 m c)) (f13_v195 m c) ((U13_from1 m c main_v3 (by decide)).trans (f1_v3 m c))
theorem f15_v209 (c : Dev nD) : U15 m c (Proc.devRef .tc main_v209) = val_main_v209 (F := F) (m ((c.tc : Thread nD τ).loc main_arg0)) (m ((c.tc : Thread nD τ).loc main_arg1)) (m ((c.tc : Thread nD τ).loc main_arg11)) (m ((c.tc : Thread nD τ).loc main_arg12)) :=
  u15_v209 m c (f14_v208 m c) ((U14_from13 m c main_v195 (by decide)).trans (f13_v195 m c)) ((U14_from12 m c main_v182 (by decide)).trans (f12_v182 m c)) ((U14_from11 m c main_v169 (by decide)).trans (f11_v169 m c))
theorem f16_v215 (c : Dev nD) : U16 m c (Proc.devRef .tc main_v215) = val_main_v215 (F := F) (m ((c.tc : Thread nD τ).loc main_arg0)) (m ((c.tc : Thread nD τ).loc main_arg1)) (m ((c.tc : Thread nD τ).loc main_arg11)) (m ((c.tc : Thread nD τ).loc main_arg12)) (m ((c.tc : Thread nD τ).loc main_arg13)) (m ((c.tc : Thread nD τ).loc main_arg14)) :=
  u16_v215 m c (f15_v209 m c)
theorem f17_v228 (c : Dev nD) : U17 m c (Proc.devRef .tc main_v228) = val_main_v228 (F := F) (m ((c.tc : Thread nD τ).loc main_arg0)) (m ((c.tc : Thread nD τ).loc main_arg1)) :=
  u17_v228 m c ((U16_from1 m c main_v27 (by decide)).trans (f1_v27 m c)) ((U16_from1 m c main_v1 (by decide)).trans (f1_v1 m c)) ((U16_from1 m c main_v3 (by decide)).trans (f1_v3 m c))
theorem f18_v241 (c : Dev nD) : U18 m c (Proc.devRef .tc main_v241) = val_main_v241 (F := F) (m ((c.tc : Thread nD τ).loc main_arg0)) (m ((c.tc : Thread nD τ).loc main_arg1)) :=
  u18_v241 m c ((U17_from1 m c main_v27 (by decide)).trans (f1_v27 m c)) ((U17_from1 m c main_v1 (by decide)).trans (f1_v1 m c)) (f17_v228 m c) ((U17_from1 m c main_v3 (by decide)).trans (f1_v3 m c))
theorem f19_v254 (c : Dev nD) : U19 m c (Proc.devRef .tc main_v254) = val_main_v254 (F := F) (m ((c.tc : Thread nD τ).loc main_arg0)) (m ((c.tc : Thread nD τ).loc main_arg1)) :=
  u19_v254 m c ((U18_from1 m c main_v27 (by decide)).trans (f1_v27 m c)) ((U18_from1 m c main_v1 (by decide)).trans (f1_v1 m c)) (f18_v241 m c) ((U18_from1 m c main_v3 (by decide)).trans (f1_v3 m c))
theorem f20_v267 (c : Dev nD) : U20 m c (Proc.devRef .tc main_v267) = val_main_v267 (F := F) (m ((c.tc : Thread nD τ).loc main_arg0)) (m ((c.tc : Thread nD τ).loc main_arg1)) :=
  u20_v267 m c ((U19_from1 m c main_v27 (by decide)).trans (f1_v27 m c)) ((U19_from1 m c main_v1 (by decide)).trans (f1_v1 m c)) (f19_v254 m c) ((U19_from1 m c main_v3 (by decide)).trans (f1_v3 m c))
theorem f21_v280 (c : Dev nD) : U21 m c (Proc.devRef .tc main_v280) = val_main_v280 (F := F) (m ((c.tc : Thread nD τ).loc main_arg0)) (m ((c.tc : Thread nD τ).loc main_arg1)) :=
  u21_v280 m c ((U20_from1 m c main_v27 (by decide)).trans (f1_v27 m c)) ((U20_from1 m c main_v1 (by decide)).trans (f1_v1 m c)) (f20_v267 m c) ((U20_from1 m c main_v3 (by decide)).trans (f1_v3 m c))
theorem f22_v293 (c : Dev nD) : U22 m c (Proc.devRef .tc main_v293) = val_main_v293 (F := F) (m ((c.tc : Thread nD τ).loc main_arg0)) (m ((c.tc : Thread nD τ).loc main_arg1)) :=
  u22_v293 m c ((U21_from1 m c main_v27 (by decide)).trans (f1_v27 m c)) ((U21_from1 m c main_v1 (by decide)).trans (f1_v1 m c)) (f21_v280 m c) ((U21_from1 m c main_v3 (by decide)).trans (f1_v3 m c))
theorem f23_v294 (c : Dev nD) : U23 m c (Proc.devRef .tc main_v294) = val_main_v294 (F := F) (m ((c.tc : Thread nD τ).loc main_arg0)) (m ((c.tc : Thread nD τ).loc main_arg1)) :=
  u23_v294 m c (f22_v293 m c) ((U22_from21 m c main_v280 (by decide)).trans (f21_v280 m c)) ((U22_from20 m c main_v267 (by decide)).trans (f20_v267 m c)) ((U22_from19 m c main_v254 (by decide)).trans (f19_v254 m c)) ((U22_from18 m c main_v241 (by decide)).trans (f18_v241 m c)) ((U22_from17 m c main_v228 (by decide)).trans (f17_v228 m c))
theorem f24_v305 (c : Dev nD) : U24 m c (Proc.devRef .tc main_v305) = val_main_v305 (F := F) (m ((c.tc : Thread nD τ).loc main_arg0)) (m ((c.tc : Thread nD τ).loc main_arg1)) (m ((c.tc : Thread nD τ).loc main_arg15)) (m ((c.tc : Thread nD τ).loc main_arg16)) :=
  u24_v305 m c (f23_v294 m c)
theorem f25_v318 (c : Dev nD) : U25 m c (Proc.devRef .tc main_v318) = val_main_v318 (F := F) (m ((c.tc : Thread nD τ).loc main_arg0)) (m ((c.tc : Thread nD τ).loc main_arg1)) (m ((c.tc : Thread nD τ).loc main_arg15)) (m ((c.tc : Thread nD τ).loc main_arg16)) :=
  u25_v318 m c ((U24_from1 m c main_v27 (by decide)).trans (f1_v27 m c)) ((U24_from1 m c main_v1 (by decide)).trans (f1_v1 m c)) (f24_v305 m c) ((U24_from1 m c main_v3 (by decide)).trans (f1_v3 m c))
theorem f26_v331 (c : Dev nD) : U26 m c (Proc.devRef .tc main_v331) = val_main_v331 (F := F) (m ((c.tc : Thread nD τ).loc main_arg0)) (m ((c.tc : Thread nD τ).loc main_arg1)) (m ((c.tc : Thread nD τ).loc main_arg15)) (m ((c.tc : Thread nD τ).loc main_arg16)) :=
  u26_v331 m c ((U25_from1 m c main_v27 (by decide)).trans (f1_v27 m c)) ((U25_from1 m c main_v1 (by decide)).trans (f1_v1 m c)) (f25_v318 m c) ((U25_from1 m c main_v3 (by decide)).trans (f1_v3 m c))
theorem f27_v344 (c : Dev nD) : U27 m c (Proc.devRef .tc main_v344) = val_main_v344 (F := F) (m ((c.tc : Thread nD τ).loc main_arg0)) (m ((c.tc : Thread nD τ).loc main_arg1)) (m ((c.tc : Thread nD τ).loc main_arg15)) (m ((c.tc : Thread nD τ).loc main_arg16)) :=
  u27_v344 m c ((U26_from1 m c main_v27 (by decide)).trans (f1_v27 m c)) ((U26_from1 m c main_v1 (by decide)).trans (f1_v1 m c)) (f26_v331 m c) ((U26_from1 m c main_v3 (by decide)).trans (f1_v3 m c))
theorem f28_v357 (c : Dev nD) : U28 m c (Proc.devRef .tc main_v357) = val_main_v357 (F := F) (m ((c.tc : Thread nD τ).loc main_arg0)) (m ((c.tc : Thread nD τ).loc main_arg1)) (m ((c.tc : Thread nD τ).loc main_arg15)) (m ((c.tc : Thread nD τ).loc main_arg16)) :=
  u28_v357 m c ((U27_from1 m c main_v27 (by decide)).trans (f1_v27 m c)) ((U27_from1 m c main_v1 (by decide)).trans (f1_v1 m c)) (f27_v344 m c) ((U27_from1 m c main_v3 (by decide)).trans (f1_v3 m c))
theorem f29_v370 (c : Dev nD) : U29 m c (Proc.devRef .tc main_v370) = val_main_v370 (F := F) (m ((c.tc : Thread nD τ).loc main_arg0)) (m ((c.tc : Thread nD τ).loc main_arg1)) (m ((c.tc : Thread nD τ).loc main_arg15)) (m ((c.tc : Thread nD τ).loc main_arg16)) :=
  u29_v370 m c ((U28_from1 m c main_v27 (by decide)).trans (f1_v27 m c)) ((U28_from1 m c main_v1 (by decide)).trans (f1_v1 m c)) (f28_v357 m c) ((U28_from1 m c main_v3 (by decide)).trans (f1_v3 m c))
theorem f30_v383 (c : Dev nD) : U30 m c (Proc.devRef .tc main_v383) = val_main_v383 (F := F) (m ((c.tc : Thread nD τ).loc main_arg0)) (m ((c.tc : Thread nD τ).loc main_arg1)) (m ((c.tc : Thread nD τ).loc main_arg15)) (m ((c.tc : Thread nD τ).loc main_arg16)) :=
  u30_v383 m c ((U29_from1 m c main_v27 (by decide)).trans (f1_v27 m c)) ((U29_from1 m c main_v1 (by decide)).trans (f1_v1 m c)) (f29_v370 m c) ((U29_from1 m c main_v3 (by decide)).trans (f1_v3 m c))
theorem f31_v384 (c : Dev nD) : U31 m c (Proc.devRef .tc main_v384) = val_main_v384 (F := F) (m ((c.tc : Thread nD τ).loc main_arg0)) (m ((c.tc : Thread nD τ).loc main_arg1)) (m ((c.tc : Thread nD τ).loc main_arg15)) (m ((c.tc : Thread nD τ).loc main_arg16)) :=
  u31_v384 m c (f30_v383 m c) ((U30_from29 m c main_v370 (by decide)).trans (f29_v370 m c)) ((U30_from28 m c main_v357 (by decide)).trans (f28_v357 m c)) ((U30_from27 m c main_v344 (by decide)).trans (f27_v344 m c)) ((U30_from26 m c main_v331 (by decide)).trans (f26_v331 m c)) ((U30_from25 m c main_v318 (by decide)).trans (f25_v318 m c)) ((U30_from24 m c main_v305 (by decide)).trans (f24_v305 m c))
theorem f32_v390 (c : Dev nD) : U32 m c (Proc.devRef .tc main_v390) = val_main_v390 (F := F) (m ((c.tc : Thread nD τ).loc main_arg0)) (m ((c.tc : Thread nD τ).loc main_arg1)) (m ((c.tc : Thread nD τ).loc main_arg15)) (m ((c.tc : Thread nD τ).loc main_arg16)) (m ((c.tc : Thread nD τ).loc main_arg17)) (m ((c.tc : Thread nD τ).loc main_arg18)) :=
  u32_v390 m c (f31_v384 m c)
theorem f33_v391 (c : Dev nD) : U33 m c (Proc.devRef .tc main_v391) = val_main_v391 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) :=
  u33_v391 m c (f32_v390 m c) ((U32_from16 m c main_v215 (by decide)).trans (f16_v215 m c)) ((U32_from6 m c main_v118 (by decide)).trans (f6_v118 m c))
theorem f34_v397 (c : Dev nD) : U34 m c (Proc.devRef .tc main_v397) = val_main_v397 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) :=
  u34_v397 m c (f33_v391 m c)

/-! ## The run -/

set_option maxHeartbeats 0 in
/-- From any memory with zero counters every weakly fair execution of the reference terminates, nothing faulting;
    the result buffer ends at the result stage of the arguments, and every argument ends as launched. -/
theorem run (ρ : Dev nD → PrngReg) :
    θ_run defs (onTc (τ := τ) (main (F := F))) ⟨m, fun _ => 0, ρ⟩ fun r => ∀ c : Dev nD,
      r.2.mem ((c.tc : Thread nD τ).loc main_v397) = val_main_v397 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20) :=
  (θ_run defs _ _).mono (fun _ h c => ⟨(h c main_v397).trans ((congrFun (after_ops m c) _).trans (f34_v397 m c)),
      (h c main_arg0).trans ((congrFun (after_ops m c) _).trans (U34_arg m c main_arg0 (by decide))),
      (h c main_arg1).trans ((congrFun (after_ops m c) _).trans (U34_arg m c main_arg1 (by decide))),
      (h c main_arg2).trans ((congrFun (after_ops m c) _).trans (U34_arg m c main_arg2 (by decide))),
      (h c main_arg3).trans ((congrFun (after_ops m c) _).trans (U34_arg m c main_arg3 (by decide))),
      (h c main_arg4).trans ((congrFun (after_ops m c) _).trans (U34_arg m c main_arg4 (by decide))),
      (h c main_arg5).trans ((congrFun (after_ops m c) _).trans (U34_arg m c main_arg5 (by decide))),
      (h c main_arg6).trans ((congrFun (after_ops m c) _).trans (U34_arg m c main_arg6 (by decide))),
      (h c main_arg7).trans ((congrFun (after_ops m c) _).trans (U34_arg m c main_arg7 (by decide))),
      (h c main_arg8).trans ((congrFun (after_ops m c) _).trans (U34_arg m c main_arg8 (by decide))),
      (h c main_arg9).trans ((congrFun (after_ops m c) _).trans (U34_arg m c main_arg9 (by decide))),
      (h c main_arg10).trans ((congrFun (after_ops m c) _).trans (U34_arg m c main_arg10 (by decide))),
      (h c main_arg11).trans ((congrFun (after_ops m c) _).trans (U34_arg m c main_arg11 (by decide))),
      (h c main_arg12).trans ((congrFun (after_ops m c) _).trans (U34_arg m c main_arg12 (by decide))),
      (h c main_arg13).trans ((congrFun (after_ops m c) _).trans (U34_arg m c main_arg13 (by decide))),
      (h c main_arg14).trans ((congrFun (after_ops m c) _).trans (U34_arg m c main_arg14 (by decide))),
      (h c main_arg15).trans ((congrFun (after_ops m c) _).trans (U34_arg m c main_arg15 (by decide))),
      (h c main_arg16).trans ((congrFun (after_ops m c) _).trans (U34_arg m c main_arg16 (by decide))),
      (h c main_arg17).trans ((congrFun (after_ops m c) _).trans (U34_arg m c main_arg17 (by decide))),
      (h c main_arg18).trans ((congrFun (after_ops m c) _).trans (U34_arg m c main_arg18 (by decide))),
      (h c main_arg19).trans ((congrFun (after_ops m c) _).trans (U34_arg m c main_arg19 (by decide))),
      (h c main_arg20).trans ((congrFun (after_ops m c) _).trans (U34_arg m c main_arg20 (by decide)))⟩)
    (run_seq scopedRefs_eq scopedSems_eq defs main (fun _ => ops) main_eq (fun _ => ops_sub) m ρ)

end Cert.ReferenceIdeal.HandRun

end
-- ==== Proof.lean ====
/-
  The certificate of a graph network — three SAGE layers, two TAG branches of two layers each and a final linear
  layer over 100000 nodes and 1600000 edges — whose eight dense layers run as pipelines over blocks of 5000 rows,
  against the same network written with plain array operations.

  Frames. The program is eighteen stretches: ten lines of host operations and the eight pipelines. Each pipeline's
  body loads its three blocks, stores one block, and touches nothing else; no stretch writes an argument. So every
  weakly fair execution terminates without a fault and leaves the arguments as launched, at the word level and at
  the exact instance alike. The reference is one line of host operations, whose run is the fold of its operations, read window by window.

  Values, over the extended reals. A dense layer is  act (x · w + b)  with act the logistic function or the
  rectifier. In the kernel the matrix unit multiplies bf16-cast operands into a zero accumulator, which at the
  exact instance is the plain sum over the contracted axis; a block of 5000 rows of the layer is the layer of the
  block, and the twenty blocks cover the array, so each pipeline's result is the layer of its three whole arrays.
  For a SAGE layer the kernel multiplies the mean aggregation joined column-wise with the layer's input by the
  two weight matrices joined the same way, where the reference adds the two products: a sum over K + K columns
  is the sum over the first K plus the sum over the last K, which needs only that addition of extended reals is
  commutative and associative. The logistic function the kernel applies is, by definition at the exact instance,
  the quotient 1 / (1 + e^(-a)) the reference spells out. Everything between the dense layers — the degree
  normalisation, the gathers along edges and the scatter-additions into nodes — is the same operations applied
  to equal values. No finiteness of the inputs is used.
-/
import proofs.«101217_j35820027249494_1_alg».proof.Defs
import proofs.«101217_j35820027249494_1_alg».proof.Proof.Gen.Kernel
import proofs.«101217_j35820027249494_1_alg».proof.Proof.Gen.KernelIdeal
import proofs.«101217_j35820027249494_1_alg».proof.Proof.Gen.ReferenceIdeal
import proofs.«101217_j35820027249494_1_alg».proof.Proof.Gen.Pre_finite_inputs
import proofs.«101217_j35820027249494_1_alg».proof.Proof.K.Run
import proofs.«101217_j35820027249494_1_alg».proof.Proof.KI.Run
import proofs.«101217_j35820027249494_1_alg».proof.Proof.KI.Out
import proofs.«101217_j35820027249494_1_alg».proof.Proof.RefRun
import Idealize.ShloMosaic.Adequacy
import Idealize.ShloMosaic.Init

set_option maxRecDepth 16384

noncomputable section

namespace Cert.Proof

open Idealize.ShloMosaic Idealize.ShloMosaic.TcCoe Idealize.SL.Sem

/-- The word-level program runs to the end, faults nowhere and leaves its arguments as launched. -/
theorem frame_k : Cert.frame_Kernel := fun m ρ _ =>
  (θ_run (Cert.Kernel.defs (F := Bits)) _ _).mono (fun r h c => ⟨
      (h c _ (Cert.Kernel.Hand.mem_uc Cert.Kernel.main_arg0 (by decide))).trans (Cert.Kernel.Hand.final_arg m ρ c Cert.Kernel.main_arg0 (by decide)),
      (h c _ (Cert.Kernel.Hand.mem_uc Cert.Kernel.main_arg1 (by decide))).trans (Cert.Kernel.Hand.final_arg m ρ c Cert.Kernel.main_arg1 (by decide)),
      (h c _ (Cert.Kernel.Hand.mem_uc Cert.Kernel.main_arg2 (by decide))).trans (Cert.Kernel.Hand.final_arg m ρ c Cert.Kernel.main_arg2 (by decide)),
      (h c _ (Cert.Kernel.Hand.mem_uc Cert.Kernel.main_arg3 (by decide))).trans (Cert.Kernel.Hand.final_arg m ρ c Cert.Kernel.main_arg3 (by decide)),
      (h c _ (Cert.Kernel.Hand.mem_uc Cert.Kernel.main_arg4 (by decide))).trans (Cert.Kernel.Hand.final_arg m ρ c Cert.Kernel.main_arg4 (by decide)),
      (h c _ (Cert.Kernel.Hand.mem_uc Cert.Kernel.main_arg5 (by decide))).trans (Cert.Kernel.Hand.final_arg m ρ c Cert.Kernel.main_arg5 (by decide)),
      (h c _ (Cert.Kernel.Hand.mem_uc Cert.Kernel.main_arg6 (by decide))).trans (Cert.Kernel.Hand.final_arg m ρ c Cert.Kernel.main_arg6 (by decide)),
      (h c _ (Cert.Kernel.Hand.mem_uc Cert.Kernel.main_arg7 (by decide))).trans (Cert.Kernel.Hand.final_arg m ρ c Cert.Kernel.main_arg7 (by decide)),
      (h c _ (Cert.Kernel.Hand.mem_uc Cert.Kernel.main_arg8 (by decide))).trans (Cert.Kernel.Hand.final_arg m ρ c Cert.Kernel.main_arg8 (by decide)),
      (h c _ (Cert.Kernel.Hand.mem_uc Cert.Kernel.main_arg9 (by decide))).trans (Cert.Kernel.Hand.final_arg m ρ c Cert.Kernel.main_arg9 (by decide)),
      (h c _ (Cert.Kernel.Hand.mem_uc Cert.Kernel.main_arg10 (by decide))).trans (Cert.Kernel.Hand.final_arg m ρ c Cert.Kernel.main_arg10 (by decide)),
      (h c _ (Cert.Kernel.Hand.mem_uc Cert.Kernel.main_arg11 (by decide))).trans (Cert.Kernel.Hand.final_arg m ρ c Cert.Kernel.main_arg11 (by decide)),
      (h c _ (Cert.Kernel.Hand.mem_uc Cert.Kernel.main_arg12 (by decide))).trans (Cert.Kernel.Hand.final_arg m ρ c Cert.Kernel.main_arg12 (by decide)),
      (h c _ (Cert.Kernel.Hand.mem_uc Cert.Kernel.main_arg13 (by decide))).trans (Cert.Kernel.Hand.final_arg m ρ c Cert.Kernel.main_arg13 (by decide)),
      (h c _ (Cert.Kernel.Hand.mem_uc Cert.Kernel.main_arg14 (by decide))).trans (Cert.Kernel.Hand.final_arg m ρ c Cert.Kernel.main_arg14 (by decide)),
      (h c _ (Cert.Kernel.Hand.mem_uc Cert.Kernel.main_arg15 (by decide))).trans (Cert.Kernel.Hand.final_arg m ρ c Cert.Kernel.main_arg15 (by decide)),
      (h c _ (Cert.Kernel.Hand.mem_uc Cert.Kernel.main_arg16 (by decide))).trans (Cert.Kernel.Hand.final_arg m ρ c Cert.Kernel.main_arg16 (by decide)),
      (h c _ (Cert.Kernel.Hand.mem_uc Cert.Kernel.main_arg17 (by decide))).trans (Cert.Kernel.Hand.final_arg m ρ c Cert.Kernel.main_arg17 (by decide)),
      (h c _ (Cert.Kernel.Hand.mem_uc Cert.Kernel.main_arg18 (by decide))).trans (Cert.Kernel.Hand.final_arg m ρ c Cert.Kernel.main_arg18 (by decide)),
      (h c _ (Cert.Kernel.Hand.mem_uc Cert.Kernel.main_arg19 (by decide))).trans (Cert.Kernel.Hand.final_arg m ρ c Cert.Kernel.main_arg19 (by decide)),
      (h c _ (Cert.Kernel.Hand.mem_uc Cert.Kernel.main_arg20 (by decide))).trans (Cert.Kernel.Hand.final_arg m ρ c Cert.Kernel.main_arg20 (by decide))⟩)
    (Cert.Kernel.Hand.run_all (F := Bits) m ρ)

/-- So does the program at the exact instance. -/
theorem frame_ki : Cert.frame_KernelIdeal := fun m ρ _ =>
  (θ_run (Cert.KernelIdeal.defs (F := Ideal)) _ _).mono (fun r h c => ⟨
      (h c _ (Cert.KernelIdeal.Hand.mem_uc Cert.KernelIdeal.main_arg0 (by decide))).trans (Cert.KernelIdeal.Hand.final_arg m ρ c Cert.KernelIdeal.main_arg0 (by decide)),
      (h c _ (Cert.KernelIdeal.Hand.mem_uc Cert.KernelIdeal.main_arg1 (by decide))).trans (Cert.KernelIdeal.Hand.final_arg m ρ c Cert.KernelIdeal.main_arg1 (by decide)),
      (h c _ (Cert.KernelIdeal.Hand.mem_uc Cert.KernelIdeal.main_arg2 (by decide))).trans (Cert.KernelIdeal.Hand.final_arg m ρ c Cert.KernelIdeal.main_arg2 (by decide)),
      (h c _ (Cert.KernelIdeal.Hand.mem_uc Cert.KernelIdeal.main_arg3 (by decide))).trans (Cert.KernelIdeal.Hand.final_arg m ρ c Cert.KernelIdeal.main_arg3 (by decide)),
      (h c _ (Cert.KernelIdeal.Hand.mem_uc Cert.KernelIdeal.main_arg4 (by decide))).trans (Cert.KernelIdeal.Hand.final_arg m ρ c Cert.KernelIdeal.main_arg4 (by decide)),
      (h c _ (Cert.KernelIdeal.Hand.mem_uc Cert.KernelIdeal.main_arg5 (by decide))).trans (Cert.KernelIdeal.Hand.final_arg m ρ c Cert.KernelIdeal.main_arg5 (by decide)),
      (h c _ (Cert.KernelIdeal.Hand.mem_uc Cert.KernelIdeal.main_arg6 (by decide))).trans (Cert.KernelIdeal.Hand.final_arg m ρ c Cert.KernelIdeal.main_arg6 (by decide)),
      (h c _ (Cert.KernelIdeal.Hand.mem_uc Cert.KernelIdeal.main_arg7 (by decide))).trans (Cert.KernelIdeal.Hand.final_arg m ρ c Cert.KernelIdeal.main_arg7 (by decide)),
      (h c _ (Cert.KernelIdeal.Hand.mem_uc Cert.KernelIdeal.main_arg8 (by decide))).trans (Cert.KernelIdeal.Hand.final_arg m ρ c Cert.KernelIdeal.main_arg8 (by decide)),
      (h c _ (Cert.KernelIdeal.Hand.mem_uc Cert.KernelIdeal.main_arg9 (by decide))).trans (Cert.KernelIdeal.Hand.final_arg m ρ c Cert.KernelIdeal.main_arg9 (by decide)),
      (h c _ (Cert.KernelIdeal.Hand.mem_uc Cert.KernelIdeal.main_arg10 (by decide))).trans (Cert.KernelIdeal.Hand.final_arg m ρ c Cert.KernelIdeal.main_arg10 (by decide)),
      (h c _ (Cert.KernelIdeal.Hand.mem_uc Cert.KernelIdeal.main_arg11 (by decide))).trans (Cert.KernelIdeal.Hand.final_arg m ρ c Cert.KernelIdeal.main_arg11 (by decide)),
      (h c _ (Cert.KernelIdeal.Hand.mem_uc Cert.KernelIdeal.main_arg12 (by decide))).trans (Cert.KernelIdeal.Hand.final_arg m ρ c Cert.KernelIdeal.main_arg12 (by decide)),
      (h c _ (Cert.KernelIdeal.Hand.mem_uc Cert.KernelIdeal.main_arg13 (by decide))).trans (Cert.KernelIdeal.Hand.final_arg m ρ c Cert.KernelIdeal.main_arg13 (by decide)),
      (h c _ (Cert.KernelIdeal.Hand.mem_uc Cert.KernelIdeal.main_arg14 (by decide))).trans (Cert.KernelIdeal.Hand.final_arg m ρ c Cert.KernelIdeal.main_arg14 (by decide)),
      (h c _ (Cert.KernelIdeal.Hand.mem_uc Cert.KernelIdeal.main_arg15 (by decide))).trans (Cert.KernelIdeal.Hand.final_arg m ρ c Cert.KernelIdeal.main_arg15 (by decide)),
      (h c _ (Cert.KernelIdeal.Hand.mem_uc Cert.KernelIdeal.main_arg16 (by decide))).trans (Cert.KernelIdeal.Hand.final_arg m ρ c Cert.KernelIdeal.main_arg16 (by decide)),
      (h c _ (Cert.KernelIdeal.Hand.mem_uc Cert.KernelIdeal.main_arg17 (by decide))).trans (Cert.KernelIdeal.Hand.final_arg m ρ c Cert.KernelIdeal.main_arg17 (by decide)),
      (h c _ (Cert.KernelIdeal.Hand.mem_uc Cert.KernelIdeal.main_arg18 (by decide))).trans (Cert.KernelIdeal.Hand.final_arg m ρ c Cert.KernelIdeal.main_arg18 (by decide)),
      (h c _ (Cert.KernelIdeal.Hand.mem_uc Cert.KernelIdeal.main_arg19 (by decide))).trans (Cert.KernelIdeal.Hand.final_arg m ρ c Cert.KernelIdeal.main_arg19 (by decide)),
      (h c _ (Cert.KernelIdeal.Hand.mem_uc Cert.KernelIdeal.main_arg20 (by decide))).trans (Cert.KernelIdeal.Hand.final_arg m ρ c Cert.KernelIdeal.main_arg20 (by decide))⟩)
    (Cert.KernelIdeal.Hand.run_all (F := Ideal) m ρ)

/-- The reference's frame is its run with the result dropped. -/
theorem frame_ri : Cert.frame_ReferenceIdeal := fun m ρ _ =>
  (θ_run (Cert.ReferenceIdeal.defs (F := Ideal)) _ _).mono (fun _ h c => (h c).2) (Cert.ReferenceIdeal.HandRun.run (F := Ideal) m ρ)

/-- The exact-instance program is the word-level program's idealization with nothing rewritten. -/
theorem preserves : Cert.preserves_Kernel_KernelIdeal := trivial

/-- From memories that agree on the arguments both programs end with the same result array: the kernel's result
    buffer ends at the reference's result stage of its own arguments, the reference's at that stage of its own,
    and the arguments are equal. -/
theorem algebraic : Cert.algebraic_KernelIdeal_ReferenceIdeal := by
  intro m ρ m' ρ' _ hagree
  refine ⟨fun c => Cert.KernelIdeal.Hand.W18 m ρ c (Proc.devRef .tc Cert.KernelIdeal.main_v338), ?_, ?_⟩
  · exact (θ_run (Cert.KernelIdeal.defs (F := Ideal)) _ _).mono (fun r h c => ⟨
      h c _ (Cert.KernelIdeal.Hand.mem_uc Cert.KernelIdeal.main_v338 (by decide)),
      (h c _ (Cert.KernelIdeal.Hand.mem_uc Cert.KernelIdeal.main_arg0 (by decide))).trans (Cert.KernelIdeal.Hand.final_arg m ρ c Cert.KernelIdeal.main_arg0 (by decide)),
      (h c _ (Cert.KernelIdeal.Hand.mem_uc Cert.KernelIdeal.main_arg1 (by decide))).trans (Cert.KernelIdeal.Hand.final_arg m ρ c Cert.KernelIdeal.main_arg1 (by decide)),
      (h c _ (Cert.KernelIdeal.Hand.mem_uc Cert.KernelIdeal.main_arg2 (by decide))).trans (Cert.KernelIdeal.Hand.final_arg m ρ c Cert.KernelIdeal.main_arg2 (by decide)),
      (h c _ (Cert.KernelIdeal.Hand.mem_uc Cert.KernelIdeal.main_arg3 (by decide))).trans (Cert.KernelIdeal.Hand.final_arg m ρ c Cert.KernelIdeal.main_arg3 (by decide)),
      (h c _ (Cert.KernelIdeal.Hand.mem_uc Cert.KernelIdeal.main_arg4 (by decide))).trans (Cert.KernelIdeal.Hand.final_arg m ρ c Cert.KernelIdeal.main_arg4 (by decide)),
      (h c _ (Cert.KernelIdeal.Hand.mem_uc Cert.KernelIdeal.main_arg5 (by decide))).trans (Cert.KernelIdeal.Hand.final_arg m ρ c Cert.KernelIdeal.main_arg5 (by decide)),
      (h c _ (Cert.KernelIdeal.Hand.mem_uc Cert.KernelIdeal.main_arg6 (by decide))).trans (Cert.KernelIdeal.Hand.final_arg m ρ c Cert.KernelIdeal.main_arg6 (by decide)),
      (h c _ (Cert.KernelIdeal.Hand.mem_uc Cert.KernelIdeal.main_arg7 (by decide))).trans (Cert.KernelIdeal.Hand.final_arg m ρ c Cert.KernelIdeal.main_arg7 (by decide)),
      (h c _ (Cert.KernelIdeal.Hand.mem_uc Cert.KernelIdeal.main_arg8 (by decide))).trans (Cert.KernelIdeal.Hand.final_arg m ρ c Cert.KernelIdeal.main_arg8 (by decide)),
      (h c _ (Cert.KernelIdeal.Hand.mem_uc Cert.KernelIdeal.main_arg9 (by decide))).trans (Cert.KernelIdeal.Hand.final_arg m ρ c Cert.KernelIdeal.main_arg9 (by decide)),
      (h c _ (Cert.KernelIdeal.Hand.mem_uc Cert.KernelIdeal.main_arg10 (by decide))).trans (Cert.KernelIdeal.Hand.final_arg m ρ c Cert.KernelIdeal.main_arg10 (by decide)),
      (h c _ (Cert.KernelIdeal.Hand.mem_uc Cert.KernelIdeal.main_arg11 (by decide))).trans (Cert.KernelIdeal.Hand.final_arg m ρ c Cert.KernelIdeal.main_arg11 (by decide)),
      (h c _ (Cert.KernelIdeal.Hand.mem_uc Cert.KernelIdeal.main_arg12 (by decide))).trans (Cert.KernelIdeal.Hand.final_arg m ρ c Cert.KernelIdeal.main_arg12 (by decide)),
      (h c _ (Cert.KernelIdeal.Hand.mem_uc Cert.KernelIdeal.main_arg13 (by decide))).trans (Cert.KernelIdeal.Hand.final_arg m ρ c Cert.KernelIdeal.main_arg13 (by decide)),
      (h c _ (Cert.KernelIdeal.Hand.mem_uc Cert.KernelIdeal.main_arg14 (by decide))).trans (Cert.KernelIdeal.Hand.final_arg m ρ c Cert.KernelIdeal.main_arg14 (by decide)),
      (h c _ (Cert.KernelIdeal.Hand.mem_uc Cert.KernelIdeal.main_arg15 (by decide))).trans (Cert.KernelIdeal.Hand.final_arg m ρ c Cert.KernelIdeal.main_arg15 (by decide)),
      (h c _ (Cert.KernelIdeal.Hand.mem_uc Cert.KernelIdeal.main_arg16 (by decide))).trans (Cert.KernelIdeal.Hand.final_arg m ρ c Cert.KernelIdeal.main_arg16 (by decide)),
      (h c _ (Cert.KernelIdeal.Hand.mem_uc Cert.KernelIdeal.main_arg17 (by decide))).trans (Cert.KernelIdeal.Hand.final_arg m ρ c Cert.KernelIdeal.main_arg17 (by decide)),
      (h c _ (Cert.KernelIdeal.Hand.mem_uc Cert.KernelIdeal.main_arg18 (by decide))).trans (Cert.KernelIdeal.Hand.final_arg m ρ c Cert.KernelIdeal.main_arg18 (by decide)),
      (h c _ (Cert.KernelIdeal.Hand.mem_uc Cert.KernelIdeal.main_arg19 (by decide))).trans (Cert.KernelIdeal.Hand.final_arg m ρ c Cert.KernelIdeal.main_arg19 (by decide)),
      (h c _ (Cert.KernelIdeal.Hand.mem_uc Cert.KernelIdeal.main_arg20 (by decide))).trans (Cert.KernelIdeal.Hand.final_arg m ρ c Cert.KernelIdeal.main_arg20 (by decide))⟩)
      (Cert.KernelIdeal.Hand.run_all (F := Ideal) m ρ)
  · refine (θ_run (Cert.ReferenceIdeal.defs (F := Ideal)) _ _).mono (fun _ h c => ⟨(h c).1.trans ?_, (h c).2⟩)
      (Cert.ReferenceIdeal.HandRun.run (F := Ideal) m' ρ')
    rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2.1, (hagree c).2.2.2.2.2.2.2.2.2.2.2.2.2.2.2.1, (hagree c).2.2.2.2.2.2.2.2.2.2.2.2.2.2.2.2.1, (hagree c).2.2.2.2.2.2.2.2.2.2.2.2.2.2.2.2.2.1, (hagree c).2.2.2.2.2.2.2.2.2.2.2.2.2.2.2.2.2.2.1, (hagree c).2.2.2.2.2.2.2.2.2.2.2.2.2.2.2.2.2.2.2.1, (hagree c).2.2.2.2.2.2.2.2.2.2.2.2.2.2.2.2.2.2.2.2]
    exact (Cert.KernelIdeal.Hand.result_eq m ρ c).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
